-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v155)) (v1 : (c : Dev Cert.KernelIdeal.nD) → Buf (Elt Ideal) ((c.tc : Thread Cert.KernelIdeal.nD Cert.KernelIdeal.τ).loc Cert.KernelIdeal.main_v190)) (v2 : (c : Dev Cert.KernelIdeal.nD) → Buf (Elt Ideal) ((c.tc : Thread Cert.KernelIdeal.nD Cert.KernelIdeal.τ).loc Cert.KernelIdeal.main_v172)) (v3 : (c : Dev Cert.KernelIdeal.nD) → Buf (Elt Ideal) ((c.tc : Thread Cert.KernelIdeal.nD Cert.KernelIdeal.τ).loc Cert.KernelIdeal.main_v189)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_v190) = v1 c
          ∧ r.2.mem ((c.tc : Thread Cert.KernelIdeal.nD Cert.KernelIdeal.τ).loc Cert.KernelIdeal.main_v172) = v2 c
          ∧ r.2.mem ((c.tc : Thread Cert.KernelIdeal.nD Cert.KernelIdeal.τ).loc Cert.KernelIdeal.main_v189) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_v318) = v1 c
          ∧ r.2.mem ((c.tc : Thread Cert.ReferenceIdeal.nD Cert.ReferenceIdeal.τ).loc Cert.ReferenceIdeal.main_v296) = v2 c
          ∧ r.2.mem ((c.tc : Thread Cert.ReferenceIdeal.nD Cert.ReferenceIdeal.τ).loc Cert.ReferenceIdeal.main_v317) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x128 : Shape := ⟨2, ![50000, 128]⟩
abbrev S2x800000 : Shape := ⟨2, ![2, 800000]⟩
abbrev S128x256 : Shape := ⟨2, ![128, 256]⟩
abbrev S128 : Shape := ⟨1, ![128]⟩
abbrev S128x128 : Shape := ⟨2, ![128, 128]⟩
abbrev S64x128 : Shape := ⟨2, ![64, 128]⟩
abbrev S64 : Shape := ⟨1, ![64]⟩
abbrev S256x64 : Shape := ⟨2, ![256, 64]⟩
abbrev S256 : Shape := ⟨1, ![256]⟩
abbrev S128x64 : Shape := ⟨2, ![128, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S128x64 : S_.BroadcastsInDim S128x64 (![] : Fin 0 → Fin S128x64.rank)
  reducesTo_S128x64_S_d0_1 : S128x64.ReducesTo [0, 1] S_

variable [Facts]

def fn_part6 {F : FTy → Type} [FloatOps F] (main_arg24 : FVec F S128x64 .f32) (main_arg25 : FVec F S128 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S128x64 .f32 := Host.absf main_arg24
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  main_v113

def fn_part5 {F : FTy → Type} [FloatOps F] (main_arg21 : FVec F S64 .f32) (main_arg22 : FVec F S256x64 .f32) (main_arg23 : FVec F S256 .f32) (main_arg24 : FVec F S128x64 .f32) (main_arg25 : FVec F S128 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg21
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S256x64 .f32 := Host.absf main_arg22
  let main_cst_36 : FVec F S_ .f32 := constant S_ .f32 0x7F800000#32
  let main_v95 : FVec F S256x64 .f32 := broadcastInDim S256x64 ![] bcast_S_S256x64 main_cst_36
  let main_v96 : IVec S256x64 1 := cmpf .olt main_v94 main_v95
  let main_c_37 : IVec S_ 1 := constantI S_ 1 1#1
  let main_v97 : IVec S_ 1 := (fun x v => Host.reduce IntOp.andi x v reducesTo_S256x64_S_d0_1 h_S_) main_v96 main_c_37
  let main_v98 : IVec S_ 1 := andi main_v93 main_v97
  let main_v99 : FVec F S256 .f32 := Host.absf main_arg23
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg24 main_arg25 main_v98 main_v101 main_c_39

def fn_part4 {F : FTy → Type} [FloatOps F] (main_arg17 : FVec F S128 .f32) (main_arg18 : FVec F S64x128 .f32) (main_arg19 : FVec F S64 .f32) (main_arg20 : FVec F S64 .f32) (main_arg21 : FVec F S64 .f32) (main_arg22 : FVec F S256x64 .f32) (main_arg23 : FVec F S256 .f32) (main_arg24 : FVec F S128x64 .f32) (main_arg25 : FVec F S128 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg18
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg20
  let main_cst_32 : FVec F S_ .f32 := constant S_ .f32 0x7F800000#32
  fn_part5 (F := F) main_arg21 main_arg22 main_arg23 main_arg24 main_arg25 main_v83 main_v84 main_cst_32

def fn_part3 {F : FTy → Type} [FloatOps F] (main_arg14 : FVec F S128x256 .f32) (main_arg15 : FVec F S128 .f32) (main_arg16 : FVec F S128 .f32) (main_arg17 : FVec F S128 .f32) (main_arg18 : FVec F S64x128 .f32) (main_arg19 : FVec F S64 .f32) (main_arg20 : FVec F S64 .f32) (main_arg21 : FVec F S64 .f32) (main_arg22 : FVec F S256x64 .f32) (main_arg23 : FVec F S256 .f32) (main_arg24 : FVec F S128x64 .f32) (main_arg25 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg14
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_arg20 main_arg21 main_arg22 main_arg23 main_arg24 main_arg25 main_v63 main_v67

def fn_part2 {F : FTy → Type} [FloatOps F] (main_arg10 : FVec F S128x128 .f32) (main_arg11 : FVec F S128 .f32) (main_arg12 : FVec F S128 .f32) (main_arg13 : FVec F S128 .f32) (main_arg14 : FVec F S128x256 .f32) (main_arg15 : FVec F S128 .f32) (main_arg16 : FVec F S128 .f32) (main_arg17 : FVec F S128 .f32) (main_arg18 : FVec F S64x128 .f32) (main_arg19 : FVec F S64 .f32) (main_arg20 : FVec F S64 .f32) (main_arg21 : FVec F S64 .f32) (main_arg22 : FVec F S256x64 .f32) (main_arg23 : FVec F S256 .f32) (main_arg24 : FVec F S128x64 .f32) (main_arg25 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_arg22 main_arg23 main_arg24 main_arg25 main_v48 main_v49 main_v50

def fn_part1 {F : FTy → Type} [FloatOps F] (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x256 .f32) (main_arg15 : FVec F S128 .f32) (main_arg16 : FVec F S128 .f32) (main_arg17 : FVec F S128 .f32) (main_arg18 : FVec F S64x128 .f32) (main_arg19 : FVec F S64 .f32) (main_arg20 : FVec F S64 .f32) (main_arg21 : FVec F S64 .f32) (main_arg22 : FVec F S256x64 .f32) (main_arg23 : FVec F S256 .f32) (main_arg24 : FVec F S128x64 .f32) (main_arg25 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x256 .f32) (main_arg1 : FVec F S50000x128 .f32) (main_arg2 : FVec F S50000x256 .f32) (main_arg3 : IVec S2x800000 32) (main_arg4 : IVec S2x800000 32) (main_arg5 : IVec S2x800000 32) (main_arg6 : FVec F S128x256 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x256 .f32) (main_arg15 : FVec F S128 .f32) (main_arg16 : FVec F S128 .f32) (main_arg17 : FVec F S128 .f32) (main_arg18 : FVec F S64x128 .f32) (main_arg19 : FVec F S64 .f32) (main_arg20 : FVec F S64 .f32) (main_arg21 : FVec F S64 .f32) (main_arg22 : FVec F S256x64 .f32) (main_arg23 : FVec F S256 .f32) (main_arg24 : FVec F S128x64 .f32) (main_arg25 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S128x256 .f32 := Host.absf main_arg6
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x256 : Shape := ⟨2, ![50000, 256]⟩
abbrev S50000x128 : Shape := ⟨2, ![50000, 128]⟩
abbrev S2x800000 : Shape := ⟨2, ![2, 800000]⟩
abbrev S128x256 : Shape := ⟨2, ![128, 256]⟩
abbrev S128 : Shape := ⟨1, ![128]⟩
abbrev S128x128 : Shape := ⟨2, ![128, 128]⟩
abbrev S64x128 : Shape := ⟨2, ![64, 128]⟩
abbrev S64 : Shape := ⟨1, ![64]⟩
abbrev S256x64 : Shape := ⟨2, ![256, 64]⟩
abbrev S256 : Shape := ⟨1, ![256]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S256x128 : Shape := ⟨2, ![256, 128]⟩
abbrev S1x128 : Shape := ⟨2, ![1, 128]⟩
abbrev S5000x256 : Shape := ⟨2, ![5000, 256]⟩
abbrev S5000x128 : Shape := ⟨2, ![5000, 128]⟩
abbrev S800000x128 : Shape := ⟨2, ![800000, 128]⟩
abbrev S1x64 : Shape := ⟨2, ![1, 64]⟩
abbrev S50000x64 : Shape := ⟨2, ![50000, 64]⟩
abbrev S5000x64 : Shape := ⟨2, ![5000, 64]⟩
abbrev S800000x64 : Shape := ⟨2, ![800000, 64]⟩
abbrev S64x256 : Shape := ⟨2, ![64, 256]⟩
abbrev S1x256 : Shape := ⟨2, ![1, 256]⟩
abbrev S100000x64 : Shape := ⟨2, ![100000, 64]⟩

abbrev nBuf : Space → Nat
  | .hbm => 265
  | .vmem => 136
  | .smem => 0
  | _ => 0

abbrev hbmTy0_0 (i : Nat) : BufTy := match i % 128 with
  | 0 => ⟨S50000x256, .f32⟩
  | 1 => ⟨S50000x128, .f32⟩
  | 2 => ⟨S50000x256, .f32⟩
  | 3 => ⟨S2x800000, .i32⟩
  | 4 => ⟨S2x800000, .i32⟩
  | 5 => ⟨S2x800000, .i32⟩
  | 6 => ⟨S128x256, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x256, .f32⟩
  | 15 => ⟨S128, .f32⟩
  | 16 => ⟨S128, .f32⟩
  | 17 => ⟨S128, .f32⟩
  | 18 => ⟨S64x128, .f32⟩
  | 19 => ⟨S64, .f32⟩
  | 20 => ⟨S64, .f32⟩
  | 21 => ⟨S64, .f32⟩
  | 22 => ⟨S256x64, .f32⟩
  | 23 => ⟨S256, .f32⟩
  | 24 => ⟨S128x64, .f32⟩
  | 25 => ⟨S128, .f32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x256, .f32⟩
  | 37 => ⟨S1x800000, .i32⟩
  | 38 => ⟨S800000, .i32⟩
  | 39 => ⟨S_, .f32⟩
  | 40 => ⟨S50000x256, .f32⟩
  | 41 => ⟨S800000x1, .i32⟩
  | 42 => ⟨S50000x256, .f32⟩
  | 43 => ⟨S256x128, .f32⟩
  | 44 => ⟨S1x128, .f32⟩
  | 45 => ⟨S50000x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S1x128, .f32⟩
  | 56 => ⟨S1x128, .f32⟩
  | 57 => ⟨S1x128, .f32⟩
  | 58 => ⟨S50000x128, .f32⟩
  | 59 => ⟨S1x800000, .i32⟩
  | 60 => ⟨S800000, .i32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S1x800000, .i32⟩
  | 71 => ⟨S800000, .i32⟩
  | 72 => ⟨S_, .f32⟩
  | 73 => ⟨S50000x128, .f32⟩
  | 74 => ⟨S800000x1, .i32⟩
  | 75 => ⟨S50000x128, .f32⟩
  | 76 => ⟨S128x128, .f32⟩
  | 77 => ⟨S1x128, .f32⟩
  | 78 => ⟨S50000x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S50000x128, .f32⟩
  | 92 => ⟨S1x800000, .i32⟩
  | 93 => ⟨S800000, .i32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x256, .f32⟩
  | 103 => ⟨S1x800000, .i32⟩
  | 104 => ⟨S800000, .i32⟩
  | 105 => ⟨S_, .f32⟩
  | 106 => ⟨S50000x256, .f32⟩
  | 107 => ⟨S800000x1, .i32⟩
  | 108 => ⟨S50000x256, .f32⟩
  | 109 => ⟨S256x128, .f32⟩
  | 110 => ⟨S1x128, .f32⟩
  | 111 => ⟨S50000x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S1x128, .f32⟩
  | 124 => ⟨S50000x128, .f32⟩
  | 125 => ⟨S1x800000, .i32⟩
  | 126 => ⟨S800000, .i32⟩
  | 127 => ⟨S_, .i32⟩
  | _ => ⟨S50000x256, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S1x800000, .i32⟩
  | 9 => ⟨S800000, .i32⟩
  | 10 => ⟨S_, .f32⟩
  | 11 => ⟨S50000x128, .f32⟩
  | 12 => ⟨S800000x1, .i32⟩
  | 13 => ⟨S50000x128, .f32⟩
  | 14 => ⟨S128x64, .f32⟩
  | 15 => ⟨S1x64, .f32⟩
  | 16 => ⟨S50000x64, .f32⟩
  | 17 => ⟨S1x64, .f32⟩
  | 18 => ⟨S1x64, .f32⟩
  | 19 => ⟨S_, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S1x64, .f32⟩
  | 26 => ⟨S1x64, .f32⟩
  | 27 => ⟨S1x64, .f32⟩
  | 28 => ⟨S1x64, .f32⟩
  | 29 => ⟨S50000x64, .f32⟩
  | 30 => ⟨S1x800000, .i32⟩
  | 31 => ⟨S800000, .i32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S1x800000, .i32⟩
  | 42 => ⟨S800000, .i32⟩
  | 43 => ⟨S_, .f32⟩
  | 44 => ⟨S50000x128, .f32⟩
  | 45 => ⟨S800000x1, .i32⟩
  | 46 => ⟨S50000x128, .f32⟩
  | 47 => ⟨S128x64, .f32⟩
  | 48 => ⟨S1x64, .f32⟩
  | 49 => ⟨S50000x64, .f32⟩
  | 50 => ⟨S1x64, .f32⟩
  | 51 => ⟨S1x64, .f32⟩
  | 52 => ⟨S_, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S1x64, .f32⟩
  | 60 => ⟨S1x64, .f32⟩
  | 61 => ⟨S1x64, .f32⟩
  | 62 => ⟨S50000x64, .f32⟩
  | 63 => ⟨S1x800000, .i32⟩
  | 64 => ⟨S800000, .i32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S1x800000, .i32⟩
  | 75 => ⟨S800000, .i32⟩
  | 76 => ⟨S_, .f32⟩
  | 77 => ⟨S50000x128, .f32⟩
  | 78 => ⟨S800000x1, .i32⟩
  | 79 => ⟨S50000x128, .f32⟩
  | 80 => ⟨S128x64, .f32⟩
  | 81 => ⟨S1x64, .f32⟩
  | 82 => ⟨S50000x64, .f32⟩
  | 83 => ⟨S1x64, .f32⟩
  | 84 => ⟨S1x64, .f32⟩
  | 85 => ⟨S_, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S1x64, .f32⟩
  | 92 => ⟨S1x64, .f32⟩
  | 93 => ⟨S1x64, .f32⟩
  | 94 => ⟨S1x64, .f32⟩
  | 95 => ⟨S50000x64, .f32⟩
  | 96 => ⟨S1x800000, .i32⟩
  | 97 => ⟨S800000, .i32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S1x800000, .i32⟩
  | 108 => ⟨S800000, .i32⟩
  | 109 => ⟨S_, .f32⟩
  | 110 => ⟨S50000x64, .f32⟩
  | 111 => ⟨S800000x1, .i32⟩
  | 112 => ⟨S50000x64, .f32⟩
  | 113 => ⟨S64x256, .f32⟩
  | 114 => ⟨S1x256, .f32⟩
  | 115 => ⟨S50000x256, .f32⟩
  | 116 => ⟨S1x800000, .i32⟩
  | 117 => ⟨S800000, .i32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x64, .f32⟩
  | 127 => ⟨S1x800000, .i32⟩
  | _ => ⟨S50000x256, .f32⟩

abbrev hbmTy0_2 (i : Nat) : BufTy := match i % 128 with
  | 0 => ⟨S800000, .i32⟩
  | 1 => ⟨S_, .f32⟩
  | 2 => ⟨S50000x64, .f32⟩
  | 3 => ⟨S800000x1, .i32⟩
  | 4 => ⟨S50000x64, .f32⟩
  | 5 => ⟨S64x128, .f32⟩
  | 6 => ⟨S1x128, .f32⟩
  | 7 => ⟨S50000x128, .f32⟩
  | 8 => ⟨S100000x64, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev vmemTy0_0 (i : Nat) : BufTy := match i % 128 with
  | 0 => ⟨S5000x256, .f32⟩
  | 1 => ⟨S5000x256, .f32⟩
  | 2 => ⟨S5000x256, .f32⟩
  | 3 => ⟨S5000x256, .f32⟩
  | 4 => ⟨S256x128, .f32⟩
  | 5 => ⟨S1x128, .f32⟩
  | 6 => ⟨S5000x128, .f32⟩
  | 7 => ⟨S5000x128, .f32⟩
  | 8 => ⟨S1x128, .f32⟩
  | 9 => ⟨S1x128, .f32⟩
  | 10 => ⟨S1x128, .f32⟩
  | 11 => ⟨S1x128, .f32⟩
  | 12 => ⟨S5000x128, .f32⟩
  | 13 => ⟨S5000x128, .f32⟩
  | 14 => ⟨S1x128, .f32⟩
  | 15 => ⟨S1x128, .f32⟩
  | 16 => ⟨S1x128, .f32⟩
  | 17 => ⟨S1x128, .f32⟩
  | 18 => ⟨S5000x128, .f32⟩
  | 19 => ⟨S5000x128, .f32⟩
  | 20 => ⟨S5000x128, .f32⟩
  | 21 => ⟨S5000x128, .f32⟩
  | 22 => ⟨S5000x128, .f32⟩
  | 23 => ⟨S5000x128, .f32⟩
  | 24 => ⟨S128x128, .f32⟩
  | 25 => ⟨S1x128, .f32⟩
  | 26 => ⟨S5000x128, .f32⟩
  | 27 => ⟨S5000x128, .f32⟩
  | 28 => ⟨S1x128, .f32⟩
  | 29 => ⟨S1x128, .f32⟩
  | 30 => ⟨S1x128, .f32⟩
  | 31 => ⟨S1x128, .f32⟩
  | 32 => ⟨S5000x128, .f32⟩
  | 33 => ⟨S5000x128, .f32⟩
  | 34 => ⟨S1x128, .f32⟩
  | 35 => ⟨S1x128, .f32⟩
  | 36 => ⟨S1x128, .f32⟩
  | 37 => ⟨S1x128, .f32⟩
  | 38 => ⟨S5000x128, .f32⟩
  | 39 => ⟨S5000x128, .f32⟩
  | 40 => ⟨S5000x256, .f32⟩
  | 41 => ⟨S5000x256, .f32⟩
  | 42 => ⟨S5000x256, .f32⟩
  | 43 => ⟨S5000x256, .f32⟩
  | 44 => ⟨S256x128, .f32⟩
  | 45 => ⟨S1x128, .f32⟩
  | 46 => ⟨S5000x128, .f32⟩
  | 47 => ⟨S5000x128, .f32⟩
  | 48 => ⟨S1x128, .f32⟩
  | 49 => ⟨S1x128, .f32⟩
  | 50 => ⟨S1x128, .f32⟩
  | 51 => ⟨S1x128, .f32⟩
  | 52 => ⟨S5000x128, .f32⟩
  | 53 => ⟨S5000x128, .f32⟩
  | 54 => ⟨S1x128, .f32⟩
  | 55 => ⟨S1x128, .f32⟩
  | 56 => ⟨S1x128, .f32⟩
  | 57 => ⟨S1x128, .f32⟩
  | 58 => ⟨S5000x128, .f32⟩
  | 59 => ⟨S5000x128, .f32⟩
  | 60 => ⟨S5000x128, .f32⟩
  | 61 => ⟨S5000x128, .f32⟩
  | 62 => ⟨S5000x128, .f32⟩
  | 63 => ⟨S5000x128, .f32⟩
  | 64 => ⟨S128x64, .f32⟩
  | 65 => ⟨S1x64, .f32⟩
  | 66 => ⟨S5000x64, .f32⟩
  | 67 => ⟨S5000x64, .f32⟩
  | 68 => ⟨S1x64, .f32⟩
  | 69 => ⟨S1x64, .f32⟩
  | 70 => ⟨S1x64, .f32⟩
  | 71 => ⟨S1x64, .f32⟩
  | 72 => ⟨S5000x64, .f32⟩
  | 73 => ⟨S5000x64, .f32⟩
  | 74 => ⟨S1x64, .f32⟩
  | 75 => ⟨S1x64, .f32⟩
  | 76 => ⟨S1x64, .f32⟩
  | 77 => ⟨S1x64, .f32⟩
  | 78 => ⟨S5000x64, .f32⟩
  | 79 => ⟨S5000x64, .f32⟩
  | 80 => ⟨S5000x128, .f32⟩
  | 81 => ⟨S5000x128, .f32⟩
  | 82 => ⟨S5000x128, .f32⟩
  | 83 => ⟨S5000x128, .f32⟩
  | 84 => ⟨S128x64, .f32⟩
  | 85 => ⟨S1x64, .f32⟩
  | 86 => ⟨S5000x64, .f32⟩
  | 87 => ⟨S5000x64, .f32⟩
  | 88 => ⟨S1x64, .f32⟩
  | 89 => ⟨S1x64, .f32⟩
  | 90 => ⟨S1x64, .f32⟩
  | 91 => ⟨S1x64, .f32⟩
  | 92 => ⟨S5000x64, .f32⟩
  | 93 => ⟨S5000x64, .f32⟩
  | 94 => ⟨S1x64, .f32⟩
  | 95 => ⟨S1x64, .f32⟩
  | 96 => ⟨S1x64, .f32⟩
  | 97 => ⟨S1x64, .f32⟩
  | 98 => ⟨S5000x64, .f32⟩
  | 99 => ⟨S5000x64, .f32⟩
  | 100 => ⟨S5000x128, .f32⟩
  | 101 => ⟨S5000x128, .f32⟩
  | 102 => ⟨S5000x128, .f32⟩
  | 103 => ⟨S5000x128, .f32⟩
  | 104 => ⟨S128x64, .f32⟩
  | 105 => ⟨S1x64, .f32⟩
  | 106 => ⟨S5000x64, .f32⟩
  | 107 => ⟨S5000x64, .f32⟩
  | 108 => ⟨S1x64, .f32⟩
  | 109 => ⟨S1x64, .f32⟩
  | 110 => ⟨S1x64, .f32⟩
  | 111 => ⟨S1x64, .f32⟩
  | 112 => ⟨S5000x64, .f32⟩
  | 113 => ⟨S5000x64, .f32⟩
  | 114 => ⟨S1x64, .f32⟩
  | 115 => ⟨S1x64, .f32⟩
  | 116 => ⟨S1x64, .f32⟩
  | 117 => ⟨S1x64, .f32⟩
  | 118 => ⟨S5000x64, .f32⟩
  | 119 => ⟨S5000x64, .f32⟩
  | 120 => ⟨S5000x64, .f32⟩
  | 121 => ⟨S5000x64, .f32⟩
  | 122 => ⟨S5000x64, .f32⟩
  | 123 => ⟨S5000x64, .f32⟩
  | 124 => ⟨S64x256, .f32⟩
  | 125 => ⟨S1x256, .f32⟩
  | 126 => ⟨S5000x256, .f32⟩
  | 127 => ⟨S5000x256, .f32⟩
  | _ => ⟨S50000x256, .f32⟩

abbrev vmemTy0_1 (i : Nat) : BufTy := match i % 128 with
  | 0 => ⟨S5000x64, .f32⟩
  | 1 => ⟨S5000x64, .f32⟩
  | 2 => ⟨S5000x64, .f32⟩
  | 3 => ⟨S5000x64, .f32⟩
  | 4 => ⟨S64x128, .f32⟩
  | 5 => ⟨S1x128, .f32⟩
  | 6 => ⟨S5000x128, .f32⟩
  | 7 => ⟨S5000x128, .f32⟩
  | _ => ⟨S50000x256, .f32⟩

abbrev vmemTy (i : Nat) : BufTy := match i / 128 with
  | 0 => vmemTy0_0 i
  | 1 => vmemTy0_1 i
  | _ => ⟨S50000x256, .f32⟩

abbrev bufTy : (tb : Table) → Fin (tcTables nBuf tb) → BufTy
  | .hbm, ⟨i, _⟩ => hbmTy i
  | .local _ .vmem, ⟨i, _⟩ => vmemTy i
  | _, _ => ⟨S50000x256, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  ofTc nBuf bufTy 0 124 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16_0 : Ref sig .tc := ⟨.hbm, 45, rfl⟩
abbrev main_v16_1 : Ref sig .tc := ⟨.hbm, 46, rfl⟩
abbrev main_v16_2 : Ref sig .tc := ⟨.hbm, 47, rfl⟩
abbrev main_cst_1 : Ref sig .tc := ⟨.hbm, 48, rfl⟩
abbrev main_v17 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_3 : Ref sig .tc := ⟨.hbm, 61, rfl⟩
abbrev main_v28 : Ref sig .tc := ⟨.hbm, 62, rfl⟩
abbrev main_v29 : Ref sig .tc := ⟨.hbm, 63, rfl⟩
abbrev main_c_4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_5 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42_0 : Ref sig .tc := ⟨.hbm, 78, rfl⟩
abbrev main_v42_1 : Ref sig .tc := ⟨.hbm, 79, rfl⟩
abbrev main_v42_2 : Ref sig .tc := ⟨.hbm, 80, rfl⟩
abbrev main_cst_6 : Ref sig .tc := ⟨.hbm, 81, rfl⟩
abbrev main_v43 : Ref sig .tc := ⟨.hbm, 82, rfl⟩
abbrev main_v44 : Ref sig .tc := ⟨.hbm, 83, rfl⟩
abbrev main_cst_7 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c_8 : Ref sig .tc := ⟨.hbm, 94, rfl⟩
abbrev main_v54 : Ref sig .tc := ⟨.hbm, 95, rfl⟩
abbrev main_v55 : Ref sig .tc := ⟨.hbm, 96, rfl⟩
abbrev main_c_9 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_10 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68_0 : Ref sig .tc := ⟨.hbm, 111, rfl⟩
abbrev main_v68_1 : Ref sig .tc := ⟨.hbm, 112, rfl⟩
abbrev main_v68_2 : Ref sig .tc := ⟨.hbm, 113, rfl⟩
abbrev main_cst_11 : Ref sig .tc := ⟨.hbm, 114, rfl⟩
abbrev main_v69 : Ref sig .tc := ⟨.hbm, 115, rfl⟩
abbrev main_v70 : Ref sig .tc := ⟨.hbm, 116, rfl⟩
abbrev main_cst_12 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_13 : Ref sig .tc := ⟨.hbm, 127, rfl⟩
abbrev main_v80 : Ref sig .tc := ⟨.hbm, 128, rfl⟩
abbrev main_v81 : Ref sig .tc := ⟨.hbm, 129, rfl⟩
abbrev main_c_14 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_15 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94_0 : Ref sig .tc := ⟨.hbm, 144, rfl⟩
abbrev main_v94_1 : Ref sig .tc := ⟨.hbm, 145, rfl⟩
abbrev main_v94_2 : Ref sig .tc := ⟨.hbm, 146, rfl⟩
abbrev main_cst_16 : Ref sig .tc := ⟨.hbm, 147, rfl⟩
abbrev main_v95 : Ref sig .tc := ⟨.hbm, 148, rfl⟩
abbrev main_v96 : Ref sig .tc := ⟨.hbm, 149, rfl⟩
abbrev main_cst_17 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_c_18 : Ref sig .tc := ⟨.hbm, 160, rfl⟩
abbrev main_v106 : Ref sig .tc := ⟨.hbm, 161, rfl⟩
abbrev main_v107 : Ref sig .tc := ⟨.hbm, 162, rfl⟩
abbrev main_c_19 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_20 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120_0 : Ref sig .tc := ⟨.hbm, 177, rfl⟩
abbrev main_v120_1 : Ref sig .tc := ⟨.hbm, 178, rfl⟩
abbrev main_v120_2 : Ref sig .tc := ⟨.hbm, 179, rfl⟩
abbrev main_cst_21 : Ref sig .tc := ⟨.hbm, 180, rfl⟩
abbrev main_v121 : Ref sig .tc := ⟨.hbm, 181, rfl⟩
abbrev main_v122 : Ref sig .tc := ⟨.hbm, 182, rfl⟩
abbrev main_cst_22 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_c_23 : Ref sig .tc := ⟨.hbm, 193, rfl⟩
abbrev main_v132 : Ref sig .tc := ⟨.hbm, 194, rfl⟩
abbrev main_v133 : Ref sig .tc := ⟨.hbm, 195, rfl⟩
abbrev main_c_24 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_cst_25 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146_0 : Ref sig .tc := ⟨.hbm, 210, rfl⟩
abbrev main_v146_1 : Ref sig .tc := ⟨.hbm, 211, rfl⟩
abbrev main_v146_2 : Ref sig .tc := ⟨.hbm, 212, rfl⟩
abbrev main_cst_26 : Ref sig .tc := ⟨.hbm, 213, rfl⟩
abbrev main_v147 : Ref sig .tc := ⟨.hbm, 214, rfl⟩
abbrev main_v148 : Ref sig .tc := ⟨.hbm, 215, rfl⟩
abbrev main_cst_27 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_c_28 : Ref sig .tc := ⟨.hbm, 226, rfl⟩
abbrev main_v158 : Ref sig .tc := ⟨.hbm, 227, rfl⟩
abbrev main_v159 : Ref sig .tc := ⟨.hbm, 228, rfl⟩
abbrev main_c_29 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_cst_30 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_c_31 : Ref sig .tc := ⟨.hbm, 246, rfl⟩
abbrev main_v175 : Ref sig .tc := ⟨.hbm, 247, rfl⟩
abbrev main_v176 : Ref sig .tc := ⟨.hbm, 248, rfl⟩
abbrev main_c_32 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_cst_33 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg6_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg6_0 : Ref sig .tc := ⟨.vmem, 69, rfl⟩
abbrev cc6_scratch0 : Ref sig .tc := ⟨.vmem, 70, rfl⟩
abbrev cc6_scratch1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg4_1 : Ref sig .tc := ⟨.vmem, 87, rfl⟩
abbrev cc8_stg5_0 : Ref sig .tc := ⟨.vmem, 88, rfl⟩
abbrev cc8_stg6_0 : Ref sig .tc := ⟨.vmem, 89, rfl⟩
abbrev cc8_scratch0 : Ref sig .tc := ⟨.vmem, 90, rfl⟩
abbrev cc8_scratch1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg2_0 : Ref sig .tc := ⟨.vmem, 95, rfl⟩
abbrev cc9_stg3_0 : Ref sig .tc := ⟨.vmem, 96, rfl⟩
abbrev cc9_stg4_0 : Ref sig .tc := ⟨.vmem, 97, rfl⟩
abbrev cc9_stg5_0 : Ref sig .tc := ⟨.vmem, 98, rfl⟩
abbrev cc9_stg5_1 : Ref sig .tc := ⟨.vmem, 99, rfl⟩
abbrev cc10_stg0_0 : Ref sig .tc := ⟨.vmem, 100, rfl⟩
abbrev cc10_stg0_1 : Ref sig .tc := ⟨.vmem, 101, rfl⟩
abbrev cc10_stg1_0 : Ref sig .tc := ⟨.vmem, 102, rfl⟩
abbrev cc10_stg1_1 : Ref sig .tc := ⟨.vmem, 103, rfl⟩
abbrev cc10_stg2_0 : Ref sig .tc := ⟨.vmem, 104, rfl⟩
abbrev cc10_stg3_0 : Ref sig .tc := ⟨.vmem, 105, rfl⟩
abbrev cc10_stg4_0 : Ref sig .tc := ⟨.vmem, 106, rfl⟩
abbrev cc10_stg4_1 : Ref sig .tc := ⟨.vmem, 107, rfl⟩
abbrev cc10_stg5_0 : Ref sig .tc := ⟨.vmem, 108, rfl⟩
abbrev cc10_stg6_0 : Ref sig .tc := ⟨.vmem, 109, rfl⟩
abbrev cc10_scratch0 : Ref sig .tc := ⟨.vmem, 110, rfl⟩
abbrev cc10_scratch1 : Ref sig .tc := ⟨.vmem, 111, rfl⟩
abbrev cc11_stg0_0 : Ref sig .tc := ⟨.vmem, 112, rfl⟩
abbrev cc11_stg0_1 : Ref sig .tc := ⟨.vmem, 113, rfl⟩
abbrev cc11_stg1_0 : Ref sig .tc := ⟨.vmem, 114, rfl⟩
abbrev cc11_stg2_0 : Ref sig .tc := ⟨.vmem, 115, rfl⟩
abbrev cc11_stg3_0 : Ref sig .tc := ⟨.vmem, 116, rfl⟩
abbrev cc11_stg4_0 : Ref sig .tc := ⟨.vmem, 117, rfl⟩
abbrev cc11_stg5_0 : Ref sig .tc := ⟨.vmem, 118, rfl⟩
abbrev cc11_stg5_1 : Ref sig .tc := ⟨.vmem, 119, rfl⟩
abbrev cc12_stg0_0 : Ref sig .tc := ⟨.vmem, 120, rfl⟩
abbrev cc12_stg0_1 : Ref sig .tc := ⟨.vmem, 121, rfl⟩
abbrev cc12_stg1_0 : Ref sig .tc := ⟨.vmem, 122, rfl⟩
abbrev cc12_stg1_1 : Ref sig .tc := ⟨.vmem, 123, rfl⟩
abbrev cc12_stg2_0 : Ref sig .tc := ⟨.vmem, 124, rfl⟩
abbrev cc12_stg3_0 : Ref sig .tc := ⟨.vmem, 125, rfl⟩
abbrev cc12_stg4_0 : Ref sig .tc := ⟨.vmem, 126, rfl⟩
abbrev cc12_stg4_1 : Ref sig .tc := ⟨.vmem, 127, rfl⟩
abbrev cc13_stg0_0 : Ref sig .tc := ⟨.vmem, 128, rfl⟩
abbrev cc13_stg0_1 : Ref sig .tc := ⟨.vmem, 129, rfl⟩
abbrev cc13_stg1_0 : Ref sig .tc := ⟨.vmem, 130, rfl⟩
abbrev cc13_stg1_1 : Ref sig .tc := ⟨.vmem, 131, rfl⟩
abbrev cc13_stg2_0 : Ref sig .tc := ⟨.vmem, 132, rfl⟩
abbrev cc13_stg3_0 : Ref sig .tc := ⟨.vmem, 133, rfl⟩
abbrev cc13_stg4_0 : Ref sig .tc := ⟨.vmem, 134, rfl⟩
abbrev cc13_stg4_1 : Ref sig .tc := ⟨.vmem, 135, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem6_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem4_1 : DmaSem sig := 61
abbrev cc6_sem5_0 : DmaSem sig := 62
abbrev cc6_sem6_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem4_1 : DmaSem sig := 79
abbrev cc8_sem5_0 : DmaSem sig := 80
abbrev cc8_sem6_0 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem0_1 : DmaSem sig := 91
abbrev cc10_sem1_0 : DmaSem sig := 92
abbrev cc10_sem1_1 : DmaSem sig := 93
abbrev cc10_sem2_0 : DmaSem sig := 94
abbrev cc10_sem3_0 : DmaSem sig := 95
abbrev cc10_sem4_0 : DmaSem sig := 96
abbrev cc10_sem4_1 : DmaSem sig := 97
abbrev cc10_sem5_0 : DmaSem sig := 98
abbrev cc10_sem6_0 : DmaSem sig := 99
abbrev cc11_sem0_0 : DmaSem sig := 100
abbrev cc11_sem0_1 : DmaSem sig := 101
abbrev cc11_sem1_0 : DmaSem sig := 102
abbrev cc11_sem2_0 : DmaSem sig := 103
abbrev cc11_sem3_0 : DmaSem sig := 104
abbrev cc11_sem4_0 : DmaSem sig := 105
abbrev cc11_sem5_0 : DmaSem sig := 106
abbrev cc11_sem5_1 : DmaSem sig := 107
abbrev cc12_sem0_0 : DmaSem sig := 108
abbrev cc12_sem0_1 : DmaSem sig := 109
abbrev cc12_sem1_0 : DmaSem sig := 110
abbrev cc12_sem1_1 : DmaSem sig := 111
abbrev cc12_sem2_0 : DmaSem sig := 112
abbrev cc12_sem3_0 : DmaSem sig := 113
abbrev cc12_sem4_0 : DmaSem sig := 114
abbrev cc12_sem4_1 : DmaSem sig := 115
abbrev cc13_sem0_0 : DmaSem sig := 116
abbrev cc13_sem0_1 : DmaSem sig := 117
abbrev cc13_sem1_0 : DmaSem sig := 118
abbrev cc13_sem1_1 : DmaSem sig := 119
abbrev cc13_sem2_0 : DmaSem sig := 120
abbrev cc13_sem3_0 : DmaSem sig := 121
abbrev cc13_sem4_0 : DmaSem sig := 122
abbrev cc13_sem4_1 : DmaSem sig := 123

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S5000x256 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S64x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000x256 : S_.BroadcastsInDim S50000x256 (![] : Fin 0 → Fin S50000x256.rank)
  transposes_S128x256_S256x128_1_0 : S128x256.Transposes [1, 0] S256x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  bcast_S_S50000x128 : S_.BroadcastsInDim S50000x128 (![] : Fin 0 → Fin S50000x128.rank)
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S64x128_S128x64_1_0 : S64x128.Transposes [1, 0] S128x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S5000x64_S5000x64 : S5000x64.ShapeCasts S5000x64
  bcast_S_S50000x64 : S_.BroadcastsInDim S50000x64 (![] : Fin 0 → Fin S50000x64.rank)
  transposes_S256x64_S64x256_1_0 : S256x64.Transposes [1, 0] S64x256
  shapeCasts_S256_S1x256 : S256.ShapeCasts S1x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  transposes_S128x64_S64x128_1_0 : S128x64.Transposes [1, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  concatenates_S50000x64_S50000x64_S100000x64_d0 : Shape.Concatenates [S50000x64, S50000x64] S100000x64 0
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x256_S5000x256_1_0_0_1_n_n_wf : DotDims.WF S5000x64 S64x256 S5000x256 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x256.size a ≤ S50000x256.size a
  hwx4_1 : ∀ i : grid4.Coords, EltTy.bits .f32 = 32 ∨ (Rect.block (s := S50000x256) S5000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S50000x64.size a
  hwx6_4 : ∀ i : grid6.Coords, EltTy.bits .f32 = 32 ∨ (Rect.block (s := S50000x64) S5000x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x64.size a ≤ S128x64.size a
  hwx8_2 : ∀ i : grid8.Coords, EltTy.bits .f32 = 32 ∨ (Rect.block (s := S128x64) S128x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S50000x64.size a
  hwx8_4 : ∀ i : grid8.Coords, EltTy.bits .f32 = 32 ∨ (Rect.block (s := S50000x64) S5000x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S50000x64.size a
  hwx9_5 : ∀ i : grid9.Coords, EltTy.bits .f32 = 32 ∨ (Rect.block (s := S50000x64) S5000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x64.size a ≤ S128x64.size a
  hwx10_2 : ∀ i : grid10.Coords, EltTy.bits .f32 = 32 ∨ (Rect.block (s := S128x64) S128x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x64.size a ≤ S50000x64.size a
  hwx10_4 : ∀ i : grid10.Coords, EltTy.bits .f32 = 32 ∨ (Rect.block (s := S50000x64) S5000x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S50000x64.size a
  hwx11_5 : ∀ i : grid11.Coords, EltTy.bits .f32 = 32 ∨ (Rect.block (s := S50000x64) S5000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x64.size a ≤ S50000x64.size a
  hwx12_1 : ∀ i : grid12.Coords, EltTy.bits .f32 = 32 ∨ (Rect.block (s := S50000x64) S5000x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x256.size a ≤ S64x256.size a
  hwx12_2 : ∀ i : grid12.Coords, EltTy.bits .f32 = 32 ∨ (Rect.block (s := S64x256) S64x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x256.size a ≤ S1x256.size a
  hwx12_3 : ∀ i : grid12.Coords, EltTy.bits .f32 = 32 ∨ (Rect.block (s := S1x256) S1x256.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x256.size a ≤ S50000x256.size a
  hwx12_4 : ∀ i : grid12.Coords, EltTy.bits .f32 = 32 ∨ (Rect.block (s := S50000x256) S5000x256.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S50000x64.size a
  hwx13_0 : ∀ i : grid13.Coords, EltTy.bits .f32 = 32 ∨ (Rect.block (s := S50000x64) S5000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x64.size a ≤ S50000x64.size a
  hwx13_1 : ∀ i : grid13.Coords, EltTy.bits .f32 = 32 ∨ (Rect.block (s := S50000x64) S5000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S64x128.size a ≤ S64x128.size a
  hwx13_2 : ∀ i : grid13.Coords, EltTy.bits .f32 = 32 ∨ (Rect.block (s := S64x128) S64x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x128.size a ≤ S50000x128.size a
  hwx13_4 : ∀ i : grid13.Coords, EltTy.bits .f32 = 32 ∨ (Rect.block (s := S50000x128) S5000x128.size (cc13_transform_4 i) (hinb13_4 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v42_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg2) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v68_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v68_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v25) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v92) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v93) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v94_0) S5000x64.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v94_1) S1x64.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v94_2) S1x64.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v94_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v100) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v102) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v103) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v51) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v117) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v118) S128x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v119) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v120_0) S5000x64.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v120_1) S1x64.size cc8_transform_5 reads8_5 true true 1 stage8_5 sem8_5
    hrank8 hreads8_5 hinb8_5 nbuf8_5 (Memref.isWhole_whole _) hwx8_5 hstage8_5

abbrev win8_6 : Pipeline.Window sig grid8 :=
  Pipeline.Window.ofSpec (Memref.whole main_v120_2) S1x64.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v120_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v122) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v126) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v127) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v128) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v129) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v77) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v143) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v144) S128x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v145) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v146_0) S5000x64.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v146_1) S1x64.size cc10_transform_5 reads10_5 true true 1 stage10_5 sem10_5
    hrank10 hreads10_5 hinb10_5 nbuf10_5 (Memref.isWhole_whole _) hwx10_5 hstage10_5

abbrev win10_6 : Pipeline.Window sig grid10 :=
  Pipeline.Window.ofSpec (Memref.whole main_v146_2) S1x64.size cc10_transform_6 reads10_6 true true 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v146_0) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v148) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v152) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v153) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v154) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v155) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v103) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v169) S5000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v170) S64x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v171) S1x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v172) S5000x256.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v129) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v186) S5000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v187) S64x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v188) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v189) S5000x128.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

class Facts : Prop extends Facts₀ where

variable [Facts]
-- ==== ReferenceIdeal.lean ====
abbrev S50000x256 : Shape := ⟨2, ![50000, 256]⟩
abbrev S50000x128 : Shape := ⟨2, ![50000, 128]⟩
abbrev S2x800000 : Shape := ⟨2, ![2, 800000]⟩
abbrev S128x256 : Shape := ⟨2, ![128, 256]⟩
abbrev S128 : Shape := ⟨1, ![128]⟩
abbrev S128x128 : Shape := ⟨2, ![128, 128]⟩
abbrev S64x128 : Shape := ⟨2, ![64, 128]⟩
abbrev S64 : Shape := ⟨1, ![64]⟩
abbrev S256x64 : Shape := ⟨2, ![256, 64]⟩
abbrev S256 : Shape := ⟨1, ![256]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S256x128 : Shape := ⟨2, ![256, 128]⟩
abbrev S1x128 : Shape := ⟨2, ![1, 128]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S64x256 : Shape := ⟨2, ![64, 256]⟩
abbrev S1x256 : Shape := ⟨2, ![1, 256]⟩
abbrev S100000x64 : Shape := ⟨2, ![100000, 64]⟩

abbrev nBuf : Space → Nat
  | .hbm => 415
  | .vmem => 0
  | .smem => 0
  | _ => 0

abbrev hbmTy0_0 (i : Nat) : BufTy := match i % 128 with
  | 0 => ⟨S50000x256, .f32⟩
  | 1 => ⟨S50000x128, .f32⟩
  | 2 => ⟨S50000x256, .f32⟩
  | 3 => ⟨S2x800000, .i32⟩
  | 4 => ⟨S2x800000, .i32⟩
  | 5 => ⟨S2x800000, .i32⟩
  | 6 => ⟨S128x256, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x256, .f32⟩
  | 15 => ⟨S128, .f32⟩
  | 16 => ⟨S128, .f32⟩
  | 17 => ⟨S128, .f32⟩
  | 18 => ⟨S64x128, .f32⟩
  | 19 => ⟨S64, .f32⟩
  | 20 => ⟨S64, .f32⟩
  | 21 => ⟨S64, .f32⟩
  | 22 => ⟨S256x64, .f32⟩
  | 23 => ⟨S256, .f32⟩
  | 24 => ⟨S128x64, .f32⟩
  | 25 => ⟨S128, .f32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x256, .f32⟩
  | 37 => ⟨S1x800000, .i32⟩
  | 38 => ⟨S800000, .i32⟩
  | 39 => ⟨S_, .f32⟩
  | 40 => ⟨S50000x256, .f32⟩
  | 41 => ⟨S800000x1, .i32⟩
  | 42 => ⟨S50000x256, .f32⟩
  | 43 => ⟨S50000x256, .f32⟩
  | 44 => ⟨S256x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S128, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x800000, .i32⟩
  | 83 => ⟨S800000, .i32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S1x800000, .i32⟩
  | 94 => ⟨S800000, .i32⟩
  | 95 => ⟨S_, .f32⟩
  | 96 => ⟨S50000x128, .f32⟩
  | 97 => ⟨S800000x1, .i32⟩
  | 98 => ⟨S50000x128, .f32⟩
  | 99 => ⟨S50000x128, .f32⟩
  | 100 => ⟨S128x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S_, .f32⟩
  | 123 => ⟨S128, .f32⟩
  | 124 => ⟨S128, .f32⟩
  | 125 => ⟨S128, .f32⟩
  | 126 => ⟨S1x128, .f32⟩
  | 127 => ⟨S50000x128, .f32⟩
  | _ => ⟨S50000x256, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x256, .f32⟩
  | 21 => ⟨S1x800000, .i32⟩
  | 22 => ⟨S800000, .i32⟩
  | 23 => ⟨S_, .f32⟩
  | 24 => ⟨S50000x256, .f32⟩
  | 25 => ⟨S800000x1, .i32⟩
  | 26 => ⟨S50000x256, .f32⟩
  | 27 => ⟨S50000x256, .f32⟩
  | 28 => ⟨S256x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S128, .f32⟩
  | 35 => ⟨S_, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S_, .f32⟩
  | 51 => ⟨S128, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S1x800000, .i32⟩
  | 67 => ⟨S800000, .i32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S1x800000, .i32⟩
  | 78 => ⟨S800000, .i32⟩
  | 79 => ⟨S_, .f32⟩
  | 80 => ⟨S50000x128, .f32⟩
  | 81 => ⟨S800000x1, .i32⟩
  | 82 => ⟨S50000x128, .f32⟩
  | 83 => ⟨S50000x128, .f32⟩
  | 84 => ⟨S128x64, .f32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S50000x64, .f32⟩
  | 96 => ⟨S50000x64, .f32⟩
  | 97 => ⟨S50000x64, .f32⟩
  | 98 => ⟨S_, .f32⟩
  | 99 => ⟨S64, .f32⟩
  | 100 => ⟨S_, .f32⟩
  | 101 => ⟨S64, .f32⟩
  | 102 => ⟨S64, .f32⟩
  | 103 => ⟨S1x64, .f32⟩
  | 104 => ⟨S50000x64, .f32⟩
  | 105 => ⟨S50000x64, .f32⟩
  | 106 => ⟨S_, .f32⟩
  | 107 => ⟨S64, .f32⟩
  | 108 => ⟨S64, .f32⟩
  | 109 => ⟨S64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S1x800000, .i32⟩
  | 123 => ⟨S800000, .i32⟩
  | 124 => ⟨S_, .i32⟩
  | 125 => ⟨S800000, .i32⟩
  | 126 => ⟨S800000, .i1⟩
  | 127 => ⟨S_, .i32⟩
  | _ => ⟨S50000x256, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S1x800000, .i32⟩
  | 6 => ⟨S800000, .i32⟩
  | 7 => ⟨S_, .f32⟩
  | 8 => ⟨S50000x128, .f32⟩
  | 9 => ⟨S800000x1, .i32⟩
  | 10 => ⟨S50000x128, .f32⟩
  | 11 => ⟨S50000x128, .f32⟩
  | 12 => ⟨S128x64, .f32⟩
  | 13 => ⟨S50000x64, .f32⟩
  | 14 => ⟨S1x64, .f32⟩
  | 15 => ⟨S50000x64, .f32⟩
  | 16 => ⟨S50000x64, .f32⟩
  | 17 => ⟨S_, .f32⟩
  | 18 => ⟨S64, .f32⟩
  | 19 => ⟨S_, .f32⟩
  | 20 => ⟨S64, .f32⟩
  | 21 => ⟨S64, .f32⟩
  | 22 => ⟨S1x64, .f32⟩
  | 23 => ⟨S50000x64, .f32⟩
  | 24 => ⟨S50000x64, .f32⟩
  | 25 => ⟨S50000x64, .f32⟩
  | 26 => ⟨S_, .f32⟩
  | 27 => ⟨S64, .f32⟩
  | 28 => ⟨S_, .f32⟩
  | 29 => ⟨S64, .f32⟩
  | 30 => ⟨S64, .f32⟩
  | 31 => ⟨S1x64, .f32⟩
  | 32 => ⟨S50000x64, .f32⟩
  | 33 => ⟨S50000x64, .f32⟩
  | 34 => ⟨S_, .f32⟩
  | 35 => ⟨S64, .f32⟩
  | 36 => ⟨S64, .f32⟩
  | 37 => ⟨S64, .f32⟩
  | 38 => ⟨S1x64, .f32⟩
  | 39 => ⟨S50000x64, .f32⟩
  | 40 => ⟨S50000x64, .f32⟩
  | 41 => ⟨S1x64, .f32⟩
  | 42 => ⟨S50000x64, .f32⟩
  | 43 => ⟨S50000x64, .f32⟩
  | 44 => ⟨S1x64, .f32⟩
  | 45 => ⟨S50000x64, .f32⟩
  | 46 => ⟨S50000x64, .f32⟩
  | 47 => ⟨S_, .f32⟩
  | 48 => ⟨S50000x64, .f32⟩
  | 49 => ⟨S50000x64, .f32⟩
  | 50 => ⟨S1x800000, .i32⟩
  | 51 => ⟨S800000, .i32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S1x800000, .i32⟩
  | 62 => ⟨S800000, .i32⟩
  | 63 => ⟨S_, .f32⟩
  | 64 => ⟨S50000x128, .f32⟩
  | 65 => ⟨S800000x1, .i32⟩
  | 66 => ⟨S50000x128, .f32⟩
  | 67 => ⟨S50000x128, .f32⟩
  | 68 => ⟨S128x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S64, .f32⟩
  | 75 => ⟨S_, .f32⟩
  | 76 => ⟨S64, .f32⟩
  | 77 => ⟨S64, .f32⟩
  | 78 => ⟨S1x64, .f32⟩
  | 79 => ⟨S50000x64, .f32⟩
  | 80 => ⟨S50000x64, .f32⟩
  | 81 => ⟨S50000x64, .f32⟩
  | 82 => ⟨S_, .f32⟩
  | 83 => ⟨S64, .f32⟩
  | 84 => ⟨S_, .f32⟩
  | 85 => ⟨S64, .f32⟩
  | 86 => ⟨S64, .f32⟩
  | 87 => ⟨S1x64, .f32⟩
  | 88 => ⟨S50000x64, .f32⟩
  | 89 => ⟨S50000x64, .f32⟩
  | 90 => ⟨S_, .f32⟩
  | 91 => ⟨S64, .f32⟩
  | 92 => ⟨S64, .f32⟩
  | 93 => ⟨S64, .f32⟩
  | 94 => ⟨S1x64, .f32⟩
  | 95 => ⟨S50000x64, .f32⟩
  | 96 => ⟨S50000x64, .f32⟩
  | 97 => ⟨S1x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S1x800000, .i32⟩
  | 107 => ⟨S800000, .i32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S1x800000, .i32⟩
  | 118 => ⟨S800000, .i32⟩
  | 119 => ⟨S_, .f32⟩
  | 120 => ⟨S50000x64, .f32⟩
  | 121 => ⟨S800000x1, .i32⟩
  | 122 => ⟨S50000x64, .f32⟩
  | 123 => ⟨S50000x64, .f32⟩
  | 124 => ⟨S64x256, .f32⟩
  | 125 => ⟨S50000x256, .f32⟩
  | 126 => ⟨S1x256, .f32⟩
  | 127 => ⟨S50000x256, .f32⟩
  | _ => ⟨S50000x256, .f32⟩

abbrev hbmTy0_3 (i : Nat) : BufTy := match i % 128 with
  | 0 => ⟨S50000x256, .f32⟩
  | 1 => ⟨S_, .f32⟩
  | 2 => ⟨S50000x256, .f32⟩
  | 3 => ⟨S50000x256, .f32⟩
  | 4 => ⟨S1x800000, .i32⟩
  | 5 => ⟨S800000, .i32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S1x800000, .i32⟩
  | 16 => ⟨S800000, .i32⟩
  | 17 => ⟨S_, .f32⟩
  | 18 => ⟨S50000x64, .f32⟩
  | 19 => ⟨S800000x1, .i32⟩
  | 20 => ⟨S50000x64, .f32⟩
  | 21 => ⟨S50000x64, .f32⟩
  | 22 => ⟨S64x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S100000x64, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_1 : Ref sig .tc := ⟨.hbm, 49, rfl⟩
abbrev main_v20 : Ref sig .tc := ⟨.hbm, 50, rfl⟩
abbrev main_cst_2 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_3 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_5 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_call0_cst : Ref sig .tc := ⟨.hbm, 79, rfl⟩
abbrev main_call0_v0 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_6 : Ref sig .tc := ⟨.hbm, 84, rfl⟩
abbrev main_v48 : Ref sig .tc := ⟨.hbm, 85, rfl⟩
abbrev main_v49 : Ref sig .tc := ⟨.hbm, 86, rfl⟩
abbrev main_c_7 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_8 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_9 : Ref sig .tc := ⟨.hbm, 105, rfl⟩
abbrev main_v66 : Ref sig .tc := ⟨.hbm, 106, rfl⟩
abbrev main_cst_10 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_11 : Ref sig .tc := ⟨.hbm, 114, rfl⟩
abbrev main_v73 : Ref sig .tc := ⟨.hbm, 115, rfl⟩
abbrev main_cst_12 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_13 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_call1_cst : Ref sig .tc := ⟨.hbm, 135, rfl⟩
abbrev main_call1_v0 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_14 : Ref sig .tc := ⟨.hbm, 140, rfl⟩
abbrev main_v94 : Ref sig .tc := ⟨.hbm, 141, rfl⟩
abbrev main_v95 : Ref sig .tc := ⟨.hbm, 142, rfl⟩
abbrev main_c_15 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_16 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_17 : Ref sig .tc := ⟨.hbm, 161, rfl⟩
abbrev main_v112 : Ref sig .tc := ⟨.hbm, 162, rfl⟩
abbrev main_cst_18 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_19 : Ref sig .tc := ⟨.hbm, 170, rfl⟩
abbrev main_v119 : Ref sig .tc := ⟨.hbm, 171, rfl⟩
abbrev main_cst_20 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_21 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_call2_cst : Ref sig .tc := ⟨.hbm, 191, rfl⟩
abbrev main_call2_v0 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_c_22 : Ref sig .tc := ⟨.hbm, 196, rfl⟩
abbrev main_v140 : Ref sig .tc := ⟨.hbm, 197, rfl⟩
abbrev main_v141 : Ref sig .tc := ⟨.hbm, 198, rfl⟩
abbrev main_c_23 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_24 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_25 : Ref sig .tc := ⟨.hbm, 217, rfl⟩
abbrev main_v158 : Ref sig .tc := ⟨.hbm, 218, rfl⟩
abbrev main_cst_26 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_cst_27 : Ref sig .tc := ⟨.hbm, 226, rfl⟩
abbrev main_v165 : Ref sig .tc := ⟨.hbm, 227, rfl⟩
abbrev main_cst_28 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_cst_29 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_call3_cst : Ref sig .tc := ⟨.hbm, 247, rfl⟩
abbrev main_call3_v0 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_c_30 : Ref sig .tc := ⟨.hbm, 252, rfl⟩
abbrev main_v186 : Ref sig .tc := ⟨.hbm, 253, rfl⟩
abbrev main_v187 : Ref sig .tc := ⟨.hbm, 254, rfl⟩
abbrev main_c_31 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_cst_32 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_cst_33 : Ref sig .tc := ⟨.hbm, 273, rfl⟩
abbrev main_v204 : Ref sig .tc := ⟨.hbm, 274, rfl⟩
abbrev main_cst_34 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_cst_35 : Ref sig .tc := ⟨.hbm, 282, rfl⟩
abbrev main_v211 : Ref sig .tc := ⟨.hbm, 283, rfl⟩
abbrev main_cst_36 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_cst_37 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_call4_cst : Ref sig .tc := ⟨.hbm, 303, rfl⟩
abbrev main_call4_v0 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_c_38 : Ref sig .tc := ⟨.hbm, 308, rfl⟩
abbrev main_v232 : Ref sig .tc := ⟨.hbm, 309, rfl⟩
abbrev main_v233 : Ref sig .tc := ⟨.hbm, 310, rfl⟩
abbrev main_c_39 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_cst_40 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_cst_41 : Ref sig .tc := ⟨.hbm, 329, rfl⟩
abbrev main_v250 : Ref sig .tc := ⟨.hbm, 330, rfl⟩
abbrev main_cst_42 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_cst_43 : Ref sig .tc := ⟨.hbm, 338, rfl⟩
abbrev main_v257 : Ref sig .tc := ⟨.hbm, 339, rfl⟩
abbrev main_cst_44 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_cst_45 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_call5_cst : Ref sig .tc := ⟨.hbm, 359, rfl⟩
abbrev main_call5_v0 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_c_46 : Ref sig .tc := ⟨.hbm, 364, rfl⟩
abbrev main_v278 : Ref sig .tc := ⟨.hbm, 365, rfl⟩
abbrev main_v279 : Ref sig .tc := ⟨.hbm, 366, rfl⟩
abbrev main_c_47 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_cst_48 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_v295 : Ref sig .tc := ⟨.hbm, 384, rfl⟩
abbrev main_call6_cst : Ref sig .tc := ⟨.hbm, 385, rfl⟩
abbrev main_call6_v0 : Ref sig .tc := ⟨.hbm, 386, rfl⟩
abbrev main_v296 : Ref sig .tc := ⟨.hbm, 387, rfl⟩
abbrev main_v297 : Ref sig .tc := ⟨.hbm, 388, rfl⟩
abbrev main_v298 : Ref sig .tc := ⟨.hbm, 389, rfl⟩
abbrev main_c_49 : Ref sig .tc := ⟨.hbm, 390, rfl⟩
abbrev main_v299 : Ref sig .tc := ⟨.hbm, 391, rfl⟩
abbrev main_v300 : Ref sig .tc := ⟨.hbm, 392, rfl⟩
abbrev main_c_50 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_cst_51 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_v315 : Ref sig .tc := ⟨.hbm, 409, rfl⟩
abbrev main_v316 : Ref sig .tc := ⟨.hbm, 410, rfl⟩
abbrev main_call7_cst : Ref sig .tc := ⟨.hbm, 411, rfl⟩
abbrev main_call7_v0 : Ref sig .tc := ⟨.hbm, 412, rfl⟩
abbrev main_v317 : Ref sig .tc := ⟨.hbm, 413, rfl⟩
abbrev main_v318 : Ref sig .tc := ⟨.hbm, 414, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000x256 : S_.BroadcastsInDim S50000x256 (![] : Fin 0 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S50000x128 : S_.BroadcastsInDim S50000x128 (![] : Fin 0 → Fin S50000x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S_S50000x64 : S_.BroadcastsInDim S50000x64 (![] : Fin 0 → Fin S50000x64.rank)
  transposes_S256x64_S64x256_1_0 : S256x64.Transposes [1, 0] S64x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S128x64_S64x128_1_0 : S128x64.Transposes [1, 0] S64x128
  concatenates_S50000x64_S50000x64_S100000x64_d0 : Shape.Concatenates [S50000x64, S50000x64] S100000x64 0
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x256_S50000x256_1_0_0_1_n_n_wf : DotDims.WF S50000x64 S64x256 S50000x256 [1] [0] [0] [1] [] []
  dot_S50000x64_S64x128_S50000x128_1_0_0_1_n_n_wf : DotDims.WF S50000x64 S64x128 S50000x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.K_RunCond.lean ====
/-
  The run of the whole program from one record per kernel region, with EVERY unscoped buffer read back: every weakly
  fair execution of @main terminates, nothing faulting, and in the final memory each unscoped buffer of a core holds
  what the last valuation of the chain gives it — the launch contents carried through the host stretches and
  updated, at each region, at the arrays that region may change. The frame (the arguments end as launched) and the
  results (the four returned arrays at the last valuation) are both read off this one statement.
-/
import proofs.«144613_j17471926960174_1_alg».proof.Proof.Gen.Kernel.Regions

set_option maxRecDepth 2116

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- For any user algebra, level assignment, launch dues and ghost resources, any rest states the launch makes on every
    core at once and that end owing nothing, any contents the regions leave and any proof data: given, per region, a
    segment record entered from the thread state before it and left at the one after it, the program runs to its end
    and every unscoped buffer ends at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 14) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 15 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE14 : ∀ c : Dev nD, E 14 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c)) :
    θ_run defs (onTc (τ := τ) (main (F := F))) ⟨m, fun _ => 0, ρ⟩ (fun r => ∀ c : Dev nD,
      ∀ b ∈ Pipeline.ucRefs τ sig, r.2.mem (((c : Thread nD τ)).1, b) = V29 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13)
    (fun c Q => by
      rewrite [main_chain c, Seg.run_eq_chain,
        show (segs m outs 𝒱₀ L lv E ι pdats R0 R1 R2 R3 R4 R5 R6 R7 R8 R9 R10 R11 R12 R13 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, sep_mono .rfl (hE14 c)⟩)
    (hinit := ?_) (QY := fun c s => ∀ b ∈ Pipeline.ucRefs τ sig, s.mem (((c : Thread nD τ)).1, b) = V29 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V29 m outs c) s') $$ [Hh HSI]
    · isplitl [Hh] <;> iassumption
    icases Hr with ⟨%h, HSI⟩
    imodintro
    isplitr
    · ipureintro
      exact h
    · iexact HSI

end Cert.Kernel.Hand

end
-- ==== Proof.K_Chain.lean ====
/-
  The contents of every unscoped buffer between two items of @main, as one chain of valuations: the launch
  contents, then each host stretch applied, then, at each kernel region, the arrays that region may change set to
  what the region leaves in them. What a region leaves is a parameter here (one function per array, of the region's
  entry contents); the chain is the fixed point the conditional run is stated over: with the regions' unknowns read
  off the chain itself, the generated valuations ARE the chain.
-/
import proofs.«144613_j17471926960174_1_alg».proof.Proof.Gen.Kernel.Regions

set_option maxRecDepth 2116

noncomputable section

namespace Cert.Kernel.Hand

open Cert.Kernel Cert.Kernel.Gen
open Idealize.ShloMosaic Idealize.ShloMosaic.TcCoe
open Idealize.SL.Sem

/-- Setting one key of a function to the value another function has there, when that other function is the first
    one set at that key, gives the other function. -/
theorem upd1_fix {α : Type*} [DecidableEq α] {β : α → Type*} (f : ∀ a, β a) (r0 : α) (a0 : β r0) :
    Function.update f r0 ((Function.update f r0 a0) r0) = Function.update f r0 a0 := by
  simp only [Function.update_self]

/-- The same for three distinct keys. -/
theorem upd3_fix {α : Type*} [DecidableEq α] {β : α → Type*} (f : ∀ a, β a) (r0 r1 r2 : α) (a0 : β r0) (a1 : β r1) (a2 : β r2)
    (h01 : r0 ≠ r1) (h02 : r0 ≠ r2) (h12 : r1 ≠ r2) :
    Function.update (Function.update (Function.update f r0
        ((Function.update (Function.update (Function.update f r0 a0) r1 a1) r2 a2) r0)) r1
        ((Function.update (Function.update (Function.update f r0 a0) r1 a1) r2 a2) r1)) r2
        ((Function.update (Function.update (Function.update f r0 a0) r1 a1) r2 a2) r2)
      = Function.update (Function.update (Function.update f r0 a0) r1 a1) r2 a2 := by
  simp only [Function.update_self, Function.update_of_ne h02, Function.update_of_ne h01, Function.update_of_ne h12]

variable {F : FTy → Type} [FloatOps F]

/-- A core-indexed family of buffer contents read at the TensorCore's references: what a region's proof data is
    stated over. -/
abbrev EV (F : FTy → Type) [FloatOps F] : Type := (c : Dev nD) → (b : Ref sig .tc) → Buf (Elt F) ((c : Thread nD τ).loc b)

/-- What each region leaves in each array it may change, as a function of the region's entry contents. -/
structure Exits (F : FTy → Type) [FloatOps F] where
  x_main_v16_0 : EV F → (c : Dev nD) → Buf (Elt F) ((c : Thread nD τ).loc main_v16_0)
  x_main_v16_1 : EV F → (c : Dev nD) → Buf (Elt F) ((c : Thread nD τ).loc main_v16_1)
  x_main_v16_2 : EV F → (c : Dev nD) → Buf (Elt F) ((c : Thread nD τ).loc main_v16_2)
  x_main_v25 : EV F → (c : Dev nD) → Buf (Elt F) ((c : Thread nD τ).loc main_v25)
  x_main_v42_0 : EV F → (c : Dev nD) → Buf (Elt F) ((c : Thread nD τ).loc main_v42_0)
  x_main_v42_1 : EV F → (c : Dev nD) → Buf (Elt F) ((c : Thread nD τ).loc main_v42_1)
  x_main_v42_2 : EV F → (c : Dev nD) → Buf (Elt F) ((c : Thread nD τ).loc main_v42_2)
  x_main_v51 : EV F → (c : Dev nD) → Buf (Elt F) ((c : Thread nD τ).loc main_v51)
  x_main_v68_0 : EV F → (c : Dev nD) → Buf (Elt F) ((c : Thread nD τ).loc main_v68_0)
  x_main_v68_1 : EV F → (c : Dev nD) → Buf (Elt F) ((c : Thread nD τ).loc main_v68_1)
  x_main_v68_2 : EV F → (c : Dev nD) → Buf (Elt F) ((c : Thread nD τ).loc main_v68_2)
  x_main_v77 : EV F → (c : Dev nD) → Buf (Elt F) ((c : Thread nD τ).loc main_v77)
  x_main_v94_0 : EV F → (c : Dev nD) → Buf (Elt F) ((c : Thread nD τ).loc main_v94_0)
  x_main_v94_1 : EV F → (c : Dev nD) → Buf (Elt F) ((c : Thread nD τ).loc main_v94_1)
  x_main_v94_2 : EV F → (c : Dev nD) → Buf (Elt F) ((c : Thread nD τ).loc main_v94_2)
  x_main_v103 : EV F → (c : Dev nD) → Buf (Elt F) ((c : Thread nD τ).loc main_v103)
  x_main_v120_0 : EV F → (c : Dev nD) → Buf (Elt F) ((c : Thread nD τ).loc main_v120_0)
  x_main_v120_1 : EV F → (c : Dev nD) → Buf (Elt F) ((c : Thread nD τ).loc main_v120_1)
  x_main_v120_2 : EV F → (c : Dev nD) → Buf (Elt F) ((c : Thread nD τ).loc main_v120_2)
  x_main_v129 : EV F → (c : Dev nD) → Buf (Elt F) ((c : Thread nD τ).loc main_v129)
  x_main_v146_0 : EV F → (c : Dev nD) → Buf (Elt F) ((c : Thread nD τ).loc main_v146_0)
  x_main_v146_1 : EV F → (c : Dev nD) → Buf (Elt F) ((c : Thread nD τ).loc main_v146_1)
  x_main_v146_2 : EV F → (c : Dev nD) → Buf (Elt F) ((c : Thread nD τ).loc main_v146_2)
  x_main_v155 : EV F → (c : Dev nD) → Buf (Elt F) ((c : Thread nD τ).loc main_v155)
  x_main_v172 : EV F → (c : Dev nD) → Buf (Elt F) ((c : Thread nD τ).loc main_v172)
  x_main_v189 : EV F → (c : Dev nD) → Buf (Elt F) ((c : Thread nD τ).loc main_v189)

variable (m : (ℓ : Loc nD τ sig) → Buf (Elt F) ℓ) (X : Exits F)

/-- The launch contents. -/
def W0 (c : Dev nD) : Valuation τ sig (Elt F) := V0 m c
/-- Before region 0: the host stretch `hostOps0` applied. -/
def W1 (c : Dev nD) : Valuation τ sig (Elt F) := StableHlo.after hostOps0 (W0 m c)
/-- The same read at the TensorCore's references: region 0's entry contents. -/
abbrev E1 : EV F := fun c b => W1 m c b
/-- After region 0. -/
def W2 (c : Dev nD) : Valuation τ sig (Elt F) := Function.update (Function.update (Function.update (W1 m c) main_v16_0 (X.x_main_v16_0 (E1 m) c)) main_v16_1 (X.x_main_v16_1 (E1 m) c)) main_v16_2 (X.x_main_v16_2 (E1 m) c)
/-- Before region 1: the host stretch `hostOps1` applied. -/
def W3 (c : Dev nD) : Valuation τ sig (Elt F) := StableHlo.after hostOps1 (W2 m X c)
/-- The same read at the TensorCore's references: region 1's entry contents. -/
abbrev E3 : EV F := fun c b => W3 m X c b
/-- After region 1. -/
def W4 (c : Dev nD) : Valuation τ sig (Elt F) := Function.update (W3 m X c) main_v25 (X.x_main_v25 (E3 m X) c)
/-- Before region 2: the host stretch `hostOps2` applied. -/
def W5 (c : Dev nD) : Valuation τ sig (Elt F) := StableHlo.after hostOps2 (W4 m X c)
/-- The same read at the TensorCore's references: region 2's entry contents. -/
abbrev E5 : EV F := fun c b => W5 m X c b
/-- After region 2. -/
def W6 (c : Dev nD) : Valuation τ sig (Elt F) := Function.update (Function.update (Function.update (W5 m X c) main_v42_0 (X.x_main_v42_0 (E5 m X) c)) main_v42_1 (X.x_main_v42_1 (E5 m X) c)) main_v42_2 (X.x_main_v42_2 (E5 m X) c)
/-- Before region 3: the host stretch `hostOps3` applied. -/
def W7 (c : Dev nD) : Valuation τ sig (Elt F) := StableHlo.after hostOps3 (W6 m X c)
/-- The same read at the TensorCore's references: region 3's entry contents. -/
abbrev E7 : EV F := fun c b => W7 m X c b
/-- After region 3. -/
def W8 (c : Dev nD) : Valuation τ sig (Elt F) := Function.update (W7 m X c) main_v51 (X.x_main_v51 (E7 m X) c)
/-- Before region 4: the host stretch `hostOps4` applied. -/
def W9 (c : Dev nD) : Valuation τ sig (Elt F) := StableHlo.after hostOps4 (W8 m X c)
/-- The same read at the TensorCore's references: region 4's entry contents. -/
abbrev E9 : EV F := fun c b => W9 m X c b
/-- After region 4. -/
def W10 (c : Dev nD) : Valuation τ sig (Elt F) := Function.update (Function.update (Function.update (W9 m X c) main_v68_0 (X.x_main_v68_0 (E9 m X) c)) main_v68_1 (X.x_main_v68_1 (E9 m X) c)) main_v68_2 (X.x_main_v68_2 (E9 m X) c)
/-- Before region 5: the host stretch `hostOps5` applied. -/
def W11 (c : Dev nD) : Valuation τ sig (Elt F) := StableHlo.after hostOps5 (W10 m X c)
/-- The same read at the TensorCore's references: region 5's entry contents. -/
abbrev E11 : EV F := fun c b => W11 m X c b
/-- After region 5. -/
def W12 (c : Dev nD) : Valuation τ sig (Elt F) := Function.update (W11 m X c) main_v77 (X.x_main_v77 (E11 m X) c)
/-- Before region 6: the host stretch `hostOps6` applied. -/
def W13 (c : Dev nD) : Valuation τ sig (Elt F) := StableHlo.after hostOps6 (W12 m X c)
/-- The same read at the TensorCore's references: region 6's entry contents. -/
abbrev E13 : EV F := fun c b => W13 m X c b
/-- After region 6. -/
def W14 (c : Dev nD) : Valuation τ sig (Elt F) := Function.update (Function.update (Function.update (W13 m X c) main_v94_0 (X.x_main_v94_0 (E13 m X) c)) main_v94_1 (X.x_main_v94_1 (E13 m X) c)) main_v94_2 (X.x_main_v94_2 (E13 m X) c)
/-- Before region 7: the host stretch `hostOps7` applied. -/
def W15 (c : Dev nD) : Valuation τ sig (Elt F) := StableHlo.after hostOps7 (W14 m X c)
/-- The same read at the TensorCore's references: region 7's entry contents. -/
abbrev E15 : EV F := fun c b => W15 m X c b
/-- After region 7. -/
def W16 (c : Dev nD) : Valuation τ sig (Elt F) := Function.update (W15 m X c) main_v103 (X.x_main_v103 (E15 m X) c)
/-- Before region 8: the host stretch `hostOps8` applied. -/
def W17 (c : Dev nD) : Valuation τ sig (Elt F) := StableHlo.after hostOps8 (W16 m X c)
/-- The same read at the TensorCore's references: region 8's entry contents. -/
abbrev E17 : EV F := fun c b => W17 m X c b
/-- After region 8. -/
def W18 (c : Dev nD) : Valuation τ sig (Elt F) := Function.update (Function.update (Function.update (W17 m X c) main_v120_0 (X.x_main_v120_0 (E17 m X) c)) main_v120_1 (X.x_main_v120_1 (E17 m X) c)) main_v120_2 (X.x_main_v120_2 (E17 m X) c)
/-- Before region 9: the host stretch `hostOps9` applied. -/
def W19 (c : Dev nD) : Valuation τ sig (Elt F) := StableHlo.after hostOps9 (W18 m X c)
/-- The same read at the TensorCore's references: region 9's entry contents. -/
abbrev E19 : EV F := fun c b => W19 m X c b
/-- After region 9. -/
def W20 (c : Dev nD) : Valuation τ sig (Elt F) := Function.update (W19 m X c) main_v129 (X.x_main_v129 (E19 m X) c)
/-- Before region 10: the host stretch `hostOps10` applied. -/
def W21 (c : Dev nD) : Valuation τ sig (Elt F) := StableHlo.after hostOps10 (W20 m X c)
/-- The same read at the TensorCore's references: region 10's entry contents. -/
abbrev E21 : EV F := fun c b => W21 m X c b
/-- After region 10. -/
def W22 (c : Dev nD) : Valuation τ sig (Elt F) := Function.update (Function.update (Function.update (W21 m X c) main_v146_0 (X.x_main_v146_0 (E21 m X) c)) main_v146_1 (X.x_main_v146_1 (E21 m X) c)) main_v146_2 (X.x_main_v146_2 (E21 m X) c)
/-- Before region 11: the host stretch `hostOps11` applied. -/
def W23 (c : Dev nD) : Valuation τ sig (Elt F) := StableHlo.after hostOps11 (W22 m X c)
/-- The same read at the TensorCore's references: region 11's entry contents. -/
abbrev E23 : EV F := fun c b => W23 m X c b
/-- After region 11. -/
def W24 (c : Dev nD) : Valuation τ sig (Elt F) := Function.update (W23 m X c) main_v155 (X.x_main_v155 (E23 m X) c)
/-- Before region 12: the host stretch `hostOps12` applied. -/
def W25 (c : Dev nD) : Valuation τ sig (Elt F) := StableHlo.after hostOps12 (W24 m X c)
/-- The same read at the TensorCore's references: region 12's entry contents. -/
abbrev E25 : EV F := fun c b => W25 m X c b
/-- After region 12. -/
def W26 (c : Dev nD) : Valuation τ sig (Elt F) := Function.update (W25 m X c) main_v172 (X.x_main_v172 (E25 m X) c)
/-- Before region 13: the host stretch `hostOps13` applied. -/
def W27 (c : Dev nD) : Valuation τ sig (Elt F) := StableHlo.after hostOps13 (W26 m X c)
/-- The same read at the TensorCore's references: region 13's entry contents. -/
abbrev E27 : EV F := fun c b => W27 m X c b
/-- After region 13. -/
def W28 (c : Dev nD) : Valuation τ sig (Elt F) := Function.update (W27 m X c) main_v189 (X.x_main_v189 (E27 m X) c)
/-- At the end: the last host stretch applied. -/
def W29 (c : Dev nD) : Valuation τ sig (Elt F) := StableHlo.after hostOps14 (W28 m X c)

/-- The regions' unknowns, read off the chain. -/
def outs : Outs (F := F) := fun J r c => match J with
  | 2 => W2 m X c r
  | 4 => W4 m X c r
  | 6 => W6 m X c r
  | 8 => W8 m X c r
  | 10 => W10 m X c r
  | 12 => W12 m X c r
  | 14 => W14 m X c r
  | 16 => W16 m X c r
  | 18 => W18 m X c r
  | 20 => W20 m X c r
  | 22 => W22 m X c r
  | 24 => W24 m X c r
  | 26 => W26 m X c r
  | 28 => W28 m X c r
  | _ => W0 m c r

theorem W_eq0 (c : Dev nD) : V0 m c = W0 m c := rfl
theorem W_eq1 (c : Dev nD) : V1 m c = W1 m c := by
  show StableHlo.after hostOps0 (V0 m c) = StableHlo.after hostOps0 (W0 m c)
  rw [W_eq0]
theorem W_eq2 (c : Dev nD) : V2 m (outs m X) c = W2 m X c := by
  show Function.update (Function.update (Function.update (V1 m c) main_v16_0 (W2 m X c main_v16_0)) main_v16_1 (W2 m X c main_v16_1)) main_v16_2 (W2 m X c main_v16_2) = W2 m X c
  rw [W_eq1]
  unfold W2
  exact upd3_fix _ _ _ _ _ _ _ (StableHlo.devRef_ne_of_ne (by decide)) (StableHlo.devRef_ne_of_ne (by decide)) (StableHlo.devRef_ne_of_ne (by decide))
theorem W_eq3 (c : Dev nD) : V3 m (outs m X) c = W3 m X c := by
  show StableHlo.after hostOps1 (V2 m (outs m X) c) = StableHlo.after hostOps1 (W2 m X c)
  rw [W_eq2]
theorem W_eq4 (c : Dev nD) : V4 m (outs m X) c = W4 m X c := by
  show Function.update (V3 m (outs m X) c) main_v25 (W4 m X c main_v25) = W4 m X c
  rw [W_eq3]
  unfold W4
  exact upd1_fix _ _ _
theorem W_eq5 (c : Dev nD) : V5 m (outs m X) c = W5 m X c := by
  show StableHlo.after hostOps2 (V4 m (outs m X) c) = StableHlo.after hostOps2 (W4 m X c)
  rw [W_eq4]
theorem W_eq6 (c : Dev nD) : V6 m (outs m X) c = W6 m X c := by
  show Function.update (Function.update (Function.update (V5 m (outs m X) c) main_v42_0 (W6 m X c main_v42_0)) main_v42_1 (W6 m X c main_v42_1)) main_v42_2 (W6 m X c main_v42_2) = W6 m X c
  rw [W_eq5]
  unfold W6
  exact upd3_fix _ _ _ _ _ _ _ (StableHlo.devRef_ne_of_ne (by decide)) (StableHlo.devRef_ne_of_ne (by decide)) (StableHlo.devRef_ne_of_ne (by decide))
theorem W_eq7 (c : Dev nD) : V7 m (outs m X) c = W7 m X c := by
  show StableHlo.after hostOps3 (V6 m (outs m X) c) = StableHlo.after hostOps3 (W6 m X c)
  rw [W_eq6]
theorem W_eq8 (c : Dev nD) : V8 m (outs m X) c = W8 m X c := by
  show Function.update (V7 m (outs m X) c) main_v51 (W8 m X c main_v51) = W8 m X c
  rw [W_eq7]
  unfold W8
  exact upd1_fix _ _ _
theorem W_eq9 (c : Dev nD) : V9 m (outs m X) c = W9 m X c := by
  show StableHlo.after hostOps4 (V8 m (outs m X) c) = StableHlo.after hostOps4 (W8 m X c)
  rw [W_eq8]
theorem W_eq10 (c : Dev nD) : V10 m (outs m X) c = W10 m X c := by
  show Function.update (Function.update (Function.update (V9 m (outs m X) c) main_v68_0 (W10 m X c main_v68_0)) main_v68_1 (W10 m X c main_v68_1)) main_v68_2 (W10 m X c main_v68_2) = W10 m X c
  rw [W_eq9]
  unfold W10
  exact upd3_fix _ _ _ _ _ _ _ (StableHlo.devRef_ne_of_ne (by decide)) (StableHlo.devRef_ne_of_ne (by decide)) (StableHlo.devRef_ne_of_ne (by decide))
theorem W_eq11 (c : Dev nD) : V11 m (outs m X) c = W11 m X c := by
  show StableHlo.after hostOps5 (V10 m (outs m X) c) = StableHlo.after hostOps5 (W10 m X c)
  rw [W_eq10]
theorem W_eq12 (c : Dev nD) : V12 m (outs m X) c = W12 m X c := by
  show Function.update (V11 m (outs m X) c) main_v77 (W12 m X c main_v77) = W12 m X c
  rw [W_eq11]
  unfold W12
  exact upd1_fix _ _ _
theorem W_eq13 (c : Dev nD) : V13 m (outs m X) c = W13 m X c := by
  show StableHlo.after hostOps6 (V12 m (outs m X) c) = StableHlo.after hostOps6 (W12 m X c)
  rw [W_eq12]
theorem W_eq14 (c : Dev nD) : V14 m (outs m X) c = W14 m X c := by
  show Function.update (Function.update (Function.update (V13 m (outs m X) c) main_v94_0 (W14 m X c main_v94_0)) main_v94_1 (W14 m X c main_v94_1)) main_v94_2 (W14 m X c main_v94_2) = W14 m X c
  rw [W_eq13]
  unfold W14
  exact upd3_fix _ _ _ _ _ _ _ (StableHlo.devRef_ne_of_ne (by decide)) (StableHlo.devRef_ne_of_ne (by decide)) (StableHlo.devRef_ne_of_ne (by decide))
theorem W_eq15 (c : Dev nD) : V15 m (outs m X) c = W15 m X c := by
  show StableHlo.after hostOps7 (V14 m (outs m X) c) = StableHlo.after hostOps7 (W14 m X c)
  rw [W_eq14]
theorem W_eq16 (c : Dev nD) : V16 m (outs m X) c = W16 m X c := by
  show Function.update (V15 m (outs m X) c) main_v103 (W16 m X c main_v103) = W16 m X c
  rw [W_eq15]
  unfold W16
  exact upd1_fix _ _ _
theorem W_eq17 (c : Dev nD) : V17 m (outs m X) c = W17 m X c := by
  show StableHlo.after hostOps8 (V16 m (outs m X) c) = StableHlo.after hostOps8 (W16 m X c)
  rw [W_eq16]
theorem W_eq18 (c : Dev nD) : V18 m (outs m X) c = W18 m X c := by
  show Function.update (Function.update (Function.update (V17 m (outs m X) c) main_v120_0 (W18 m X c main_v120_0)) main_v120_1 (W18 m X c main_v120_1)) main_v120_2 (W18 m X c main_v120_2) = W18 m X c
  rw [W_eq17]
  unfold W18
  exact upd3_fix _ _ _ _ _ _ _ (StableHlo.devRef_ne_of_ne (by decide)) (StableHlo.devRef_ne_of_ne (by decide)) (StableHlo.devRef_ne_of_ne (by decide))
theorem W_eq19 (c : Dev nD) : V19 m (outs m X) c = W19 m X c := by
  show StableHlo.after hostOps9 (V18 m (outs m X) c) = StableHlo.after hostOps9 (W18 m X c)
  rw [W_eq18]
theorem W_eq20 (c : Dev nD) : V20 m (outs m X) c = W20 m X c := by
  show Function.update (V19 m (outs m X) c) main_v129 (W20 m X c main_v129) = W20 m X c
  rw [W_eq19]
  unfold W20
  exact upd1_fix _ _ _
theorem W_eq21 (c : Dev nD) : V21 m (outs m X) c = W21 m X c := by
  show StableHlo.after hostOps10 (V20 m (outs m X) c) = StableHlo.after hostOps10 (W20 m X c)
  rw [W_eq20]
theorem W_eq22 (c : Dev nD) : V22 m (outs m X) c = W22 m X c := by
  show Function.update (Function.update (Function.update (V21 m (outs m X) c) main_v146_0 (W22 m X c main_v146_0)) main_v146_1 (W22 m X c main_v146_1)) main_v146_2 (W22 m X c main_v146_2) = W22 m X c
  rw [W_eq21]
  unfold W22
  exact upd3_fix _ _ _ _ _ _ _ (StableHlo.devRef_ne_of_ne (by decide)) (StableHlo.devRef_ne_of_ne (by decide)) (StableHlo.devRef_ne_of_ne (by decide))
theorem W_eq23 (c : Dev nD) : V23 m (outs m X) c = W23 m X c := by
  show StableHlo.after hostOps11 (V22 m (outs m X) c) = StableHlo.after hostOps11 (W22 m X c)
  rw [W_eq22]
theorem W_eq24 (c : Dev nD) : V24 m (outs m X) c = W24 m X c := by
  show Function.update (V23 m (outs m X) c) main_v155 (W24 m X c main_v155) = W24 m X c
  rw [W_eq23]
  unfold W24
  exact upd1_fix _ _ _
theorem W_eq25 (c : Dev nD) : V25 m (outs m X) c = W25 m X c := by
  show StableHlo.after hostOps12 (V24 m (outs m X) c) = StableHlo.after hostOps12 (W24 m X c)
  rw [W_eq24]
theorem W_eq26 (c : Dev nD) : V26 m (outs m X) c = W26 m X c := by
  show Function.update (V25 m (outs m X) c) main_v172 (W26 m X c main_v172) = W26 m X c
  rw [W_eq25]
  unfold W26
  exact upd1_fix _ _ _
theorem W_eq27 (c : Dev nD) : V27 m (outs m X) c = W27 m X c := by
  show StableHlo.after hostOps13 (V26 m (outs m X) c) = StableHlo.after hostOps13 (W26 m X c)
  rw [W_eq26]
theorem W_eq28 (c : Dev nD) : V28 m (outs m X) c = W28 m X c := by
  show Function.update (V27 m (outs m X) c) main_v189 (W28 m X c main_v189) = W28 m X c
  rw [W_eq27]
  unfold W28
  exact upd1_fix _ _ _
theorem W_eq29 (c : Dev nD) : V29 m (outs m X) c = W29 m X c := by
  show StableHlo.after hostOps14 (V28 m (outs m X) c) = StableHlo.after hostOps14 (W28 m X c)
  rw [W_eq28]

end Cert.Kernel.Hand

end
-- ==== Proof.LibWholeStore.lean ====
/-
  A buffer whose last store wrote the whole shape.

  A kernel body that loads and stores whole staging buffers does so through the rectangle of the buffer's own
  sizes at zero offsets. Whatever earlier stores a buffer has seen, once a store through that rectangle comes
  last the buffer reads as that store's payload, and so does a load of the whole shape after it.
-/
import Idealize.ShloMosaic.Lib.Pipeline.FrameBody
import Idealize.ShloMosaic.Lib.Pipeline.Value

namespace Cert.LibWholeStore

open Idealize.ShloMosaic

/-- The zero offsets of a rank-2 access, however spelt. -/
theorem hz2 : (![0, 0] : Fin 2 → Nat) = fun _ => 0 := funext fun a => by fin_cases a <;> rfl

/-- A load of the whole shape after stores the LAST of which wrote the whole shape reads that store's payload. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- A buffer whose LAST store wrote the whole shape reads as that store's payload. -/
theorem read_writes_cons_unit_zero {Val : EltTy → Type} [∀ e, Nonempty (Val e)] {sig : RefSig} {κ : Kind} {sp : Space} {S : Shape} {e : EltTy}
    (v : View sig κ sp S e) (f : v.ty.Contents Val) {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

end Cert.LibWholeStore
-- ==== Proof.K_Stats0.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.Kernel.Hand

open Cert.Kernel Cert.Kernel.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond0 (i : grid0.Coords) : Prop := (Scalar.cmpi .ne (Scalar.extui (Scalar.cmpi .eq (BitVec.ofNat 32 (i 0).val) 0#32)) 0#32) = 1#1
/-- It holds at the first point only: decided over the grid. -/
theorem hcond0 : ∀ t : Fin cfg0.N, cond0 (grid0.coords t) ↔ t.val % 10 = 0 :=
  (by decide +kernel : ∀ t : Fin grid0.N, cond0 (grid0.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel0_B (c : Dev nD) (E : Set ℕ) (i : grid0.Coords)
    (arg1 : Memref sig .tc .vmem S5000x256 .f32) (harg1 : arg1.IsWhole) (arg2 : Memref sig .tc .vmem S5000x256 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : ¬cond0 i)
    (x1 x2 : Vec F S5000x256 .f32) (x3 : Vec F S256x128 .f32) (x4 : Vec F S1x128 .f32) (a8 a9 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay3 x1 x2 x3 x4)
            ∗ owns (c : Thread nD τ) arg6 fullShare (k0_pay4 x1 x2 x3 x4 a8) ∗ owns (c : Thread nD τ) arg7 fullShare (k0_pay5 x1 x2 x3 x4 a9)
            ∗ owns (c : Thread nD τ) arg8 fullShare (k0_pay4 x1 x2 x3 x4 a8) ∗ owns (c : Thread nD τ) arg9 fullShare (k0_pay5 x1 x2 x3 x4 a9)) -∗ K ⟨⟩))
      ⊢ wp frame (wpE (defs₀ (F := F)) Variants.none c none) E
          (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x256) hz2, View.ld_unit_zero (S := S256x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]

set_option maxHeartbeats 1000000 in
/-- The body at the first point (the reset taken): the accumulators, at anything, are zeroed first. -/
theorem sound_kernel0_A (c : Dev nD) (E : Set ℕ) (i : grid0.Coords)
    (arg1 : Memref sig .tc .vmem S5000x256 .f32) (harg1 : arg1.IsWhole) (arg2 : Memref sig .tc .vmem S5000x256 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : cond0 i)
    (x1 x2 : Vec F S5000x256 .f32) (x3 : Vec F S256x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay3 x1 x2 x3 x4)
            ∗ owns (c : Thread nD τ) arg6 fullShare (k0_pay4 x1 x2 x3 x4 (k0_pay1 (F := F))) ∗ owns (c : Thread nD τ) arg7 fullShare (k0_pay5 x1 x2 x3 x4 (k0_pay2 (F := F)))
            ∗ owns (c : Thread nD τ) arg8 fullShare (k0_pay4 x1 x2 x3 x4 (k0_pay1 (F := F))) ∗ owns (c : Thread nD τ) arg9 fullShare (k0_pay5 x1 x2 x3 x4 (k0_pay2 (F := F)))) -∗ K ⟨⟩))
      ⊢ wp frame (wpE (defs₀ (F := F)) Variants.none c none) E
          (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x256) hz2, View.ld_unit_zero (S := S256x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The linear layer's tile at point `t`: `(x + agg) W + b` on the point's rows. -/
def hblk0 (c : Dev nD) (t : Fin cfg0.N) : FVec F S5000x128 .f32 :=
  k0_pay3 (iblk0 V c 0 t) (iblk0 V c 1 t) (iblk0 V c 2 t) (iblk0 V c 3 t)

theorem N0_eq : cfg0.N = 10 := N_0

/-- The point numbered `n` (modulo the grid's ten points, so that the recursions below need no side condition). -/
def pt0 (n : ℕ) : Fin cfg0.N := ⟨n % 10, by rw [N0_eq]; exact Nat.mod_lt _ (by decide)⟩

theorem pt0_val (t : Fin cfg0.N) : pt0 t.val = t :=
  Fin.ext (Nat.mod_eq_of_lt (lt_of_lt_of_eq t.isLt N0_eq))

/-- The column sums of the tiles of points `0..n`, accumulated in the grid's order from zero. -/
def accS0 (c : Dev nD) : ℕ → FVec F S1x128 .f32
  | 0 => k0_pay4 (iblk0 V c 0 (pt0 0)) (iblk0 V c 1 (pt0 0)) (iblk0 V c 2 (pt0 0)) (iblk0 V c 3 (pt0 0)) (k0_pay1 (F := F))
  | n + 1 => k0_pay4 (iblk0 V c 0 (pt0 (n + 1))) (iblk0 V c 1 (pt0 (n + 1))) (iblk0 V c 2 (pt0 (n + 1))) (iblk0 V c 3 (pt0 (n + 1))) (accS0 c n)

/-- The column sums of the squared tiles of points `0..n`, accumulated in the grid's order from zero. -/
def accQ0 (c : Dev nD) : ℕ → FVec F S1x128 .f32
  | 0 => k0_pay5 (iblk0 V c 0 (pt0 0)) (iblk0 V c 1 (pt0 0)) (iblk0 V c 2 (pt0 0)) (iblk0 V c 3 (pt0 0)) (k0_pay2 (F := F))
  | n + 1 => k0_pay5 (iblk0 V c 0 (pt0 (n + 1))) (iblk0 V c 1 (pt0 (n + 1))) (iblk0 V c 2 (pt0 (n + 1))) (iblk0 V c 3 (pt0 (n + 1))) (accQ0 c n)

theorem accS0_zero (c : Dev nD) (t : Fin cfg0.N) (h : t.val = 0) :
    accS0 V c 0 = k0_pay4 (iblk0 V c 0 t) (iblk0 V c 1 t) (iblk0 V c 2 t) (iblk0 V c 3 t) (k0_pay1 (F := F)) := by
  have e : pt0 0 = t := by rw [← h]; exact pt0_val t
  rw [accS0, e]
theorem accS0_succ (c : Dev nD) (t : Fin cfg0.N) (n : ℕ) (h : t.val = n + 1) :
    accS0 V c (n + 1) = k0_pay4 (iblk0 V c 0 t) (iblk0 V c 1 t) (iblk0 V c 2 t) (iblk0 V c 3 t) (accS0 V c n) := by
  have e : pt0 (n + 1) = t := by rw [← h]; exact pt0_val t
  rw [accS0, e]
theorem accQ0_zero (c : Dev nD) (t : Fin cfg0.N) (h : t.val = 0) :
    accQ0 V c 0 = k0_pay5 (iblk0 V c 0 t) (iblk0 V c 1 t) (iblk0 V c 2 t) (iblk0 V c 3 t) (k0_pay2 (F := F)) := by
  have e : pt0 0 = t := by rw [← h]; exact pt0_val t
  rw [accQ0, e]
theorem accQ0_succ (c : Dev nD) (t : Fin cfg0.N) (n : ℕ) (h : t.val = n + 1) :
    accQ0 V c (n + 1) = k0_pay5 (iblk0 V c 0 t) (iblk0 V c 1 t) (iblk0 V c 2 t) (iblk0 V c 3 t) (accQ0 V c n) := by
  have e : pt0 (n + 1) = t := by rw [← h]; exact pt0_val t
  rw [accQ0, e]

/-! ## The pipeline's proof data -/

/-- The two scratch accumulators before point `n`: at anything before the first point (the body resets them there),
    then at the running sums after the point before. -/
def scr0 (c : Dev nD) : ℕ → sProp 𝕄
  | 0 => iprop((∃ d, owns (c : Thread nD τ) (Memref.whole cc0_scratch0 : Memref sig .tc .vmem S1x128 .f32) fullShare d) ∗ (∃ d, owns (c : Thread nD τ) (Memref.whole cc0_scratch1 : Memref sig .tc .vmem S1x128 .f32) fullShare d))
  | n + 1 => iprop(owns (c : Thread nD τ) (Memref.whole cc0_scratch0 : Memref sig .tc .vmem S1x128 .f32) fullShare (accS0 V c n) ∗ owns (c : Thread nD τ) (Memref.whole cc0_scratch1 : Memref sig .tc .vmem S1x128 .f32) fullShare (accQ0 V c n))

theorem scr0_zero (c : Dev nD) : scr0 V c 0 = iprop((∃ d, owns (c : Thread nD τ) (Memref.whole cc0_scratch0 : Memref sig .tc .vmem S1x128 .f32) fullShare d) ∗ (∃ d, owns (c : Thread nD τ) (Memref.whole cc0_scratch1 : Memref sig .tc .vmem S1x128 .f32) fullShare d)) := rfl
theorem scr0_succ (c : Dev nD) (n : ℕ) : scr0 V c (n + 1) = iprop(owns (c : Thread nD τ) (Memref.whole cc0_scratch0 : Memref sig .tc .vmem S1x128 .f32) fullShare (accS0 V c n) ∗ owns (c : Thread nD τ) (Memref.whole cc0_scratch1 : Memref sig .tc .vmem S1x128 .f32) fullShare (accQ0 V c n)) := rfl

/-- The invariant between points: the generator register at some state, every scoped buffer that is neither a staging
    buffer nor one of the two accumulators at some contents, and the two accumulators. -/
def Φ0 (c : Dev nD) (t : Fin (cfg0.N + 1)) : sProp 𝕄 :=
  iprop((∃ r, prngReg c r)
    ∗ Pipeline.scopedRestBut (Ix := Unit) (Name := ℕ) (U := UR sig nD τ) (Lvl := ℕ) (Val := Elt F) spec0 c [cc0_scratch0, cc0_scratch1]
    ∗ scr0 V c t.val)

/-- The proof data of the pipeline on core `c`: the arrays as the region finds them; after the body at point `t` each
    input's buffer at its block, the first output's at the layer's tile, the two statistics outputs' at the running sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => hblk0 V c t
    | ⟨5, _⟩ => accS0 V c t.val
    | ⟨6, _⟩ => accQ0 V c t.val
  Φ t := Φ0 V c t
  q _ := fullShare
  owed _ := 0

theorem A_eq0 (c : Dev nD) (w : Fin cfg0.W) : (dat0 V c).A w = V c (Pipeline.arrRef spec0 w) := by
  dsimp only [dat0]
theorem Φ_eq0 (c : Dev nD) (t : Fin (cfg0.N + 1)) : (dat0 V c).Φ t = Φ0 V c t := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = hblk0 V c t := by dsimp only [dat0]
theorem after0_5 (c : Dev nD) (t : Fin cfg0.N) : (dat0 V c).after 5 t = accS0 V c t.val := by dsimp only [dat0]
theorem after0_6 (c : Dev nD) (t : Fin cfg0.N) : (dat0 V c).after 6 t = accQ0 V c t.val := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The reset is taken at the first point only. -/
theorem hcond0_zero (t : Fin cfg0.N) (h : t.val = 0) : cond0 (grid0.coords t) := (hcond0 t).mpr (by rw [h])
theorem hcond0_succ (t : Fin cfg0.N) (n : ℕ) (h : t.val = n + 1) : ¬cond0 (grid0.coords t) := fun hc => by
  have h1 := (hcond0 t).mp hc; have h2 := lt_of_lt_of_eq t.isLt N0_eq; omega

set_option maxHeartbeats 1000000 in
/-- The body at any point: the inputs' memrefs hold their blocks, the accumulators what the invariant says; at the first
    point the reset is taken, at a later point the accumulators carry the sums of the points before. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5, after0_6, Φ_eq0, Φ_eq0]
  unfold Φ0 hblk0
  rw [show (t.castSucc : Fin (cfg0.N + 1)).val = t.val from rfl, show (t.succ : Fin (cfg0.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr0_zero, scr0_succ, accS0_zero V c t h0, accQ0_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords t) _ _ _ _ _ _ _ _ _ _ _ _ _ _ _ _ _ _ (hcond0_zero t h0)
      (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr0_succ, scr0_succ, accS0_succ V c t n hn, accQ0_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) _ _ _ _ _ _ _ _ _ _ _ _ _ _ _ _ _ _ (hcond0_succ t n hn)
      (iblk0 V c 0 t) (iblk0 V c 1 t) (iblk0 V c 2 t) (iblk0 V c 3 t) (accS0 V c n) (accQ0 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- The accumulators, whatever they hold, are two scoped buffers at some contents; -/
theorem scr0_any (c : Dev nD) (n : ℕ) :
    scr0 V c n ⊢ iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) := by
  cases n with
  | zero =>
    rw [scr0_zero]
    iintro ⟨⟨%d8, H8⟩, ⟨%d9, H9⟩⟩
    isplitl [H8]
    · iexists d8; iapply (Entails.of_eq (owns_whole (c : Thread nD τ) cc0_scratch0 fullShare d8)) $$ H8
    · iexists d9; iapply (Entails.of_eq (owns_whole (c : Thread nD τ) cc0_scratch1 fullShare d9)) $$ H9
  | succ n =>
    rw [scr0_succ]
    iintro ⟨H8, H9⟩
    isplitl [H8]
    · iexists (accS0 V c n); iapply (Entails.of_eq (owns_whole (c : Thread nD τ) cc0_scratch0 fullShare (accS0 V c n))) $$ H8
    · iexists (accQ0 V c n); iapply (Entails.of_eq (owns_whole (c : Thread nD τ) cc0_scratch1 fullShare (accQ0 V c n))) $$ H9

/-- and before the first point any contents will do. -/
theorem scr0_intro (c : Dev nD) :
    iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ⊢ scr0 V c 0 := by
  rw [scr0_zero]
  iintro ⟨⟨%f8, H8⟩, ⟨%f9, H9⟩⟩
  isplitl [H8]
  · iexists f8; iapply (Entails.of_eq (owns_whole (c : Thread nD τ) cc0_scratch0 fullShare f8).symm) $$ H8
  · iexists f9; iapply (Entails.of_eq (owns_whole (c : Thread nD τ) cc0_scratch1 fullShare f9).symm) $$ H9

/-- The invariant at the first point, from the generator register, the tables (unused) and the scoped rest. -/
theorem hin0 (c : Dev nD) (T : (pcfgs (F := F) 0).pre.Contents (Elt F)) :
    iprop((∃ r, prngReg c r) ∗ Pipeline.prefHeld (pcfgs (F := F) 0).pre c (fun _ => fullShare) T ∗ Pipeline.scopedRest spec0 c)
      ⊢ (dat0 V c).Φ 0 := by
  rw [Φ_eq0, scopedRest0_split]; unfold Φ0
  iintro ⟨Hr, -, Hs, Hrest⟩
  isplitl [Hr]; · iexact Hr
  isplitl [Hrest]; · iexact Hrest
  iapply (scr0_intro V c) $$ Hs

/-- The invariant at the last point gives them back. -/
theorem hout0 (c : Dev nD) :
    (dat0 V c).Φ (Fin.last _) ⊢ iprop((∃ r, prngReg c r) ∗ Pipeline.ownSems0 (fun k : PEmpty => k.elim) c ∗ Pipeline.scopedRest spec0 c) := by
  rw [Φ_eq0, Pipeline.ownSems0_none, scopedRest0_split]; unfold Φ0
  iintro ⟨Hr, Hrest, Hs⟩
  isplitl [Hr]; · iexact Hr
  isplitr; · iempintro
  isplitl [Hs]
  · iapply (scr0_any V c _) $$ Hs
  iexact Hrest

end Region

end Cert.Kernel.Hand

end
-- ==== Proof.K_Bn1.lean ====
/- The frame package of region 1: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry valuation's and whose body leaves the block in place: at a point where the window
    is not fetched its block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is the entry valuation's and whose body leaves the block in place: at a point where the window
    is not fetched its block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is the entry valuation's and whose body leaves the block in place: at a point where the window
    is not fetched its block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is the entry valuation's and whose body leaves the block in place: at a point where the window
    is not fetched its block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is the entry valuation's and whose body leaves the block in place: at a point where the window
    is not fetched its block index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- Window 5's staging buffer after the body, from the input windows' blocks: its one store as a piece. -/
def out1_5 (x0 : Vec F S5000x128 .f32) (x1 : Vec F S1x128 .f32) (x2 : Vec F S1x128 .f32) (x3 : Vec F S1x128 .f32) (x4 : Vec F S1x128 .f32) : Vec F S5000x128 .f32 :=
  View.canon [⟨r1_0, k1_pay1 (View.ld x0 r1_0) (View.ld x1 r1_1) (View.ld x2 r1_1) (View.ld x3 r1_1) (View.ld x4 r1_1)⟩]

/-- The store tiles the buffer, so it covers it. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-- The zero offsets, as a function. -/
theorem zeros1 : (![0, 0] : Fin 2 → Nat) = fun _ => 0 := funext fun a => by fin_cases a <;> rfl

/-- Every input is loaded whole and the store is whole: the output's buffer holds the payload of the inputs' contents. -/
theorem out1_5_eq (x0 : Vec F S5000x128 .f32) (x1 : Vec F S1x128 .f32) (x2 : Vec F S1x128 .f32) (x3 : Vec F S1x128 .f32) (x4 : Vec F S1x128 .f32) :
    out1_5 x0 x1 x2 x3 x4 = k1_pay1 x0 x1 x2 x3 x4 := by
  unfold out1_5
  rw [View.canon_unit_zero (S := S5000x128) zeros1 inb_S5000x128_S5000x128_0_0,
    View.ld_unit_zero (S := S5000x128) zeros1 inb_S5000x128_S5000x128_0_0 x0,
    View.ld_unit_zero (S := S1x128) zeros1 inb_S1x128_S1x128_0_0 x1,
    View.ld_unit_zero (S := S1x128) zeros1 inb_S1x128_S1x128_0_0 x2,
    View.ld_unit_zero (S := S1x128) zeros1 inb_S1x128_S1x128_0_0 x3,
    View.ld_unit_zero (S := S1x128) zeros1 inb_S1x128_S1x128_0_0 x4]

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays as the region finds them (`V`); after the body at
    point `t` each input's buffer at its block and the output's at `out1_5` of the input blocks; the invariant: the
    scoped rest and the pseudo-random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K_Stats2.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.Kernel.Hand

open Cert.Kernel Cert.Kernel.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond2 (i : grid2.Coords) : Prop := (Scalar.cmpi .ne (Scalar.extui (Scalar.cmpi .eq (BitVec.ofNat 32 (i 0).val) 0#32)) 0#32) = 1#1
/-- It holds at the first point only: decided over the grid. -/
theorem hcond2 : ∀ t : Fin cfg2.N, cond2 (grid2.coords t) ↔ t.val % 10 = 0 :=
  (by decide +kernel : ∀ t : Fin grid2.N, cond2 (grid2.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel2_B (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : ¬cond2 i)
    (x1 x2 : Vec F S5000x128 .f32) (x3 : Vec F S128x128 .f32) (x4 : Vec F S1x128 .f32) (a8 a9 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k2_pay3 x1 x2 x3 x4)
            ∗ owns (c : Thread nD τ) arg6 fullShare (k2_pay4 x1 x2 x3 x4 a8) ∗ owns (c : Thread nD τ) arg7 fullShare (k2_pay5 x1 x2 x3 x4 a9)
            ∗ owns (c : Thread nD τ) arg8 fullShare (k2_pay4 x1 x2 x3 x4 a8) ∗ owns (c : Thread nD τ) arg9 fullShare (k2_pay5 x1 x2 x3 x4 a9)) -∗ K ⟨⟩))
      ⊢ wp frame (wpE (defs₀ (F := F)) Variants.none c none) E
          (cc2__linear_stats_kernel i arg1 harg1 arg2 harg2 arg3 harg3 arg4 harg4 arg5 harg5 arg6 harg6 arg7 harg7 arg8 harg8 arg9 harg9) K := by
  simp only [cc2__linear_stats_kernel_eq_skeleton]; unfold cc2__linear_stats_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x128) hz2, View.ld_unit_zero (S := S128x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x128) hz2, View.ld_unit_zero (S := S128x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x128) hz2, View.ld_unit_zero (S := S128x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x128) hz2, View.ld_unit_zero (S := S128x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x128) hz2, View.ld_unit_zero (S := S128x128) hz2, View.ld_unit_zero (S := S1x128) hz2]

set_option maxHeartbeats 1000000 in
/-- The body at the first point (the reset taken): the accumulators, at anything, are zeroed first. -/
theorem sound_kernel2_A (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : cond2 i)
    (x1 x2 : Vec F S5000x128 .f32) (x3 : Vec F S128x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k2_pay3 x1 x2 x3 x4)
            ∗ owns (c : Thread nD τ) arg6 fullShare (k2_pay4 x1 x2 x3 x4 (k2_pay1 (F := F))) ∗ owns (c : Thread nD τ) arg7 fullShare (k2_pay5 x1 x2 x3 x4 (k2_pay2 (F := F)))
            ∗ owns (c : Thread nD τ) arg8 fullShare (k2_pay4 x1 x2 x3 x4 (k2_pay1 (F := F))) ∗ owns (c : Thread nD τ) arg9 fullShare (k2_pay5 x1 x2 x3 x4 (k2_pay2 (F := F)))) -∗ K ⟨⟩))
      ⊢ wp frame (wpE (defs₀ (F := F)) Variants.none c none) E
          (cc2__linear_stats_kernel i arg1 harg1 arg2 harg2 arg3 harg3 arg4 harg4 arg5 harg5 arg6 harg6 arg7 harg7 arg8 harg8 arg9 harg9) K := by
  simp only [cc2__linear_stats_kernel_eq_skeleton]; unfold cc2__linear_stats_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x128) hz2, View.ld_unit_zero (S := S128x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x128) hz2, View.ld_unit_zero (S := S128x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x128) hz2, View.ld_unit_zero (S := S128x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x128) hz2, View.ld_unit_zero (S := S128x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x128) hz2, View.ld_unit_zero (S := S128x128) hz2, View.ld_unit_zero (S := S1x128) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The linear layer's tile at point `t`: `(x + agg) W + b` on the point's rows. -/
def hblk2 (c : Dev nD) (t : Fin cfg2.N) : FVec F S5000x128 .f32 :=
  k2_pay3 (iblk2 V c 0 t) (iblk2 V c 1 t) (iblk2 V c 2 t) (iblk2 V c 3 t)

theorem N2_eq : cfg2.N = 10 := N_2

/-- The point numbered `n` (modulo the grid's ten points, so that the recursions below need no side condition). -/
def pt2 (n : ℕ) : Fin cfg2.N := ⟨n % 10, by rw [N2_eq]; exact Nat.mod_lt _ (by decide)⟩

theorem pt2_val (t : Fin cfg2.N) : pt2 t.val = t :=
  Fin.ext (Nat.mod_eq_of_lt (lt_of_lt_of_eq t.isLt N2_eq))

/-- The column sums of the tiles of points `0..n`, accumulated in the grid's order from zero. -/
def accS2 (c : Dev nD) : ℕ → FVec F S1x128 .f32
  | 0 => k2_pay4 (iblk2 V c 0 (pt2 0)) (iblk2 V c 1 (pt2 0)) (iblk2 V c 2 (pt2 0)) (iblk2 V c 3 (pt2 0)) (k2_pay1 (F := F))
  | n + 1 => k2_pay4 (iblk2 V c 0 (pt2 (n + 1))) (iblk2 V c 1 (pt2 (n + 1))) (iblk2 V c 2 (pt2 (n + 1))) (iblk2 V c 3 (pt2 (n + 1))) (accS2 c n)

/-- The column sums of the squared tiles of points `0..n`, accumulated in the grid's order from zero. -/
def accQ2 (c : Dev nD) : ℕ → FVec F S1x128 .f32
  | 0 => k2_pay5 (iblk2 V c 0 (pt2 0)) (iblk2 V c 1 (pt2 0)) (iblk2 V c 2 (pt2 0)) (iblk2 V c 3 (pt2 0)) (k2_pay2 (F := F))
  | n + 1 => k2_pay5 (iblk2 V c 0 (pt2 (n + 1))) (iblk2 V c 1 (pt2 (n + 1))) (iblk2 V c 2 (pt2 (n + 1))) (iblk2 V c 3 (pt2 (n + 1))) (accQ2 c n)

theorem accS2_zero (c : Dev nD) (t : Fin cfg2.N) (h : t.val = 0) :
    accS2 V c 0 = k2_pay4 (iblk2 V c 0 t) (iblk2 V c 1 t) (iblk2 V c 2 t) (iblk2 V c 3 t) (k2_pay1 (F := F)) := by
  have e : pt2 0 = t := by rw [← h]; exact pt2_val t
  rw [accS2, e]
theorem accS2_succ (c : Dev nD) (t : Fin cfg2.N) (n : ℕ) (h : t.val = n + 1) :
    accS2 V c (n + 1) = k2_pay4 (iblk2 V c 0 t) (iblk2 V c 1 t) (iblk2 V c 2 t) (iblk2 V c 3 t) (accS2 V c n) := by
  have e : pt2 (n + 1) = t := by rw [← h]; exact pt2_val t
  rw [accS2, e]
theorem accQ2_zero (c : Dev nD) (t : Fin cfg2.N) (h : t.val = 0) :
    accQ2 V c 0 = k2_pay5 (iblk2 V c 0 t) (iblk2 V c 1 t) (iblk2 V c 2 t) (iblk2 V c 3 t) (k2_pay2 (F := F)) := by
  have e : pt2 0 = t := by rw [← h]; exact pt2_val t
  rw [accQ2, e]
theorem accQ2_succ (c : Dev nD) (t : Fin cfg2.N) (n : ℕ) (h : t.val = n + 1) :
    accQ2 V c (n + 1) = k2_pay5 (iblk2 V c 0 t) (iblk2 V c 1 t) (iblk2 V c 2 t) (iblk2 V c 3 t) (accQ2 V c n) := by
  have e : pt2 (n + 1) = t := by rw [← h]; exact pt2_val t
  rw [accQ2, e]

/-! ## The pipeline's proof data -/

/-- The two scratch accumulators before point `n`: at anything before the first point (the body resets them there),
    then at the running sums after the point before. -/
def scr2 (c : Dev nD) : ℕ → sProp 𝕄
  | 0 => iprop((∃ d, owns (c : Thread nD τ) (Memref.whole cc2_scratch0 : Memref sig .tc .vmem S1x128 .f32) fullShare d) ∗ (∃ d, owns (c : Thread nD τ) (Memref.whole cc2_scratch1 : Memref sig .tc .vmem S1x128 .f32) fullShare d))
  | n + 1 => iprop(owns (c : Thread nD τ) (Memref.whole cc2_scratch0 : Memref sig .tc .vmem S1x128 .f32) fullShare (accS2 V c n) ∗ owns (c : Thread nD τ) (Memref.whole cc2_scratch1 : Memref sig .tc .vmem S1x128 .f32) fullShare (accQ2 V c n))

theorem scr2_zero (c : Dev nD) : scr2 V c 0 = iprop((∃ d, owns (c : Thread nD τ) (Memref.whole cc2_scratch0 : Memref sig .tc .vmem S1x128 .f32) fullShare d) ∗ (∃ d, owns (c : Thread nD τ) (Memref.whole cc2_scratch1 : Memref sig .tc .vmem S1x128 .f32) fullShare d)) := rfl
theorem scr2_succ (c : Dev nD) (n : ℕ) : scr2 V c (n + 1) = iprop(owns (c : Thread nD τ) (Memref.whole cc2_scratch0 : Memref sig .tc .vmem S1x128 .f32) fullShare (accS2 V c n) ∗ owns (c : Thread nD τ) (Memref.whole cc2_scratch1 : Memref sig .tc .vmem S1x128 .f32) fullShare (accQ2 V c n)) := rfl

/-- The invariant between points: the generator register at some state, every scoped buffer that is neither a staging
    buffer nor one of the two accumulators at some contents, and the two accumulators. -/
def Φ2 (c : Dev nD) (t : Fin (cfg2.N + 1)) : sProp 𝕄 :=
  iprop((∃ r, prngReg c r)
    ∗ Pipeline.scopedRestBut (Ix := Unit) (Name := ℕ) (U := UR sig nD τ) (Lvl := ℕ) (Val := Elt F) spec2 c [cc2_scratch0, cc2_scratch1]
    ∗ scr2 V c t.val)

/-- The proof data of the pipeline on core `c`: the arrays as the region finds them; after the body at point `t` each
    input's buffer at its block, the first output's at the layer's tile, the two statistics outputs' at the running sums. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => hblk2 V c t
    | ⟨5, _⟩ => accS2 V c t.val
    | ⟨6, _⟩ => accQ2 V c t.val
  Φ t := Φ2 V c t
  q _ := fullShare
  owed _ := 0

theorem A_eq2 (c : Dev nD) (w : Fin cfg2.W) : (dat2 V c).A w = V c (Pipeline.arrRef spec2 w) := by
  dsimp only [dat2]
theorem Φ_eq2 (c : Dev nD) (t : Fin (cfg2.N + 1)) : (dat2 V c).Φ t = Φ2 V c t := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = hblk2 V c t := by dsimp only [dat2]
theorem after2_5 (c : Dev nD) (t : Fin cfg2.N) : (dat2 V c).after 5 t = accS2 V c t.val := by dsimp only [dat2]
theorem after2_6 (c : Dev nD) (t : Fin cfg2.N) : (dat2 V c).after 6 t = accQ2 V c t.val := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The reset is taken at the first point only. -/
theorem hcond2_zero (t : Fin cfg2.N) (h : t.val = 0) : cond2 (grid2.coords t) := (hcond2 t).mpr (by rw [h])
theorem hcond2_succ (t : Fin cfg2.N) (n : ℕ) (h : t.val = n + 1) : ¬cond2 (grid2.coords t) := fun hc => by
  have h1 := (hcond2 t).mp hc; have h2 := lt_of_lt_of_eq t.isLt N2_eq; omega

set_option maxHeartbeats 1000000 in
/-- The body at any point: the inputs' memrefs hold their blocks, the accumulators what the invariant says; at the first
    point the reset is taken, at a later point the accumulators carry the sums of the points before. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    after2_0, after2_1, after2_2, after2_3, after2_4, after2_5, after2_6, Φ_eq2, Φ_eq2]
  unfold Φ2 hblk2
  rw [show (t.castSucc : Fin (cfg2.N + 1)).val = t.val from rfl, show (t.succ : Fin (cfg2.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr2_zero, scr2_succ, accS2_zero V c t h0, accQ2_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel2_A c Set.univ (grid2.coords t) _ _ _ _ _ _ _ _ _ _ _ _ _ _ _ _ _ _ (hcond2_zero t h0)
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr2_succ, scr2_succ, accS2_succ V c t n hn, accQ2_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel2_B c Set.univ (grid2.coords t) _ _ _ _ _ _ _ _ _ _ _ _ _ _ _ _ _ _ (hcond2_succ t n hn)
      (iblk2 V c 0 t) (iblk2 V c 1 t) (iblk2 V c 2 t) (iblk2 V c 3 t) (accS2 V c n) (accQ2 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- The accumulators, whatever they hold, are two scoped buffers at some contents; -/
theorem scr2_any (c : Dev nD) (n : ℕ) :
    scr2 V c n ⊢ iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) := by
  cases n with
  | zero =>
    rw [scr2_zero]
    iintro ⟨⟨%d8, H8⟩, ⟨%d9, H9⟩⟩
    isplitl [H8]
    · iexists d8; iapply (Entails.of_eq (owns_whole (c : Thread nD τ) cc2_scratch0 fullShare d8)) $$ H8
    · iexists d9; iapply (Entails.of_eq (owns_whole (c : Thread nD τ) cc2_scratch1 fullShare d9)) $$ H9
  | succ n =>
    rw [scr2_succ]
    iintro ⟨H8, H9⟩
    isplitl [H8]
    · iexists (accS2 V c n); iapply (Entails.of_eq (owns_whole (c : Thread nD τ) cc2_scratch0 fullShare (accS2 V c n))) $$ H8
    · iexists (accQ2 V c n); iapply (Entails.of_eq (owns_whole (c : Thread nD τ) cc2_scratch1 fullShare (accQ2 V c n))) $$ H9

/-- and before the first point any contents will do. -/
theorem scr2_intro (c : Dev nD) :
    iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ⊢ scr2 V c 0 := by
  rw [scr2_zero]
  iintro ⟨⟨%f8, H8⟩, ⟨%f9, H9⟩⟩
  isplitl [H8]
  · iexists f8; iapply (Entails.of_eq (owns_whole (c : Thread nD τ) cc2_scratch0 fullShare f8).symm) $$ H8
  · iexists f9; iapply (Entails.of_eq (owns_whole (c : Thread nD τ) cc2_scratch1 fullShare f9).symm) $$ H9

/-- The invariant at the first point, from the generator register, the tables (unused) and the scoped rest. -/
theorem hin2 (c : Dev nD) (T : (pcfgs (F := F) 2).pre.Contents (Elt F)) :
    iprop((∃ r, prngReg c r) ∗ Pipeline.prefHeld (pcfgs (F := F) 2).pre c (fun _ => fullShare) T ∗ Pipeline.scopedRest spec2 c)
      ⊢ (dat2 V c).Φ 0 := by
  rw [Φ_eq2, scopedRest2_split]; unfold Φ2
  iintro ⟨Hr, -, Hs, Hrest⟩
  isplitl [Hr]; · iexact Hr
  isplitl [Hrest]; · iexact Hrest
  iapply (scr2_intro V c) $$ Hs

/-- The invariant at the last point gives them back. -/
theorem hout2 (c : Dev nD) :
    (dat2 V c).Φ (Fin.last _) ⊢ iprop((∃ r, prngReg c r) ∗ Pipeline.ownSems0 (fun k : PEmpty => k.elim) c ∗ Pipeline.scopedRest spec2 c) := by
  rw [Φ_eq2, Pipeline.ownSems0_none, scopedRest2_split]; unfold Φ2
  iintro ⟨Hr, Hrest, Hs⟩
  isplitl [Hr]; · iexact Hr
  isplitr; · iempintro
  isplitl [Hs]
  · iapply (scr2_any V c _) $$ Hs
  iexact Hrest

end Region

end Cert.Kernel.Hand

end
-- ==== Proof.K_Bn3.lean ====
/- The frame package of region 3: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry valuation's and whose body leaves the block in place: at a point where the window
    is not fetched its block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is the entry valuation's and whose body leaves the block in place: at a point where the window
    is not fetched its block index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is the entry valuation's and whose body leaves the block in place: at a point where the window
    is not fetched its block index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is the entry valuation's and whose body leaves the block in place: at a point where the window
    is not fetched its block index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is the entry valuation's and whose body leaves the block in place: at a point where the window
    is not fetched its block index has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

/-! ## What the body leaves in the output window's buffer -/

/-- Window 5's staging buffer after the body, from the input windows' blocks: its one store as a piece. -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨r3_0, k3_pay1 (View.ld x0 r3_0) (View.ld x1 r3_1) (View.ld x2 r3_1) (View.ld x3 r3_1) (View.ld x4 r3_1)⟩]

/-- The store tiles the buffer, so it covers it. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-- The zero offsets, as a function. -/
theorem zeros3 : (![0, 0] : Fin 2 → Nat) = fun _ => 0 := funext fun a => by fin_cases a <;> rfl

/-- Every input is loaded whole and the store is whole: the output's buffer holds the payload of the inputs' contents. -/
theorem out3_5_eq (x0 : Vec F S5000x128 .f32) (x1 : Vec F S1x128 .f32) (x2 : Vec F S1x128 .f32) (x3 : Vec F S1x128 .f32) (x4 : Vec F S1x128 .f32) :
    out3_5 x0 x1 x2 x3 x4 = k3_pay1 x0 x1 x2 x3 x4 := by
  unfold out3_5
  rw [View.canon_unit_zero (S := S5000x128) zeros3 inb_S5000x128_S5000x128_0_0,
    View.ld_unit_zero (S := S5000x128) zeros3 inb_S5000x128_S5000x128_0_0 x0,
    View.ld_unit_zero (S := S1x128) zeros3 inb_S1x128_S1x128_0_0 x1,
    View.ld_unit_zero (S := S1x128) zeros3 inb_S1x128_S1x128_0_0 x2,
    View.ld_unit_zero (S := S1x128) zeros3 inb_S1x128_S1x128_0_0 x3,
    View.ld_unit_zero (S := S1x128) zeros3 inb_S1x128_S1x128_0_0 x4]

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the region's pipeline on core `c`: the arrays as the region finds them (`V`); after the body at
    point `t` each input's buffer at its block and the output's at `out3_5` of the input blocks; the invariant: the
    scoped rest and the pseudo-random-number register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K_Stats4.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.Kernel.Hand

open Cert.Kernel Cert.Kernel.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond4 (i : grid4.Coords) : Prop := (Scalar.cmpi .ne (Scalar.extui (Scalar.cmpi .eq (BitVec.ofNat 32 (i 0).val) 0#32)) 0#32) = 1#1
/-- It holds at the first point only: decided over the grid. -/
theorem hcond4 : ∀ t : Fin cfg4.N, cond4 (grid4.coords t) ↔ t.val % 10 = 0 :=
  (by decide +kernel : ∀ t : Fin grid4.N, cond4 (grid4.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel4_B (c : Dev nD) (E : Set ℕ) (i : grid4.Coords)
    (arg1 : Memref sig .tc .vmem S5000x256 .f32) (harg1 : arg1.IsWhole) (arg2 : Memref sig .tc .vmem S5000x256 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : ¬cond4 i)
    (x1 x2 : Vec F S5000x256 .f32) (x3 : Vec F S256x128 .f32) (x4 : Vec F S1x128 .f32) (a8 a9 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k4_pay3 x1 x2 x3 x4)
            ∗ owns (c : Thread nD τ) arg6 fullShare (k4_pay4 x1 x2 x3 x4 a8) ∗ owns (c : Thread nD τ) arg7 fullShare (k4_pay5 x1 x2 x3 x4 a9)
            ∗ owns (c : Thread nD τ) arg8 fullShare (k4_pay4 x1 x2 x3 x4 a8) ∗ owns (c : Thread nD τ) arg9 fullShare (k4_pay5 x1 x2 x3 x4 a9)) -∗ K ⟨⟩))
      ⊢ wp frame (wpE (defs₀ (F := F)) Variants.none c none) E
          (cc4__linear_stats_kernel i arg1 harg1 arg2 harg2 arg3 harg3 arg4 harg4 arg5 harg5 arg6 harg6 arg7 harg7 arg8 harg8 arg9 harg9) K := by
  simp only [cc4__linear_stats_kernel_eq_skeleton]; unfold cc4__linear_stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x256) hz2, View.ld_unit_zero (S := S256x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]

set_option maxHeartbeats 1000000 in
/-- The body at the first point (the reset taken): the accumulators, at anything, are zeroed first. -/
theorem sound_kernel4_A (c : Dev nD) (E : Set ℕ) (i : grid4.Coords)
    (arg1 : Memref sig .tc .vmem S5000x256 .f32) (harg1 : arg1.IsWhole) (arg2 : Memref sig .tc .vmem S5000x256 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : cond4 i)
    (x1 x2 : Vec F S5000x256 .f32) (x3 : Vec F S256x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k4_pay3 x1 x2 x3 x4)
            ∗ owns (c : Thread nD τ) arg6 fullShare (k4_pay4 x1 x2 x3 x4 (k4_pay1 (F := F))) ∗ owns (c : Thread nD τ) arg7 fullShare (k4_pay5 x1 x2 x3 x4 (k4_pay2 (F := F)))
            ∗ owns (c : Thread nD τ) arg8 fullShare (k4_pay4 x1 x2 x3 x4 (k4_pay1 (F := F))) ∗ owns (c : Thread nD τ) arg9 fullShare (k4_pay5 x1 x2 x3 x4 (k4_pay2 (F := F)))) -∗ K ⟨⟩))
      ⊢ wp frame (wpE (defs₀ (F := F)) Variants.none c none) E
          (cc4__linear_stats_kernel i arg1 harg1 arg2 harg2 arg3 harg3 arg4 harg4 arg5 harg5 arg6 harg6 arg7 harg7 arg8 harg8 arg9 harg9) K := by
  simp only [cc4__linear_stats_kernel_eq_skeleton]; unfold cc4__linear_stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x256) hz2, View.ld_unit_zero (S := S256x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The linear layer's tile at point `t`: `(x + agg) W + b` on the point's rows. -/
def hblk4 (c : Dev nD) (t : Fin cfg4.N) : FVec F S5000x128 .f32 :=
  k4_pay3 (iblk4 V c 0 t) (iblk4 V c 1 t) (iblk4 V c 2 t) (iblk4 V c 3 t)

theorem N4_eq : cfg4.N = 10 := N_4

/-- The point numbered `n` (modulo the grid's ten points, so that the recursions below need no side condition). -/
def pt4 (n : ℕ) : Fin cfg4.N := ⟨n % 10, by rw [N4_eq]; exact Nat.mod_lt _ (by decide)⟩

theorem pt4_val (t : Fin cfg4.N) : pt4 t.val = t :=
  Fin.ext (Nat.mod_eq_of_lt (lt_of_lt_of_eq t.isLt N4_eq))

/-- The column sums of the tiles of points `0..n`, accumulated in the grid's order from zero. -/
def accS4 (c : Dev nD) : ℕ → FVec F S1x128 .f32
  | 0 => k4_pay4 (iblk4 V c 0 (pt4 0)) (iblk4 V c 1 (pt4 0)) (iblk4 V c 2 (pt4 0)) (iblk4 V c 3 (pt4 0)) (k4_pay1 (F := F))
  | n + 1 => k4_pay4 (iblk4 V c 0 (pt4 (n + 1))) (iblk4 V c 1 (pt4 (n + 1))) (iblk4 V c 2 (pt4 (n + 1))) (iblk4 V c 3 (pt4 (n + 1))) (accS4 c n)

/-- The column sums of the squared tiles of points `0..n`, accumulated in the grid's order from zero. -/
def accQ4 (c : Dev nD) : ℕ → FVec F S1x128 .f32
  | 0 => k4_pay5 (iblk4 V c 0 (pt4 0)) (iblk4 V c 1 (pt4 0)) (iblk4 V c 2 (pt4 0)) (iblk4 V c 3 (pt4 0)) (k4_pay2 (F := F))
  | n + 1 => k4_pay5 (iblk4 V c 0 (pt4 (n + 1))) (iblk4 V c 1 (pt4 (n + 1))) (iblk4 V c 2 (pt4 (n + 1))) (iblk4 V c 3 (pt4 (n + 1))) (accQ4 c n)

theorem accS4_zero (c : Dev nD) (t : Fin cfg4.N) (h : t.val = 0) :
    accS4 V c 0 = k4_pay4 (iblk4 V c 0 t) (iblk4 V c 1 t) (iblk4 V c 2 t) (iblk4 V c 3 t) (k4_pay1 (F := F)) := by
  have e : pt4 0 = t := by rw [← h]; exact pt4_val t
  rw [accS4, e]
theorem accS4_succ (c : Dev nD) (t : Fin cfg4.N) (n : ℕ) (h : t.val = n + 1) :
    accS4 V c (n + 1) = k4_pay4 (iblk4 V c 0 t) (iblk4 V c 1 t) (iblk4 V c 2 t) (iblk4 V c 3 t) (accS4 V c n) := by
  have e : pt4 (n + 1) = t := by rw [← h]; exact pt4_val t
  rw [accS4, e]
theorem accQ4_zero (c : Dev nD) (t : Fin cfg4.N) (h : t.val = 0) :
    accQ4 V c 0 = k4_pay5 (iblk4 V c 0 t) (iblk4 V c 1 t) (iblk4 V c 2 t) (iblk4 V c 3 t) (k4_pay2 (F := F)) := by
  have e : pt4 0 = t := by rw [← h]; exact pt4_val t
  rw [accQ4, e]
theorem accQ4_succ (c : Dev nD) (t : Fin cfg4.N) (n : ℕ) (h : t.val = n + 1) :
    accQ4 V c (n + 1) = k4_pay5 (iblk4 V c 0 t) (iblk4 V c 1 t) (iblk4 V c 2 t) (iblk4 V c 3 t) (accQ4 V c n) := by
  have e : pt4 (n + 1) = t := by rw [← h]; exact pt4_val t
  rw [accQ4, e]

/-! ## The pipeline's proof data -/

/-- The two scratch accumulators before point `n`: at anything before the first point (the body resets them there),
    then at the running sums after the point before. -/
def scr4 (c : Dev nD) : ℕ → sProp 𝕄
  | 0 => iprop((∃ d, owns (c : Thread nD τ) (Memref.whole cc4_scratch0 : Memref sig .tc .vmem S1x128 .f32) fullShare d) ∗ (∃ d, owns (c : Thread nD τ) (Memref.whole cc4_scratch1 : Memref sig .tc .vmem S1x128 .f32) fullShare d))
  | n + 1 => iprop(owns (c : Thread nD τ) (Memref.whole cc4_scratch0 : Memref sig .tc .vmem S1x128 .f32) fullShare (accS4 V c n) ∗ owns (c : Thread nD τ) (Memref.whole cc4_scratch1 : Memref sig .tc .vmem S1x128 .f32) fullShare (accQ4 V c n))

theorem scr4_zero (c : Dev nD) : scr4 V c 0 = iprop((∃ d, owns (c : Thread nD τ) (Memref.whole cc4_scratch0 : Memref sig .tc .vmem S1x128 .f32) fullShare d) ∗ (∃ d, owns (c : Thread nD τ) (Memref.whole cc4_scratch1 : Memref sig .tc .vmem S1x128 .f32) fullShare d)) := rfl
theorem scr4_succ (c : Dev nD) (n : ℕ) : scr4 V c (n + 1) = iprop(owns (c : Thread nD τ) (Memref.whole cc4_scratch0 : Memref sig .tc .vmem S1x128 .f32) fullShare (accS4 V c n) ∗ owns (c : Thread nD τ) (Memref.whole cc4_scratch1 : Memref sig .tc .vmem S1x128 .f32) fullShare (accQ4 V c n)) := rfl

/-- The invariant between points: the generator register at some state, every scoped buffer that is neither a staging
    buffer nor one of the two accumulators at some contents, and the two accumulators. -/
def Φ4 (c : Dev nD) (t : Fin (cfg4.N + 1)) : sProp 𝕄 :=
  iprop((∃ r, prngReg c r)
    ∗ Pipeline.scopedRestBut (Ix := Unit) (Name := ℕ) (U := UR sig nD τ) (Lvl := ℕ) (Val := Elt F) spec4 c [cc4_scratch0, cc4_scratch1]
    ∗ scr4 V c t.val)

/-- The proof data of the pipeline on core `c`: the arrays as the region finds them; after the body at point `t` each
    input's buffer at its block, the first output's at the layer's tile, the two statistics outputs' at the running sums. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => hblk4 V c t
    | ⟨5, _⟩ => accS4 V c t.val
    | ⟨6, _⟩ => accQ4 V c t.val
  Φ t := Φ4 V c t
  q _ := fullShare
  owed _ := 0

theorem A_eq4 (c : Dev nD) (w : Fin cfg4.W) : (dat4 V c).A w = V c (Pipeline.arrRef spec4 w) := by
  dsimp only [dat4]
theorem Φ_eq4 (c : Dev nD) (t : Fin (cfg4.N + 1)) : (dat4 V c).Φ t = Φ4 V c t := by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = hblk4 V c t := by dsimp only [dat4]
theorem after4_5 (c : Dev nD) (t : Fin cfg4.N) : (dat4 V c).after 5 t = accS4 V c t.val := by dsimp only [dat4]
theorem after4_6 (c : Dev nD) (t : Fin cfg4.N) : (dat4 V c).after 6 t = accQ4 V c t.val := by dsimp only [dat4]

/-- Each input's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The reset is taken at the first point only. -/
theorem hcond4_zero (t : Fin cfg4.N) (h : t.val = 0) : cond4 (grid4.coords t) := (hcond4 t).mpr (by rw [h])
theorem hcond4_succ (t : Fin cfg4.N) (n : ℕ) (h : t.val = n + 1) : ¬cond4 (grid4.coords t) := fun hc => by
  have h1 := (hcond4 t).mp hc; have h2 := lt_of_lt_of_eq t.isLt N4_eq; omega

set_option maxHeartbeats 1000000 in
/-- The body at any point: the inputs' memrefs hold their blocks, the accumulators what the invariant says; at the first
    point the reset is taken, at a later point the accumulators carry the sums of the points before. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    after4_0, after4_1, after4_2, after4_3, after4_4, after4_5, after4_6, Φ_eq4, Φ_eq4]
  unfold Φ4 hblk4
  rw [show (t.castSucc : Fin (cfg4.N + 1)).val = t.val from rfl, show (t.succ : Fin (cfg4.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr4_zero, scr4_succ, accS4_zero V c t h0, accQ4_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel4_A c Set.univ (grid4.coords t) _ _ _ _ _ _ _ _ _ _ _ _ _ _ _ _ _ _ (hcond4_zero t h0)
      (iblk4 V c 0 t) (iblk4 V c 1 t) (iblk4 V c 2 t) (iblk4 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr4_succ, scr4_succ, accS4_succ V c t n hn, accQ4_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel4_B c Set.univ (grid4.coords t) _ _ _ _ _ _ _ _ _ _ _ _ _ _ _ _ _ _ (hcond4_succ t n hn)
      (iblk4 V c 0 t) (iblk4 V c 1 t) (iblk4 V c 2 t) (iblk4 V c 3 t) (accS4 V c n) (accQ4 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant's two ends -/

/-- The accumulators, whatever they hold, are two scoped buffers at some contents; -/
theorem scr4_any (c : Dev nD) (n : ℕ) :
    scr4 V c n ⊢ iprop((∃ f : Buf (Elt F) ((c : Thread nD τ).loc cc4_scratch0), ((c : Thread nD τ).loc cc4_scratch0) ↦{fullShare} f) ∗ (∃ f : Buf (Elt F) ((c : Thread nD τ).loc cc4_scratch1), ((c : Thread nD τ).loc cc4_scratch1) ↦{fullShare} f)) := by
  cases n with
  | zero =>
    rw [scr4_zero]
    iintro ⟨⟨%d8, H8⟩, ⟨%d9, H9⟩⟩
    isplitl [H8]
    · iexists d8; iapply (Entails.of_eq (owns_whole (c : Thread nD τ) cc4_scratch0 fullShare d8)) $$ H8
    · iexists d9; iapply (Entails.of_eq (owns_whole (c : Thread nD τ) cc4_scratch1 fullShare d9)) $$ H9
  | succ n =>
    rw [scr4_succ]
    iintro ⟨H8, H9⟩
    isplitl [H8]
    · iexists (accS4 V c n); iapply (Entails.of_eq (owns_whole (c : Thread nD τ) cc4_scratch0 fullShare (accS4 V c n))) $$ H8
    · iexists (accQ4 V c n); iapply (Entails.of_eq (owns_whole (c : Thread nD τ) cc4_scratch1 fullShare (accQ4 V c n))) $$ H9

/-- and before the first point any contents will do. -/
theorem scr4_intro (c : Dev nD) :
    iprop((∃ f : Buf (Elt F) ((c : Thread nD τ).loc cc4_scratch0), ((c : Thread nD τ).loc cc4_scratch0) ↦{fullShare} f) ∗ (∃ f : Buf (Elt F) ((c : Thread nD τ).loc cc4_scratch1), ((c : Thread nD τ).loc cc4_scratch1) ↦{fullShare} f)) ⊢ scr4 V c 0 := by
  rw [scr4_zero]
  iintro ⟨⟨%f8, H8⟩, ⟨%f9, H9⟩⟩
  isplitl [H8]
  · iexists f8; iapply (Entails.of_eq (owns_whole (c : Thread nD τ) cc4_scratch0 fullShare f8).symm) $$ H8
  · iexists f9; iapply (Entails.of_eq (owns_whole (c : Thread nD τ) cc4_scratch1 fullShare f9).symm) $$ H9

/-- The invariant at the first point, from the generator register, the tables (unused) and the scoped rest. -/
theorem hin4 (c : Dev nD) (T : (pcfgs (F := F) 4).pre.Contents (Elt F)) :
    iprop((∃ r, prngReg c r) ∗ Pipeline.prefHeld (pcfgs (F := F) 4).pre c (fun _ => fullShare) T ∗ Pipeline.scopedRest spec4 c)
      ⊢ (dat4 V c).Φ 0 := by
  rw [Φ_eq4, scopedRest4_split]; unfold Φ4
  iintro ⟨Hr, -, Hs, Hrest⟩
  isplitl [Hr]; · iexact Hr
  isplitl [Hrest]; · iexact Hrest
  iapply (scr4_intro V c) $$ Hs

/-- The invariant at the last point gives them back. -/
theorem hout4 (c : Dev nD) :
    (dat4 V c).Φ (Fin.last _) ⊢ iprop((∃ r, prngReg c r) ∗ Pipeline.ownSems0 (fun k : PEmpty => k.elim) c ∗ Pipeline.scopedRest spec4 c) := by
  rw [Φ_eq4, Pipeline.ownSems0_none, scopedRest4_split]; unfold Φ4
  iintro ⟨Hr, Hrest, Hs⟩
  isplitl [Hr]; · iexact Hr
  isplitr; · iempintro
  isplitl [Hs]
  · iapply (scr4_any V c _) $$ Hs
  iexact Hrest

end Region

end Cert.Kernel.Hand

end
-- ==== Proof.K_Bn5.lean ====
/- The frame package of region 5: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry valuation's and whose body leaves the block in place: at a point where the window
    is not fetched its block index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is the entry valuation's and whose body leaves the block in place: at a point where the window
    is not fetched its block index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is the entry valuation's and whose body leaves the block in place: at a point where the window
    is not fetched its block index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is the entry valuation's and whose body leaves the block in place: at a point where the window
    is not fetched its block index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof
    data whose array is the entry valuation's and whose body leaves the block in place: at a point where the window
    is not fetched its block index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 5's staging buffer after the body, from the input windows' blocks: its one store as a piece. -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨r5_0, k5_pay1 (View.ld x0 r5_0) (View.ld x1 r5_1) (View.ld x2 r5_1) (View.ld x3 r5_1) (View.ld x4 r5_1)⟩]

/-- The store tiles the buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-- The zero offsets, as a function. -/
theorem zeros5 : (![0, 0] : Fin 2 → Nat) = fun _ => 0 := funext fun a => by fin_cases a <;> rfl

/-- Every input is loaded whole and the store is whole: the output's buffer holds the payload of the inputs' contents. -/
theorem out5_5_eq (x0 : Vec F S5000x128 .f32) (x1 : Vec F S1x128 .f32) (x2 : Vec F S1x128 .f32) (x3 : Vec F S1x128 .f32) (x4 : Vec F S1x128 .f32) :
    out5_5 x0 x1 x2 x3 x4 = k5_pay1 x0 x1 x2 x3 x4 := by
  unfold out5_5
  rw [View.canon_unit_zero (S := S5000x128) zeros5 inb_S5000x128_S5000x128_0_0,
    View.ld_unit_zero (S := S5000x128) zeros5 inb_S5000x128_S5000x128_0_0 x0,
    View.ld_unit_zero (S := S1x128) zeros5 inb_S1x128_S1x128_0_0 x1,
    View.ld_unit_zero (S := S1x128) zeros5 inb_S1x128_S1x128_0_0 x2,
    View.ld_unit_zero (S := S1x128) zeros5 inb_S1x128_S1x128_0_0 x3,
    View.ld_unit_zero (S := S1x128) zeros5 inb_S1x128_S1x128_0_0 x4]

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the region's pipeline on core `c`: the arrays as the region finds them (`V`); after the body at
    point `t` each input's buffer at its block and the output's at `out5_5` of the input blocks; the invariant: the
    scoped rest and the pseudo-random-number register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K_Stats6.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.Kernel.Hand

open Cert.Kernel Cert.Kernel.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond6 (i : grid6.Coords) : Prop := (Scalar.cmpi .ne (Scalar.extui (Scalar.cmpi .eq (BitVec.ofNat 32 (i 0).val) 0#32)) 0#32) = 1#1
/-- It holds at the first point only: decided over the grid. -/
theorem hcond6 : ∀ t : Fin cfg6.N, cond6 (grid6.coords t) ↔ t.val % 10 = 0 :=
  (by decide +kernel : ∀ t : Fin grid6.N, cond6 (grid6.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel6_B (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : ¬cond6 i)
    (x1 x2 : Vec F S5000x128 .f32) (x3 : Vec F S128x64 .f32) (x4 : Vec F S1x64 .f32) (a8 a9 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k6_pay3 x1 x2 x3 x4)
            ∗ owns (c : Thread nD τ) arg6 fullShare (k6_pay4 x1 x2 x3 x4 a8) ∗ owns (c : Thread nD τ) arg7 fullShare (k6_pay5 x1 x2 x3 x4 a9)
            ∗ owns (c : Thread nD τ) arg8 fullShare (k6_pay4 x1 x2 x3 x4 a8) ∗ owns (c : Thread nD τ) arg9 fullShare (k6_pay5 x1 x2 x3 x4 a9)) -∗ K ⟨⟩))
      ⊢ wp frame (wpE (defs₀ (F := F)) Variants.none c none) E
          (cc6__linear_stats_kernel i arg1 harg1 arg2 harg2 arg3 harg3 arg4 harg4 arg5 harg5 arg6 harg6 arg7 harg7 arg8 harg8 arg9 harg9) K := by
  simp only [cc6__linear_stats_kernel_eq_skeleton]; unfold cc6__linear_stats_kernel_skel
  simp only [k6_part1_eq_skeleton]; unfold k6_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

set_option maxHeartbeats 1000000 in
/-- The body at the first point (the reset taken): the accumulators, at anything, are zeroed first. -/
theorem sound_kernel6_A (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : cond6 i)
    (x1 x2 : Vec F S5000x128 .f32) (x3 : Vec F S128x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k6_pay3 x1 x2 x3 x4)
            ∗ owns (c : Thread nD τ) arg6 fullShare (k6_pay4 x1 x2 x3 x4 (k6_pay1 (F := F))) ∗ owns (c : Thread nD τ) arg7 fullShare (k6_pay5 x1 x2 x3 x4 (k6_pay2 (F := F)))
            ∗ owns (c : Thread nD τ) arg8 fullShare (k6_pay4 x1 x2 x3 x4 (k6_pay1 (F := F))) ∗ owns (c : Thread nD τ) arg9 fullShare (k6_pay5 x1 x2 x3 x4 (k6_pay2 (F := F)))) -∗ K ⟨⟩))
      ⊢ wp frame (wpE (defs₀ (F := F)) Variants.none c none) E
          (cc6__linear_stats_kernel i arg1 harg1 arg2 harg2 arg3 harg3 arg4 harg4 arg5 harg5 arg6 harg6 arg7 harg7 arg8 harg8 arg9 harg9) K := by
  simp only [cc6__linear_stats_kernel_eq_skeleton]; unfold cc6__linear_stats_kernel_skel
  simp only [k6_part1_eq_skeleton]; unfold k6_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The linear layer's tile at point `t`: `(x + agg) W + b` on the point's rows. -/
def hblk6 (c : Dev nD) (t : Fin cfg6.N) : FVec F S5000x64 .f32 :=
  k6_pay3 (iblk6 V c 0 t) (iblk6 V c 1 t) (iblk6 V c 2 t) (iblk6 V c 3 t)

theorem N6_eq : cfg6.N = 10 := N_6

/-- The point numbered `n` (modulo the grid's ten points, so that the recursions below need no side condition). -/
def pt6 (n : ℕ) : Fin cfg6.N := ⟨n % 10, by rw [N6_eq]; exact Nat.mod_lt _ (by decide)⟩

theorem pt6_val (t : Fin cfg6.N) : pt6 t.val = t :=
  Fin.ext (Nat.mod_eq_of_lt (lt_of_lt_of_eq t.isLt N6_eq))

/-- The column sums of the tiles of points `0..n`, accumulated in the grid's order from zero. -/
def accS6 (c : Dev nD) : ℕ → FVec F S1x64 .f32
  | 0 => k6_pay4 (iblk6 V c 0 (pt6 0)) (iblk6 V c 1 (pt6 0)) (iblk6 V c 2 (pt6 0)) (iblk6 V c 3 (pt6 0)) (k6_pay1 (F := F))
  | n + 1 => k6_pay4 (iblk6 V c 0 (pt6 (n + 1))) (iblk6 V c 1 (pt6 (n + 1))) (iblk6 V c 2 (pt6 (n + 1))) (iblk6 V c 3 (pt6 (n + 1))) (accS6 c n)

/-- The column sums of the squared tiles of points `0..n`, accumulated in the grid's order from zero. -/
def accQ6 (c : Dev nD) : ℕ → FVec F S1x64 .f32
  | 0 => k6_pay5 (iblk6 V c 0 (pt6 0)) (iblk6 V c 1 (pt6 0)) (iblk6 V c 2 (pt6 0)) (iblk6 V c 3 (pt6 0)) (k6_pay2 (F := F))
  | n + 1 => k6_pay5 (iblk6 V c 0 (pt6 (n + 1))) (iblk6 V c 1 (pt6 (n + 1))) (iblk6 V c 2 (pt6 (n + 1))) (iblk6 V c 3 (pt6 (n + 1))) (accQ6 c n)

theorem accS6_zero (c : Dev nD) (t : Fin cfg6.N) (h : t.val = 0) :
    accS6 V c 0 = k6_pay4 (iblk6 V c 0 t) (iblk6 V c 1 t) (iblk6 V c 2 t) (iblk6 V c 3 t) (k6_pay1 (F := F)) := by
  have e : pt6 0 = t := by rw [← h]; exact pt6_val t
  rw [accS6, e]
theorem accS6_succ (c : Dev nD) (t : Fin cfg6.N) (n : ℕ) (h : t.val = n + 1) :
    accS6 V c (n + 1) = k6_pay4 (iblk6 V c 0 t) (iblk6 V c 1 t) (iblk6 V c 2 t) (iblk6 V c 3 t) (accS6 V c n) := by
  have e : pt6 (n + 1) = t := by rw [← h]; exact pt6_val t
  rw [accS6, e]
theorem accQ6_zero (c : Dev nD) (t : Fin cfg6.N) (h : t.val = 0) :
    accQ6 V c 0 = k6_pay5 (iblk6 V c 0 t) (iblk6 V c 1 t) (iblk6 V c 2 t) (iblk6 V c 3 t) (k6_pay2 (F := F)) := by
  have e : pt6 0 = t := by rw [← h]; exact pt6_val t
  rw [accQ6, e]
theorem accQ6_succ (c : Dev nD) (t : Fin cfg6.N) (n : ℕ) (h : t.val = n + 1) :
    accQ6 V c (n + 1) = k6_pay5 (iblk6 V c 0 t) (iblk6 V c 1 t) (iblk6 V c 2 t) (iblk6 V c 3 t) (accQ6 V c n) := by
  have e : pt6 (n + 1) = t := by rw [← h]; exact pt6_val t
  rw [accQ6, e]

/-! ## The pipeline's proof data -/

/-- The two scratch accumulators before point `n`: at anything before the first point (the body resets them there),
    then at the running sums after the point before. -/
def scr6 (c : Dev nD) : ℕ → sProp 𝕄
  | 0 => iprop((∃ d, owns (c : Thread nD τ) (Memref.whole cc6_scratch0 : Memref sig .tc .vmem S1x64 .f32) fullShare d) ∗ (∃ d, owns (c : Thread nD τ) (Memref.whole cc6_scratch1 : Memref sig .tc .vmem S1x64 .f32) fullShare d))
  | n + 1 => iprop(owns (c : Thread nD τ) (Memref.whole cc6_scratch0 : Memref sig .tc .vmem S1x64 .f32) fullShare (accS6 V c n) ∗ owns (c : Thread nD τ) (Memref.whole cc6_scratch1 : Memref sig .tc .vmem S1x64 .f32) fullShare (accQ6 V c n))

theorem scr6_zero (c : Dev nD) : scr6 V c 0 = iprop((∃ d, owns (c : Thread nD τ) (Memref.whole cc6_scratch0 : Memref sig .tc .vmem S1x64 .f32) fullShare d) ∗ (∃ d, owns (c : Thread nD τ) (Memref.whole cc6_scratch1 : Memref sig .tc .vmem S1x64 .f32) fullShare d)) := rfl
theorem scr6_succ (c : Dev nD) (n : ℕ) : scr6 V c (n + 1) = iprop(owns (c : Thread nD τ) (Memref.whole cc6_scratch0 : Memref sig .tc .vmem S1x64 .f32) fullShare (accS6 V c n) ∗ owns (c : Thread nD τ) (Memref.whole cc6_scratch1 : Memref sig .tc .vmem S1x64 .f32) fullShare (accQ6 V c n)) := rfl

/-- The invariant between points: the generator register at some state, every scoped buffer that is neither a staging
    buffer nor one of the two accumulators at some contents, and the two accumulators. -/
def Φ6 (c : Dev nD) (t : Fin (cfg6.N + 1)) : sProp 𝕄 :=
  iprop((∃ r, prngReg c r)
    ∗ Pipeline.scopedRestBut (Ix := Unit) (Name := ℕ) (U := UR sig nD τ) (Lvl := ℕ) (Val := Elt F) spec6 c [cc6_scratch0, cc6_scratch1]
    ∗ scr6 V c t.val)

/-- The proof data of the pipeline on core `c`: the arrays as the region finds them; after the body at point `t` each
    input's buffer at its block, the first output's at the layer's tile, the two statistics outputs' at the running sums. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => hblk6 V c t
    | ⟨5, _⟩ => accS6 V c t.val
    | ⟨6, _⟩ => accQ6 V c t.val
  Φ t := Φ6 V c t
  q _ := fullShare
  owed _ := 0

theorem A_eq6 (c : Dev nD) (w : Fin cfg6.W) : (dat6 V c).A w = V c (Pipeline.arrRef spec6 w) := by
  dsimp only [dat6]
theorem Φ_eq6 (c : Dev nD) (t : Fin (cfg6.N + 1)) : (dat6 V c).Φ t = Φ6 V c t := by dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = hblk6 V c t := by dsimp only [dat6]
theorem after6_5 (c : Dev nD) (t : Fin cfg6.N) : (dat6 V c).after 5 t = accS6 V c t.val := by dsimp only [dat6]
theorem after6_6 (c : Dev nD) (t : Fin cfg6.N) : (dat6 V c).after 6 t = accQ6 V c t.val := by dsimp only [dat6]

/-- Each input's current staging buffer holds its block at every point, fetched there or not. -/
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The reset is taken at the first point only. -/
theorem hcond6_zero (t : Fin cfg6.N) (h : t.val = 0) : cond6 (grid6.coords t) := (hcond6 t).mpr (by rw [h])
theorem hcond6_succ (t : Fin cfg6.N) (n : ℕ) (h : t.val = n + 1) : ¬cond6 (grid6.coords t) := fun hc => by
  have h1 := (hcond6 t).mp hc; have h2 := lt_of_lt_of_eq t.isLt N6_eq; omega

set_option maxHeartbeats 1000000 in
/-- The body at any point: the inputs' memrefs hold their blocks, the accumulators what the invariant says; at the first
    point the reset is taken, at a later point the accumulators carry the sums of the points before. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl,
    after6_0, after6_1, after6_2, after6_3, after6_4, after6_5, after6_6, Φ_eq6, Φ_eq6]
  unfold Φ6 hblk6
  rw [show (t.castSucc : Fin (cfg6.N + 1)).val = t.val from rfl, show (t.succ : Fin (cfg6.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr6_zero, scr6_succ, accS6_zero V c t h0, accQ6_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel6_A c Set.univ (grid6.coords t) _ _ _ _ _ _ _ _ _ _ _ _ _ _ _ _ _ _ (hcond6_zero t h0)
      (iblk6 V c 0 t) (iblk6 V c 1 t) (iblk6 V c 2 t) (iblk6 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr6_succ, scr6_succ, accS6_succ V c t n hn, accQ6_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel6_B c Set.univ (grid6.coords t) _ _ _ _ _ _ _ _ _ _ _ _ _ _ _ _ _ _ (hcond6_succ t n hn)
      (iblk6 V c 0 t) (iblk6 V c 1 t) (iblk6 V c 2 t) (iblk6 V c 3 t) (accS6 V c n) (accQ6 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant's two ends -/

/-- The accumulators, whatever they hold, are two scoped buffers at some contents; -/
theorem scr6_any (c : Dev nD) (n : ℕ) :
    scr6 V c n ⊢ iprop((∃ f : Buf (Elt F) ((c : Thread nD τ).loc cc6_scratch0), ((c : Thread nD τ).loc cc6_scratch0) ↦{fullShare} f) ∗ (∃ f : Buf (Elt F) ((c : Thread nD τ).loc cc6_scratch1), ((c : Thread nD τ).loc cc6_scratch1) ↦{fullShare} f)) := by
  cases n with
  | zero =>
    rw [scr6_zero]
    iintro ⟨⟨%d8, H8⟩, ⟨%d9, H9⟩⟩
    isplitl [H8]
    · iexists d8; iapply (Entails.of_eq (owns_whole (c : Thread nD τ) cc6_scratch0 fullShare d8)) $$ H8
    · iexists d9; iapply (Entails.of_eq (owns_whole (c : Thread nD τ) cc6_scratch1 fullShare d9)) $$ H9
  | succ n =>
    rw [scr6_succ]
    iintro ⟨H8, H9⟩
    isplitl [H8]
    · iexists (accS6 V c n); iapply (Entails.of_eq (owns_whole (c : Thread nD τ) cc6_scratch0 fullShare (accS6 V c n))) $$ H8
    · iexists (accQ6 V c n); iapply (Entails.of_eq (owns_whole (c : Thread nD τ) cc6_scratch1 fullShare (accQ6 V c n))) $$ H9

/-- and before the first point any contents will do. -/
theorem scr6_intro (c : Dev nD) :
    iprop((∃ f : Buf (Elt F) ((c : Thread nD τ).loc cc6_scratch0), ((c : Thread nD τ).loc cc6_scratch0) ↦{fullShare} f) ∗ (∃ f : Buf (Elt F) ((c : Thread nD τ).loc cc6_scratch1), ((c : Thread nD τ).loc cc6_scratch1) ↦{fullShare} f)) ⊢ scr6 V c 0 := by
  rw [scr6_zero]
  iintro ⟨⟨%f8, H8⟩, ⟨%f9, H9⟩⟩
  isplitl [H8]
  · iexists f8; iapply (Entails.of_eq (owns_whole (c : Thread nD τ) cc6_scratch0 fullShare f8).symm) $$ H8
  · iexists f9; iapply (Entails.of_eq (owns_whole (c : Thread nD τ) cc6_scratch1 fullShare f9).symm) $$ H9

/-- The invariant at the first point, from the generator register, the tables (unused) and the scoped rest. -/
theorem hin6 (c : Dev nD) (T : (pcfgs (F := F) 6).pre.Contents (Elt F)) :
    iprop((∃ r, prngReg c r) ∗ Pipeline.prefHeld (pcfgs (F := F) 6).pre c (fun _ => fullShare) T ∗ Pipeline.scopedRest spec6 c)
      ⊢ (dat6 V c).Φ 0 := by
  rw [Φ_eq6, scopedRest6_split]; unfold Φ6
  iintro ⟨Hr, -, Hs, Hrest⟩
  isplitl [Hr]; · iexact Hr
  isplitl [Hrest]; · iexact Hrest
  iapply (scr6_intro V c) $$ Hs

/-- The invariant at the last point gives them back. -/
theorem hout6 (c : Dev nD) :
    (dat6 V c).Φ (Fin.last _) ⊢ iprop((∃ r, prngReg c r) ∗ Pipeline.ownSems0 (fun k : PEmpty => k.elim) c ∗ Pipeline.scopedRest spec6 c) := by
  rw [Φ_eq6, Pipeline.ownSems0_none, scopedRest6_split]; unfold Φ6
  iintro ⟨Hr, Hrest, Hs⟩
  isplitl [Hr]; · iexact Hr
  isplitr; · iempintro
  isplitl [Hs]
  · iapply (scr6_any V c _) $$ Hs
  iexact Hrest

end Region

end Cert.Kernel.Hand

end
-- ==== Proof.K_Bn7.lean ====
/- The frame package of region 7: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is the entry valuation's and whose body leaves the block in place: at a point where the window
    is not fetched its block index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not, for any proof
    data whose array is the entry valuation's and whose body leaves the block in place: at a point where the window
    is not fetched its block index has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not, for any proof
    data whose array is the entry valuation's and whose body leaves the block in place: at a point where the window
    is not fetched its block index has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, fetched there or not, for any proof
    data whose array is the entry valuation's and whose body leaves the block in place: at a point where the window
    is not fetched its block index has not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, fetched there or not, for any proof
    data whose array is the entry valuation's and whose body leaves the block in place: at a point where the window
    is not fetched its block index has not moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x64 := Rect.unit (s := S5000x64) ![0, 0] S5000x64.size inb_S5000x64_S5000x64_0_0
abbrev r7_1 : Rect S1x64 := Rect.unit (s := S1x64) ![0, 0] S1x64.size inb_S1x64_S1x64_0_0

/-! ## What the body leaves in the output window's buffer -/

/-- Window 5's staging buffer after the body, from the input windows' blocks: its one store as a piece. -/
def out7_5 (x0 : Vec F S5000x64 .f32) (x1 : Vec F S1x64 .f32) (x2 : Vec F S1x64 .f32) (x3 : Vec F S1x64 .f32) (x4 : Vec F S1x64 .f32) : Vec F S5000x64 .f32 :=
  View.canon [⟨r7_0, k7_pay1 (View.ld x0 r7_0) (View.ld x1 r7_1) (View.ld x2 r7_1) (View.ld x3 r7_1) (View.ld x4 r7_1)⟩]

/-- The store tiles the buffer, so it covers it. -/
theorem cover7_5 (p0 : Vec F S5000x64 .f32) (y : S5000x64.Idx) :
    ∃ pc ∈ ([⟨r7_0, p0⟩] : List (View.Piece (Elt F) S5000x64 .f32)), y ∈ pc.1.set :=
  View.cover_of_tiled [⟨r7_0, p0⟩] S5000x64.size (by rfl) y

/-- The zero offsets, as a function. -/
theorem zeros7 : (![0, 0] : Fin 2 → Nat) = fun _ => 0 := funext fun a => by fin_cases a <;> rfl

/-- Every input is loaded whole and the store is whole: the output's buffer holds the payload of the inputs' contents. -/
theorem out7_5_eq (x0 : Vec F S5000x64 .f32) (x1 : Vec F S1x64 .f32) (x2 : Vec F S1x64 .f32) (x3 : Vec F S1x64 .f32) (x4 : Vec F S1x64 .f32) :
    out7_5 x0 x1 x2 x3 x4 = k7_pay1 x0 x1 x2 x3 x4 := by
  unfold out7_5
  rw [View.canon_unit_zero (S := S5000x64) zeros7 inb_S5000x64_S5000x64_0_0,
    View.ld_unit_zero (S := S5000x64) zeros7 inb_S5000x64_S5000x64_0_0 x0,
    View.ld_unit_zero (S := S1x64) zeros7 inb_S1x64_S1x64_0_0 x1,
    View.ld_unit_zero (S := S1x64) zeros7 inb_S1x64_S1x64_0_0 x2,
    View.ld_unit_zero (S := S1x64) zeros7 inb_S1x64_S1x64_0_0 x3,
    View.ld_unit_zero (S := S1x64) zeros7 inb_S1x64_S1x64_0_0 x4]

/-! ## The body's triple -/

set_option maxHeartbeats 1000000 in
/-- The kernel body on whole staging memrefs, the inputs' at read contents `xW` and the output's at anything, runs to
    the continuation holding the inputs' as they were and the output's at `out7_5` of the inputs'. -/
theorem sound_kernel7 (c : Dev nD) (E : Set ℕ) (i : grid7.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__bn_relu_kernel i arg1 harg1 arg2 harg2 arg3 harg3 arg4 harg4 arg5 harg5 arg6 harg6) K := by
  simp only [cc7__bn_relu_kernel_eq_skeleton]; unfold cc7__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of the region's pipeline on core `c`: the arrays as the region finds them (`V`); after the body at
    point `t` each input's buffer at its block and the output's at `out7_5` of the input blocks; the invariant: the
    scoped rest and the pseudo-random-number register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the body's triple applies; the invariant and
    the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K_Stats8.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.Kernel.Hand

open Cert.Kernel Cert.Kernel.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond8 (i : grid8.Coords) : Prop := (Scalar.cmpi .ne (Scalar.extui (Scalar.cmpi .eq (BitVec.ofNat 32 (i 0).val) 0#32)) 0#32) = 1#1
/-- It holds at the first point only: decided over the grid. -/
theorem hcond8 : ∀ t : Fin cfg8.N, cond8 (grid8.coords t) ↔ t.val % 10 = 0 :=
  (by decide +kernel : ∀ t : Fin grid8.N, cond8 (grid8.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel8_B (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : ¬cond8 i)
    (x1 x2 : Vec F S5000x128 .f32) (x3 : Vec F S128x64 .f32) (x4 : Vec F S1x64 .f32) (a8 a9 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k8_pay3 x1 x2 x3 x4)
            ∗ owns (c : Thread nD τ) arg6 fullShare (k8_pay4 x1 x2 x3 x4 a8) ∗ owns (c : Thread nD τ) arg7 fullShare (k8_pay5 x1 x2 x3 x4 a9)
            ∗ owns (c : Thread nD τ) arg8 fullShare (k8_pay4 x1 x2 x3 x4 a8) ∗ owns (c : Thread nD τ) arg9 fullShare (k8_pay5 x1 x2 x3 x4 a9)) -∗ K ⟨⟩))
      ⊢ wp frame (wpE (defs₀ (F := F)) Variants.none c none) E
          (cc8__linear_stats_kernel i arg1 harg1 arg2 harg2 arg3 harg3 arg4 harg4 arg5 harg5 arg6 harg6 arg7 harg7 arg8 harg8 arg9 harg9) K := by
  simp only [cc8__linear_stats_kernel_eq_skeleton]; unfold cc8__linear_stats_kernel_skel
  simp only [k8_part1_eq_skeleton]; unfold k8_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

set_option maxHeartbeats 1000000 in
/-- The body at the first point (the reset taken): the accumulators, at anything, are zeroed first. -/
theorem sound_kernel8_A (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : cond8 i)
    (x1 x2 : Vec F S5000x128 .f32) (x3 : Vec F S128x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k8_pay3 x1 x2 x3 x4)
            ∗ owns (c : Thread nD τ) arg6 fullShare (k8_pay4 x1 x2 x3 x4 (k8_pay1 (F := F))) ∗ owns (c : Thread nD τ) arg7 fullShare (k8_pay5 x1 x2 x3 x4 (k8_pay2 (F := F)))
            ∗ owns (c : Thread nD τ) arg8 fullShare (k8_pay4 x1 x2 x3 x4 (k8_pay1 (F := F))) ∗ owns (c : Thread nD τ) arg9 fullShare (k8_pay5 x1 x2 x3 x4 (k8_pay2 (F := F)))) -∗ K ⟨⟩))
      ⊢ wp frame (wpE (defs₀ (F := F)) Variants.none c none) E
          (cc8__linear_stats_kernel i arg1 harg1 arg2 harg2 arg3 harg3 arg4 harg4 arg5 harg5 arg6 harg6 arg7 harg7 arg8 harg8 arg9 harg9) K := by
  simp only [cc8__linear_stats_kernel_eq_skeleton]; unfold cc8__linear_stats_kernel_skel
  simp only [k8_part1_eq_skeleton]; unfold k8_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The linear layer's tile at point `t`: `(x + agg) W + b` on the point's rows. -/
def hblk8 (c : Dev nD) (t : Fin cfg8.N) : FVec F S5000x64 .f32 :=
  k8_pay3 (iblk8 V c 0 t) (iblk8 V c 1 t) (iblk8 V c 2 t) (iblk8 V c 3 t)

theorem N8_eq : cfg8.N = 10 := N_8

/-- The point numbered `n` (modulo the grid's ten points, so that the recursions below need no side condition). -/
def pt8 (n : ℕ) : Fin cfg8.N := ⟨n % 10, by rw [N8_eq]; exact Nat.mod_lt _ (by decide)⟩

theorem pt8_val (t : Fin cfg8.N) : pt8 t.val = t :=
  Fin.ext (Nat.mod_eq_of_lt (lt_of_lt_of_eq t.isLt N8_eq))

/-- The column sums of the tiles of points `0..n`, accumulated in the grid's order from zero. -/
def accS8 (c : Dev nD) : ℕ → FVec F S1x64 .f32
  | 0 => k8_pay4 (iblk8 V c 0 (pt8 0)) (iblk8 V c 1 (pt8 0)) (iblk8 V c 2 (pt8 0)) (iblk8 V c 3 (pt8 0)) (k8_pay1 (F := F))
  | n + 1 => k8_pay4 (iblk8 V c 0 (pt8 (n + 1))) (iblk8 V c 1 (pt8 (n + 1))) (iblk8 V c 2 (pt8 (n + 1))) (iblk8 V c 3 (pt8 (n + 1))) (accS8 c n)

/-- The column sums of the squared tiles of points `0..n`, accumulated in the grid's order from zero. -/
def accQ8 (c : Dev nD) : ℕ → FVec F S1x64 .f32
  | 0 => k8_pay5 (iblk8 V c 0 (pt8 0)) (iblk8 V c 1 (pt8 0)) (iblk8 V c 2 (pt8 0)) (iblk8 V c 3 (pt8 0)) (k8_pay2 (F := F))
  | n + 1 => k8_pay5 (iblk8 V c 0 (pt8 (n + 1))) (iblk8 V c 1 (pt8 (n + 1))) (iblk8 V c 2 (pt8 (n + 1))) (iblk8 V c 3 (pt8 (n + 1))) (accQ8 c n)

theorem accS8_zero (c : Dev nD) (t : Fin cfg8.N) (h : t.val = 0) :
    accS8 V c 0 = k8_pay4 (iblk8 V c 0 t) (iblk8 V c 1 t) (iblk8 V c 2 t) (iblk8 V c 3 t) (k8_pay1 (F := F)) := by
  have e : pt8 0 = t := by rw [← h]; exact pt8_val t
  rw [accS8, e]
theorem accS8_succ (c : Dev nD) (t : Fin cfg8.N) (n : ℕ) (h : t.val = n + 1) :
    accS8 V c (n + 1) = k8_pay4 (iblk8 V c 0 t) (iblk8 V c 1 t) (iblk8 V c 2 t) (iblk8 V c 3 t) (accS8 V c n) := by
  have e : pt8 (n + 1) = t := by rw [← h]; exact pt8_val t
  rw [accS8, e]
theorem accQ8_zero (c : Dev nD) (t : Fin cfg8.N) (h : t.val = 0) :
    accQ8 V c 0 = k8_pay5 (iblk8 V c 0 t) (iblk8 V c 1 t) (iblk8 V c 2 t) (iblk8 V c 3 t) (k8_pay2 (F := F)) := by
  have e : pt8 0 = t := by rw [← h]; exact pt8_val t
  rw [accQ8, e]
theorem accQ8_succ (c : Dev nD) (t : Fin cfg8.N) (n : ℕ) (h : t.val = n + 1) :
    accQ8 V c (n + 1) = k8_pay5 (iblk8 V c 0 t) (iblk8 V c 1 t) (iblk8 V c 2 t) (iblk8 V c 3 t) (accQ8 V c n) := by
  have e : pt8 (n + 1) = t := by rw [← h]; exact pt8_val t
  rw [accQ8, e]

/-! ## The pipeline's proof data -/

/-- The two scratch accumulators before point `n`: at anything before the first point (the body resets them there),
    then at the running sums after the point before. -/
def scr8 (c : Dev nD) : ℕ → sProp 𝕄
  | 0 => iprop((∃ d, owns (c : Thread nD τ) (Memref.whole cc8_scratch0 : Memref sig .tc .vmem S1x64 .f32) fullShare d) ∗ (∃ d, owns (c : Thread nD τ) (Memref.whole cc8_scratch1 : Memref sig .tc .vmem S1x64 .f32) fullShare d))
  | n + 1 => iprop(owns (c : Thread nD τ) (Memref.whole cc8_scratch0 : Memref sig .tc .vmem S1x64 .f32) fullShare (accS8 V c n) ∗ owns (c : Thread nD τ) (Memref.whole cc8_scratch1 : Memref sig .tc .vmem S1x64 .f32) fullShare (accQ8 V c n))

theorem scr8_zero (c : Dev nD) : scr8 V c 0 = iprop((∃ d, owns (c : Thread nD τ) (Memref.whole cc8_scratch0 : Memref sig .tc .vmem S1x64 .f32) fullShare d) ∗ (∃ d, owns (c : Thread nD τ) (Memref.whole cc8_scratch1 : Memref sig .tc .vmem S1x64 .f32) fullShare d)) := rfl
theorem scr8_succ (c : Dev nD) (n : ℕ) : scr8 V c (n + 1) = iprop(owns (c : Thread nD τ) (Memref.whole cc8_scratch0 : Memref sig .tc .vmem S1x64 .f32) fullShare (accS8 V c n) ∗ owns (c : Thread nD τ) (Memref.whole cc8_scratch1 : Memref sig .tc .vmem S1x64 .f32) fullShare (accQ8 V c n)) := rfl

/-- The invariant between points: the generator register at some state, every scoped buffer that is neither a staging
    buffer nor one of the two accumulators at some contents, and the two accumulators. -/
def Φ8 (c : Dev nD) (t : Fin (cfg8.N + 1)) : sProp 𝕄 :=
  iprop((∃ r, prngReg c r)
    ∗ Pipeline.scopedRestBut (Ix := Unit) (Name := ℕ) (U := UR sig nD τ) (Lvl := ℕ) (Val := Elt F) spec8 c [cc8_scratch0, cc8_scratch1]
    ∗ scr8 V c t.val)

/-- The proof data of the pipeline on core `c`: the arrays as the region finds them; after the body at point `t` each
    input's buffer at its block, the first output's at the layer's tile, the two statistics outputs' at the running sums. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => hblk8 V c t
    | ⟨5, _⟩ => accS8 V c t.val
    | ⟨6, _⟩ => accQ8 V c t.val
  Φ t := Φ8 V c t
  q _ := fullShare
  owed _ := 0

theorem A_eq8 (c : Dev nD) (w : Fin cfg8.W) : (dat8 V c).A w = V c (Pipeline.arrRef spec8 w) := by
  dsimp only [dat8]
theorem Φ_eq8 (c : Dev nD) (t : Fin (cfg8.N + 1)) : (dat8 V c).Φ t = Φ8 V c t := by dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = hblk8 V c t := by dsimp only [dat8]
theorem after8_5 (c : Dev nD) (t : Fin cfg8.N) : (dat8 V c).after 5 t = accS8 V c t.val := by dsimp only [dat8]
theorem after8_6 (c : Dev nD) (t : Fin cfg8.N) : (dat8 V c).after 6 t = accQ8 V c t.val := by dsimp only [dat8]

/-- Each input's current staging buffer holds its block at every point, fetched there or not. -/
theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The reset is taken at the first point only. -/
theorem hcond8_zero (t : Fin cfg8.N) (h : t.val = 0) : cond8 (grid8.coords t) := (hcond8 t).mpr (by rw [h])
theorem hcond8_succ (t : Fin cfg8.N) (n : ℕ) (h : t.val = n + 1) : ¬cond8 (grid8.coords t) := fun hc => by
  have h1 := (hcond8 t).mp hc; have h2 := lt_of_lt_of_eq t.isLt N8_eq; omega

set_option maxHeartbeats 1000000 in
/-- The body at any point: the inputs' memrefs hold their blocks, the accumulators what the invariant says; at the first
    point the reset is taken, at a later point the accumulators carry the sums of the points before. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl,
    after8_0, after8_1, after8_2, after8_3, after8_4, after8_5, after8_6, Φ_eq8, Φ_eq8]
  unfold Φ8 hblk8
  rw [show (t.castSucc : Fin (cfg8.N + 1)).val = t.val from rfl, show (t.succ : Fin (cfg8.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr8_zero, scr8_succ, accS8_zero V c t h0, accQ8_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel8_A c Set.univ (grid8.coords t) _ _ _ _ _ _ _ _ _ _ _ _ _ _ _ _ _ _ (hcond8_zero t h0)
      (iblk8 V c 0 t) (iblk8 V c 1 t) (iblk8 V c 2 t) (iblk8 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr8_succ, scr8_succ, accS8_succ V c t n hn, accQ8_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel8_B c Set.univ (grid8.coords t) _ _ _ _ _ _ _ _ _ _ _ _ _ _ _ _ _ _ (hcond8_succ t n hn)
      (iblk8 V c 0 t) (iblk8 V c 1 t) (iblk8 V c 2 t) (iblk8 V c 3 t) (accS8 V c n) (accQ8 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant's two ends -/

/-- The accumulators, whatever they hold, are two scoped buffers at some contents; -/
theorem scr8_any (c : Dev nD) (n : ℕ) :
    scr8 V c n ⊢ iprop((∃ f : Buf (Elt F) ((c : Thread nD τ).loc cc8_scratch0), ((c : Thread nD τ).loc cc8_scratch0) ↦{fullShare} f) ∗ (∃ f : Buf (Elt F) ((c : Thread nD τ).loc cc8_scratch1), ((c : Thread nD τ).loc cc8_scratch1) ↦{fullShare} f)) := by
  cases n with
  | zero =>
    rw [scr8_zero]
    iintro ⟨⟨%d8, H8⟩, ⟨%d9, H9⟩⟩
    isplitl [H8]
    · iexists d8; iapply (Entails.of_eq (owns_whole (c : Thread nD τ) cc8_scratch0 fullShare d8)) $$ H8
    · iexists d9; iapply (Entails.of_eq (owns_whole (c : Thread nD τ) cc8_scratch1 fullShare d9)) $$ H9
  | succ n =>
    rw [scr8_succ]
    iintro ⟨H8, H9⟩
    isplitl [H8]
    · iexists (accS8 V c n); iapply (Entails.of_eq (owns_whole (c : Thread nD τ) cc8_scratch0 fullShare (accS8 V c n))) $$ H8
    · iexists (accQ8 V c n); iapply (Entails.of_eq (owns_whole (c : Thread nD τ) cc8_scratch1 fullShare (accQ8 V c n))) $$ H9

/-- and before the first point any contents will do. -/
theorem scr8_intro (c : Dev nD) :
    iprop((∃ f : Buf (Elt F) ((c : Thread nD τ).loc cc8_scratch0), ((c : Thread nD τ).loc cc8_scratch0) ↦{fullShare} f) ∗ (∃ f : Buf (Elt F) ((c : Thread nD τ).loc cc8_scratch1), ((c : Thread nD τ).loc cc8_scratch1) ↦{fullShare} f)) ⊢ scr8 V c 0 := by
  rw [scr8_zero]
  iintro ⟨⟨%f8, H8⟩, ⟨%f9, H9⟩⟩
  isplitl [H8]
  · iexists f8; iapply (Entails.of_eq (owns_whole (c : Thread nD τ) cc8_scratch0 fullShare f8).symm) $$ H8
  · iexists f9; iapply (Entails.of_eq (owns_whole (c : Thread nD τ) cc8_scratch1 fullShare f9).symm) $$ H9

/-- The invariant at the first point, from the generator register, the tables (unused) and the scoped rest. -/
theorem hin8 (c : Dev nD) (T : (pcfgs (F := F) 8).pre.Contents (Elt F)) :
    iprop((∃ r, prngReg c r) ∗ Pipeline.prefHeld (pcfgs (F := F) 8).pre c (fun _ => fullShare) T ∗ Pipeline.scopedRest spec8 c)
      ⊢ (dat8 V c).Φ 0 := by
  rw [Φ_eq8, scopedRest8_split]; unfold Φ8
  iintro ⟨Hr, -, Hs, Hrest⟩
  isplitl [Hr]; · iexact Hr
  isplitl [Hrest]; · iexact Hrest
  iapply (scr8_intro V c) $$ Hs

/-- The invariant at the last point gives them back. -/
theorem hout8 (c : Dev nD) :
    (dat8 V c).Φ (Fin.last _) ⊢ iprop((∃ r, prngReg c r) ∗ Pipeline.ownSems0 (fun k : PEmpty => k.elim) c ∗ Pipeline.scopedRest spec8 c) := by
  rw [Φ_eq8, Pipeline.ownSems0_none, scopedRest8_split]; unfold Φ8
  iintro ⟨Hr, Hrest, Hs⟩
  isplitl [Hr]; · iexact Hr
  isplitr; · iempintro
  isplitl [Hs]
  · iapply (scr8_any V c _) $$ Hs
  iexact Hrest

end Region

end Cert.Kernel.Hand

end
-- ==== Proof.K_Bn9.lean ====
/- The frame package of region 9: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is the entry valuation's and whose body leaves the block in place: at a point where the window
    is not fetched its block index has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, fetched there or not, for any proof
    data whose array is the entry valuation's and whose body leaves the block in place: at a point where the window
    is not fetched its block index has not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, fetched there or not, for any proof
    data whose array is the entry valuation's and whose body leaves the block in place: at a point where the window
    is not fetched its block index has not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3's current staging buffer holds its block at every point, fetched there or not, for any proof
    data whose array is the entry valuation's and whose body leaves the block in place: at a point where the window
    is not fetched its block index has not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4's current staging buffer holds its block at every point, fetched there or not, for any proof
    data whose array is the entry valuation's and whose body leaves the block in place: at a point where the window
    is not fetched its block index has not moved; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S5000x64 := Rect.unit (s := S5000x64) ![0, 0] S5000x64.size inb_S5000x64_S5000x64_0_0
abbrev r9_1 : Rect S1x64 := Rect.unit (s := S1x64) ![0, 0] S1x64.size inb_S1x64_S1x64_0_0

/-! ## What the body leaves in the output window's buffer -/

/-- Window 5's staging buffer after the body, from the input windows' blocks: its one store as a piece. -/
def out9_5 (x0 : Vec F S5000x64 .f32) (x1 : Vec F S1x64 .f32) (x2 : Vec F S1x64 .f32) (x3 : Vec F S1x64 .f32) (x4 : Vec F S1x64 .f32) : Vec F S5000x64 .f32 :=
  View.canon [⟨r9_0, k9_pay1 (View.ld x0 r9_0) (View.ld x1 r9_1) (View.ld x2 r9_1) (View.ld x3 r9_1) (View.ld x4 r9_1)⟩]

/-- The store tiles the buffer, so it covers it. -/
theorem cover9_5 (p0 : Vec F S5000x64 .f32) (y : S5000x64.Idx) :
    ∃ pc ∈ ([⟨r9_0, p0⟩] : List (View.Piece (Elt F) S5000x64 .f32)), y ∈ pc.1.set :=
  View.cover_of_tiled [⟨r9_0, p0⟩] S5000x64.size (by rfl) y

/-- The zero offsets, as a function. -/
theorem zeros9 : (![0, 0] : Fin 2 → Nat) = fun _ => 0 := funext fun a => by fin_cases a <;> rfl

/-- Every input is loaded whole and the store is whole: the output's buffer holds the payload of the inputs' contents. -/
theorem out9_5_eq (x0 : Vec F S5000x64 .f32) (x1 : Vec F S1x64 .f32) (x2 : Vec F S1x64 .f32) (x3 : Vec F S1x64 .f32) (x4 : Vec F S1x64 .f32) :
    out9_5 x0 x1 x2 x3 x4 = k9_pay1 x0 x1 x2 x3 x4 := by
  unfold out9_5
  rw [View.canon_unit_zero (S := S5000x64) zeros9 inb_S5000x64_S5000x64_0_0,
    View.ld_unit_zero (S := S5000x64) zeros9 inb_S5000x64_S5000x64_0_0 x0,
    View.ld_unit_zero (S := S1x64) zeros9 inb_S1x64_S1x64_0_0 x1,
    View.ld_unit_zero (S := S1x64) zeros9 inb_S1x64_S1x64_0_0 x2,
    View.ld_unit_zero (S := S1x64) zeros9 inb_S1x64_S1x64_0_0 x3,
    View.ld_unit_zero (S := S1x64) zeros9 inb_S1x64_S1x64_0_0 x4]

/-! ## The body's triple -/

set_option maxHeartbeats 1000000 in
/-- The kernel body on whole staging memrefs, the inputs' at read contents `xW` and the output's at anything, runs to
    the continuation holding the inputs' as they were and the output's at `out9_5` of the inputs'. -/
theorem sound_kernel9 (c : Dev nD) (E : Set ℕ) (i : grid9.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__bn_relu_kernel i arg1 harg1 arg2 harg2 arg3 harg3 arg4 harg4 arg5 harg5 arg6 harg6) K := by
  simp only [cc9__bn_relu_kernel_eq_skeleton]; unfold cc9__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of the region's pipeline on core `c`: the arrays as the region finds them (`V`); after the body at
    point `t` each input's buffer at its block and the output's at `out9_5` of the input blocks; the invariant: the
    scoped rest and the pseudo-random-number register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.K_Stats10.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.Kernel.Hand

open Cert.Kernel Cert.Kernel.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond10 (i : grid10.Coords) : Prop := (Scalar.cmpi .ne (Scalar.extui (Scalar.cmpi .eq (BitVec.ofNat 32 (i 0).val) 0#32)) 0#32) = 1#1
/-- It holds at the first point only: decided over the grid. -/
theorem hcond10 : ∀ t : Fin cfg10.N, cond10 (grid10.coords t) ↔ t.val % 10 = 0 :=
  (by decide +kernel : ∀ t : Fin grid10.N, cond10 (grid10.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel10_B (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : ¬cond10 i)
    (x1 x2 : Vec F S5000x128 .f32) (x3 : Vec F S128x64 .f32) (x4 : Vec F S1x64 .f32) (a8 a9 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k10_pay3 x1 x2 x3 x4)
            ∗ owns (c : Thread nD τ) arg6 fullShare (k10_pay4 x1 x2 x3 x4 a8) ∗ owns (c : Thread nD τ) arg7 fullShare (k10_pay5 x1 x2 x3 x4 a9)
            ∗ owns (c : Thread nD τ) arg8 fullShare (k10_pay4 x1 x2 x3 x4 a8) ∗ owns (c : Thread nD τ) arg9 fullShare (k10_pay5 x1 x2 x3 x4 a9)) -∗ K ⟨⟩))
      ⊢ wp frame (wpE (defs₀ (F := F)) Variants.none c none) E
          (cc10__linear_stats_kernel i arg1 harg1 arg2 harg2 arg3 harg3 arg4 harg4 arg5 harg5 arg6 harg6 arg7 harg7 arg8 harg8 arg9 harg9) K := by
  simp only [cc10__linear_stats_kernel_eq_skeleton]; unfold cc10__linear_stats_kernel_skel
  simp only [k10_part1_eq_skeleton]; unfold k10_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

set_option maxHeartbeats 1000000 in
/-- The body at the first point (the reset taken): the accumulators, at anything, are zeroed first. -/
theorem sound_kernel10_A (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : cond10 i)
    (x1 x2 : Vec F S5000x128 .f32) (x3 : Vec F S128x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k10_pay3 x1 x2 x3 x4)
            ∗ owns (c : Thread nD τ) arg6 fullShare (k10_pay4 x1 x2 x3 x4 (k10_pay1 (F := F))) ∗ owns (c : Thread nD τ) arg7 fullShare (k10_pay5 x1 x2 x3 x4 (k10_pay2 (F := F)))
            ∗ owns (c : Thread nD τ) arg8 fullShare (k10_pay4 x1 x2 x3 x4 (k10_pay1 (F := F))) ∗ owns (c : Thread nD τ) arg9 fullShare (k10_pay5 x1 x2 x3 x4 (k10_pay2 (F := F)))) -∗ K ⟨⟩))
      ⊢ wp frame (wpE (defs₀ (F := F)) Variants.none c none) E
          (cc10__linear_stats_kernel i arg1 harg1 arg2 harg2 arg3 harg3 arg4 harg4 arg5 harg5 arg6 harg6 arg7 harg7 arg8 harg8 arg9 harg9) K := by
  simp only [cc10__linear_stats_kernel_eq_skeleton]; unfold cc10__linear_stats_kernel_skel
  simp only [k10_part1_eq_skeleton]; unfold k10_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The linear layer's tile at point `t`: `(x + agg) W + b` on the point's rows. -/
def hblk10 (c : Dev nD) (t : Fin cfg10.N) : FVec F S5000x64 .f32 :=
  k10_pay3 (iblk10 V c 0 t) (iblk10 V c 1 t) (iblk10 V c 2 t) (iblk10 V c 3 t)

theorem N10_eq : cfg10.N = 10 := N_10

/-- The point numbered `n` (modulo the grid's ten points, so that the recursions below need no side condition). -/
def pt10 (n : ℕ) : Fin cfg10.N := ⟨n % 10, by rw [N10_eq]; exact Nat.mod_lt _ (by decide)⟩

theorem pt10_val (t : Fin cfg10.N) : pt10 t.val = t :=
  Fin.ext (Nat.mod_eq_of_lt (lt_of_lt_of_eq t.isLt N10_eq))

/-- The column sums of the tiles of points `0..n`, accumulated in the grid's order from zero. -/
def accS10 (c : Dev nD) : ℕ → FVec F S1x64 .f32
  | 0 => k10_pay4 (iblk10 V c 0 (pt10 0)) (iblk10 V c 1 (pt10 0)) (iblk10 V c 2 (pt10 0)) (iblk10 V c 3 (pt10 0)) (k10_pay1 (F := F))
  | n + 1 => k10_pay4 (iblk10 V c 0 (pt10 (n + 1))) (iblk10 V c 1 (pt10 (n + 1))) (iblk10 V c 2 (pt10 (n + 1))) (iblk10 V c 3 (pt10 (n + 1))) (accS10 c n)

/-- The column sums of the squared tiles of points `0..n`, accumulated in the grid's order from zero. -/
def accQ10 (c : Dev nD) : ℕ → FVec F S1x64 .f32
  | 0 => k10_pay5 (iblk10 V c 0 (pt10 0)) (iblk10 V c 1 (pt10 0)) (iblk10 V c 2 (pt10 0)) (iblk10 V c 3 (pt10 0)) (k10_pay2 (F := F))
  | n + 1 => k10_pay5 (iblk10 V c 0 (pt10 (n + 1))) (iblk10 V c 1 (pt10 (n + 1))) (iblk10 V c 2 (pt10 (n + 1))) (iblk10 V c 3 (pt10 (n + 1))) (accQ10 c n)

theorem accS10_zero (c : Dev nD) (t : Fin cfg10.N) (h : t.val = 0) :
    accS10 V c 0 = k10_pay4 (iblk10 V c 0 t) (iblk10 V c 1 t) (iblk10 V c 2 t) (iblk10 V c 3 t) (k10_pay1 (F := F)) := by
  have e : pt10 0 = t := by rw [← h]; exact pt10_val t
  rw [accS10, e]
theorem accS10_succ (c : Dev nD) (t : Fin cfg10.N) (n : ℕ) (h : t.val = n + 1) :
    accS10 V c (n + 1) = k10_pay4 (iblk10 V c 0 t) (iblk10 V c 1 t) (iblk10 V c 2 t) (iblk10 V c 3 t) (accS10 V c n) := by
  have e : pt10 (n + 1) = t := by rw [← h]; exact pt10_val t
  rw [accS10, e]
theorem accQ10_zero (c : Dev nD) (t : Fin cfg10.N) (h : t.val = 0) :
    accQ10 V c 0 = k10_pay5 (iblk10 V c 0 t) (iblk10 V c 1 t) (iblk10 V c 2 t) (iblk10 V c 3 t) (k10_pay2 (F := F)) := by
  have e : pt10 0 = t := by rw [← h]; exact pt10_val t
  rw [accQ10, e]
theorem accQ10_succ (c : Dev nD) (t : Fin cfg10.N) (n : ℕ) (h : t.val = n + 1) :
    accQ10 V c (n + 1) = k10_pay5 (iblk10 V c 0 t) (iblk10 V c 1 t) (iblk10 V c 2 t) (iblk10 V c 3 t) (accQ10 V c n) := by
  have e : pt10 (n + 1) = t := by rw [← h]; exact pt10_val t
  rw [accQ10, e]

/-! ## The pipeline's proof data -/

/-- The two scratch accumulators before point `n`: at anything before the first point (the body resets them there),
    then at the running sums after the point before. -/
def scr10 (c : Dev nD) : ℕ → sProp 𝕄
  | 0 => iprop((∃ d, owns (c : Thread nD τ) (Memref.whole cc10_scratch0 : Memref sig .tc .vmem S1x64 .f32) fullShare d) ∗ (∃ d, owns (c : Thread nD τ) (Memref.whole cc10_scratch1 : Memref sig .tc .vmem S1x64 .f32) fullShare d))
  | n + 1 => iprop(owns (c : Thread nD τ) (Memref.whole cc10_scratch0 : Memref sig .tc .vmem S1x64 .f32) fullShare (accS10 V c n) ∗ owns (c : Thread nD τ) (Memref.whole cc10_scratch1 : Memref sig .tc .vmem S1x64 .f32) fullShare (accQ10 V c n))

theorem scr10_zero (c : Dev nD) : scr10 V c 0 = iprop((∃ d, owns (c : Thread nD τ) (Memref.whole cc10_scratch0 : Memref sig .tc .vmem S1x64 .f32) fullShare d) ∗ (∃ d, owns (c : Thread nD τ) (Memref.whole cc10_scratch1 : Memref sig .tc .vmem S1x64 .f32) fullShare d)) := rfl
theorem scr10_succ (c : Dev nD) (n : ℕ) : scr10 V c (n + 1) = iprop(owns (c : Thread nD τ) (Memref.whole cc10_scratch0 : Memref sig .tc .vmem S1x64 .f32) fullShare (accS10 V c n) ∗ owns (c : Thread nD τ) (Memref.whole cc10_scratch1 : Memref sig .tc .vmem S1x64 .f32) fullShare (accQ10 V c n)) := rfl

/-- The invariant between points: the generator register at some state, every scoped buffer that is neither a staging
    buffer nor one of the two accumulators at some contents, and the two accumulators. -/
def Φ10 (c : Dev nD) (t : Fin (cfg10.N + 1)) : sProp 𝕄 :=
  iprop((∃ r, prngReg c r)
    ∗ Pipeline.scopedRestBut (Ix := Unit) (Name := ℕ) (U := UR sig nD τ) (Lvl := ℕ) (Val := Elt F) spec10 c [cc10_scratch0, cc10_scratch1]
    ∗ scr10 V c t.val)

/-- The proof data of the pipeline on core `c`: the arrays as the region finds them; after the body at point `t` each
    input's buffer at its block, the first output's at the layer's tile, the two statistics outputs' at the running sums. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => hblk10 V c t
    | ⟨5, _⟩ => accS10 V c t.val
    | ⟨6, _⟩ => accQ10 V c t.val
  Φ t := Φ10 V c t
  q _ := fullShare
  owed _ := 0

theorem A_eq10 (c : Dev nD) (w : Fin cfg10.W) : (dat10 V c).A w = V c (Pipeline.arrRef spec10 w) := by
  dsimp only [dat10]
theorem Φ_eq10 (c : Dev nD) (t : Fin (cfg10.N + 1)) : (dat10 V c).Φ t = Φ10 V c t := by dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = hblk10 V c t := by dsimp only [dat10]
theorem after10_5 (c : Dev nD) (t : Fin cfg10.N) : (dat10 V c).after 5 t = accS10 V c t.val := by dsimp only [dat10]
theorem after10_6 (c : Dev nD) (t : Fin cfg10.N) : (dat10 V c).after 6 t = accQ10 V c t.val := by dsimp only [dat10]

/-- Each input's current staging buffer holds its block at every point, fetched there or not. -/
theorem before10_0 (c : Dev nD) (t : Fin cfg10.N) (d) : (dat10 V c).before 0 t d = iblk10 V c 0 t :=
  ((dat10 V c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)
theorem before10_1 (c : Dev nD) (t : Fin cfg10.N) (d) : (dat10 V c).before 1 t d = iblk10 V c 1 t :=
  ((dat10 V c).before_in_eq_fetched 1 rfl (fun _ => rfl) (fun _ _ _ => rfl)
    (fun t => by rw [after10_1]; unfold Dat.blockOf iblk10; rw [A_eq10]; try rfl) t d).trans
    (by unfold Dat.fetched Dat.blockOf iblk10; rw [A_eq10]; try rfl)
theorem before10_2 (c : Dev nD) (t : Fin cfg10.N) (d) : (dat10 V c).before 2 t d = iblk10 V c 2 t :=
  ((dat10 V c).before_in_eq_fetched 2 rfl (fun _ => rfl) (fun _ _ _ => rfl)
    (fun t => by rw [after10_2]; unfold Dat.blockOf iblk10; rw [A_eq10]; try rfl) t d).trans
    (by unfold Dat.fetched Dat.blockOf iblk10; rw [A_eq10]; try rfl)
theorem before10_3 (c : Dev nD) (t : Fin cfg10.N) (d) : (dat10 V c).before 3 t d = iblk10 V c 3 t :=
  ((dat10 V c).before_in_eq_fetched 3 rfl (fun _ => rfl) (fun _ _ _ => rfl)
    (fun t => by rw [after10_3]; unfold Dat.blockOf iblk10; rw [A_eq10]; try rfl) t d).trans
    (by unfold Dat.fetched Dat.blockOf iblk10; rw [A_eq10]; try rfl)

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The reset is taken at the first point only. -/
theorem hcond10_zero (t : Fin cfg10.N) (h : t.val = 0) : cond10 (grid10.coords t) := (hcond10 t).mpr (by rw [h])
theorem hcond10_succ (t : Fin cfg10.N) (n : ℕ) (h : t.val = n + 1) : ¬cond10 (grid10.coords t) := fun hc => by
  have h1 := (hcond10 t).mp hc; have h2 := lt_of_lt_of_eq t.isLt N10_eq; omega

set_option maxHeartbeats 1000000 in
/-- The body at any point: the inputs' memrefs hold their blocks, the accumulators what the invariant says; at the first
    point the reset is taken, at a later point the accumulators carry the sums of the points before. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).owesAt () t.succ = (dat10 V c).owesAt () t.castSucc from rfl,
    after10_0, after10_1, after10_2, after10_3, after10_4, after10_5, after10_6, Φ_eq10, Φ_eq10]
  unfold Φ10 hblk10
  rw [show (t.castSucc : Fin (cfg10.N + 1)).val = t.val from rfl, show (t.succ : Fin (cfg10.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr10_zero, scr10_succ, accS10_zero V c t h0, accQ10_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel10_A c Set.univ (grid10.coords t) _ _ _ _ _ _ _ _ _ _ _ _ _ _ _ _ _ _ (hcond10_zero t h0)
      (iblk10 V c 0 t) (iblk10 V c 1 t) (iblk10 V c 2 t) (iblk10 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr10_succ, scr10_succ, accS10_succ V c t n hn, accQ10_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel10_B c Set.univ (grid10.coords t) _ _ _ _ _ _ _ _ _ _ _ _ _ _ _ _ _ _ (hcond10_succ t n hn)
      (iblk10 V c 0 t) (iblk10 V c 1 t) (iblk10 V c 2 t) (iblk10 V c 3 t) (accS10 V c n) (accQ10 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant's two ends -/

/-- The accumulators, whatever they hold, are two scoped buffers at some contents; -/
theorem scr10_any (c : Dev nD) (n : ℕ) :
    scr10 V c n ⊢ iprop((∃ f : Buf (Elt F) ((c : Thread nD τ).loc cc10_scratch0), ((c : Thread nD τ).loc cc10_scratch0) ↦{fullShare} f) ∗ (∃ f : Buf (Elt F) ((c : Thread nD τ).loc cc10_scratch1), ((c : Thread nD τ).loc cc10_scratch1) ↦{fullShare} f)) := by
  cases n with
  | zero =>
    rw [scr10_zero]
    iintro ⟨⟨%d8, H8⟩, ⟨%d9, H9⟩⟩
    isplitl [H8]
    · iexists d8; iapply (Entails.of_eq (owns_whole (c : Thread nD τ) cc10_scratch0 fullShare d8)) $$ H8
    · iexists d9; iapply (Entails.of_eq (owns_whole (c : Thread nD τ) cc10_scratch1 fullShare d9)) $$ H9
  | succ n =>
    rw [scr10_succ]
    iintro ⟨H8, H9⟩
    isplitl [H8]
    · iexists (accS10 V c n); iapply (Entails.of_eq (owns_whole (c : Thread nD τ) cc10_scratch0 fullShare (accS10 V c n))) $$ H8
    · iexists (accQ10 V c n); iapply (Entails.of_eq (owns_whole (c : Thread nD τ) cc10_scratch1 fullShare (accQ10 V c n))) $$ H9

/-- and before the first point any contents will do. -/
theorem scr10_intro (c : Dev nD) :
    iprop((∃ f : Buf (Elt F) ((c : Thread nD τ).loc cc10_scratch0), ((c : Thread nD τ).loc cc10_scratch0) ↦{fullShare} f) ∗ (∃ f : Buf (Elt F) ((c : Thread nD τ).loc cc10_scratch1), ((c : Thread nD τ).loc cc10_scratch1) ↦{fullShare} f)) ⊢ scr10 V c 0 := by
  rw [scr10_zero]
  iintro ⟨⟨%f8, H8⟩, ⟨%f9, H9⟩⟩
  isplitl [H8]
  · iexists f8; iapply (Entails.of_eq (owns_whole (c : Thread nD τ) cc10_scratch0 fullShare f8).symm) $$ H8
  · iexists f9; iapply (Entails.of_eq (owns_whole (c : Thread nD τ) cc10_scratch1 fullShare f9).symm) $$ H9

/-- The invariant at the first point, from the generator register, the tables (unused) and the scoped rest. -/
theorem hin10 (c : Dev nD) (T : (pcfgs (F := F) 10).pre.Contents (Elt F)) :
    iprop((∃ r, prngReg c r) ∗ Pipeline.prefHeld (pcfgs (F := F) 10).pre c (fun _ => fullShare) T ∗ Pipeline.scopedRest spec10 c)
      ⊢ (dat10 V c).Φ 0 := by
  rw [Φ_eq10, scopedRest10_split]; unfold Φ10
  iintro ⟨Hr, -, Hs, Hrest⟩
  isplitl [Hr]; · iexact Hr
  isplitl [Hrest]; · iexact Hrest
  iapply (scr10_intro V c) $$ Hs

/-- The invariant at the last point gives them back. -/
theorem hout10 (c : Dev nD) :
    (dat10 V c).Φ (Fin.last _) ⊢ iprop((∃ r, prngReg c r) ∗ Pipeline.ownSems0 (fun k : PEmpty => k.elim) c ∗ Pipeline.scopedRest spec10 c) := by
  rw [Φ_eq10, Pipeline.ownSems0_none, scopedRest10_split]; unfold Φ10
  iintro ⟨Hr, Hrest, Hs⟩
  isplitl [Hr]; · iexact Hr
  isplitr; · iempintro
  isplitl [Hs]
  · iapply (scr10_any V c _) $$ Hs
  iexact Hrest

end Region

end Cert.Kernel.Hand

end
-- ==== Proof.K_Bn11.lean ====
/- The frame package of region 11: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is the entry valuation's and whose body leaves the block in place: at a point where the window
    is not fetched its block index has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, fetched there or not, for any proof
    data whose array is the entry valuation's and whose body leaves the block in place: at a point where the window
    is not fetched its block index has not moved; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, fetched there or not, for any proof
    data whose array is the entry valuation's and whose body leaves the block in place: at a point where the window
    is not fetched its block index has not moved; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, fetched there or not, for any proof
    data whose array is the entry valuation's and whose body leaves the block in place: at a point where the window
    is not fetched its block index has not moved; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, fetched there or not, for any proof
    data whose array is the entry valuation's and whose body leaves the block in place: at a point where the window
    is not fetched its block index has not moved; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

abbrev r11_0 : Rect S5000x64 := Rect.unit (s := S5000x64) ![0, 0] S5000x64.size inb_S5000x64_S5000x64_0_0
abbrev r11_1 : Rect S1x64 := Rect.unit (s := S1x64) ![0, 0] S1x64.size inb_S1x64_S1x64_0_0

/-! ## What the body leaves in the output window's buffer -/

/-- Window 5's staging buffer after the body, from the input windows' blocks: its one store as a piece. -/
def out11_5 (x0 : Vec F S5000x64 .f32) (x1 : Vec F S1x64 .f32) (x2 : Vec F S1x64 .f32) (x3 : Vec F S1x64 .f32) (x4 : Vec F S1x64 .f32) : Vec F S5000x64 .f32 :=
  View.canon [⟨r11_0, k11_pay1 (View.ld x0 r11_0) (View.ld x1 r11_1) (View.ld x2 r11_1) (View.ld x3 r11_1) (View.ld x4 r11_1)⟩]

/-- The store tiles the buffer, so it covers it. -/
theorem cover11_5 (p0 : Vec F S5000x64 .f32) (y : S5000x64.Idx) :
    ∃ pc ∈ ([⟨r11_0, p0⟩] : List (View.Piece (Elt F) S5000x64 .f32)), y ∈ pc.1.set :=
  View.cover_of_tiled [⟨r11_0, p0⟩] S5000x64.size (by rfl) y

/-- The zero offsets, as a function. -/
theorem zeros11 : (![0, 0] : Fin 2 → Nat) = fun _ => 0 := funext fun a => by fin_cases a <;> rfl

/-- Every input is loaded whole and the store is whole: the output's buffer holds the payload of the inputs' contents. -/
theorem out11_5_eq (x0 : Vec F S5000x64 .f32) (x1 : Vec F S1x64 .f32) (x2 : Vec F S1x64 .f32) (x3 : Vec F S1x64 .f32) (x4 : Vec F S1x64 .f32) :
    out11_5 x0 x1 x2 x3 x4 = k11_pay1 x0 x1 x2 x3 x4 := by
  unfold out11_5
  rw [View.canon_unit_zero (S := S5000x64) zeros11 inb_S5000x64_S5000x64_0_0,
    View.ld_unit_zero (S := S5000x64) zeros11 inb_S5000x64_S5000x64_0_0 x0,
    View.ld_unit_zero (S := S1x64) zeros11 inb_S1x64_S1x64_0_0 x1,
    View.ld_unit_zero (S := S1x64) zeros11 inb_S1x64_S1x64_0_0 x2,
    View.ld_unit_zero (S := S1x64) zeros11 inb_S1x64_S1x64_0_0 x3,
    View.ld_unit_zero (S := S1x64) zeros11 inb_S1x64_S1x64_0_0 x4]

/-! ## The body's triple -/

set_option maxHeartbeats 1000000 in
/-- The kernel body on whole staging memrefs, the inputs' at read contents `xW` and the output's at anything, runs to
    the continuation holding the inputs' as they were and the output's at `out11_5` of the inputs'. -/
theorem sound_kernel11 (c : Dev nD) (E : Set ℕ) (i : grid11.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11__bn_relu_kernel i arg1 harg1 arg2 harg2 arg3 harg3 arg4 harg4 arg5 harg5 arg6 harg6) K := by
  simp only [cc11__bn_relu_kernel_eq_skeleton]; unfold cc11__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The pipeline's proof data -/

/-- The proof data of the region's pipeline on core `c`: the arrays as the region finds them (`V`); after the body at
    point `t` each input's buffer at its block and the output's at `out11_5` of the input blocks; the invariant: the
    scoped rest and the pseudo-random-number register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks, so the body's triple applies; the invariant and
    the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand
-- ==== Proof.K_Relu12.lean ====
/- The frame package of region 12: the linear-and-ReLU kernel `max((x + agg) · Wᵀ + b, 0)` on one row tile. The
   body loads its four input blocks whole (the tiles of `x` and of `agg`, the weight matrix and the bias row) and
   stores one value whole into the output tile; so after the body the output's staging buffer holds that value of the
   four input blocks, and every input's buffer is as it was. Stated at an arbitrary entry valuation `V` of the
   TensorCore's buffers and at any float instance. -/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is the entry valuation's and whose body leaves the block in place: at a point where the window
    is not fetched its block index has not moved; the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1's current staging buffer holds its block at every point, fetched there or not, for any proof
    data whose array is the entry valuation's and whose body leaves the block in place: at a point where the window
    is not fetched its block index has not moved; the window is uncut and never idle. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2's current staging buffer holds its block at every point, fetched there or not, for any proof
    data whose array is the entry valuation's and whose body leaves the block in place: at a point where the window
    is not fetched its block index has not moved; the window is uncut and never idle. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
/-- Input window 3's current staging buffer holds its block at every point, fetched there or not, for any proof
    data whose array is the entry valuation's and whose body leaves the block in place: at a point where the window
    is not fetched its block index has not moved; the window is uncut and never idle. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_0 : Rect S5000x64 := Rect.unit (s := S5000x64) ![0, 0] S5000x64.size inb_S5000x64_S5000x64_0_0
abbrev r12_1 : Rect S64x256 := Rect.unit (s := S64x256) ![0, 0] S64x256.size inb_S64x256_S64x256_0_0
abbrev r12_2 : Rect S1x256 := Rect.unit (s := S1x256) ![0, 0] S1x256.size inb_S1x256_S1x256_0_0
abbrev r12_3 : Rect S5000x256 := Rect.unit (s := S5000x256) ![0, 0] S5000x256.size inb_S5000x256_S5000x256_0_0

/-! ## What the body leaves in the output window's buffer -/

/-- Window 4's staging buffer after the body, from the input windows' blocks: its one store as a piece. -/
def out12_4 (x0 : Vec F S5000x64 .f32) (x1 : Vec F S5000x64 .f32) (x2 : Vec F S64x256 .f32) (x3 : Vec F S1x256 .f32) : Vec F S5000x256 .f32 :=
  View.canon [⟨r12_3, k12_pay1 (View.ld x0 r12_0) (View.ld x1 r12_0) (View.ld x2 r12_1) (View.ld x3 r12_2)⟩]

/-- The store tiles the buffer, so it covers it. -/
theorem cover12_4 (p0 : Vec F S5000x256 .f32) (y : S5000x256.Idx) :
    ∃ pc ∈ ([⟨r12_3, p0⟩] : List (View.Piece (Elt F) S5000x256 .f32)), y ∈ pc.1.set :=
  View.cover_of_tiled [⟨r12_3, p0⟩] S5000x256.size (by rfl) y

/-- The zero offsets, as a function. -/
theorem zeros12 : (![0, 0] : Fin 2 → Nat) = fun _ => 0 := funext fun a => by fin_cases a <;> rfl

/-- Every input is loaded whole and the store is whole: the output's buffer holds the payload of the inputs' contents. -/
theorem out12_4_eq (x0 : Vec F S5000x64 .f32) (x1 : Vec F S5000x64 .f32) (x2 : Vec F S64x256 .f32) (x3 : Vec F S1x256 .f32) :
    out12_4 x0 x1 x2 x3 = k12_pay1 x0 x1 x2 x3 := by
  unfold out12_4
  rw [View.canon_unit_zero (S := S5000x256) zeros12 inb_S5000x256_S5000x256_0_0,
    View.ld_unit_zero (S := S5000x64) zeros12 inb_S5000x64_S5000x64_0_0 x0,
    View.ld_unit_zero (S := S5000x64) zeros12 inb_S5000x64_S5000x64_0_0 x1,
    View.ld_unit_zero (S := S64x256) zeros12 inb_S64x256_S64x256_0_0 x2,
    View.ld_unit_zero (S := S1x256) zeros12 inb_S1x256_S1x256_0_0 x3]

/-! ## The body's triple -/

set_option maxHeartbeats 1000000 in
/-- The kernel body on whole staging memrefs, the inputs' at read contents `xW` and the output's at anything, runs to
    the continuation holding the inputs' as they were and the output's at `out12_4` of the inputs'. -/
theorem sound_kernel12 (c : Dev nD) (E : Set ℕ) (i : grid12.Coords)
    (arg1 : Memref sig .tc .vmem S5000x64 .f32) (harg1 : arg1.IsWhole)
    (arg2 : Memref sig .tc .vmem S5000x64 .f32) (harg2 : arg2.IsWhole)
    (arg3 : Memref sig .tc .vmem S64x256 .f32) (harg3 : arg3.IsWhole)
    (arg4 : Memref sig .tc .vmem S1x256 .f32) (harg4 : arg4.IsWhole)
    (arg5 : Memref sig .tc .vmem S5000x256 .f32) (harg5 : arg5.IsWhole)
    (x0 : Vec F S5000x64 .f32) (x1 : Vec F S5000x64 .f32) (x2 : Vec F S64x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out12_4 x0 x1 x2 x3)) -∗ K ⟨⟩))
      ⊢ wp frame (wpE (defs₀ (F := F)) Variants.none c none) E (cc12__linear_relu_kernel i arg1 harg1 arg2 harg2 arg3 harg3 arg4 harg4 arg5 harg5) K := by
  simp only [cc12__linear_relu_kernel_eq_skeleton]; unfold cc12__linear_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12_4 _)

/-! ## The pipeline's proof data -/

/-- The proof data of the region's pipeline on core `c`: the arrays as the region finds them (`V`); after the body at
    point `t` each input's buffer at its block and the output's at `out12_4` of the input blocks; the invariant: the
    scoped rest and the pseudo-random-number register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = out12_4 (iblk12 V c 0 t) (iblk12 V c 1 t) (iblk12 V c 2 t) (iblk12 V c 3 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the inputs' memrefs hold their blocks, so the body's triple applies; the invariant and
    the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.K_Relu13.lean ====
/- The frame package of region 13: the linear-and-ReLU kernel `max((x + agg) · Wᵀ + b, 0)` on one row tile. The
   body loads its four input blocks whole (the tiles of `x` and of `agg`, the weight matrix and the bias row) and
   stores one value whole into the output tile; so after the body the output's staging buffer holds that value of the
   four input blocks, and every input's buffer is as it was. Stated at an arbitrary entry valuation `V` of the
   TensorCore's buffers and at any float instance. -/
import proofs.«144613_j17471926960174_1_alg».proof.Proof.Gen.Kernel.Launch
import proofs.«144613_j17471926960174_1_alg».proof.Proof.Gen.Kernel.Skeleton
import proofs.«144613_j17471926960174_1_alg».proof.Proof.Gen.Kernel.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is the entry valuation's and whose body leaves the block in place: at a point where the window
    is not fetched its block index has not moved; the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- Input window 1's current staging buffer holds its block at every point, fetched there or not, for any proof
    data whose array is the entry valuation's and whose body leaves the block in place: at a point where the window
    is not fetched its block index has not moved; the window is uncut and never idle. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- Input window 2's current staging buffer holds its block at every point, fetched there or not, for any proof
    data whose array is the entry valuation's and whose body leaves the block in place: at a point where the window
    is not fetched its block index has not moved; the window is uncut and never idle. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
/-- Input window 3's current staging buffer holds its block at every point, fetched there or not, for any proof
    data whose array is the entry valuation's and whose body leaves the block in place: at a point where the window
    is not fetched its block index has not moved; the window is uncut and never idle. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

abbrev r13_0 : Rect S5000x64 := Rect.unit (s := S5000x64) ![0, 0] S5000x64.size inb_S5000x64_S5000x64_0_0
abbrev r13_1 : Rect S64x128 := Rect.unit (s := S64x128) ![0, 0] S64x128.size inb_S64x128_S64x128_0_0
abbrev r13_2 : Rect S1x128 := Rect.unit (s := S1x128) ![0, 0] S1x128.size inb_S1x128_S1x128_0_0
abbrev r13_3 : Rect S5000x128 := Rect.unit (s := S5000x128) ![0, 0] S5000x128.size inb_S5000x128_S5000x128_0_0

/-! ## What the body leaves in the output window's buffer -/

/-- Window 4's staging buffer after the body, from the input windows' blocks: its one store as a piece. -/
def out13_4 (x0 : Vec F S5000x64 .f32) (x1 : Vec F S5000x64 .f32) (x2 : Vec F S64x128 .f32) (x3 : Vec F S1x128 .f32) : Vec F S5000x128 .f32 :=
  View.canon [⟨r13_3, k13_pay1 (View.ld x0 r13_0) (View.ld x1 r13_0) (View.ld x2 r13_1) (View.ld x3 r13_2)⟩]

/-- The store tiles the buffer, so it covers it. -/
theorem cover13_4 (p0 : Vec F S5000x128 .f32) (y : S5000x128.Idx) :
    ∃ pc ∈ ([⟨r13_3, p0⟩] : List (View.Piece (Elt F) S5000x128 .f32)), y ∈ pc.1.set :=
  View.cover_of_tiled [⟨r13_3, p0⟩] S5000x128.size (by rfl) y

/-- The zero offsets, as a function. -/
theorem zeros13 : (![0, 0] : Fin 2 → Nat) = fun _ => 0 := funext fun a => by fin_cases a <;> rfl

/-- Every input is loaded whole and the store is whole: the output's buffer holds the payload of the inputs' contents. -/
theorem out13_4_eq (x0 : Vec F S5000x64 .f32) (x1 : Vec F S5000x64 .f32) (x2 : Vec F S64x128 .f32) (x3 : Vec F S1x128 .f32) :
    out13_4 x0 x1 x2 x3 = k13_pay1 x0 x1 x2 x3 := by
  unfold out13_4
  rw [View.canon_unit_zero (S := S5000x128) zeros13 inb_S5000x128_S5000x128_0_0,
    View.ld_unit_zero (S := S5000x64) zeros13 inb_S5000x64_S5000x64_0_0 x0,
    View.ld_unit_zero (S := S5000x64) zeros13 inb_S5000x64_S5000x64_0_0 x1,
    View.ld_unit_zero (S := S64x128) zeros13 inb_S64x128_S64x128_0_0 x2,
    View.ld_unit_zero (S := S1x128) zeros13 inb_S1x128_S1x128_0_0 x3]

/-! ## The body's triple -/

set_option maxHeartbeats 1000000 in
/-- The kernel body on whole staging memrefs, the inputs' at read contents `xW` and the output's at anything, runs to
    the continuation holding the inputs' as they were and the output's at `out13_4` of the inputs'. -/
theorem sound_kernel13 (c : Dev nD) (E : Set ℕ) (i : grid13.Coords)
    (arg1 : Memref sig .tc .vmem S5000x64 .f32) (harg1 : arg1.IsWhole)
    (arg2 : Memref sig .tc .vmem S5000x64 .f32) (harg2 : arg2.IsWhole)
    (arg3 : Memref sig .tc .vmem S64x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x64 .f32) (x1 : Vec F S5000x64 .f32) (x2 : Vec F S64x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out13_4 x0 x1 x2 x3)) -∗ K ⟨⟩))
      ⊢ wp frame (wpE (defs₀ (F := F)) Variants.none c none) E (cc13__linear_relu_kernel i arg1 harg1 arg2 harg2 arg3 harg3 arg4 harg4 arg5 harg5) K := by
  simp only [cc13__linear_relu_kernel_eq_skeleton]; unfold cc13__linear_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_4 _)

/-! ## The pipeline's proof data -/

/-- The proof data of the region's pipeline on core `c`: the arrays as the region finds them (`V`); after the body at
    point `t` each input's buffer at its block and the output's at `out13_4` of the input blocks; the invariant: the
    scoped rest and the pseudo-random-number register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = out13_4 (iblk13 V c 0 t) (iblk13 V c 1 t) (iblk13 V c 2 t) (iblk13 V c 3 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at any point: the inputs' memrefs hold their blocks, so the body's triple applies; the invariant and
    the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _ (iblk13 V c 0 t) (iblk13 V c 1 t) (iblk13 V c 2 t) (iblk13 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand
-- ==== Proof.K_RegsCore.lean ====
/-
  The family of proof data of the fourteen kernel regions, each at its region's entry contents in the chain of
  valuations, what each region leaves in the arrays it may change (its write-backs folded over the grid), and the
  chain's contents after each region spelt out.
-/
import proofs.«144613_j17471926960174_1_alg».proof.Proof.K_Chain
import proofs.«144613_j17471926960174_1_alg».proof.Proof.K_Stats0
import proofs.«144613_j17471926960174_1_alg».proof.Proof.K_Bn1
import proofs.«144613_j17471926960174_1_alg».proof.Proof.K_Stats2
import proofs.«144613_j17471926960174_1_alg».proof.Proof.K_Bn3
import proofs.«144613_j17471926960174_1_alg».proof.Proof.K_Stats4
import proofs.«144613_j17471926960174_1_alg».proof.Proof.K_Bn5
import proofs.«144613_j17471926960174_1_alg».proof.Proof.K_Stats6
import proofs.«144613_j17471926960174_1_alg».proof.Proof.K_Bn7
import proofs.«144613_j17471926960174_1_alg».proof.Proof.K_Stats8
import proofs.«144613_j17471926960174_1_alg».proof.Proof.K_Bn9
import proofs.«144613_j17471926960174_1_alg».proof.Proof.K_Stats10
import proofs.«144613_j17471926960174_1_alg».proof.Proof.K_Bn11
import proofs.«144613_j17471926960174_1_alg».proof.Proof.K_Relu12
import proofs.«144613_j17471926960174_1_alg».proof.Proof.K_Relu13
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

/-! What each region leaves in each array it may change: its proof data's write-backs folded over the grid. -/
def xx_main_v16_0 : EV F → (c : Dev nD) → Buf (Elt F) ((c : Thread nD τ).loc main_v16_0) := fun V c => (dat0 V c).arrAt 4 cfg0.N
def xx_main_v16_1 : EV F → (c : Dev nD) → Buf (Elt F) ((c : Thread nD τ).loc main_v16_1) := fun V c => (dat0 V c).arrAt 5 cfg0.N
def xx_main_v16_2 : EV F → (c : Dev nD) → Buf (Elt F) ((c : Thread nD τ).loc main_v16_2) := fun V c => (dat0 V c).arrAt 6 cfg0.N
def xx_main_v25 : EV F → (c : Dev nD) → Buf (Elt F) ((c : Thread nD τ).loc main_v25) := fun V c => (dat1 V c).arrAt 5 cfg1.N
def xx_main_v42_0 : EV F → (c : Dev nD) → Buf (Elt F) ((c : Thread nD τ).loc main_v42_0) := fun V c => (dat2 V c).arrAt 4 cfg2.N
def xx_main_v42_1 : EV F → (c : Dev nD) → Buf (Elt F) ((c : Thread nD τ).loc main_v42_1) := fun V c => (dat2 V c).arrAt 5 cfg2.N
def xx_main_v42_2 : EV F → (c : Dev nD) → Buf (Elt F) ((c : Thread nD τ).loc main_v42_2) := fun V c => (dat2 V c).arrAt 6 cfg2.N
def xx_main_v51 : EV F → (c : Dev nD) → Buf (Elt F) ((c : Thread nD τ).loc main_v51) := fun V c => (dat3 V c).arrAt 5 cfg3.N
def xx_main_v68_0 : EV F → (c : Dev nD) → Buf (Elt F) ((c : Thread nD τ).loc main_v68_0) := fun V c => (dat4 V c).arrAt 4 cfg4.N
def xx_main_v68_1 : EV F → (c : Dev nD) → Buf (Elt F) ((c : Thread nD τ).loc main_v68_1) := fun V c => (dat4 V c).arrAt 5 cfg4.N
def xx_main_v68_2 : EV F → (c : Dev nD) → Buf (Elt F) ((c : Thread nD τ).loc main_v68_2) := fun V c => (dat4 V c).arrAt 6 cfg4.N
def xx_main_v77 : EV F → (c : Dev nD) → Buf (Elt F) ((c : Thread nD τ).loc main_v77) := fun V c => (dat5 V c).arrAt 5 cfg5.N
def xx_main_v94_0 : EV F → (c : Dev nD) → Buf (Elt F) ((c : Thread nD τ).loc main_v94_0) := fun V c => (dat6 V c).arrAt 4 cfg6.N
def xx_main_v94_1 : EV F → (c : Dev nD) → Buf (Elt F) ((c : Thread nD τ).loc main_v94_1) := fun V c => (dat6 V c).arrAt 5 cfg6.N
def xx_main_v94_2 : EV F → (c : Dev nD) → Buf (Elt F) ((c : Thread nD τ).loc main_v94_2) := fun V c => (dat6 V c).arrAt 6 cfg6.N
def xx_main_v103 : EV F → (c : Dev nD) → Buf (Elt F) ((c : Thread nD τ).loc main_v103) := fun V c => (dat7 V c).arrAt 5 cfg7.N
def xx_main_v120_0 : EV F → (c : Dev nD) → Buf (Elt F) ((c : Thread nD τ).loc main_v120_0) := fun V c => (dat8 V c).arrAt 4 cfg8.N
def xx_main_v120_1 : EV F → (c : Dev nD) → Buf (Elt F) ((c : Thread nD τ).loc main_v120_1) := fun V c => (dat8 V c).arrAt 5 cfg8.N
def xx_main_v120_2 : EV F → (c : Dev nD) → Buf (Elt F) ((c : Thread nD τ).loc main_v120_2) := fun V c => (dat8 V c).arrAt 6 cfg8.N
def xx_main_v129 : EV F → (c : Dev nD) → Buf (Elt F) ((c : Thread nD τ).loc main_v129) := fun V c => (dat9 V c).arrAt 5 cfg9.N
def xx_main_v146_0 : EV F → (c : Dev nD) → Buf (Elt F) ((c : Thread nD τ).loc main_v146_0) := fun V c => (dat10 V c).arrAt 4 cfg10.N
def xx_main_v146_1 : EV F → (c : Dev nD) → Buf (Elt F) ((c : Thread nD τ).loc main_v146_1) := fun V c => (dat10 V c).arrAt 5 cfg10.N
def xx_main_v146_2 : EV F → (c : Dev nD) → Buf (Elt F) ((c : Thread nD τ).loc main_v146_2) := fun V c => (dat10 V c).arrAt 6 cfg10.N
def xx_main_v155 : EV F → (c : Dev nD) → Buf (Elt F) ((c : Thread nD τ).loc main_v155) := fun V c => (dat11 V c).arrAt 5 cfg11.N
def xx_main_v172 : EV F → (c : Dev nD) → Buf (Elt F) ((c : Thread nD τ).loc main_v172) := fun V c => (dat12 V c).arrAt 4 cfg12.N
def xx_main_v189 : EV F → (c : Dev nD) → Buf (Elt F) ((c : Thread nD τ).loc main_v189) := fun V c => (dat13 V c).arrAt 4 cfg13.N

/-- The regions' exit arrays, gathered. -/
def XX : Exits F where
  x_main_v16_0 := xx_main_v16_0
  x_main_v16_1 := xx_main_v16_1
  x_main_v16_2 := xx_main_v16_2
  x_main_v25 := xx_main_v25
  x_main_v42_0 := xx_main_v42_0
  x_main_v42_1 := xx_main_v42_1
  x_main_v42_2 := xx_main_v42_2
  x_main_v51 := xx_main_v51
  x_main_v68_0 := xx_main_v68_0
  x_main_v68_1 := xx_main_v68_1
  x_main_v68_2 := xx_main_v68_2
  x_main_v77 := xx_main_v77
  x_main_v94_0 := xx_main_v94_0
  x_main_v94_1 := xx_main_v94_1
  x_main_v94_2 := xx_main_v94_2
  x_main_v103 := xx_main_v103
  x_main_v120_0 := xx_main_v120_0
  x_main_v120_1 := xx_main_v120_1
  x_main_v120_2 := xx_main_v120_2
  x_main_v129 := xx_main_v129
  x_main_v146_0 := xx_main_v146_0
  x_main_v146_1 := xx_main_v146_1
  x_main_v146_2 := xx_main_v146_2
  x_main_v155 := xx_main_v155
  x_main_v172 := xx_main_v172
  x_main_v189 := xx_main_v189

variable (m : (ℓ : Loc nD τ sig) → Buf (Elt F) ℓ)

/-- Every pipeline's proof data, each at its region's entry contents: a literal match on the pipeline. -/
def pdats : (p : Fin 14) → (c : Dev nD) → Dat τ (Elt F) Unit ℕ (UR sig nD τ) ℕ (cfgs p) c
  | ⟨0, _⟩ => fun c => dat0 (E1 m) c
  | ⟨1, _⟩ => fun c => dat1 (E3 m XX) c
  | ⟨2, _⟩ => fun c => dat2 (E5 m XX) c
  | ⟨3, _⟩ => fun c => dat3 (E7 m XX) c
  | ⟨4, _⟩ => fun c => dat4 (E9 m XX) c
  | ⟨5, _⟩ => fun c => dat5 (E11 m XX) c
  | ⟨6, _⟩ => fun c => dat6 (E13 m XX) c
  | ⟨7, _⟩ => fun c => dat7 (E15 m XX) c
  | ⟨8, _⟩ => fun c => dat8 (E17 m XX) c
  | ⟨9, _⟩ => fun c => dat9 (E19 m XX) c
  | ⟨10, _⟩ => fun c => dat10 (E21 m XX) c
  | ⟨11, _⟩ => fun c => dat11 (E23 m XX) c
  | ⟨12, _⟩ => fun c => dat12 (E25 m XX) c
  | ⟨13, _⟩ => fun c => dat13 (E27 m XX) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- Region 0's proof data in the family, and the chain's contents after the region, spelt out. -/
theorem pdats_0 (c : Dev nD) : pdats m 0 c = dat0 (E1 m) c := rfl
theorem W2_unfold (c : Dev nD) : W2 m XX c = Function.update (Function.update (Function.update (W1 m c) main_v16_0 ((dat0 (E1 m) c).arrAt 4 cfg0.N)) main_v16_1 ((dat0 (E1 m) c).arrAt 5 cfg0.N)) main_v16_2 ((dat0 (E1 m) c).arrAt 6 cfg0.N) := rfl
/-- Region 1's proof data in the family, and the chain's contents after the region, spelt out. -/
theorem pdats_1 (c : Dev nD) : pdats m 1 c = dat1 (E3 m XX) c := rfl
theorem W4_unfold (c : Dev nD) : W4 m XX c = Function.update (W3 m XX c) main_v25 ((dat1 (E3 m XX) c).arrAt 5 cfg1.N) := rfl
/-- Region 2's proof data in the family, and the chain's contents after the region, spelt out. -/
theorem pdats_2 (c : Dev nD) : pdats m 2 c = dat2 (E5 m XX) c := rfl
theorem W6_unfold (c : Dev nD) : W6 m XX c = Function.update (Function.update (Function.update (W5 m XX c) main_v42_0 ((dat2 (E5 m XX) c).arrAt 4 cfg2.N)) main_v42_1 ((dat2 (E5 m XX) c).arrAt 5 cfg2.N)) main_v42_2 ((dat2 (E5 m XX) c).arrAt 6 cfg2.N) := rfl
/-- Region 3's proof data in the family, and the chain's contents after the region, spelt out. -/
theorem pdats_3 (c : Dev nD) : pdats m 3 c = dat3 (E7 m XX) c := rfl
theorem W8_unfold (c : Dev nD) : W8 m XX c = Function.update (W7 m XX c) main_v51 ((dat3 (E7 m XX) c).arrAt 5 cfg3.N) := rfl
/-- Region 4's proof data in the family, and the chain's contents after the region, spelt out. -/
theorem pdats_4 (c : Dev nD) : pdats m 4 c = dat4 (E9 m XX) c := rfl
theorem W10_unfold (c : Dev nD) : W10 m XX c = Function.update (Function.update (Function.update (W9 m XX c) main_v68_0 ((dat4 (E9 m XX) c).arrAt 4 cfg4.N)) main_v68_1 ((dat4 (E9 m XX) c).arrAt 5 cfg4.N)) main_v68_2 ((dat4 (E9 m XX) c).arrAt 6 cfg4.N) := rfl
/-- Region 5's proof data in the family, and the chain's contents after the region, spelt out. -/
theorem pdats_5 (c : Dev nD) : pdats m 5 c = dat5 (E11 m XX) c := rfl
theorem W12_unfold (c : Dev nD) : W12 m XX c = Function.update (W11 m XX c) main_v77 ((dat5 (E11 m XX) c).arrAt 5 cfg5.N) := rfl
/-- Region 6's proof data in the family, and the chain's contents after the region, spelt out. -/
theorem pdats_6 (c : Dev nD) : pdats m 6 c = dat6 (E13 m XX) c := rfl
theorem W14_unfold (c : Dev nD) : W14 m XX c = Function.update (Function.update (Function.update (W13 m XX c) main_v94_0 ((dat6 (E13 m XX) c).arrAt 4 cfg6.N)) main_v94_1 ((dat6 (E13 m XX) c).arrAt 5 cfg6.N)) main_v94_2 ((dat6 (E13 m XX) c).arrAt 6 cfg6.N) := rfl
/-- Region 7's proof data in the family, and the chain's contents after the region, spelt out. -/
theorem pdats_7 (c : Dev nD) : pdats m 7 c = dat7 (E15 m XX) c := rfl
theorem W16_unfold (c : Dev nD) : W16 m XX c = Function.update (W15 m XX c) main_v103 ((dat7 (E15 m XX) c).arrAt 5 cfg7.N) := rfl
/-- Region 8's proof data in the family, and the chain's contents after the region, spelt out. -/
theorem pdats_8 (c : Dev nD) : pdats m 8 c = dat8 (E17 m XX) c := rfl
theorem W18_unfold (c : Dev nD) : W18 m XX c = Function.update (Function.update (Function.update (W17 m XX c) main_v120_0 ((dat8 (E17 m XX) c).arrAt 4 cfg8.N)) main_v120_1 ((dat8 (E17 m XX) c).arrAt 5 cfg8.N)) main_v120_2 ((dat8 (E17 m XX) c).arrAt 6 cfg8.N) := rfl
/-- Region 9's proof data in the family, and the chain's contents after the region, spelt out. -/
theorem pdats_9 (c : Dev nD) : pdats m 9 c = dat9 (E19 m XX) c := rfl
theorem W20_unfold (c : Dev nD) : W20 m XX c = Function.update (W19 m XX c) main_v129 ((dat9 (E19 m XX) c).arrAt 5 cfg9.N) := rfl
/-- Region 10's proof data in the family, and the chain's contents after the region, spelt out. -/
theorem pdats_10 (c : Dev nD) : pdats m 10 c = dat10 (E21 m XX) c := rfl
theorem W22_unfold (c : Dev nD) : W22 m XX c = Function.update (Function.update (Function.update (W21 m XX c) main_v146_0 ((dat10 (E21 m XX) c).arrAt 4 cfg10.N)) main_v146_1 ((dat10 (E21 m XX) c).arrAt 5 cfg10.N)) main_v146_2 ((dat10 (E21 m XX) c).arrAt 6 cfg10.N) := rfl
/-- Region 11's proof data in the family, and the chain's contents after the region, spelt out. -/
theorem pdats_11 (c : Dev nD) : pdats m 11 c = dat11 (E23 m XX) c := rfl
theorem W24_unfold (c : Dev nD) : W24 m XX c = Function.update (W23 m XX c) main_v155 ((dat11 (E23 m XX) c).arrAt 5 cfg11.N) := rfl
/-- Region 12's proof data in the family, and the chain's contents after the region, spelt out. -/
theorem pdats_12 (c : Dev nD) : pdats m 12 c = dat12 (E25 m XX) c := rfl
theorem W26_unfold (c : Dev nD) : W26 m XX c = Function.update (W25 m XX c) main_v172 ((dat12 (E25 m XX) c).arrAt 4 cfg12.N) := rfl
/-- Region 13's proof data in the family, and the chain's contents after the region, spelt out. -/
theorem pdats_13 (c : Dev nD) : pdats m 13 c = dat13 (E27 m XX) c := rfl
theorem W28_unfold (c : Dev nD) : W28 m XX c = Function.update (W27 m XX c) main_v189 ((dat13 (E27 m XX) c).arrAt 4 cfg13.N) := rfl

end Cert.Kernel.Hand

end
-- ==== Proof.K_Reg0.lean ====
/-
  Region 0 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF0_0 (c : Dev nD) : (dat0 (E1 m) c).arrAt 0 cfg0.N = W2 m XX c (Pipeline.arrRef spec0 0) := by
  refine ((dat0 (E1 m) c).arrAt_in 0 rfl _).trans ((A_eq0 (E1 m) c 0).trans ?_)
  rw [W2_unfold]
  exact ((Function.update_of_ne (StableHlo.devRef_ne_of_ne (by decide : Pipeline.arrRef spec0 0 ≠ main_v16_2)) _ _).trans ((Function.update_of_ne (StableHlo.devRef_ne_of_ne (by decide : Pipeline.arrRef spec0 0 ≠ main_v16_1)) _ _).trans (Function.update_of_ne (StableHlo.devRef_ne_of_ne (by decide : Pipeline.arrRef spec0 0 ≠ main_v16_0)) _ _))).symm
theorem hF0_1 (c : Dev nD) : (dat0 (E1 m) c).arrAt 1 cfg0.N = W2 m XX c (Pipeline.arrRef spec0 1) := by
  refine ((dat0 (E1 m) c).arrAt_in 1 rfl _).trans ((A_eq0 (E1 m) c 1).trans ?_)
  rw [W2_unfold]
  exact ((Function.update_of_ne (StableHlo.devRef_ne_of_ne (by decide : Pipeline.arrRef spec0 1 ≠ main_v16_2)) _ _).trans ((Function.update_of_ne (StableHlo.devRef_ne_of_ne (by decide : Pipeline.arrRef spec0 1 ≠ main_v16_1)) _ _).trans (Function.update_of_ne (StableHlo.devRef_ne_of_ne (by decide : Pipeline.arrRef spec0 1 ≠ main_v16_0)) _ _))).symm
theorem hF0_2 (c : Dev nD) : (dat0 (E1 m) c).arrAt 2 cfg0.N = W2 m XX c (Pipeline.arrRef spec0 2) := by
  refine ((dat0 (E1 m) c).arrAt_in 2 rfl _).trans ((A_eq0 (E1 m) c 2).trans ?_)
  rw [W2_unfold]
  exact ((Function.update_of_ne (StableHlo.devRef_ne_of_ne (by decide : Pipeline.arrRef spec0 2 ≠ main_v16_2)) _ _).trans ((Function.update_of_ne (StableHlo.devRef_ne_of_ne (by decide : Pipeline.arrRef spec0 2 ≠ main_v16_1)) _ _).trans (Function.update_of_ne (StableHlo.devRef_ne_of_ne (by decide : Pipeline.arrRef spec0 2 ≠ main_v16_0)) _ _))).symm
theorem hF0_3 (c : Dev nD) : (dat0 (E1 m) c).arrAt 3 cfg0.N = W2 m XX c (Pipeline.arrRef spec0 3) := by
  refine ((dat0 (E1 m) c).arrAt_in 3 rfl _).trans ((A_eq0 (E1 m) c 3).trans ?_)
  rw [W2_unfold]
  exact ((Function.update_of_ne (StableHlo.devRef_ne_of_ne (by decide : Pipeline.arrRef spec0 3 ≠ main_v16_2)) _ _).trans ((Function.update_of_ne (StableHlo.devRef_ne_of_ne (by decide : Pipeline.arrRef spec0 3 ≠ main_v16_1)) _ _).trans (Function.update_of_ne (StableHlo.devRef_ne_of_ne (by decide : Pipeline.arrRef spec0 3 ≠ main_v16_0)) _ _))).symm
theorem hF0_4 (c : Dev nD) : (dat0 (E1 m) c).arrAt 4 cfg0.N = W2 m XX c main_v16_0 := by
  have h2 : (Proc.devRef .tc main_v16_0 : DevRef τ sig) ≠ Proc.devRef .tc main_v16_2 := StableHlo.devRef_ne_of_ne (by decide)
  have h1 : (Proc.devRef .tc main_v16_0 : DevRef τ sig) ≠ Proc.devRef .tc main_v16_1 := StableHlo.devRef_ne_of_ne (by decide)
  rw [W2_unfold, Function.update_of_ne h2, Function.update_of_ne h1, Function.update_self]
theorem hF0_5 (c : Dev nD) : (dat0 (E1 m) c).arrAt 5 cfg0.N = W2 m XX c main_v16_1 := by
  have h2 : (Proc.devRef .tc main_v16_1 : DevRef τ sig) ≠ Proc.devRef .tc main_v16_2 := StableHlo.devRef_ne_of_ne (by decide)
  rw [W2_unfold, Function.update_of_ne h2, Function.update_self]
theorem hF0_6 (c : Dev nD) : (dat0 (E1 m) c).arrAt 6 cfg0.N = W2 m XX c main_v16_2 := by
  rw [W2_unfold, Function.update_self]

/-- Region 0's arrays after the region are what its proof data leaves: an output's array the write-backs folded,
    an input's array its entry contents. -/
theorem hF0 (c : Dev nD) (w : Fin cfg0.W) :
    (pdats m 0 c).arrAt w cfg0.N = (fun b : Ref sig .tc => W2 m XX c b) (Pipeline.arrRef spec0 w) := by
  rw [pdats_0]
  fin_cases w
  · exact hF0_0 m c
  · exact hF0_1 m c
  · exact hF0_2 m c
  · exact hF0_3 m c
  · exact hF0_4 m c
  · exact hF0_5 m c
  · exact hF0_6 m c
/-- Every other buffer is as the region found it. -/
theorem hrest0 (c : Dev nD) : ∀ b : Ref sig .tc, b ∉ Finset.univ.image (Pipeline.arrRef spec0) →
    (fun b : Ref sig .tc => W2 m XX c b) b = (fun b : Ref sig .tc => W1 m c b) b := by
  intro b hb
  show W2 m XX c b = W1 m c b
  have h0 : (Proc.devRef .tc b : DevRef τ sig) ≠ Proc.devRef .tc main_v16_0 :=
    StableHlo.devRef_ne_of_ne fun e => hb (Finset.mem_image.mpr ⟨4, Finset.mem_univ _, (e.symm : Pipeline.arrRef spec0 4 = b)⟩)
  have h1 : (Proc.devRef .tc b : DevRef τ sig) ≠ Proc.devRef .tc main_v16_1 :=
    StableHlo.devRef_ne_of_ne fun e => hb (Finset.mem_image.mpr ⟨5, Finset.mem_univ _, (e.symm : Pipeline.arrRef spec0 5 = b)⟩)
  have h2 : (Proc.devRef .tc b : DevRef τ sig) ≠ Proc.devRef .tc main_v16_2 :=
    StableHlo.devRef_ne_of_ne fun e => hb (Finset.mem_image.mpr ⟨6, Finset.mem_univ _, (e.symm : Pipeline.arrRef spec0 6 = b)⟩)
  rw [W2_unfold, Function.update_of_ne h2, Function.update_of_ne h1, Function.update_of_ne h0]

set_option backward.isDefEq.respectTransparency.types false in
/-- Region 0 over the thread state: entered from every unscoped buffer at the chain's contents before it, left at
    the contents after it. Its arrays are split out of the unscoped buffers and put back at their exit contents; the
    generator register goes into the region's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m XX c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (E1 m) c _
  hout c := hout0 (E1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b : Ref sig .tc => W2 m XX c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg1.lean ====
/-
  Region 1 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF1_0 (c : Dev nD) : (dat1 (E3 m XX) c).arrAt 0 cfg1.N = W4 m XX c (Pipeline.arrRef spec1 0) := by
  refine ((dat1 (E3 m XX) c).arrAt_in 0 rfl _).trans ((A_eq1 (E3 m XX) c 0).trans ?_)
  rw [W4_unfold]
  exact (Function.update_of_ne (StableHlo.devRef_ne_of_ne (by decide : Pipeline.arrRef spec1 0 ≠ main_v25)) _ _).symm
theorem hF1_1 (c : Dev nD) : (dat1 (E3 m XX) c).arrAt 1 cfg1.N = W4 m XX c (Pipeline.arrRef spec1 1) := by
  refine ((dat1 (E3 m XX) c).arrAt_in 1 rfl _).trans ((A_eq1 (E3 m XX) c 1).trans ?_)
  rw [W4_unfold]
  exact (Function.update_of_ne (StableHlo.devRef_ne_of_ne (by decide : Pipeline.arrRef spec1 1 ≠ main_v25)) _ _).symm
theorem hF1_2 (c : Dev nD) : (dat1 (E3 m XX) c).arrAt 2 cfg1.N = W4 m XX c (Pipeline.arrRef spec1 2) := by
  refine ((dat1 (E3 m XX) c).arrAt_in 2 rfl _).trans ((A_eq1 (E3 m XX) c 2).trans ?_)
  rw [W4_unfold]
  exact (Function.update_of_ne (StableHlo.devRef_ne_of_ne (by decide : Pipeline.arrRef spec1 2 ≠ main_v25)) _ _).symm
theorem hF1_3 (c : Dev nD) : (dat1 (E3 m XX) c).arrAt 3 cfg1.N = W4 m XX c (Pipeline.arrRef spec1 3) := by
  refine ((dat1 (E3 m XX) c).arrAt_in 3 rfl _).trans ((A_eq1 (E3 m XX) c 3).trans ?_)
  rw [W4_unfold]
  exact (Function.update_of_ne (StableHlo.devRef_ne_of_ne (by decide : Pipeline.arrRef spec1 3 ≠ main_v25)) _ _).symm
theorem hF1_4 (c : Dev nD) : (dat1 (E3 m XX) c).arrAt 4 cfg1.N = W4 m XX c (Pipeline.arrRef spec1 4) := by
  refine ((dat1 (E3 m XX) c).arrAt_in 4 rfl _).trans ((A_eq1 (E3 m XX) c 4).trans ?_)
  rw [W4_unfold]
  exact (Function.update_of_ne (StableHlo.devRef_ne_of_ne (by decide : Pipeline.arrRef spec1 4 ≠ main_v25)) _ _).symm
theorem hF1_5 (c : Dev nD) : (dat1 (E3 m XX) c).arrAt 5 cfg1.N = W4 m XX c main_v25 := by
  rw [W4_unfold, Function.update_self]

/-- Region 1's arrays after the region are what its proof data leaves: an output's array the write-backs folded,
    an input's array its entry contents. -/
theorem hF1 (c : Dev nD) (w : Fin cfg1.W) :
    (pdats m 1 c).arrAt w cfg1.N = (fun b : Ref sig .tc => W4 m XX c b) (Pipeline.arrRef spec1 w) := by
  rw [pdats_1]
  fin_cases w
  · exact hF1_0 m c
  · exact hF1_1 m c
  · exact hF1_2 m c
  · exact hF1_3 m c
  · exact hF1_4 m c
  · exact hF1_5 m c
/-- Every other buffer is as the region found it. -/
theorem hrest1 (c : Dev nD) : ∀ b : Ref sig .tc, b ∉ Finset.univ.image (Pipeline.arrRef spec1) →
    (fun b : Ref sig .tc => W4 m XX c b) b = (fun b : Ref sig .tc => W3 m XX c b) b := by
  intro b hb
  show W4 m XX c b = W3 m XX c b
  have h0 : (Proc.devRef .tc b : DevRef τ sig) ≠ Proc.devRef .tc main_v25 :=
    StableHlo.devRef_ne_of_ne fun e => hb (Finset.mem_image.mpr ⟨5, Finset.mem_univ _, (e.symm : Pipeline.arrRef spec1 5 = b)⟩)
  rw [W4_unfold, Function.update_of_ne h0]

set_option backward.isDefEq.respectTransparency.types false in
/-- Region 1 over the thread state: entered from every unscoped buffer at the chain's contents before it, left at
    the contents after it. Its arrays are split out of the unscoped buffers and put back at their exit contents; the
    generator register goes into the region's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m XX) c).loose
  hwaits := Pipeline.hwaits_of_owed_zero _ _ _ _ L lv 1 fun _ _ => rfl
  pre c := iprop(StableHlo.held (c : Thread nD τ) (Pipeline.ucRefs τ sig) (W3 m XX c) ∗ R c)
  post c := iprop(StableHlo.held (c : Thread nD τ) (Pipeline.ucRefs τ sig) (W4 m XX c) ∗ R c)
  X c := iprop(∃ r, prngReg c r)
  Y c := iprop(∃ r, prngReg c r)
  Z c := Pipeline.unscopedRest (Ix := Unit) (Name := ℕ) (U := UR sig nD τ) (Lvl := ℕ) spec1 c (E3 m XX c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m XX c) (fun b : Ref sig .tc => W4 m XX c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg2.lean ====
/-
  Region 2 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF2_0 (c : Dev nD) : (dat2 (E5 m XX) c).arrAt 0 cfg2.N = W6 m XX c (Pipeline.arrRef spec2 0) := by
  refine ((dat2 (E5 m XX) c).arrAt_in 0 rfl _).trans ((A_eq2 (E5 m XX) c 0).trans ?_)
  rw [W6_unfold]
  exact ((Function.update_of_ne (StableHlo.devRef_ne_of_ne (by decide : Pipeline.arrRef spec2 0 ≠ main_v42_2)) _ _).trans ((Function.update_of_ne (StableHlo.devRef_ne_of_ne (by decide : Pipeline.arrRef spec2 0 ≠ main_v42_1)) _ _).trans (Function.update_of_ne (StableHlo.devRef_ne_of_ne (by decide : Pipeline.arrRef spec2 0 ≠ main_v42_0)) _ _))).symm
theorem hF2_1 (c : Dev nD) : (dat2 (E5 m XX) c).arrAt 1 cfg2.N = W6 m XX c (Pipeline.arrRef spec2 1) := by
  refine ((dat2 (E5 m XX) c).arrAt_in 1 rfl _).trans ((A_eq2 (E5 m XX) c 1).trans ?_)
  rw [W6_unfold]
  exact ((Function.update_of_ne (StableHlo.devRef_ne_of_ne (by decide : Pipeline.arrRef spec2 1 ≠ main_v42_2)) _ _).trans ((Function.update_of_ne (StableHlo.devRef_ne_of_ne (by decide : Pipeline.arrRef spec2 1 ≠ main_v42_1)) _ _).trans (Function.update_of_ne (StableHlo.devRef_ne_of_ne (by decide : Pipeline.arrRef spec2 1 ≠ main_v42_0)) _ _))).symm
theorem hF2_2 (c : Dev nD) : (dat2 (E5 m XX) c).arrAt 2 cfg2.N = W6 m XX c (Pipeline.arrRef spec2 2) := by
  refine ((dat2 (E5 m XX) c).arrAt_in 2 rfl _).trans ((A_eq2 (E5 m XX) c 2).trans ?_)
  rw [W6_unfold]
  exact ((Function.update_of_ne (StableHlo.devRef_ne_of_ne (by decide : Pipeline.arrRef spec2 2 ≠ main_v42_2)) _ _).trans ((Function.update_of_ne (StableHlo.devRef_ne_of_ne (by decide : Pipeline.arrRef spec2 2 ≠ main_v42_1)) _ _).trans (Function.update_of_ne (StableHlo.devRef_ne_of_ne (by decide : Pipeline.arrRef spec2 2 ≠ main_v42_0)) _ _))).symm
theorem hF2_3 (c : Dev nD) : (dat2 (E5 m XX) c).arrAt 3 cfg2.N = W6 m XX c (Pipeline.arrRef spec2 3) := by
  refine ((dat2 (E5 m XX) c).arrAt_in 3 rfl _).trans ((A_eq2 (E5 m XX) c 3).trans ?_)
  rw [W6_unfold]
  exact ((Function.update_of_ne (StableHlo.devRef_ne_of_ne (by decide : Pipeline.arrRef spec2 3 ≠ main_v42_2)) _ _).trans ((Function.update_of_ne (StableHlo.devRef_ne_of_ne (by decide : Pipeline.arrRef spec2 3 ≠ main_v42_1)) _ _).trans (Function.update_of_ne (StableHlo.devRef_ne_of_ne (by decide : Pipeline.arrRef spec2 3 ≠ main_v42_0)) _ _))).symm
theorem hF2_4 (c : Dev nD) : (dat2 (E5 m XX) c).arrAt 4 cfg2.N = W6 m XX c main_v42_0 := by
  have h2 : (Proc.devRef .tc main_v42_0 : DevRef τ sig) ≠ Proc.devRef .tc main_v42_2 := StableHlo.devRef_ne_of_ne (by decide)
  have h1 : (Proc.devRef .tc main_v42_0 : DevRef τ sig) ≠ Proc.devRef .tc main_v42_1 := StableHlo.devRef_ne_of_ne (by decide)
  rw [W6_unfold, Function.update_of_ne h2, Function.update_of_ne h1, Function.update_self]
theorem hF2_5 (c : Dev nD) : (dat2 (E5 m XX) c).arrAt 5 cfg2.N = W6 m XX c main_v42_1 := by
  have h2 : (Proc.devRef .tc main_v42_1 : DevRef τ sig) ≠ Proc.devRef .tc main_v42_2 := StableHlo.devRef_ne_of_ne (by decide)
  rw [W6_unfold, Function.update_of_ne h2, Function.update_self]
theorem hF2_6 (c : Dev nD) : (dat2 (E5 m XX) c).arrAt 6 cfg2.N = W6 m XX c main_v42_2 := by
  rw [W6_unfold, Function.update_self]

/-- Region 2's arrays after the region are what its proof data leaves: an output's array the write-backs folded,
    an input's array its entry contents. -/
theorem hF2 (c : Dev nD) (w : Fin cfg2.W) :
    (pdats m 2 c).arrAt w cfg2.N = (fun b : Ref sig .tc => W6 m XX c b) (Pipeline.arrRef spec2 w) := by
  rw [pdats_2]
  fin_cases w
  · exact hF2_0 m c
  · exact hF2_1 m c
  · exact hF2_2 m c
  · exact hF2_3 m c
  · exact hF2_4 m c
  · exact hF2_5 m c
  · exact hF2_6 m c
/-- Every other buffer is as the region found it. -/
theorem hrest2 (c : Dev nD) : ∀ b : Ref sig .tc, b ∉ Finset.univ.image (Pipeline.arrRef spec2) →
    (fun b : Ref sig .tc => W6 m XX c b) b = (fun b : Ref sig .tc => W5 m XX c b) b := by
  intro b hb
  show W6 m XX c b = W5 m XX c b
  have h0 : (Proc.devRef .tc b : DevRef τ sig) ≠ Proc.devRef .tc main_v42_0 :=
    StableHlo.devRef_ne_of_ne fun e => hb (Finset.mem_image.mpr ⟨4, Finset.mem_univ _, (e.symm : Pipeline.arrRef spec2 4 = b)⟩)
  have h1 : (Proc.devRef .tc b : DevRef τ sig) ≠ Proc.devRef .tc main_v42_1 :=
    StableHlo.devRef_ne_of_ne fun e => hb (Finset.mem_image.mpr ⟨5, Finset.mem_univ _, (e.symm : Pipeline.arrRef spec2 5 = b)⟩)
  have h2 : (Proc.devRef .tc b : DevRef τ sig) ≠ Proc.devRef .tc main_v42_2 :=
    StableHlo.devRef_ne_of_ne fun e => hb (Finset.mem_image.mpr ⟨6, Finset.mem_univ _, (e.symm : Pipeline.arrRef spec2 6 = b)⟩)
  rw [W6_unfold, Function.update_of_ne h2, Function.update_of_ne h1, Function.update_of_ne h0]

set_option backward.isDefEq.respectTransparency.types false in
/-- Region 2 over the thread state: entered from every unscoped buffer at the chain's contents before it, left at
    the contents after it. Its arrays are split out of the unscoped buffers and put back at their exit contents; the
    generator register goes into the region's invariant and comes back; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m XX) c).loose
  hwaits := Pipeline.hwaits_of_owed_zero _ _ _ _ L lv 2 fun _ _ => rfl
  pre c := iprop(StableHlo.held (c : Thread nD τ) (Pipeline.ucRefs τ sig) (W5 m XX c) ∗ R c)
  post c := iprop(StableHlo.held (c : Thread nD τ) (Pipeline.ucRefs τ sig) (W6 m XX c) ∗ R c)
  X c := iprop(∃ r, prngReg c r)
  Y c := iprop(∃ r, prngReg c r)
  Z c := Pipeline.unscopedRest (Ix := Unit) (Name := ℕ) (U := UR sig nD τ) (Lvl := ℕ) spec2 c (E5 m XX c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (E5 m XX) c _
  hout c := hout2 (E5 m XX) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m XX c) (fun b : Ref sig .tc => W6 m XX c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg3.lean ====
/-
  Region 3 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF3_0 (c : Dev nD) : (dat3 (E7 m XX) c).arrAt 0 cfg3.N = W8 m XX c (Pipeline.arrRef spec3 0) := by
  refine ((dat3 (E7 m XX) c).arrAt_in 0 rfl _).trans ((A_eq3 (E7 m XX) c 0).trans ?_)
  rw [W8_unfold]
  exact (Function.update_of_ne (StableHlo.devRef_ne_of_ne (by decide : Pipeline.arrRef spec3 0 ≠ main_v51)) _ _).symm
theorem hF3_1 (c : Dev nD) : (dat3 (E7 m XX) c).arrAt 1 cfg3.N = W8 m XX c (Pipeline.arrRef spec3 1) := by
  refine ((dat3 (E7 m XX) c).arrAt_in 1 rfl _).trans ((A_eq3 (E7 m XX) c 1).trans ?_)
  rw [W8_unfold]
  exact (Function.update_of_ne (StableHlo.devRef_ne_of_ne (by decide : Pipeline.arrRef spec3 1 ≠ main_v51)) _ _).symm
theorem hF3_2 (c : Dev nD) : (dat3 (E7 m XX) c).arrAt 2 cfg3.N = W8 m XX c (Pipeline.arrRef spec3 2) := by
  refine ((dat3 (E7 m XX) c).arrAt_in 2 rfl _).trans ((A_eq3 (E7 m XX) c 2).trans ?_)
  rw [W8_unfold]
  exact (Function.update_of_ne (StableHlo.devRef_ne_of_ne (by decide : Pipeline.arrRef spec3 2 ≠ main_v51)) _ _).symm
theorem hF3_3 (c : Dev nD) : (dat3 (E7 m XX) c).arrAt 3 cfg3.N = W8 m XX c (Pipeline.arrRef spec3 3) := by
  refine ((dat3 (E7 m XX) c).arrAt_in 3 rfl _).trans ((A_eq3 (E7 m XX) c 3).trans ?_)
  rw [W8_unfold]
  exact (Function.update_of_ne (StableHlo.devRef_ne_of_ne (by decide : Pipeline.arrRef spec3 3 ≠ main_v51)) _ _).symm
theorem hF3_4 (c : Dev nD) : (dat3 (E7 m XX) c).arrAt 4 cfg3.N = W8 m XX c (Pipeline.arrRef spec3 4) := by
  refine ((dat3 (E7 m XX) c).arrAt_in 4 rfl _).trans ((A_eq3 (E7 m XX) c 4).trans ?_)
  rw [W8_unfold]
  exact (Function.update_of_ne (StableHlo.devRef_ne_of_ne (by decide : Pipeline.arrRef spec3 4 ≠ main_v51)) _ _).symm
theorem hF3_5 (c : Dev nD) : (dat3 (E7 m XX) c).arrAt 5 cfg3.N = W8 m XX c main_v51 := by
  rw [W8_unfold, Function.update_self]

/-- Region 3's arrays after the region are what its proof data leaves: an output's array the write-backs folded,
    an input's array its entry contents. -/
theorem hF3 (c : Dev nD) (w : Fin cfg3.W) :
    (pdats m 3 c).arrAt w cfg3.N = (fun b : Ref sig .tc => W8 m XX c b) (Pipeline.arrRef spec3 w) := by
  rw [pdats_3]
  fin_cases w
  · exact hF3_0 m c
  · exact hF3_1 m c
  · exact hF3_2 m c
  · exact hF3_3 m c
  · exact hF3_4 m c
  · exact hF3_5 m c
/-- Every other buffer is as the region found it. -/
theorem hrest3 (c : Dev nD) : ∀ b : Ref sig .tc, b ∉ Finset.univ.image (Pipeline.arrRef spec3) →
    (fun b : Ref sig .tc => W8 m XX c b) b = (fun b : Ref sig .tc => W7 m XX c b) b := by
  intro b hb
  show W8 m XX c b = W7 m XX c b
  have h0 : (Proc.devRef .tc b : DevRef τ sig) ≠ Proc.devRef .tc main_v51 :=
    StableHlo.devRef_ne_of_ne fun e => hb (Finset.mem_image.mpr ⟨5, Finset.mem_univ _, (e.symm : Pipeline.arrRef spec3 5 = b)⟩)
  rw [W8_unfold, Function.update_of_ne h0]

set_option backward.isDefEq.respectTransparency.types false in
/-- Region 3 over the thread state: entered from every unscoped buffer at the chain's contents before it, left at
    the contents after it. Its arrays are split out of the unscoped buffers and put back at their exit contents; the
    generator register goes into the region's invariant and comes back; nothing is owed; the kernel has no semaphore
    of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m XX) c).loose
  hwaits := Pipeline.hwaits_of_owed_zero _ _ _ _ L lv 3 fun _ _ => rfl
  pre c := iprop(StableHlo.held (c : Thread nD τ) (Pipeline.ucRefs τ sig) (W7 m XX c) ∗ R c)
  post c := iprop(StableHlo.held (c : Thread nD τ) (Pipeline.ucRefs τ sig) (W8 m XX c) ∗ R c)
  X c := iprop(∃ r, prngReg c r)
  Y c := iprop(∃ r, prngReg c r)
  Z c := Pipeline.unscopedRest (Ix := Unit) (Name := ℕ) (U := UR sig nD τ) (Lvl := ℕ) spec3 c (E7 m XX c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m XX c) (fun b : Ref sig .tc => W8 m XX c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg4.lean ====
/-
  Region 4 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF4_0 (c : Dev nD) : (dat4 (E9 m XX) c).arrAt 0 cfg4.N = W10 m XX c (Pipeline.arrRef spec4 0) := by
  refine ((dat4 (E9 m XX) c).arrAt_in 0 rfl _).trans ((A_eq4 (E9 m XX) c 0).trans ?_)
  rw [W10_unfold]
  exact ((Function.update_of_ne (StableHlo.devRef_ne_of_ne (by decide : Pipeline.arrRef spec4 0 ≠ main_v68_2)) _ _).trans ((Function.update_of_ne (StableHlo.devRef_ne_of_ne (by decide : Pipeline.arrRef spec4 0 ≠ main_v68_1)) _ _).trans (Function.update_of_ne (StableHlo.devRef_ne_of_ne (by decide : Pipeline.arrRef spec4 0 ≠ main_v68_0)) _ _))).symm
theorem hF4_1 (c : Dev nD) : (dat4 (E9 m XX) c).arrAt 1 cfg4.N = W10 m XX c (Pipeline.arrRef spec4 1) := by
  refine ((dat4 (E9 m XX) c).arrAt_in 1 rfl _).trans ((A_eq4 (E9 m XX) c 1).trans ?_)
  rw [W10_unfold]
  exact ((Function.update_of_ne (StableHlo.devRef_ne_of_ne (by decide : Pipeline.arrRef spec4 1 ≠ main_v68_2)) _ _).trans ((Function.update_of_ne (StableHlo.devRef_ne_of_ne (by decide : Pipeline.arrRef spec4 1 ≠ main_v68_1)) _ _).trans (Function.update_of_ne (StableHlo.devRef_ne_of_ne (by decide : Pipeline.arrRef spec4 1 ≠ main_v68_0)) _ _))).symm
theorem hF4_2 (c : Dev nD) : (dat4 (E9 m XX) c).arrAt 2 cfg4.N = W10 m XX c (Pipeline.arrRef spec4 2) := by
  refine ((dat4 (E9 m XX) c).arrAt_in 2 rfl _).trans ((A_eq4 (E9 m XX) c 2).trans ?_)
  rw [W10_unfold]
  exact ((Function.update_of_ne (StableHlo.devRef_ne_of_ne (by decide : Pipeline.arrRef spec4 2 ≠ main_v68_2)) _ _).trans ((Function.update_of_ne (StableHlo.devRef_ne_of_ne (by decide : Pipeline.arrRef spec4 2 ≠ main_v68_1)) _ _).trans (Function.update_of_ne (StableHlo.devRef_ne_of_ne (by decide : Pipeline.arrRef spec4 2 ≠ main_v68_0)) _ _))).symm
theorem hF4_3 (c : Dev nD) : (dat4 (E9 m XX) c).arrAt 3 cfg4.N = W10 m XX c (Pipeline.arrRef spec4 3) := by
  refine ((dat4 (E9 m XX) c).arrAt_in 3 rfl _).trans ((A_eq4 (E9 m XX) c 3).trans ?_)
  rw [W10_unfold]
  exact ((Function.update_of_ne (StableHlo.devRef_ne_of_ne (by decide : Pipeline.arrRef spec4 3 ≠ main_v68_2)) _ _).trans ((Function.update_of_ne (StableHlo.devRef_ne_of_ne (by decide : Pipeline.arrRef spec4 3 ≠ main_v68_1)) _ _).trans (Function.update_of_ne (StableHlo.devRef_ne_of_ne (by decide : Pipeline.arrRef spec4 3 ≠ main_v68_0)) _ _))).symm
theorem hF4_4 (c : Dev nD) : (dat4 (E9 m XX) c).arrAt 4 cfg4.N = W10 m XX c main_v68_0 := by
  have h2 : (Proc.devRef .tc main_v68_0 : DevRef τ sig) ≠ Proc.devRef .tc main_v68_2 := StableHlo.devRef_ne_of_ne (by decide)
  have h1 : (Proc.devRef .tc main_v68_0 : DevRef τ sig) ≠ Proc.devRef .tc main_v68_1 := StableHlo.devRef_ne_of_ne (by decide)
  rw [W10_unfold, Function.update_of_ne h2, Function.update_of_ne h1, Function.update_self]
theorem hF4_5 (c : Dev nD) : (dat4 (E9 m XX) c).arrAt 5 cfg4.N = W10 m XX c main_v68_1 := by
  have h2 : (Proc.devRef .tc main_v68_1 : DevRef τ sig) ≠ Proc.devRef .tc main_v68_2 := StableHlo.devRef_ne_of_ne (by decide)
  rw [W10_unfold, Function.update_of_ne h2, Function.update_self]
theorem hF4_6 (c : Dev nD) : (dat4 (E9 m XX) c).arrAt 6 cfg4.N = W10 m XX c main_v68_2 := by
  rw [W10_unfold, Function.update_self]

/-- Region 4's arrays after the region are what its proof data leaves: an output's array the write-backs folded,
    an input's array its entry contents. -/
theorem hF4 (c : Dev nD) (w : Fin cfg4.W) :
    (pdats m 4 c).arrAt w cfg4.N = (fun b : Ref sig .tc => W10 m XX c b) (Pipeline.arrRef spec4 w) := by
  rw [pdats_4]
  fin_cases w
  · exact hF4_0 m c
  · exact hF4_1 m c
  · exact hF4_2 m c
  · exact hF4_3 m c
  · exact hF4_4 m c
  · exact hF4_5 m c
  · exact hF4_6 m c
/-- Every other buffer is as the region found it. -/
theorem hrest4 (c : Dev nD) : ∀ b : Ref sig .tc, b ∉ Finset.univ.image (Pipeline.arrRef spec4) →
    (fun b : Ref sig .tc => W10 m XX c b) b = (fun b : Ref sig .tc => W9 m XX c b) b := by
  intro b hb
  show W10 m XX c b = W9 m XX c b
  have h0 : (Proc.devRef .tc b : DevRef τ sig) ≠ Proc.devRef .tc main_v68_0 :=
    StableHlo.devRef_ne_of_ne fun e => hb (Finset.mem_image.mpr ⟨4, Finset.mem_univ _, (e.symm : Pipeline.arrRef spec4 4 = b)⟩)
  have h1 : (Proc.devRef .tc b : DevRef τ sig) ≠ Proc.devRef .tc main_v68_1 :=
    StableHlo.devRef_ne_of_ne fun e => hb (Finset.mem_image.mpr ⟨5, Finset.mem_univ _, (e.symm : Pipeline.arrRef spec4 5 = b)⟩)
  have h2 : (Proc.devRef .tc b : DevRef τ sig) ≠ Proc.devRef .tc main_v68_2 :=
    StableHlo.devRef_ne_of_ne fun e => hb (Finset.mem_image.mpr ⟨6, Finset.mem_univ _, (e.symm : Pipeline.arrRef spec4 6 = b)⟩)
  rw [W10_unfold, Function.update_of_ne h2, Function.update_of_ne h1, Function.update_of_ne h0]

set_option backward.isDefEq.respectTransparency.types false in
/-- Region 4 over the thread state: entered from every unscoped buffer at the chain's contents before it, left at
    the contents after it. Its arrays are split out of the unscoped buffers and put back at their exit contents; the
    generator register goes into the region's invariant and comes back; nothing is owed; the kernel has no semaphore
    of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E9 m XX) c).loose
  hwaits := Pipeline.hwaits_of_owed_zero _ _ _ _ L lv 4 fun _ _ => rfl
  pre c := iprop(StableHlo.held (c : Thread nD τ) (Pipeline.ucRefs τ sig) (W9 m XX c) ∗ R c)
  post c := iprop(StableHlo.held (c : Thread nD τ) (Pipeline.ucRefs τ sig) (W10 m XX c) ∗ R c)
  X c := iprop(∃ r, prngReg c r)
  Y c := iprop(∃ r, prngReg c r)
  Z c := Pipeline.unscopedRest (Ix := Unit) (Name := ℕ) (U := UR sig nD τ) (Lvl := ℕ) spec4 c (E9 m XX c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (E9 m XX) c _
  hout c := hout4 (E9 m XX) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m XX c) (fun b : Ref sig .tc => W10 m XX c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg5.lean ====
/-
  Region 5 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF5_0 (c : Dev nD) : (dat5 (E11 m XX) c).arrAt 0 cfg5.N = W12 m XX c (Pipeline.arrRef spec5 0) := by
  refine ((dat5 (E11 m XX) c).arrAt_in 0 rfl _).trans ((A_eq5 (E11 m XX) c 0).trans ?_)
  rw [W12_unfold]
  exact (Function.update_of_ne (StableHlo.devRef_ne_of_ne (by decide : Pipeline.arrRef spec5 0 ≠ main_v77)) _ _).symm
theorem hF5_1 (c : Dev nD) : (dat5 (E11 m XX) c).arrAt 1 cfg5.N = W12 m XX c (Pipeline.arrRef spec5 1) := by
  refine ((dat5 (E11 m XX) c).arrAt_in 1 rfl _).trans ((A_eq5 (E11 m XX) c 1).trans ?_)
  rw [W12_unfold]
  exact (Function.update_of_ne (StableHlo.devRef_ne_of_ne (by decide : Pipeline.arrRef spec5 1 ≠ main_v77)) _ _).symm
theorem hF5_2 (c : Dev nD) : (dat5 (E11 m XX) c).arrAt 2 cfg5.N = W12 m XX c (Pipeline.arrRef spec5 2) := by
  refine ((dat5 (E11 m XX) c).arrAt_in 2 rfl _).trans ((A_eq5 (E11 m XX) c 2).trans ?_)
  rw [W12_unfold]
  exact (Function.update_of_ne (StableHlo.devRef_ne_of_ne (by decide : Pipeline.arrRef spec5 2 ≠ main_v77)) _ _).symm
theorem hF5_3 (c : Dev nD) : (dat5 (E11 m XX) c).arrAt 3 cfg5.N = W12 m XX c (Pipeline.arrRef spec5 3) := by
  refine ((dat5 (E11 m XX) c).arrAt_in 3 rfl _).trans ((A_eq5 (E11 m XX) c 3).trans ?_)
  rw [W12_unfold]
  exact (Function.update_of_ne (StableHlo.devRef_ne_of_ne (by decide : Pipeline.arrRef spec5 3 ≠ main_v77)) _ _).symm
theorem hF5_4 (c : Dev nD) : (dat5 (E11 m XX) c).arrAt 4 cfg5.N = W12 m XX c (Pipeline.arrRef spec5 4) := by
  refine ((dat5 (E11 m XX) c).arrAt_in 4 rfl _).trans ((A_eq5 (E11 m XX) c 4).trans ?_)
  rw [W12_unfold]
  exact (Function.update_of_ne (StableHlo.devRef_ne_of_ne (by decide : Pipeline.arrRef spec5 4 ≠ main_v77)) _ _).symm
theorem hF5_5 (c : Dev nD) : (dat5 (E11 m XX) c).arrAt 5 cfg5.N = W12 m XX c main_v77 := by
  rw [W12_unfold, Function.update_self]

/-- Region 5's arrays after the region are what its proof data leaves: an output's array the write-backs folded,
    an input's array its entry contents. -/
theorem hF5 (c : Dev nD) (w : Fin cfg5.W) :
    (pdats m 5 c).arrAt w cfg5.N = (fun b : Ref sig .tc => W12 m XX c b) (Pipeline.arrRef spec5 w) := by
  rw [pdats_5]
  fin_cases w
  · exact hF5_0 m c
  · exact hF5_1 m c
  · exact hF5_2 m c
  · exact hF5_3 m c
  · exact hF5_4 m c
  · exact hF5_5 m c
/-- Every other buffer is as the region found it. -/
theorem hrest5 (c : Dev nD) : ∀ b : Ref sig .tc, b ∉ Finset.univ.image (Pipeline.arrRef spec5) →
    (fun b : Ref sig .tc => W12 m XX c b) b = (fun b : Ref sig .tc => W11 m XX c b) b := by
  intro b hb
  show W12 m XX c b = W11 m XX c b
  have h0 : (Proc.devRef .tc b : DevRef τ sig) ≠ Proc.devRef .tc main_v77 :=
    StableHlo.devRef_ne_of_ne fun e => hb (Finset.mem_image.mpr ⟨5, Finset.mem_univ _, (e.symm : Pipeline.arrRef spec5 5 = b)⟩)
  rw [W12_unfold, Function.update_of_ne h0]

set_option backward.isDefEq.respectTransparency.types false in
/-- Region 5 over the thread state: entered from every unscoped buffer at the chain's contents before it, left at
    the contents after it. Its arrays are split out of the unscoped buffers and put back at their exit contents; the
    generator register goes into the region's invariant and comes back; nothing is owed; the kernel has no semaphore
    of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E11 m XX) c).loose
  hwaits := Pipeline.hwaits_of_owed_zero _ _ _ _ L lv 5 fun _ _ => rfl
  pre c := iprop(StableHlo.held (c : Thread nD τ) (Pipeline.ucRefs τ sig) (W11 m XX c) ∗ R c)
  post c := iprop(StableHlo.held (c : Thread nD τ) (Pipeline.ucRefs τ sig) (W12 m XX c) ∗ R c)
  X c := iprop(∃ r, prngReg c r)
  Y c := iprop(∃ r, prngReg c r)
  Z c := Pipeline.unscopedRest (Ix := Unit) (Name := ℕ) (U := UR sig nD τ) (Lvl := ℕ) spec5 c (E11 m XX c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m XX c) (fun b : Ref sig .tc => W12 m XX c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg6.lean ====
/-
  Region 6 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF6_0 (c : Dev nD) : (dat6 (E13 m XX) c).arrAt 0 cfg6.N = W14 m XX c (Pipeline.arrRef spec6 0) := by
  refine ((dat6 (E13 m XX) c).arrAt_in 0 rfl _).trans ((A_eq6 (E13 m XX) c 0).trans ?_)
  rw [W14_unfold]
  exact ((Function.update_of_ne (StableHlo.devRef_ne_of_ne (by decide : Pipeline.arrRef spec6 0 ≠ main_v94_2)) _ _).trans ((Function.update_of_ne (StableHlo.devRef_ne_of_ne (by decide : Pipeline.arrRef spec6 0 ≠ main_v94_1)) _ _).trans (Function.update_of_ne (StableHlo.devRef_ne_of_ne (by decide : Pipeline.arrRef spec6 0 ≠ main_v94_0)) _ _))).symm
theorem hF6_1 (c : Dev nD) : (dat6 (E13 m XX) c).arrAt 1 cfg6.N = W14 m XX c (Pipeline.arrRef spec6 1) := by
  refine ((dat6 (E13 m XX) c).arrAt_in 1 rfl _).trans ((A_eq6 (E13 m XX) c 1).trans ?_)
  rw [W14_unfold]
  exact ((Function.update_of_ne (StableHlo.devRef_ne_of_ne (by decide : Pipeline.arrRef spec6 1 ≠ main_v94_2)) _ _).trans ((Function.update_of_ne (StableHlo.devRef_ne_of_ne (by decide : Pipeline.arrRef spec6 1 ≠ main_v94_1)) _ _).trans (Function.update_of_ne (StableHlo.devRef_ne_of_ne (by decide : Pipeline.arrRef spec6 1 ≠ main_v94_0)) _ _))).symm
theorem hF6_2 (c : Dev nD) : (dat6 (E13 m XX) c).arrAt 2 cfg6.N = W14 m XX c (Pipeline.arrRef spec6 2) := by
  refine ((dat6 (E13 m XX) c).arrAt_in 2 rfl _).trans ((A_eq6 (E13 m XX) c 2).trans ?_)
  rw [W14_unfold]
  exact ((Function.update_of_ne (StableHlo.devRef_ne_of_ne (by decide : Pipeline.arrRef spec6 2 ≠ main_v94_2)) _ _).trans ((Function.update_of_ne (StableHlo.devRef_ne_of_ne (by decide : Pipeline.arrRef spec6 2 ≠ main_v94_1)) _ _).trans (Function.update_of_ne (StableHlo.devRef_ne_of_ne (by decide : Pipeline.arrRef spec6 2 ≠ main_v94_0)) _ _))).symm
theorem hF6_3 (c : Dev nD) : (dat6 (E13 m XX) c).arrAt 3 cfg6.N = W14 m XX c (Pipeline.arrRef spec6 3) := by
  refine ((dat6 (E13 m XX) c).arrAt_in 3 rfl _).trans ((A_eq6 (E13 m XX) c 3).trans ?_)
  rw [W14_unfold]
  exact ((Function.update_of_ne (StableHlo.devRef_ne_of_ne (by decide : Pipeline.arrRef spec6 3 ≠ main_v94_2)) _ _).trans ((Function.update_of_ne (StableHlo.devRef_ne_of_ne (by decide : Pipeline.arrRef spec6 3 ≠ main_v94_1)) _ _).trans (Function.update_of_ne (StableHlo.devRef_ne_of_ne (by decide : Pipeline.arrRef spec6 3 ≠ main_v94_0)) _ _))).symm
theorem hF6_4 (c : Dev nD) : (dat6 (E13 m XX) c).arrAt 4 cfg6.N = W14 m XX c main_v94_0 := by
  have h2 : (Proc.devRef .tc main_v94_0 : DevRef τ sig) ≠ Proc.devRef .tc main_v94_2 := StableHlo.devRef_ne_of_ne (by decide)
  have h1 : (Proc.devRef .tc main_v94_0 : DevRef τ sig) ≠ Proc.devRef .tc main_v94_1 := StableHlo.devRef_ne_of_ne (by decide)
  rw [W14_unfold, Function.update_of_ne h2, Function.update_of_ne h1, Function.update_self]
theorem hF6_5 (c : Dev nD) : (dat6 (E13 m XX) c).arrAt 5 cfg6.N = W14 m XX c main_v94_1 := by
  have h2 : (Proc.devRef .tc main_v94_1 : DevRef τ sig) ≠ Proc.devRef .tc main_v94_2 := StableHlo.devRef_ne_of_ne (by decide)
  rw [W14_unfold, Function.update_of_ne h2, Function.update_self]
theorem hF6_6 (c : Dev nD) : (dat6 (E13 m XX) c).arrAt 6 cfg6.N = W14 m XX c main_v94_2 := by
  rw [W14_unfold, Function.update_self]

/-- Region 6's arrays after the region are what its proof data leaves: an output's array the write-backs folded,
    an input's array its entry contents. -/
theorem hF6 (c : Dev nD) (w : Fin cfg6.W) :
    (pdats m 6 c).arrAt w cfg6.N = (fun b : Ref sig .tc => W14 m XX c b) (Pipeline.arrRef spec6 w) := by
  rw [pdats_6]
  fin_cases w
  · exact hF6_0 m c
  · exact hF6_1 m c
  · exact hF6_2 m c
  · exact hF6_3 m c
  · exact hF6_4 m c
  · exact hF6_5 m c
  · exact hF6_6 m c
/-- Every other buffer is as the region found it. -/
theorem hrest6 (c : Dev nD) : ∀ b : Ref sig .tc, b ∉ Finset.univ.image (Pipeline.arrRef spec6) →
    (fun b : Ref sig .tc => W14 m XX c b) b = (fun b : Ref sig .tc => W13 m XX c b) b := by
  intro b hb
  show W14 m XX c b = W13 m XX c b
  have h0 : (Proc.devRef .tc b : DevRef τ sig) ≠ Proc.devRef .tc main_v94_0 :=
    StableHlo.devRef_ne_of_ne fun e => hb (Finset.mem_image.mpr ⟨4, Finset.mem_univ _, (e.symm : Pipeline.arrRef spec6 4 = b)⟩)
  have h1 : (Proc.devRef .tc b : DevRef τ sig) ≠ Proc.devRef .tc main_v94_1 :=
    StableHlo.devRef_ne_of_ne fun e => hb (Finset.mem_image.mpr ⟨5, Finset.mem_univ _, (e.symm : Pipeline.arrRef spec6 5 = b)⟩)
  have h2 : (Proc.devRef .tc b : DevRef τ sig) ≠ Proc.devRef .tc main_v94_2 :=
    StableHlo.devRef_ne_of_ne fun e => hb (Finset.mem_image.mpr ⟨6, Finset.mem_univ _, (e.symm : Pipeline.arrRef spec6 6 = b)⟩)
  rw [W14_unfold, Function.update_of_ne h2, Function.update_of_ne h1, Function.update_of_ne h0]

set_option backward.isDefEq.respectTransparency.types false in
/-- Region 6 over the thread state: entered from every unscoped buffer at the chain's contents before it, left at
    the contents after it. Its arrays are split out of the unscoped buffers and put back at their exit contents; the
    generator register goes into the region's invariant and comes back; nothing is owed; the kernel has no semaphore
    of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E13 m XX) c).loose
  hwaits := Pipeline.hwaits_of_owed_zero _ _ _ _ L lv 6 fun _ _ => rfl
  pre c := iprop(StableHlo.held (c : Thread nD τ) (Pipeline.ucRefs τ sig) (W13 m XX c) ∗ R c)
  post c := iprop(StableHlo.held (c : Thread nD τ) (Pipeline.ucRefs τ sig) (W14 m XX c) ∗ R c)
  X c := iprop(∃ r, prngReg c r)
  Y c := iprop(∃ r, prngReg c r)
  Z c := Pipeline.unscopedRest (Ix := Unit) (Name := ℕ) (U := UR sig nD τ) (Lvl := ℕ) spec6 c (E13 m XX c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin6 (E13 m XX) c _
  hout c := hout6 (E13 m XX) c
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m XX c) (fun b : Ref sig .tc => W14 m XX c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg7.lean ====
/-
  Region 7 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF7_0 (c : Dev nD) : (dat7 (E15 m XX) c).arrAt 0 cfg7.N = W16 m XX c (Pipeline.arrRef spec7 0) := by
  refine ((dat7 (E15 m XX) c).arrAt_in 0 rfl _).trans ((A_eq7 (E15 m XX) c 0).trans ?_)
  rw [W16_unfold]
  exact (Function.update_of_ne (StableHlo.devRef_ne_of_ne (by decide : Pipeline.arrRef spec7 0 ≠ main_v103)) _ _).symm
theorem hF7_1 (c : Dev nD) : (dat7 (E15 m XX) c).arrAt 1 cfg7.N = W16 m XX c (Pipeline.arrRef spec7 1) := by
  refine ((dat7 (E15 m XX) c).arrAt_in 1 rfl _).trans ((A_eq7 (E15 m XX) c 1).trans ?_)
  rw [W16_unfold]
  exact (Function.update_of_ne (StableHlo.devRef_ne_of_ne (by decide : Pipeline.arrRef spec7 1 ≠ main_v103)) _ _).symm
theorem hF7_2 (c : Dev nD) : (dat7 (E15 m XX) c).arrAt 2 cfg7.N = W16 m XX c (Pipeline.arrRef spec7 2) := by
  refine ((dat7 (E15 m XX) c).arrAt_in 2 rfl _).trans ((A_eq7 (E15 m XX) c 2).trans ?_)
  rw [W16_unfold]
  exact (Function.update_of_ne (StableHlo.devRef_ne_of_ne (by decide : Pipeline.arrRef spec7 2 ≠ main_v103)) _ _).symm
theorem hF7_3 (c : Dev nD) : (dat7 (E15 m XX) c).arrAt 3 cfg7.N = W16 m XX c (Pipeline.arrRef spec7 3) := by
  refine ((dat7 (E15 m XX) c).arrAt_in 3 rfl _).trans ((A_eq7 (E15 m XX) c 3).trans ?_)
  rw [W16_unfold]
  exact (Function.update_of_ne (StableHlo.devRef_ne_of_ne (by decide : Pipeline.arrRef spec7 3 ≠ main_v103)) _ _).symm
theorem hF7_4 (c : Dev nD) : (dat7 (E15 m XX) c).arrAt 4 cfg7.N = W16 m XX c (Pipeline.arrRef spec7 4) := by
  refine ((dat7 (E15 m XX) c).arrAt_in 4 rfl _).trans ((A_eq7 (E15 m XX) c 4).trans ?_)
  rw [W16_unfold]
  exact (Function.update_of_ne (StableHlo.devRef_ne_of_ne (by decide : Pipeline.arrRef spec7 4 ≠ main_v103)) _ _).symm
theorem hF7_5 (c : Dev nD) : (dat7 (E15 m XX) c).arrAt 5 cfg7.N = W16 m XX c main_v103 := by
  rw [W16_unfold, Function.update_self]

/-- Region 7's arrays after the region are what its proof data leaves: an output's array the write-backs folded,
    an input's array its entry contents. -/
theorem hF7 (c : Dev nD) (w : Fin cfg7.W) :
    (pdats m 7 c).arrAt w cfg7.N = (fun b : Ref sig .tc => W16 m XX c b) (Pipeline.arrRef spec7 w) := by
  rw [pdats_7]
  fin_cases w
  · exact hF7_0 m c
  · exact hF7_1 m c
  · exact hF7_2 m c
  · exact hF7_3 m c
  · exact hF7_4 m c
  · exact hF7_5 m c
/-- Every other buffer is as the region found it. -/
theorem hrest7 (c : Dev nD) : ∀ b : Ref sig .tc, b ∉ Finset.univ.image (Pipeline.arrRef spec7) →
    (fun b : Ref sig .tc => W16 m XX c b) b = (fun b : Ref sig .tc => W15 m XX c b) b := by
  intro b hb
  show W16 m XX c b = W15 m XX c b
  have h0 : (Proc.devRef .tc b : DevRef τ sig) ≠ Proc.devRef .tc main_v103 :=
    StableHlo.devRef_ne_of_ne fun e => hb (Finset.mem_image.mpr ⟨5, Finset.mem_univ _, (e.symm : Pipeline.arrRef spec7 5 = b)⟩)
  rw [W16_unfold, Function.update_of_ne h0]

set_option backward.isDefEq.respectTransparency.types false in
/-- Region 7 over the thread state: entered from every unscoped buffer at the chain's contents before it, left at
    the contents after it. Its arrays are split out of the unscoped buffers and put back at their exit contents; the
    generator register goes into the region's invariant and comes back; nothing is owed; the kernel has no semaphore
    of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E15 m XX) c).loose
  hwaits := Pipeline.hwaits_of_owed_zero _ _ _ _ L lv 7 fun _ _ => rfl
  pre c := iprop(StableHlo.held (c : Thread nD τ) (Pipeline.ucRefs τ sig) (W15 m XX c) ∗ R c)
  post c := iprop(StableHlo.held (c : Thread nD τ) (Pipeline.ucRefs τ sig) (W16 m XX c) ∗ R c)
  X c := iprop(∃ r, prngReg c r)
  Y c := iprop(∃ r, prngReg c r)
  Z c := Pipeline.unscopedRest (Ix := Unit) (Name := ℕ) (U := UR sig nD τ) (Lvl := ℕ) spec7 c (E15 m XX c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m XX c) (fun b : Ref sig .tc => W16 m XX c b) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg8.lean ====
/-
  Region 8 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF8_0 (c : Dev nD) : (dat8 (E17 m XX) c).arrAt 0 cfg8.N = W18 m XX c (Pipeline.arrRef spec8 0) := by
  refine ((dat8 (E17 m XX) c).arrAt_in 0 rfl _).trans ((A_eq8 (E17 m XX) c 0).trans ?_)
  rw [W18_unfold]
  exact ((Function.update_of_ne (StableHlo.devRef_ne_of_ne (by decide : Pipeline.arrRef spec8 0 ≠ main_v120_2)) _ _).trans ((Function.update_of_ne (StableHlo.devRef_ne_of_ne (by decide : Pipeline.arrRef spec8 0 ≠ main_v120_1)) _ _).trans (Function.update_of_ne (StableHlo.devRef_ne_of_ne (by decide : Pipeline.arrRef spec8 0 ≠ main_v120_0)) _ _))).symm
theorem hF8_1 (c : Dev nD) : (dat8 (E17 m XX) c).arrAt 1 cfg8.N = W18 m XX c (Pipeline.arrRef spec8 1) := by
  refine ((dat8 (E17 m XX) c).arrAt_in 1 rfl _).trans ((A_eq8 (E17 m XX) c 1).trans ?_)
  rw [W18_unfold]
  exact ((Function.update_of_ne (StableHlo.devRef_ne_of_ne (by decide : Pipeline.arrRef spec8 1 ≠ main_v120_2)) _ _).trans ((Function.update_of_ne (StableHlo.devRef_ne_of_ne (by decide : Pipeline.arrRef spec8 1 ≠ main_v120_1)) _ _).trans (Function.update_of_ne (StableHlo.devRef_ne_of_ne (by decide : Pipeline.arrRef spec8 1 ≠ main_v120_0)) _ _))).symm
theorem hF8_2 (c : Dev nD) : (dat8 (E17 m XX) c).arrAt 2 cfg8.N = W18 m XX c (Pipeline.arrRef spec8 2) := by
  refine ((dat8 (E17 m XX) c).arrAt_in 2 rfl _).trans ((A_eq8 (E17 m XX) c 2).trans ?_)
  rw [W18_unfold]
  exact ((Function.update_of_ne (StableHlo.devRef_ne_of_ne (by decide : Pipeline.arrRef spec8 2 ≠ main_v120_2)) _ _).trans ((Function.update_of_ne (StableHlo.devRef_ne_of_ne (by decide : Pipeline.arrRef spec8 2 ≠ main_v120_1)) _ _).trans (Function.update_of_ne (StableHlo.devRef_ne_of_ne (by decide : Pipeline.arrRef spec8 2 ≠ main_v120_0)) _ _))).symm
theorem hF8_3 (c : Dev nD) : (dat8 (E17 m XX) c).arrAt 3 cfg8.N = W18 m XX c (Pipeline.arrRef spec8 3) := by
  refine ((dat8 (E17 m XX) c).arrAt_in 3 rfl _).trans ((A_eq8 (E17 m XX) c 3).trans ?_)
  rw [W18_unfold]
  exact ((Function.update_of_ne (StableHlo.devRef_ne_of_ne (by decide : Pipeline.arrRef spec8 3 ≠ main_v120_2)) _ _).trans ((Function.update_of_ne (StableHlo.devRef_ne_of_ne (by decide : Pipeline.arrRef spec8 3 ≠ main_v120_1)) _ _).trans (Function.update_of_ne (StableHlo.devRef_ne_of_ne (by decide : Pipeline.arrRef spec8 3 ≠ main_v120_0)) _ _))).symm
theorem hF8_4 (c : Dev nD) : (dat8 (E17 m XX) c).arrAt 4 cfg8.N = W18 m XX c main_v120_0 := by
  have h2 : (Proc.devRef .tc main_v120_0 : DevRef τ sig) ≠ Proc.devRef .tc main_v120_2 := StableHlo.devRef_ne_of_ne (by decide)
  have h1 : (Proc.devRef .tc main_v120_0 : DevRef τ sig) ≠ Proc.devRef .tc main_v120_1 := StableHlo.devRef_ne_of_ne (by decide)
  rw [W18_unfold, Function.update_of_ne h2, Function.update_of_ne h1, Function.update_self]
theorem hF8_5 (c : Dev nD) : (dat8 (E17 m XX) c).arrAt 5 cfg8.N = W18 m XX c main_v120_1 := by
  have h2 : (Proc.devRef .tc main_v120_1 : DevRef τ sig) ≠ Proc.devRef .tc main_v120_2 := StableHlo.devRef_ne_of_ne (by decide)
  rw [W18_unfold, Function.update_of_ne h2, Function.update_self]
theorem hF8_6 (c : Dev nD) : (dat8 (E17 m XX) c).arrAt 6 cfg8.N = W18 m XX c main_v120_2 := by
  rw [W18_unfold, Function.update_self]

/-- Region 8's arrays after the region are what its proof data leaves: an output's array the write-backs folded,
    an input's array its entry contents. -/
theorem hF8 (c : Dev nD) (w : Fin cfg8.W) :
    (pdats m 8 c).arrAt w cfg8.N = (fun b : Ref sig .tc => W18 m XX c b) (Pipeline.arrRef spec8 w) := by
  rw [pdats_8]
  fin_cases w
  · exact hF8_0 m c
  · exact hF8_1 m c
  · exact hF8_2 m c
  · exact hF8_3 m c
  · exact hF8_4 m c
  · exact hF8_5 m c
  · exact hF8_6 m c
/-- Every other buffer is as the region found it. -/
theorem hrest8 (c : Dev nD) : ∀ b : Ref sig .tc, b ∉ Finset.univ.image (Pipeline.arrRef spec8) →
    (fun b : Ref sig .tc => W18 m XX c b) b = (fun b : Ref sig .tc => W17 m XX c b) b := by
  intro b hb
  show W18 m XX c b = W17 m XX c b
  have h0 : (Proc.devRef .tc b : DevRef τ sig) ≠ Proc.devRef .tc main_v120_0 :=
    StableHlo.devRef_ne_of_ne fun e => hb (Finset.mem_image.mpr ⟨4, Finset.mem_univ _, (e.symm : Pipeline.arrRef spec8 4 = b)⟩)
  have h1 : (Proc.devRef .tc b : DevRef τ sig) ≠ Proc.devRef .tc main_v120_1 :=
    StableHlo.devRef_ne_of_ne fun e => hb (Finset.mem_image.mpr ⟨5, Finset.mem_univ _, (e.symm : Pipeline.arrRef spec8 5 = b)⟩)
  have h2 : (Proc.devRef .tc b : DevRef τ sig) ≠ Proc.devRef .tc main_v120_2 :=
    StableHlo.devRef_ne_of_ne fun e => hb (Finset.mem_image.mpr ⟨6, Finset.mem_univ _, (e.symm : Pipeline.arrRef spec8 6 = b)⟩)
  rw [W18_unfold, Function.update_of_ne h2, Function.update_of_ne h1, Function.update_of_ne h0]

set_option backward.isDefEq.respectTransparency.types false in
/-- Region 8 over the thread state: entered from every unscoped buffer at the chain's contents before it, left at
    the contents after it. Its arrays are split out of the unscoped buffers and put back at their exit contents; the
    generator register goes into the region's invariant and comes back; nothing is owed; the kernel has no semaphore
    of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E17 m XX) c).loose
  hwaits := Pipeline.hwaits_of_owed_zero _ _ _ _ L lv 8 fun _ _ => rfl
  pre c := iprop(StableHlo.held (c : Thread nD τ) (Pipeline.ucRefs τ sig) (W17 m XX c) ∗ R c)
  post c := iprop(StableHlo.held (c : Thread nD τ) (Pipeline.ucRefs τ sig) (W18 m XX c) ∗ R c)
  X c := iprop(∃ r, prngReg c r)
  Y c := iprop(∃ r, prngReg c r)
  Z c := Pipeline.unscopedRest (Ix := Unit) (Name := ℕ) (U := UR sig nD τ) (Lvl := ℕ) spec8 c (E17 m XX c)
  hentry c := by
    rw [Pipeline.ownSems0_none]
    have hsplit := Pipeline.arrays_of_unscopedBufs (p := 8) (pcfgs (F := F)) adm (pdats m) launch8.win launch8.arr_whole c
      ((pdats m 8 c).share_full fun _ => rfl) (E17 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin8 (E17 m XX) c _
  hout c := hout8 (E17 m XX) c
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E17 m XX c) (fun b : Ref sig .tc => W18 m XX c b) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg9.lean ====
/-
  Region 9 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF9_0 (c : Dev nD) : (dat9 (E19 m XX) c).arrAt 0 cfg9.N = W20 m XX c (Pipeline.arrRef spec9 0) := by
  refine ((dat9 (E19 m XX) c).arrAt_in 0 rfl _).trans ((A_eq9 (E19 m XX) c 0).trans ?_)
  rw [W20_unfold]
  exact (Function.update_of_ne (StableHlo.devRef_ne_of_ne (by decide : Pipeline.arrRef spec9 0 ≠ main_v129)) _ _).symm
theorem hF9_1 (c : Dev nD) : (dat9 (E19 m XX) c).arrAt 1 cfg9.N = W20 m XX c (Pipeline.arrRef spec9 1) := by
  refine ((dat9 (E19 m XX) c).arrAt_in 1 rfl _).trans ((A_eq9 (E19 m XX) c 1).trans ?_)
  rw [W20_unfold]
  exact (Function.update_of_ne (StableHlo.devRef_ne_of_ne (by decide : Pipeline.arrRef spec9 1 ≠ main_v129)) _ _).symm
theorem hF9_2 (c : Dev nD) : (dat9 (E19 m XX) c).arrAt 2 cfg9.N = W20 m XX c (Pipeline.arrRef spec9 2) := by
  refine ((dat9 (E19 m XX) c).arrAt_in 2 rfl _).trans ((A_eq9 (E19 m XX) c 2).trans ?_)
  rw [W20_unfold]
  exact (Function.update_of_ne (StableHlo.devRef_ne_of_ne (by decide : Pipeline.arrRef spec9 2 ≠ main_v129)) _ _).symm
theorem hF9_3 (c : Dev nD) : (dat9 (E19 m XX) c).arrAt 3 cfg9.N = W20 m XX c (Pipeline.arrRef spec9 3) := by
  refine ((dat9 (E19 m XX) c).arrAt_in 3 rfl _).trans ((A_eq9 (E19 m XX) c 3).trans ?_)
  rw [W20_unfold]
  exact (Function.update_of_ne (StableHlo.devRef_ne_of_ne (by decide : Pipeline.arrRef spec9 3 ≠ main_v129)) _ _).symm
theorem hF9_4 (c : Dev nD) : (dat9 (E19 m XX) c).arrAt 4 cfg9.N = W20 m XX c (Pipeline.arrRef spec9 4) := by
  refine ((dat9 (E19 m XX) c).arrAt_in 4 rfl _).trans ((A_eq9 (E19 m XX) c 4).trans ?_)
  rw [W20_unfold]
  exact (Function.update_of_ne (StableHlo.devRef_ne_of_ne (by decide : Pipeline.arrRef spec9 4 ≠ main_v129)) _ _).symm
theorem hF9_5 (c : Dev nD) : (dat9 (E19 m XX) c).arrAt 5 cfg9.N = W20 m XX c main_v129 := by
  rw [W20_unfold, Function.update_self]

/-- Region 9's arrays after the region are what its proof data leaves: an output's array the write-backs folded,
    an input's array its entry contents. -/
theorem hF9 (c : Dev nD) (w : Fin cfg9.W) :
    (pdats m 9 c).arrAt w cfg9.N = (fun b : Ref sig .tc => W20 m XX c b) (Pipeline.arrRef spec9 w) := by
  rw [pdats_9]
  fin_cases w
  · exact hF9_0 m c
  · exact hF9_1 m c
  · exact hF9_2 m c
  · exact hF9_3 m c
  · exact hF9_4 m c
  · exact hF9_5 m c
/-- Every other buffer is as the region found it. -/
theorem hrest9 (c : Dev nD) : ∀ b : Ref sig .tc, b ∉ Finset.univ.image (Pipeline.arrRef spec9) →
    (fun b : Ref sig .tc => W20 m XX c b) b = (fun b : Ref sig .tc => W19 m XX c b) b := by
  intro b hb
  show W20 m XX c b = W19 m XX c b
  have h0 : (Proc.devRef .tc b : DevRef τ sig) ≠ Proc.devRef .tc main_v129 :=
    StableHlo.devRef_ne_of_ne fun e => hb (Finset.mem_image.mpr ⟨5, Finset.mem_univ _, (e.symm : Pipeline.arrRef spec9 5 = b)⟩)
  rw [W20_unfold, Function.update_of_ne h0]

set_option backward.isDefEq.respectTransparency.types false in
/-- Region 9 over the thread state: entered from every unscoped buffer at the chain's contents before it, left at
    the contents after it. Its arrays are split out of the unscoped buffers and put back at their exit contents; the
    generator register goes into the region's invariant and comes back; nothing is owed; the kernel has no semaphore
    of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (E19 m XX) c).loose
  hwaits := Pipeline.hwaits_of_owed_zero _ _ _ _ L lv 9 fun _ _ => rfl
  pre c := iprop(StableHlo.held (c : Thread nD τ) (Pipeline.ucRefs τ sig) (W19 m XX c) ∗ R c)
  post c := iprop(StableHlo.held (c : Thread nD τ) (Pipeline.ucRefs τ sig) (W20 m XX c) ∗ R c)
  X c := iprop(∃ r, prngReg c r)
  Y c := iprop(∃ r, prngReg c r)
  Z c := Pipeline.unscopedRest (Ix := Unit) (Name := ℕ) (U := UR sig nD τ) (Lvl := ℕ) spec9 c (E19 m XX c)
  hentry c := by
    rw [Pipeline.ownSems0_none]
    have hsplit := Pipeline.arrays_of_unscopedBufs (p := 9) (pcfgs (F := F)) adm (pdats m) launch9.win launch9.arr_whole c
      ((pdats m 9 c).share_full fun _ => rfl) (E19 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E19 m XX c) (fun b : Ref sig .tc => W20 m XX c b) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg10.lean ====
/-
  Region 10 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF10_0 (c : Dev nD) : (dat10 (E21 m XX) c).arrAt 0 cfg10.N = W22 m XX c (Pipeline.arrRef spec10 0) := by
  refine ((dat10 (E21 m XX) c).arrAt_in 0 rfl _).trans ((A_eq10 (E21 m XX) c 0).trans ?_)
  rw [W22_unfold]
  exact ((Function.update_of_ne (StableHlo.devRef_ne_of_ne (by decide : Pipeline.arrRef spec10 0 ≠ main_v146_2)) _ _).trans ((Function.update_of_ne (StableHlo.devRef_ne_of_ne (by decide : Pipeline.arrRef spec10 0 ≠ main_v146_1)) _ _).trans (Function.update_of_ne (StableHlo.devRef_ne_of_ne (by decide : Pipeline.arrRef spec10 0 ≠ main_v146_0)) _ _))).symm
theorem hF10_1 (c : Dev nD) : (dat10 (E21 m XX) c).arrAt 1 cfg10.N = W22 m XX c (Pipeline.arrRef spec10 1) := by
  refine ((dat10 (E21 m XX) c).arrAt_in 1 rfl _).trans ((A_eq10 (E21 m XX) c 1).trans ?_)
  rw [W22_unfold]
  exact ((Function.update_of_ne (StableHlo.devRef_ne_of_ne (by decide : Pipeline.arrRef spec10 1 ≠ main_v146_2)) _ _).trans ((Function.update_of_ne (StableHlo.devRef_ne_of_ne (by decide : Pipeline.arrRef spec10 1 ≠ main_v146_1)) _ _).trans (Function.update_of_ne (StableHlo.devRef_ne_of_ne (by decide : Pipeline.arrRef spec10 1 ≠ main_v146_0)) _ _))).symm
theorem hF10_2 (c : Dev nD) : (dat10 (E21 m XX) c).arrAt 2 cfg10.N = W22 m XX c (Pipeline.arrRef spec10 2) := by
  refine ((dat10 (E21 m XX) c).arrAt_in 2 rfl _).trans ((A_eq10 (E21 m XX) c 2).trans ?_)
  rw [W22_unfold]
  exact ((Function.update_of_ne (StableHlo.devRef_ne_of_ne (by decide : Pipeline.arrRef spec10 2 ≠ main_v146_2)) _ _).trans ((Function.update_of_ne (StableHlo.devRef_ne_of_ne (by decide : Pipeline.arrRef spec10 2 ≠ main_v146_1)) _ _).trans (Function.update_of_ne (StableHlo.devRef_ne_of_ne (by decide : Pipeline.arrRef spec10 2 ≠ main_v146_0)) _ _))).symm
theorem hF10_3 (c : Dev nD) : (dat10 (E21 m XX) c).arrAt 3 cfg10.N = W22 m XX c (Pipeline.arrRef spec10 3) := by
  refine ((dat10 (E21 m XX) c).arrAt_in 3 rfl _).trans ((A_eq10 (E21 m XX) c 3).trans ?_)
  rw [W22_unfold]
  exact ((Function.update_of_ne (StableHlo.devRef_ne_of_ne (by decide : Pipeline.arrRef spec10 3 ≠ main_v146_2)) _ _).trans ((Function.update_of_ne (StableHlo.devRef_ne_of_ne (by decide : Pipeline.arrRef spec10 3 ≠ main_v146_1)) _ _).trans (Function.update_of_ne (StableHlo.devRef_ne_of_ne (by decide : Pipeline.arrRef spec10 3 ≠ main_v146_0)) _ _))).symm
theorem hF10_4 (c : Dev nD) : (dat10 (E21 m XX) c).arrAt 4 cfg10.N = W22 m XX c main_v146_0 := by
  have h2 : (Proc.devRef .tc main_v146_0 : DevRef τ sig) ≠ Proc.devRef .tc main_v146_2 := StableHlo.devRef_ne_of_ne (by decide)
  have h1 : (Proc.devRef .tc main_v146_0 : DevRef τ sig) ≠ Proc.devRef .tc main_v146_1 := StableHlo.devRef_ne_of_ne (by decide)
  rw [W22_unfold, Function.update_of_ne h2, Function.update_of_ne h1, Function.update_self]
theorem hF10_5 (c : Dev nD) : (dat10 (E21 m XX) c).arrAt 5 cfg10.N = W22 m XX c main_v146_1 := by
  have h2 : (Proc.devRef .tc main_v146_1 : DevRef τ sig) ≠ Proc.devRef .tc main_v146_2 := StableHlo.devRef_ne_of_ne (by decide)
  rw [W22_unfold, Function.update_of_ne h2, Function.update_self]
theorem hF10_6 (c : Dev nD) : (dat10 (E21 m XX) c).arrAt 6 cfg10.N = W22 m XX c main_v146_2 := by
  rw [W22_unfold, Function.update_self]

/-- Region 10's arrays after the region are what its proof data leaves: an output's array the write-backs folded,
    an input's array its entry contents. -/
theorem hF10 (c : Dev nD) (w : Fin cfg10.W) :
    (pdats m 10 c).arrAt w cfg10.N = (fun b : Ref sig .tc => W22 m XX c b) (Pipeline.arrRef spec10 w) := by
  rw [pdats_10]
  fin_cases w
  · exact hF10_0 m c
  · exact hF10_1 m c
  · exact hF10_2 m c
  · exact hF10_3 m c
  · exact hF10_4 m c
  · exact hF10_5 m c
  · exact hF10_6 m c
/-- Every other buffer is as the region found it. -/
theorem hrest10 (c : Dev nD) : ∀ b : Ref sig .tc, b ∉ Finset.univ.image (Pipeline.arrRef spec10) →
    (fun b : Ref sig .tc => W22 m XX c b) b = (fun b : Ref sig .tc => W21 m XX c b) b := by
  intro b hb
  show W22 m XX c b = W21 m XX c b
  have h0 : (Proc.devRef .tc b : DevRef τ sig) ≠ Proc.devRef .tc main_v146_0 :=
    StableHlo.devRef_ne_of_ne fun e => hb (Finset.mem_image.mpr ⟨4, Finset.mem_univ _, (e.symm : Pipeline.arrRef spec10 4 = b)⟩)
  have h1 : (Proc.devRef .tc b : DevRef τ sig) ≠ Proc.devRef .tc main_v146_1 :=
    StableHlo.devRef_ne_of_ne fun e => hb (Finset.mem_image.mpr ⟨5, Finset.mem_univ _, (e.symm : Pipeline.arrRef spec10 5 = b)⟩)
  have h2 : (Proc.devRef .tc b : DevRef τ sig) ≠ Proc.devRef .tc main_v146_2 :=
    StableHlo.devRef_ne_of_ne fun e => hb (Finset.mem_image.mpr ⟨6, Finset.mem_univ _, (e.symm : Pipeline.arrRef spec10 6 = b)⟩)
  rw [W22_unfold, Function.update_of_ne h2, Function.update_of_ne h1, Function.update_of_ne h0]

set_option backward.isDefEq.respectTransparency.types false in
/-- Region 10 over the thread state: entered from every unscoped buffer at the chain's contents before it, left at
    the contents after it. Its arrays are split out of the unscoped buffers and put back at their exit contents; the
    generator register goes into the region's invariant and comes back; nothing is owed; the kernel has no semaphore
    of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (E21 m XX) c).loose
  hwaits := Pipeline.hwaits_of_owed_zero _ _ _ _ L lv 10 fun _ _ => rfl
  pre c := iprop(StableHlo.held (c : Thread nD τ) (Pipeline.ucRefs τ sig) (W21 m XX c) ∗ R c)
  post c := iprop(StableHlo.held (c : Thread nD τ) (Pipeline.ucRefs τ sig) (W22 m XX c) ∗ R c)
  X c := iprop(∃ r, prngReg c r)
  Y c := iprop(∃ r, prngReg c r)
  Z c := Pipeline.unscopedRest (Ix := Unit) (Name := ℕ) (U := UR sig nD τ) (Lvl := ℕ) spec10 c (E21 m XX c)
  hentry c := by
    rw [Pipeline.ownSems0_none]
    have hsplit := Pipeline.arrays_of_unscopedBufs (p := 10) (pcfgs (F := F)) adm (pdats m) launch10.win launch10.arr_whole c
      ((pdats m 10 c).share_full fun _ => rfl) (E21 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin10 (E21 m XX) c _
  hout c := hout10 (E21 m XX) c
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E21 m XX c) (fun b : Ref sig .tc => W22 m XX c b) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg11.lean ====
/-
  Region 11 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF11_0 (c : Dev nD) : (dat11 (E23 m XX) c).arrAt 0 cfg11.N = W24 m XX c (Pipeline.arrRef spec11 0) := by
  refine ((dat11 (E23 m XX) c).arrAt_in 0 rfl _).trans ((A_eq11 (E23 m XX) c 0).trans ?_)
  rw [W24_unfold]
  exact (Function.update_of_ne (StableHlo.devRef_ne_of_ne (by decide : Pipeline.arrRef spec11 0 ≠ main_v155)) _ _).symm
theorem hF11_1 (c : Dev nD) : (dat11 (E23 m XX) c).arrAt 1 cfg11.N = W24 m XX c (Pipeline.arrRef spec11 1) := by
  refine ((dat11 (E23 m XX) c).arrAt_in 1 rfl _).trans ((A_eq11 (E23 m XX) c 1).trans ?_)
  rw [W24_unfold]
  exact (Function.update_of_ne (StableHlo.devRef_ne_of_ne (by decide : Pipeline.arrRef spec11 1 ≠ main_v155)) _ _).symm
theorem hF11_2 (c : Dev nD) : (dat11 (E23 m XX) c).arrAt 2 cfg11.N = W24 m XX c (Pipeline.arrRef spec11 2) := by
  refine ((dat11 (E23 m XX) c).arrAt_in 2 rfl _).trans ((A_eq11 (E23 m XX) c 2).trans ?_)
  rw [W24_unfold]
  exact (Function.update_of_ne (StableHlo.devRef_ne_of_ne (by decide : Pipeline.arrRef spec11 2 ≠ main_v155)) _ _).symm
theorem hF11_3 (c : Dev nD) : (dat11 (E23 m XX) c).arrAt 3 cfg11.N = W24 m XX c (Pipeline.arrRef spec11 3) := by
  refine ((dat11 (E23 m XX) c).arrAt_in 3 rfl _).trans ((A_eq11 (E23 m XX) c 3).trans ?_)
  rw [W24_unfold]
  exact (Function.update_of_ne (StableHlo.devRef_ne_of_ne (by decide : Pipeline.arrRef spec11 3 ≠ main_v155)) _ _).symm
theorem hF11_4 (c : Dev nD) : (dat11 (E23 m XX) c).arrAt 4 cfg11.N = W24 m XX c (Pipeline.arrRef spec11 4) := by
  refine ((dat11 (E23 m XX) c).arrAt_in 4 rfl _).trans ((A_eq11 (E23 m XX) c 4).trans ?_)
  rw [W24_unfold]
  exact (Function.update_of_ne (StableHlo.devRef_ne_of_ne (by decide : Pipeline.arrRef spec11 4 ≠ main_v155)) _ _).symm
theorem hF11_5 (c : Dev nD) : (dat11 (E23 m XX) c).arrAt 5 cfg11.N = W24 m XX c main_v155 := by
  rw [W24_unfold, Function.update_self]

/-- Region 11's arrays after the region are what its proof data leaves: an output's array the write-backs folded,
    an input's array its entry contents. -/
theorem hF11 (c : Dev nD) (w : Fin cfg11.W) :
    (pdats m 11 c).arrAt w cfg11.N = (fun b : Ref sig .tc => W24 m XX c b) (Pipeline.arrRef spec11 w) := by
  rw [pdats_11]
  fin_cases w
  · exact hF11_0 m c
  · exact hF11_1 m c
  · exact hF11_2 m c
  · exact hF11_3 m c
  · exact hF11_4 m c
  · exact hF11_5 m c
/-- Every other buffer is as the region found it. -/
theorem hrest11 (c : Dev nD) : ∀ b : Ref sig .tc, b ∉ Finset.univ.image (Pipeline.arrRef spec11) →
    (fun b : Ref sig .tc => W24 m XX c b) b = (fun b : Ref sig .tc => W23 m XX c b) b := by
  intro b hb
  show W24 m XX c b = W23 m XX c b
  have h0 : (Proc.devRef .tc b : DevRef τ sig) ≠ Proc.devRef .tc main_v155 :=
    StableHlo.devRef_ne_of_ne fun e => hb (Finset.mem_image.mpr ⟨5, Finset.mem_univ _, (e.symm : Pipeline.arrRef spec11 5 = b)⟩)
  rw [W24_unfold, Function.update_of_ne h0]

set_option backward.isDefEq.respectTransparency.types false in
/-- Region 11 over the thread state: entered from every unscoped buffer at the chain's contents before it, left at
    the contents after it. Its arrays are split out of the unscoped buffers and put back at their exit contents; the
    generator register goes into the region's invariant and comes back; nothing is owed; the kernel has no semaphore
    of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (E23 m XX) c).loose
  hwaits := Pipeline.hwaits_of_owed_zero _ _ _ _ L lv 11 fun _ _ => rfl
  pre c := iprop(StableHlo.held (c : Thread nD τ) (Pipeline.ucRefs τ sig) (W23 m XX c) ∗ R c)
  post c := iprop(StableHlo.held (c : Thread nD τ) (Pipeline.ucRefs τ sig) (W24 m XX c) ∗ R c)
  X c := iprop(∃ r, prngReg c r)
  Y c := iprop(∃ r, prngReg c r)
  Z c := Pipeline.unscopedRest (Ix := Unit) (Name := ℕ) (U := UR sig nD τ) (Lvl := ℕ) spec11 c (E23 m XX c)
  hentry c := by
    rw [Pipeline.ownSems0_none]
    have hsplit := Pipeline.arrays_of_unscopedBufs (p := 11) (pcfgs (F := F)) adm (pdats m) launch11.win launch11.arr_whole c
      ((pdats m 11 c).share_full fun _ => rfl) (E23 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (E23 m XX c) (fun b : Ref sig .tc => W24 m XX c b) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg12.lean ====
/-
  Region 12 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF12_0 (c : Dev nD) : (dat12 (E25 m XX) c).arrAt 0 cfg12.N = W26 m XX c (Pipeline.arrRef spec12 0) := by
  refine ((dat12 (E25 m XX) c).arrAt_in 0 rfl _).trans ((A_eq12 (E25 m XX) c 0).trans ?_)
  rw [W26_unfold]
  exact (Function.update_of_ne (StableHlo.devRef_ne_of_ne (by decide : Pipeline.arrRef spec12 0 ≠ main_v172)) _ _).symm
theorem hF12_1 (c : Dev nD) : (dat12 (E25 m XX) c).arrAt 1 cfg12.N = W26 m XX c (Pipeline.arrRef spec12 1) := by
  refine ((dat12 (E25 m XX) c).arrAt_in 1 rfl _).trans ((A_eq12 (E25 m XX) c 1).trans ?_)
  rw [W26_unfold]
  exact (Function.update_of_ne (StableHlo.devRef_ne_of_ne (by decide : Pipeline.arrRef spec12 1 ≠ main_v172)) _ _).symm
theorem hF12_2 (c : Dev nD) : (dat12 (E25 m XX) c).arrAt 2 cfg12.N = W26 m XX c (Pipeline.arrRef spec12 2) := by
  refine ((dat12 (E25 m XX) c).arrAt_in 2 rfl _).trans ((A_eq12 (E25 m XX) c 2).trans ?_)
  rw [W26_unfold]
  exact (Function.update_of_ne (StableHlo.devRef_ne_of_ne (by decide : Pipeline.arrRef spec12 2 ≠ main_v172)) _ _).symm
theorem hF12_3 (c : Dev nD) : (dat12 (E25 m XX) c).arrAt 3 cfg12.N = W26 m XX c (Pipeline.arrRef spec12 3) := by
  refine ((dat12 (E25 m XX) c).arrAt_in 3 rfl _).trans ((A_eq12 (E25 m XX) c 3).trans ?_)
  rw [W26_unfold]
  exact (Function.update_of_ne (StableHlo.devRef_ne_of_ne (by decide : Pipeline.arrRef spec12 3 ≠ main_v172)) _ _).symm
theorem hF12_4 (c : Dev nD) : (dat12 (E25 m XX) c).arrAt 4 cfg12.N = W26 m XX c main_v172 := by
  rw [W26_unfold, Function.update_self]

/-- Region 12's arrays after the region are what its proof data leaves: an output's array the write-backs folded,
    an input's array its entry contents. -/
theorem hF12 (c : Dev nD) (w : Fin cfg12.W) :
    (pdats m 12 c).arrAt w cfg12.N = (fun b : Ref sig .tc => W26 m XX c b) (Pipeline.arrRef spec12 w) := by
  rw [pdats_12]
  fin_cases w
  · exact hF12_0 m c
  · exact hF12_1 m c
  · exact hF12_2 m c
  · exact hF12_3 m c
  · exact hF12_4 m c
/-- Every other buffer is as the region found it. -/
theorem hrest12 (c : Dev nD) : ∀ b : Ref sig .tc, b ∉ Finset.univ.image (Pipeline.arrRef spec12) →
    (fun b : Ref sig .tc => W26 m XX c b) b = (fun b : Ref sig .tc => W25 m XX c b) b := by
  intro b hb
  show W26 m XX c b = W25 m XX c b
  have h0 : (Proc.devRef .tc b : DevRef τ sig) ≠ Proc.devRef .tc main_v172 :=
    StableHlo.devRef_ne_of_ne fun e => hb (Finset.mem_image.mpr ⟨4, Finset.mem_univ _, (e.symm : Pipeline.arrRef spec12 4 = b)⟩)
  rw [W26_unfold, Function.update_of_ne h0]

set_option backward.isDefEq.respectTransparency.types false in
/-- Region 12 over the thread state: entered from every unscoped buffer at the chain's contents before it, left at
    the contents after it. Its arrays are split out of the unscoped buffers and put back at their exit contents; the
    generator register goes into the region's invariant and comes back; nothing is owed; the kernel has no semaphore
    of its own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (E25 m XX) c).loose
  hwaits := Pipeline.hwaits_of_owed_zero _ _ _ _ L lv 12 fun _ _ => rfl
  pre c := iprop(StableHlo.held (c : Thread nD τ) (Pipeline.ucRefs τ sig) (W25 m XX c) ∗ R c)
  post c := iprop(StableHlo.held (c : Thread nD τ) (Pipeline.ucRefs τ sig) (W26 m XX c) ∗ R c)
  X c := iprop(∃ r, prngReg c r)
  Y c := iprop(∃ r, prngReg c r)
  Z c := Pipeline.unscopedRest (Ix := Unit) (Name := ℕ) (U := UR sig nD τ) (Lvl := ℕ) spec12 c (E25 m XX c)
  hentry c := by
    rw [Pipeline.ownSems0_none]
    have hsplit := Pipeline.arrays_of_unscopedBufs (p := 12) (pcfgs (F := F)) adm (pdats m) launch12.win launch12.arr_whole c
      ((pdats m 12 c).share_full fun _ => rfl) (E25 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (E25 m XX c) (fun b : Ref sig .tc => W26 m XX c b) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_Reg13.lean ====
/-
  Region 13 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.K_RegsCore
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF13_0 (c : Dev nD) : (dat13 (E27 m XX) c).arrAt 0 cfg13.N = W28 m XX c (Pipeline.arrRef spec13 0) := by
  refine ((dat13 (E27 m XX) c).arrAt_in 0 rfl _).trans ((A_eq13 (E27 m XX) c 0).trans ?_)
  rw [W28_unfold]
  exact (Function.update_of_ne (StableHlo.devRef_ne_of_ne (by decide : Pipeline.arrRef spec13 0 ≠ main_v189)) _ _).symm
theorem hF13_1 (c : Dev nD) : (dat13 (E27 m XX) c).arrAt 1 cfg13.N = W28 m XX c (Pipeline.arrRef spec13 1) := by
  refine ((dat13 (E27 m XX) c).arrAt_in 1 rfl _).trans ((A_eq13 (E27 m XX) c 1).trans ?_)
  rw [W28_unfold]
  exact (Function.update_of_ne (StableHlo.devRef_ne_of_ne (by decide : Pipeline.arrRef spec13 1 ≠ main_v189)) _ _).symm
theorem hF13_2 (c : Dev nD) : (dat13 (E27 m XX) c).arrAt 2 cfg13.N = W28 m XX c (Pipeline.arrRef spec13 2) := by
  refine ((dat13 (E27 m XX) c).arrAt_in 2 rfl _).trans ((A_eq13 (E27 m XX) c 2).trans ?_)
  rw [W28_unfold]
  exact (Function.update_of_ne (StableHlo.devRef_ne_of_ne (by decide : Pipeline.arrRef spec13 2 ≠ main_v189)) _ _).symm
theorem hF13_3 (c : Dev nD) : (dat13 (E27 m XX) c).arrAt 3 cfg13.N = W28 m XX c (Pipeline.arrRef spec13 3) := by
  refine ((dat13 (E27 m XX) c).arrAt_in 3 rfl _).trans ((A_eq13 (E27 m XX) c 3).trans ?_)
  rw [W28_unfold]
  exact (Function.update_of_ne (StableHlo.devRef_ne_of_ne (by decide : Pipeline.arrRef spec13 3 ≠ main_v189)) _ _).symm
theorem hF13_4 (c : Dev nD) : (dat13 (E27 m XX) c).arrAt 4 cfg13.N = W28 m XX c main_v189 := by
  rw [W28_unfold, Function.update_self]

/-- Region 13's arrays after the region are what its proof data leaves: an output's array the write-backs folded,
    an input's array its entry contents. -/
theorem hF13 (c : Dev nD) (w : Fin cfg13.W) :
    (pdats m 13 c).arrAt w cfg13.N = (fun b : Ref sig .tc => W28 m XX c b) (Pipeline.arrRef spec13 w) := by
  rw [pdats_13]
  fin_cases w
  · exact hF13_0 m c
  · exact hF13_1 m c
  · exact hF13_2 m c
  · exact hF13_3 m c
  · exact hF13_4 m c
/-- Every other buffer is as the region found it. -/
theorem hrest13 (c : Dev nD) : ∀ b : Ref sig .tc, b ∉ Finset.univ.image (Pipeline.arrRef spec13) →
    (fun b : Ref sig .tc => W28 m XX c b) b = (fun b : Ref sig .tc => W27 m XX c b) b := by
  intro b hb
  show W28 m XX c b = W27 m XX c b
  have h0 : (Proc.devRef .tc b : DevRef τ sig) ≠ Proc.devRef .tc main_v189 :=
    StableHlo.devRef_ne_of_ne fun e => hb (Finset.mem_image.mpr ⟨4, Finset.mem_univ _, (e.symm : Pipeline.arrRef spec13 4 = b)⟩)
  rw [W28_unfold, Function.update_of_ne h0]

set_option backward.isDefEq.respectTransparency.types false in
/-- Region 13 over the thread state: entered from every unscoped buffer at the chain's contents before it, left at
    the contents after it. Its arrays are split out of the unscoped buffers and put back at their exit contents; the
    generator register goes into the region's invariant and comes back; nothing is owed; the kernel has no semaphore
    of its own. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (E27 m XX) c).loose
  hwaits := Pipeline.hwaits_of_owed_zero _ _ _ _ L lv 13 fun _ _ => rfl
  pre c := iprop(StableHlo.held (c : Thread nD τ) (Pipeline.ucRefs τ sig) (W27 m XX c) ∗ R c)
  post c := iprop(StableHlo.held (c : Thread nD τ) (Pipeline.ucRefs τ sig) (W28 m XX c) ∗ R c)
  X c := iprop(∃ r, prngReg c r)
  Y c := iprop(∃ r, prngReg c r)
  Z c := Pipeline.unscopedRest (Ix := Unit) (Name := ℕ) (U := UR sig nD τ) (Lvl := ℕ) spec13 c (E27 m XX c)
  hentry c := by
    rw [Pipeline.ownSems0_none]
    have hsplit := Pipeline.arrays_of_unscopedBufs (p := 13) (pcfgs (F := F)) adm (pdats m) launch13.win launch13.arr_whole c
      ((pdats m 13 c).share_full fun _ => rfl) (E27 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (E27 m XX c) (fun b : Ref sig .tc => W28 m XX c b) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K_RunAll.lean ====
/-
  The run of the whole program: the conditional run instantiated with the pipeline library's own algebra, no levels,
  nothing owed at launch, the fourteen regions' records, and the chain of valuations as the regions' unknowns. Every
  weakly fair execution of @main terminates, nothing faulting, and each unscoped buffer of a core ends at the last
  valuation of the chain.
-/
import proofs.«144613_j17471926960174_1_alg».proof.Proof.K_RunCond
import proofs.«144613_j17471926960174_1_alg».proof.Proof.K_Reg0
import proofs.«144613_j17471926960174_1_alg».proof.Proof.K_Reg1
import proofs.«144613_j17471926960174_1_alg».proof.Proof.K_Reg2
import proofs.«144613_j17471926960174_1_alg».proof.Proof.K_Reg3
import proofs.«144613_j17471926960174_1_alg».proof.Proof.K_Reg4
import proofs.«144613_j17471926960174_1_alg».proof.Proof.K_Reg5
import proofs.«144613_j17471926960174_1_alg».proof.Proof.K_Reg6
import proofs.«144613_j17471926960174_1_alg».proof.Proof.K_Reg7
import proofs.«144613_j17471926960174_1_alg».proof.Proof.K_Reg8
import proofs.«144613_j17471926960174_1_alg».proof.Proof.K_Reg9
import proofs.«144613_j17471926960174_1_alg».proof.Proof.K_Reg10
import proofs.«144613_j17471926960174_1_alg».proof.Proof.K_Reg11
import proofs.«144613_j17471926960174_1_alg».proof.Proof.K_Reg12
import proofs.«144613_j17471926960174_1_alg».proof.Proof.K_Reg13
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- From any memory with zero counters the program runs to its end and every unscoped buffer holds what the chain's last
    valuation gives it. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W29 m XX c b) := by
  have h := run_cond (F := F) m (Ix := Unit) (U := UR sig nD τ) (Lvl := ℕ) (EP := emb₁) (ι := ()) (𝒱₀ := 𝒱₀) (L := L) (lv := lv)
    (hL := fun _ _ => rfl) (ρ := ρ) (outs := outs m XX) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄) ⊢ R c := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ (fun c : Dev nD => R c) : sProp 𝕄) :=
        bigSep_mono fun c _ => hc c
      iintro ⟨H, -⟩
      imodintro
      iapply hm
      iexact H)
    (hE14 := fun c => by
      iintro ⟨-, HO⟩
      iexact HO)
    (R0 := reg0 m) (hpre0 := fun c => by rw [W_eq1 m c]; exact .rfl) (hpost0 := fun c => by rw [W_eq2 m XX c]; exact .rfl)
    (R1 := reg1 m) (hpre1 := fun c => by rw [W_eq3 m XX c]; exact .rfl) (hpost1 := fun c => by rw [W_eq4 m XX c]; exact .rfl)
    (R2 := reg2 m) (hpre2 := fun c => by rw [W_eq5 m XX c]; exact .rfl) (hpost2 := fun c => by rw [W_eq6 m XX c]; exact .rfl)
    (R3 := reg3 m) (hpre3 := fun c => by rw [W_eq7 m XX c]; exact .rfl) (hpost3 := fun c => by rw [W_eq8 m XX c]; exact .rfl)
    (R4 := reg4 m) (hpre4 := fun c => by rw [W_eq9 m XX c]; exact .rfl) (hpost4 := fun c => by rw [W_eq10 m XX c]; exact .rfl)
    (R5 := reg5 m) (hpre5 := fun c => by rw [W_eq11 m XX c]; exact .rfl) (hpost5 := fun c => by rw [W_eq12 m XX c]; exact .rfl)
    (R6 := reg6 m) (hpre6 := fun c => by rw [W_eq13 m XX c]; exact .rfl) (hpost6 := fun c => by rw [W_eq14 m XX c]; exact .rfl)
    (R7 := reg7 m) (hpre7 := fun c => by rw [W_eq15 m XX c]; exact .rfl) (hpost7 := fun c => by rw [W_eq16 m XX c]; exact .rfl)
    (R8 := reg8 m) (hpre8 := fun c => by rw [W_eq17 m XX c]; exact .rfl) (hpost8 := fun c => by rw [W_eq18 m XX c]; exact .rfl)
    (R9 := reg9 m) (hpre9 := fun c => by rw [W_eq19 m XX c]; exact .rfl) (hpost9 := fun c => by rw [W_eq20 m XX c]; exact .rfl)
    (R10 := reg10 m) (hpre10 := fun c => by rw [W_eq21 m XX c]; exact .rfl) (hpost10 := fun c => by rw [W_eq22 m XX c]; exact .rfl)
    (R11 := reg11 m) (hpre11 := fun c => by rw [W_eq23 m XX c]; exact .rfl) (hpost11 := fun c => by rw [W_eq24 m XX c]; exact .rfl)
    (R12 := reg12 m) (hpre12 := fun c => by rw [W_eq25 m XX c]; exact .rfl) (hpost12 := fun c => by rw [W_eq26 m XX c]; exact .rfl)
    (R13 := reg13 m) (hpre13 := fun c => by rw [W_eq27 m XX c]; exact .rfl) (hpost13 := fun c => by rw [W_eq28 m XX c]; exact .rfl)
  refine (θ_run defs _ _).mono (fun r hr c b hb => ?_) h
  rw [← W_eq29 m XX c]
  exact hr c b hb

end Cert.Kernel.Hand

end
-- ==== Proof.K_KRun.lean ====
/-
  What the run of the whole program gives at the references the claims speak of: every argument array ends as
  launched (no host stretch writes an argument and no region may change one), and each returned array ends at the
  chain's last valuation.
-/
import proofs.«144613_j17471926960174_1_alg».proof.Proof.K_RunAll
import Idealize.ShloMosaic.Lib.Pipeline.Kit
import Idealize.ShloMosaic.Lib.Pipeline.Frame
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W29_main_arg0 (c : Dev nD) : W29 m XX c main_arg0 = m ((c : Thread nD τ).loc main_arg0) := by
  rw [← W_eq29 m XX c]; exact V29_main_arg0 m _ c
theorem W29_main_arg1 (c : Dev nD) : W29 m XX c main_arg1 = m ((c : Thread nD τ).loc main_arg1) := by
  rw [← W_eq29 m XX c]; exact V29_main_arg1 m _ c
theorem W29_main_arg2 (c : Dev nD) : W29 m XX c main_arg2 = m ((c : Thread nD τ).loc main_arg2) := by
  rw [← W_eq29 m XX c]; exact V29_main_arg2 m _ c
theorem W29_main_arg3 (c : Dev nD) : W29 m XX c main_arg3 = m ((c : Thread nD τ).loc main_arg3) := by
  rw [← W_eq29 m XX c]; exact V29_main_arg3 m _ c
theorem W29_main_arg4 (c : Dev nD) : W29 m XX c main_arg4 = m ((c : Thread nD τ).loc main_arg4) := by
  rw [← W_eq29 m XX c]; exact V29_main_arg4 m _ c
theorem W29_main_arg5 (c : Dev nD) : W29 m XX c main_arg5 = m ((c : Thread nD τ).loc main_arg5) := by
  rw [← W_eq29 m XX c]; exact V29_main_arg5 m _ c
theorem W29_main_arg6 (c : Dev nD) : W29 m XX c main_arg6 = m ((c : Thread nD τ).loc main_arg6) := by
  rw [← W_eq29 m XX c]; exact V29_main_arg6 m _ c
theorem W29_main_arg7 (c : Dev nD) : W29 m XX c main_arg7 = m ((c : Thread nD τ).loc main_arg7) := by
  rw [← W_eq29 m XX c]; exact V29_main_arg7 m _ c
theorem W29_main_arg8 (c : Dev nD) : W29 m XX c main_arg8 = m ((c : Thread nD τ).loc main_arg8) := by
  rw [← W_eq29 m XX c]; exact V29_main_arg8 m _ c
theorem W29_main_arg9 (c : Dev nD) : W29 m XX c main_arg9 = m ((c : Thread nD τ).loc main_arg9) := by
  rw [← W_eq29 m XX c]; exact V29_main_arg9 m _ c
theorem W29_main_arg10 (c : Dev nD) : W29 m XX c main_arg10 = m ((c : Thread nD τ).loc main_arg10) := by
  rw [← W_eq29 m XX c]; exact V29_main_arg10 m _ c
theorem W29_main_arg11 (c : Dev nD) : W29 m XX c main_arg11 = m ((c : Thread nD τ).loc main_arg11) := by
  rw [← W_eq29 m XX c]; exact V29_main_arg11 m _ c
theorem W29_main_arg12 (c : Dev nD) : W29 m XX c main_arg12 = m ((c : Thread nD τ).loc main_arg12) := by
  rw [← W_eq29 m XX c]; exact V29_main_arg12 m _ c
theorem W29_main_arg13 (c : Dev nD) : W29 m XX c main_arg13 = m ((c : Thread nD τ).loc main_arg13) := by
  rw [← W_eq29 m XX c]; exact V29_main_arg13 m _ c
theorem W29_main_arg14 (c : Dev nD) : W29 m XX c main_arg14 = m ((c : Thread nD τ).loc main_arg14) := by
  rw [← W_eq29 m XX c]; exact V29_main_arg14 m _ c
theorem W29_main_arg15 (c : Dev nD) : W29 m XX c main_arg15 = m ((c : Thread nD τ).loc main_arg15) := by
  rw [← W_eq29 m XX c]; exact V29_main_arg15 m _ c
theorem W29_main_arg16 (c : Dev nD) : W29 m XX c main_arg16 = m ((c : Thread nD τ).loc main_arg16) := by
  rw [← W_eq29 m XX c]; exact V29_main_arg16 m _ c
theorem W29_main_arg17 (c : Dev nD) : W29 m XX c main_arg17 = m ((c : Thread nD τ).loc main_arg17) := by
  rw [← W_eq29 m XX c]; exact V29_main_arg17 m _ c
theorem W29_main_arg18 (c : Dev nD) : W29 m XX c main_arg18 = m ((c : Thread nD τ).loc main_arg18) := by
  rw [← W_eq29 m XX c]; exact V29_main_arg18 m _ c
theorem W29_main_arg19 (c : Dev nD) : W29 m XX c main_arg19 = m ((c : Thread nD τ).loc main_arg19) := by
  rw [← W_eq29 m XX c]; exact V29_main_arg19 m _ c
theorem W29_main_arg20 (c : Dev nD) : W29 m XX c main_arg20 = m ((c : Thread nD τ).loc main_arg20) := by
  rw [← W_eq29 m XX c]; exact V29_main_arg20 m _ c
theorem W29_main_arg21 (c : Dev nD) : W29 m XX c main_arg21 = m ((c : Thread nD τ).loc main_arg21) := by
  rw [← W_eq29 m XX c]; exact V29_main_arg21 m _ c
theorem W29_main_arg22 (c : Dev nD) : W29 m XX c main_arg22 = m ((c : Thread nD τ).loc main_arg22) := by
  rw [← W_eq29 m XX c]; exact V29_main_arg22 m _ c
theorem W29_main_arg23 (c : Dev nD) : W29 m XX c main_arg23 = m ((c : Thread nD τ).loc main_arg23) := by
  rw [← W_eq29 m XX c]; exact V29_main_arg23 m _ c
theorem W29_main_arg24 (c : Dev nD) : W29 m XX c main_arg24 = m ((c : Thread nD τ).loc main_arg24) := by
  rw [← W_eq29 m XX c]; exact V29_main_arg24 m _ c
theorem W29_main_arg25 (c : Dev nD) : W29 m XX c main_arg25 = m ((c : Thread nD τ).loc main_arg25) := by
  rw [← W_eq29 m XX c]; exact V29_main_arg25 m _ c

/-- The frame: from any memory with zero counters the program runs to its end, nothing faulting, and every argument
    array ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨
    (h c _ (mem_uc main_arg0 (by decide))).trans (W29_main_arg0 m c),
    (h c _ (mem_uc main_arg1 (by decide))).trans (W29_main_arg1 m c),
    (h c _ (mem_uc main_arg2 (by decide))).trans (W29_main_arg2 m c),
    (h c _ (mem_uc main_arg3 (by decide))).trans (W29_main_arg3 m c),
    (h c _ (mem_uc main_arg4 (by decide))).trans (W29_main_arg4 m c),
    (h c _ (mem_uc main_arg5 (by decide))).trans (W29_main_arg5 m c),
    (h c _ (mem_uc main_arg6 (by decide))).trans (W29_main_arg6 m c),
    (h c _ (mem_uc main_arg7 (by decide))).trans (W29_main_arg7 m c),
    (h c _ (mem_uc main_arg8 (by decide))).trans (W29_main_arg8 m c),
    (h c _ (mem_uc main_arg9 (by decide))).trans (W29_main_arg9 m c),
    (h c _ (mem_uc main_arg10 (by decide))).trans (W29_main_arg10 m c),
    (h c _ (mem_uc main_arg11 (by decide))).trans (W29_main_arg11 m c),
    (h c _ (mem_uc main_arg12 (by decide))).trans (W29_main_arg12 m c),
    (h c _ (mem_uc main_arg13 (by decide))).trans (W29_main_arg13 m c),
    (h c _ (mem_uc main_arg14 (by decide))).trans (W29_main_arg14 m c),
    (h c _ (mem_uc main_arg15 (by decide))).trans (W29_main_arg15 m c),
    (h c _ (mem_uc main_arg16 (by decide))).trans (W29_main_arg16 m c),
    (h c _ (mem_uc main_arg17 (by decide))).trans (W29_main_arg17 m c),
    (h c _ (mem_uc main_arg18 (by decide))).trans (W29_main_arg18 m c),
    (h c _ (mem_uc main_arg19 (by decide))).trans (W29_main_arg19 m c),
    (h c _ (mem_uc main_arg20 (by decide))).trans (W29_main_arg20 m c),
    (h c _ (mem_uc main_arg21 (by decide))).trans (W29_main_arg21 m c),
    (h c _ (mem_uc main_arg22 (by decide))).trans (W29_main_arg22 m c),
    (h c _ (mem_uc main_arg23 (by decide))).trans (W29_main_arg23 m c),
    (h c _ (mem_uc main_arg24 (by decide))).trans (W29_main_arg24 m c),
    (h c _ (mem_uc main_arg25 (by decide))).trans (W29_main_arg25 m c)⟩) (run_all m ρ)

/-- The results: the same run, with the four returned arrays at the chain's last valuation beside the arguments. -/
theorem run_vals (ρ : Dev nD → PrngReg) :
    θ_run defs (onTc (τ := τ) (main (F := F))) ⟨m, fun _ => 0, ρ⟩ (fun r => ∀ c : Dev nD,
      r.2.mem ((c.tc : Thread nD τ).loc main_v155) = W29 m XX c main_v155
      ∧ r.2.mem ((c.tc : Thread nD τ).loc main_v190) = W29 m XX c main_v190
      ∧ r.2.mem ((c.tc : Thread nD τ).loc main_v172) = W29 m XX c main_v172
      ∧ r.2.mem ((c.tc : Thread nD τ).loc main_v189) = W29 m XX c main_v189
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨
    h c _ (mem_uc main_v155 (by decide)), h c _ (mem_uc main_v190 (by decide)), h c _ (mem_uc main_v172 (by decide)), h c _ (mem_uc main_v189 (by decide)),
    (h c _ (mem_uc main_arg0 (by decide))).trans (W29_main_arg0 m c),
    (h c _ (mem_uc main_arg1 (by decide))).trans (W29_main_arg1 m c),
    (h c _ (mem_uc main_arg2 (by decide))).trans (W29_main_arg2 m c),
    (h c _ (mem_uc main_arg3 (by decide))).trans (W29_main_arg3 m c),
    (h c _ (mem_uc main_arg4 (by decide))).trans (W29_main_arg4 m c),
    (h c _ (mem_uc main_arg5 (by decide))).trans (W29_main_arg5 m c),
    (h c _ (mem_uc main_arg6 (by decide))).trans (W29_main_arg6 m c),
    (h c _ (mem_uc main_arg7 (by decide))).trans (W29_main_arg7 m c),
    (h c _ (mem_uc main_arg8 (by decide))).trans (W29_main_arg8 m c),
    (h c _ (mem_uc main_arg9 (by decide))).trans (W29_main_arg9 m c),
    (h c _ (mem_uc main_arg10 (by decide))).trans (W29_main_arg10 m c),
    (h c _ (mem_uc main_arg11 (by decide))).trans (W29_main_arg11 m c),
    (h c _ (mem_uc main_arg12 (by decide))).trans (W29_main_arg12 m c),
    (h c _ (mem_uc main_arg13 (by decide))).trans (W29_main_arg13 m c),
    (h c _ (mem_uc main_arg14 (by decide))).trans (W29_main_arg14 m c),
    (h c _ (mem_uc main_arg15 (by decide))).trans (W29_main_arg15 m c),
    (h c _ (mem_uc main_arg16 (by decide))).trans (W29_main_arg16 m c),
    (h c _ (mem_uc main_arg17 (by decide))).trans (W29_main_arg17 m c),
    (h c _ (mem_uc main_arg18 (by decide))).trans (W29_main_arg18 m c),
    (h c _ (mem_uc main_arg19 (by decide))).trans (W29_main_arg19 m c),
    (h c _ (mem_uc main_arg20 (by decide))).trans (W29_main_arg20 m c),
    (h c _ (mem_uc main_arg21 (by decide))).trans (W29_main_arg21 m c),
    (h c _ (mem_uc main_arg22 (by decide))).trans (W29_main_arg22 m c),
    (h c _ (mem_uc main_arg23 (by decide))).trans (W29_main_arg23 m c),
    (h c _ (mem_uc main_arg24 (by decide))).trans (W29_main_arg24 m c),
    (h c _ (mem_uc main_arg25 (by decide))).trans (W29_main_arg25 m c)⟩) (run_all m ρ)

end Cert.Kernel.Hand

end
-- ==== Proof.RunCond.lean ====
/-
  The run of the whole program from one record per kernel region, with EVERY unscoped buffer read back: every weakly
  fair execution of @main terminates, nothing faulting, and in the final memory each unscoped buffer of a core holds
  what the last valuation of the chain gives it — the launch contents carried through the host stretches and
  updated, at each region, at the arrays that region may change. The frame (the arguments end as launched) and the
  results (the four returned arrays at the last valuation) are both read off this one statement.
-/
import proofs.«144613_j17471926960174_1_alg».proof.Proof.Gen.KernelIdeal.Regions

set_option maxRecDepth 2116

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- For any user algebra, level assignment, launch dues and ghost resources, any rest states the launch makes on every
    core at once and that end owing nothing, any contents the regions leave and any proof data: given, per region, a
    segment record entered from the thread state before it and left at the one after it, the program runs to its end
    and every unscoped buffer ends at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 14) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 15 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE14 : ∀ c : Dev nD, E 14 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c)) :
    θ_run defs (onTc (τ := τ) (main (F := F))) ⟨m, fun _ => 0, ρ⟩ (fun r => ∀ c : Dev nD,
      ∀ b ∈ Pipeline.ucRefs τ sig, r.2.mem (((c : Thread nD τ)).1, b) = V29 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13)
    (fun c Q => by
      rewrite [main_chain c, Seg.run_eq_chain,
        show (segs m outs 𝒱₀ L lv E ι pdats R0 R1 R2 R3 R4 R5 R6 R7 R8 R9 R10 R11 R12 R13 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, sep_mono .rfl (hE14 c)⟩)
    (hinit := ?_) (QY := fun c s => ∀ b ∈ Pipeline.ucRefs τ sig, s.mem (((c : Thread nD τ)).1, b) = V29 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V29 m outs c) s') $$ [Hh HSI]
    · isplitl [Hh] <;> iassumption
    icases Hr with ⟨%h, HSI⟩
    imodintro
    isplitr
    · ipureintro
      exact h
    · iexact HSI

end Cert.KernelIdeal.Hand

end
-- ==== Proof.Chain.lean ====
/-
  The contents of every unscoped buffer between two items of @main, as one chain of valuations: the launch
  contents, then each host stretch applied, then, at each kernel region, the arrays that region may change set to
  what the region leaves in them. What a region leaves is a parameter here (one function per array, of the region's
  entry contents); the chain is the fixed point the conditional run is stated over: with the regions' unknowns read
  off the chain itself, the generated valuations ARE the chain.
-/
import proofs.«144613_j17471926960174_1_alg».proof.Proof.Gen.KernelIdeal.Regions

set_option maxRecDepth 2116

noncomputable section

namespace Cert.KernelIdeal.Hand

open Cert.KernelIdeal Cert.KernelIdeal.Gen
open Idealize.ShloMosaic Idealize.ShloMosaic.TcCoe
open Idealize.SL.Sem

/-- Setting one key of a function to the value another function has there, when that other function is the first
    one set at that key, gives the other function. -/
theorem upd1_fix {α : Type*} [DecidableEq α] {β : α → Type*} (f : ∀ a, β a) (r0 : α) (a0 : β r0) :
    Function.update f r0 ((Function.update f r0 a0) r0) = Function.update f r0 a0 := by
  simp only [Function.update_self]

/-- The same for three distinct keys. -/
theorem upd3_fix {α : Type*} [DecidableEq α] {β : α → Type*} (f : ∀ a, β a) (r0 r1 r2 : α) (a0 : β r0) (a1 : β r1) (a2 : β r2)
    (h01 : r0 ≠ r1) (h02 : r0 ≠ r2) (h12 : r1 ≠ r2) :
    Function.update (Function.update (Function.update f r0
        ((Function.update (Function.update (Function.update f r0 a0) r1 a1) r2 a2) r0)) r1
        ((Function.update (Function.update (Function.update f r0 a0) r1 a1) r2 a2) r1)) r2
        ((Function.update (Function.update (Function.update f r0 a0) r1 a1) r2 a2) r2)
      = Function.update (Function.update (Function.update f r0 a0) r1 a1) r2 a2 := by
  simp only [Function.update_self, Function.update_of_ne h02, Function.update_of_ne h01, Function.update_of_ne h12]

variable {F : FTy → Type} [FloatOps F]

/-- A core-indexed family of buffer contents read at the TensorCore's references: what a region's proof data is
    stated over. -/
abbrev EV (F : FTy → Type) [FloatOps F] : Type := (c : Dev nD) → (b : Ref sig .tc) → Buf (Elt F) ((c : Thread nD τ).loc b)

/-- What each region leaves in each array it may change, as a function of the region's entry contents. -/
structure Exits (F : FTy → Type) [FloatOps F] where
  x_main_v16_0 : EV F → (c : Dev nD) → Buf (Elt F) ((c : Thread nD τ).loc main_v16_0)
  x_main_v16_1 : EV F → (c : Dev nD) → Buf (Elt F) ((c : Thread nD τ).loc main_v16_1)
  x_main_v16_2 : EV F → (c : Dev nD) → Buf (Elt F) ((c : Thread nD τ).loc main_v16_2)
  x_main_v25 : EV F → (c : Dev nD) → Buf (Elt F) ((c : Thread nD τ).loc main_v25)
  x_main_v42_0 : EV F → (c : Dev nD) → Buf (Elt F) ((c : Thread nD τ).loc main_v42_0)
  x_main_v42_1 : EV F → (c : Dev nD) → Buf (Elt F) ((c : Thread nD τ).loc main_v42_1)
  x_main_v42_2 : EV F → (c : Dev nD) → Buf (Elt F) ((c : Thread nD τ).loc main_v42_2)
  x_main_v51 : EV F → (c : Dev nD) → Buf (Elt F) ((c : Thread nD τ).loc main_v51)
  x_main_v68_0 : EV F → (c : Dev nD) → Buf (Elt F) ((c : Thread nD τ).loc main_v68_0)
  x_main_v68_1 : EV F → (c : Dev nD) → Buf (Elt F) ((c : Thread nD τ).loc main_v68_1)
  x_main_v68_2 : EV F → (c : Dev nD) → Buf (Elt F) ((c : Thread nD τ).loc main_v68_2)
  x_main_v77 : EV F → (c : Dev nD) → Buf (Elt F) ((c : Thread nD τ).loc main_v77)
  x_main_v94_0 : EV F → (c : Dev nD) → Buf (Elt F) ((c : Thread nD τ).loc main_v94_0)
  x_main_v94_1 : EV F → (c : Dev nD) → Buf (Elt F) ((c : Thread nD τ).loc main_v94_1)
  x_main_v94_2 : EV F → (c : Dev nD) → Buf (Elt F) ((c : Thread nD τ).loc main_v94_2)
  x_main_v103 : EV F → (c : Dev nD) → Buf (Elt F) ((c : Thread nD τ).loc main_v103)
  x_main_v120_0 : EV F → (c : Dev nD) → Buf (Elt F) ((c : Thread nD τ).loc main_v120_0)
  x_main_v120_1 : EV F → (c : Dev nD) → Buf (Elt F) ((c : Thread nD τ).loc main_v120_1)
  x_main_v120_2 : EV F → (c : Dev nD) → Buf (Elt F) ((c : Thread nD τ).loc main_v120_2)
  x_main_v129 : EV F → (c : Dev nD) → Buf (Elt F) ((c : Thread nD τ).loc main_v129)
  x_main_v146_0 : EV F → (c : Dev nD) → Buf (Elt F) ((c : Thread nD τ).loc main_v146_0)
  x_main_v146_1 : EV F → (c : Dev nD) → Buf (Elt F) ((c : Thread nD τ).loc main_v146_1)
  x_main_v146_2 : EV F → (c : Dev nD) → Buf (Elt F) ((c : Thread nD τ).loc main_v146_2)
  x_main_v155 : EV F → (c : Dev nD) → Buf (Elt F) ((c : Thread nD τ).loc main_v155)
  x_main_v172 : EV F → (c : Dev nD) → Buf (Elt F) ((c : Thread nD τ).loc main_v172)
  x_main_v189 : EV F → (c : Dev nD) → Buf (Elt F) ((c : Thread nD τ).loc main_v189)

variable (m : (ℓ : Loc nD τ sig) → Buf (Elt F) ℓ) (X : Exits F)

/-- The launch contents. -/
def W0 (c : Dev nD) : Valuation τ sig (Elt F) := V0 m c
/-- Before region 0: the host stretch `hostOps0` applied. -/
def W1 (c : Dev nD) : Valuation τ sig (Elt F) := StableHlo.after hostOps0 (W0 m c)
/-- The same read at the TensorCore's references: region 0's entry contents. -/
abbrev E1 : EV F := fun c b => W1 m c b
/-- After region 0. -/
def W2 (c : Dev nD) : Valuation τ sig (Elt F) := Function.update (Function.update (Function.update (W1 m c) main_v16_0 (X.x_main_v16_0 (E1 m) c)) main_v16_1 (X.x_main_v16_1 (E1 m) c)) main_v16_2 (X.x_main_v16_2 (E1 m) c)
/-- Before region 1: the host stretch `hostOps1` applied. -/
def W3 (c : Dev nD) : Valuation τ sig (Elt F) := StableHlo.after hostOps1 (W2 m X c)
/-- The same read at the TensorCore's references: region 1's entry contents. -/
abbrev E3 : EV F := fun c b => W3 m X c b
/-- After region 1. -/
def W4 (c : Dev nD) : Valuation τ sig (Elt F) := Function.update (W3 m X c) main_v25 (X.x_main_v25 (E3 m X) c)
/-- Before region 2: the host stretch `hostOps2` applied. -/
def W5 (c : Dev nD) : Valuation τ sig (Elt F) := StableHlo.after hostOps2 (W4 m X c)
/-- The same read at the TensorCore's references: region 2's entry contents. -/
abbrev E5 : EV F := fun c b => W5 m X c b
/-- After region 2. -/
def W6 (c : Dev nD) : Valuation τ sig (Elt F) := Function.update (Function.update (Function.update (W5 m X c) main_v42_0 (X.x_main_v42_0 (E5 m X) c)) main_v42_1 (X.x_main_v42_1 (E5 m X) c)) main_v42_2 (X.x_main_v42_2 (E5 m X) c)
/-- Before region 3: the host stretch `hostOps3` applied. -/
def W7 (c : Dev nD) : Valuation τ sig (Elt F) := StableHlo.after hostOps3 (W6 m X c)
/-- The same read at the TensorCore's references: region 3's entry contents. -/
abbrev E7 : EV F := fun c b => W7 m X c b
/-- After region 3. -/
def W8 (c : Dev nD) : Valuation τ sig (Elt F) := Function.update (W7 m X c) main_v51 (X.x_main_v51 (E7 m X) c)
/-- Before region 4: the host stretch `hostOps4` applied. -/
def W9 (c : Dev nD) : Valuation τ sig (Elt F) := StableHlo.after hostOps4 (W8 m X c)
/-- The same read at the TensorCore's references: region 4's entry contents. -/
abbrev E9 : EV F := fun c b => W9 m X c b
/-- After region 4. -/
def W10 (c : Dev nD) : Valuation τ sig (Elt F) := Function.update (Function.update (Function.update (W9 m X c) main_v68_0 (X.x_main_v68_0 (E9 m X) c)) main_v68_1 (X.x_main_v68_1 (E9 m X) c)) main_v68_2 (X.x_main_v68_2 (E9 m X) c)
/-- Before region 5: the host stretch `hostOps5` applied. -/
def W11 (c : Dev nD) : Valuation τ sig (Elt F) := StableHlo.after hostOps5 (W10 m X c)
/-- The same read at the TensorCore's references: region 5's entry contents. -/
abbrev E11 : EV F := fun c b => W11 m X c b
/-- After region 5. -/
def W12 (c : Dev nD) : Valuation τ sig (Elt F) := Function.update (W11 m X c) main_v77 (X.x_main_v77 (E11 m X) c)
/-- Before region 6: the host stretch `hostOps6` applied. -/
def W13 (c : Dev nD) : Valuation τ sig (Elt F) := StableHlo.after hostOps6 (W12 m X c)
/-- The same read at the TensorCore's references: region 6's entry contents. -/
abbrev E13 : EV F := fun c b => W13 m X c b
/-- After region 6. -/
def W14 (c : Dev nD) : Valuation τ sig (Elt F) := Function.update (Function.update (Function.update (W13 m X c) main_v94_0 (X.x_main_v94_0 (E13 m X) c)) main_v94_1 (X.x_main_v94_1 (E13 m X) c)) main_v94_2 (X.x_main_v94_2 (E13 m X) c)
/-- Before region 7: the host stretch `hostOps7` applied. -/
def W15 (c : Dev nD) : Valuation τ sig (Elt F) := StableHlo.after hostOps7 (W14 m X c)
/-- The same read at the TensorCore's references: region 7's entry contents. -/
abbrev E15 : EV F := fun c b => W15 m X c b
/-- After region 7. -/
def W16 (c : Dev nD) : Valuation τ sig (Elt F) := Function.update (W15 m X c) main_v103 (X.x_main_v103 (E15 m X) c)
/-- Before region 8: the host stretch `hostOps8` applied. -/
def W17 (c : Dev nD) : Valuation τ sig (Elt F) := StableHlo.after hostOps8 (W16 m X c)
/-- The same read at the TensorCore's references: region 8's entry contents. -/
abbrev E17 : EV F := fun c b => W17 m X c b
/-- After region 8. -/
def W18 (c : Dev nD) : Valuation τ sig (Elt F) := Function.update (Function.update (Function.update (W17 m X c) main_v120_0 (X.x_main_v120_0 (E17 m X) c)) main_v120_1 (X.x_main_v120_1 (E17 m X) c)) main_v120_2 (X.x_main_v120_2 (E17 m X) c)
/-- Before region 9: the host stretch `hostOps9` applied. -/
def W19 (c : Dev nD) : Valuation τ sig (Elt F) := StableHlo.after hostOps9 (W18 m X c)
/-- The same read at the TensorCore's references: region 9's entry contents. -/
abbrev E19 : EV F := fun c b => W19 m X c b
/-- After region 9. -/
def W20 (c : Dev nD) : Valuation τ sig (Elt F) := Function.update (W19 m X c) main_v129 (X.x_main_v129 (E19 m X) c)
/-- Before region 10: the host stretch `hostOps10` applied. -/
def W21 (c : Dev nD) : Valuation τ sig (Elt F) := StableHlo.after hostOps10 (W20 m X c)
/-- The same read at the TensorCore's references: region 10's entry contents. -/
abbrev E21 : EV F := fun c b => W21 m X c b
/-- After region 10. -/
def W22 (c : Dev nD) : Valuation τ sig (Elt F) := Function.update (Function.update (Function.update (W21 m X c) main_v146_0 (X.x_main_v146_0 (E21 m X) c)) main_v146_1 (X.x_main_v146_1 (E21 m X) c)) main_v146_2 (X.x_main_v146_2 (E21 m X) c)
/-- Before region 11: the host stretch `hostOps11` applied. -/
def W23 (c : Dev nD) : Valuation τ sig (Elt F) := StableHlo.after hostOps11 (W22 m X c)
/-- The same read at the TensorCore's references: region 11's entry contents. -/
abbrev E23 : EV F := fun c b => W23 m X c b
/-- After region 11. -/
def W24 (c : Dev nD) : Valuation τ sig (Elt F) := Function.update (W23 m X c) main_v155 (X.x_main_v155 (E23 m X) c)
/-- Before region 12: the host stretch `hostOps12` applied. -/
def W25 (c : Dev nD) : Valuation τ sig (Elt F) := StableHlo.after hostOps12 (W24 m X c)
/-- The same read at the TensorCore's references: region 12's entry contents. -/
abbrev E25 : EV F := fun c b => W25 m X c b
/-- After region 12. -/
def W26 (c : Dev nD) : Valuation τ sig (Elt F) := Function.update (W25 m X c) main_v172 (X.x_main_v172 (E25 m X) c)
/-- Before region 13: the host stretch `hostOps13` applied. -/
def W27 (c : Dev nD) : Valuation τ sig (Elt F) := StableHlo.after hostOps13 (W26 m X c)
/-- The same read at the TensorCore's references: region 13's entry contents. -/
abbrev E27 : EV F := fun c b => W27 m X c b
/-- After region 13. -/
def W28 (c : Dev nD) : Valuation τ sig (Elt F) := Function.update (W27 m X c) main_v189 (X.x_main_v189 (E27 m X) c)
/-- At the end: the last host stretch applied. -/
def W29 (c : Dev nD) : Valuation τ sig (Elt F) := StableHlo.after hostOps14 (W28 m X c)

/-- The regions' unknowns, read off the chain. -/
def outs : Outs (F := F) := fun J r c => match J with
  | 2 => W2 m X c r
  | 4 => W4 m X c r
  | 6 => W6 m X c r
  | 8 => W8 m X c r
  | 10 => W10 m X c r
  | 12 => W12 m X c r
  | 14 => W14 m X c r
  | 16 => W16 m X c r
  | 18 => W18 m X c r
  | 20 => W20 m X c r
  | 22 => W22 m X c r
  | 24 => W24 m X c r
  | 26 => W26 m X c r
  | 28 => W28 m X c r
  | _ => W0 m c r

theorem W_eq0 (c : Dev nD) : V0 m c = W0 m c := rfl
theorem W_eq1 (c : Dev nD) : V1 m c = W1 m c := by
  show StableHlo.after hostOps0 (V0 m c) = StableHlo.after hostOps0 (W0 m c)
  rw [W_eq0]
theorem W_eq2 (c : Dev nD) : V2 m (outs m X) c = W2 m X c := by
  show Function.update (Function.update (Function.update (V1 m c) main_v16_0 (W2 m X c main_v16_0)) main_v16_1 (W2 m X c main_v16_1)) main_v16_2 (W2 m X c main_v16_2) = W2 m X c
  rw [W_eq1]
  unfold W2
  exact upd3_fix _ _ _ _ _ _ _ (StableHlo.devRef_ne_of_ne (by decide)) (StableHlo.devRef_ne_of_ne (by decide)) (StableHlo.devRef_ne_of_ne (by decide))
theorem W_eq3 (c : Dev nD) : V3 m (outs m X) c = W3 m X c := by
  show StableHlo.after hostOps1 (V2 m (outs m X) c) = StableHlo.after hostOps1 (W2 m X c)
  rw [W_eq2]
theorem W_eq4 (c : Dev nD) : V4 m (outs m X) c = W4 m X c := by
  show Function.update (V3 m (outs m X) c) main_v25 (W4 m X c main_v25) = W4 m X c
  rw [W_eq3]
  unfold W4
  exact upd1_fix _ _ _
theorem W_eq5 (c : Dev nD) : V5 m (outs m X) c = W5 m X c := by
  show StableHlo.after hostOps2 (V4 m (outs m X) c) = StableHlo.after hostOps2 (W4 m X c)
  rw [W_eq4]
theorem W_eq6 (c : Dev nD) : V6 m (outs m X) c = W6 m X c := by
  show Function.update (Function.update (Function.update (V5 m (outs m X) c) main_v42_0 (W6 m X c main_v42_0)) main_v42_1 (W6 m X c main_v42_1)) main_v42_2 (W6 m X c main_v42_2) = W6 m X c
  rw [W_eq5]
  unfold W6
  exact upd3_fix _ _ _ _ _ _ _ (StableHlo.devRef_ne_of_ne (by decide)) (StableHlo.devRef_ne_of_ne (by decide)) (StableHlo.devRef_ne_of_ne (by decide))
theorem W_eq7 (c : Dev nD) : V7 m (outs m X) c = W7 m X c := by
  show StableHlo.after hostOps3 (V6 m (outs m X) c) = StableHlo.after hostOps3 (W6 m X c)
  rw [W_eq6]
theorem W_eq8 (c : Dev nD) : V8 m (outs m X) c = W8 m X c := by
  show Function.update (V7 m (outs m X) c) main_v51 (W8 m X c main_v51) = W8 m X c
  rw [W_eq7]
  unfold W8
  exact upd1_fix _ _ _
theorem W_eq9 (c : Dev nD) : V9 m (outs m X) c = W9 m X c := by
  show StableHlo.after hostOps4 (V8 m (outs m X) c) = StableHlo.after hostOps4 (W8 m X c)
  rw [W_eq8]
theorem W_eq10 (c : Dev nD) : V10 m (outs m X) c = W10 m X c := by
  show Function.update (Function.update (Function.update (V9 m (outs m X) c) main_v68_0 (W10 m X c main_v68_0)) main_v68_1 (W10 m X c main_v68_1)) main_v68_2 (W10 m X c main_v68_2) = W10 m X c
  rw [W_eq9]
  unfold W10
  exact upd3_fix _ _ _ _ _ _ _ (StableHlo.devRef_ne_of_ne (by decide)) (StableHlo.devRef_ne_of_ne (by decide)) (StableHlo.devRef_ne_of_ne (by decide))
theorem W_eq11 (c : Dev nD) : V11 m (outs m X) c = W11 m X c := by
  show StableHlo.after hostOps5 (V10 m (outs m X) c) = StableHlo.after hostOps5 (W10 m X c)
  rw [W_eq10]
theorem W_eq12 (c : Dev nD) : V12 m (outs m X) c = W12 m X c := by
  show Function.update (V11 m (outs m X) c) main_v77 (W12 m X c main_v77) = W12 m X c
  rw [W_eq11]
  unfold W12
  exact upd1_fix _ _ _
theorem W_eq13 (c : Dev nD) : V13 m (outs m X) c = W13 m X c := by
  show StableHlo.after hostOps6 (V12 m (outs m X) c) = StableHlo.after hostOps6 (W12 m X c)
  rw [W_eq12]
theorem W_eq14 (c : Dev nD) : V14 m (outs m X) c = W14 m X c := by
  show Function.update (Function.update (Function.update (V13 m (outs m X) c) main_v94_0 (W14 m X c main_v94_0)) main_v94_1 (W14 m X c main_v94_1)) main_v94_2 (W14 m X c main_v94_2) = W14 m X c
  rw [W_eq13]
  unfold W14
  exact upd3_fix _ _ _ _ _ _ _ (StableHlo.devRef_ne_of_ne (by decide)) (StableHlo.devRef_ne_of_ne (by decide)) (StableHlo.devRef_ne_of_ne (by decide))
theorem W_eq15 (c : Dev nD) : V15 m (outs m X) c = W15 m X c := by
  show StableHlo.after hostOps7 (V14 m (outs m X) c) = StableHlo.after hostOps7 (W14 m X c)
  rw [W_eq14]
theorem W_eq16 (c : Dev nD) : V16 m (outs m X) c = W16 m X c := by
  show Function.update (V15 m (outs m X) c) main_v103 (W16 m X c main_v103) = W16 m X c
  rw [W_eq15]
  unfold W16
  exact upd1_fix _ _ _
theorem W_eq17 (c : Dev nD) : V17 m (outs m X) c = W17 m X c := by
  show StableHlo.after hostOps8 (V16 m (outs m X) c) = StableHlo.after hostOps8 (W16 m X c)
  rw [W_eq16]
theorem W_eq18 (c : Dev nD) : V18 m (outs m X) c = W18 m X c := by
  show Function.update (Function.update (Function.update (V17 m (outs m X) c) main_v120_0 (W18 m X c main_v120_0)) main_v120_1 (W18 m X c main_v120_1)) main_v120_2 (W18 m X c main_v120_2) = W18 m X c
  rw [W_eq17]
  unfold W18
  exact upd3_fix _ _ _ _ _ _ _ (StableHlo.devRef_ne_of_ne (by decide)) (StableHlo.devRef_ne_of_ne (by decide)) (StableHlo.devRef_ne_of_ne (by decide))
theorem W_eq19 (c : Dev nD) : V19 m (outs m X) c = W19 m X c := by
  show StableHlo.after hostOps9 (V18 m (outs m X) c) = StableHlo.after hostOps9 (W18 m X c)
  rw [W_eq18]
theorem W_eq20 (c : Dev nD) : V20 m (outs m X) c = W20 m X c := by
  show Function.update (V19 m (outs m X) c) main_v129 (W20 m X c main_v129) = W20 m X c
  rw [W_eq19]
  unfold W20
  exact upd1_fix _ _ _
theorem W_eq21 (c : Dev nD) : V21 m (outs m X) c = W21 m X c := by
  show StableHlo.after hostOps10 (V20 m (outs m X) c) = StableHlo.after hostOps10 (W20 m X c)
  rw [W_eq20]
theorem W_eq22 (c : Dev nD) : V22 m (outs m X) c = W22 m X c := by
  show Function.update (Function.update (Function.update (V21 m (outs m X) c) main_v146_0 (W22 m X c main_v146_0)) main_v146_1 (W22 m X c main_v146_1)) main_v146_2 (W22 m X c main_v146_2) = W22 m X c
  rw [W_eq21]
  unfold W22
  exact upd3_fix _ _ _ _ _ _ _ (StableHlo.devRef_ne_of_ne (by decide)) (StableHlo.devRef_ne_of_ne (by decide)) (StableHlo.devRef_ne_of_ne (by decide))
theorem W_eq23 (c : Dev nD) : V23 m (outs m X) c = W23 m X c := by
  show StableHlo.after hostOps11 (V22 m (outs m X) c) = StableHlo.after hostOps11 (W22 m X c)
  rw [W_eq22]
theorem W_eq24 (c : Dev nD) : V24 m (outs m X) c = W24 m X c := by
  show Function.update (V23 m (outs m X) c) main_v155 (W24 m X c main_v155) = W24 m X c
  rw [W_eq23]
  unfold W24
  exact upd1_fix _ _ _
theorem W_eq25 (c : Dev nD) : V25 m (outs m X) c = W25 m X c := by
  show StableHlo.after hostOps12 (V24 m (outs m X) c) = StableHlo.after hostOps12 (W24 m X c)
  rw [W_eq24]
theorem W_eq26 (c : Dev nD) : V26 m (outs m X) c = W26 m X c := by
  show Function.update (V25 m (outs m X) c) main_v172 (W26 m X c main_v172) = W26 m X c
  rw [W_eq25]
  unfold W26
  exact upd1_fix _ _ _
theorem W_eq27 (c : Dev nD) : V27 m (outs m X) c = W27 m X c := by
  show StableHlo.after hostOps13 (V26 m (outs m X) c) = StableHlo.after hostOps13 (W26 m X c)
  rw [W_eq26]
theorem W_eq28 (c : Dev nD) : V28 m (outs m X) c = W28 m X c := by
  show Function.update (V27 m (outs m X) c) main_v189 (W28 m X c main_v189) = W28 m X c
  rw [W_eq27]
  unfold W28
  exact upd1_fix _ _ _
theorem W_eq29 (c : Dev nD) : V29 m (outs m X) c = W29 m X c := by
  show StableHlo.after hostOps14 (V28 m (outs m X) c) = StableHlo.after hostOps14 (W28 m X c)
  rw [W_eq28]

end Cert.KernelIdeal.Hand

end
-- ==== Proof.Stats0.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.KernelIdeal.Hand

open Cert.KernelIdeal Cert.KernelIdeal.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond0 (i : grid0.Coords) : Prop := (Scalar.cmpi .ne (Scalar.extui (Scalar.cmpi .eq (BitVec.ofNat 32 (i 0).val) 0#32)) 0#32) = 1#1
/-- It holds at the first point only: decided over the grid. -/
theorem hcond0 : ∀ t : Fin cfg0.N, cond0 (grid0.coords t) ↔ t.val % 10 = 0 :=
  (by decide +kernel : ∀ t : Fin grid0.N, cond0 (grid0.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel0_B (c : Dev nD) (E : Set ℕ) (i : grid0.Coords)
    (arg1 : Memref sig .tc .vmem S5000x256 .f32) (harg1 : arg1.IsWhole) (arg2 : Memref sig .tc .vmem S5000x256 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : ¬cond0 i)
    (x1 x2 : Vec F S5000x256 .f32) (x3 : Vec F S256x128 .f32) (x4 : Vec F S1x128 .f32) (a8 a9 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay3 x1 x2 x3 x4)
            ∗ owns (c : Thread nD τ) arg6 fullShare (k0_pay4 x1 x2 x3 x4 a8) ∗ owns (c : Thread nD τ) arg7 fullShare (k0_pay5 x1 x2 x3 x4 a9)
            ∗ owns (c : Thread nD τ) arg8 fullShare (k0_pay4 x1 x2 x3 x4 a8) ∗ owns (c : Thread nD τ) arg9 fullShare (k0_pay5 x1 x2 x3 x4 a9)) -∗ K ⟨⟩))
      ⊢ wp frame (wpE (defs₀ (F := F)) Variants.none c none) E
          (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x256) hz2, View.ld_unit_zero (S := S256x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]

set_option maxHeartbeats 1000000 in
/-- The body at the first point (the reset taken): the accumulators, at anything, are zeroed first. -/
theorem sound_kernel0_A (c : Dev nD) (E : Set ℕ) (i : grid0.Coords)
    (arg1 : Memref sig .tc .vmem S5000x256 .f32) (harg1 : arg1.IsWhole) (arg2 : Memref sig .tc .vmem S5000x256 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : cond0 i)
    (x1 x2 : Vec F S5000x256 .f32) (x3 : Vec F S256x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay3 x1 x2 x3 x4)
            ∗ owns (c : Thread nD τ) arg6 fullShare (k0_pay4 x1 x2 x3 x4 (k0_pay1 (F := F))) ∗ owns (c : Thread nD τ) arg7 fullShare (k0_pay5 x1 x2 x3 x4 (k0_pay2 (F := F)))
            ∗ owns (c : Thread nD τ) arg8 fullShare (k0_pay4 x1 x2 x3 x4 (k0_pay1 (F := F))) ∗ owns (c : Thread nD τ) arg9 fullShare (k0_pay5 x1 x2 x3 x4 (k0_pay2 (F := F)))) -∗ K ⟨⟩))
      ⊢ wp frame (wpE (defs₀ (F := F)) Variants.none c none) E
          (cc0__linear_stats_kernel i arg1 harg1 arg2 harg2 arg3 harg3 arg4 harg4 arg5 harg5 arg6 harg6 arg7 harg7 arg8 harg8 arg9 harg9) K := by
  simp only [cc0__linear_stats_kernel_eq_skeleton]; unfold cc0__linear_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x256) hz2, View.ld_unit_zero (S := S256x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The linear layer's tile at point `t`: `(x + agg) W + b` on the point's rows. -/
def hblk0 (c : Dev nD) (t : Fin cfg0.N) : FVec F S5000x128 .f32 :=
  k0_pay3 (iblk0 V c 0 t) (iblk0 V c 1 t) (iblk0 V c 2 t) (iblk0 V c 3 t)

theorem N0_eq : cfg0.N = 10 := N_0

/-- The point numbered `n` (modulo the grid's ten points, so that the recursions below need no side condition). -/
def pt0 (n : ℕ) : Fin cfg0.N := ⟨n % 10, by rw [N0_eq]; exact Nat.mod_lt _ (by decide)⟩

theorem pt0_val (t : Fin cfg0.N) : pt0 t.val = t :=
  Fin.ext (Nat.mod_eq_of_lt (lt_of_lt_of_eq t.isLt N0_eq))

/-- The column sums of the tiles of points `0..n`, accumulated in the grid's order from zero. -/
def accS0 (c : Dev nD) : ℕ → FVec F S1x128 .f32
  | 0 => k0_pay4 (iblk0 V c 0 (pt0 0)) (iblk0 V c 1 (pt0 0)) (iblk0 V c 2 (pt0 0)) (iblk0 V c 3 (pt0 0)) (k0_pay1 (F := F))
  | n + 1 => k0_pay4 (iblk0 V c 0 (pt0 (n + 1))) (iblk0 V c 1 (pt0 (n + 1))) (iblk0 V c 2 (pt0 (n + 1))) (iblk0 V c 3 (pt0 (n + 1))) (accS0 c n)

/-- The column sums of the squared tiles of points `0..n`, accumulated in the grid's order from zero. -/
def accQ0 (c : Dev nD) : ℕ → FVec F S1x128 .f32
  | 0 => k0_pay5 (iblk0 V c 0 (pt0 0)) (iblk0 V c 1 (pt0 0)) (iblk0 V c 2 (pt0 0)) (iblk0 V c 3 (pt0 0)) (k0_pay2 (F := F))
  | n + 1 => k0_pay5 (iblk0 V c 0 (pt0 (n + 1))) (iblk0 V c 1 (pt0 (n + 1))) (iblk0 V c 2 (pt0 (n + 1))) (iblk0 V c 3 (pt0 (n + 1))) (accQ0 c n)

theorem accS0_zero (c : Dev nD) (t : Fin cfg0.N) (h : t.val = 0) :
    accS0 V c 0 = k0_pay4 (iblk0 V c 0 t) (iblk0 V c 1 t) (iblk0 V c 2 t) (iblk0 V c 3 t) (k0_pay1 (F := F)) := by
  have e : pt0 0 = t := by rw [← h]; exact pt0_val t
  rw [accS0, e]
theorem accS0_succ (c : Dev nD) (t : Fin cfg0.N) (n : ℕ) (h : t.val = n + 1) :
    accS0 V c (n + 1) = k0_pay4 (iblk0 V c 0 t) (iblk0 V c 1 t) (iblk0 V c 2 t) (iblk0 V c 3 t) (accS0 V c n) := by
  have e : pt0 (n + 1) = t := by rw [← h]; exact pt0_val t
  rw [accS0, e]
theorem accQ0_zero (c : Dev nD) (t : Fin cfg0.N) (h : t.val = 0) :
    accQ0 V c 0 = k0_pay5 (iblk0 V c 0 t) (iblk0 V c 1 t) (iblk0 V c 2 t) (iblk0 V c 3 t) (k0_pay2 (F := F)) := by
  have e : pt0 0 = t := by rw [← h]; exact pt0_val t
  rw [accQ0, e]
theorem accQ0_succ (c : Dev nD) (t : Fin cfg0.N) (n : ℕ) (h : t.val = n + 1) :
    accQ0 V c (n + 1) = k0_pay5 (iblk0 V c 0 t) (iblk0 V c 1 t) (iblk0 V c 2 t) (iblk0 V c 3 t) (accQ0 V c n) := by
  have e : pt0 (n + 1) = t := by rw [← h]; exact pt0_val t
  rw [accQ0, e]

/-! ## The pipeline's proof data -/

/-- The two scratch accumulators before point `n`: at anything before the first point (the body resets them there),
    then at the running sums after the point before. -/
def scr0 (c : Dev nD) : ℕ → sProp 𝕄
  | 0 => iprop((∃ d, owns (c : Thread nD τ) (Memref.whole cc0_scratch0 : Memref sig .tc .vmem S1x128 .f32) fullShare d) ∗ (∃ d, owns (c : Thread nD τ) (Memref.whole cc0_scratch1 : Memref sig .tc .vmem S1x128 .f32) fullShare d))
  | n + 1 => iprop(owns (c : Thread nD τ) (Memref.whole cc0_scratch0 : Memref sig .tc .vmem S1x128 .f32) fullShare (accS0 V c n) ∗ owns (c : Thread nD τ) (Memref.whole cc0_scratch1 : Memref sig .tc .vmem S1x128 .f32) fullShare (accQ0 V c n))

theorem scr0_zero (c : Dev nD) : scr0 V c 0 = iprop((∃ d, owns (c : Thread nD τ) (Memref.whole cc0_scratch0 : Memref sig .tc .vmem S1x128 .f32) fullShare d) ∗ (∃ d, owns (c : Thread nD τ) (Memref.whole cc0_scratch1 : Memref sig .tc .vmem S1x128 .f32) fullShare d)) := rfl
theorem scr0_succ (c : Dev nD) (n : ℕ) : scr0 V c (n + 1) = iprop(owns (c : Thread nD τ) (Memref.whole cc0_scratch0 : Memref sig .tc .vmem S1x128 .f32) fullShare (accS0 V c n) ∗ owns (c : Thread nD τ) (Memref.whole cc0_scratch1 : Memref sig .tc .vmem S1x128 .f32) fullShare (accQ0 V c n)) := rfl

/-- The invariant between points: the generator register at some state, every scoped buffer that is neither a staging
    buffer nor one of the two accumulators at some contents, and the two accumulators. -/
def Φ0 (c : Dev nD) (t : Fin (cfg0.N + 1)) : sProp 𝕄 :=
  iprop((∃ r, prngReg c r)
    ∗ Pipeline.scopedRestBut (Ix := Unit) (Name := ℕ) (U := UR sig nD τ) (Lvl := ℕ) (Val := Elt F) spec0 c [cc0_scratch0, cc0_scratch1]
    ∗ scr0 V c t.val)

/-- The proof data of the pipeline on core `c`: the arrays as the region finds them; after the body at point `t` each
    input's buffer at its block, the first output's at the layer's tile, the two statistics outputs' at the running sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => hblk0 V c t
    | ⟨5, _⟩ => accS0 V c t.val
    | ⟨6, _⟩ => accQ0 V c t.val
  Φ t := Φ0 V c t
  q _ := fullShare
  owed _ := 0

theorem A_eq0 (c : Dev nD) (w : Fin cfg0.W) : (dat0 V c).A w = V c (Pipeline.arrRef spec0 w) := by
  dsimp only [dat0]
theorem Φ_eq0 (c : Dev nD) (t : Fin (cfg0.N + 1)) : (dat0 V c).Φ t = Φ0 V c t := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = hblk0 V c t := by dsimp only [dat0]
theorem after0_5 (c : Dev nD) (t : Fin cfg0.N) : (dat0 V c).after 5 t = accS0 V c t.val := by dsimp only [dat0]
theorem after0_6 (c : Dev nD) (t : Fin cfg0.N) : (dat0 V c).after 6 t = accQ0 V c t.val := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The reset is taken at the first point only. -/
theorem hcond0_zero (t : Fin cfg0.N) (h : t.val = 0) : cond0 (grid0.coords t) := (hcond0 t).mpr (by rw [h])
theorem hcond0_succ (t : Fin cfg0.N) (n : ℕ) (h : t.val = n + 1) : ¬cond0 (grid0.coords t) := fun hc => by
  have h1 := (hcond0 t).mp hc; have h2 := lt_of_lt_of_eq t.isLt N0_eq; omega

set_option maxHeartbeats 1000000 in
/-- The body at any point: the inputs' memrefs hold their blocks, the accumulators what the invariant says; at the first
    point the reset is taken, at a later point the accumulators carry the sums of the points before. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5, after0_6, Φ_eq0, Φ_eq0]
  unfold Φ0 hblk0
  rw [show (t.castSucc : Fin (cfg0.N + 1)).val = t.val from rfl, show (t.succ : Fin (cfg0.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr0_zero, scr0_succ, accS0_zero V c t h0, accQ0_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords t) _ _ _ _ _ _ _ _ _ _ _ _ _ _ _ _ _ _ (hcond0_zero t h0)
      (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr0_succ, scr0_succ, accS0_succ V c t n hn, accQ0_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) _ _ _ _ _ _ _ _ _ _ _ _ _ _ _ _ _ _ (hcond0_succ t n hn)
      (iblk0 V c 0 t) (iblk0 V c 1 t) (iblk0 V c 2 t) (iblk0 V c 3 t) (accS0 V c n) (accQ0 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- The accumulators, whatever they hold, are two scoped buffers at some contents; -/
theorem scr0_any (c : Dev nD) (n : ℕ) :
    scr0 V c n ⊢ iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) := by
  cases n with
  | zero =>
    rw [scr0_zero]
    iintro ⟨⟨%d8, H8⟩, ⟨%d9, H9⟩⟩
    isplitl [H8]
    · iexists d8; iapply (Entails.of_eq (owns_whole (c : Thread nD τ) cc0_scratch0 fullShare d8)) $$ H8
    · iexists d9; iapply (Entails.of_eq (owns_whole (c : Thread nD τ) cc0_scratch1 fullShare d9)) $$ H9
  | succ n =>
    rw [scr0_succ]
    iintro ⟨H8, H9⟩
    isplitl [H8]
    · iexists (accS0 V c n); iapply (Entails.of_eq (owns_whole (c : Thread nD τ) cc0_scratch0 fullShare (accS0 V c n))) $$ H8
    · iexists (accQ0 V c n); iapply (Entails.of_eq (owns_whole (c : Thread nD τ) cc0_scratch1 fullShare (accQ0 V c n))) $$ H9

/-- and before the first point any contents will do. -/
theorem scr0_intro (c : Dev nD) :
    iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ⊢ scr0 V c 0 := by
  rw [scr0_zero]
  iintro ⟨⟨%f8, H8⟩, ⟨%f9, H9⟩⟩
  isplitl [H8]
  · iexists f8; iapply (Entails.of_eq (owns_whole (c : Thread nD τ) cc0_scratch0 fullShare f8).symm) $$ H8
  · iexists f9; iapply (Entails.of_eq (owns_whole (c : Thread nD τ) cc0_scratch1 fullShare f9).symm) $$ H9

/-- The invariant at the first point, from the generator register, the tables (unused) and the scoped rest. -/
theorem hin0 (c : Dev nD) (T : (pcfgs (F := F) 0).pre.Contents (Elt F)) :
    iprop((∃ r, prngReg c r) ∗ Pipeline.prefHeld (pcfgs (F := F) 0).pre c (fun _ => fullShare) T ∗ Pipeline.scopedRest spec0 c)
      ⊢ (dat0 V c).Φ 0 := by
  rw [Φ_eq0, scopedRest0_split]; unfold Φ0
  iintro ⟨Hr, -, Hs, Hrest⟩
  isplitl [Hr]; · iexact Hr
  isplitl [Hrest]; · iexact Hrest
  iapply (scr0_intro V c) $$ Hs

/-- The invariant at the last point gives them back. -/
theorem hout0 (c : Dev nD) :
    (dat0 V c).Φ (Fin.last _) ⊢ iprop((∃ r, prngReg c r) ∗ Pipeline.ownSems0 (fun k : PEmpty => k.elim) c ∗ Pipeline.scopedRest spec0 c) := by
  rw [Φ_eq0, Pipeline.ownSems0_none, scopedRest0_split]; unfold Φ0
  iintro ⟨Hr, Hrest, Hs⟩
  isplitl [Hr]; · iexact Hr
  isplitr; · iempintro
  isplitl [Hs]
  · iapply (scr0_any V c _) $$ Hs
  iexact Hrest

end Region

end Cert.KernelIdeal.Hand

end
-- ==== Proof.Bn1.lean ====
/- The frame package of region 1: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry valuation's and whose body leaves the block in place: at a point where the window
    is not fetched its block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is the entry valuation's and whose body leaves the block in place: at a point where the window
    is not fetched its block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is the entry valuation's and whose body leaves the block in place: at a point where the window
    is not fetched its block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is the entry valuation's and whose body leaves the block in place: at a point where the window
    is not fetched its block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is the entry valuation's and whose body leaves the block in place: at a point where the window
    is not fetched its block index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- Window 5's staging buffer after the body, from the input windows' blocks: its one store as a piece. -/
def out1_5 (x0 : Vec F S5000x128 .f32) (x1 : Vec F S1x128 .f32) (x2 : Vec F S1x128 .f32) (x3 : Vec F S1x128 .f32) (x4 : Vec F S1x128 .f32) : Vec F S5000x128 .f32 :=
  View.canon [⟨r1_0, k1_pay1 (View.ld x0 r1_0) (View.ld x1 r1_1) (View.ld x2 r1_1) (View.ld x3 r1_1) (View.ld x4 r1_1)⟩]

/-- The store tiles the buffer, so it covers it. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-- The zero offsets, as a function. -/
theorem zeros1 : (![0, 0] : Fin 2 → Nat) = fun _ => 0 := funext fun a => by fin_cases a <;> rfl

/-- Every input is loaded whole and the store is whole: the output's buffer holds the payload of the inputs' contents. -/
theorem out1_5_eq (x0 : Vec F S5000x128 .f32) (x1 : Vec F S1x128 .f32) (x2 : Vec F S1x128 .f32) (x3 : Vec F S1x128 .f32) (x4 : Vec F S1x128 .f32) :
    out1_5 x0 x1 x2 x3 x4 = k1_pay1 x0 x1 x2 x3 x4 := by
  unfold out1_5
  rw [View.canon_unit_zero (S := S5000x128) zeros1 inb_S5000x128_S5000x128_0_0,
    View.ld_unit_zero (S := S5000x128) zeros1 inb_S5000x128_S5000x128_0_0 x0,
    View.ld_unit_zero (S := S1x128) zeros1 inb_S1x128_S1x128_0_0 x1,
    View.ld_unit_zero (S := S1x128) zeros1 inb_S1x128_S1x128_0_0 x2,
    View.ld_unit_zero (S := S1x128) zeros1 inb_S1x128_S1x128_0_0 x3,
    View.ld_unit_zero (S := S1x128) zeros1 inb_S1x128_S1x128_0_0 x4]

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays as the region finds them (`V`); after the body at
    point `t` each input's buffer at its block and the output's at `out1_5` of the input blocks; the invariant: the
    scoped rest and the pseudo-random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.Stats2.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.KernelIdeal.Hand

open Cert.KernelIdeal Cert.KernelIdeal.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond2 (i : grid2.Coords) : Prop := (Scalar.cmpi .ne (Scalar.extui (Scalar.cmpi .eq (BitVec.ofNat 32 (i 0).val) 0#32)) 0#32) = 1#1
/-- It holds at the first point only: decided over the grid. -/
theorem hcond2 : ∀ t : Fin cfg2.N, cond2 (grid2.coords t) ↔ t.val % 10 = 0 :=
  (by decide +kernel : ∀ t : Fin grid2.N, cond2 (grid2.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel2_B (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : ¬cond2 i)
    (x1 x2 : Vec F S5000x128 .f32) (x3 : Vec F S128x128 .f32) (x4 : Vec F S1x128 .f32) (a8 a9 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k2_pay3 x1 x2 x3 x4)
            ∗ owns (c : Thread nD τ) arg6 fullShare (k2_pay4 x1 x2 x3 x4 a8) ∗ owns (c : Thread nD τ) arg7 fullShare (k2_pay5 x1 x2 x3 x4 a9)
            ∗ owns (c : Thread nD τ) arg8 fullShare (k2_pay4 x1 x2 x3 x4 a8) ∗ owns (c : Thread nD τ) arg9 fullShare (k2_pay5 x1 x2 x3 x4 a9)) -∗ K ⟨⟩))
      ⊢ wp frame (wpE (defs₀ (F := F)) Variants.none c none) E
          (cc2__linear_stats_kernel i arg1 harg1 arg2 harg2 arg3 harg3 arg4 harg4 arg5 harg5 arg6 harg6 arg7 harg7 arg8 harg8 arg9 harg9) K := by
  simp only [cc2__linear_stats_kernel_eq_skeleton]; unfold cc2__linear_stats_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x128) hz2, View.ld_unit_zero (S := S128x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x128) hz2, View.ld_unit_zero (S := S128x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x128) hz2, View.ld_unit_zero (S := S128x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x128) hz2, View.ld_unit_zero (S := S128x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x128) hz2, View.ld_unit_zero (S := S128x128) hz2, View.ld_unit_zero (S := S1x128) hz2]

set_option maxHeartbeats 1000000 in
/-- The body at the first point (the reset taken): the accumulators, at anything, are zeroed first. -/
theorem sound_kernel2_A (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : cond2 i)
    (x1 x2 : Vec F S5000x128 .f32) (x3 : Vec F S128x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k2_pay3 x1 x2 x3 x4)
            ∗ owns (c : Thread nD τ) arg6 fullShare (k2_pay4 x1 x2 x3 x4 (k2_pay1 (F := F))) ∗ owns (c : Thread nD τ) arg7 fullShare (k2_pay5 x1 x2 x3 x4 (k2_pay2 (F := F)))
            ∗ owns (c : Thread nD τ) arg8 fullShare (k2_pay4 x1 x2 x3 x4 (k2_pay1 (F := F))) ∗ owns (c : Thread nD τ) arg9 fullShare (k2_pay5 x1 x2 x3 x4 (k2_pay2 (F := F)))) -∗ K ⟨⟩))
      ⊢ wp frame (wpE (defs₀ (F := F)) Variants.none c none) E
          (cc2__linear_stats_kernel i arg1 harg1 arg2 harg2 arg3 harg3 arg4 harg4 arg5 harg5 arg6 harg6 arg7 harg7 arg8 harg8 arg9 harg9) K := by
  simp only [cc2__linear_stats_kernel_eq_skeleton]; unfold cc2__linear_stats_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x128) hz2, View.ld_unit_zero (S := S128x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x128) hz2, View.ld_unit_zero (S := S128x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x128) hz2, View.ld_unit_zero (S := S128x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x128) hz2, View.ld_unit_zero (S := S128x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x128) hz2, View.ld_unit_zero (S := S128x128) hz2, View.ld_unit_zero (S := S1x128) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The linear layer's tile at point `t`: `(x + agg) W + b` on the point's rows. -/
def hblk2 (c : Dev nD) (t : Fin cfg2.N) : FVec F S5000x128 .f32 :=
  k2_pay3 (iblk2 V c 0 t) (iblk2 V c 1 t) (iblk2 V c 2 t) (iblk2 V c 3 t)

theorem N2_eq : cfg2.N = 10 := N_2

/-- The point numbered `n` (modulo the grid's ten points, so that the recursions below need no side condition). -/
def pt2 (n : ℕ) : Fin cfg2.N := ⟨n % 10, by rw [N2_eq]; exact Nat.mod_lt _ (by decide)⟩

theorem pt2_val (t : Fin cfg2.N) : pt2 t.val = t :=
  Fin.ext (Nat.mod_eq_of_lt (lt_of_lt_of_eq t.isLt N2_eq))

/-- The column sums of the tiles of points `0..n`, accumulated in the grid's order from zero. -/
def accS2 (c : Dev nD) : ℕ → FVec F S1x128 .f32
  | 0 => k2_pay4 (iblk2 V c 0 (pt2 0)) (iblk2 V c 1 (pt2 0)) (iblk2 V c 2 (pt2 0)) (iblk2 V c 3 (pt2 0)) (k2_pay1 (F := F))
  | n + 1 => k2_pay4 (iblk2 V c 0 (pt2 (n + 1))) (iblk2 V c 1 (pt2 (n + 1))) (iblk2 V c 2 (pt2 (n + 1))) (iblk2 V c 3 (pt2 (n + 1))) (accS2 c n)

/-- The column sums of the squared tiles of points `0..n`, accumulated in the grid's order from zero. -/
def accQ2 (c : Dev nD) : ℕ → FVec F S1x128 .f32
  | 0 => k2_pay5 (iblk2 V c 0 (pt2 0)) (iblk2 V c 1 (pt2 0)) (iblk2 V c 2 (pt2 0)) (iblk2 V c 3 (pt2 0)) (k2_pay2 (F := F))
  | n + 1 => k2_pay5 (iblk2 V c 0 (pt2 (n + 1))) (iblk2 V c 1 (pt2 (n + 1))) (iblk2 V c 2 (pt2 (n + 1))) (iblk2 V c 3 (pt2 (n + 1))) (accQ2 c n)

theorem accS2_zero (c : Dev nD) (t : Fin cfg2.N) (h : t.val = 0) :
    accS2 V c 0 = k2_pay4 (iblk2 V c 0 t) (iblk2 V c 1 t) (iblk2 V c 2 t) (iblk2 V c 3 t) (k2_pay1 (F := F)) := by
  have e : pt2 0 = t := by rw [← h]; exact pt2_val t
  rw [accS2, e]
theorem accS2_succ (c : Dev nD) (t : Fin cfg2.N) (n : ℕ) (h : t.val = n + 1) :
    accS2 V c (n + 1) = k2_pay4 (iblk2 V c 0 t) (iblk2 V c 1 t) (iblk2 V c 2 t) (iblk2 V c 3 t) (accS2 V c n) := by
  have e : pt2 (n + 1) = t := by rw [← h]; exact pt2_val t
  rw [accS2, e]
theorem accQ2_zero (c : Dev nD) (t : Fin cfg2.N) (h : t.val = 0) :
    accQ2 V c 0 = k2_pay5 (iblk2 V c 0 t) (iblk2 V c 1 t) (iblk2 V c 2 t) (iblk2 V c 3 t) (k2_pay2 (F := F)) := by
  have e : pt2 0 = t := by rw [← h]; exact pt2_val t
  rw [accQ2, e]
theorem accQ2_succ (c : Dev nD) (t : Fin cfg2.N) (n : ℕ) (h : t.val = n + 1) :
    accQ2 V c (n + 1) = k2_pay5 (iblk2 V c 0 t) (iblk2 V c 1 t) (iblk2 V c 2 t) (iblk2 V c 3 t) (accQ2 V c n) := by
  have e : pt2 (n + 1) = t := by rw [← h]; exact pt2_val t
  rw [accQ2, e]

/-! ## The pipeline's proof data -/

/-- The two scratch accumulators before point `n`: at anything before the first point (the body resets them there),
    then at the running sums after the point before. -/
def scr2 (c : Dev nD) : ℕ → sProp 𝕄
  | 0 => iprop((∃ d, owns (c : Thread nD τ) (Memref.whole cc2_scratch0 : Memref sig .tc .vmem S1x128 .f32) fullShare d) ∗ (∃ d, owns (c : Thread nD τ) (Memref.whole cc2_scratch1 : Memref sig .tc .vmem S1x128 .f32) fullShare d))
  | n + 1 => iprop(owns (c : Thread nD τ) (Memref.whole cc2_scratch0 : Memref sig .tc .vmem S1x128 .f32) fullShare (accS2 V c n) ∗ owns (c : Thread nD τ) (Memref.whole cc2_scratch1 : Memref sig .tc .vmem S1x128 .f32) fullShare (accQ2 V c n))

theorem scr2_zero (c : Dev nD) : scr2 V c 0 = iprop((∃ d, owns (c : Thread nD τ) (Memref.whole cc2_scratch0 : Memref sig .tc .vmem S1x128 .f32) fullShare d) ∗ (∃ d, owns (c : Thread nD τ) (Memref.whole cc2_scratch1 : Memref sig .tc .vmem S1x128 .f32) fullShare d)) := rfl
theorem scr2_succ (c : Dev nD) (n : ℕ) : scr2 V c (n + 1) = iprop(owns (c : Thread nD τ) (Memref.whole cc2_scratch0 : Memref sig .tc .vmem S1x128 .f32) fullShare (accS2 V c n) ∗ owns (c : Thread nD τ) (Memref.whole cc2_scratch1 : Memref sig .tc .vmem S1x128 .f32) fullShare (accQ2 V c n)) := rfl

/-- The invariant between points: the generator register at some state, every scoped buffer that is neither a staging
    buffer nor one of the two accumulators at some contents, and the two accumulators. -/
def Φ2 (c : Dev nD) (t : Fin (cfg2.N + 1)) : sProp 𝕄 :=
  iprop((∃ r, prngReg c r)
    ∗ Pipeline.scopedRestBut (Ix := Unit) (Name := ℕ) (U := UR sig nD τ) (Lvl := ℕ) (Val := Elt F) spec2 c [cc2_scratch0, cc2_scratch1]
    ∗ scr2 V c t.val)

/-- The proof data of the pipeline on core `c`: the arrays as the region finds them; after the body at point `t` each
    input's buffer at its block, the first output's at the layer's tile, the two statistics outputs' at the running sums. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => hblk2 V c t
    | ⟨5, _⟩ => accS2 V c t.val
    | ⟨6, _⟩ => accQ2 V c t.val
  Φ t := Φ2 V c t
  q _ := fullShare
  owed _ := 0

theorem A_eq2 (c : Dev nD) (w : Fin cfg2.W) : (dat2 V c).A w = V c (Pipeline.arrRef spec2 w) := by
  dsimp only [dat2]
theorem Φ_eq2 (c : Dev nD) (t : Fin (cfg2.N + 1)) : (dat2 V c).Φ t = Φ2 V c t := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = hblk2 V c t := by dsimp only [dat2]
theorem after2_5 (c : Dev nD) (t : Fin cfg2.N) : (dat2 V c).after 5 t = accS2 V c t.val := by dsimp only [dat2]
theorem after2_6 (c : Dev nD) (t : Fin cfg2.N) : (dat2 V c).after 6 t = accQ2 V c t.val := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The reset is taken at the first point only. -/
theorem hcond2_zero (t : Fin cfg2.N) (h : t.val = 0) : cond2 (grid2.coords t) := (hcond2 t).mpr (by rw [h])
theorem hcond2_succ (t : Fin cfg2.N) (n : ℕ) (h : t.val = n + 1) : ¬cond2 (grid2.coords t) := fun hc => by
  have h1 := (hcond2 t).mp hc; have h2 := lt_of_lt_of_eq t.isLt N2_eq; omega

set_option maxHeartbeats 1000000 in
/-- The body at any point: the inputs' memrefs hold their blocks, the accumulators what the invariant says; at the first
    point the reset is taken, at a later point the accumulators carry the sums of the points before. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    after2_0, after2_1, after2_2, after2_3, after2_4, after2_5, after2_6, Φ_eq2, Φ_eq2]
  unfold Φ2 hblk2
  rw [show (t.castSucc : Fin (cfg2.N + 1)).val = t.val from rfl, show (t.succ : Fin (cfg2.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr2_zero, scr2_succ, accS2_zero V c t h0, accQ2_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel2_A c Set.univ (grid2.coords t) _ _ _ _ _ _ _ _ _ _ _ _ _ _ _ _ _ _ (hcond2_zero t h0)
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr2_succ, scr2_succ, accS2_succ V c t n hn, accQ2_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel2_B c Set.univ (grid2.coords t) _ _ _ _ _ _ _ _ _ _ _ _ _ _ _ _ _ _ (hcond2_succ t n hn)
      (iblk2 V c 0 t) (iblk2 V c 1 t) (iblk2 V c 2 t) (iblk2 V c 3 t) (accS2 V c n) (accQ2 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- The accumulators, whatever they hold, are two scoped buffers at some contents; -/
theorem scr2_any (c : Dev nD) (n : ℕ) :
    scr2 V c n ⊢ iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) := by
  cases n with
  | zero =>
    rw [scr2_zero]
    iintro ⟨⟨%d8, H8⟩, ⟨%d9, H9⟩⟩
    isplitl [H8]
    · iexists d8; iapply (Entails.of_eq (owns_whole (c : Thread nD τ) cc2_scratch0 fullShare d8)) $$ H8
    · iexists d9; iapply (Entails.of_eq (owns_whole (c : Thread nD τ) cc2_scratch1 fullShare d9)) $$ H9
  | succ n =>
    rw [scr2_succ]
    iintro ⟨H8, H9⟩
    isplitl [H8]
    · iexists (accS2 V c n); iapply (Entails.of_eq (owns_whole (c : Thread nD τ) cc2_scratch0 fullShare (accS2 V c n))) $$ H8
    · iexists (accQ2 V c n); iapply (Entails.of_eq (owns_whole (c : Thread nD τ) cc2_scratch1 fullShare (accQ2 V c n))) $$ H9

/-- and before the first point any contents will do. -/
theorem scr2_intro (c : Dev nD) :
    iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ⊢ scr2 V c 0 := by
  rw [scr2_zero]
  iintro ⟨⟨%f8, H8⟩, ⟨%f9, H9⟩⟩
  isplitl [H8]
  · iexists f8; iapply (Entails.of_eq (owns_whole (c : Thread nD τ) cc2_scratch0 fullShare f8).symm) $$ H8
  · iexists f9; iapply (Entails.of_eq (owns_whole (c : Thread nD τ) cc2_scratch1 fullShare f9).symm) $$ H9

/-- The invariant at the first point, from the generator register, the tables (unused) and the scoped rest. -/
theorem hin2 (c : Dev nD) (T : (pcfgs (F := F) 2).pre.Contents (Elt F)) :
    iprop((∃ r, prngReg c r) ∗ Pipeline.prefHeld (pcfgs (F := F) 2).pre c (fun _ => fullShare) T ∗ Pipeline.scopedRest spec2 c)
      ⊢ (dat2 V c).Φ 0 := by
  rw [Φ_eq2, scopedRest2_split]; unfold Φ2
  iintro ⟨Hr, -, Hs, Hrest⟩
  isplitl [Hr]; · iexact Hr
  isplitl [Hrest]; · iexact Hrest
  iapply (scr2_intro V c) $$ Hs

/-- The invariant at the last point gives them back. -/
theorem hout2 (c : Dev nD) :
    (dat2 V c).Φ (Fin.last _) ⊢ iprop((∃ r, prngReg c r) ∗ Pipeline.ownSems0 (fun k : PEmpty => k.elim) c ∗ Pipeline.scopedRest spec2 c) := by
  rw [Φ_eq2, Pipeline.ownSems0_none, scopedRest2_split]; unfold Φ2
  iintro ⟨Hr, Hrest, Hs⟩
  isplitl [Hr]; · iexact Hr
  isplitr; · iempintro
  isplitl [Hs]
  · iapply (scr2_any V c _) $$ Hs
  iexact Hrest

end Region

end Cert.KernelIdeal.Hand

end
-- ==== Proof.Bn3.lean ====
/- The frame package of region 3: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry valuation's and whose body leaves the block in place: at a point where the window
    is not fetched its block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is the entry valuation's and whose body leaves the block in place: at a point where the window
    is not fetched its block index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is the entry valuation's and whose body leaves the block in place: at a point where the window
    is not fetched its block index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is the entry valuation's and whose body leaves the block in place: at a point where the window
    is not fetched its block index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is the entry valuation's and whose body leaves the block in place: at a point where the window
    is not fetched its block index has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

/-! ## What the body leaves in the output window's buffer -/

/-- Window 5's staging buffer after the body, from the input windows' blocks: its one store as a piece. -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨r3_0, k3_pay1 (View.ld x0 r3_0) (View.ld x1 r3_1) (View.ld x2 r3_1) (View.ld x3 r3_1) (View.ld x4 r3_1)⟩]

/-- The store tiles the buffer, so it covers it. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-- The zero offsets, as a function. -/
theorem zeros3 : (![0, 0] : Fin 2 → Nat) = fun _ => 0 := funext fun a => by fin_cases a <;> rfl

/-- Every input is loaded whole and the store is whole: the output's buffer holds the payload of the inputs' contents. -/
theorem out3_5_eq (x0 : Vec F S5000x128 .f32) (x1 : Vec F S1x128 .f32) (x2 : Vec F S1x128 .f32) (x3 : Vec F S1x128 .f32) (x4 : Vec F S1x128 .f32) :
    out3_5 x0 x1 x2 x3 x4 = k3_pay1 x0 x1 x2 x3 x4 := by
  unfold out3_5
  rw [View.canon_unit_zero (S := S5000x128) zeros3 inb_S5000x128_S5000x128_0_0,
    View.ld_unit_zero (S := S5000x128) zeros3 inb_S5000x128_S5000x128_0_0 x0,
    View.ld_unit_zero (S := S1x128) zeros3 inb_S1x128_S1x128_0_0 x1,
    View.ld_unit_zero (S := S1x128) zeros3 inb_S1x128_S1x128_0_0 x2,
    View.ld_unit_zero (S := S1x128) zeros3 inb_S1x128_S1x128_0_0 x3,
    View.ld_unit_zero (S := S1x128) zeros3 inb_S1x128_S1x128_0_0 x4]

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the region's pipeline on core `c`: the arrays as the region finds them (`V`); after the body at
    point `t` each input's buffer at its block and the output's at `out3_5` of the input blocks; the invariant: the
    scoped rest and the pseudo-random-number register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.Stats4.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.KernelIdeal.Hand

open Cert.KernelIdeal Cert.KernelIdeal.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond4 (i : grid4.Coords) : Prop := (Scalar.cmpi .ne (Scalar.extui (Scalar.cmpi .eq (BitVec.ofNat 32 (i 0).val) 0#32)) 0#32) = 1#1
/-- It holds at the first point only: decided over the grid. -/
theorem hcond4 : ∀ t : Fin cfg4.N, cond4 (grid4.coords t) ↔ t.val % 10 = 0 :=
  (by decide +kernel : ∀ t : Fin grid4.N, cond4 (grid4.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel4_B (c : Dev nD) (E : Set ℕ) (i : grid4.Coords)
    (arg1 : Memref sig .tc .vmem S5000x256 .f32) (harg1 : arg1.IsWhole) (arg2 : Memref sig .tc .vmem S5000x256 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : ¬cond4 i)
    (x1 x2 : Vec F S5000x256 .f32) (x3 : Vec F S256x128 .f32) (x4 : Vec F S1x128 .f32) (a8 a9 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k4_pay3 x1 x2 x3 x4)
            ∗ owns (c : Thread nD τ) arg6 fullShare (k4_pay4 x1 x2 x3 x4 a8) ∗ owns (c : Thread nD τ) arg7 fullShare (k4_pay5 x1 x2 x3 x4 a9)
            ∗ owns (c : Thread nD τ) arg8 fullShare (k4_pay4 x1 x2 x3 x4 a8) ∗ owns (c : Thread nD τ) arg9 fullShare (k4_pay5 x1 x2 x3 x4 a9)) -∗ K ⟨⟩))
      ⊢ wp frame (wpE (defs₀ (F := F)) Variants.none c none) E
          (cc4__linear_stats_kernel i arg1 harg1 arg2 harg2 arg3 harg3 arg4 harg4 arg5 harg5 arg6 harg6 arg7 harg7 arg8 harg8 arg9 harg9) K := by
  simp only [cc4__linear_stats_kernel_eq_skeleton]; unfold cc4__linear_stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x256) hz2, View.ld_unit_zero (S := S256x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]

set_option maxHeartbeats 1000000 in
/-- The body at the first point (the reset taken): the accumulators, at anything, are zeroed first. -/
theorem sound_kernel4_A (c : Dev nD) (E : Set ℕ) (i : grid4.Coords)
    (arg1 : Memref sig .tc .vmem S5000x256 .f32) (harg1 : arg1.IsWhole) (arg2 : Memref sig .tc .vmem S5000x256 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (hc : cond4 i)
    (x1 x2 : Vec F S5000x256 .f32) (x3 : Vec F S256x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k4_pay3 x1 x2 x3 x4)
            ∗ owns (c : Thread nD τ) arg6 fullShare (k4_pay4 x1 x2 x3 x4 (k4_pay1 (F := F))) ∗ owns (c : Thread nD τ) arg7 fullShare (k4_pay5 x1 x2 x3 x4 (k4_pay2 (F := F)))
            ∗ owns (c : Thread nD τ) arg8 fullShare (k4_pay4 x1 x2 x3 x4 (k4_pay1 (F := F))) ∗ owns (c : Thread nD τ) arg9 fullShare (k4_pay5 x1 x2 x3 x4 (k4_pay2 (F := F)))) -∗ K ⟨⟩))
      ⊢ wp frame (wpE (defs₀ (F := F)) Variants.none c none) E
          (cc4__linear_stats_kernel i arg1 harg1 arg2 harg2 arg3 harg3 arg4 harg4 arg5 harg5 arg6 harg6 arg7 harg7 arg8 harg8 arg9 harg9) K := by
  simp only [cc4__linear_stats_kernel_eq_skeleton]; unfold cc4__linear_stats_kernel_skel
  simp only [k4_part1_eq_skeleton]; unfold k4_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x128) _ _ hz2]
    simp only [View.readAt_eq_ld, hf1, hf2, hf3, hf4, View.ld_unit_zero (S := S5000x256) hz2, View.ld_unit_zero (S := S256x128) hz2, View.ld_unit_zero (S := S1x128) hz2]
  isplitl [H6]
  · iexists _; isplitr
    swap; · iexact H6
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  isplitl [H7]
  · iexists _; isplitr
    swap; · iexact H7
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]
  isplitl [H8]
  · iexists _; isplitr
    swap; · iexact H8
    ipureintro
    sl_unfold_run_names
    rw [read_writes_cons_unit_zero (S := S1x128) _ _ hz2]
    simp only [readCov_cons_unit_zero (S := S1x128) _ hz2, View.readAt_eq_ld, hf1, hf2, hf3, hf4, hf8, View.ld_unit_zero (S := S5000x256) hz2, View.ld_unit_zero (S := S256x128) hz2, View.ld_unit_zero (S := S1x128) hz2]
  · iexists _; isplitr
    swap; · iexact H9
    ipureintro
    sl_unfold_run_names
    rw [read_writes_cons_unit_zero (S := S1x128) _ _ hz2]
    simp only [readCov_cons_unit_zero (S := S1x128) _ hz2, View.readAt_eq_ld, hf1, hf2, hf3, hf4, hf9, View.ld_unit_zero (S := S5000x256) hz2, View.ld_unit_zero (S := S256x128) hz2, View.ld_unit_zero (S := S1x128) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The linear layer's tile at point `t`: `(x + agg) W + b` on the point's rows. -/
def hblk4 (c : Dev nD) (t : Fin cfg4.N) : FVec F S5000x128 .f32 :=
  k4_pay3 (iblk4 V c 0 t) (iblk4 V c 1 t) (iblk4 V c 2 t) (iblk4 V c 3 t)

theorem N4_eq : cfg4.N = 10 := N_4

/-- The point numbered `n` (modulo the grid's ten points, so that the recursions below need no side condition). -/
def pt4 (n : ℕ) : Fin cfg4.N := ⟨n % 10, by rw [N4_eq]; exact Nat.mod_lt _ (by decide)⟩

theorem pt4_val (t : Fin cfg4.N) : pt4 t.val = t :=
  Fin.ext (Nat.mod_eq_of_lt (lt_of_lt_of_eq t.isLt N4_eq))

/-- The column sums of the tiles of points `0..n`, accumulated in the grid's order from zero. -/
def accS4 (c : Dev nD) : ℕ → FVec F S1x128 .f32
  | 0 => k4_pay4 (iblk4 V c 0 (pt4 0)) (iblk4 V c 1 (pt4 0)) (iblk4 V c 2 (pt4 0)) (iblk4 V c 3 (pt4 0)) (k4_pay1 (F := F))
  | n + 1 => k4_pay4 (iblk4 V c 0 (pt4 (n + 1))) (iblk4 V c 1 (pt4 (n + 1))) (iblk4 V c 2 (pt4 (n + 1))) (iblk4 V c 3 (pt4 (n + 1))) (accS4 c n)

/-- The column sums of the squared tiles of points `0..n`, accumulated in the grid's order from zero. -/
def accQ4 (c : Dev nD) : ℕ → FVec F S1x128 .f32
  | 0 => k4_pay5 (iblk4 V c 0 (pt4 0)) (iblk4 V c 1 (pt4 0)) (iblk4 V c 2 (pt4 0)) (iblk4 V c 3 (pt4 0)) (k4_pay2 (F := F))
  | n + 1 => k4_pay5 (iblk4 V c 0 (pt4 (n + 1))) (iblk4 V c 1 (pt4 (n + 1))) (iblk4 V c 2 (pt4 (n + 1))) (iblk4 V c 3 (pt4 (n + 1))) (accQ4 c n)

theorem accS4_zero (c : Dev nD) (t : Fin cfg4.N) (h : t.val = 0) :
    accS4 V c 0 = k4_pay4 (iblk4 V c 0 t) (iblk4 V c 1 t) (iblk4 V c 2 t) (iblk4 V c 3 t) (k4_pay1 (F := F)) := by
  have e : pt4 0 = t := by rw [← h]; exact pt4_val t
  rw [accS4, e]
theorem accS4_succ (c : Dev nD) (t : Fin cfg4.N) (n : ℕ) (h : t.val = n + 1) :
    accS4 V c (n + 1) = k4_pay4 (iblk4 V c 0 t) (iblk4 V c 1 t) (iblk4 V c 2 t) (iblk4 V c 3 t) (accS4 V c n) := by
  have e : pt4 (n + 1) = t := by rw [← h]; exact pt4_val t
  rw [accS4, e]
theorem accQ4_zero (c : Dev nD) (t : Fin cfg4.N) (h : t.val = 0) :
    accQ4 V c 0 = k4_pay5 (iblk4 V c 0 t) (iblk4 V c 1 t) (iblk4 V c 2 t) (iblk4 V c 3 t) (k4_pay2 (F := F)) := by
  have e : pt4 0 = t := by rw [← h]; exact pt4_val t
  rw [accQ4, e]
theorem accQ4_succ (c : Dev nD) (t : Fin cfg4.N) (n : ℕ) (h : t.val = n + 1) :
    accQ4 V c (n + 1) = k4_pay5 (iblk4 V c 0 t) (iblk4 V c 1 t) (iblk4 V c 2 t) (iblk4 V c 3 t) (accQ4 V c n) := by
  have e : pt4 (n + 1) = t := by rw [← h]; exact pt4_val t
  rw [accQ4, e]

/-! ## The pipeline's proof data -/

/-- The two scratch accumulators before point `n`: at anything before the first point (the body resets them there),
    then at the running sums after the point before. -/
def scr4 (c : Dev nD) : ℕ → sProp 𝕄
  | 0 => iprop((∃ d, owns (c : Thread nD τ) (Memref.whole cc4_scratch0 : Memref sig .tc .vmem S1x128 .f32) fullShare d) ∗ (∃ d, owns (c : Thread nD τ) (Memref.whole cc4_scratch1 : Memref sig .tc .vmem S1x128 .f32) fullShare d))
  | n + 1 => iprop(owns (c : Thread nD τ) (Memref.whole cc4_scratch0 : Memref sig .tc .vmem S1x128 .f32) fullShare (accS4 V c n) ∗ owns (c : Thread nD τ) (Memref.whole cc4_scratch1 : Memref sig .tc .vmem S1x128 .f32) fullShare (accQ4 V c n))

theorem scr4_zero (c : Dev nD) : scr4 V c 0 = iprop((∃ d, owns (c : Thread nD τ) (Memref.whole cc4_scratch0 : Memref sig .tc .vmem S1x128 .f32) fullShare d) ∗ (∃ d, owns (c : Thread nD τ) (Memref.whole cc4_scratch1 : Memref sig .tc .vmem S1x128 .f32) fullShare d)) := rfl
theorem scr4_succ (c : Dev nD) (n : ℕ) : scr4 V c (n + 1) = iprop(owns (c : Thread nD τ) (Memref.whole cc4_scratch0 : Memref sig .tc .vmem S1x128 .f32) fullShare (accS4 V c n) ∗ owns (c : Thread nD τ) (Memref.whole cc4_scratch1 : Memref sig .tc .vmem S1x128 .f32) fullShare (accQ4 V c n)) := rfl

/-- The invariant between points: the generator register at some state, every scoped buffer that is neither a staging
    buffer nor one of the two accumulators at some contents, and the two accumulators. -/
def Φ4 (c : Dev nD) (t : Fin (cfg4.N + 1)) : sProp 𝕄 :=
  iprop((∃ r, prngReg c r)
    ∗ Pipeline.scopedRestBut (Ix := Unit) (Name := ℕ) (U := UR sig nD τ) (Lvl := ℕ) (Val := Elt F) spec4 c [cc4_scratch0, cc4_scratch1]
    ∗ scr4 V c t.val)

/-- The proof data of the pipeline on core `c`: the arrays as the region finds them; after the body at point `t` each
    input's buffer at its block, the first output's at the layer's tile, the two statistics outputs' at the running sums. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => hblk4 V c t
    | ⟨5, _⟩ => accS4 V c t.val
    | ⟨6, _⟩ => accQ4 V c t.val
  Φ t := Φ4 V c t
  q _ := fullShare
  owed _ := 0

theorem A_eq4 (c : Dev nD) (w : Fin cfg4.W) : (dat4 V c).A w = V c (Pipeline.arrRef spec4 w) := by
  dsimp only [dat4]
theorem Φ_eq4 (c : Dev nD) (t : Fin (cfg4.N + 1)) : (dat4 V c).Φ t = Φ4 V c t := by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = hblk4 V c t := by dsimp only [dat4]
theorem after4_5 (c : Dev nD) (t : Fin cfg4.N) : (dat4 V c).after 5 t = accS4 V c t.val := by dsimp only [dat4]
theorem after4_6 (c : Dev nD) (t : Fin cfg4.N) : (dat4 V c).after 6 t = accQ4 V c t.val := by dsimp only [dat4]

/-- Each input's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The reset is taken at the first point only. -/
theorem hcond4_zero (t : Fin cfg4.N) (h : t.val = 0) : cond4 (grid4.coords t) := (hcond4 t).mpr (by rw [h])
theorem hcond4_succ (t : Fin cfg4.N) (n : ℕ) (h : t.val = n + 1) : ¬cond4 (grid4.coords t) := fun hc => by
  have h1 := (hcond4 t).mp hc; have h2 := lt_of_lt_of_eq t.isLt N4_eq; omega

set_option maxHeartbeats 1000000 in
/-- The body at any point: the inputs' memrefs hold their blocks, the accumulators what the invariant says; at the first
    point the reset is taken, at a later point the accumulators carry the sums of the points before. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    after4_0, after4_1, after4_2, after4_3, after4_4, after4_5, after4_6, Φ_eq4, Φ_eq4]
  unfold Φ4 hblk4
  rw [show (t.castSucc : Fin (cfg4.N + 1)).val = t.val from rfl, show (t.succ : Fin (cfg4.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr4_zero, scr4_succ, accS4_zero V c t h0, accQ4_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel4_A c Set.univ (grid4.coords t) _ _ _ _ _ _ _ _ _ _ _ _ _ _ _ _ _ _ (hcond4_zero t h0)
      (iblk4 V c 0 t) (iblk4 V c 1 t) (iblk4 V c 2 t) (iblk4 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr4_succ, scr4_succ, accS4_succ V c t n hn, accQ4_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel4_B c Set.univ (grid4.coords t) _ _ _ _ _ _ _ _ _ _ _ _ _ _ _ _ _ _ (hcond4_succ t n hn)
      (iblk4 V c 0 t) (iblk4 V c 1 t) (iblk4 V c 2 t) (iblk4 V c 3 t) (accS4 V c n) (accQ4 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant's two ends -/

/-- The accumulators, whatever they hold, are two scoped buffers at some contents; -/
theorem scr4_any (c : Dev nD) (n : ℕ) :
    scr4 V c n ⊢ iprop((∃ f : Buf (Elt F) ((c : Thread nD τ).loc cc4_scratch0), ((c : Thread nD τ).loc cc4_scratch0) ↦{fullShare} f) ∗ (∃ f : Buf (Elt F) ((c : Thread nD τ).loc cc4_scratch1), ((c : Thread nD τ).loc cc4_scratch1) ↦{fullShare} f)) := by
  cases n with
  | zero =>
    rw [scr4_zero]
    iintro ⟨⟨%d8, H8⟩, ⟨%d9, H9⟩⟩
    isplitl [H8]
    · iexists d8; iapply (Entails.of_eq (owns_whole (c : Thread nD τ) cc4_scratch0 fullShare d8)) $$ H8
    · iexists d9; iapply (Entails.of_eq (owns_whole (c : Thread nD τ) cc4_scratch1 fullShare d9)) $$ H9
  | succ n =>
    rw [scr4_succ]
    iintro ⟨H8, H9⟩
    isplitl [H8]
    · iexists (accS4 V c n); iapply (Entails.of_eq (owns_whole (c : Thread nD τ) cc4_scratch0 fullShare (accS4 V c n))) $$ H8
    · iexists (accQ4 V c n); iapply (Entails.of_eq (owns_whole (c : Thread nD τ) cc4_scratch1 fullShare (accQ4 V c n))) $$ H9

/-- and before the first point any contents will do. -/
theorem scr4_intro (c : Dev nD) :
    iprop((∃ f : Buf (Elt F) ((c : Thread nD τ).loc cc4_scratch0), ((c : Thread nD τ).loc cc4_scratch0) ↦{fullShare} f) ∗ (∃ f : Buf (Elt F) ((c : Thread nD τ).loc cc4_scratch1), ((c : Thread nD τ).loc cc4_scratch1) ↦{fullShare} f)) ⊢ scr4 V c 0 := by
  rw [scr4_zero]
  iintro ⟨⟨%f8, H8⟩, ⟨%f9, H9⟩⟩
  isplitl [H8]
  · iexists f8; iapply (Entails.of_eq (owns_whole (c : Thread nD τ) cc4_scratch0 fullShare f8).symm) $$ H8
  · iexists f9; iapply (Entails.of_eq (owns_whole (c : Thread nD τ) cc4_scratch1 fullShare f9).symm) $$ H9

/-- The invariant at the first point, from the generator register, the tables (unused) and the scoped rest. -/
theorem hin4 (c : Dev nD) (T : (pcfgs (F := F) 4).pre.Contents (Elt F)) :
    iprop((∃ r, prngReg c r) ∗ Pipeline.prefHeld (pcfgs (F := F) 4).pre c (fun _ => fullShare) T ∗ Pipeline.scopedRest spec4 c)
      ⊢ (dat4 V c).Φ 0 := by
  rw [Φ_eq4, scopedRest4_split]; unfold Φ4
  iintro ⟨Hr, -, Hs, Hrest⟩
  isplitl [Hr]; · iexact Hr
  isplitl [Hrest]; · iexact Hrest
  iapply (scr4_intro V c) $$ Hs

/-- The invariant at the last point gives them back. -/
theorem hout4 (c : Dev nD) :
    (dat4 V c).Φ (Fin.last _) ⊢ iprop((∃ r, prngReg c r) ∗ Pipeline.ownSems0 (fun k : PEmpty => k.elim) c ∗ Pipeline.scopedRest spec4 c) := by
  rw [Φ_eq4, Pipeline.ownSems0_none, scopedRest4_split]; unfold Φ4
  iintro ⟨Hr, Hrest, Hs⟩
  isplitl [Hr]; · iexact Hr
  isplitr; · iempintro
  isplitl [Hs]
  · iapply (scr4_any V c _) $$ Hs
  iexact Hrest

end Region

end Cert.KernelIdeal.Hand

end
-- ==== Proof.Bn5.lean ====
/- The frame package of region 5: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry valuation's and whose body leaves the block in place: at a point where the window
    is not fetched its block index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for any proof
    data whose array is the entry valuation's and whose body leaves the block in place: at a point where the window
    is not fetched its block index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for any proof
    data whose array is the entry valuation's and whose body leaves the block in place: at a point where the window
    is not fetched its block index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for any proof
    data whose array is the entry valuation's and whose body leaves the block in place: at a point where the window
    is not fetched its block index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for any proof
    data whose array is the entry valuation's and whose body leaves the block in place: at a point where the window
    is not fetched its block index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 5's staging buffer after the body, from the input windows' blocks: its one store as a piece. -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨r5_0, k5_pay1 (View.ld x0 r5_0) (View.ld x1 r5_1) (View.ld x2 r5_1) (View.ld x3 r5_1) (View.ld x4 r5_1)⟩]

/-- The store tiles the buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-- The zero offsets, as a function. -/
theorem zeros5 : (![0, 0] : Fin 2 → Nat) = fun _ => 0 := funext fun a => by fin_cases a <;> rfl

/-- Every input is loaded whole and the store is whole: the output's buffer holds the payload of the inputs' contents. -/
theorem out5_5_eq (x0 : Vec F S5000x128 .f32) (x1 : Vec F S1x128 .f32) (x2 : Vec F S1x128 .f32) (x3 : Vec F S1x128 .f32) (x4 : Vec F S1x128 .f32) :
    out5_5 x0 x1 x2 x3 x4 = k5_pay1 x0 x1 x2 x3 x4 := by
  unfold out5_5
  rw [View.canon_unit_zero (S := S5000x128) zeros5 inb_S5000x128_S5000x128_0_0,
    View.ld_unit_zero (S := S5000x128) zeros5 inb_S5000x128_S5000x128_0_0 x0,
    View.ld_unit_zero (S := S1x128) zeros5 inb_S1x128_S1x128_0_0 x1,
    View.ld_unit_zero (S := S1x128) zeros5 inb_S1x128_S1x128_0_0 x2,
    View.ld_unit_zero (S := S1x128) zeros5 inb_S1x128_S1x128_0_0 x3,
    View.ld_unit_zero (S := S1x128) zeros5 inb_S1x128_S1x128_0_0 x4]

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the region's pipeline on core `c`: the arrays as the region finds them (`V`); after the body at
    point `t` each input's buffer at its block and the output's at `out5_5` of the input blocks; the invariant: the
    scoped rest and the pseudo-random-number register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.Stats6.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.KernelIdeal.Hand

open Cert.KernelIdeal Cert.KernelIdeal.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond6 (i : grid6.Coords) : Prop := (Scalar.cmpi .ne (Scalar.extui (Scalar.cmpi .eq (BitVec.ofNat 32 (i 0).val) 0#32)) 0#32) = 1#1
/-- It holds at the first point only: decided over the grid. -/
theorem hcond6 : ∀ t : Fin cfg6.N, cond6 (grid6.coords t) ↔ t.val % 10 = 0 :=
  (by decide +kernel : ∀ t : Fin grid6.N, cond6 (grid6.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel6_B (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : ¬cond6 i)
    (x1 x2 : Vec F S5000x128 .f32) (x3 : Vec F S128x64 .f32) (x4 : Vec F S1x64 .f32) (a8 a9 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k6_pay3 x1 x2 x3 x4)
            ∗ owns (c : Thread nD τ) arg6 fullShare (k6_pay4 x1 x2 x3 x4 a8) ∗ owns (c : Thread nD τ) arg7 fullShare (k6_pay5 x1 x2 x3 x4 a9)
            ∗ owns (c : Thread nD τ) arg8 fullShare (k6_pay4 x1 x2 x3 x4 a8) ∗ owns (c : Thread nD τ) arg9 fullShare (k6_pay5 x1 x2 x3 x4 a9)) -∗ K ⟨⟩))
      ⊢ wp frame (wpE (defs₀ (F := F)) Variants.none c none) E
          (cc6__linear_stats_kernel i arg1 harg1 arg2 harg2 arg3 harg3 arg4 harg4 arg5 harg5 arg6 harg6 arg7 harg7 arg8 harg8 arg9 harg9) K := by
  simp only [cc6__linear_stats_kernel_eq_skeleton]; unfold cc6__linear_stats_kernel_skel
  simp only [k6_part1_eq_skeleton]; unfold k6_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

set_option maxHeartbeats 1000000 in
/-- The body at the first point (the reset taken): the accumulators, at anything, are zeroed first. -/
theorem sound_kernel6_A (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : cond6 i)
    (x1 x2 : Vec F S5000x128 .f32) (x3 : Vec F S128x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k6_pay3 x1 x2 x3 x4)
            ∗ owns (c : Thread nD τ) arg6 fullShare (k6_pay4 x1 x2 x3 x4 (k6_pay1 (F := F))) ∗ owns (c : Thread nD τ) arg7 fullShare (k6_pay5 x1 x2 x3 x4 (k6_pay2 (F := F)))
            ∗ owns (c : Thread nD τ) arg8 fullShare (k6_pay4 x1 x2 x3 x4 (k6_pay1 (F := F))) ∗ owns (c : Thread nD τ) arg9 fullShare (k6_pay5 x1 x2 x3 x4 (k6_pay2 (F := F)))) -∗ K ⟨⟩))
      ⊢ wp frame (wpE (defs₀ (F := F)) Variants.none c none) E
          (cc6__linear_stats_kernel i arg1 harg1 arg2 harg2 arg3 harg3 arg4 harg4 arg5 harg5 arg6 harg6 arg7 harg7 arg8 harg8 arg9 harg9) K := by
  simp only [cc6__linear_stats_kernel_eq_skeleton]; unfold cc6__linear_stats_kernel_skel
  simp only [k6_part1_eq_skeleton]; unfold k6_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The linear layer's tile at point `t`: `(x + agg) W + b` on the point's rows. -/
def hblk6 (c : Dev nD) (t : Fin cfg6.N) : FVec F S5000x64 .f32 :=
  k6_pay3 (iblk6 V c 0 t) (iblk6 V c 1 t) (iblk6 V c 2 t) (iblk6 V c 3 t)

theorem N6_eq : cfg6.N = 10 := N_6

/-- The point numbered `n` (modulo the grid's ten points, so that the recursions below need no side condition). -/
def pt6 (n : ℕ) : Fin cfg6.N := ⟨n % 10, by rw [N6_eq]; exact Nat.mod_lt _ (by decide)⟩

theorem pt6_val (t : Fin cfg6.N) : pt6 t.val = t :=
  Fin.ext (Nat.mod_eq_of_lt (lt_of_lt_of_eq t.isLt N6_eq))

/-- The column sums of the tiles of points `0..n`, accumulated in the grid's order from zero. -/
def accS6 (c : Dev nD) : ℕ → FVec F S1x64 .f32
  | 0 => k6_pay4 (iblk6 V c 0 (pt6 0)) (iblk6 V c 1 (pt6 0)) (iblk6 V c 2 (pt6 0)) (iblk6 V c 3 (pt6 0)) (k6_pay1 (F := F))
  | n + 1 => k6_pay4 (iblk6 V c 0 (pt6 (n + 1))) (iblk6 V c 1 (pt6 (n + 1))) (iblk6 V c 2 (pt6 (n + 1))) (iblk6 V c 3 (pt6 (n + 1))) (accS6 c n)

/-- The column sums of the squared tiles of points `0..n`, accumulated in the grid's order from zero. -/
def accQ6 (c : Dev nD) : ℕ → FVec F S1x64 .f32
  | 0 => k6_pay5 (iblk6 V c 0 (pt6 0)) (iblk6 V c 1 (pt6 0)) (iblk6 V c 2 (pt6 0)) (iblk6 V c 3 (pt6 0)) (k6_pay2 (F := F))
  | n + 1 => k6_pay5 (iblk6 V c 0 (pt6 (n + 1))) (iblk6 V c 1 (pt6 (n + 1))) (iblk6 V c 2 (pt6 (n + 1))) (iblk6 V c 3 (pt6 (n + 1))) (accQ6 c n)

theorem accS6_zero (c : Dev nD) (t : Fin cfg6.N) (h : t.val = 0) :
    accS6 V c 0 = k6_pay4 (iblk6 V c 0 t) (iblk6 V c 1 t) (iblk6 V c 2 t) (iblk6 V c 3 t) (k6_pay1 (F := F)) := by
  have e : pt6 0 = t := by rw [← h]; exact pt6_val t
  rw [accS6, e]
theorem accS6_succ (c : Dev nD) (t : Fin cfg6.N) (n : ℕ) (h : t.val = n + 1) :
    accS6 V c (n + 1) = k6_pay4 (iblk6 V c 0 t) (iblk6 V c 1 t) (iblk6 V c 2 t) (iblk6 V c 3 t) (accS6 V c n) := by
  have e : pt6 (n + 1) = t := by rw [← h]; exact pt6_val t
  rw [accS6, e]
theorem accQ6_zero (c : Dev nD) (t : Fin cfg6.N) (h : t.val = 0) :
    accQ6 V c 0 = k6_pay5 (iblk6 V c 0 t) (iblk6 V c 1 t) (iblk6 V c 2 t) (iblk6 V c 3 t) (k6_pay2 (F := F)) := by
  have e : pt6 0 = t := by rw [← h]; exact pt6_val t
  rw [accQ6, e]
theorem accQ6_succ (c : Dev nD) (t : Fin cfg6.N) (n : ℕ) (h : t.val = n + 1) :
    accQ6 V c (n + 1) = k6_pay5 (iblk6 V c 0 t) (iblk6 V c 1 t) (iblk6 V c 2 t) (iblk6 V c 3 t) (accQ6 V c n) := by
  have e : pt6 (n + 1) = t := by rw [← h]; exact pt6_val t
  rw [accQ6, e]

/-! ## The pipeline's proof data -/

/-- The two scratch accumulators before point `n`: at anything before the first point (the body resets them there),
    then at the running sums after the point before. -/
def scr6 (c : Dev nD) : ℕ → sProp 𝕄
  | 0 => iprop((∃ d, owns (c : Thread nD τ) (Memref.whole cc6_scratch0 : Memref sig .tc .vmem S1x64 .f32) fullShare d) ∗ (∃ d, owns (c : Thread nD τ) (Memref.whole cc6_scratch1 : Memref sig .tc .vmem S1x64 .f32) fullShare d))
  | n + 1 => iprop(owns (c : Thread nD τ) (Memref.whole cc6_scratch0 : Memref sig .tc .vmem S1x64 .f32) fullShare (accS6 V c n) ∗ owns (c : Thread nD τ) (Memref.whole cc6_scratch1 : Memref sig .tc .vmem S1x64 .f32) fullShare (accQ6 V c n))

theorem scr6_zero (c : Dev nD) : scr6 V c 0 = iprop((∃ d, owns (c : Thread nD τ) (Memref.whole cc6_scratch0 : Memref sig .tc .vmem S1x64 .f32) fullShare d) ∗ (∃ d, owns (c : Thread nD τ) (Memref.whole cc6_scratch1 : Memref sig .tc .vmem S1x64 .f32) fullShare d)) := rfl
theorem scr6_succ (c : Dev nD) (n : ℕ) : scr6 V c (n + 1) = iprop(owns (c : Thread nD τ) (Memref.whole cc6_scratch0 : Memref sig .tc .vmem S1x64 .f32) fullShare (accS6 V c n) ∗ owns (c : Thread nD τ) (Memref.whole cc6_scratch1 : Memref sig .tc .vmem S1x64 .f32) fullShare (accQ6 V c n)) := rfl

/-- The invariant between points: the generator register at some state, every scoped buffer that is neither a staging
    buffer nor one of the two accumulators at some contents, and the two accumulators. -/
def Φ6 (c : Dev nD) (t : Fin (cfg6.N + 1)) : sProp 𝕄 :=
  iprop((∃ r, prngReg c r)
    ∗ Pipeline.scopedRestBut (Ix := Unit) (Name := ℕ) (U := UR sig nD τ) (Lvl := ℕ) (Val := Elt F) spec6 c [cc6_scratch0, cc6_scratch1]
    ∗ scr6 V c t.val)

/-- The proof data of the pipeline on core `c`: the arrays as the region finds them; after the body at point `t` each
    input's buffer at its block, the first output's at the layer's tile, the two statistics outputs' at the running sums. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => hblk6 V c t
    | ⟨5, _⟩ => accS6 V c t.val
    | ⟨6, _⟩ => accQ6 V c t.val
  Φ t := Φ6 V c t
  q _ := fullShare
  owed _ := 0

theorem A_eq6 (c : Dev nD) (w : Fin cfg6.W) : (dat6 V c).A w = V c (Pipeline.arrRef spec6 w) := by
  dsimp only [dat6]
theorem Φ_eq6 (c : Dev nD) (t : Fin (cfg6.N + 1)) : (dat6 V c).Φ t = Φ6 V c t := by dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = hblk6 V c t := by dsimp only [dat6]
theorem after6_5 (c : Dev nD) (t : Fin cfg6.N) : (dat6 V c).after 5 t = accS6 V c t.val := by dsimp only [dat6]
theorem after6_6 (c : Dev nD) (t : Fin cfg6.N) : (dat6 V c).after 6 t = accQ6 V c t.val := by dsimp only [dat6]

/-- Each input's current staging buffer holds its block at every point, fetched there or not. -/
theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The reset is taken at the first point only. -/
theorem hcond6_zero (t : Fin cfg6.N) (h : t.val = 0) : cond6 (grid6.coords t) := (hcond6 t).mpr (by rw [h])
theorem hcond6_succ (t : Fin cfg6.N) (n : ℕ) (h : t.val = n + 1) : ¬cond6 (grid6.coords t) := fun hc => by
  have h1 := (hcond6 t).mp hc; have h2 := lt_of_lt_of_eq t.isLt N6_eq; omega

set_option maxHeartbeats 1000000 in
/-- The body at any point: the inputs' memrefs hold their blocks, the accumulators what the invariant says; at the first
    point the reset is taken, at a later point the accumulators carry the sums of the points before. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl,
    after6_0, after6_1, after6_2, after6_3, after6_4, after6_5, after6_6, Φ_eq6, Φ_eq6]
  unfold Φ6 hblk6
  rw [show (t.castSucc : Fin (cfg6.N + 1)).val = t.val from rfl, show (t.succ : Fin (cfg6.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr6_zero, scr6_succ, accS6_zero V c t h0, accQ6_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel6_A c Set.univ (grid6.coords t) _ _ _ _ _ _ _ _ _ _ _ _ _ _ _ _ _ _ (hcond6_zero t h0)
      (iblk6 V c 0 t) (iblk6 V c 1 t) (iblk6 V c 2 t) (iblk6 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr6_succ, scr6_succ, accS6_succ V c t n hn, accQ6_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel6_B c Set.univ (grid6.coords t) _ _ _ _ _ _ _ _ _ _ _ _ _ _ _ _ _ _ (hcond6_succ t n hn)
      (iblk6 V c 0 t) (iblk6 V c 1 t) (iblk6 V c 2 t) (iblk6 V c 3 t) (accS6 V c n) (accQ6 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant's two ends -/

/-- The accumulators, whatever they hold, are two scoped buffers at some contents; -/
theorem scr6_any (c : Dev nD) (n : ℕ) :
    scr6 V c n ⊢ iprop((∃ f : Buf (Elt F) ((c : Thread nD τ).loc cc6_scratch0), ((c : Thread nD τ).loc cc6_scratch0) ↦{fullShare} f) ∗ (∃ f : Buf (Elt F) ((c : Thread nD τ).loc cc6_scratch1), ((c : Thread nD τ).loc cc6_scratch1) ↦{fullShare} f)) := by
  cases n with
  | zero =>
    rw [scr6_zero]
    iintro ⟨⟨%d8, H8⟩, ⟨%d9, H9⟩⟩
    isplitl [H8]
    · iexists d8; iapply (Entails.of_eq (owns_whole (c : Thread nD τ) cc6_scratch0 fullShare d8)) $$ H8
    · iexists d9; iapply (Entails.of_eq (owns_whole (c : Thread nD τ) cc6_scratch1 fullShare d9)) $$ H9
  | succ n =>
    rw [scr6_succ]
    iintro ⟨H8, H9⟩
    isplitl [H8]
    · iexists (accS6 V c n); iapply (Entails.of_eq (owns_whole (c : Thread nD τ) cc6_scratch0 fullShare (accS6 V c n))) $$ H8
    · iexists (accQ6 V c n); iapply (Entails.of_eq (owns_whole (c : Thread nD τ) cc6_scratch1 fullShare (accQ6 V c n))) $$ H9

/-- and before the first point any contents will do. -/
theorem scr6_intro (c : Dev nD) :
    iprop((∃ f : Buf (Elt F) ((c : Thread nD τ).loc cc6_scratch0), ((c : Thread nD τ).loc cc6_scratch0) ↦{fullShare} f) ∗ (∃ f : Buf (Elt F) ((c : Thread nD τ).loc cc6_scratch1), ((c : Thread nD τ).loc cc6_scratch1) ↦{fullShare} f)) ⊢ scr6 V c 0 := by
  rw [scr6_zero]
  iintro ⟨⟨%f8, H8⟩, ⟨%f9, H9⟩⟩
  isplitl [H8]
  · iexists f8; iapply (Entails.of_eq (owns_whole (c : Thread nD τ) cc6_scratch0 fullShare f8).symm) $$ H8
  · iexists f9; iapply (Entails.of_eq (owns_whole (c : Thread nD τ) cc6_scratch1 fullShare f9).symm) $$ H9

/-- The invariant at the first point, from the generator register, the tables (unused) and the scoped rest. -/
theorem hin6 (c : Dev nD) (T : (pcfgs (F := F) 6).pre.Contents (Elt F)) :
    iprop((∃ r, prngReg c r) ∗ Pipeline.prefHeld (pcfgs (F := F) 6).pre c (fun _ => fullShare) T ∗ Pipeline.scopedRest spec6 c)
      ⊢ (dat6 V c).Φ 0 := by
  rw [Φ_eq6, scopedRest6_split]; unfold Φ6
  iintro ⟨Hr, -, Hs, Hrest⟩
  isplitl [Hr]; · iexact Hr
  isplitl [Hrest]; · iexact Hrest
  iapply (scr6_intro V c) $$ Hs

/-- The invariant at the last point gives them back. -/
theorem hout6 (c : Dev nD) :
    (dat6 V c).Φ (Fin.last _) ⊢ iprop((∃ r, prngReg c r) ∗ Pipeline.ownSems0 (fun k : PEmpty => k.elim) c ∗ Pipeline.scopedRest spec6 c) := by
  rw [Φ_eq6, Pipeline.ownSems0_none, scopedRest6_split]; unfold Φ6
  iintro ⟨Hr, Hrest, Hs⟩
  isplitl [Hr]; · iexact Hr
  isplitr; · iempintro
  isplitl [Hs]
  · iapply (scr6_any V c _) $$ Hs
  iexact Hrest

end Region

end Cert.KernelIdeal.Hand

end
-- ==== Proof.Bn7.lean ====
/- The frame package of region 7: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is the entry valuation's and whose body leaves the block in place: at a point where the window
    is not fetched its block index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not, for any proof
    data whose array is the entry valuation's and whose body leaves the block in place: at a point where the window
    is not fetched its block index has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not, for any proof
    data whose array is the entry valuation's and whose body leaves the block in place: at a point where the window
    is not fetched its block index has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, fetched there or not, for any proof
    data whose array is the entry valuation's and whose body leaves the block in place: at a point where the window
    is not fetched its block index has not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, fetched there or not, for any proof
    data whose array is the entry valuation's and whose body leaves the block in place: at a point where the window
    is not fetched its block index has not moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x64 := Rect.unit (s := S5000x64) ![0, 0] S5000x64.size inb_S5000x64_S5000x64_0_0
abbrev r7_1 : Rect S1x64 := Rect.unit (s := S1x64) ![0, 0] S1x64.size inb_S1x64_S1x64_0_0

/-! ## What the body leaves in the output window's buffer -/

/-- Window 5's staging buffer after the body, from the input windows' blocks: its one store as a piece. -/
def out7_5 (x0 : Vec F S5000x64 .f32) (x1 : Vec F S1x64 .f32) (x2 : Vec F S1x64 .f32) (x3 : Vec F S1x64 .f32) (x4 : Vec F S1x64 .f32) : Vec F S5000x64 .f32 :=
  View.canon [⟨r7_0, k7_pay1 (View.ld x0 r7_0) (View.ld x1 r7_1) (View.ld x2 r7_1) (View.ld x3 r7_1) (View.ld x4 r7_1)⟩]

/-- The store tiles the buffer, so it covers it. -/
theorem cover7_5 (p0 : Vec F S5000x64 .f32) (y : S5000x64.Idx) :
    ∃ pc ∈ ([⟨r7_0, p0⟩] : List (View.Piece (Elt F) S5000x64 .f32)), y ∈ pc.1.set :=
  View.cover_of_tiled [⟨r7_0, p0⟩] S5000x64.size (by rfl) y

/-- The zero offsets, as a function. -/
theorem zeros7 : (![0, 0] : Fin 2 → Nat) = fun _ => 0 := funext fun a => by fin_cases a <;> rfl

/-- Every input is loaded whole and the store is whole: the output's buffer holds the payload of the inputs' contents. -/
theorem out7_5_eq (x0 : Vec F S5000x64 .f32) (x1 : Vec F S1x64 .f32) (x2 : Vec F S1x64 .f32) (x3 : Vec F S1x64 .f32) (x4 : Vec F S1x64 .f32) :
    out7_5 x0 x1 x2 x3 x4 = k7_pay1 x0 x1 x2 x3 x4 := by
  unfold out7_5
  rw [View.canon_unit_zero (S := S5000x64) zeros7 inb_S5000x64_S5000x64_0_0,
    View.ld_unit_zero (S := S5000x64) zeros7 inb_S5000x64_S5000x64_0_0 x0,
    View.ld_unit_zero (S := S1x64) zeros7 inb_S1x64_S1x64_0_0 x1,
    View.ld_unit_zero (S := S1x64) zeros7 inb_S1x64_S1x64_0_0 x2,
    View.ld_unit_zero (S := S1x64) zeros7 inb_S1x64_S1x64_0_0 x3,
    View.ld_unit_zero (S := S1x64) zeros7 inb_S1x64_S1x64_0_0 x4]

/-! ## The body's triple -/

set_option maxHeartbeats 1000000 in
/-- The kernel body on whole staging memrefs, the inputs' at read contents `xW` and the output's at anything, runs to
    the continuation holding the inputs' as they were and the output's at `out7_5` of the inputs'. -/
theorem sound_kernel7 (c : Dev nD) (E : Set ℕ) (i : grid7.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__bn_relu_kernel i arg1 harg1 arg2 harg2 arg3 harg3 arg4 harg4 arg5 harg5 arg6 harg6) K := by
  simp only [cc7__bn_relu_kernel_eq_skeleton]; unfold cc7__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of the region's pipeline on core `c`: the arrays as the region finds them (`V`); after the body at
    point `t` each input's buffer at its block and the output's at `out7_5` of the input blocks; the invariant: the
    scoped rest and the pseudo-random-number register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the body's triple applies; the invariant and
    the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.Stats8.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.KernelIdeal.Hand

open Cert.KernelIdeal Cert.KernelIdeal.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond8 (i : grid8.Coords) : Prop := (Scalar.cmpi .ne (Scalar.extui (Scalar.cmpi .eq (BitVec.ofNat 32 (i 0).val) 0#32)) 0#32) = 1#1
/-- It holds at the first point only: decided over the grid. -/
theorem hcond8 : ∀ t : Fin cfg8.N, cond8 (grid8.coords t) ↔ t.val % 10 = 0 :=
  (by decide +kernel : ∀ t : Fin grid8.N, cond8 (grid8.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel8_B (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : ¬cond8 i)
    (x1 x2 : Vec F S5000x128 .f32) (x3 : Vec F S128x64 .f32) (x4 : Vec F S1x64 .f32) (a8 a9 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k8_pay3 x1 x2 x3 x4)
            ∗ owns (c : Thread nD τ) arg6 fullShare (k8_pay4 x1 x2 x3 x4 a8) ∗ owns (c : Thread nD τ) arg7 fullShare (k8_pay5 x1 x2 x3 x4 a9)
            ∗ owns (c : Thread nD τ) arg8 fullShare (k8_pay4 x1 x2 x3 x4 a8) ∗ owns (c : Thread nD τ) arg9 fullShare (k8_pay5 x1 x2 x3 x4 a9)) -∗ K ⟨⟩))
      ⊢ wp frame (wpE (defs₀ (F := F)) Variants.none c none) E
          (cc8__linear_stats_kernel i arg1 harg1 arg2 harg2 arg3 harg3 arg4 harg4 arg5 harg5 arg6 harg6 arg7 harg7 arg8 harg8 arg9 harg9) K := by
  simp only [cc8__linear_stats_kernel_eq_skeleton]; unfold cc8__linear_stats_kernel_skel
  simp only [k8_part1_eq_skeleton]; unfold k8_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

set_option maxHeartbeats 1000000 in
/-- The body at the first point (the reset taken): the accumulators, at anything, are zeroed first. -/
theorem sound_kernel8_A (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : cond8 i)
    (x1 x2 : Vec F S5000x128 .f32) (x3 : Vec F S128x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k8_pay3 x1 x2 x3 x4)
            ∗ owns (c : Thread nD τ) arg6 fullShare (k8_pay4 x1 x2 x3 x4 (k8_pay1 (F := F))) ∗ owns (c : Thread nD τ) arg7 fullShare (k8_pay5 x1 x2 x3 x4 (k8_pay2 (F := F)))
            ∗ owns (c : Thread nD τ) arg8 fullShare (k8_pay4 x1 x2 x3 x4 (k8_pay1 (F := F))) ∗ owns (c : Thread nD τ) arg9 fullShare (k8_pay5 x1 x2 x3 x4 (k8_pay2 (F := F)))) -∗ K ⟨⟩))
      ⊢ wp frame (wpE (defs₀ (F := F)) Variants.none c none) E
          (cc8__linear_stats_kernel i arg1 harg1 arg2 harg2 arg3 harg3 arg4 harg4 arg5 harg5 arg6 harg6 arg7 harg7 arg8 harg8 arg9 harg9) K := by
  simp only [cc8__linear_stats_kernel_eq_skeleton]; unfold cc8__linear_stats_kernel_skel
  simp only [k8_part1_eq_skeleton]; unfold k8_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The linear layer's tile at point `t`: `(x + agg) W + b` on the point's rows. -/
def hblk8 (c : Dev nD) (t : Fin cfg8.N) : FVec F S5000x64 .f32 :=
  k8_pay3 (iblk8 V c 0 t) (iblk8 V c 1 t) (iblk8 V c 2 t) (iblk8 V c 3 t)

theorem N8_eq : cfg8.N = 10 := N_8

/-- The point numbered `n` (modulo the grid's ten points, so that the recursions below need no side condition). -/
def pt8 (n : ℕ) : Fin cfg8.N := ⟨n % 10, by rw [N8_eq]; exact Nat.mod_lt _ (by decide)⟩

theorem pt8_val (t : Fin cfg8.N) : pt8 t.val = t :=
  Fin.ext (Nat.mod_eq_of_lt (lt_of_lt_of_eq t.isLt N8_eq))

/-- The column sums of the tiles of points `0..n`, accumulated in the grid's order from zero. -/
def accS8 (c : Dev nD) : ℕ → FVec F S1x64 .f32
  | 0 => k8_pay4 (iblk8 V c 0 (pt8 0)) (iblk8 V c 1 (pt8 0)) (iblk8 V c 2 (pt8 0)) (iblk8 V c 3 (pt8 0)) (k8_pay1 (F := F))
  | n + 1 => k8_pay4 (iblk8 V c 0 (pt8 (n + 1))) (iblk8 V c 1 (pt8 (n + 1))) (iblk8 V c 2 (pt8 (n + 1))) (iblk8 V c 3 (pt8 (n + 1))) (accS8 c n)

/-- The column sums of the squared tiles of points `0..n`, accumulated in the grid's order from zero. -/
def accQ8 (c : Dev nD) : ℕ → FVec F S1x64 .f32
  | 0 => k8_pay5 (iblk8 V c 0 (pt8 0)) (iblk8 V c 1 (pt8 0)) (iblk8 V c 2 (pt8 0)) (iblk8 V c 3 (pt8 0)) (k8_pay2 (F := F))
  | n + 1 => k8_pay5 (iblk8 V c 0 (pt8 (n + 1))) (iblk8 V c 1 (pt8 (n + 1))) (iblk8 V c 2 (pt8 (n + 1))) (iblk8 V c 3 (pt8 (n + 1))) (accQ8 c n)

theorem accS8_zero (c : Dev nD) (t : Fin cfg8.N) (h : t.val = 0) :
    accS8 V c 0 = k8_pay4 (iblk8 V c 0 t) (iblk8 V c 1 t) (iblk8 V c 2 t) (iblk8 V c 3 t) (k8_pay1 (F := F)) := by
  have e : pt8 0 = t := by rw [← h]; exact pt8_val t
  rw [accS8, e]
theorem accS8_succ (c : Dev nD) (t : Fin cfg8.N) (n : ℕ) (h : t.val = n + 1) :
    accS8 V c (n + 1) = k8_pay4 (iblk8 V c 0 t) (iblk8 V c 1 t) (iblk8 V c 2 t) (iblk8 V c 3 t) (accS8 V c n) := by
  have e : pt8 (n + 1) = t := by rw [← h]; exact pt8_val t
  rw [accS8, e]
theorem accQ8_zero (c : Dev nD) (t : Fin cfg8.N) (h : t.val = 0) :
    accQ8 V c 0 = k8_pay5 (iblk8 V c 0 t) (iblk8 V c 1 t) (iblk8 V c 2 t) (iblk8 V c 3 t) (k8_pay2 (F := F)) := by
  have e : pt8 0 = t := by rw [← h]; exact pt8_val t
  rw [accQ8, e]
theorem accQ8_succ (c : Dev nD) (t : Fin cfg8.N) (n : ℕ) (h : t.val = n + 1) :
    accQ8 V c (n + 1) = k8_pay5 (iblk8 V c 0 t) (iblk8 V c 1 t) (iblk8 V c 2 t) (iblk8 V c 3 t) (accQ8 V c n) := by
  have e : pt8 (n + 1) = t := by rw [← h]; exact pt8_val t
  rw [accQ8, e]

/-! ## The pipeline's proof data -/

/-- The two scratch accumulators before point `n`: at anything before the first point (the body resets them there),
    then at the running sums after the point before. -/
def scr8 (c : Dev nD) : ℕ → sProp 𝕄
  | 0 => iprop((∃ d, owns (c : Thread nD τ) (Memref.whole cc8_scratch0 : Memref sig .tc .vmem S1x64 .f32) fullShare d) ∗ (∃ d, owns (c : Thread nD τ) (Memref.whole cc8_scratch1 : Memref sig .tc .vmem S1x64 .f32) fullShare d))
  | n + 1 => iprop(owns (c : Thread nD τ) (Memref.whole cc8_scratch0 : Memref sig .tc .vmem S1x64 .f32) fullShare (accS8 V c n) ∗ owns (c : Thread nD τ) (Memref.whole cc8_scratch1 : Memref sig .tc .vmem S1x64 .f32) fullShare (accQ8 V c n))

theorem scr8_zero (c : Dev nD) : scr8 V c 0 = iprop((∃ d, owns (c : Thread nD τ) (Memref.whole cc8_scratch0 : Memref sig .tc .vmem S1x64 .f32) fullShare d) ∗ (∃ d, owns (c : Thread nD τ) (Memref.whole cc8_scratch1 : Memref sig .tc .vmem S1x64 .f32) fullShare d)) := rfl
theorem scr8_succ (c : Dev nD) (n : ℕ) : scr8 V c (n + 1) = iprop(owns (c : Thread nD τ) (Memref.whole cc8_scratch0 : Memref sig .tc .vmem S1x64 .f32) fullShare (accS8 V c n) ∗ owns (c : Thread nD τ) (Memref.whole cc8_scratch1 : Memref sig .tc .vmem S1x64 .f32) fullShare (accQ8 V c n)) := rfl

/-- The invariant between points: the generator register at some state, every scoped buffer that is neither a staging
    buffer nor one of the two accumulators at some contents, and the two accumulators. -/
def Φ8 (c : Dev nD) (t : Fin (cfg8.N + 1)) : sProp 𝕄 :=
  iprop((∃ r, prngReg c r)
    ∗ Pipeline.scopedRestBut (Ix := Unit) (Name := ℕ) (U := UR sig nD τ) (Lvl := ℕ) (Val := Elt F) spec8 c [cc8_scratch0, cc8_scratch1]
    ∗ scr8 V c t.val)

/-- The proof data of the pipeline on core `c`: the arrays as the region finds them; after the body at point `t` each
    input's buffer at its block, the first output's at the layer's tile, the two statistics outputs' at the running sums. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => hblk8 V c t
    | ⟨5, _⟩ => accS8 V c t.val
    | ⟨6, _⟩ => accQ8 V c t.val
  Φ t := Φ8 V c t
  q _ := fullShare
  owed _ := 0

theorem A_eq8 (c : Dev nD) (w : Fin cfg8.W) : (dat8 V c).A w = V c (Pipeline.arrRef spec8 w) := by
  dsimp only [dat8]
theorem Φ_eq8 (c : Dev nD) (t : Fin (cfg8.N + 1)) : (dat8 V c).Φ t = Φ8 V c t := by dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = hblk8 V c t := by dsimp only [dat8]
theorem after8_5 (c : Dev nD) (t : Fin cfg8.N) : (dat8 V c).after 5 t = accS8 V c t.val := by dsimp only [dat8]
theorem after8_6 (c : Dev nD) (t : Fin cfg8.N) : (dat8 V c).after 6 t = accQ8 V c t.val := by dsimp only [dat8]

/-- Each input's current staging buffer holds its block at every point, fetched there or not. -/
theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The reset is taken at the first point only. -/
theorem hcond8_zero (t : Fin cfg8.N) (h : t.val = 0) : cond8 (grid8.coords t) := (hcond8 t).mpr (by rw [h])
theorem hcond8_succ (t : Fin cfg8.N) (n : ℕ) (h : t.val = n + 1) : ¬cond8 (grid8.coords t) := fun hc => by
  have h1 := (hcond8 t).mp hc; have h2 := lt_of_lt_of_eq t.isLt N8_eq; omega

set_option maxHeartbeats 1000000 in
/-- The body at any point: the inputs' memrefs hold their blocks, the accumulators what the invariant says; at the first
    point the reset is taken, at a later point the accumulators carry the sums of the points before. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl,
    after8_0, after8_1, after8_2, after8_3, after8_4, after8_5, after8_6, Φ_eq8, Φ_eq8]
  unfold Φ8 hblk8
  rw [show (t.castSucc : Fin (cfg8.N + 1)).val = t.val from rfl, show (t.succ : Fin (cfg8.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr8_zero, scr8_succ, accS8_zero V c t h0, accQ8_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel8_A c Set.univ (grid8.coords t) _ _ _ _ _ _ _ _ _ _ _ _ _ _ _ _ _ _ (hcond8_zero t h0)
      (iblk8 V c 0 t) (iblk8 V c 1 t) (iblk8 V c 2 t) (iblk8 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr8_succ, scr8_succ, accS8_succ V c t n hn, accQ8_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel8_B c Set.univ (grid8.coords t) _ _ _ _ _ _ _ _ _ _ _ _ _ _ _ _ _ _ (hcond8_succ t n hn)
      (iblk8 V c 0 t) (iblk8 V c 1 t) (iblk8 V c 2 t) (iblk8 V c 3 t) (accS8 V c n) (accQ8 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant's two ends -/

/-- The accumulators, whatever they hold, are two scoped buffers at some contents; -/
theorem scr8_any (c : Dev nD) (n : ℕ) :
    scr8 V c n ⊢ iprop((∃ f : Buf (Elt F) ((c : Thread nD τ).loc cc8_scratch0), ((c : Thread nD τ).loc cc8_scratch0) ↦{fullShare} f) ∗ (∃ f : Buf (Elt F) ((c : Thread nD τ).loc cc8_scratch1), ((c : Thread nD τ).loc cc8_scratch1) ↦{fullShare} f)) := by
  cases n with
  | zero =>
    rw [scr8_zero]
    iintro ⟨⟨%d8, H8⟩, ⟨%d9, H9⟩⟩
    isplitl [H8]
    · iexists d8; iapply (Entails.of_eq (owns_whole (c : Thread nD τ) cc8_scratch0 fullShare d8)) $$ H8
    · iexists d9; iapply (Entails.of_eq (owns_whole (c : Thread nD τ) cc8_scratch1 fullShare d9)) $$ H9
  | succ n =>
    rw [scr8_succ]
    iintro ⟨H8, H9⟩
    isplitl [H8]
    · iexists (accS8 V c n); iapply (Entails.of_eq (owns_whole (c : Thread nD τ) cc8_scratch0 fullShare (accS8 V c n))) $$ H8
    · iexists (accQ8 V c n); iapply (Entails.of_eq (owns_whole (c : Thread nD τ) cc8_scratch1 fullShare (accQ8 V c n))) $$ H9

/-- and before the first point any contents will do. -/
theorem scr8_intro (c : Dev nD) :
    iprop((∃ f : Buf (Elt F) ((c : Thread nD τ).loc cc8_scratch0), ((c : Thread nD τ).loc cc8_scratch0) ↦{fullShare} f) ∗ (∃ f : Buf (Elt F) ((c : Thread nD τ).loc cc8_scratch1), ((c : Thread nD τ).loc cc8_scratch1) ↦{fullShare} f)) ⊢ scr8 V c 0 := by
  rw [scr8_zero]
  iintro ⟨⟨%f8, H8⟩, ⟨%f9, H9⟩⟩
  isplitl [H8]
  · iexists f8; iapply (Entails.of_eq (owns_whole (c : Thread nD τ) cc8_scratch0 fullShare f8).symm) $$ H8
  · iexists f9; iapply (Entails.of_eq (owns_whole (c : Thread nD τ) cc8_scratch1 fullShare f9).symm) $$ H9

/-- The invariant at the first point, from the generator register, the tables (unused) and the scoped rest. -/
theorem hin8 (c : Dev nD) (T : (pcfgs (F := F) 8).pre.Contents (Elt F)) :
    iprop((∃ r, prngReg c r) ∗ Pipeline.prefHeld (pcfgs (F := F) 8).pre c (fun _ => fullShare) T ∗ Pipeline.scopedRest spec8 c)
      ⊢ (dat8 V c).Φ 0 := by
  rw [Φ_eq8, scopedRest8_split]; unfold Φ8
  iintro ⟨Hr, -, Hs, Hrest⟩
  isplitl [Hr]; · iexact Hr
  isplitl [Hrest]; · iexact Hrest
  iapply (scr8_intro V c) $$ Hs

/-- The invariant at the last point gives them back. -/
theorem hout8 (c : Dev nD) :
    (dat8 V c).Φ (Fin.last _) ⊢ iprop((∃ r, prngReg c r) ∗ Pipeline.ownSems0 (fun k : PEmpty => k.elim) c ∗ Pipeline.scopedRest spec8 c) := by
  rw [Φ_eq8, Pipeline.ownSems0_none, scopedRest8_split]; unfold Φ8
  iintro ⟨Hr, Hrest, Hs⟩
  isplitl [Hr]; · iexact Hr
  isplitr; · iempintro
  isplitl [Hs]
  · iapply (scr8_any V c _) $$ Hs
  iexact Hrest

end Region

end Cert.KernelIdeal.Hand

end
-- ==== Proof.Bn9.lean ====
/- The frame package of region 9: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is the entry valuation's and whose body leaves the block in place: at a point where the window
    is not fetched its block index has not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its block at every point, fetched there or not, for any proof
    data whose array is the entry valuation's and whose body leaves the block in place: at a point where the window
    is not fetched its block index has not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its block at every point, fetched there or not, for any proof
    data whose array is the entry valuation's and whose body leaves the block in place: at a point where the window
    is not fetched its block index has not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3's current staging buffer holds its block at every point, fetched there or not, for any proof
    data whose array is the entry valuation's and whose body leaves the block in place: at a point where the window
    is not fetched its block index has not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4's current staging buffer holds its block at every point, fetched there or not, for any proof
    data whose array is the entry valuation's and whose body leaves the block in place: at a point where the window
    is not fetched its block index has not moved; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

abbrev r9_0 : Rect S5000x64 := Rect.unit (s := S5000x64) ![0, 0] S5000x64.size inb_S5000x64_S5000x64_0_0
abbrev r9_1 : Rect S1x64 := Rect.unit (s := S1x64) ![0, 0] S1x64.size inb_S1x64_S1x64_0_0

/-! ## What the body leaves in the output window's buffer -/

/-- Window 5's staging buffer after the body, from the input windows' blocks: its one store as a piece. -/
def out9_5 (x0 : Vec F S5000x64 .f32) (x1 : Vec F S1x64 .f32) (x2 : Vec F S1x64 .f32) (x3 : Vec F S1x64 .f32) (x4 : Vec F S1x64 .f32) : Vec F S5000x64 .f32 :=
  View.canon [⟨r9_0, k9_pay1 (View.ld x0 r9_0) (View.ld x1 r9_1) (View.ld x2 r9_1) (View.ld x3 r9_1) (View.ld x4 r9_1)⟩]

/-- The store tiles the buffer, so it covers it. -/
theorem cover9_5 (p0 : Vec F S5000x64 .f32) (y : S5000x64.Idx) :
    ∃ pc ∈ ([⟨r9_0, p0⟩] : List (View.Piece (Elt F) S5000x64 .f32)), y ∈ pc.1.set :=
  View.cover_of_tiled [⟨r9_0, p0⟩] S5000x64.size (by rfl) y

/-- The zero offsets, as a function. -/
theorem zeros9 : (![0, 0] : Fin 2 → Nat) = fun _ => 0 := funext fun a => by fin_cases a <;> rfl

/-- Every input is loaded whole and the store is whole: the output's buffer holds the payload of the inputs' contents. -/
theorem out9_5_eq (x0 : Vec F S5000x64 .f32) (x1 : Vec F S1x64 .f32) (x2 : Vec F S1x64 .f32) (x3 : Vec F S1x64 .f32) (x4 : Vec F S1x64 .f32) :
    out9_5 x0 x1 x2 x3 x4 = k9_pay1 x0 x1 x2 x3 x4 := by
  unfold out9_5
  rw [View.canon_unit_zero (S := S5000x64) zeros9 inb_S5000x64_S5000x64_0_0,
    View.ld_unit_zero (S := S5000x64) zeros9 inb_S5000x64_S5000x64_0_0 x0,
    View.ld_unit_zero (S := S1x64) zeros9 inb_S1x64_S1x64_0_0 x1,
    View.ld_unit_zero (S := S1x64) zeros9 inb_S1x64_S1x64_0_0 x2,
    View.ld_unit_zero (S := S1x64) zeros9 inb_S1x64_S1x64_0_0 x3,
    View.ld_unit_zero (S := S1x64) zeros9 inb_S1x64_S1x64_0_0 x4]

/-! ## The body's triple -/

set_option maxHeartbeats 1000000 in
/-- The kernel body on whole staging memrefs, the inputs' at read contents `xW` and the output's at anything, runs to
    the continuation holding the inputs' as they were and the output's at `out9_5` of the inputs'. -/
theorem sound_kernel9 (c : Dev nD) (E : Set ℕ) (i : grid9.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E (cc9__bn_relu_kernel i arg1 harg1 arg2 harg2 arg3 harg3 arg4 harg4 arg5 harg5 arg6 harg6) K := by
  simp only [cc9__bn_relu_kernel_eq_skeleton]; unfold cc9__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of the region's pipeline on core `c`: the arrays as the region finds them (`V`); after the body at
    point `t` each input's buffer at its block and the output's at `out9_5` of the input blocks; the invariant: the
    scoped rest and the pseudo-random-number register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.Stats10.lean ====
/-
  The frame package of the pipelined call that computes one graph layer's linear map with its batch statistics.

  At each of the grid's ten points the body forms the tile h = (x + agg) W + b of the point's rows, stores it, and adds
  the tile's column sums and the column sums of its squares to two accumulators kept in scratch memory, which it zeroes
  at the first point and copies to the two statistics outputs at every point. The accumulators are no window of the
  pipeline: they live in the invariant between points, at the running sums of the points before. The body is run once
  for the first point (accumulators at anything, reset taken) and once for a later point (accumulators carried), both at a
  symbolic point, and the proof data's contents are closed forms in the body's payloads.
-/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import proofs.«144613_j17471926960174_1_alg».proof.Proof.LibWholeStore
import Idealize.ShloMosaic.Lib.Pipeline.Kit
import Idealize.ShloMosaic.Lib.Pipeline.FrameBody
import Idealize.ShloMosaic.Lib.Pipeline.Value
import Idealize.ShloMosaic.Lib.Tactic

-- membership in a rectangle of production extents recurses once per coordinate of the long axes
set_option maxRecDepth 16384

noncomputable section

namespace Cert.KernelIdeal.Hand

open Cert.KernelIdeal Cert.KernelIdeal.Gen Cert.LibWholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's reset, from the grid coordinates. -/
abbrev cond10 (i : grid10.Coords) : Prop := (Scalar.cmpi .ne (Scalar.extui (Scalar.cmpi .eq (BitVec.ofNat 32 (i 0).val) 0#32)) 0#32) = 1#1
/-- It holds at the first point only: decided over the grid. -/
theorem hcond10 : ∀ t : Fin cfg10.N, cond10 (grid10.coords t) ↔ t.val % 10 = 0 :=
  (by decide +kernel : ∀ t : Fin grid10.N, cond10 (grid10.coords t) ↔ t.val % 10 = 0)

/-! ## The body's two runs -/

set_option maxHeartbeats 1000000 in
/-- The body at a point after the first (the reset not taken), on whole memrefs: the inputs at their contents, the outputs
    at anything, the two accumulators at `a8`, `a9`. It leaves the linear layer's tile in the first output and the
    accumulators advanced by the tile's column sums, copied to the two statistics outputs. -/
theorem sound_kernel10_B (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : ¬cond10 i)
    (x1 x2 : Vec F S5000x128 .f32) (x3 : Vec F S128x64 .f32) (x4 : Vec F S1x64 .f32) (a8 a9 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare a8 ∗ owns (c : Thread nD τ) arg9 fullShare a9
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k10_pay3 x1 x2 x3 x4)
            ∗ owns (c : Thread nD τ) arg6 fullShare (k10_pay4 x1 x2 x3 x4 a8) ∗ owns (c : Thread nD τ) arg7 fullShare (k10_pay5 x1 x2 x3 x4 a9)
            ∗ owns (c : Thread nD τ) arg8 fullShare (k10_pay4 x1 x2 x3 x4 a8) ∗ owns (c : Thread nD τ) arg9 fullShare (k10_pay5 x1 x2 x3 x4 a9)) -∗ K ⟨⟩))
      ⊢ wp frame (wpE (defs₀ (F := F)) Variants.none c none) E
          (cc10__linear_stats_kernel i arg1 harg1 arg2 harg2 arg3 harg3 arg4 harg4 arg5 harg5 arg6 harg6 arg7 harg7 arg8 harg8 arg9 harg9) K := by
  simp only [cc10__linear_stats_kernel_eq_skeleton]; unfold cc10__linear_stats_kernel_skel
  simp only [k10_part1_eq_skeleton]; unfold k10_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1
  obtain rfl := harg2.eq_unread hf2
  obtain rfl := harg3.eq_unread hf3
  obtain rfl := harg4.eq_unread hf4
  obtain rfl := harg8.eq_unread hf8
  obtain rfl := harg9.eq_unread hf9
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

set_option maxHeartbeats 1000000 in
/-- The body at the first point (the reset taken): the accumulators, at anything, are zeroed first. -/
theorem sound_kernel10_A (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (hc : cond10 i)
    (x1 x2 : Vec F S5000x128 .f32) (x3 : Vec F S128x64 .f32) (x4 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k10_pay3 x1 x2 x3 x4)
            ∗ owns (c : Thread nD τ) arg6 fullShare (k10_pay4 x1 x2 x3 x4 (k10_pay1 (F := F))) ∗ owns (c : Thread nD τ) arg7 fullShare (k10_pay5 x1 x2 x3 x4 (k10_pay2 (F := F)))
            ∗ owns (c : Thread nD τ) arg8 fullShare (k10_pay4 x1 x2 x3 x4 (k10_pay1 (F := F))) ∗ owns (c : Thread nD τ) arg9 fullShare (k10_pay5 x1 x2 x3 x4 (k10_pay2 (F := F)))) -∗ K ⟨⟩))
      ⊢ wp frame (wpE (defs₀ (F := F)) Variants.none c none) E
          (cc10__linear_stats_kernel i arg1 harg1 arg2 harg2 arg3 harg3 arg4 harg4 arg5 harg5 arg6 harg6 arg7 harg7 arg8 harg8 arg9 harg9) K := by
  simp only [cc10__linear_stats_kernel_eq_skeleton]; unfold cc10__linear_stats_kernel_skel
  simp only [k10_part1_eq_skeleton]; unfold k10_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  have hf8 : True := trivial
  have hf9 : True := trivial
  sl_exec (disch := first | exact hc)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_writes_cons_unit_zero (S := S5000x64) _ _ hz2]
    simp only [View.readAt_eq_ld, hf1, hf2, hf3, hf4, View.ld_unit_zero (S := S5000x128) hz2, View.ld_unit_zero (S := S128x64) hz2, View.ld_unit_zero (S := S1x64) hz2]
  isplitl [H6]
  · iexists _; isplitr
    swap; · iexact H6
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  isplitl [H7]
  · iexists _; isplitr
    swap; · iexact H7
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]
  isplitl [H8]
  · iexists _; isplitr
    swap; · iexact H8
    ipureintro
    sl_unfold_run_names
    rw [read_writes_cons_unit_zero (S := S1x64) _ _ hz2]
    simp only [readCov_cons_unit_zero (S := S1x64) _ hz2, View.readAt_eq_ld, hf1, hf2, hf3, hf4, hf8, View.ld_unit_zero (S := S5000x128) hz2, View.ld_unit_zero (S := S128x64) hz2, View.ld_unit_zero (S := S1x64) hz2]
  · iexists _; isplitr
    swap; · iexact H9
    ipureintro
    sl_unfold_run_names
    rw [read_writes_cons_unit_zero (S := S1x64) _ _ hz2]
    simp only [readCov_cons_unit_zero (S := S1x64) _ hz2, View.readAt_eq_ld, hf1, hf2, hf3, hf4, hf9, View.ld_unit_zero (S := S5000x128) hz2, View.ld_unit_zero (S := S128x64) hz2, View.ld_unit_zero (S := S1x64) hz2]

section Region
-- the TensorCore's buffer contents when the region is entered
variable (V : (c : Dev nD) → (b : Ref sig .tc) → Buf (Elt F) ((c : Thread nD τ).loc b))

/-! ## The windows' blocks, the layer's tile and the running statistics -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The linear layer's tile at point `t`: `(x + agg) W + b` on the point's rows. -/
def hblk10 (c : Dev nD) (t : Fin cfg10.N) : FVec F S5000x64 .f32 :=
  k10_pay3 (iblk10 V c 0 t) (iblk10 V c 1 t) (iblk10 V c 2 t) (iblk10 V c 3 t)

theorem N10_eq : cfg10.N = 10 := N_10

/-- The point numbered `n` (modulo the grid's ten points, so that the recursions below need no side condition). -/
def pt10 (n : ℕ) : Fin cfg10.N := ⟨n % 10, by rw [N10_eq]; exact Nat.mod_lt _ (by decide)⟩

theorem pt10_val (t : Fin cfg10.N) : pt10 t.val = t :=
  Fin.ext (Nat.mod_eq_of_lt (lt_of_lt_of_eq t.isLt N10_eq))

/-- The column sums of the tiles of points `0..n`, accumulated in the grid's order from zero. -/
def accS10 (c : Dev nD) : ℕ → FVec F S1x64 .f32
  | 0 => k10_pay4 (iblk10 V c 0 (pt10 0)) (iblk10 V c 1 (pt10 0)) (iblk10 V c 2 (pt10 0)) (iblk10 V c 3 (pt10 0)) (k10_pay1 (F := F))
  | n + 1 => k10_pay4 (iblk10 V c 0 (pt10 (n + 1))) (iblk10 V c 1 (pt10 (n + 1))) (iblk10 V c 2 (pt10 (n + 1))) (iblk10 V c 3 (pt10 (n + 1))) (accS10 c n)

/-- The column sums of the squared tiles of points `0..n`, accumulated in the grid's order from zero. -/
def accQ10 (c : Dev nD) : ℕ → FVec F S1x64 .f32
  | 0 => k10_pay5 (iblk10 V c 0 (pt10 0)) (iblk10 V c 1 (pt10 0)) (iblk10 V c 2 (pt10 0)) (iblk10 V c 3 (pt10 0)) (k10_pay2 (F := F))
  | n + 1 => k10_pay5 (iblk10 V c 0 (pt10 (n + 1))) (iblk10 V c 1 (pt10 (n + 1))) (iblk10 V c 2 (pt10 (n + 1))) (iblk10 V c 3 (pt10 (n + 1))) (accQ10 c n)

theorem accS10_zero (c : Dev nD) (t : Fin cfg10.N) (h : t.val = 0) :
    accS10 V c 0 = k10_pay4 (iblk10 V c 0 t) (iblk10 V c 1 t) (iblk10 V c 2 t) (iblk10 V c 3 t) (k10_pay1 (F := F)) := by
  have e : pt10 0 = t := by rw [← h]; exact pt10_val t
  rw [accS10, e]
theorem accS10_succ (c : Dev nD) (t : Fin cfg10.N) (n : ℕ) (h : t.val = n + 1) :
    accS10 V c (n + 1) = k10_pay4 (iblk10 V c 0 t) (iblk10 V c 1 t) (iblk10 V c 2 t) (iblk10 V c 3 t) (accS10 V c n) := by
  have e : pt10 (n + 1) = t := by rw [← h]; exact pt10_val t
  rw [accS10, e]
theorem accQ10_zero (c : Dev nD) (t : Fin cfg10.N) (h : t.val = 0) :
    accQ10 V c 0 = k10_pay5 (iblk10 V c 0 t) (iblk10 V c 1 t) (iblk10 V c 2 t) (iblk10 V c 3 t) (k10_pay2 (F := F)) := by
  have e : pt10 0 = t := by rw [← h]; exact pt10_val t
  rw [accQ10, e]
theorem accQ10_succ (c : Dev nD) (t : Fin cfg10.N) (n : ℕ) (h : t.val = n + 1) :
    accQ10 V c (n + 1) = k10_pay5 (iblk10 V c 0 t) (iblk10 V c 1 t) (iblk10 V c 2 t) (iblk10 V c 3 t) (accQ10 V c n) := by
  have e : pt10 (n + 1) = t := by rw [← h]; exact pt10_val t
  rw [accQ10, e]

/-! ## The pipeline's proof data -/

/-- The two scratch accumulators before point `n`: at anything before the first point (the body resets them there),
    then at the running sums after the point before. -/
def scr10 (c : Dev nD) : ℕ → sProp 𝕄
  | 0 => iprop((∃ d, owns (c : Thread nD τ) (Memref.whole cc10_scratch0 : Memref sig .tc .vmem S1x64 .f32) fullShare d) ∗ (∃ d, owns (c : Thread nD τ) (Memref.whole cc10_scratch1 : Memref sig .tc .vmem S1x64 .f32) fullShare d))
  | n + 1 => iprop(owns (c : Thread nD τ) (Memref.whole cc10_scratch0 : Memref sig .tc .vmem S1x64 .f32) fullShare (accS10 V c n) ∗ owns (c : Thread nD τ) (Memref.whole cc10_scratch1 : Memref sig .tc .vmem S1x64 .f32) fullShare (accQ10 V c n))

theorem scr10_zero (c : Dev nD) : scr10 V c 0 = iprop((∃ d, owns (c : Thread nD τ) (Memref.whole cc10_scratch0 : Memref sig .tc .vmem S1x64 .f32) fullShare d) ∗ (∃ d, owns (c : Thread nD τ) (Memref.whole cc10_scratch1 : Memref sig .tc .vmem S1x64 .f32) fullShare d)) := rfl
theorem scr10_succ (c : Dev nD) (n : ℕ) : scr10 V c (n + 1) = iprop(owns (c : Thread nD τ) (Memref.whole cc10_scratch0 : Memref sig .tc .vmem S1x64 .f32) fullShare (accS10 V c n) ∗ owns (c : Thread nD τ) (Memref.whole cc10_scratch1 : Memref sig .tc .vmem S1x64 .f32) fullShare (accQ10 V c n)) := rfl

/-- The invariant between points: the generator register at some state, every scoped buffer that is neither a staging
    buffer nor one of the two accumulators at some contents, and the two accumulators. -/
def Φ10 (c : Dev nD) (t : Fin (cfg10.N + 1)) : sProp 𝕄 :=
  iprop((∃ r, prngReg c r)
    ∗ Pipeline.scopedRestBut (Ix := Unit) (Name := ℕ) (U := UR sig nD τ) (Lvl := ℕ) (Val := Elt F) spec10 c [cc10_scratch0, cc10_scratch1]
    ∗ scr10 V c t.val)

/-- The proof data of the pipeline on core `c`: the arrays as the region finds them; after the body at point `t` each
    input's buffer at its block, the first output's at the layer's tile, the two statistics outputs' at the running sums. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => hblk10 V c t
    | ⟨5, _⟩ => accS10 V c t.val
    | ⟨6, _⟩ => accQ10 V c t.val
  Φ t := Φ10 V c t
  q _ := fullShare
  owed _ := 0

theorem A_eq10 (c : Dev nD) (w : Fin cfg10.W) : (dat10 V c).A w = V c (Pipeline.arrRef spec10 w) := by
  dsimp only [dat10]
theorem Φ_eq10 (c : Dev nD) (t : Fin (cfg10.N + 1)) : (dat10 V c).Φ t = Φ10 V c t := by dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = hblk10 V c t := by dsimp only [dat10]
theorem after10_5 (c : Dev nD) (t : Fin cfg10.N) : (dat10 V c).after 5 t = accS10 V c t.val := by dsimp only [dat10]
theorem after10_6 (c : Dev nD) (t : Fin cfg10.N) : (dat10 V c).after 6 t = accQ10 V c t.val := by dsimp only [dat10]

/-- Each input's current staging buffer holds its block at every point, fetched there or not. -/
theorem before10_0 (c : Dev nD) (t : Fin cfg10.N) (d) : (dat10 V c).before 0 t d = iblk10 V c 0 t :=
  ((dat10 V c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)
theorem before10_1 (c : Dev nD) (t : Fin cfg10.N) (d) : (dat10 V c).before 1 t d = iblk10 V c 1 t :=
  ((dat10 V c).before_in_eq_fetched 1 rfl (fun _ => rfl) (fun _ _ _ => rfl)
    (fun t => by rw [after10_1]; unfold Dat.blockOf iblk10; rw [A_eq10]; try rfl) t d).trans
    (by unfold Dat.fetched Dat.blockOf iblk10; rw [A_eq10]; try rfl)
theorem before10_2 (c : Dev nD) (t : Fin cfg10.N) (d) : (dat10 V c).before 2 t d = iblk10 V c 2 t :=
  ((dat10 V c).before_in_eq_fetched 2 rfl (fun _ => rfl) (fun _ _ _ => rfl)
    (fun t => by rw [after10_2]; unfold Dat.blockOf iblk10; rw [A_eq10]; try rfl) t d).trans
    (by unfold Dat.fetched Dat.blockOf iblk10; rw [A_eq10]; try rfl)
theorem before10_3 (c : Dev nD) (t : Fin cfg10.N) (d) : (dat10 V c).before 3 t d = iblk10 V c 3 t :=
  ((dat10 V c).before_in_eq_fetched 3 rfl (fun _ => rfl) (fun _ _ _ => rfl)
    (fun t => by rw [after10_3]; unfold Dat.blockOf iblk10; rw [A_eq10]; try rfl) t d).trans
    (by unfold Dat.fetched Dat.blockOf iblk10; rw [A_eq10]; try rfl)

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The reset is taken at the first point only. -/
theorem hcond10_zero (t : Fin cfg10.N) (h : t.val = 0) : cond10 (grid10.coords t) := (hcond10 t).mpr (by rw [h])
theorem hcond10_succ (t : Fin cfg10.N) (n : ℕ) (h : t.val = n + 1) : ¬cond10 (grid10.coords t) := fun hc => by
  have h1 := (hcond10 t).mp hc; have h2 := lt_of_lt_of_eq t.isLt N10_eq; omega

set_option maxHeartbeats 1000000 in
/-- The body at any point: the inputs' memrefs hold their blocks, the accumulators what the invariant says; at the first
    point the reset is taken, at a later point the accumulators carry the sums of the points before. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).owesAt () t.succ = (dat10 V c).owesAt () t.castSucc from rfl,
    after10_0, after10_1, after10_2, after10_3, after10_4, after10_5, after10_6, Φ_eq10, Φ_eq10]
  unfold Φ10 hblk10
  rw [show (t.castSucc : Fin (cfg10.N + 1)).val = t.val from rfl, show (t.succ : Fin (cfg10.N + 1)).val = t.val + 1 from rfl]
  obtain h0 | ⟨n, hn⟩ : t.val = 0 ∨ ∃ n, t.val = n + 1 := by
    cases h : t.val with
    | zero => exact .inl rfl
    | succ n => exact .inr ⟨n, rfl⟩
  · rw [h0, scr10_zero, scr10_succ, accS10_zero V c t h0, accQ10_zero V c t h0]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel10_A c Set.univ (grid10.coords t) _ _ _ _ _ _ _ _ _ _ _ _ _ _ _ _ _ _ (hcond10_zero t h0)
      (iblk10 V c 0 t) (iblk10 V c 1 t) (iblk10 V c 2 t) (iblk10 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [hn, scr10_succ, scr10_succ, accS10_succ V c t n hn, accQ10_succ V c t n hn]
    iintro ⟨⟨Hr, Hrest, H8, H9⟩, Ho, ⟨%d0, H0⟩, ⟨%d1, H1⟩, ⟨%d2, H2⟩, ⟨%d3, H3⟩, ⟨%d4, H4⟩, ⟨%d5, H5⟩, ⟨%d6, H6⟩⟩
    iapply (sound_kernel10_B c Set.univ (grid10.coords t) _ _ _ _ _ _ _ _ _ _ _ _ _ _ _ _ _ _ (hcond10_succ t n hn)
      (iblk10 V c 0 t) (iblk10 V c 1 t) (iblk10 V c 2 t) (iblk10 V c 3 t) (accS10 V c n) (accQ10 V c n) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, H4, H5, H6, H8, H9⟩
    isplitl [Hr Hrest H8 H9]
    · isplitl [Hr]; · iexact Hr
      isplitl [Hrest]; · iexact Hrest
      isplitl [H8]; · iexact H8
      iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant's two ends -/

/-- The accumulators, whatever they hold, are two scoped buffers at some contents; -/
theorem scr10_any (c : Dev nD) (n : ℕ) :
    scr10 V c n ⊢ iprop((∃ f : Buf (Elt F) ((c : Thread nD τ).loc cc10_scratch0), ((c : Thread nD τ).loc cc10_scratch0) ↦{fullShare} f) ∗ (∃ f : Buf (Elt F) ((c : Thread nD τ).loc cc10_scratch1), ((c : Thread nD τ).loc cc10_scratch1) ↦{fullShare} f)) := by
  cases n with
  | zero =>
    rw [scr10_zero]
    iintro ⟨⟨%d8, H8⟩, ⟨%d9, H9⟩⟩
    isplitl [H8]
    · iexists d8; iapply (Entails.of_eq (owns_whole (c : Thread nD τ) cc10_scratch0 fullShare d8)) $$ H8
    · iexists d9; iapply (Entails.of_eq (owns_whole (c : Thread nD τ) cc10_scratch1 fullShare d9)) $$ H9
  | succ n =>
    rw [scr10_succ]
    iintro ⟨H8, H9⟩
    isplitl [H8]
    · iexists (accS10 V c n); iapply (Entails.of_eq (owns_whole (c : Thread nD τ) cc10_scratch0 fullShare (accS10 V c n))) $$ H8
    · iexists (accQ10 V c n); iapply (Entails.of_eq (owns_whole (c : Thread nD τ) cc10_scratch1 fullShare (accQ10 V c n))) $$ H9

/-- and before the first point any contents will do. -/
theorem scr10_intro (c : Dev nD) :
    iprop((∃ f : Buf (Elt F) ((c : Thread nD τ).loc cc10_scratch0), ((c : Thread nD τ).loc cc10_scratch0) ↦{fullShare} f) ∗ (∃ f : Buf (Elt F) ((c : Thread nD τ).loc cc10_scratch1), ((c : Thread nD τ).loc cc10_scratch1) ↦{fullShare} f)) ⊢ scr10 V c 0 := by
  rw [scr10_zero]
  iintro ⟨⟨%f8, H8⟩, ⟨%f9, H9⟩⟩
  isplitl [H8]
  · iexists f8; iapply (Entails.of_eq (owns_whole (c : Thread nD τ) cc10_scratch0 fullShare f8).symm) $$ H8
  · iexists f9; iapply (Entails.of_eq (owns_whole (c : Thread nD τ) cc10_scratch1 fullShare f9).symm) $$ H9

/-- The invariant at the first point, from the generator register, the tables (unused) and the scoped rest. -/
theorem hin10 (c : Dev nD) (T : (pcfgs (F := F) 10).pre.Contents (Elt F)) :
    iprop((∃ r, prngReg c r) ∗ Pipeline.prefHeld (pcfgs (F := F) 10).pre c (fun _ => fullShare) T ∗ Pipeline.scopedRest spec10 c)
      ⊢ (dat10 V c).Φ 0 := by
  rw [Φ_eq10, scopedRest10_split]; unfold Φ10
  iintro ⟨Hr, -, Hs, Hrest⟩
  isplitl [Hr]; · iexact Hr
  isplitl [Hrest]; · iexact Hrest
  iapply (scr10_intro V c) $$ Hs

/-- The invariant at the last point gives them back. -/
theorem hout10 (c : Dev nD) :
    (dat10 V c).Φ (Fin.last _) ⊢ iprop((∃ r, prngReg c r) ∗ Pipeline.ownSems0 (fun k : PEmpty => k.elim) c ∗ Pipeline.scopedRest spec10 c) := by
  rw [Φ_eq10, Pipeline.ownSems0_none, scopedRest10_split]; unfold Φ10
  iintro ⟨Hr, Hrest, Hs⟩
  isplitl [Hr]; · iexact Hr
  isplitr; · iempintro
  isplitl [Hs]
  · iapply (scr10_any V c _) $$ Hs
  iexact Hrest

end Region

end Cert.KernelIdeal.Hand

end
-- ==== Proof.Bn11.lean ====
/- The frame package of region 11: the batch-normalisation-and-ReLU kernel
   `max((h - mean) * rsqrt(var + eps) * gamma + beta, 0)` on one row tile. The body loads its five input blocks whole
   (the tile of `h` and the four row vectors) and stores one value whole into the output tile; so after the body the
   output's staging buffer holds that value of the five input blocks, and every input's buffer is as it was. Stated at
   an arbitrary entry valuation `V` of the TensorCore's buffers and at any float instance. -/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is the entry valuation's and whose body leaves the block in place: at a point where the window
    is not fetched its block index has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, fetched there or not, for any proof
    data whose array is the entry valuation's and whose body leaves the block in place: at a point where the window
    is not fetched its block index has not moved; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, fetched there or not, for any proof
    data whose array is the entry valuation's and whose body leaves the block in place: at a point where the window
    is not fetched its block index has not moved; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, fetched there or not, for any proof
    data whose array is the entry valuation's and whose body leaves the block in place: at a point where the window
    is not fetched its block index has not moved; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, fetched there or not, for any proof
    data whose array is the entry valuation's and whose body leaves the block in place: at a point where the window
    is not fetched its block index has not moved; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

abbrev r11_0 : Rect S5000x64 := Rect.unit (s := S5000x64) ![0, 0] S5000x64.size inb_S5000x64_S5000x64_0_0
abbrev r11_1 : Rect S1x64 := Rect.unit (s := S1x64) ![0, 0] S1x64.size inb_S1x64_S1x64_0_0

/-! ## What the body leaves in the output window's buffer -/

/-- Window 5's staging buffer after the body, from the input windows' blocks: its one store as a piece. -/
def out11_5 (x0 : Vec F S5000x64 .f32) (x1 : Vec F S1x64 .f32) (x2 : Vec F S1x64 .f32) (x3 : Vec F S1x64 .f32) (x4 : Vec F S1x64 .f32) : Vec F S5000x64 .f32 :=
  View.canon [⟨r11_0, k11_pay1 (View.ld x0 r11_0) (View.ld x1 r11_1) (View.ld x2 r11_1) (View.ld x3 r11_1) (View.ld x4 r11_1)⟩]

/-- The store tiles the buffer, so it covers it. -/
theorem cover11_5 (p0 : Vec F S5000x64 .f32) (y : S5000x64.Idx) :
    ∃ pc ∈ ([⟨r11_0, p0⟩] : List (View.Piece (Elt F) S5000x64 .f32)), y ∈ pc.1.set :=
  View.cover_of_tiled [⟨r11_0, p0⟩] S5000x64.size (by rfl) y

/-- The zero offsets, as a function. -/
theorem zeros11 : (![0, 0] : Fin 2 → Nat) = fun _ => 0 := funext fun a => by fin_cases a <;> rfl

/-- Every input is loaded whole and the store is whole: the output's buffer holds the payload of the inputs' contents. -/
theorem out11_5_eq (x0 : Vec F S5000x64 .f32) (x1 : Vec F S1x64 .f32) (x2 : Vec F S1x64 .f32) (x3 : Vec F S1x64 .f32) (x4 : Vec F S1x64 .f32) :
    out11_5 x0 x1 x2 x3 x4 = k11_pay1 x0 x1 x2 x3 x4 := by
  unfold out11_5
  rw [View.canon_unit_zero (S := S5000x64) zeros11 inb_S5000x64_S5000x64_0_0,
    View.ld_unit_zero (S := S5000x64) zeros11 inb_S5000x64_S5000x64_0_0 x0,
    View.ld_unit_zero (S := S1x64) zeros11 inb_S1x64_S1x64_0_0 x1,
    View.ld_unit_zero (S := S1x64) zeros11 inb_S1x64_S1x64_0_0 x2,
    View.ld_unit_zero (S := S1x64) zeros11 inb_S1x64_S1x64_0_0 x3,
    View.ld_unit_zero (S := S1x64) zeros11 inb_S1x64_S1x64_0_0 x4]

/-! ## The body's triple -/

set_option maxHeartbeats 1000000 in
/-- The kernel body on whole staging memrefs, the inputs' at read contents `xW` and the output's at anything, runs to
    the continuation holding the inputs' as they were and the output's at `out11_5` of the inputs'. -/
theorem sound_kernel11 (c : Dev nD) (E : Set ℕ) (i : grid11.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11__bn_relu_kernel i arg1 harg1 arg2 harg2 arg3 harg3 arg4 harg4 arg5 harg5 arg6 harg6) K := by
  simp only [cc11__bn_relu_kernel_eq_skeleton]; unfold cc11__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-! ## The pipeline's proof data -/

/-- The proof data of the region's pipeline on core `c`: the arrays as the region finds them (`V`); after the body at
    point `t` each input's buffer at its block and the output's at `out11_5` of the input blocks; the invariant: the
    scoped rest and the pseudo-random-number register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' memrefs hold their blocks, so the body's triple applies; the invariant and
    the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand
-- ==== Proof.Relu12.lean ====
/- The frame package of region 12: the linear-and-ReLU kernel `max((x + agg) · Wᵀ + b, 0)` on one row tile. The
   body loads its four input blocks whole (the tiles of `x` and of `agg`, the weight matrix and the bias row) and
   stores one value whole into the output tile; so after the body the output's staging buffer holds that value of the
   four input blocks, and every input's buffer is as it was. Stated at an arbitrary entry valuation `V` of the
   TensorCore's buffers and at any float instance. -/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is the entry valuation's and whose body leaves the block in place: at a point where the window
    is not fetched its block index has not moved; the window is uncut and never idle. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1's current staging buffer holds its block at every point, fetched there or not, for any proof
    data whose array is the entry valuation's and whose body leaves the block in place: at a point where the window
    is not fetched its block index has not moved; the window is uncut and never idle. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2's current staging buffer holds its block at every point, fetched there or not, for any proof
    data whose array is the entry valuation's and whose body leaves the block in place: at a point where the window
    is not fetched its block index has not moved; the window is uncut and never idle. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
/-- Input window 3's current staging buffer holds its block at every point, fetched there or not, for any proof
    data whose array is the entry valuation's and whose body leaves the block in place: at a point where the window
    is not fetched its block index has not moved; the window is uncut and never idle. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_0 : Rect S5000x64 := Rect.unit (s := S5000x64) ![0, 0] S5000x64.size inb_S5000x64_S5000x64_0_0
abbrev r12_1 : Rect S64x256 := Rect.unit (s := S64x256) ![0, 0] S64x256.size inb_S64x256_S64x256_0_0
abbrev r12_2 : Rect S1x256 := Rect.unit (s := S1x256) ![0, 0] S1x256.size inb_S1x256_S1x256_0_0
abbrev r12_3 : Rect S5000x256 := Rect.unit (s := S5000x256) ![0, 0] S5000x256.size inb_S5000x256_S5000x256_0_0

/-! ## What the body leaves in the output window's buffer -/

/-- Window 4's staging buffer after the body, from the input windows' blocks: its one store as a piece. -/
def out12_4 (x0 : Vec F S5000x64 .f32) (x1 : Vec F S5000x64 .f32) (x2 : Vec F S64x256 .f32) (x3 : Vec F S1x256 .f32) : Vec F S5000x256 .f32 :=
  View.canon [⟨r12_3, k12_pay1 (View.ld x0 r12_0) (View.ld x1 r12_0) (View.ld x2 r12_1) (View.ld x3 r12_2)⟩]

/-- The store tiles the buffer, so it covers it. -/
theorem cover12_4 (p0 : Vec F S5000x256 .f32) (y : S5000x256.Idx) :
    ∃ pc ∈ ([⟨r12_3, p0⟩] : List (View.Piece (Elt F) S5000x256 .f32)), y ∈ pc.1.set :=
  View.cover_of_tiled [⟨r12_3, p0⟩] S5000x256.size (by rfl) y

/-- The zero offsets, as a function. -/
theorem zeros12 : (![0, 0] : Fin 2 → Nat) = fun _ => 0 := funext fun a => by fin_cases a <;> rfl

/-- Every input is loaded whole and the store is whole: the output's buffer holds the payload of the inputs' contents. -/
theorem out12_4_eq (x0 : Vec F S5000x64 .f32) (x1 : Vec F S5000x64 .f32) (x2 : Vec F S64x256 .f32) (x3 : Vec F S1x256 .f32) :
    out12_4 x0 x1 x2 x3 = k12_pay1 x0 x1 x2 x3 := by
  unfold out12_4
  rw [View.canon_unit_zero (S := S5000x256) zeros12 inb_S5000x256_S5000x256_0_0,
    View.ld_unit_zero (S := S5000x64) zeros12 inb_S5000x64_S5000x64_0_0 x0,
    View.ld_unit_zero (S := S5000x64) zeros12 inb_S5000x64_S5000x64_0_0 x1,
    View.ld_unit_zero (S := S64x256) zeros12 inb_S64x256_S64x256_0_0 x2,
    View.ld_unit_zero (S := S1x256) zeros12 inb_S1x256_S1x256_0_0 x3]

/-! ## The body's triple -/

set_option maxHeartbeats 1000000 in
/-- The kernel body on whole staging memrefs, the inputs' at read contents `xW` and the output's at anything, runs to
    the continuation holding the inputs' as they were and the output's at `out12_4` of the inputs'. -/
theorem sound_kernel12 (c : Dev nD) (E : Set ℕ) (i : grid12.Coords)
    (arg1 : Memref sig .tc .vmem S5000x64 .f32) (harg1 : arg1.IsWhole)
    (arg2 : Memref sig .tc .vmem S5000x64 .f32) (harg2 : arg2.IsWhole)
    (arg3 : Memref sig .tc .vmem S64x256 .f32) (harg3 : arg3.IsWhole)
    (arg4 : Memref sig .tc .vmem S1x256 .f32) (harg4 : arg4.IsWhole)
    (arg5 : Memref sig .tc .vmem S5000x256 .f32) (harg5 : arg5.IsWhole)
    (x0 : Vec F S5000x64 .f32) (x1 : Vec F S5000x64 .f32) (x2 : Vec F S64x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out12_4 x0 x1 x2 x3)) -∗ K ⟨⟩))
      ⊢ wp frame (wpE (defs₀ (F := F)) Variants.none c none) E (cc12__linear_relu_kernel i arg1 harg1 arg2 harg2 arg3 harg3 arg4 harg4 arg5 harg5) K := by
  simp only [cc12__linear_relu_kernel_eq_skeleton]; unfold cc12__linear_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12_4 _)

/-! ## The pipeline's proof data -/

/-- The proof data of the region's pipeline on core `c`: the arrays as the region finds them (`V`); after the body at
    point `t` each input's buffer at its block and the output's at `out12_4` of the input blocks; the invariant: the
    scoped rest and the pseudo-random-number register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = out12_4 (iblk12 V c 0 t) (iblk12 V c 1 t) (iblk12 V c 2 t) (iblk12 V c 3 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the inputs' memrefs hold their blocks, so the body's triple applies; the invariant and
    the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.Relu13.lean ====
/- The frame package of region 13: the linear-and-ReLU kernel `max((x + agg) · Wᵀ + b, 0)` on one row tile. The
   body loads its four input blocks whole (the tiles of `x` and of `agg`, the weight matrix and the bias row) and
   stores one value whole into the output tile; so after the body the output's staging buffer holds that value of the
   four input blocks, and every input's buffer is as it was. Stated at an arbitrary entry valuation `V` of the
   TensorCore's buffers and at any float instance. -/
import proofs.«144613_j17471926960174_1_alg».proof.Proof.Gen.KernelIdeal.Launch
import proofs.«144613_j17471926960174_1_alg».proof.Proof.Gen.KernelIdeal.Skeleton
import proofs.«144613_j17471926960174_1_alg».proof.Proof.Gen.KernelIdeal.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is the entry valuation's and whose body leaves the block in place: at a point where the window
    is not fetched its block index has not moved; the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- Input window 1's current staging buffer holds its block at every point, fetched there or not, for any proof
    data whose array is the entry valuation's and whose body leaves the block in place: at a point where the window
    is not fetched its block index has not moved; the window is uncut and never idle. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
/-- Input window 2's current staging buffer holds its block at every point, fetched there or not, for any proof
    data whose array is the entry valuation's and whose body leaves the block in place: at a point where the window
    is not fetched its block index has not moved; the window is uncut and never idle. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
/-- Input window 3's current staging buffer holds its block at every point, fetched there or not, for any proof
    data whose array is the entry valuation's and whose body leaves the block in place: at a point where the window
    is not fetched its block index has not moved; the window is uncut and never idle. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

abbrev r13_0 : Rect S5000x64 := Rect.unit (s := S5000x64) ![0, 0] S5000x64.size inb_S5000x64_S5000x64_0_0
abbrev r13_1 : Rect S64x128 := Rect.unit (s := S64x128) ![0, 0] S64x128.size inb_S64x128_S64x128_0_0
abbrev r13_2 : Rect S1x128 := Rect.unit (s := S1x128) ![0, 0] S1x128.size inb_S1x128_S1x128_0_0
abbrev r13_3 : Rect S5000x128 := Rect.unit (s := S5000x128) ![0, 0] S5000x128.size inb_S5000x128_S5000x128_0_0

/-! ## What the body leaves in the output window's buffer -/

/-- Window 4's staging buffer after the body, from the input windows' blocks: its one store as a piece. -/
def out13_4 (x0 : Vec F S5000x64 .f32) (x1 : Vec F S5000x64 .f32) (x2 : Vec F S64x128 .f32) (x3 : Vec F S1x128 .f32) : Vec F S5000x128 .f32 :=
  View.canon [⟨r13_3, k13_pay1 (View.ld x0 r13_0) (View.ld x1 r13_0) (View.ld x2 r13_1) (View.ld x3 r13_2)⟩]

/-- The store tiles the buffer, so it covers it. -/
theorem cover13_4 (p0 : Vec F S5000x128 .f32) (y : S5000x128.Idx) :
    ∃ pc ∈ ([⟨r13_3, p0⟩] : List (View.Piece (Elt F) S5000x128 .f32)), y ∈ pc.1.set :=
  View.cover_of_tiled [⟨r13_3, p0⟩] S5000x128.size (by rfl) y

/-- The zero offsets, as a function. -/
theorem zeros13 : (![0, 0] : Fin 2 → Nat) = fun _ => 0 := funext fun a => by fin_cases a <;> rfl

/-- Every input is loaded whole and the store is whole: the output's buffer holds the payload of the inputs' contents. -/
theorem out13_4_eq (x0 : Vec F S5000x64 .f32) (x1 : Vec F S5000x64 .f32) (x2 : Vec F S64x128 .f32) (x3 : Vec F S1x128 .f32) :
    out13_4 x0 x1 x2 x3 = k13_pay1 x0 x1 x2 x3 := by
  unfold out13_4
  rw [View.canon_unit_zero (S := S5000x128) zeros13 inb_S5000x128_S5000x128_0_0,
    View.ld_unit_zero (S := S5000x64) zeros13 inb_S5000x64_S5000x64_0_0 x0,
    View.ld_unit_zero (S := S5000x64) zeros13 inb_S5000x64_S5000x64_0_0 x1,
    View.ld_unit_zero (S := S64x128) zeros13 inb_S64x128_S64x128_0_0 x2,
    View.ld_unit_zero (S := S1x128) zeros13 inb_S1x128_S1x128_0_0 x3]

/-! ## The body's triple -/

set_option maxHeartbeats 1000000 in
/-- The kernel body on whole staging memrefs, the inputs' at read contents `xW` and the output's at anything, runs to
    the continuation holding the inputs' as they were and the output's at `out13_4` of the inputs'. -/
theorem sound_kernel13 (c : Dev nD) (E : Set ℕ) (i : grid13.Coords)
    (arg1 : Memref sig .tc .vmem S5000x64 .f32) (harg1 : arg1.IsWhole)
    (arg2 : Memref sig .tc .vmem S5000x64 .f32) (harg2 : arg2.IsWhole)
    (arg3 : Memref sig .tc .vmem S64x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x64 .f32) (x1 : Vec F S5000x64 .f32) (x2 : Vec F S64x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out13_4 x0 x1 x2 x3)) -∗ K ⟨⟩))
      ⊢ wp frame (wpE (defs₀ (F := F)) Variants.none c none) E (cc13__linear_relu_kernel i arg1 harg1 arg2 harg2 arg3 harg3 arg4 harg4 arg5 harg5) K := by
  simp only [cc13__linear_relu_kernel_eq_skeleton]; unfold cc13__linear_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover13_4 _)

/-! ## The pipeline's proof data -/

/-- The proof data of the region's pipeline on core `c`: the arrays as the region finds them (`V`); after the body at
    point `t` each input's buffer at its block and the output's at `out13_4` of the input blocks; the invariant: the
    scoped rest and the pseudo-random-number register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = out13_4 (iblk13 V c 0 t) (iblk13 V c 1 t) (iblk13 V c 2 t) (iblk13 V c 3 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at any point: the inputs' memrefs hold their blocks, so the body's triple applies; the invariant and
    the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _ (iblk13 V c 0 t) (iblk13 V c 1 t) (iblk13 V c 2 t) (iblk13 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand
-- ==== Proof.RegsCore.lean ====
/-
  The family of proof data of the fourteen kernel regions, each at its region's entry contents in the chain of
  valuations, what each region leaves in the arrays it may change (its write-backs folded over the grid), and the
  chain's contents after each region spelt out.
-/
import proofs.«144613_j17471926960174_1_alg».proof.Proof.Chain
import proofs.«144613_j17471926960174_1_alg».proof.Proof.Stats0
import proofs.«144613_j17471926960174_1_alg».proof.Proof.Bn1
import proofs.«144613_j17471926960174_1_alg».proof.Proof.Stats2
import proofs.«144613_j17471926960174_1_alg».proof.Proof.Bn3
import proofs.«144613_j17471926960174_1_alg».proof.Proof.Stats4
import proofs.«144613_j17471926960174_1_alg».proof.Proof.Bn5
import proofs.«144613_j17471926960174_1_alg».proof.Proof.Stats6
import proofs.«144613_j17471926960174_1_alg».proof.Proof.Bn7
import proofs.«144613_j17471926960174_1_alg».proof.Proof.Stats8
import proofs.«144613_j17471926960174_1_alg».proof.Proof.Bn9
import proofs.«144613_j17471926960174_1_alg».proof.Proof.Stats10
import proofs.«144613_j17471926960174_1_alg».proof.Proof.Bn11
import proofs.«144613_j17471926960174_1_alg».proof.Proof.Relu12
import proofs.«144613_j17471926960174_1_alg».proof.Proof.Relu13
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

/-! What each region leaves in each array it may change: its proof data's write-backs folded over the grid. -/
def xx_main_v16_0 : EV F → (c : Dev nD) → Buf (Elt F) ((c : Thread nD τ).loc main_v16_0) := fun V c => (dat0 V c).arrAt 4 cfg0.N
def xx_main_v16_1 : EV F → (c : Dev nD) → Buf (Elt F) ((c : Thread nD τ).loc main_v16_1) := fun V c => (dat0 V c).arrAt 5 cfg0.N
def xx_main_v16_2 : EV F → (c : Dev nD) → Buf (Elt F) ((c : Thread nD τ).loc main_v16_2) := fun V c => (dat0 V c).arrAt 6 cfg0.N
def xx_main_v25 : EV F → (c : Dev nD) → Buf (Elt F) ((c : Thread nD τ).loc main_v25) := fun V c => (dat1 V c).arrAt 5 cfg1.N
def xx_main_v42_0 : EV F → (c : Dev nD) → Buf (Elt F) ((c : Thread nD τ).loc main_v42_0) := fun V c => (dat2 V c).arrAt 4 cfg2.N
def xx_main_v42_1 : EV F → (c : Dev nD) → Buf (Elt F) ((c : Thread nD τ).loc main_v42_1) := fun V c => (dat2 V c).arrAt 5 cfg2.N
def xx_main_v42_2 : EV F → (c : Dev nD) → Buf (Elt F) ((c : Thread nD τ).loc main_v42_2) := fun V c => (dat2 V c).arrAt 6 cfg2.N
def xx_main_v51 : EV F → (c : Dev nD) → Buf (Elt F) ((c : Thread nD τ).loc main_v51) := fun V c => (dat3 V c).arrAt 5 cfg3.N
def xx_main_v68_0 : EV F → (c : Dev nD) → Buf (Elt F) ((c : Thread nD τ).loc main_v68_0) := fun V c => (dat4 V c).arrAt 4 cfg4.N
def xx_main_v68_1 : EV F → (c : Dev nD) → Buf (Elt F) ((c : Thread nD τ).loc main_v68_1) := fun V c => (dat4 V c).arrAt 5 cfg4.N
def xx_main_v68_2 : EV F → (c : Dev nD) → Buf (Elt F) ((c : Thread nD τ).loc main_v68_2) := fun V c => (dat4 V c).arrAt 6 cfg4.N
def xx_main_v77 : EV F → (c : Dev nD) → Buf (Elt F) ((c : Thread nD τ).loc main_v77) := fun V c => (dat5 V c).arrAt 5 cfg5.N
def xx_main_v94_0 : EV F → (c : Dev nD) → Buf (Elt F) ((c : Thread nD τ).loc main_v94_0) := fun V c => (dat6 V c).arrAt 4 cfg6.N
def xx_main_v94_1 : EV F → (c : Dev nD) → Buf (Elt F) ((c : Thread nD τ).loc main_v94_1) := fun V c => (dat6 V c).arrAt 5 cfg6.N
def xx_main_v94_2 : EV F → (c : Dev nD) → Buf (Elt F) ((c : Thread nD τ).loc main_v94_2) := fun V c => (dat6 V c).arrAt 6 cfg6.N
def xx_main_v103 : EV F → (c : Dev nD) → Buf (Elt F) ((c : Thread nD τ).loc main_v103) := fun V c => (dat7 V c).arrAt 5 cfg7.N
def xx_main_v120_0 : EV F → (c : Dev nD) → Buf (Elt F) ((c : Thread nD τ).loc main_v120_0) := fun V c => (dat8 V c).arrAt 4 cfg8.N
def xx_main_v120_1 : EV F → (c : Dev nD) → Buf (Elt F) ((c : Thread nD τ).loc main_v120_1) := fun V c => (dat8 V c).arrAt 5 cfg8.N
def xx_main_v120_2 : EV F → (c : Dev nD) → Buf (Elt F) ((c : Thread nD τ).loc main_v120_2) := fun V c => (dat8 V c).arrAt 6 cfg8.N
def xx_main_v129 : EV F → (c : Dev nD) → Buf (Elt F) ((c : Thread nD τ).loc main_v129) := fun V c => (dat9 V c).arrAt 5 cfg9.N
def xx_main_v146_0 : EV F → (c : Dev nD) → Buf (Elt F) ((c : Thread nD τ).loc main_v146_0) := fun V c => (dat10 V c).arrAt 4 cfg10.N
def xx_main_v146_1 : EV F → (c : Dev nD) → Buf (Elt F) ((c : Thread nD τ).loc main_v146_1) := fun V c => (dat10 V c).arrAt 5 cfg10.N
def xx_main_v146_2 : EV F → (c : Dev nD) → Buf (Elt F) ((c : Thread nD τ).loc main_v146_2) := fun V c => (dat10 V c).arrAt 6 cfg10.N
def xx_main_v155 : EV F → (c : Dev nD) → Buf (Elt F) ((c : Thread nD τ).loc main_v155) := fun V c => (dat11 V c).arrAt 5 cfg11.N
def xx_main_v172 : EV F → (c : Dev nD) → Buf (Elt F) ((c : Thread nD τ).loc main_v172) := fun V c => (dat12 V c).arrAt 4 cfg12.N
def xx_main_v189 : EV F → (c : Dev nD) → Buf (Elt F) ((c : Thread nD τ).loc main_v189) := fun V c => (dat13 V c).arrAt 4 cfg13.N

/-- The regions' exit arrays, gathered. -/
def XX : Exits F where
  x_main_v16_0 := xx_main_v16_0
  x_main_v16_1 := xx_main_v16_1
  x_main_v16_2 := xx_main_v16_2
  x_main_v25 := xx_main_v25
  x_main_v42_0 := xx_main_v42_0
  x_main_v42_1 := xx_main_v42_1
  x_main_v42_2 := xx_main_v42_2
  x_main_v51 := xx_main_v51
  x_main_v68_0 := xx_main_v68_0
  x_main_v68_1 := xx_main_v68_1
  x_main_v68_2 := xx_main_v68_2
  x_main_v77 := xx_main_v77
  x_main_v94_0 := xx_main_v94_0
  x_main_v94_1 := xx_main_v94_1
  x_main_v94_2 := xx_main_v94_2
  x_main_v103 := xx_main_v103
  x_main_v120_0 := xx_main_v120_0
  x_main_v120_1 := xx_main_v120_1
  x_main_v120_2 := xx_main_v120_2
  x_main_v129 := xx_main_v129
  x_main_v146_0 := xx_main_v146_0
  x_main_v146_1 := xx_main_v146_1
  x_main_v146_2 := xx_main_v146_2
  x_main_v155 := xx_main_v155
  x_main_v172 := xx_main_v172
  x_main_v189 := xx_main_v189

variable (m : (ℓ : Loc nD τ sig) → Buf (Elt F) ℓ)

/-- Every pipeline's proof data, each at its region's entry contents: a literal match on the pipeline. -/
def pdats : (p : Fin 14) → (c : Dev nD) → Dat τ (Elt F) Unit ℕ (UR sig nD τ) ℕ (cfgs p) c
  | ⟨0, _⟩ => fun c => dat0 (E1 m) c
  | ⟨1, _⟩ => fun c => dat1 (E3 m XX) c
  | ⟨2, _⟩ => fun c => dat2 (E5 m XX) c
  | ⟨3, _⟩ => fun c => dat3 (E7 m XX) c
  | ⟨4, _⟩ => fun c => dat4 (E9 m XX) c
  | ⟨5, _⟩ => fun c => dat5 (E11 m XX) c
  | ⟨6, _⟩ => fun c => dat6 (E13 m XX) c
  | ⟨7, _⟩ => fun c => dat7 (E15 m XX) c
  | ⟨8, _⟩ => fun c => dat8 (E17 m XX) c
  | ⟨9, _⟩ => fun c => dat9 (E19 m XX) c
  | ⟨10, _⟩ => fun c => dat10 (E21 m XX) c
  | ⟨11, _⟩ => fun c => dat11 (E23 m XX) c
  | ⟨12, _⟩ => fun c => dat12 (E25 m XX) c
  | ⟨13, _⟩ => fun c => dat13 (E27 m XX) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- Region 0's proof data in the family, and the chain's contents after the region, spelt out. -/
theorem pdats_0 (c : Dev nD) : pdats m 0 c = dat0 (E1 m) c := rfl
theorem W2_unfold (c : Dev nD) : W2 m XX c = Function.update (Function.update (Function.update (W1 m c) main_v16_0 ((dat0 (E1 m) c).arrAt 4 cfg0.N)) main_v16_1 ((dat0 (E1 m) c).arrAt 5 cfg0.N)) main_v16_2 ((dat0 (E1 m) c).arrAt 6 cfg0.N) := rfl
/-- Region 1's proof data in the family, and the chain's contents after the region, spelt out. -/
theorem pdats_1 (c : Dev nD) : pdats m 1 c = dat1 (E3 m XX) c := rfl
theorem W4_unfold (c : Dev nD) : W4 m XX c = Function.update (W3 m XX c) main_v25 ((dat1 (E3 m XX) c).arrAt 5 cfg1.N) := rfl
/-- Region 2's proof data in the family, and the chain's contents after the region, spelt out. -/
theorem pdats_2 (c : Dev nD) : pdats m 2 c = dat2 (E5 m XX) c := rfl
theorem W6_unfold (c : Dev nD) : W6 m XX c = Function.update (Function.update (Function.update (W5 m XX c) main_v42_0 ((dat2 (E5 m XX) c).arrAt 4 cfg2.N)) main_v42_1 ((dat2 (E5 m XX) c).arrAt 5 cfg2.N)) main_v42_2 ((dat2 (E5 m XX) c).arrAt 6 cfg2.N) := rfl
/-- Region 3's proof data in the family, and the chain's contents after the region, spelt out. -/
theorem pdats_3 (c : Dev nD) : pdats m 3 c = dat3 (E7 m XX) c := rfl
theorem W8_unfold (c : Dev nD) : W8 m XX c = Function.update (W7 m XX c) main_v51 ((dat3 (E7 m XX) c).arrAt 5 cfg3.N) := rfl
/-- Region 4's proof data in the family, and the chain's contents after the region, spelt out. -/
theorem pdats_4 (c : Dev nD) : pdats m 4 c = dat4 (E9 m XX) c := rfl
theorem W10_unfold (c : Dev nD) : W10 m XX c = Function.update (Function.update (Function.update (W9 m XX c) main_v68_0 ((dat4 (E9 m XX) c).arrAt 4 cfg4.N)) main_v68_1 ((dat4 (E9 m XX) c).arrAt 5 cfg4.N)) main_v68_2 ((dat4 (E9 m XX) c).arrAt 6 cfg4.N) := rfl
/-- Region 5's proof data in the family, and the chain's contents after the region, spelt out. -/
theorem pdats_5 (c : Dev nD) : pdats m 5 c = dat5 (E11 m XX) c := rfl
theorem W12_unfold (c : Dev nD) : W12 m XX c = Function.update (W11 m XX c) main_v77 ((dat5 (E11 m XX) c).arrAt 5 cfg5.N) := rfl
/-- Region 6's proof data in the family, and the chain's contents after the region, spelt out. -/
theorem pdats_6 (c : Dev nD) : pdats m 6 c = dat6 (E13 m XX) c := rfl
theorem W14_unfold (c : Dev nD) : W14 m XX c = Function.update (Function.update (Function.update (W13 m XX c) main_v94_0 ((dat6 (E13 m XX) c).arrAt 4 cfg6.N)) main_v94_1 ((dat6 (E13 m XX) c).arrAt 5 cfg6.N)) main_v94_2 ((dat6 (E13 m XX) c).arrAt 6 cfg6.N) := rfl
/-- Region 7's proof data in the family, and the chain's contents after the region, spelt out. -/
theorem pdats_7 (c : Dev nD) : pdats m 7 c = dat7 (E15 m XX) c := rfl
theorem W16_unfold (c : Dev nD) : W16 m XX c = Function.update (W15 m XX c) main_v103 ((dat7 (E15 m XX) c).arrAt 5 cfg7.N) := rfl
/-- Region 8's proof data in the family, and the chain's contents after the region, spelt out. -/
theorem pdats_8 (c : Dev nD) : pdats m 8 c = dat8 (E17 m XX) c := rfl
theorem W18_unfold (c : Dev nD) : W18 m XX c = Function.update (Function.update (Function.update (W17 m XX c) main_v120_0 ((dat8 (E17 m XX) c).arrAt 4 cfg8.N)) main_v120_1 ((dat8 (E17 m XX) c).arrAt 5 cfg8.N)) main_v120_2 ((dat8 (E17 m XX) c).arrAt 6 cfg8.N) := rfl
/-- Region 9's proof data in the family, and the chain's contents after the region, spelt out. -/
theorem pdats_9 (c : Dev nD) : pdats m 9 c = dat9 (E19 m XX) c := rfl
theorem W20_unfold (c : Dev nD) : W20 m XX c = Function.update (W19 m XX c) main_v129 ((dat9 (E19 m XX) c).arrAt 5 cfg9.N) := rfl
/-- Region 10's proof data in the family, and the chain's contents after the region, spelt out. -/
theorem pdats_10 (c : Dev nD) : pdats m 10 c = dat10 (E21 m XX) c := rfl
theorem W22_unfold (c : Dev nD) : W22 m XX c = Function.update (Function.update (Function.update (W21 m XX c) main_v146_0 ((dat10 (E21 m XX) c).arrAt 4 cfg10.N)) main_v146_1 ((dat10 (E21 m XX) c).arrAt 5 cfg10.N)) main_v146_2 ((dat10 (E21 m XX) c).arrAt 6 cfg10.N) := rfl
/-- Region 11's proof data in the family, and the chain's contents after the region, spelt out. -/
theorem pdats_11 (c : Dev nD) : pdats m 11 c = dat11 (E23 m XX) c := rfl
theorem W24_unfold (c : Dev nD) : W24 m XX c = Function.update (W23 m XX c) main_v155 ((dat11 (E23 m XX) c).arrAt 5 cfg11.N) := rfl
/-- Region 12's proof data in the family, and the chain's contents after the region, spelt out. -/
theorem pdats_12 (c : Dev nD) : pdats m 12 c = dat12 (E25 m XX) c := rfl
theorem W26_unfold (c : Dev nD) : W26 m XX c = Function.update (W25 m XX c) main_v172 ((dat12 (E25 m XX) c).arrAt 4 cfg12.N) := rfl
/-- Region 13's proof data in the family, and the chain's contents after the region, spelt out. -/
theorem pdats_13 (c : Dev nD) : pdats m 13 c = dat13 (E27 m XX) c := rfl
theorem W28_unfold (c : Dev nD) : W28 m XX c = Function.update (W27 m XX c) main_v189 ((dat13 (E27 m XX) c).arrAt 4 cfg13.N) := rfl

end Cert.KernelIdeal.Hand

end
-- ==== Proof.Reg0.lean ====
/-
  Region 0 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF0_0 (c : Dev nD) : (dat0 (E1 m) c).arrAt 0 cfg0.N = W2 m XX c (Pipeline.arrRef spec0 0) := by
  refine ((dat0 (E1 m) c).arrAt_in 0 rfl _).trans ((A_eq0 (E1 m) c 0).trans ?_)
  rw [W2_unfold]
  exact ((Function.update_of_ne (StableHlo.devRef_ne_of_ne (by decide : Pipeline.arrRef spec0 0 ≠ main_v16_2)) _ _).trans ((Function.update_of_ne (StableHlo.devRef_ne_of_ne (by decide : Pipeline.arrRef spec0 0 ≠ main_v16_1)) _ _).trans (Function.update_of_ne (StableHlo.devRef_ne_of_ne (by decide : Pipeline.arrRef spec0 0 ≠ main_v16_0)) _ _))).symm
theorem hF0_1 (c : Dev nD) : (dat0 (E1 m) c).arrAt 1 cfg0.N = W2 m XX c (Pipeline.arrRef spec0 1) := by
  refine ((dat0 (E1 m) c).arrAt_in 1 rfl _).trans ((A_eq0 (E1 m) c 1).trans ?_)
  rw [W2_unfold]
  exact ((Function.update_of_ne (StableHlo.devRef_ne_of_ne (by decide : Pipeline.arrRef spec0 1 ≠ main_v16_2)) _ _).trans ((Function.update_of_ne (StableHlo.devRef_ne_of_ne (by decide : Pipeline.arrRef spec0 1 ≠ main_v16_1)) _ _).trans (Function.update_of_ne (StableHlo.devRef_ne_of_ne (by decide : Pipeline.arrRef spec0 1 ≠ main_v16_0)) _ _))).symm
theorem hF0_2 (c : Dev nD) : (dat0 (E1 m) c).arrAt 2 cfg0.N = W2 m XX c (Pipeline.arrRef spec0 2) := by
  refine ((dat0 (E1 m) c).arrAt_in 2 rfl _).trans ((A_eq0 (E1 m) c 2).trans ?_)
  rw [W2_unfold]
  exact ((Function.update_of_ne (StableHlo.devRef_ne_of_ne (by decide : Pipeline.arrRef spec0 2 ≠ main_v16_2)) _ _).trans ((Function.update_of_ne (StableHlo.devRef_ne_of_ne (by decide : Pipeline.arrRef spec0 2 ≠ main_v16_1)) _ _).trans (Function.update_of_ne (StableHlo.devRef_ne_of_ne (by decide : Pipeline.arrRef spec0 2 ≠ main_v16_0)) _ _))).symm
theorem hF0_3 (c : Dev nD) : (dat0 (E1 m) c).arrAt 3 cfg0.N = W2 m XX c (Pipeline.arrRef spec0 3) := by
  refine ((dat0 (E1 m) c).arrAt_in 3 rfl _).trans ((A_eq0 (E1 m) c 3).trans ?_)
  rw [W2_unfold]
  exact ((Function.update_of_ne (StableHlo.devRef_ne_of_ne (by decide : Pipeline.arrRef spec0 3 ≠ main_v16_2)) _ _).trans ((Function.update_of_ne (StableHlo.devRef_ne_of_ne (by decide : Pipeline.arrRef spec0 3 ≠ main_v16_1)) _ _).trans (Function.update_of_ne (StableHlo.devRef_ne_of_ne (by decide : Pipeline.arrRef spec0 3 ≠ main_v16_0)) _ _))).symm
theorem hF0_4 (c : Dev nD) : (dat0 (E1 m) c).arrAt 4 cfg0.N = W2 m XX c main_v16_0 := by
  have h2 : (Proc.devRef .tc main_v16_0 : DevRef τ sig) ≠ Proc.devRef .tc main_v16_2 := StableHlo.devRef_ne_of_ne (by decide)
  have h1 : (Proc.devRef .tc main_v16_0 : DevRef τ sig) ≠ Proc.devRef .tc main_v16_1 := StableHlo.devRef_ne_of_ne (by decide)
  rw [W2_unfold, Function.update_of_ne h2, Function.update_of_ne h1, Function.update_self]
theorem hF0_5 (c : Dev nD) : (dat0 (E1 m) c).arrAt 5 cfg0.N = W2 m XX c main_v16_1 := by
  have h2 : (Proc.devRef .tc main_v16_1 : DevRef τ sig) ≠ Proc.devRef .tc main_v16_2 := StableHlo.devRef_ne_of_ne (by decide)
  rw [W2_unfold, Function.update_of_ne h2, Function.update_self]
theorem hF0_6 (c : Dev nD) : (dat0 (E1 m) c).arrAt 6 cfg0.N = W2 m XX c main_v16_2 := by
  rw [W2_unfold, Function.update_self]

/-- Region 0's arrays after the region are what its proof data leaves: an output's array the write-backs folded,
    an input's array its entry contents. -/
theorem hF0 (c : Dev nD) (w : Fin cfg0.W) :
    (pdats m 0 c).arrAt w cfg0.N = (fun b : Ref sig .tc => W2 m XX c b) (Pipeline.arrRef spec0 w) := by
  rw [pdats_0]
  fin_cases w
  · exact hF0_0 m c
  · exact hF0_1 m c
  · exact hF0_2 m c
  · exact hF0_3 m c
  · exact hF0_4 m c
  · exact hF0_5 m c
  · exact hF0_6 m c
/-- Every other buffer is as the region found it. -/
theorem hrest0 (c : Dev nD) : ∀ b : Ref sig .tc, b ∉ Finset.univ.image (Pipeline.arrRef spec0) →
    (fun b : Ref sig .tc => W2 m XX c b) b = (fun b : Ref sig .tc => W1 m c b) b := by
  intro b hb
  show W2 m XX c b = W1 m c b
  have h0 : (Proc.devRef .tc b : DevRef τ sig) ≠ Proc.devRef .tc main_v16_0 :=
    StableHlo.devRef_ne_of_ne fun e => hb (Finset.mem_image.mpr ⟨4, Finset.mem_univ _, (e.symm : Pipeline.arrRef spec0 4 = b)⟩)
  have h1 : (Proc.devRef .tc b : DevRef τ sig) ≠ Proc.devRef .tc main_v16_1 :=
    StableHlo.devRef_ne_of_ne fun e => hb (Finset.mem_image.mpr ⟨5, Finset.mem_univ _, (e.symm : Pipeline.arrRef spec0 5 = b)⟩)
  have h2 : (Proc.devRef .tc b : DevRef τ sig) ≠ Proc.devRef .tc main_v16_2 :=
    StableHlo.devRef_ne_of_ne fun e => hb (Finset.mem_image.mpr ⟨6, Finset.mem_univ _, (e.symm : Pipeline.arrRef spec0 6 = b)⟩)
  rw [W2_unfold, Function.update_of_ne h2, Function.update_of_ne h1, Function.update_of_ne h0]

set_option backward.isDefEq.respectTransparency.types false in
/-- Region 0 over the thread state: entered from every unscoped buffer at the chain's contents before it, left at
    the contents after it. Its arrays are split out of the unscoped buffers and put back at their exit contents; the
    generator register goes into the region's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m XX c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (E1 m) c _
  hout c := hout0 (E1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b : Ref sig .tc => W2 m XX c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg1.lean ====
/-
  Region 1 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF1_0 (c : Dev nD) : (dat1 (E3 m XX) c).arrAt 0 cfg1.N = W4 m XX c (Pipeline.arrRef spec1 0) := by
  refine ((dat1 (E3 m XX) c).arrAt_in 0 rfl _).trans ((A_eq1 (E3 m XX) c 0).trans ?_)
  rw [W4_unfold]
  exact (Function.update_of_ne (StableHlo.devRef_ne_of_ne (by decide : Pipeline.arrRef spec1 0 ≠ main_v25)) _ _).symm
theorem hF1_1 (c : Dev nD) : (dat1 (E3 m XX) c).arrAt 1 cfg1.N = W4 m XX c (Pipeline.arrRef spec1 1) := by
  refine ((dat1 (E3 m XX) c).arrAt_in 1 rfl _).trans ((A_eq1 (E3 m XX) c 1).trans ?_)
  rw [W4_unfold]
  exact (Function.update_of_ne (StableHlo.devRef_ne_of_ne (by decide : Pipeline.arrRef spec1 1 ≠ main_v25)) _ _).symm
theorem hF1_2 (c : Dev nD) : (dat1 (E3 m XX) c).arrAt 2 cfg1.N = W4 m XX c (Pipeline.arrRef spec1 2) := by
  refine ((dat1 (E3 m XX) c).arrAt_in 2 rfl _).trans ((A_eq1 (E3 m XX) c 2).trans ?_)
  rw [W4_unfold]
  exact (Function.update_of_ne (StableHlo.devRef_ne_of_ne (by decide : Pipeline.arrRef spec1 2 ≠ main_v25)) _ _).symm
theorem hF1_3 (c : Dev nD) : (dat1 (E3 m XX) c).arrAt 3 cfg1.N = W4 m XX c (Pipeline.arrRef spec1 3) := by
  refine ((dat1 (E3 m XX) c).arrAt_in 3 rfl _).trans ((A_eq1 (E3 m XX) c 3).trans ?_)
  rw [W4_unfold]
  exact (Function.update_of_ne (StableHlo.devRef_ne_of_ne (by decide : Pipeline.arrRef spec1 3 ≠ main_v25)) _ _).symm
theorem hF1_4 (c : Dev nD) : (dat1 (E3 m XX) c).arrAt 4 cfg1.N = W4 m XX c (Pipeline.arrRef spec1 4) := by
  refine ((dat1 (E3 m XX) c).arrAt_in 4 rfl _).trans ((A_eq1 (E3 m XX) c 4).trans ?_)
  rw [W4_unfold]
  exact (Function.update_of_ne (StableHlo.devRef_ne_of_ne (by decide : Pipeline.arrRef spec1 4 ≠ main_v25)) _ _).symm
theorem hF1_5 (c : Dev nD) : (dat1 (E3 m XX) c).arrAt 5 cfg1.N = W4 m XX c main_v25 := by
  rw [W4_unfold, Function.update_self]

/-- Region 1's arrays after the region are what its proof data leaves: an output's array the write-backs folded,
    an input's array its entry contents. -/
theorem hF1 (c : Dev nD) (w : Fin cfg1.W) :
    (pdats m 1 c).arrAt w cfg1.N = (fun b : Ref sig .tc => W4 m XX c b) (Pipeline.arrRef spec1 w) := by
  rw [pdats_1]
  fin_cases w
  · exact hF1_0 m c
  · exact hF1_1 m c
  · exact hF1_2 m c
  · exact hF1_3 m c
  · exact hF1_4 m c
  · exact hF1_5 m c
/-- Every other buffer is as the region found it. -/
theorem hrest1 (c : Dev nD) : ∀ b : Ref sig .tc, b ∉ Finset.univ.image (Pipeline.arrRef spec1) →
    (fun b : Ref sig .tc => W4 m XX c b) b = (fun b : Ref sig .tc => W3 m XX c b) b := by
  intro b hb
  show W4 m XX c b = W3 m XX c b
  have h0 : (Proc.devRef .tc b : DevRef τ sig) ≠ Proc.devRef .tc main_v25 :=
    StableHlo.devRef_ne_of_ne fun e => hb (Finset.mem_image.mpr ⟨5, Finset.mem_univ _, (e.symm : Pipeline.arrRef spec1 5 = b)⟩)
  rw [W4_unfold, Function.update_of_ne h0]

set_option backward.isDefEq.respectTransparency.types false in
/-- Region 1 over the thread state: entered from every unscoped buffer at the chain's contents before it, left at
    the contents after it. Its arrays are split out of the unscoped buffers and put back at their exit contents; the
    generator register goes into the region's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m XX) c).loose
  hwaits := Pipeline.hwaits_of_owed_zero _ _ _ _ L lv 1 fun _ _ => rfl
  pre c := iprop(StableHlo.held (c : Thread nD τ) (Pipeline.ucRefs τ sig) (W3 m XX c) ∗ R c)
  post c := iprop(StableHlo.held (c : Thread nD τ) (Pipeline.ucRefs τ sig) (W4 m XX c) ∗ R c)
  X c := iprop(∃ r, prngReg c r)
  Y c := iprop(∃ r, prngReg c r)
  Z c := Pipeline.unscopedRest (Ix := Unit) (Name := ℕ) (U := UR sig nD τ) (Lvl := ℕ) spec1 c (E3 m XX c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m XX c) (fun b : Ref sig .tc => W4 m XX c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg2.lean ====
/-
  Region 2 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF2_0 (c : Dev nD) : (dat2 (E5 m XX) c).arrAt 0 cfg2.N = W6 m XX c (Pipeline.arrRef spec2 0) := by
  refine ((dat2 (E5 m XX) c).arrAt_in 0 rfl _).trans ((A_eq2 (E5 m XX) c 0).trans ?_)
  rw [W6_unfold]
  exact ((Function.update_of_ne (StableHlo.devRef_ne_of_ne (by decide : Pipeline.arrRef spec2 0 ≠ main_v42_2)) _ _).trans ((Function.update_of_ne (StableHlo.devRef_ne_of_ne (by decide : Pipeline.arrRef spec2 0 ≠ main_v42_1)) _ _).trans (Function.update_of_ne (StableHlo.devRef_ne_of_ne (by decide : Pipeline.arrRef spec2 0 ≠ main_v42_0)) _ _))).symm
theorem hF2_1 (c : Dev nD) : (dat2 (E5 m XX) c).arrAt 1 cfg2.N = W6 m XX c (Pipeline.arrRef spec2 1) := by
  refine ((dat2 (E5 m XX) c).arrAt_in 1 rfl _).trans ((A_eq2 (E5 m XX) c 1).trans ?_)
  rw [W6_unfold]
  exact ((Function.update_of_ne (StableHlo.devRef_ne_of_ne (by decide : Pipeline.arrRef spec2 1 ≠ main_v42_2)) _ _).trans ((Function.update_of_ne (StableHlo.devRef_ne_of_ne (by decide : Pipeline.arrRef spec2 1 ≠ main_v42_1)) _ _).trans (Function.update_of_ne (StableHlo.devRef_ne_of_ne (by decide : Pipeline.arrRef spec2 1 ≠ main_v42_0)) _ _))).symm
theorem hF2_2 (c : Dev nD) : (dat2 (E5 m XX) c).arrAt 2 cfg2.N = W6 m XX c (Pipeline.arrRef spec2 2) := by
  refine ((dat2 (E5 m XX) c).arrAt_in 2 rfl _).trans ((A_eq2 (E5 m XX) c 2).trans ?_)
  rw [W6_unfold]
  exact ((Function.update_of_ne (StableHlo.devRef_ne_of_ne (by decide : Pipeline.arrRef spec2 2 ≠ main_v42_2)) _ _).trans ((Function.update_of_ne (StableHlo.devRef_ne_of_ne (by decide : Pipeline.arrRef spec2 2 ≠ main_v42_1)) _ _).trans (Function.update_of_ne (StableHlo.devRef_ne_of_ne (by decide : Pipeline.arrRef spec2 2 ≠ main_v42_0)) _ _))).symm
theorem hF2_3 (c : Dev nD) : (dat2 (E5 m XX) c).arrAt 3 cfg2.N = W6 m XX c (Pipeline.arrRef spec2 3) := by
  refine ((dat2 (E5 m XX) c).arrAt_in 3 rfl _).trans ((A_eq2 (E5 m XX) c 3).trans ?_)
  rw [W6_unfold]
  exact ((Function.update_of_ne (StableHlo.devRef_ne_of_ne (by decide : Pipeline.arrRef spec2 3 ≠ main_v42_2)) _ _).trans ((Function.update_of_ne (StableHlo.devRef_ne_of_ne (by decide : Pipeline.arrRef spec2 3 ≠ main_v42_1)) _ _).trans (Function.update_of_ne (StableHlo.devRef_ne_of_ne (by decide : Pipeline.arrRef spec2 3 ≠ main_v42_0)) _ _))).symm
theorem hF2_4 (c : Dev nD) : (dat2 (E5 m XX) c).arrAt 4 cfg2.N = W6 m XX c main_v42_0 := by
  have h2 : (Proc.devRef .tc main_v42_0 : DevRef τ sig) ≠ Proc.devRef .tc main_v42_2 := StableHlo.devRef_ne_of_ne (by decide)
  have h1 : (Proc.devRef .tc main_v42_0 : DevRef τ sig) ≠ Proc.devRef .tc main_v42_1 := StableHlo.devRef_ne_of_ne (by decide)
  rw [W6_unfold, Function.update_of_ne h2, Function.update_of_ne h1, Function.update_self]
theorem hF2_5 (c : Dev nD) : (dat2 (E5 m XX) c).arrAt 5 cfg2.N = W6 m XX c main_v42_1 := by
  have h2 : (Proc.devRef .tc main_v42_1 : DevRef τ sig) ≠ Proc.devRef .tc main_v42_2 := StableHlo.devRef_ne_of_ne (by decide)
  rw [W6_unfold, Function.update_of_ne h2, Function.update_self]
theorem hF2_6 (c : Dev nD) : (dat2 (E5 m XX) c).arrAt 6 cfg2.N = W6 m XX c main_v42_2 := by
  rw [W6_unfold, Function.update_self]

/-- Region 2's arrays after the region are what its proof data leaves: an output's array the write-backs folded,
    an input's array its entry contents. -/
theorem hF2 (c : Dev nD) (w : Fin cfg2.W) :
    (pdats m 2 c).arrAt w cfg2.N = (fun b : Ref sig .tc => W6 m XX c b) (Pipeline.arrRef spec2 w) := by
  rw [pdats_2]
  fin_cases w
  · exact hF2_0 m c
  · exact hF2_1 m c
  · exact hF2_2 m c
  · exact hF2_3 m c
  · exact hF2_4 m c
  · exact hF2_5 m c
  · exact hF2_6 m c
/-- Every other buffer is as the region found it. -/
theorem hrest2 (c : Dev nD) : ∀ b : Ref sig .tc, b ∉ Finset.univ.image (Pipeline.arrRef spec2) →
    (fun b : Ref sig .tc => W6 m XX c b) b = (fun b : Ref sig .tc => W5 m XX c b) b := by
  intro b hb
  show W6 m XX c b = W5 m XX c b
  have h0 : (Proc.devRef .tc b : DevRef τ sig) ≠ Proc.devRef .tc main_v42_0 :=
    StableHlo.devRef_ne_of_ne fun e => hb (Finset.mem_image.mpr ⟨4, Finset.mem_univ _, (e.symm : Pipeline.arrRef spec2 4 = b)⟩)
  have h1 : (Proc.devRef .tc b : DevRef τ sig) ≠ Proc.devRef .tc main_v42_1 :=
    StableHlo.devRef_ne_of_ne fun e => hb (Finset.mem_image.mpr ⟨5, Finset.mem_univ _, (e.symm : Pipeline.arrRef spec2 5 = b)⟩)
  have h2 : (Proc.devRef .tc b : DevRef τ sig) ≠ Proc.devRef .tc main_v42_2 :=
    StableHlo.devRef_ne_of_ne fun e => hb (Finset.mem_image.mpr ⟨6, Finset.mem_univ _, (e.symm : Pipeline.arrRef spec2 6 = b)⟩)
  rw [W6_unfold, Function.update_of_ne h2, Function.update_of_ne h1, Function.update_of_ne h0]

set_option backward.isDefEq.respectTransparency.types false in
/-- Region 2 over the thread state: entered from every unscoped buffer at the chain's contents before it, left at
    the contents after it. Its arrays are split out of the unscoped buffers and put back at their exit contents; the
    generator register goes into the region's invariant and comes back; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m XX) c).loose
  hwaits := Pipeline.hwaits_of_owed_zero _ _ _ _ L lv 2 fun _ _ => rfl
  pre c := iprop(StableHlo.held (c : Thread nD τ) (Pipeline.ucRefs τ sig) (W5 m XX c) ∗ R c)
  post c := iprop(StableHlo.held (c : Thread nD τ) (Pipeline.ucRefs τ sig) (W6 m XX c) ∗ R c)
  X c := iprop(∃ r, prngReg c r)
  Y c := iprop(∃ r, prngReg c r)
  Z c := Pipeline.unscopedRest (Ix := Unit) (Name := ℕ) (U := UR sig nD τ) (Lvl := ℕ) spec2 c (E5 m XX c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (E5 m XX) c _
  hout c := hout2 (E5 m XX) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m XX c) (fun b : Ref sig .tc => W6 m XX c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg3.lean ====
/-
  Region 3 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF3_0 (c : Dev nD) : (dat3 (E7 m XX) c).arrAt 0 cfg3.N = W8 m XX c (Pipeline.arrRef spec3 0) := by
  refine ((dat3 (E7 m XX) c).arrAt_in 0 rfl _).trans ((A_eq3 (E7 m XX) c 0).trans ?_)
  rw [W8_unfold]
  exact (Function.update_of_ne (StableHlo.devRef_ne_of_ne (by decide : Pipeline.arrRef spec3 0 ≠ main_v51)) _ _).symm
theorem hF3_1 (c : Dev nD) : (dat3 (E7 m XX) c).arrAt 1 cfg3.N = W8 m XX c (Pipeline.arrRef spec3 1) := by
  refine ((dat3 (E7 m XX) c).arrAt_in 1 rfl _).trans ((A_eq3 (E7 m XX) c 1).trans ?_)
  rw [W8_unfold]
  exact (Function.update_of_ne (StableHlo.devRef_ne_of_ne (by decide : Pipeline.arrRef spec3 1 ≠ main_v51)) _ _).symm
theorem hF3_2 (c : Dev nD) : (dat3 (E7 m XX) c).arrAt 2 cfg3.N = W8 m XX c (Pipeline.arrRef spec3 2) := by
  refine ((dat3 (E7 m XX) c).arrAt_in 2 rfl _).trans ((A_eq3 (E7 m XX) c 2).trans ?_)
  rw [W8_unfold]
  exact (Function.update_of_ne (StableHlo.devRef_ne_of_ne (by decide : Pipeline.arrRef spec3 2 ≠ main_v51)) _ _).symm
theorem hF3_3 (c : Dev nD) : (dat3 (E7 m XX) c).arrAt 3 cfg3.N = W8 m XX c (Pipeline.arrRef spec3 3) := by
  refine ((dat3 (E7 m XX) c).arrAt_in 3 rfl _).trans ((A_eq3 (E7 m XX) c 3).trans ?_)
  rw [W8_unfold]
  exact (Function.update_of_ne (StableHlo.devRef_ne_of_ne (by decide : Pipeline.arrRef spec3 3 ≠ main_v51)) _ _).symm
theorem hF3_4 (c : Dev nD) : (dat3 (E7 m XX) c).arrAt 4 cfg3.N = W8 m XX c (Pipeline.arrRef spec3 4) := by
  refine ((dat3 (E7 m XX) c).arrAt_in 4 rfl _).trans ((A_eq3 (E7 m XX) c 4).trans ?_)
  rw [W8_unfold]
  exact (Function.update_of_ne (StableHlo.devRef_ne_of_ne (by decide : Pipeline.arrRef spec3 4 ≠ main_v51)) _ _).symm
theorem hF3_5 (c : Dev nD) : (dat3 (E7 m XX) c).arrAt 5 cfg3.N = W8 m XX c main_v51 := by
  rw [W8_unfold, Function.update_self]

/-- Region 3's arrays after the region are what its proof data leaves: an output's array the write-backs folded,
    an input's array its entry contents. -/
theorem hF3 (c : Dev nD) (w : Fin cfg3.W) :
    (pdats m 3 c).arrAt w cfg3.N = (fun b : Ref sig .tc => W8 m XX c b) (Pipeline.arrRef spec3 w) := by
  rw [pdats_3]
  fin_cases w
  · exact hF3_0 m c
  · exact hF3_1 m c
  · exact hF3_2 m c
  · exact hF3_3 m c
  · exact hF3_4 m c
  · exact hF3_5 m c
/-- Every other buffer is as the region found it. -/
theorem hrest3 (c : Dev nD) : ∀ b : Ref sig .tc, b ∉ Finset.univ.image (Pipeline.arrRef spec3) →
    (fun b : Ref sig .tc => W8 m XX c b) b = (fun b : Ref sig .tc => W7 m XX c b) b := by
  intro b hb
  show W8 m XX c b = W7 m XX c b
  have h0 : (Proc.devRef .tc b : DevRef τ sig) ≠ Proc.devRef .tc main_v51 :=
    StableHlo.devRef_ne_of_ne fun e => hb (Finset.mem_image.mpr ⟨5, Finset.mem_univ _, (e.symm : Pipeline.arrRef spec3 5 = b)⟩)
  rw [W8_unfold, Function.update_of_ne h0]

set_option backward.isDefEq.respectTransparency.types false in
/-- Region 3 over the thread state: entered from every unscoped buffer at the chain's contents before it, left at
    the contents after it. Its arrays are split out of the unscoped buffers and put back at their exit contents; the
    generator register goes into the region's invariant and comes back; nothing is owed; the kernel has no semaphore
    of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m XX) c).loose
  hwaits := Pipeline.hwaits_of_owed_zero _ _ _ _ L lv 3 fun _ _ => rfl
  pre c := iprop(StableHlo.held (c : Thread nD τ) (Pipeline.ucRefs τ sig) (W7 m XX c) ∗ R c)
  post c := iprop(StableHlo.held (c : Thread nD τ) (Pipeline.ucRefs τ sig) (W8 m XX c) ∗ R c)
  X c := iprop(∃ r, prngReg c r)
  Y c := iprop(∃ r, prngReg c r)
  Z c := Pipeline.unscopedRest (Ix := Unit) (Name := ℕ) (U := UR sig nD τ) (Lvl := ℕ) spec3 c (E7 m XX c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m XX c) (fun b : Ref sig .tc => W8 m XX c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg4.lean ====
/-
  Region 4 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF4_0 (c : Dev nD) : (dat4 (E9 m XX) c).arrAt 0 cfg4.N = W10 m XX c (Pipeline.arrRef spec4 0) := by
  refine ((dat4 (E9 m XX) c).arrAt_in 0 rfl _).trans ((A_eq4 (E9 m XX) c 0).trans ?_)
  rw [W10_unfold]
  exact ((Function.update_of_ne (StableHlo.devRef_ne_of_ne (by decide : Pipeline.arrRef spec4 0 ≠ main_v68_2)) _ _).trans ((Function.update_of_ne (StableHlo.devRef_ne_of_ne (by decide : Pipeline.arrRef spec4 0 ≠ main_v68_1)) _ _).trans (Function.update_of_ne (StableHlo.devRef_ne_of_ne (by decide : Pipeline.arrRef spec4 0 ≠ main_v68_0)) _ _))).symm
theorem hF4_1 (c : Dev nD) : (dat4 (E9 m XX) c).arrAt 1 cfg4.N = W10 m XX c (Pipeline.arrRef spec4 1) := by
  refine ((dat4 (E9 m XX) c).arrAt_in 1 rfl _).trans ((A_eq4 (E9 m XX) c 1).trans ?_)
  rw [W10_unfold]
  exact ((Function.update_of_ne (StableHlo.devRef_ne_of_ne (by decide : Pipeline.arrRef spec4 1 ≠ main_v68_2)) _ _).trans ((Function.update_of_ne (StableHlo.devRef_ne_of_ne (by decide : Pipeline.arrRef spec4 1 ≠ main_v68_1)) _ _).trans (Function.update_of_ne (StableHlo.devRef_ne_of_ne (by decide : Pipeline.arrRef spec4 1 ≠ main_v68_0)) _ _))).symm
theorem hF4_2 (c : Dev nD) : (dat4 (E9 m XX) c).arrAt 2 cfg4.N = W10 m XX c (Pipeline.arrRef spec4 2) := by
  refine ((dat4 (E9 m XX) c).arrAt_in 2 rfl _).trans ((A_eq4 (E9 m XX) c 2).trans ?_)
  rw [W10_unfold]
  exact ((Function.update_of_ne (StableHlo.devRef_ne_of_ne (by decide : Pipeline.arrRef spec4 2 ≠ main_v68_2)) _ _).trans ((Function.update_of_ne (StableHlo.devRef_ne_of_ne (by decide : Pipeline.arrRef spec4 2 ≠ main_v68_1)) _ _).trans (Function.update_of_ne (StableHlo.devRef_ne_of_ne (by decide : Pipeline.arrRef spec4 2 ≠ main_v68_0)) _ _))).symm
theorem hF4_3 (c : Dev nD) : (dat4 (E9 m XX) c).arrAt 3 cfg4.N = W10 m XX c (Pipeline.arrRef spec4 3) := by
  refine ((dat4 (E9 m XX) c).arrAt_in 3 rfl _).trans ((A_eq4 (E9 m XX) c 3).trans ?_)
  rw [W10_unfold]
  exact ((Function.update_of_ne (StableHlo.devRef_ne_of_ne (by decide : Pipeline.arrRef spec4 3 ≠ main_v68_2)) _ _).trans ((Function.update_of_ne (StableHlo.devRef_ne_of_ne (by decide : Pipeline.arrRef spec4 3 ≠ main_v68_1)) _ _).trans (Function.update_of_ne (StableHlo.devRef_ne_of_ne (by decide : Pipeline.arrRef spec4 3 ≠ main_v68_0)) _ _))).symm
theorem hF4_4 (c : Dev nD) : (dat4 (E9 m XX) c).arrAt 4 cfg4.N = W10 m XX c main_v68_0 := by
  have h2 : (Proc.devRef .tc main_v68_0 : DevRef τ sig) ≠ Proc.devRef .tc main_v68_2 := StableHlo.devRef_ne_of_ne (by decide)
  have h1 : (Proc.devRef .tc main_v68_0 : DevRef τ sig) ≠ Proc.devRef .tc main_v68_1 := StableHlo.devRef_ne_of_ne (by decide)
  rw [W10_unfold, Function.update_of_ne h2, Function.update_of_ne h1, Function.update_self]
theorem hF4_5 (c : Dev nD) : (dat4 (E9 m XX) c).arrAt 5 cfg4.N = W10 m XX c main_v68_1 := by
  have h2 : (Proc.devRef .tc main_v68_1 : DevRef τ sig) ≠ Proc.devRef .tc main_v68_2 := StableHlo.devRef_ne_of_ne (by decide)
  rw [W10_unfold, Function.update_of_ne h2, Function.update_self]
theorem hF4_6 (c : Dev nD) : (dat4 (E9 m XX) c).arrAt 6 cfg4.N = W10 m XX c main_v68_2 := by
  rw [W10_unfold, Function.update_self]

/-- Region 4's arrays after the region are what its proof data leaves: an output's array the write-backs folded,
    an input's array its entry contents. -/
theorem hF4 (c : Dev nD) (w : Fin cfg4.W) :
    (pdats m 4 c).arrAt w cfg4.N = (fun b : Ref sig .tc => W10 m XX c b) (Pipeline.arrRef spec4 w) := by
  rw [pdats_4]
  fin_cases w
  · exact hF4_0 m c
  · exact hF4_1 m c
  · exact hF4_2 m c
  · exact hF4_3 m c
  · exact hF4_4 m c
  · exact hF4_5 m c
  · exact hF4_6 m c
/-- Every other buffer is as the region found it. -/
theorem hrest4 (c : Dev nD) : ∀ b : Ref sig .tc, b ∉ Finset.univ.image (Pipeline.arrRef spec4) →
    (fun b : Ref sig .tc => W10 m XX c b) b = (fun b : Ref sig .tc => W9 m XX c b) b := by
  intro b hb
  show W10 m XX c b = W9 m XX c b
  have h0 : (Proc.devRef .tc b : DevRef τ sig) ≠ Proc.devRef .tc main_v68_0 :=
    StableHlo.devRef_ne_of_ne fun e => hb (Finset.mem_image.mpr ⟨4, Finset.mem_univ _, (e.symm : Pipeline.arrRef spec4 4 = b)⟩)
  have h1 : (Proc.devRef .tc b : DevRef τ sig) ≠ Proc.devRef .tc main_v68_1 :=
    StableHlo.devRef_ne_of_ne fun e => hb (Finset.mem_image.mpr ⟨5, Finset.mem_univ _, (e.symm : Pipeline.arrRef spec4 5 = b)⟩)
  have h2 : (Proc.devRef .tc b : DevRef τ sig) ≠ Proc.devRef .tc main_v68_2 :=
    StableHlo.devRef_ne_of_ne fun e => hb (Finset.mem_image.mpr ⟨6, Finset.mem_univ _, (e.symm : Pipeline.arrRef spec4 6 = b)⟩)
  rw [W10_unfold, Function.update_of_ne h2, Function.update_of_ne h1, Function.update_of_ne h0]

set_option backward.isDefEq.respectTransparency.types false in
/-- Region 4 over the thread state: entered from every unscoped buffer at the chain's contents before it, left at
    the contents after it. Its arrays are split out of the unscoped buffers and put back at their exit contents; the
    generator register goes into the region's invariant and comes back; nothing is owed; the kernel has no semaphore
    of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E9 m XX) c).loose
  hwaits := Pipeline.hwaits_of_owed_zero _ _ _ _ L lv 4 fun _ _ => rfl
  pre c := iprop(StableHlo.held (c : Thread nD τ) (Pipeline.ucRefs τ sig) (W9 m XX c) ∗ R c)
  post c := iprop(StableHlo.held (c : Thread nD τ) (Pipeline.ucRefs τ sig) (W10 m XX c) ∗ R c)
  X c := iprop(∃ r, prngReg c r)
  Y c := iprop(∃ r, prngReg c r)
  Z c := Pipeline.unscopedRest (Ix := Unit) (Name := ℕ) (U := UR sig nD τ) (Lvl := ℕ) spec4 c (E9 m XX c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (E9 m XX) c _
  hout c := hout4 (E9 m XX) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m XX c) (fun b : Ref sig .tc => W10 m XX c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg5.lean ====
/-
  Region 5 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF5_0 (c : Dev nD) : (dat5 (E11 m XX) c).arrAt 0 cfg5.N = W12 m XX c (Pipeline.arrRef spec5 0) := by
  refine ((dat5 (E11 m XX) c).arrAt_in 0 rfl _).trans ((A_eq5 (E11 m XX) c 0).trans ?_)
  rw [W12_unfold]
  exact (Function.update_of_ne (StableHlo.devRef_ne_of_ne (by decide : Pipeline.arrRef spec5 0 ≠ main_v77)) _ _).symm
theorem hF5_1 (c : Dev nD) : (dat5 (E11 m XX) c).arrAt 1 cfg5.N = W12 m XX c (Pipeline.arrRef spec5 1) := by
  refine ((dat5 (E11 m XX) c).arrAt_in 1 rfl _).trans ((A_eq5 (E11 m XX) c 1).trans ?_)
  rw [W12_unfold]
  exact (Function.update_of_ne (StableHlo.devRef_ne_of_ne (by decide : Pipeline.arrRef spec5 1 ≠ main_v77)) _ _).symm
theorem hF5_2 (c : Dev nD) : (dat5 (E11 m XX) c).arrAt 2 cfg5.N = W12 m XX c (Pipeline.arrRef spec5 2) := by
  refine ((dat5 (E11 m XX) c).arrAt_in 2 rfl _).trans ((A_eq5 (E11 m XX) c 2).trans ?_)
  rw [W12_unfold]
  exact (Function.update_of_ne (StableHlo.devRef_ne_of_ne (by decide : Pipeline.arrRef spec5 2 ≠ main_v77)) _ _).symm
theorem hF5_3 (c : Dev nD) : (dat5 (E11 m XX) c).arrAt 3 cfg5.N = W12 m XX c (Pipeline.arrRef spec5 3) := by
  refine ((dat5 (E11 m XX) c).arrAt_in 3 rfl _).trans ((A_eq5 (E11 m XX) c 3).trans ?_)
  rw [W12_unfold]
  exact (Function.update_of_ne (StableHlo.devRef_ne_of_ne (by decide : Pipeline.arrRef spec5 3 ≠ main_v77)) _ _).symm
theorem hF5_4 (c : Dev nD) : (dat5 (E11 m XX) c).arrAt 4 cfg5.N = W12 m XX c (Pipeline.arrRef spec5 4) := by
  refine ((dat5 (E11 m XX) c).arrAt_in 4 rfl _).trans ((A_eq5 (E11 m XX) c 4).trans ?_)
  rw [W12_unfold]
  exact (Function.update_of_ne (StableHlo.devRef_ne_of_ne (by decide : Pipeline.arrRef spec5 4 ≠ main_v77)) _ _).symm
theorem hF5_5 (c : Dev nD) : (dat5 (E11 m XX) c).arrAt 5 cfg5.N = W12 m XX c main_v77 := by
  rw [W12_unfold, Function.update_self]

/-- Region 5's arrays after the region are what its proof data leaves: an output's array the write-backs folded,
    an input's array its entry contents. -/
theorem hF5 (c : Dev nD) (w : Fin cfg5.W) :
    (pdats m 5 c).arrAt w cfg5.N = (fun b : Ref sig .tc => W12 m XX c b) (Pipeline.arrRef spec5 w) := by
  rw [pdats_5]
  fin_cases w
  · exact hF5_0 m c
  · exact hF5_1 m c
  · exact hF5_2 m c
  · exact hF5_3 m c
  · exact hF5_4 m c
  · exact hF5_5 m c
/-- Every other buffer is as the region found it. -/
theorem hrest5 (c : Dev nD) : ∀ b : Ref sig .tc, b ∉ Finset.univ.image (Pipeline.arrRef spec5) →
    (fun b : Ref sig .tc => W12 m XX c b) b = (fun b : Ref sig .tc => W11 m XX c b) b := by
  intro b hb
  show W12 m XX c b = W11 m XX c b
  have h0 : (Proc.devRef .tc b : DevRef τ sig) ≠ Proc.devRef .tc main_v77 :=
    StableHlo.devRef_ne_of_ne fun e => hb (Finset.mem_image.mpr ⟨5, Finset.mem_univ _, (e.symm : Pipeline.arrRef spec5 5 = b)⟩)
  rw [W12_unfold, Function.update_of_ne h0]

set_option backward.isDefEq.respectTransparency.types false in
/-- Region 5 over the thread state: entered from every unscoped buffer at the chain's contents before it, left at
    the contents after it. Its arrays are split out of the unscoped buffers and put back at their exit contents; the
    generator register goes into the region's invariant and comes back; nothing is owed; the kernel has no semaphore
    of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E11 m XX) c).loose
  hwaits := Pipeline.hwaits_of_owed_zero _ _ _ _ L lv 5 fun _ _ => rfl
  pre c := iprop(StableHlo.held (c : Thread nD τ) (Pipeline.ucRefs τ sig) (W11 m XX c) ∗ R c)
  post c := iprop(StableHlo.held (c : Thread nD τ) (Pipeline.ucRefs τ sig) (W12 m XX c) ∗ R c)
  X c := iprop(∃ r, prngReg c r)
  Y c := iprop(∃ r, prngReg c r)
  Z c := Pipeline.unscopedRest (Ix := Unit) (Name := ℕ) (U := UR sig nD τ) (Lvl := ℕ) spec5 c (E11 m XX c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m XX c) (fun b : Ref sig .tc => W12 m XX c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg6.lean ====
/-
  Region 6 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF6_0 (c : Dev nD) : (dat6 (E13 m XX) c).arrAt 0 cfg6.N = W14 m XX c (Pipeline.arrRef spec6 0) := by
  refine ((dat6 (E13 m XX) c).arrAt_in 0 rfl _).trans ((A_eq6 (E13 m XX) c 0).trans ?_)
  rw [W14_unfold]
  exact ((Function.update_of_ne (StableHlo.devRef_ne_of_ne (by decide : Pipeline.arrRef spec6 0 ≠ main_v94_2)) _ _).trans ((Function.update_of_ne (StableHlo.devRef_ne_of_ne (by decide : Pipeline.arrRef spec6 0 ≠ main_v94_1)) _ _).trans (Function.update_of_ne (StableHlo.devRef_ne_of_ne (by decide : Pipeline.arrRef spec6 0 ≠ main_v94_0)) _ _))).symm
theorem hF6_1 (c : Dev nD) : (dat6 (E13 m XX) c).arrAt 1 cfg6.N = W14 m XX c (Pipeline.arrRef spec6 1) := by
  refine ((dat6 (E13 m XX) c).arrAt_in 1 rfl _).trans ((A_eq6 (E13 m XX) c 1).trans ?_)
  rw [W14_unfold]
  exact ((Function.update_of_ne (StableHlo.devRef_ne_of_ne (by decide : Pipeline.arrRef spec6 1 ≠ main_v94_2)) _ _).trans ((Function.update_of_ne (StableHlo.devRef_ne_of_ne (by decide : Pipeline.arrRef spec6 1 ≠ main_v94_1)) _ _).trans (Function.update_of_ne (StableHlo.devRef_ne_of_ne (by decide : Pipeline.arrRef spec6 1 ≠ main_v94_0)) _ _))).symm
theorem hF6_2 (c : Dev nD) : (dat6 (E13 m XX) c).arrAt 2 cfg6.N = W14 m XX c (Pipeline.arrRef spec6 2) := by
  refine ((dat6 (E13 m XX) c).arrAt_in 2 rfl _).trans ((A_eq6 (E13 m XX) c 2).trans ?_)
  rw [W14_unfold]
  exact ((Function.update_of_ne (StableHlo.devRef_ne_of_ne (by decide : Pipeline.arrRef spec6 2 ≠ main_v94_2)) _ _).trans ((Function.update_of_ne (StableHlo.devRef_ne_of_ne (by decide : Pipeline.arrRef spec6 2 ≠ main_v94_1)) _ _).trans (Function.update_of_ne (StableHlo.devRef_ne_of_ne (by decide : Pipeline.arrRef spec6 2 ≠ main_v94_0)) _ _))).symm
theorem hF6_3 (c : Dev nD) : (dat6 (E13 m XX) c).arrAt 3 cfg6.N = W14 m XX c (Pipeline.arrRef spec6 3) := by
  refine ((dat6 (E13 m XX) c).arrAt_in 3 rfl _).trans ((A_eq6 (E13 m XX) c 3).trans ?_)
  rw [W14_unfold]
  exact ((Function.update_of_ne (StableHlo.devRef_ne_of_ne (by decide : Pipeline.arrRef spec6 3 ≠ main_v94_2)) _ _).trans ((Function.update_of_ne (StableHlo.devRef_ne_of_ne (by decide : Pipeline.arrRef spec6 3 ≠ main_v94_1)) _ _).trans (Function.update_of_ne (StableHlo.devRef_ne_of_ne (by decide : Pipeline.arrRef spec6 3 ≠ main_v94_0)) _ _))).symm
theorem hF6_4 (c : Dev nD) : (dat6 (E13 m XX) c).arrAt 4 cfg6.N = W14 m XX c main_v94_0 := by
  have h2 : (Proc.devRef .tc main_v94_0 : DevRef τ sig) ≠ Proc.devRef .tc main_v94_2 := StableHlo.devRef_ne_of_ne (by decide)
  have h1 : (Proc.devRef .tc main_v94_0 : DevRef τ sig) ≠ Proc.devRef .tc main_v94_1 := StableHlo.devRef_ne_of_ne (by decide)
  rw [W14_unfold, Function.update_of_ne h2, Function.update_of_ne h1, Function.update_self]
theorem hF6_5 (c : Dev nD) : (dat6 (E13 m XX) c).arrAt 5 cfg6.N = W14 m XX c main_v94_1 := by
  have h2 : (Proc.devRef .tc main_v94_1 : DevRef τ sig) ≠ Proc.devRef .tc main_v94_2 := StableHlo.devRef_ne_of_ne (by decide)
  rw [W14_unfold, Function.update_of_ne h2, Function.update_self]
theorem hF6_6 (c : Dev nD) : (dat6 (E13 m XX) c).arrAt 6 cfg6.N = W14 m XX c main_v94_2 := by
  rw [W14_unfold, Function.update_self]

/-- Region 6's arrays after the region are what its proof data leaves: an output's array the write-backs folded,
    an input's array its entry contents. -/
theorem hF6 (c : Dev nD) (w : Fin cfg6.W) :
    (pdats m 6 c).arrAt w cfg6.N = (fun b : Ref sig .tc => W14 m XX c b) (Pipeline.arrRef spec6 w) := by
  rw [pdats_6]
  fin_cases w
  · exact hF6_0 m c
  · exact hF6_1 m c
  · exact hF6_2 m c
  · exact hF6_3 m c
  · exact hF6_4 m c
  · exact hF6_5 m c
  · exact hF6_6 m c
/-- Every other buffer is as the region found it. -/
theorem hrest6 (c : Dev nD) : ∀ b : Ref sig .tc, b ∉ Finset.univ.image (Pipeline.arrRef spec6) →
    (fun b : Ref sig .tc => W14 m XX c b) b = (fun b : Ref sig .tc => W13 m XX c b) b := by
  intro b hb
  show W14 m XX c b = W13 m XX c b
  have h0 : (Proc.devRef .tc b : DevRef τ sig) ≠ Proc.devRef .tc main_v94_0 :=
    StableHlo.devRef_ne_of_ne fun e => hb (Finset.mem_image.mpr ⟨4, Finset.mem_univ _, (e.symm : Pipeline.arrRef spec6 4 = b)⟩)
  have h1 : (Proc.devRef .tc b : DevRef τ sig) ≠ Proc.devRef .tc main_v94_1 :=
    StableHlo.devRef_ne_of_ne fun e => hb (Finset.mem_image.mpr ⟨5, Finset.mem_univ _, (e.symm : Pipeline.arrRef spec6 5 = b)⟩)
  have h2 : (Proc.devRef .tc b : DevRef τ sig) ≠ Proc.devRef .tc main_v94_2 :=
    StableHlo.devRef_ne_of_ne fun e => hb (Finset.mem_image.mpr ⟨6, Finset.mem_univ _, (e.symm : Pipeline.arrRef spec6 6 = b)⟩)
  rw [W14_unfold, Function.update_of_ne h2, Function.update_of_ne h1, Function.update_of_ne h0]

set_option backward.isDefEq.respectTransparency.types false in
/-- Region 6 over the thread state: entered from every unscoped buffer at the chain's contents before it, left at
    the contents after it. Its arrays are split out of the unscoped buffers and put back at their exit contents; the
    generator register goes into the region's invariant and comes back; nothing is owed; the kernel has no semaphore
    of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E13 m XX) c).loose
  hwaits := Pipeline.hwaits_of_owed_zero _ _ _ _ L lv 6 fun _ _ => rfl
  pre c := iprop(StableHlo.held (c : Thread nD τ) (Pipeline.ucRefs τ sig) (W13 m XX c) ∗ R c)
  post c := iprop(StableHlo.held (c : Thread nD τ) (Pipeline.ucRefs τ sig) (W14 m XX c) ∗ R c)
  X c := iprop(∃ r, prngReg c r)
  Y c := iprop(∃ r, prngReg c r)
  Z c := Pipeline.unscopedRest (Ix := Unit) (Name := ℕ) (U := UR sig nD τ) (Lvl := ℕ) spec6 c (E13 m XX c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin6 (E13 m XX) c _
  hout c := hout6 (E13 m XX) c
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m XX c) (fun b : Ref sig .tc => W14 m XX c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg7.lean ====
/-
  Region 7 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF7_0 (c : Dev nD) : (dat7 (E15 m XX) c).arrAt 0 cfg7.N = W16 m XX c (Pipeline.arrRef spec7 0) := by
  refine ((dat7 (E15 m XX) c).arrAt_in 0 rfl _).trans ((A_eq7 (E15 m XX) c 0).trans ?_)
  rw [W16_unfold]
  exact (Function.update_of_ne (StableHlo.devRef_ne_of_ne (by decide : Pipeline.arrRef spec7 0 ≠ main_v103)) _ _).symm
theorem hF7_1 (c : Dev nD) : (dat7 (E15 m XX) c).arrAt 1 cfg7.N = W16 m XX c (Pipeline.arrRef spec7 1) := by
  refine ((dat7 (E15 m XX) c).arrAt_in 1 rfl _).trans ((A_eq7 (E15 m XX) c 1).trans ?_)
  rw [W16_unfold]
  exact (Function.update_of_ne (StableHlo.devRef_ne_of_ne (by decide : Pipeline.arrRef spec7 1 ≠ main_v103)) _ _).symm
theorem hF7_2 (c : Dev nD) : (dat7 (E15 m XX) c).arrAt 2 cfg7.N = W16 m XX c (Pipeline.arrRef spec7 2) := by
  refine ((dat7 (E15 m XX) c).arrAt_in 2 rfl _).trans ((A_eq7 (E15 m XX) c 2).trans ?_)
  rw [W16_unfold]
  exact (Function.update_of_ne (StableHlo.devRef_ne_of_ne (by decide : Pipeline.arrRef spec7 2 ≠ main_v103)) _ _).symm
theorem hF7_3 (c : Dev nD) : (dat7 (E15 m XX) c).arrAt 3 cfg7.N = W16 m XX c (Pipeline.arrRef spec7 3) := by
  refine ((dat7 (E15 m XX) c).arrAt_in 3 rfl _).trans ((A_eq7 (E15 m XX) c 3).trans ?_)
  rw [W16_unfold]
  exact (Function.update_of_ne (StableHlo.devRef_ne_of_ne (by decide : Pipeline.arrRef spec7 3 ≠ main_v103)) _ _).symm
theorem hF7_4 (c : Dev nD) : (dat7 (E15 m XX) c).arrAt 4 cfg7.N = W16 m XX c (Pipeline.arrRef spec7 4) := by
  refine ((dat7 (E15 m XX) c).arrAt_in 4 rfl _).trans ((A_eq7 (E15 m XX) c 4).trans ?_)
  rw [W16_unfold]
  exact (Function.update_of_ne (StableHlo.devRef_ne_of_ne (by decide : Pipeline.arrRef spec7 4 ≠ main_v103)) _ _).symm
theorem hF7_5 (c : Dev nD) : (dat7 (E15 m XX) c).arrAt 5 cfg7.N = W16 m XX c main_v103 := by
  rw [W16_unfold, Function.update_self]

/-- Region 7's arrays after the region are what its proof data leaves: an output's array the write-backs folded,
    an input's array its entry contents. -/
theorem hF7 (c : Dev nD) (w : Fin cfg7.W) :
    (pdats m 7 c).arrAt w cfg7.N = (fun b : Ref sig .tc => W16 m XX c b) (Pipeline.arrRef spec7 w) := by
  rw [pdats_7]
  fin_cases w
  · exact hF7_0 m c
  · exact hF7_1 m c
  · exact hF7_2 m c
  · exact hF7_3 m c
  · exact hF7_4 m c
  · exact hF7_5 m c
/-- Every other buffer is as the region found it. -/
theorem hrest7 (c : Dev nD) : ∀ b : Ref sig .tc, b ∉ Finset.univ.image (Pipeline.arrRef spec7) →
    (fun b : Ref sig .tc => W16 m XX c b) b = (fun b : Ref sig .tc => W15 m XX c b) b := by
  intro b hb
  show W16 m XX c b = W15 m XX c b
  have h0 : (Proc.devRef .tc b : DevRef τ sig) ≠ Proc.devRef .tc main_v103 :=
    StableHlo.devRef_ne_of_ne fun e => hb (Finset.mem_image.mpr ⟨5, Finset.mem_univ _, (e.symm : Pipeline.arrRef spec7 5 = b)⟩)
  rw [W16_unfold, Function.update_of_ne h0]

set_option backward.isDefEq.respectTransparency.types false in
/-- Region 7 over the thread state: entered from every unscoped buffer at the chain's contents before it, left at
    the contents after it. Its arrays are split out of the unscoped buffers and put back at their exit contents; the
    generator register goes into the region's invariant and comes back; nothing is owed; the kernel has no semaphore
    of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E15 m XX) c).loose
  hwaits := Pipeline.hwaits_of_owed_zero _ _ _ _ L lv 7 fun _ _ => rfl
  pre c := iprop(StableHlo.held (c : Thread nD τ) (Pipeline.ucRefs τ sig) (W15 m XX c) ∗ R c)
  post c := iprop(StableHlo.held (c : Thread nD τ) (Pipeline.ucRefs τ sig) (W16 m XX c) ∗ R c)
  X c := iprop(∃ r, prngReg c r)
  Y c := iprop(∃ r, prngReg c r)
  Z c := Pipeline.unscopedRest (Ix := Unit) (Name := ℕ) (U := UR sig nD τ) (Lvl := ℕ) spec7 c (E15 m XX c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m XX c) (fun b : Ref sig .tc => W16 m XX c b) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg8.lean ====
/-
  Region 8 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF8_0 (c : Dev nD) : (dat8 (E17 m XX) c).arrAt 0 cfg8.N = W18 m XX c (Pipeline.arrRef spec8 0) := by
  refine ((dat8 (E17 m XX) c).arrAt_in 0 rfl _).trans ((A_eq8 (E17 m XX) c 0).trans ?_)
  rw [W18_unfold]
  exact ((Function.update_of_ne (StableHlo.devRef_ne_of_ne (by decide : Pipeline.arrRef spec8 0 ≠ main_v120_2)) _ _).trans ((Function.update_of_ne (StableHlo.devRef_ne_of_ne (by decide : Pipeline.arrRef spec8 0 ≠ main_v120_1)) _ _).trans (Function.update_of_ne (StableHlo.devRef_ne_of_ne (by decide : Pipeline.arrRef spec8 0 ≠ main_v120_0)) _ _))).symm
theorem hF8_1 (c : Dev nD) : (dat8 (E17 m XX) c).arrAt 1 cfg8.N = W18 m XX c (Pipeline.arrRef spec8 1) := by
  refine ((dat8 (E17 m XX) c).arrAt_in 1 rfl _).trans ((A_eq8 (E17 m XX) c 1).trans ?_)
  rw [W18_unfold]
  exact ((Function.update_of_ne (StableHlo.devRef_ne_of_ne (by decide : Pipeline.arrRef spec8 1 ≠ main_v120_2)) _ _).trans ((Function.update_of_ne (StableHlo.devRef_ne_of_ne (by decide : Pipeline.arrRef spec8 1 ≠ main_v120_1)) _ _).trans (Function.update_of_ne (StableHlo.devRef_ne_of_ne (by decide : Pipeline.arrRef spec8 1 ≠ main_v120_0)) _ _))).symm
theorem hF8_2 (c : Dev nD) : (dat8 (E17 m XX) c).arrAt 2 cfg8.N = W18 m XX c (Pipeline.arrRef spec8 2) := by
  refine ((dat8 (E17 m XX) c).arrAt_in 2 rfl _).trans ((A_eq8 (E17 m XX) c 2).trans ?_)
  rw [W18_unfold]
  exact ((Function.update_of_ne (StableHlo.devRef_ne_of_ne (by decide : Pipeline.arrRef spec8 2 ≠ main_v120_2)) _ _).trans ((Function.update_of_ne (StableHlo.devRef_ne_of_ne (by decide : Pipeline.arrRef spec8 2 ≠ main_v120_1)) _ _).trans (Function.update_of_ne (StableHlo.devRef_ne_of_ne (by decide : Pipeline.arrRef spec8 2 ≠ main_v120_0)) _ _))).symm
theorem hF8_3 (c : Dev nD) : (dat8 (E17 m XX) c).arrAt 3 cfg8.N = W18 m XX c (Pipeline.arrRef spec8 3) := by
  refine ((dat8 (E17 m XX) c).arrAt_in 3 rfl _).trans ((A_eq8 (E17 m XX) c 3).trans ?_)
  rw [W18_unfold]
  exact ((Function.update_of_ne (StableHlo.devRef_ne_of_ne (by decide : Pipeline.arrRef spec8 3 ≠ main_v120_2)) _ _).trans ((Function.update_of_ne (StableHlo.devRef_ne_of_ne (by decide : Pipeline.arrRef spec8 3 ≠ main_v120_1)) _ _).trans (Function.update_of_ne (StableHlo.devRef_ne_of_ne (by decide : Pipeline.arrRef spec8 3 ≠ main_v120_0)) _ _))).symm
theorem hF8_4 (c : Dev nD) : (dat8 (E17 m XX) c).arrAt 4 cfg8.N = W18 m XX c main_v120_0 := by
  have h2 : (Proc.devRef .tc main_v120_0 : DevRef τ sig) ≠ Proc.devRef .tc main_v120_2 := StableHlo.devRef_ne_of_ne (by decide)
  have h1 : (Proc.devRef .tc main_v120_0 : DevRef τ sig) ≠ Proc.devRef .tc main_v120_1 := StableHlo.devRef_ne_of_ne (by decide)
  rw [W18_unfold, Function.update_of_ne h2, Function.update_of_ne h1, Function.update_self]
theorem hF8_5 (c : Dev nD) : (dat8 (E17 m XX) c).arrAt 5 cfg8.N = W18 m XX c main_v120_1 := by
  have h2 : (Proc.devRef .tc main_v120_1 : DevRef τ sig) ≠ Proc.devRef .tc main_v120_2 := StableHlo.devRef_ne_of_ne (by decide)
  rw [W18_unfold, Function.update_of_ne h2, Function.update_self]
theorem hF8_6 (c : Dev nD) : (dat8 (E17 m XX) c).arrAt 6 cfg8.N = W18 m XX c main_v120_2 := by
  rw [W18_unfold, Function.update_self]

/-- Region 8's arrays after the region are what its proof data leaves: an output's array the write-backs folded,
    an input's array its entry contents. -/
theorem hF8 (c : Dev nD) (w : Fin cfg8.W) :
    (pdats m 8 c).arrAt w cfg8.N = (fun b : Ref sig .tc => W18 m XX c b) (Pipeline.arrRef spec8 w) := by
  rw [pdats_8]
  fin_cases w
  · exact hF8_0 m c
  · exact hF8_1 m c
  · exact hF8_2 m c
  · exact hF8_3 m c
  · exact hF8_4 m c
  · exact hF8_5 m c
  · exact hF8_6 m c
/-- Every other buffer is as the region found it. -/
theorem hrest8 (c : Dev nD) : ∀ b : Ref sig .tc, b ∉ Finset.univ.image (Pipeline.arrRef spec8) →
    (fun b : Ref sig .tc => W18 m XX c b) b = (fun b : Ref sig .tc => W17 m XX c b) b := by
  intro b hb
  show W18 m XX c b = W17 m XX c b
  have h0 : (Proc.devRef .tc b : DevRef τ sig) ≠ Proc.devRef .tc main_v120_0 :=
    StableHlo.devRef_ne_of_ne fun e => hb (Finset.mem_image.mpr ⟨4, Finset.mem_univ _, (e.symm : Pipeline.arrRef spec8 4 = b)⟩)
  have h1 : (Proc.devRef .tc b : DevRef τ sig) ≠ Proc.devRef .tc main_v120_1 :=
    StableHlo.devRef_ne_of_ne fun e => hb (Finset.mem_image.mpr ⟨5, Finset.mem_univ _, (e.symm : Pipeline.arrRef spec8 5 = b)⟩)
  have h2 : (Proc.devRef .tc b : DevRef τ sig) ≠ Proc.devRef .tc main_v120_2 :=
    StableHlo.devRef_ne_of_ne fun e => hb (Finset.mem_image.mpr ⟨6, Finset.mem_univ _, (e.symm : Pipeline.arrRef spec8 6 = b)⟩)
  rw [W18_unfold, Function.update_of_ne h2, Function.update_of_ne h1, Function.update_of_ne h0]

set_option backward.isDefEq.respectTransparency.types false in
/-- Region 8 over the thread state: entered from every unscoped buffer at the chain's contents before it, left at
    the contents after it. Its arrays are split out of the unscoped buffers and put back at their exit contents; the
    generator register goes into the region's invariant and comes back; nothing is owed; the kernel has no semaphore
    of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E17 m XX) c).loose
  hwaits := Pipeline.hwaits_of_owed_zero _ _ _ _ L lv 8 fun _ _ => rfl
  pre c := iprop(StableHlo.held (c : Thread nD τ) (Pipeline.ucRefs τ sig) (W17 m XX c) ∗ R c)
  post c := iprop(StableHlo.held (c : Thread nD τ) (Pipeline.ucRefs τ sig) (W18 m XX c) ∗ R c)
  X c := iprop(∃ r, prngReg c r)
  Y c := iprop(∃ r, prngReg c r)
  Z c := Pipeline.unscopedRest (Ix := Unit) (Name := ℕ) (U := UR sig nD τ) (Lvl := ℕ) spec8 c (E17 m XX c)
  hentry c := by
    rw [Pipeline.ownSems0_none]
    have hsplit := Pipeline.arrays_of_unscopedBufs (p := 8) (pcfgs (F := F)) adm (pdats m) launch8.win launch8.arr_whole c
      ((pdats m 8 c).share_full fun _ => rfl) (E17 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin8 (E17 m XX) c _
  hout c := hout8 (E17 m XX) c
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E17 m XX c) (fun b : Ref sig .tc => W18 m XX c b) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg9.lean ====
/-
  Region 9 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF9_0 (c : Dev nD) : (dat9 (E19 m XX) c).arrAt 0 cfg9.N = W20 m XX c (Pipeline.arrRef spec9 0) := by
  refine ((dat9 (E19 m XX) c).arrAt_in 0 rfl _).trans ((A_eq9 (E19 m XX) c 0).trans ?_)
  rw [W20_unfold]
  exact (Function.update_of_ne (StableHlo.devRef_ne_of_ne (by decide : Pipeline.arrRef spec9 0 ≠ main_v129)) _ _).symm
theorem hF9_1 (c : Dev nD) : (dat9 (E19 m XX) c).arrAt 1 cfg9.N = W20 m XX c (Pipeline.arrRef spec9 1) := by
  refine ((dat9 (E19 m XX) c).arrAt_in 1 rfl _).trans ((A_eq9 (E19 m XX) c 1).trans ?_)
  rw [W20_unfold]
  exact (Function.update_of_ne (StableHlo.devRef_ne_of_ne (by decide : Pipeline.arrRef spec9 1 ≠ main_v129)) _ _).symm
theorem hF9_2 (c : Dev nD) : (dat9 (E19 m XX) c).arrAt 2 cfg9.N = W20 m XX c (Pipeline.arrRef spec9 2) := by
  refine ((dat9 (E19 m XX) c).arrAt_in 2 rfl _).trans ((A_eq9 (E19 m XX) c 2).trans ?_)
  rw [W20_unfold]
  exact (Function.update_of_ne (StableHlo.devRef_ne_of_ne (by decide : Pipeline.arrRef spec9 2 ≠ main_v129)) _ _).symm
theorem hF9_3 (c : Dev nD) : (dat9 (E19 m XX) c).arrAt 3 cfg9.N = W20 m XX c (Pipeline.arrRef spec9 3) := by
  refine ((dat9 (E19 m XX) c).arrAt_in 3 rfl _).trans ((A_eq9 (E19 m XX) c 3).trans ?_)
  rw [W20_unfold]
  exact (Function.update_of_ne (StableHlo.devRef_ne_of_ne (by decide : Pipeline.arrRef spec9 3 ≠ main_v129)) _ _).symm
theorem hF9_4 (c : Dev nD) : (dat9 (E19 m XX) c).arrAt 4 cfg9.N = W20 m XX c (Pipeline.arrRef spec9 4) := by
  refine ((dat9 (E19 m XX) c).arrAt_in 4 rfl _).trans ((A_eq9 (E19 m XX) c 4).trans ?_)
  rw [W20_unfold]
  exact (Function.update_of_ne (StableHlo.devRef_ne_of_ne (by decide : Pipeline.arrRef spec9 4 ≠ main_v129)) _ _).symm
theorem hF9_5 (c : Dev nD) : (dat9 (E19 m XX) c).arrAt 5 cfg9.N = W20 m XX c main_v129 := by
  rw [W20_unfold, Function.update_self]

/-- Region 9's arrays after the region are what its proof data leaves: an output's array the write-backs folded,
    an input's array its entry contents. -/
theorem hF9 (c : Dev nD) (w : Fin cfg9.W) :
    (pdats m 9 c).arrAt w cfg9.N = (fun b : Ref sig .tc => W20 m XX c b) (Pipeline.arrRef spec9 w) := by
  rw [pdats_9]
  fin_cases w
  · exact hF9_0 m c
  · exact hF9_1 m c
  · exact hF9_2 m c
  · exact hF9_3 m c
  · exact hF9_4 m c
  · exact hF9_5 m c
/-- Every other buffer is as the region found it. -/
theorem hrest9 (c : Dev nD) : ∀ b : Ref sig .tc, b ∉ Finset.univ.image (Pipeline.arrRef spec9) →
    (fun b : Ref sig .tc => W20 m XX c b) b = (fun b : Ref sig .tc => W19 m XX c b) b := by
  intro b hb
  show W20 m XX c b = W19 m XX c b
  have h0 : (Proc.devRef .tc b : DevRef τ sig) ≠ Proc.devRef .tc main_v129 :=
    StableHlo.devRef_ne_of_ne fun e => hb (Finset.mem_image.mpr ⟨5, Finset.mem_univ _, (e.symm : Pipeline.arrRef spec9 5 = b)⟩)
  rw [W20_unfold, Function.update_of_ne h0]

set_option backward.isDefEq.respectTransparency.types false in
/-- Region 9 over the thread state: entered from every unscoped buffer at the chain's contents before it, left at
    the contents after it. Its arrays are split out of the unscoped buffers and put back at their exit contents; the
    generator register goes into the region's invariant and comes back; nothing is owed; the kernel has no semaphore
    of its own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (E19 m XX) c).loose
  hwaits := Pipeline.hwaits_of_owed_zero _ _ _ _ L lv 9 fun _ _ => rfl
  pre c := iprop(StableHlo.held (c : Thread nD τ) (Pipeline.ucRefs τ sig) (W19 m XX c) ∗ R c)
  post c := iprop(StableHlo.held (c : Thread nD τ) (Pipeline.ucRefs τ sig) (W20 m XX c) ∗ R c)
  X c := iprop(∃ r, prngReg c r)
  Y c := iprop(∃ r, prngReg c r)
  Z c := Pipeline.unscopedRest (Ix := Unit) (Name := ℕ) (U := UR sig nD τ) (Lvl := ℕ) spec9 c (E19 m XX c)
  hentry c := by
    rw [Pipeline.ownSems0_none]
    have hsplit := Pipeline.arrays_of_unscopedBufs (p := 9) (pcfgs (F := F)) adm (pdats m) launch9.win launch9.arr_whole c
      ((pdats m 9 c).share_full fun _ => rfl) (E19 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E19 m XX c) (fun b : Ref sig .tc => W20 m XX c b) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg10.lean ====
/-
  Region 10 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF10_0 (c : Dev nD) : (dat10 (E21 m XX) c).arrAt 0 cfg10.N = W22 m XX c (Pipeline.arrRef spec10 0) := by
  refine ((dat10 (E21 m XX) c).arrAt_in 0 rfl _).trans ((A_eq10 (E21 m XX) c 0).trans ?_)
  rw [W22_unfold]
  exact ((Function.update_of_ne (StableHlo.devRef_ne_of_ne (by decide : Pipeline.arrRef spec10 0 ≠ main_v146_2)) _ _).trans ((Function.update_of_ne (StableHlo.devRef_ne_of_ne (by decide : Pipeline.arrRef spec10 0 ≠ main_v146_1)) _ _).trans (Function.update_of_ne (StableHlo.devRef_ne_of_ne (by decide : Pipeline.arrRef spec10 0 ≠ main_v146_0)) _ _))).symm
theorem hF10_1 (c : Dev nD) : (dat10 (E21 m XX) c).arrAt 1 cfg10.N = W22 m XX c (Pipeline.arrRef spec10 1) := by
  refine ((dat10 (E21 m XX) c).arrAt_in 1 rfl _).trans ((A_eq10 (E21 m XX) c 1).trans ?_)
  rw [W22_unfold]
  exact ((Function.update_of_ne (StableHlo.devRef_ne_of_ne (by decide : Pipeline.arrRef spec10 1 ≠ main_v146_2)) _ _).trans ((Function.update_of_ne (StableHlo.devRef_ne_of_ne (by decide : Pipeline.arrRef spec10 1 ≠ main_v146_1)) _ _).trans (Function.update_of_ne (StableHlo.devRef_ne_of_ne (by decide : Pipeline.arrRef spec10 1 ≠ main_v146_0)) _ _))).symm
theorem hF10_2 (c : Dev nD) : (dat10 (E21 m XX) c).arrAt 2 cfg10.N = W22 m XX c (Pipeline.arrRef spec10 2) := by
  refine ((dat10 (E21 m XX) c).arrAt_in 2 rfl _).trans ((A_eq10 (E21 m XX) c 2).trans ?_)
  rw [W22_unfold]
  exact ((Function.update_of_ne (StableHlo.devRef_ne_of_ne (by decide : Pipeline.arrRef spec10 2 ≠ main_v146_2)) _ _).trans ((Function.update_of_ne (StableHlo.devRef_ne_of_ne (by decide : Pipeline.arrRef spec10 2 ≠ main_v146_1)) _ _).trans (Function.update_of_ne (StableHlo.devRef_ne_of_ne (by decide : Pipeline.arrRef spec10 2 ≠ main_v146_0)) _ _))).symm
theorem hF10_3 (c : Dev nD) : (dat10 (E21 m XX) c).arrAt 3 cfg10.N = W22 m XX c (Pipeline.arrRef spec10 3) := by
  refine ((dat10 (E21 m XX) c).arrAt_in 3 rfl _).trans ((A_eq10 (E21 m XX) c 3).trans ?_)
  rw [W22_unfold]
  exact ((Function.update_of_ne (StableHlo.devRef_ne_of_ne (by decide : Pipeline.arrRef spec10 3 ≠ main_v146_2)) _ _).trans ((Function.update_of_ne (StableHlo.devRef_ne_of_ne (by decide : Pipeline.arrRef spec10 3 ≠ main_v146_1)) _ _).trans (Function.update_of_ne (StableHlo.devRef_ne_of_ne (by decide : Pipeline.arrRef spec10 3 ≠ main_v146_0)) _ _))).symm
theorem hF10_4 (c : Dev nD) : (dat10 (E21 m XX) c).arrAt 4 cfg10.N = W22 m XX c main_v146_0 := by
  have h2 : (Proc.devRef .tc main_v146_0 : DevRef τ sig) ≠ Proc.devRef .tc main_v146_2 := StableHlo.devRef_ne_of_ne (by decide)
  have h1 : (Proc.devRef .tc main_v146_0 : DevRef τ sig) ≠ Proc.devRef .tc main_v146_1 := StableHlo.devRef_ne_of_ne (by decide)
  rw [W22_unfold, Function.update_of_ne h2, Function.update_of_ne h1, Function.update_self]
theorem hF10_5 (c : Dev nD) : (dat10 (E21 m XX) c).arrAt 5 cfg10.N = W22 m XX c main_v146_1 := by
  have h2 : (Proc.devRef .tc main_v146_1 : DevRef τ sig) ≠ Proc.devRef .tc main_v146_2 := StableHlo.devRef_ne_of_ne (by decide)
  rw [W22_unfold, Function.update_of_ne h2, Function.update_self]
theorem hF10_6 (c : Dev nD) : (dat10 (E21 m XX) c).arrAt 6 cfg10.N = W22 m XX c main_v146_2 := by
  rw [W22_unfold, Function.update_self]

/-- Region 10's arrays after the region are what its proof data leaves: an output's array the write-backs folded,
    an input's array its entry contents. -/
theorem hF10 (c : Dev nD) (w : Fin cfg10.W) :
    (pdats m 10 c).arrAt w cfg10.N = (fun b : Ref sig .tc => W22 m XX c b) (Pipeline.arrRef spec10 w) := by
  rw [pdats_10]
  fin_cases w
  · exact hF10_0 m c
  · exact hF10_1 m c
  · exact hF10_2 m c
  · exact hF10_3 m c
  · exact hF10_4 m c
  · exact hF10_5 m c
  · exact hF10_6 m c
/-- Every other buffer is as the region found it. -/
theorem hrest10 (c : Dev nD) : ∀ b : Ref sig .tc, b ∉ Finset.univ.image (Pipeline.arrRef spec10) →
    (fun b : Ref sig .tc => W22 m XX c b) b = (fun b : Ref sig .tc => W21 m XX c b) b := by
  intro b hb
  show W22 m XX c b = W21 m XX c b
  have h0 : (Proc.devRef .tc b : DevRef τ sig) ≠ Proc.devRef .tc main_v146_0 :=
    StableHlo.devRef_ne_of_ne fun e => hb (Finset.mem_image.mpr ⟨4, Finset.mem_univ _, (e.symm : Pipeline.arrRef spec10 4 = b)⟩)
  have h1 : (Proc.devRef .tc b : DevRef τ sig) ≠ Proc.devRef .tc main_v146_1 :=
    StableHlo.devRef_ne_of_ne fun e => hb (Finset.mem_image.mpr ⟨5, Finset.mem_univ _, (e.symm : Pipeline.arrRef spec10 5 = b)⟩)
  have h2 : (Proc.devRef .tc b : DevRef τ sig) ≠ Proc.devRef .tc main_v146_2 :=
    StableHlo.devRef_ne_of_ne fun e => hb (Finset.mem_image.mpr ⟨6, Finset.mem_univ _, (e.symm : Pipeline.arrRef spec10 6 = b)⟩)
  rw [W22_unfold, Function.update_of_ne h2, Function.update_of_ne h1, Function.update_of_ne h0]

set_option backward.isDefEq.respectTransparency.types false in
/-- Region 10 over the thread state: entered from every unscoped buffer at the chain's contents before it, left at
    the contents after it. Its arrays are split out of the unscoped buffers and put back at their exit contents; the
    generator register goes into the region's invariant and comes back; nothing is owed; the kernel has no semaphore
    of its own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (E21 m XX) c).loose
  hwaits := Pipeline.hwaits_of_owed_zero _ _ _ _ L lv 10 fun _ _ => rfl
  pre c := iprop(StableHlo.held (c : Thread nD τ) (Pipeline.ucRefs τ sig) (W21 m XX c) ∗ R c)
  post c := iprop(StableHlo.held (c : Thread nD τ) (Pipeline.ucRefs τ sig) (W22 m XX c) ∗ R c)
  X c := iprop(∃ r, prngReg c r)
  Y c := iprop(∃ r, prngReg c r)
  Z c := Pipeline.unscopedRest (Ix := Unit) (Name := ℕ) (U := UR sig nD τ) (Lvl := ℕ) spec10 c (E21 m XX c)
  hentry c := by
    rw [Pipeline.ownSems0_none]
    have hsplit := Pipeline.arrays_of_unscopedBufs (p := 10) (pcfgs (F := F)) adm (pdats m) launch10.win launch10.arr_whole c
      ((pdats m 10 c).share_full fun _ => rfl) (E21 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin10 (E21 m XX) c _
  hout c := hout10 (E21 m XX) c
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E21 m XX c) (fun b : Ref sig .tc => W22 m XX c b) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg11.lean ====
/-
  Region 11 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF11_0 (c : Dev nD) : (dat11 (E23 m XX) c).arrAt 0 cfg11.N = W24 m XX c (Pipeline.arrRef spec11 0) := by
  refine ((dat11 (E23 m XX) c).arrAt_in 0 rfl _).trans ((A_eq11 (E23 m XX) c 0).trans ?_)
  rw [W24_unfold]
  exact (Function.update_of_ne (StableHlo.devRef_ne_of_ne (by decide : Pipeline.arrRef spec11 0 ≠ main_v155)) _ _).symm
theorem hF11_1 (c : Dev nD) : (dat11 (E23 m XX) c).arrAt 1 cfg11.N = W24 m XX c (Pipeline.arrRef spec11 1) := by
  refine ((dat11 (E23 m XX) c).arrAt_in 1 rfl _).trans ((A_eq11 (E23 m XX) c 1).trans ?_)
  rw [W24_unfold]
  exact (Function.update_of_ne (StableHlo.devRef_ne_of_ne (by decide : Pipeline.arrRef spec11 1 ≠ main_v155)) _ _).symm
theorem hF11_2 (c : Dev nD) : (dat11 (E23 m XX) c).arrAt 2 cfg11.N = W24 m XX c (Pipeline.arrRef spec11 2) := by
  refine ((dat11 (E23 m XX) c).arrAt_in 2 rfl _).trans ((A_eq11 (E23 m XX) c 2).trans ?_)
  rw [W24_unfold]
  exact (Function.update_of_ne (StableHlo.devRef_ne_of_ne (by decide : Pipeline.arrRef spec11 2 ≠ main_v155)) _ _).symm
theorem hF11_3 (c : Dev nD) : (dat11 (E23 m XX) c).arrAt 3 cfg11.N = W24 m XX c (Pipeline.arrRef spec11 3) := by
  refine ((dat11 (E23 m XX) c).arrAt_in 3 rfl _).trans ((A_eq11 (E23 m XX) c 3).trans ?_)
  rw [W24_unfold]
  exact (Function.update_of_ne (StableHlo.devRef_ne_of_ne (by decide : Pipeline.arrRef spec11 3 ≠ main_v155)) _ _).symm
theorem hF11_4 (c : Dev nD) : (dat11 (E23 m XX) c).arrAt 4 cfg11.N = W24 m XX c (Pipeline.arrRef spec11 4) := by
  refine ((dat11 (E23 m XX) c).arrAt_in 4 rfl _).trans ((A_eq11 (E23 m XX) c 4).trans ?_)
  rw [W24_unfold]
  exact (Function.update_of_ne (StableHlo.devRef_ne_of_ne (by decide : Pipeline.arrRef spec11 4 ≠ main_v155)) _ _).symm
theorem hF11_5 (c : Dev nD) : (dat11 (E23 m XX) c).arrAt 5 cfg11.N = W24 m XX c main_v155 := by
  rw [W24_unfold, Function.update_self]

/-- Region 11's arrays after the region are what its proof data leaves: an output's array the write-backs folded,
    an input's array its entry contents. -/
theorem hF11 (c : Dev nD) (w : Fin cfg11.W) :
    (pdats m 11 c).arrAt w cfg11.N = (fun b : Ref sig .tc => W24 m XX c b) (Pipeline.arrRef spec11 w) := by
  rw [pdats_11]
  fin_cases w
  · exact hF11_0 m c
  · exact hF11_1 m c
  · exact hF11_2 m c
  · exact hF11_3 m c
  · exact hF11_4 m c
  · exact hF11_5 m c
/-- Every other buffer is as the region found it. -/
theorem hrest11 (c : Dev nD) : ∀ b : Ref sig .tc, b ∉ Finset.univ.image (Pipeline.arrRef spec11) →
    (fun b : Ref sig .tc => W24 m XX c b) b = (fun b : Ref sig .tc => W23 m XX c b) b := by
  intro b hb
  show W24 m XX c b = W23 m XX c b
  have h0 : (Proc.devRef .tc b : DevRef τ sig) ≠ Proc.devRef .tc main_v155 :=
    StableHlo.devRef_ne_of_ne fun e => hb (Finset.mem_image.mpr ⟨5, Finset.mem_univ _, (e.symm : Pipeline.arrRef spec11 5 = b)⟩)
  rw [W24_unfold, Function.update_of_ne h0]

set_option backward.isDefEq.respectTransparency.types false in
/-- Region 11 over the thread state: entered from every unscoped buffer at the chain's contents before it, left at
    the contents after it. Its arrays are split out of the unscoped buffers and put back at their exit contents; the
    generator register goes into the region's invariant and comes back; nothing is owed; the kernel has no semaphore
    of its own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (E23 m XX) c).loose
  hwaits := Pipeline.hwaits_of_owed_zero _ _ _ _ L lv 11 fun _ _ => rfl
  pre c := iprop(StableHlo.held (c : Thread nD τ) (Pipeline.ucRefs τ sig) (W23 m XX c) ∗ R c)
  post c := iprop(StableHlo.held (c : Thread nD τ) (Pipeline.ucRefs τ sig) (W24 m XX c) ∗ R c)
  X c := iprop(∃ r, prngReg c r)
  Y c := iprop(∃ r, prngReg c r)
  Z c := Pipeline.unscopedRest (Ix := Unit) (Name := ℕ) (U := UR sig nD τ) (Lvl := ℕ) spec11 c (E23 m XX c)
  hentry c := by
    rw [Pipeline.ownSems0_none]
    have hsplit := Pipeline.arrays_of_unscopedBufs (p := 11) (pcfgs (F := F)) adm (pdats m) launch11.win launch11.arr_whole c
      ((pdats m 11 c).share_full fun _ => rfl) (E23 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (E23 m XX c) (fun b : Ref sig .tc => W24 m XX c b) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg12.lean ====
/-
  Region 12 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF12_0 (c : Dev nD) : (dat12 (E25 m XX) c).arrAt 0 cfg12.N = W26 m XX c (Pipeline.arrRef spec12 0) := by
  refine ((dat12 (E25 m XX) c).arrAt_in 0 rfl _).trans ((A_eq12 (E25 m XX) c 0).trans ?_)
  rw [W26_unfold]
  exact (Function.update_of_ne (StableHlo.devRef_ne_of_ne (by decide : Pipeline.arrRef spec12 0 ≠ main_v172)) _ _).symm
theorem hF12_1 (c : Dev nD) : (dat12 (E25 m XX) c).arrAt 1 cfg12.N = W26 m XX c (Pipeline.arrRef spec12 1) := by
  refine ((dat12 (E25 m XX) c).arrAt_in 1 rfl _).trans ((A_eq12 (E25 m XX) c 1).trans ?_)
  rw [W26_unfold]
  exact (Function.update_of_ne (StableHlo.devRef_ne_of_ne (by decide : Pipeline.arrRef spec12 1 ≠ main_v172)) _ _).symm
theorem hF12_2 (c : Dev nD) : (dat12 (E25 m XX) c).arrAt 2 cfg12.N = W26 m XX c (Pipeline.arrRef spec12 2) := by
  refine ((dat12 (E25 m XX) c).arrAt_in 2 rfl _).trans ((A_eq12 (E25 m XX) c 2).trans ?_)
  rw [W26_unfold]
  exact (Function.update_of_ne (StableHlo.devRef_ne_of_ne (by decide : Pipeline.arrRef spec12 2 ≠ main_v172)) _ _).symm
theorem hF12_3 (c : Dev nD) : (dat12 (E25 m XX) c).arrAt 3 cfg12.N = W26 m XX c (Pipeline.arrRef spec12 3) := by
  refine ((dat12 (E25 m XX) c).arrAt_in 3 rfl _).trans ((A_eq12 (E25 m XX) c 3).trans ?_)
  rw [W26_unfold]
  exact (Function.update_of_ne (StableHlo.devRef_ne_of_ne (by decide : Pipeline.arrRef spec12 3 ≠ main_v172)) _ _).symm
theorem hF12_4 (c : Dev nD) : (dat12 (E25 m XX) c).arrAt 4 cfg12.N = W26 m XX c main_v172 := by
  rw [W26_unfold, Function.update_self]

/-- Region 12's arrays after the region are what its proof data leaves: an output's array the write-backs folded,
    an input's array its entry contents. -/
theorem hF12 (c : Dev nD) (w : Fin cfg12.W) :
    (pdats m 12 c).arrAt w cfg12.N = (fun b : Ref sig .tc => W26 m XX c b) (Pipeline.arrRef spec12 w) := by
  rw [pdats_12]
  fin_cases w
  · exact hF12_0 m c
  · exact hF12_1 m c
  · exact hF12_2 m c
  · exact hF12_3 m c
  · exact hF12_4 m c
/-- Every other buffer is as the region found it. -/
theorem hrest12 (c : Dev nD) : ∀ b : Ref sig .tc, b ∉ Finset.univ.image (Pipeline.arrRef spec12) →
    (fun b : Ref sig .tc => W26 m XX c b) b = (fun b : Ref sig .tc => W25 m XX c b) b := by
  intro b hb
  show W26 m XX c b = W25 m XX c b
  have h0 : (Proc.devRef .tc b : DevRef τ sig) ≠ Proc.devRef .tc main_v172 :=
    StableHlo.devRef_ne_of_ne fun e => hb (Finset.mem_image.mpr ⟨4, Finset.mem_univ _, (e.symm : Pipeline.arrRef spec12 4 = b)⟩)
  rw [W26_unfold, Function.update_of_ne h0]

set_option backward.isDefEq.respectTransparency.types false in
/-- Region 12 over the thread state: entered from every unscoped buffer at the chain's contents before it, left at
    the contents after it. Its arrays are split out of the unscoped buffers and put back at their exit contents; the
    generator register goes into the region's invariant and comes back; nothing is owed; the kernel has no semaphore
    of its own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (E25 m XX) c).loose
  hwaits := Pipeline.hwaits_of_owed_zero _ _ _ _ L lv 12 fun _ _ => rfl
  pre c := iprop(StableHlo.held (c : Thread nD τ) (Pipeline.ucRefs τ sig) (W25 m XX c) ∗ R c)
  post c := iprop(StableHlo.held (c : Thread nD τ) (Pipeline.ucRefs τ sig) (W26 m XX c) ∗ R c)
  X c := iprop(∃ r, prngReg c r)
  Y c := iprop(∃ r, prngReg c r)
  Z c := Pipeline.unscopedRest (Ix := Unit) (Name := ℕ) (U := UR sig nD τ) (Lvl := ℕ) spec12 c (E25 m XX c)
  hentry c := by
    rw [Pipeline.ownSems0_none]
    have hsplit := Pipeline.arrays_of_unscopedBufs (p := 12) (pcfgs (F := F)) adm (pdats m) launch12.win launch12.arr_whole c
      ((pdats m 12 c).share_full fun _ => rfl) (E25 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (E25 m XX c) (fun b : Ref sig .tc => W26 m XX c b) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg13.lean ====
/-
  Region 13 as a segment of @main's run over the chain of valuations: its arrays after the region, the buffers it
  leaves alone, and its record — the launch layout, the body obligation, and how the thread state before it becomes
  the pipeline's entry state and the pipeline's exit state the thread state after it.
-/
import proofs.«144613_j17471926960174_1_alg».proof.Proof.RegsCore
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF13_0 (c : Dev nD) : (dat13 (E27 m XX) c).arrAt 0 cfg13.N = W28 m XX c (Pipeline.arrRef spec13 0) := by
  refine ((dat13 (E27 m XX) c).arrAt_in 0 rfl _).trans ((A_eq13 (E27 m XX) c 0).trans ?_)
  rw [W28_unfold]
  exact (Function.update_of_ne (StableHlo.devRef_ne_of_ne (by decide : Pipeline.arrRef spec13 0 ≠ main_v189)) _ _).symm
theorem hF13_1 (c : Dev nD) : (dat13 (E27 m XX) c).arrAt 1 cfg13.N = W28 m XX c (Pipeline.arrRef spec13 1) := by
  refine ((dat13 (E27 m XX) c).arrAt_in 1 rfl _).trans ((A_eq13 (E27 m XX) c 1).trans ?_)
  rw [W28_unfold]
  exact (Function.update_of_ne (StableHlo.devRef_ne_of_ne (by decide : Pipeline.arrRef spec13 1 ≠ main_v189)) _ _).symm
theorem hF13_2 (c : Dev nD) : (dat13 (E27 m XX) c).arrAt 2 cfg13.N = W28 m XX c (Pipeline.arrRef spec13 2) := by
  refine ((dat13 (E27 m XX) c).arrAt_in 2 rfl _).trans ((A_eq13 (E27 m XX) c 2).trans ?_)
  rw [W28_unfold]
  exact (Function.update_of_ne (StableHlo.devRef_ne_of_ne (by decide : Pipeline.arrRef spec13 2 ≠ main_v189)) _ _).symm
theorem hF13_3 (c : Dev nD) : (dat13 (E27 m XX) c).arrAt 3 cfg13.N = W28 m XX c (Pipeline.arrRef spec13 3) := by
  refine ((dat13 (E27 m XX) c).arrAt_in 3 rfl _).trans ((A_eq13 (E27 m XX) c 3).trans ?_)
  rw [W28_unfold]
  exact (Function.update_of_ne (StableHlo.devRef_ne_of_ne (by decide : Pipeline.arrRef spec13 3 ≠ main_v189)) _ _).symm
theorem hF13_4 (c : Dev nD) : (dat13 (E27 m XX) c).arrAt 4 cfg13.N = W28 m XX c main_v189 := by
  rw [W28_unfold, Function.update_self]

/-- Region 13's arrays after the region are what its proof data leaves: an output's array the write-backs folded,
    an input's array its entry contents. -/
theorem hF13 (c : Dev nD) (w : Fin cfg13.W) :
    (pdats m 13 c).arrAt w cfg13.N = (fun b : Ref sig .tc => W28 m XX c b) (Pipeline.arrRef spec13 w) := by
  rw [pdats_13]
  fin_cases w
  · exact hF13_0 m c
  · exact hF13_1 m c
  · exact hF13_2 m c
  · exact hF13_3 m c
  · exact hF13_4 m c
/-- Every other buffer is as the region found it. -/
theorem hrest13 (c : Dev nD) : ∀ b : Ref sig .tc, b ∉ Finset.univ.image (Pipeline.arrRef spec13) →
    (fun b : Ref sig .tc => W28 m XX c b) b = (fun b : Ref sig .tc => W27 m XX c b) b := by
  intro b hb
  show W28 m XX c b = W27 m XX c b
  have h0 : (Proc.devRef .tc b : DevRef τ sig) ≠ Proc.devRef .tc main_v189 :=
    StableHlo.devRef_ne_of_ne fun e => hb (Finset.mem_image.mpr ⟨4, Finset.mem_univ _, (e.symm : Pipeline.arrRef spec13 4 = b)⟩)
  rw [W28_unfold, Function.update_of_ne h0]

set_option backward.isDefEq.respectTransparency.types false in
/-- Region 13 over the thread state: entered from every unscoped buffer at the chain's contents before it, left at
    the contents after it. Its arrays are split out of the unscoped buffers and put back at their exit contents; the
    generator register goes into the region's invariant and comes back; nothing is owed; the kernel has no semaphore
    of its own. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (E27 m XX) c).loose
  hwaits := Pipeline.hwaits_of_owed_zero _ _ _ _ L lv 13 fun _ _ => rfl
  pre c := iprop(StableHlo.held (c : Thread nD τ) (Pipeline.ucRefs τ sig) (W27 m XX c) ∗ R c)
  post c := iprop(StableHlo.held (c : Thread nD τ) (Pipeline.ucRefs τ sig) (W28 m XX c) ∗ R c)
  X c := iprop(∃ r, prngReg c r)
  Y c := iprop(∃ r, prngReg c r)
  Z c := Pipeline.unscopedRest (Ix := Unit) (Name := ℕ) (U := UR sig nD τ) (Lvl := ℕ) spec13 c (E27 m XX c)
  hentry c := by
    rw [Pipeline.ownSems0_none]
    have hsplit := Pipeline.arrays_of_unscopedBufs (p := 13) (pcfgs (F := F)) adm (pdats m) launch13.win launch13.arr_whole c
      ((pdats m 13 c).share_full fun _ => rfl) (E27 m XX c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (E27 m XX c) (fun b : Ref sig .tc => W28 m XX c b) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunAll.lean ====
/-
  The run of the whole program: the conditional run instantiated with the pipeline library's own algebra, no levels,
  nothing owed at launch, the fourteen regions' records, and the chain of valuations as the regions' unknowns. Every
  weakly fair execution of @main terminates, nothing faulting, and each unscoped buffer of a core ends at the last
  valuation of the chain.
-/
import proofs.«144613_j17471926960174_1_alg».proof.Proof.RunCond
import proofs.«144613_j17471926960174_1_alg».proof.Proof.Reg0
import proofs.«144613_j17471926960174_1_alg».proof.Proof.Reg1
import proofs.«144613_j17471926960174_1_alg».proof.Proof.Reg2
import proofs.«144613_j17471926960174_1_alg».proof.Proof.Reg3
import proofs.«144613_j17471926960174_1_alg».proof.Proof.Reg4
import proofs.«144613_j17471926960174_1_alg».proof.Proof.Reg5
import proofs.«144613_j17471926960174_1_alg».proof.Proof.Reg6
import proofs.«144613_j17471926960174_1_alg».proof.Proof.Reg7
import proofs.«144613_j17471926960174_1_alg».proof.Proof.Reg8
import proofs.«144613_j17471926960174_1_alg».proof.Proof.Reg9
import proofs.«144613_j17471926960174_1_alg».proof.Proof.Reg10
import proofs.«144613_j17471926960174_1_alg».proof.Proof.Reg11
import proofs.«144613_j17471926960174_1_alg».proof.Proof.Reg12
import proofs.«144613_j17471926960174_1_alg».proof.Proof.Reg13
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- From any memory with zero counters the program runs to its end and every unscoped buffer holds what the chain's last
    valuation gives it. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W29 m XX c b) := by
  have h := run_cond (F := F) m (Ix := Unit) (U := UR sig nD τ) (Lvl := ℕ) (EP := emb₁) (ι := ()) (𝒱₀ := 𝒱₀) (L := L) (lv := lv)
    (hL := fun _ _ => rfl) (ρ := ρ) (outs := outs m XX) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄) ⊢ R c := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ (fun c : Dev nD => R c) : sProp 𝕄) :=
        bigSep_mono fun c _ => hc c
      iintro ⟨H, -⟩
      imodintro
      iapply hm
      iexact H)
    (hE14 := fun c => by
      iintro ⟨-, HO⟩
      iexact HO)
    (R0 := reg0 m) (hpre0 := fun c => by rw [W_eq1 m c]; exact .rfl) (hpost0 := fun c => by rw [W_eq2 m XX c]; exact .rfl)
    (R1 := reg1 m) (hpre1 := fun c => by rw [W_eq3 m XX c]; exact .rfl) (hpost1 := fun c => by rw [W_eq4 m XX c]; exact .rfl)
    (R2 := reg2 m) (hpre2 := fun c => by rw [W_eq5 m XX c]; exact .rfl) (hpost2 := fun c => by rw [W_eq6 m XX c]; exact .rfl)
    (R3 := reg3 m) (hpre3 := fun c => by rw [W_eq7 m XX c]; exact .rfl) (hpost3 := fun c => by rw [W_eq8 m XX c]; exact .rfl)
    (R4 := reg4 m) (hpre4 := fun c => by rw [W_eq9 m XX c]; exact .rfl) (hpost4 := fun c => by rw [W_eq10 m XX c]; exact .rfl)
    (R5 := reg5 m) (hpre5 := fun c => by rw [W_eq11 m XX c]; exact .rfl) (hpost5 := fun c => by rw [W_eq12 m XX c]; exact .rfl)
    (R6 := reg6 m) (hpre6 := fun c => by rw [W_eq13 m XX c]; exact .rfl) (hpost6 := fun c => by rw [W_eq14 m XX c]; exact .rfl)
    (R7 := reg7 m) (hpre7 := fun c => by rw [W_eq15 m XX c]; exact .rfl) (hpost7 := fun c => by rw [W_eq16 m XX c]; exact .rfl)
    (R8 := reg8 m) (hpre8 := fun c => by rw [W_eq17 m XX c]; exact .rfl) (hpost8 := fun c => by rw [W_eq18 m XX c]; exact .rfl)
    (R9 := reg9 m) (hpre9 := fun c => by rw [W_eq19 m XX c]; exact .rfl) (hpost9 := fun c => by rw [W_eq20 m XX c]; exact .rfl)
    (R10 := reg10 m) (hpre10 := fun c => by rw [W_eq21 m XX c]; exact .rfl) (hpost10 := fun c => by rw [W_eq22 m XX c]; exact .rfl)
    (R11 := reg11 m) (hpre11 := fun c => by rw [W_eq23 m XX c]; exact .rfl) (hpost11 := fun c => by rw [W_eq24 m XX c]; exact .rfl)
    (R12 := reg12 m) (hpre12 := fun c => by rw [W_eq25 m XX c]; exact .rfl) (hpost12 := fun c => by rw [W_eq26 m XX c]; exact .rfl)
    (R13 := reg13 m) (hpre13 := fun c => by rw [W_eq27 m XX c]; exact .rfl) (hpost13 := fun c => by rw [W_eq28 m XX c]; exact .rfl)
  refine (θ_run defs _ _).mono (fun r hr c b hb => ?_) h
  rw [← W_eq29 m XX c]
  exact hr c b hb

end Cert.KernelIdeal.Hand

end
-- ==== Proof.KRun.lean ====
/-
  What the run of the whole program gives at the references the claims speak of: every argument array ends as
  launched (no host stretch writes an argument and no region may change one), and each returned array ends at the
  chain's last valuation.
-/
import proofs.«144613_j17471926960174_1_alg».proof.Proof.RunAll
import Idealize.ShloMosaic.Lib.Pipeline.Kit
import Idealize.ShloMosaic.Lib.Pipeline.Frame
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W29_main_arg0 (c : Dev nD) : W29 m XX c main_arg0 = m ((c : Thread nD τ).loc main_arg0) := by
  rw [← W_eq29 m XX c]; exact V29_main_arg0 m _ c
theorem W29_main_arg1 (c : Dev nD) : W29 m XX c main_arg1 = m ((c : Thread nD τ).loc main_arg1) := by
  rw [← W_eq29 m XX c]; exact V29_main_arg1 m _ c
theorem W29_main_arg2 (c : Dev nD) : W29 m XX c main_arg2 = m ((c : Thread nD τ).loc main_arg2) := by
  rw [← W_eq29 m XX c]; exact V29_main_arg2 m _ c
theorem W29_main_arg3 (c : Dev nD) : W29 m XX c main_arg3 = m ((c : Thread nD τ).loc main_arg3) := by
  rw [← W_eq29 m XX c]; exact V29_main_arg3 m _ c
theorem W29_main_arg4 (c : Dev nD) : W29 m XX c main_arg4 = m ((c : Thread nD τ).loc main_arg4) := by
  rw [← W_eq29 m XX c]; exact V29_main_arg4 m _ c
theorem W29_main_arg5 (c : Dev nD) : W29 m XX c main_arg5 = m ((c : Thread nD τ).loc main_arg5) := by
  rw [← W_eq29 m XX c]; exact V29_main_arg5 m _ c
theorem W29_main_arg6 (c : Dev nD) : W29 m XX c main_arg6 = m ((c : Thread nD τ).loc main_arg6) := by
  rw [← W_eq29 m XX c]; exact V29_main_arg6 m _ c
theorem W29_main_arg7 (c : Dev nD) : W29 m XX c main_arg7 = m ((c : Thread nD τ).loc main_arg7) := by
  rw [← W_eq29 m XX c]; exact V29_main_arg7 m _ c
theorem W29_main_arg8 (c : Dev nD) : W29 m XX c main_arg8 = m ((c : Thread nD τ).loc main_arg8) := by
  rw [← W_eq29 m XX c]; exact V29_main_arg8 m _ c
theorem W29_main_arg9 (c : Dev nD) : W29 m XX c main_arg9 = m ((c : Thread nD τ).loc main_arg9) := by
  rw [← W_eq29 m XX c]; exact V29_main_arg9 m _ c
theorem W29_main_arg10 (c : Dev nD) : W29 m XX c main_arg10 = m ((c : Thread nD τ).loc main_arg10) := by
  rw [← W_eq29 m XX c]; exact V29_main_arg10 m _ c
theorem W29_main_arg11 (c : Dev nD) : W29 m XX c main_arg11 = m ((c : Thread nD τ).loc main_arg11) := by
  rw [← W_eq29 m XX c]; exact V29_main_arg11 m _ c
theorem W29_main_arg12 (c : Dev nD) : W29 m XX c main_arg12 = m ((c : Thread nD τ).loc main_arg12) := by
  rw [← W_eq29 m XX c]; exact V29_main_arg12 m _ c
theorem W29_main_arg13 (c : Dev nD) : W29 m XX c main_arg13 = m ((c : Thread nD τ).loc main_arg13) := by
  rw [← W_eq29 m XX c]; exact V29_main_arg13 m _ c
theorem W29_main_arg14 (c : Dev nD) : W29 m XX c main_arg14 = m ((c : Thread nD τ).loc main_arg14) := by
  rw [← W_eq29 m XX c]; exact V29_main_arg14 m _ c
theorem W29_main_arg15 (c : Dev nD) : W29 m XX c main_arg15 = m ((c : Thread nD τ).loc main_arg15) := by
  rw [← W_eq29 m XX c]; exact V29_main_arg15 m _ c
theorem W29_main_arg16 (c : Dev nD) : W29 m XX c main_arg16 = m ((c : Thread nD τ).loc main_arg16) := by
  rw [← W_eq29 m XX c]; exact V29_main_arg16 m _ c
theorem W29_main_arg17 (c : Dev nD) : W29 m XX c main_arg17 = m ((c : Thread nD τ).loc main_arg17) := by
  rw [← W_eq29 m XX c]; exact V29_main_arg17 m _ c
theorem W29_main_arg18 (c : Dev nD) : W29 m XX c main_arg18 = m ((c : Thread nD τ).loc main_arg18) := by
  rw [← W_eq29 m XX c]; exact V29_main_arg18 m _ c
theorem W29_main_arg19 (c : Dev nD) : W29 m XX c main_arg19 = m ((c : Thread nD τ).loc main_arg19) := by
  rw [← W_eq29 m XX c]; exact V29_main_arg19 m _ c
theorem W29_main_arg20 (c : Dev nD) : W29 m XX c main_arg20 = m ((c : Thread nD τ).loc main_arg20) := by
  rw [← W_eq29 m XX c]; exact V29_main_arg20 m _ c
theorem W29_main_arg21 (c : Dev nD) : W29 m XX c main_arg21 = m ((c : Thread nD τ).loc main_arg21) := by
  rw [← W_eq29 m XX c]; exact V29_main_arg21 m _ c
theorem W29_main_arg22 (c : Dev nD) : W29 m XX c main_arg22 = m ((c : Thread nD τ).loc main_arg22) := by
  rw [← W_eq29 m XX c]; exact V29_main_arg22 m _ c
theorem W29_main_arg23 (c : Dev nD) : W29 m XX c main_arg23 = m ((c : Thread nD τ).loc main_arg23) := by
  rw [← W_eq29 m XX c]; exact V29_main_arg23 m _ c
theorem W29_main_arg24 (c : Dev nD) : W29 m XX c main_arg24 = m ((c : Thread nD τ).loc main_arg24) := by
  rw [← W_eq29 m XX c]; exact V29_main_arg24 m _ c
theorem W29_main_arg25 (c : Dev nD) : W29 m XX c main_arg25 = m ((c : Thread nD τ).loc main_arg25) := by
  rw [← W_eq29 m XX c]; exact V29_main_arg25 m _ c

/-- The frame: from any memory with zero counters the program runs to its end, nothing faulting, and every argument
    array ends as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨
    (h c _ (mem_uc main_arg0 (by decide))).trans (W29_main_arg0 m c),
    (h c _ (mem_uc main_arg1 (by decide))).trans (W29_main_arg1 m c),
    (h c _ (mem_uc main_arg2 (by decide))).trans (W29_main_arg2 m c),
    (h c _ (mem_uc main_arg3 (by decide))).trans (W29_main_arg3 m c),
    (h c _ (mem_uc main_arg4 (by decide))).trans (W29_main_arg4 m c),
    (h c _ (mem_uc main_arg5 (by decide))).trans (W29_main_arg5 m c),
    (h c _ (mem_uc main_arg6 (by decide))).trans (W29_main_arg6 m c),
    (h c _ (mem_uc main_arg7 (by decide))).trans (W29_main_arg7 m c),
    (h c _ (mem_uc main_arg8 (by decide))).trans (W29_main_arg8 m c),
    (h c _ (mem_uc main_arg9 (by decide))).trans (W29_main_arg9 m c),
    (h c _ (mem_uc main_arg10 (by decide))).trans (W29_main_arg10 m c),
    (h c _ (mem_uc main_arg11 (by decide))).trans (W29_main_arg11 m c),
    (h c _ (mem_uc main_arg12 (by decide))).trans (W29_main_arg12 m c),
    (h c _ (mem_uc main_arg13 (by decide))).trans (W29_main_arg13 m c),
    (h c _ (mem_uc main_arg14 (by decide))).trans (W29_main_arg14 m c),
    (h c _ (mem_uc main_arg15 (by decide))).trans (W29_main_arg15 m c),
    (h c _ (mem_uc main_arg16 (by decide))).trans (W29_main_arg16 m c),
    (h c _ (mem_uc main_arg17 (by decide))).trans (W29_main_arg17 m c),
    (h c _ (mem_uc main_arg18 (by decide))).trans (W29_main_arg18 m c),
    (h c _ (mem_uc main_arg19 (by decide))).trans (W29_main_arg19 m c),
    (h c _ (mem_uc main_arg20 (by decide))).trans (W29_main_arg20 m c),
    (h c _ (mem_uc main_arg21 (by decide))).trans (W29_main_arg21 m c),
    (h c _ (mem_uc main_arg22 (by decide))).trans (W29_main_arg22 m c),
    (h c _ (mem_uc main_arg23 (by decide))).trans (W29_main_arg23 m c),
    (h c _ (mem_uc main_arg24 (by decide))).trans (W29_main_arg24 m c),
    (h c _ (mem_uc main_arg25 (by decide))).trans (W29_main_arg25 m c)⟩) (run_all m ρ)

/-- The results: the same run, with the four returned arrays at the chain's last valuation beside the arguments. -/
theorem run_vals (ρ : Dev nD → PrngReg) :
    θ_run defs (onTc (τ := τ) (main (F := F))) ⟨m, fun _ => 0, ρ⟩ (fun r => ∀ c : Dev nD,
      r.2.mem ((c.tc : Thread nD τ).loc main_v155) = W29 m XX c main_v155
      ∧ r.2.mem ((c.tc : Thread nD τ).loc main_v190) = W29 m XX c main_v190
      ∧ r.2.mem ((c.tc : Thread nD τ).loc main_v172) = W29 m XX c main_v172
      ∧ r.2.mem ((c.tc : Thread nD τ).loc main_v189) = W29 m XX c main_v189
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨
    h c _ (mem_uc main_v155 (by decide)), h c _ (mem_uc main_v190 (by decide)), h c _ (mem_uc main_v172 (by decide)), h c _ (mem_uc main_v189 (by decide)),
    (h c _ (mem_uc main_arg0 (by decide))).trans (W29_main_arg0 m c),
    (h c _ (mem_uc main_arg1 (by decide))).trans (W29_main_arg1 m c),
    (h c _ (mem_uc main_arg2 (by decide))).trans (W29_main_arg2 m c),
    (h c _ (mem_uc main_arg3 (by decide))).trans (W29_main_arg3 m c),
    (h c _ (mem_uc main_arg4 (by decide))).trans (W29_main_arg4 m c),
    (h c _ (mem_uc main_arg5 (by decide))).trans (W29_main_arg5 m c),
    (h c _ (mem_uc main_arg6 (by decide))).trans (W29_main_arg6 m c),
    (h c _ (mem_uc main_arg7 (by decide))).trans (W29_main_arg7 m c),
    (h c _ (mem_uc main_arg8 (by decide))).trans (W29_main_arg8 m c),
    (h c _ (mem_uc main_arg9 (by decide))).trans (W29_main_arg9 m c),
    (h c _ (mem_uc main_arg10 (by decide))).trans (W29_main_arg10 m c),
    (h c _ (mem_uc main_arg11 (by decide))).trans (W29_main_arg11 m c),
    (h c _ (mem_uc main_arg12 (by decide))).trans (W29_main_arg12 m c),
    (h c _ (mem_uc main_arg13 (by decide))).trans (W29_main_arg13 m c),
    (h c _ (mem_uc main_arg14 (by decide))).trans (W29_main_arg14 m c),
    (h c _ (mem_uc main_arg15 (by decide))).trans (W29_main_arg15 m c),
    (h c _ (mem_uc main_arg16 (by decide))).trans (W29_main_arg16 m c),
    (h c _ (mem_uc main_arg17 (by decide))).trans (W29_main_arg17 m c),
    (h c _ (mem_uc main_arg18 (by decide))).trans (W29_main_arg18 m c),
    (h c _ (mem_uc main_arg19 (by decide))).trans (W29_main_arg19 m c),
    (h c _ (mem_uc main_arg20 (by decide))).trans (W29_main_arg20 m c),
    (h c _ (mem_uc main_arg21 (by decide))).trans (W29_main_arg21 m c),
    (h c _ (mem_uc main_arg22 (by decide))).trans (W29_main_arg22 m c),
    (h c _ (mem_uc main_arg23 (by decide))).trans (W29_main_arg23 m c),
    (h c _ (mem_uc main_arg24 (by decide))).trans (W29_main_arg24 m c),
    (h c _ (mem_uc main_arg25 (by decide))).trans (W29_main_arg25 m c)⟩) (run_all m ρ)

end Cert.KernelIdeal.Hand

end
-- ==== Proof.RefWin0.lean ====
/-
  Window 0 of the reference program runs its operations in order: the window's text is the line of its operations.
  Each operation touches TensorCore buffers only and determines its results.
-/
import proofs.«144613_j17471926960174_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., unary_bufs_sub .., ternary_bufs_sub .., binary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub ..⟩

set_option maxRecDepth 8192 in
set_option maxHeartbeats 4000000 in
theorem ops0_fresh : ∀ op ∈ (ops0 : List (HloOp τ sig (Elt F))), op.fresh = ∅ := by
  intro _ h
  (repeat (cases h with | head => rfl | tail _ h => ?_))
  exact nomatch h

end Cert.ReferenceIdeal.HandRun

end
-- ==== Proof.RefWin1.lean ====
/-
  Window 1 of the reference program runs its operations in order: the window's text is the line of its operations.
  Each operation touches TensorCore buffers only and determines its results.
-/
import proofs.«144613_j17471926960174_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨unary_bufs_sub .., binary_bufs_sub .., ternary_bufs_sub .., unary_bufs_sub .., binary_bufs_sub .., unary_bufs_sub ..,
    reshape_bufs_sub .., nullary_bufs_sub .., unary_bufs_sub .., unary_bufs_sub .., ternary_bufs_sub .., binary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub ..⟩

set_option maxRecDepth 8192 in
set_option maxHeartbeats 4000000 in
theorem ops1_fresh : ∀ op ∈ (ops1 : List (HloOp τ sig (Elt F))), op.fresh = ∅ := by
  intro _ h
  (repeat (cases h with | head => rfl | tail _ h => ?_))
  exact nomatch h

end Cert.ReferenceIdeal.HandRun

end
-- ==== Proof.RefWin2.lean ====
/-
  Window 2 of the reference program runs its operations in order: the window's text is the line of its operations.
  Each operation touches TensorCore buffers only and determines its results.
-/
import proofs.«144613_j17471926960174_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part2_eq (c : Dev nD) : main_part2 (F := F) c = seq ops2 := rfl

set_option maxRecDepth 8192 in
theorem ops2_sub : (ops2 : List (HloOp τ sig (Elt F))).Forall fun op => op.bufs ⊆ tcRefs τ sig :=
  ⟨reshape_bufs_sub .., nullary_bufs_sub .., unary_bufs_sub .., unary_bufs_sub .., ternary_bufs_sub .., binary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., reshape_bufs_sub .., nullary_bufs_sub .., unary_bufs_sub .., unary_bufs_sub ..,
    ternary_bufs_sub .., binary_bufs_sub ..⟩

set_option maxRecDepth 8192 in
set_option maxHeartbeats 4000000 in
theorem ops2_fresh : ∀ op ∈ (ops2 : List (HloOp τ sig (Elt F))), op.fresh = ∅ := by
  intro _ h
  (repeat (cases h with | head => rfl | tail _ h => ?_))
  exact nomatch h

end Cert.ReferenceIdeal.HandRun

end
-- ==== Proof.RefWin3.lean ====
/-
  Window 3 of the reference program runs its operations in order: the window's text is the line of its operations.
  Each operation touches TensorCore buffers only and determines its results.
-/
import proofs.«144613_j17471926960174_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part3_eq (c : Dev nD) : main_part3 (F := F) c = seq ops3 := rfl

set_option maxRecDepth 8192 in
theorem ops3_sub : (ops3 : List (HloOp τ sig (Elt F))).Forall fun op => op.bufs ⊆ tcRefs τ sig :=
  ⟨unary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., reshape_bufs_sub .., nullary_bufs_sub .., unary_bufs_sub .., unary_bufs_sub ..,
    ternary_bufs_sub .., binary_bufs_sub .., unary_bufs_sub .., binary_bufs_sub .., unary_bufs_sub .., unary_bufs_sub ..,
    binary_bufs_sub .., nullary_bufs_sub ..⟩

set_option maxRecDepth 8192 in
set_option maxHeartbeats 4000000 in
theorem ops3_fresh : ∀ op ∈ (ops3 : List (HloOp τ sig (Elt F))), op.fresh = ∅ := by
  intro _ h
  (repeat (cases h with | head => rfl | tail _ h => ?_))
  exact nomatch h

end Cert.ReferenceIdeal.HandRun

end
-- ==== Proof.RefWin4.lean ====
/-
  Window 4 of the reference program runs its operations in order: the window's text is the line of its operations.
  Each operation touches TensorCore buffers only and determines its results.
-/
import proofs.«144613_j17471926960174_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part4_eq (c : Dev nD) : main_part4 (F := F) c = seq ops4 := rfl

set_option maxRecDepth 8192 in
theorem ops4_sub : (ops4 : List (HloOp τ sig (Elt F))).Forall fun op => op.bufs ⊆ tcRefs τ sig :=
  ⟨binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., reshape_bufs_sub .., nullary_bufs_sub .., unary_bufs_sub .., unary_bufs_sub ..,
    ternary_bufs_sub .., binary_bufs_sub .., unary_bufs_sub .., binary_bufs_sub .., unary_bufs_sub .., unary_bufs_sub ..,
    binary_bufs_sub .., nullary_bufs_sub .., binary_bufs_sub .., nullary_bufs_sub .., unary_bufs_sub .., binary_bufs_sub ..,
    unary_bufs_sub .., unary_bufs_sub ..⟩

set_option maxRecDepth 8192 in
set_option maxHeartbeats 4000000 in
theorem ops4_fresh : ∀ op ∈ (ops4 : List (HloOp τ sig (Elt F))), op.fresh = ∅ := by
  intro _ h
  (repeat (cases h with | head => rfl | tail _ h => ?_))
  exact nomatch h

end Cert.ReferenceIdeal.HandRun

end
-- ==== Proof.RefWin5.lean ====
/-
  Window 5 of the reference program runs its operations in order: the window's text is the line of its operations.
  Each operation touches TensorCore buffers only and determines its results.
-/
import proofs.«144613_j17471926960174_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part5_eq (c : Dev nD) : main_part5 (F := F) c = seq ops5 := rfl

set_option maxRecDepth 8192 in
theorem ops5_sub : (ops5 : List (HloOp τ sig (Elt F))).Forall fun op => op.bufs ⊆ tcRefs τ sig :=
  ⟨binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., reshape_bufs_sub .., nullary_bufs_sub .., unary_bufs_sub .., unary_bufs_sub ..,
    ternary_bufs_sub .., binary_bufs_sub .., unary_bufs_sub .., binary_bufs_sub .., unary_bufs_sub .., unary_bufs_sub ..,
    binary_bufs_sub .., nullary_bufs_sub .., unary_bufs_sub .., binary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub ..⟩

set_option maxRecDepth 8192 in
set_option maxHeartbeats 4000000 in
theorem ops5_fresh : ∀ op ∈ (ops5 : List (HloOp τ sig (Elt F))), op.fresh = ∅ := by
  intro _ h
  (repeat (cases h with | head => rfl | tail _ h => ?_))
  exact nomatch h

end Cert.ReferenceIdeal.HandRun

end
-- ==== Proof.RefWin6.lean ====
/-
  Window 6 of the reference program runs its operations in order: the window's text is the line of its operations.
  Each operation touches TensorCore buffers only and determines its results.
-/
import proofs.«144613_j17471926960174_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part6_eq (c : Dev nD) : main_part6 (F := F) c = seq ops6 := rfl

set_option maxRecDepth 8192 in
theorem ops6_sub : (ops6 : List (HloOp τ sig (Elt F))).Forall fun op => op.bufs ⊆ tcRefs τ sig :=
  ⟨reshape_bufs_sub .., nullary_bufs_sub .., unary_bufs_sub .., unary_bufs_sub .., ternary_bufs_sub .., binary_bufs_sub ..,
    unary_bufs_sub .., binary_bufs_sub .., unary_bufs_sub .., unary_bufs_sub .., binary_bufs_sub .., nullary_bufs_sub ..,
    unary_bufs_sub .., binary_bufs_sub .., binary_bufs_sub ..⟩

set_option maxRecDepth 8192 in
set_option maxHeartbeats 4000000 in
theorem ops6_fresh : ∀ op ∈ (ops6 : List (HloOp τ sig (Elt F))), op.fresh = ∅ := by
  intro _ h
  (repeat (cases h with | head => rfl | tail _ h => ?_))
  exact nomatch h

end Cert.ReferenceIdeal.HandRun

end
-- ==== Proof.RefRun.lean ====
/-
  The reference program's run: @main is the line of its 389 operations, every operation touches TensorCore buffers
  only, and so every weakly fair execution terminates with each buffer at the fold of the operations over the launch
  contents.
-/
import proofs.«144613_j17471926960174_1_alg».proof.Proof.RefWin0
import proofs.«144613_j17471926960174_1_alg».proof.Proof.RefWin1
import proofs.«144613_j17471926960174_1_alg».proof.Proof.RefWin2
import proofs.«144613_j17471926960174_1_alg».proof.Proof.RefWin3
import proofs.«144613_j17471926960174_1_alg».proof.Proof.RefWin4
import proofs.«144613_j17471926960174_1_alg».proof.Proof.RefWin5
import proofs.«144613_j17471926960174_1_alg».proof.Proof.RefWin6

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main runs the seven windows in order, and their lines one after the other are the whole line. -/
theorem main_eq (c : Dev nD) : main (F := F) c = seq refOps := by
  show _ = seq (ops0 ++ ops1 ++ ops2 ++ ops3 ++ ops4 ++ ops5 ++ ops6)
  rw [seq_append, seq_append, seq_append, seq_append, seq_append, seq_append]
  simp only [main, main_part0_eq, main_part1_eq, main_part2_eq, main_part3_eq, main_part4_eq, main_part5_eq,
    main_part6_eq, bind_assoc]

theorem scopedRefs_eq : (Finset.univ.filter fun b : Ref sig .tc => b.isScoped) = ∅ := by decide
theorem scopedSems_eq : (Finset.univ.filter fun sm : SemLoc sig => sm.isScoped .tc) = ∅ := by decide

/-- An operation of the whole line is an operation of one of the windows. -/
theorem mem_refOps {op : HloOp τ sig (Elt F)} (h : op ∈ (refOps : List (HloOp τ sig (Elt F)))) :
    op ∈ (ops0 : List (HloOp τ sig (Elt F))) ∨ op ∈ (ops1 : List (HloOp τ sig (Elt F)))
      ∨ op ∈ (ops2 : List (HloOp τ sig (Elt F))) ∨ op ∈ (ops3 : List (HloOp τ sig (Elt F)))
      ∨ op ∈ (ops4 : List (HloOp τ sig (Elt F))) ∨ op ∈ (ops5 : List (HloOp τ sig (Elt F)))
      ∨ op ∈ (ops6 : List (HloOp τ sig (Elt F))) := by
  have h' : op ∈ ops0 ++ ops1 ++ ops2 ++ ops3 ++ ops4 ++ ops5 ++ ops6 := h
  simp only [List.mem_append, or_assoc] at h'
  exact h'

theorem refOps_sub : (refOps : List (HloOp τ sig (Elt F))).Forall fun op => op.bufs ⊆ tcRefs τ sig :=
  List.forall_iff_forall_mem.mpr fun op h => by
    rcases mem_refOps h with h | h | h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h
    · exact List.forall_iff_forall_mem.mp ops6_sub op h

theorem refOps_fresh : ∀ op ∈ (refOps : List (HloOp τ sig (Elt F))), op.fresh = ∅ := fun op h => by
  rcases mem_refOps h with h | h | h | h | h | h | h
  · exact ops0_fresh op h
  · exact ops1_fresh op h
  · exact ops2_fresh op h
  · exact ops3_fresh op h
  · exact ops4_fresh op h
  · exact ops5_fresh op h
  · exact ops6_fresh op h

/-- On every device, for any float values, from any memory with zero counters: every weakly fair execution of @main
    terminates with each TensorCore buffer at the fold of the 389 operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after refOps (launchContents m c) (Proc.devRef .tc b) :=
  run_seq scopedRefs_eq scopedSems_eq defs main (fun _ => refOps) main_eq (fun _ => refOps_sub) m ρ
    (fun _ => refOps_fresh)

end Cert.ReferenceIdeal.HandRun

end
-- ==== Proof.LibReadBack.lean ====
/-
  A single-assignment line of host operations read back one operation at a time.

  A line of host operations in which every operation writes one buffer of its own, listed at its position (`WritesAt`),
  leaves in each buffer what the operation writing it computed from what ITS operands held at that point — and an operand
  not written from that point on still holds the same at the end. So at the end of the line (and after any further
  computation `G` that leaves the buffers in question alone) the contents satisfy one equation per operation,
  `result = f (operand₁) (operand₂) …`, every buffer read at the END: `read0` … `read3`, `readReshape`, and
  `read_result` / `read_operand` for an operation of any other form. Such equations compose by rewriting, with no fold
  in sight.

  General in the topology, the reference signature and the element values.
-/
import Idealize.ShloMosaic.Lib.StableHlo.Run
import Idealize.ShloMosaic.Lib.Pipeline.Frame
import Mathlib.Data.List.Forall2

namespace Cert.ReadBack

open Idealize.ShloMosaic Idealize.ShloMosaic.StableHlo

variable {τ : Topo} {sig : RefSig} {Val : EltTy → Type}

/-- Each operation of `l` writes exactly the buffer `W` lists at its position. -/
abbrev WritesAt (l : List (HloOp τ sig Val)) (W : List (Ref sig .tc)) : Prop :=
  List.Forall₂ (fun op w => op.writes = {Proc.devRef (τ := τ) .tc w}) l W

/-- A buffer not listed is written by no operation. -/
theorem WritesAt.not_mem {l : List (HloOp τ sig Val)} {W : List (Ref sig .tc)} (h : WritesAt l W) {r : Ref sig .tc}
    (hr : r ∉ W) : ∀ op ∈ l, Proc.devRef (τ := τ) .tc r ∉ op.writes := by
  induction h with
  | nil => intro op hop; cases hop
  | cons hw _ ih =>
    intro op hop
    rcases List.mem_cons.mp hop with rfl | hop
    · rw [hw, Finset.mem_singleton]
      exact devRef_ne_of_ne fun e => hr (e ▸ List.mem_cons_self)
    · exact ih (fun hm => hr (List.mem_cons_of_mem _ hm)) op hop

/-- A buffer not listed keeps its contents through the line. -/
theorem WritesAt.keep {l : List (HloOp τ sig Val)} {W : List (Ref sig .tc)} (h : WritesAt l W) {r : Ref sig .tc}
    (hr : r ∉ W) (V : Valuation τ sig Val) : after l V (Proc.devRef .tc r) = V (Proc.devRef .tc r) :=
  after_of_forall_not_mem l V (WritesAt.not_mem h hr)

/-- A buffer not written from position `j` on holds at the end what it held after the first `j` operations. -/
theorem WritesAt.after_take {l : List (HloOp τ sig Val)} {W : List (Ref sig .tc)} (h : WritesAt l W) (j : Nat)
    (V : Valuation τ sig Val) {r : Ref sig .tc} (hr : r ∉ W.drop j) :
    after l V (Proc.devRef .tc r) = after (l.take j) V (Proc.devRef .tc r) := by
  conv_lhs => rw [← List.take_append_drop j l, StableHlo.after_append]
  exact WritesAt.keep (List.forall₂_drop j h) hr _

/-- A buffer not written after position `j` holds at the end what the operation at `j` left in it. -/
theorem WritesAt.after_at {l : List (HloOp τ sig Val)} {W : List (Ref sig .tc)} (h : WritesAt l W) (j : Nat)
    (op : HloOp τ sig Val) (hop : l[j]? = some op) (V : Valuation τ sig Val) {r : Ref sig .tc} (hr : r ∉ W.drop (j + 1)) :
    after l V (Proc.devRef .tc r) = op.result (after (l.take j) V) (Proc.devRef .tc r) := by
  rw [WritesAt.after_take h (j + 1) V hr, List.take_succ, hop, Option.toList_some, StableHlo.after_append]
  rfl

section Read

variable {l : List (HloOp τ sig Val)} {W : List (Ref sig .tc)} (h : WritesAt l W)
  (G : Valuation τ sig Val → Valuation τ sig Val) (W' : List (Ref sig .tc))
  (hG : ∀ (X : Valuation τ sig Val) (r : Ref sig .tc), r ∉ W' → G X (Proc.devRef .tc r) = X (Proc.devRef .tc r))
  (j : Nat) (V : Valuation τ sig Val)

include h hG

/-- After the line and `G`: the result buffer of the operation at `j` holds what that operation left in it. -/
theorem read_result (op : HloOp τ sig Val) (hop : l[j]? = some op) {y : Ref sig .tc} (ny : y ∉ W.drop (j + 1) ++ W') :
    G (after l V) (Proc.devRef .tc y) = op.result (after (l.take j) V) (Proc.devRef .tc y) :=
  (hG _ y fun hm => ny (List.mem_append.mpr (Or.inr hm))).trans
    (WritesAt.after_at h j op hop V fun hm => ny (List.mem_append.mpr (Or.inl hm)))

/-- After the line and `G`: a buffer not written from `j` on holds what the operation at `j` read in it. -/
theorem read_operand {a : Ref sig .tc} (na : a ∉ W.drop j ++ W') :
    G (after l V) (Proc.devRef .tc a) = after (l.take j) V (Proc.devRef .tc a) :=
  (hG _ a fun hm => na (List.mem_append.mpr (Or.inr hm))).trans
    (WritesAt.after_take h j V fun hm => na (List.mem_append.mpr (Or.inl hm)))

theorem read0 (y : Ref sig .tc) (v : y.ty.Contents Val) (hy) (hop : l[j]? = some (nullary y v hy))
    (ny : y ∉ W.drop (j + 1) ++ W') : G (after l V) (Proc.devRef .tc y) = v :=
  (read_result h G W' hG j V _ hop ny).trans (nullary_result y v hy _)

theorem read1 (x y : Ref sig .tc) (f : x.ty.Contents Val → y.ty.Contents Val) (hx hy) (hop : l[j]? = some (unary x y f hx hy))
    (ny : y ∉ W.drop (j + 1) ++ W') (nx : x ∉ W.drop j ++ W') :
    G (after l V) (Proc.devRef .tc y) = f (G (after l V) (Proc.devRef .tc x)) := by
  rw [read_operand h G W' hG j V nx]
  exact (read_result h G W' hG j V _ hop ny).trans (unary_result x y f hx hy _)

theorem read2 (a b y : Ref sig .tc) (f : a.ty.Contents Val → b.ty.Contents Val → y.ty.Contents Val) (ha hb hy)
    (hop : l[j]? = some (binary a b y f ha hb hy))
    (ny : y ∉ W.drop (j + 1) ++ W') (na : a ∉ W.drop j ++ W') (nb : b ∉ W.drop j ++ W') :
    G (after l V) (Proc.devRef .tc y) = f (G (after l V) (Proc.devRef .tc a)) (G (after l V) (Proc.devRef .tc b)) := by
  rw [read_operand h G W' hG j V na, read_operand h G W' hG j V nb]
  exact (read_result h G W' hG j V _ hop ny).trans (binary_result a b y f ha hb hy _)

theorem read3 (c a b y : Ref sig .tc) (f : c.ty.Contents Val → a.ty.Contents Val → b.ty.Contents Val → y.ty.Contents Val)
    (hc ha hb hy) (hop : l[j]? = some (ternary c a b y f hc ha hb hy))
    (ny : y ∉ W.drop (j + 1) ++ W') (nc : c ∉ W.drop j ++ W') (na : a ∉ W.drop j ++ W') (nb : b ∉ W.drop j ++ W') :
    G (after l V) (Proc.devRef .tc y)
      = f (G (after l V) (Proc.devRef .tc c)) (G (after l V) (Proc.devRef .tc a)) (G (after l V) (Proc.devRef .tc b)) := by
  rw [read_operand h G W' hG j V nc, read_operand h G W' hG j V na, read_operand h G W' hG j V nb]
  exact (read_result h G W' hG j V _ hop ny).trans (ternary_result c a b y f hc ha hb hy _)

theorem readReshape (x y : Ref sig .tc) (he hn hx hy) (hop : l[j]? = some (reshape (Val := Val) x y he hn hx hy))
    (ny : y ∉ W.drop (j + 1) ++ W') (nx : x ∉ W.drop j ++ W') :
    G (after l V) (Proc.devRef .tc y) = fun i => he ▸ shapeCast y.ty.shape (G (after l V) (Proc.devRef .tc x)) hn i := by
  rw [read_operand h G W' hG j V nx]
  exact (read_result h G W' hG j V _ hop ny).trans (reshape_result x y he hn hx hy _)

end Read

end Cert.ReadBack
-- ==== Proof.LibReadEnd.lean ====
/-
  Host operations read back against an END valuation.

  A program's host operations come in lines; after a line, later lines and kernel regions may run, each rewriting
  buffers of its own. Let `E` be the contents at the very end, and suppose `E` agrees with the contents right after
  the line `l` (run from `V`) on every buffer outside a list `later` — the buffers anything after the line writes.
  Then every operation of `l` whose result and operands are written neither later in `l` nor in `later` satisfies
  its defining equation with EVERY buffer read at the end: `E y = f (E a) (E b)`. Equations of this form, for two
  programs, compose by rewriting: equal operations of equal operands have equal results.

  Side conditions of the form `a ∉ L` over long literal lists are meant to be discharged through `nk` (numbers compared,
  not references).

  General in the topology, the reference signature and the element values.
-/
import proofs.«144613_j17471926960174_1_alg».proof.Proof.LibReadBack

namespace Cert.ReadEnd

open Idealize.ShloMosaic Idealize.ShloMosaic.StableHlo Cert.ReadBack

variable {τ : Topo} {sig : RefSig} {Val : EltTy → Type}

/-- The number a buffer reference carries within its memory space. -/
abbrev key (r : Ref sig .tc) : Nat := r.idx.val

/-- A reference whose number is not among the listed references' numbers is not listed: non-membership in a long list
    of references decided on numerals alone. -/
theorem nk {a : Ref sig .tc} {L : List (Ref sig .tc)} (h : key a ∉ L.map key) : a ∉ L :=
  fun hm => h (List.mem_map.mpr ⟨a, hm, rfl⟩)

section

variable {l : List (HloOp τ sig Val)} {W : List (Ref sig .tc)} (h : WritesAt l W)
  (V E : Valuation τ sig Val) (later : List (Ref sig .tc))
  (T : ∀ r : Ref sig .tc, r ∉ later → E (Proc.devRef .tc r) = after l V (Proc.devRef .tc r))
  (j : Nat)

include h T

private theorem notIn_nil {r : Ref sig .tc} {L : List (Ref sig .tc)} (hr : r ∉ L ++ later) : r ∉ L ++ [] := by
  simpa using fun hm => hr (List.mem_append.mpr (Or.inl hm))

private theorem notIn_later {r : Ref sig .tc} {L : List (Ref sig .tc)} (hr : r ∉ L ++ later) : r ∉ later :=
  fun hm => hr (List.mem_append.mpr (Or.inr hm))

/-- A constant: at the end its buffer holds the constant. -/
theorem end0 (y : Ref sig .tc) (v : y.ty.Contents Val) (hy) (hop : l[j]? = some (nullary y v hy))
    (ny : y ∉ W.drop (j + 1) ++ later) : E (Proc.devRef .tc y) = v := by
  rw [T y (notIn_later h V E later T ny)]
  exact read0 h id [] (fun _ _ _ => rfl) j V y v hy hop (notIn_nil h V E later T ny)

/-- A one-operand operation: at the end its result is the function of its operand at the end. -/
theorem end1 (x y : Ref sig .tc) (f : x.ty.Contents Val → y.ty.Contents Val) (hx hy)
    (hop : l[j]? = some (unary x y f hx hy))
    (ny : y ∉ W.drop (j + 1) ++ later) (nx : x ∉ W.drop j ++ later) :
    E (Proc.devRef .tc y) = f (E (Proc.devRef .tc x)) := by
  rw [T y (notIn_later h V E later T ny), T x (notIn_later h V E later T nx)]
  exact read1 h id [] (fun _ _ _ => rfl) j V x y f hx hy hop (notIn_nil h V E later T ny) (notIn_nil h V E later T nx)

/-- A two-operand operation read at the end. -/
theorem end2 (a b y : Ref sig .tc) (f : a.ty.Contents Val → b.ty.Contents Val → y.ty.Contents Val) (ha hb hy)
    (hop : l[j]? = some (binary a b y f ha hb hy))
    (ny : y ∉ W.drop (j + 1) ++ later) (na : a ∉ W.drop j ++ later) (nb : b ∉ W.drop j ++ later) :
    E (Proc.devRef .tc y) = f (E (Proc.devRef .tc a)) (E (Proc.devRef .tc b)) := by
  rw [T y (notIn_later h V E later T ny), T a (notIn_later h V E later T na), T b (notIn_later h V E later T nb)]
  exact read2 h id [] (fun _ _ _ => rfl) j V a b y f ha hb hy hop (notIn_nil h V E later T ny)
    (notIn_nil h V E later T na) (notIn_nil h V E later T nb)

/-- A three-operand operation read at the end. -/
theorem end3 (c a b y : Ref sig .tc)
    (f : c.ty.Contents Val → a.ty.Contents Val → b.ty.Contents Val → y.ty.Contents Val) (hc ha hb hy)
    (hop : l[j]? = some (ternary c a b y f hc ha hb hy))
    (ny : y ∉ W.drop (j + 1) ++ later) (nc : c ∉ W.drop j ++ later) (na : a ∉ W.drop j ++ later)
    (nb : b ∉ W.drop j ++ later) :
    E (Proc.devRef .tc y) = f (E (Proc.devRef .tc c)) (E (Proc.devRef .tc a)) (E (Proc.devRef .tc b)) := by
  rw [T y (notIn_later h V E later T ny), T c (notIn_later h V E later T nc), T a (notIn_later h V E later T na),
    T b (notIn_later h V E later T nb)]
  exact read3 h id [] (fun _ _ _ => rfl) j V c a b y f hc ha hb hy hop (notIn_nil h V E later T ny)
    (notIn_nil h V E later T nc) (notIn_nil h V E later T na) (notIn_nil h V E later T nb)

/-- A reshape read at the end: the operand's contents re-indexed. -/
theorem endReshape (x y : Ref sig .tc) (he hn hx hy) (hop : l[j]? = some (reshape (Val := Val) x y he hn hx hy))
    (ny : y ∉ W.drop (j + 1) ++ later) (nx : x ∉ W.drop j ++ later) :
    E (Proc.devRef .tc y) = fun i => he ▸ shapeCast y.ty.shape (E (Proc.devRef .tc x)) hn i := by
  rw [T y (notIn_later h V E later T ny), T x (notIn_later h V E later T nx)]
  exact readReshape h id [] (fun _ _ _ => rfl) j V x y he hn hx hy hop (notIn_nil h V E later T ny)
    (notIn_nil h V E later T nx)

end

end Cert.ReadEnd
-- ==== Proof.LibReadEndN.lean ====
/-
  An operation of any number of operands read back against an END valuation, and the contents a reshape leaves.

  The line of operations `l`, run from `V`, is single-assignment (`WritesAt`); `E` is the contents at the very end and
  agrees with the contents right after `l` on every buffer outside `later`. An operation of `l` taking a family of `n`
  operands, none of which (nor its result) is written later in `l` or in `later`, satisfies its defining equation with
  every buffer read at the end: `E y = f (fun k => E (xs k))`.

  General in the topology, the reference signature and the element values.
-/
import proofs.«144613_j17471926960174_1_alg».proof.Proof.LibReadEnd

noncomputable section

namespace Cert.ReadBack

open Idealize.ShloMosaic Idealize.ShloMosaic.StableHlo

variable {τ : Topo} {sig : RefSig} {Val : EltTy → Type}

/-- After the line and `G`: an operation of `n` operands satisfies its equation, each operand read after the line and `G`. -/
theorem readN {l : List (HloOp τ sig Val)} {W : List (Ref sig .tc)} (h : WritesAt l W)
    (G : Valuation τ sig Val → Valuation τ sig Val) (W' : List (Ref sig .tc))
    (hG : ∀ (X : Valuation τ sig Val) (r : Ref sig .tc), r ∉ W' → G X (Proc.devRef .tc r) = X (Proc.devRef .tc r))
    (j : Nat) (V : Valuation τ sig Val)
    {n : Nat} (xs : Fin n → Ref sig .tc) (y : Ref sig .tc)
    (f : ((k : Fin n) → (xs k).ty.Contents Val) → y.ty.Contents Val) (hxs hy)
    (hop : l[j]? = some (nary xs y f hxs hy))
    (ny : y ∉ W.drop (j + 1) ++ W') (nxs : ∀ k, xs k ∉ W.drop j ++ W') :
    G (after l V) (Proc.devRef .tc y) = f (fun k => G (after l V) (Proc.devRef .tc (xs k))) := by
  have hx : (fun k => G (after l V) (Proc.devRef .tc (xs k)))
      = fun k => after (l.take j) V (Proc.devRef .tc (xs k)) :=
    funext fun k => read_operand h G W' hG j V (nxs k)
  rw [hx]
  exact (read_result h G W' hG j V _ hop ny).trans (nary_result xs y f hxs hy _)

end Cert.ReadBack

namespace Cert.ReadEnd

open Idealize.ShloMosaic Idealize.ShloMosaic.StableHlo Cert.ReadBack

variable {τ : Topo} {sig : RefSig} {Val : EltTy → Type}

/-- An operation of `n` operands read at the end. -/
theorem endN {l : List (HloOp τ sig Val)} {W : List (Ref sig .tc)} (h : WritesAt l W)
    (V E : Valuation τ sig Val) (later : List (Ref sig .tc))
    (T : ∀ r : Ref sig .tc, r ∉ later → E (Proc.devRef .tc r) = after l V (Proc.devRef .tc r))
    (j : Nat) {n : Nat} (xs : Fin n → Ref sig .tc) (y : Ref sig .tc)
    (f : ((k : Fin n) → (xs k).ty.Contents Val) → y.ty.Contents Val) (hxs hy)
    (hop : l[j]? = some (nary xs y f hxs hy))
    (ny : y ∉ W.drop (j + 1) ++ later) (nxs : ∀ k, xs k ∉ W.drop j ++ later) :
    E (Proc.devRef .tc y) = f (fun k => E (Proc.devRef .tc (xs k))) := by
  have hl : ∀ {r : Ref sig .tc} {L : List (Ref sig .tc)}, r ∉ L ++ later → r ∉ later :=
    fun hr hm => hr (List.mem_append.mpr (Or.inr hm))
  have hn : ∀ {r : Ref sig .tc} {L : List (Ref sig .tc)}, r ∉ L ++ later → r ∉ L ++ [] := by
    intro r L hr; simpa using fun hm => hr (List.mem_append.mpr (Or.inl hm))
  have hx : (fun k => E (Proc.devRef .tc (xs k))) = fun k => after l V (Proc.devRef .tc (xs k)) :=
    funext fun k => T (xs k) (hl (nxs k))
  rw [T y (hl ny), hx]
  exact readN h id [] (fun _ _ _ => rfl) j V xs y f hxs hy hop (hn ny) (fun k => hn (nxs k))

/-- What a reshape leaves in its result, as a function of its operand's contents: the same elements in row-major
    order at the result's shape (the right-hand side of `endReshape`). -/
abbrev reshapeOf (x y : Ref sig .tc) (he : x.ty.elt = y.ty.elt) (hn : x.ty.shape.ShapeCasts y.ty.shape)
    (v : x.ty.Contents Val) : y.ty.Contents Val :=
  fun i => he ▸ shapeCast y.ty.shape v hn i

end Cert.ReadEnd
-- ==== Proof.RefRead.lean ====
import proofs.«144613_j17471926960174_1_alg».proof.Proof.RefOps
import proofs.«144613_j17471926960174_1_alg».proof.Proof.RefReadP
import proofs.«144613_j17471926960174_1_alg».proof.Proof.LibReadEndN

noncomputable section

namespace Cert.ReferenceIdeal.HandRead

open Cert.ReferenceIdeal Cert.ReferenceIdeal.Gen Cert.ReferenceIdeal.ReadP Idealize.ShloMosaic Idealize.ShloMosaic.TcCoe Idealize.SL.Sem Idealize.ShloMosaic.StableHlo Cert.ReadBack Cert.ReadEnd

/-! The reference program's end contents, one operation at a time.

The reference is a straight line of 389 host operations, each writing a buffer of its own that no later operation
writes again. So at the end of the line every operation's buffer holds the operation's function of its operands'
END contents, and an argument buffer, which nothing writes, holds its launch contents. Composing these equations in
program order gives, for every buffer, its end contents as the reference's value function (`val_…`, the composed
pure term of the operations up to it) of the arguments' launch contents `V₀`. The side conditions "not written
later" are decided on the buffers' numbers. -/

/-! The reference's operations write one buffer each, all different: the buffers in program order, window by window. -/

abbrev w0 : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_v19, main_cst_1, main_v20, main_cst_2, main_v21, main_v22, main_v23, main_v24, main_v25, main_v26, main_cst_3, main_v27, main_cst_4, main_v28, main_v29, main_v30, main_v31, main_v32, main_cst_5, main_v33, main_v34, main_v35, main_v36, main_v37, main_v38, main_v39, main_v40, main_v41, main_v42, main_v43, main_v44, main_call0_cst, main_call0_v0, main_v45, main_v46, main_v47, main_c_6, main_v48, main_v49, main_c_7]
abbrev w1 : List (Ref sig .tc) := [main_v50, main_v51, main_v52, main_v53, main_v54, main_v55, main_v56, main_cst_8, main_v57, main_v58, main_v59, main_v60, main_v61, main_v62, main_v63, main_v64, main_v65, main_cst_9, main_v66, main_cst_10, main_v67, main_v68, main_v69, main_v70, main_v71, main_v72, main_cst_11, main_v73, main_cst_12, main_v74, main_v75, main_v76, main_v77, main_v78, main_cst_13, main_v79, main_v80, main_v81, main_v82, main_v83, main_v84, main_v85, main_v86, main_v87, main_v88, main_v89, main_v90, main_call1_cst, main_call1_v0, main_v91, main_v92, main_v93, main_c_14, main_v94, main_v95, main_c_15, main_v96, main_v97, main_v98, main_v99, main_v100, main_v101]
abbrev w2 : List (Ref sig .tc) := [main_v102, main_cst_16, main_v103, main_v104, main_v105, main_v106, main_v107, main_v108, main_v109, main_v110, main_v111, main_cst_17, main_v112, main_cst_18, main_v113, main_v114, main_v115, main_v116, main_v117, main_v118, main_cst_19, main_v119, main_cst_20, main_v120, main_v121, main_v122, main_v123, main_v124, main_cst_21, main_v125, main_v126, main_v127, main_v128, main_v129, main_v130, main_v131, main_v132, main_v133, main_v134, main_v135, main_v136, main_call2_cst, main_call2_v0, main_v137, main_v138, main_v139, main_c_22, main_v140, main_v141, main_c_23, main_v142, main_v143, main_v144, main_v145, main_v146, main_v147, main_v148, main_cst_24, main_v149, main_v150, main_v151, main_v152]
abbrev w3 : List (Ref sig .tc) := [main_v153, main_v154, main_v155, main_v156, main_v157, main_cst_25, main_v158, main_cst_26, main_v159, main_v160, main_v161, main_v162, main_v163, main_v164, main_cst_27, main_v165, main_cst_28, main_v166, main_v167, main_v168, main_v169, main_v170, main_cst_29, main_v171, main_v172, main_v173, main_v174, main_v175, main_v176, main_v177, main_v178, main_v179, main_v180, main_v181, main_v182, main_call3_cst, main_call3_v0, main_v183, main_v184, main_v185, main_c_30, main_v186, main_v187, main_c_31, main_v188, main_v189, main_v190, main_v191, main_v192, main_v193, main_v194, main_cst_32, main_v195, main_v196, main_v197, main_v198, main_v199, main_v200, main_v201, main_v202, main_v203, main_cst_33]
abbrev w4 : List (Ref sig .tc) := [main_v204, main_cst_34, main_v205, main_v206, main_v207, main_v208, main_v209, main_v210, main_cst_35, main_v211, main_cst_36, main_v212, main_v213, main_v214, main_v215, main_v216, main_cst_37, main_v217, main_v218, main_v219, main_v220, main_v221, main_v222, main_v223, main_v224, main_v225, main_v226, main_v227, main_v228, main_call4_cst, main_call4_v0, main_v229, main_v230, main_v231, main_c_38, main_v232, main_v233, main_c_39, main_v234, main_v235, main_v236, main_v237, main_v238, main_v239, main_v240, main_cst_40, main_v241, main_v242, main_v243, main_v244, main_v245, main_v246, main_v247, main_v248, main_v249, main_cst_41, main_v250, main_cst_42, main_v251, main_v252, main_v253, main_v254]
abbrev w5 : List (Ref sig .tc) := [main_v255, main_v256, main_cst_43, main_v257, main_cst_44, main_v258, main_v259, main_v260, main_v261, main_v262, main_cst_45, main_v263, main_v264, main_v265, main_v266, main_v267, main_v268, main_v269, main_v270, main_v271, main_v272, main_v273, main_v274, main_call5_cst, main_call5_v0, main_v275, main_v276, main_v277, main_c_46, main_v278, main_v279, main_c_47, main_v280, main_v281, main_v282, main_v283, main_v284, main_v285, main_v286, main_cst_48, main_v287, main_v288, main_v289, main_v290, main_v291, main_v292, main_v293, main_v294, main_v295, main_call6_cst, main_call6_v0, main_v296, main_v297, main_v298, main_c_49, main_v299, main_v300, main_c_50, main_v301, main_v302, main_v303, main_v304, main_v305, main_v306]
abbrev w6 : List (Ref sig .tc) := [main_v307, main_cst_51, main_v308, main_v309, main_v310, main_v311, main_v312, main_v313, main_v314, main_v315, main_v316, main_call7_cst, main_call7_v0, main_v317, main_v318]

abbrev refW : List (Ref sig .tc) := w0 ++ w1 ++ w2 ++ w3 ++ w4 ++ w5 ++ w6

theorem writesAt_append {Val : EltTy → Type} {l₁ l₂ : List (HloOp τ sig Val)} {W₁ W₂ : List (Ref sig .tc)}
    (h₁ : WritesAt l₁ W₁) (h₂ : WritesAt l₂ W₂) : WritesAt (l₁ ++ l₂) (W₁ ++ W₂) := by
  induction h₁ with
  | nil => exact h₂
  | cons h _ ih => exact List.Forall₂.cons h ih

set_option maxRecDepth 4096 in
theorem hW0 : WritesAt (HandRun.ops0 (F := Ideal)) w0 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))

set_option maxRecDepth 4096 in
theorem hW1 : WritesAt (HandRun.ops1 (F := Ideal)) w1 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))

set_option maxRecDepth 4096 in
theorem hW2 : WritesAt (HandRun.ops2 (F := Ideal)) w2 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))

set_option maxRecDepth 4096 in
theorem hW3 : WritesAt (HandRun.ops3 (F := Ideal)) w3 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))

set_option maxRecDepth 4096 in
theorem hW4 : WritesAt (HandRun.ops4 (F := Ideal)) w4 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))

set_option maxRecDepth 4096 in
theorem hW5 : WritesAt (HandRun.ops5 (F := Ideal)) w5 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))

set_option maxRecDepth 4096 in
theorem hW6 : WritesAt (HandRun.ops6 (F := Ideal)) w6 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))

theorem hW : WritesAt (HandRun.refOps (F := Ideal)) refW :=
  writesAt_append (writesAt_append (writesAt_append (writesAt_append (writesAt_append (writesAt_append hW0 hW1) hW2) hW3) hW4) hW5) hW6

variable (V₀ : Valuation τ sig (Elt Ideal))

/-! ## The arguments' launch contents, at their tensor types -/

abbrev arg0 : (⟨S50000x256, .f32⟩ : BufTy).Contents (Elt Ideal) := V₀ (Proc.devRef .tc main_arg0)
abbrev arg1 : (⟨S50000x128, .f32⟩ : BufTy).Contents (Elt Ideal) := V₀ (Proc.devRef .tc main_arg1)
abbrev arg2 : (⟨S50000x256, .f32⟩ : BufTy).Contents (Elt Ideal) := V₀ (Proc.devRef .tc main_arg2)
abbrev arg3 : (⟨S2x800000, .i32⟩ : BufTy).Contents (Elt Ideal) := V₀ (Proc.devRef .tc main_arg3)
abbrev arg4 : (⟨S2x800000, .i32⟩ : BufTy).Contents (Elt Ideal) := V₀ (Proc.devRef .tc main_arg4)
abbrev arg5 : (⟨S2x800000, .i32⟩ : BufTy).Contents (Elt Ideal) := V₀ (Proc.devRef .tc main_arg5)
abbrev arg6 : (⟨S128x256, .f32⟩ : BufTy).Contents (Elt Ideal) := V₀ (Proc.devRef .tc main_arg6)
abbrev arg7 : (⟨S128, .f32⟩ : BufTy).Contents (Elt Ideal) := V₀ (Proc.devRef .tc main_arg7)
abbrev arg8 : (⟨S128, .f32⟩ : BufTy).Contents (Elt Ideal) := V₀ (Proc.devRef .tc main_arg8)
abbrev arg9 : (⟨S128, .f32⟩ : BufTy).Contents (Elt Ideal) := V₀ (Proc.devRef .tc main_arg9)
abbrev arg10 : (⟨S128x128, .f32⟩ : BufTy).Contents (Elt Ideal) := V₀ (Proc.devRef .tc main_arg10)
abbrev arg11 : (⟨S128, .f32⟩ : BufTy).Contents (Elt Ideal) := V₀ (Proc.devRef .tc main_arg11)
abbrev arg12 : (⟨S128, .f32⟩ : BufTy).Contents (Elt Ideal) := V₀ (Proc.devRef .tc main_arg12)
abbrev arg13 : (⟨S128, .f32⟩ : BufTy).Contents (Elt Ideal) := V₀ (Proc.devRef .tc main_arg13)
abbrev arg14 : (⟨S128x256, .f32⟩ : BufTy).Contents (Elt Ideal) := V₀ (Proc.devRef .tc main_arg14)
abbrev arg15 : (⟨S128, .f32⟩ : BufTy).Contents (Elt Ideal) := V₀ (Proc.devRef .tc main_arg15)
abbrev arg16 : (⟨S128, .f32⟩ : BufTy).Contents (Elt Ideal) := V₀ (Proc.devRef .tc main_arg16)
abbrev arg17 : (⟨S128, .f32⟩ : BufTy).Contents (Elt Ideal) := V₀ (Proc.devRef .tc main_arg17)
abbrev arg18 : (⟨S64x128, .f32⟩ : BufTy).Contents (Elt Ideal) := V₀ (Proc.devRef .tc main_arg18)
abbrev arg19 : (⟨S64, .f32⟩ : BufTy).Contents (Elt Ideal) := V₀ (Proc.devRef .tc main_arg19)
abbrev arg20 : (⟨S64, .f32⟩ : BufTy).Contents (Elt Ideal) := V₀ (Proc.devRef .tc main_arg20)
abbrev arg21 : (⟨S64, .f32⟩ : BufTy).Contents (Elt Ideal) := V₀ (Proc.devRef .tc main_arg21)
abbrev arg22 : (⟨S256x64, .f32⟩ : BufTy).Contents (Elt Ideal) := V₀ (Proc.devRef .tc main_arg22)
abbrev arg23 : (⟨S256, .f32⟩ : BufTy).Contents (Elt Ideal) := V₀ (Proc.devRef .tc main_arg23)
abbrev arg24 : (⟨S128x64, .f32⟩ : BufTy).Contents (Elt Ideal) := V₀ (Proc.devRef .tc main_arg24)
abbrev arg25 : (⟨S128, .f32⟩ : BufTy).Contents (Elt Ideal) := V₀ (Proc.devRef .tc main_arg25)

/-! ## No operation writes an argument -/

theorem rb_arg0 : after (HandRun.refOps (F := Ideal)) V₀ (Proc.devRef .tc main_arg0) = arg0 V₀ :=
  WritesAt.keep hW (nk (by decide)) V₀
theorem rb_arg1 : after (HandRun.refOps (F := Ideal)) V₀ (Proc.devRef .tc main_arg1) = arg1 V₀ :=
  WritesAt.keep hW (nk (by decide)) V₀
theorem rb_arg2 : after (HandRun.refOps (F := Ideal)) V₀ (Proc.devRef .tc main_arg2) = arg2 V₀ :=
  WritesAt.keep hW (nk (by decide)) V₀
theorem rb_arg3 : after (HandRun.refOps (F := Ideal)) V₀ (Proc.devRef .tc main_arg3) = arg3 V₀ :=
  WritesAt.keep hW (nk (by decide)) V₀
theorem rb_arg4 : after (HandRun.refOps (F := Ideal)) V₀ (Proc.devRef .tc main_arg4) = arg4 V₀ :=
  WritesAt.keep hW (nk (by decide)) V₀
theorem rb_arg5 : after (HandRun.refOps (F := Ideal)) V₀ (Proc.devRef .tc main_arg5) = arg5 V₀ :=
  WritesAt.keep hW (nk (by decide)) V₀
theorem rb_arg6 : after (HandRun.refOps (F := Ideal)) V₀ (Proc.devRef .tc main_arg6) = arg6 V₀ :=
  WritesAt.keep hW (nk (by decide)) V₀
theorem rb_arg7 : after (HandRun.refOps (F := Ideal)) V₀ (Proc.devRef .tc main_arg7) = arg7 V₀ :=
  WritesAt.keep hW (nk (by decide)) V₀
theorem rb_arg8 : after (HandRun.refOps (F := Ideal)) V₀ (Proc.devRef .tc main_arg8) = arg8 V₀ :=
  WritesAt.keep hW (nk (by decide)) V₀
theorem rb_arg9 : after (HandRun.refOps (F := Ideal)) V₀ (Proc.devRef .tc main_arg9) = arg9 V₀ :=
  WritesAt.keep hW (nk (by decide)) V₀
theorem rb_arg10 : after (HandRun.refOps (F := Ideal)) V₀ (Proc.devRef .tc main_arg10) = arg10 V₀ :=
  WritesAt.keep hW (nk (by decide)) V₀
theorem rb_arg11 : after (HandRun.refOps (F := Ideal)) V₀ (Proc.devRef .tc main_arg11) = arg11 V₀ :=
  WritesAt.keep hW (nk (by decide)) V₀
theorem rb_arg12 : after (HandRun.refOps (F := Ideal)) V₀ (Proc.devRef .tc main_arg12) = arg12 V₀ :=
  WritesAt.keep hW (nk (by decide)) V₀
theorem rb_arg13 : after (HandRun.refOps (F := Ideal)) V₀ (Proc.devRef .tc main_arg13) = arg13 V₀ :=
  WritesAt.keep hW (nk (by decide)) V₀
theorem rb_arg14 : after (HandRun.refOps (F := Ideal)) V₀ (Proc.devRef .tc main_arg14) = arg14 V₀ :=
  WritesAt.keep hW (nk (by decide)) V₀
theorem rb_arg15 : after (HandRun.refOps (F := Ideal)) V₀ (Proc.devRef .tc main_arg15) = arg15 V₀ :=
  WritesAt.keep hW (nk (by decide)) V₀
theorem rb_arg16 : after (HandRun.refOps (F := Ideal)) V₀ (Proc.devRef .tc main_arg16) = arg16 V₀ :=
  WritesAt.keep hW (nk (by decide)) V₀
theorem rb_arg17 : after (HandRun.refOps (F := Ideal)) V₀ (Proc.devRef .tc main_arg17) = arg17 V₀ :=
  WritesAt.keep hW (nk (by decide)) V₀
theorem rb_arg18 : after (HandRun.refOps (F := Ideal)) V₀ (Proc.devRef .tc main_arg18) = arg18 V₀ :=
  WritesAt.keep hW (nk (by decide)) V₀
theorem rb_arg19 : after (HandRun.refOps (F := Ideal)) V₀ (Proc.devRef .tc main_arg19) = arg19 V₀ :=
  WritesAt.keep hW (nk (by decide)) V₀
theorem rb_arg20 : after (HandRun.refOps (F := Ideal)) V₀ (Proc.devRef .tc main_arg20) = arg20 V₀ :=
  WritesAt.keep hW (nk (by decide)) V₀
theorem rb_arg21 : after (HandRun.refOps (F := Ideal)) V₀ (Proc.devRef .tc main_arg21) = arg21 V₀ :=
  WritesAt.keep hW (nk (by decide)) V₀
theorem rb_arg22 : after (HandRun.refOps (F := Ideal)) V₀ (Proc.devRef .tc main_arg22) = arg22 V₀ :=
  WritesAt.keep hW (nk (by decide)) V₀
theorem rb_arg23 : after (HandRun.refOps (F := Ideal)) V₀ (Proc.devRef .tc main_arg23) = arg23 V₀ :=
  WritesAt.keep hW (nk (by decide)) V₀
theorem rb_arg24 : after (HandRun.refOps (F := Ideal)) V₀ (Proc.devRef .tc main_arg24) = arg24 V₀ :=
  WritesAt.keep hW (nk (by decide)) V₀
theorem rb_arg25 : after (HandRun.refOps (F := Ideal)) V₀ (Proc.devRef .tc main_arg25) = arg25 V₀ :=
  WritesAt.keep hW (nk (by decide)) V₀

/-! ## Every operation's buffer at the end, in program order -/

theorem rb_main_v0 : after (HandRun.refOps (F := Ideal)) V₀ (Proc.devRef .tc main_v0) = val_main_v0 (F := Ideal) (arg3 V₀) := by
  have h := end1 hW V₀ (after (HandRun.refOps (F := Ideal)) V₀) [] (fun _ _ => rfl) 0 _ _ _ _ _ rfl (nk (by decide)) (nk (by decide))
  rw [rb_arg3 V₀] at h
  exact h

theorem rb_main_v1 : after (HandRun.refOps (F := Ideal)) V₀ (Proc.devRef .tc main_v1) = val_main_v1 (F := Ideal) (arg3 V₀) := by
  have h := endReshape hW V₀ (after (HandRun.refOps (F := Ideal)) V₀) [] (fun _ _ => rfl) 1 _ _ _ _ _ _ rfl (nk (by decide)) (nk (by decide))
  rw [rb_main_v0 V₀] at h
  exact h

theorem rb_main_c : after (HandRun.refOps (F := Ideal)) V₀ (Proc.devRef .tc main_c) = val_main_c (F := Ideal) :=
  end0 hW V₀ (after (HandRun.refOps (F := Ideal)) V₀) [] (fun _ _ => rfl) 2 _ _ _ rfl (nk (by decide))

theorem rb_main_v2 : after (HandRun.refOps (F := Ideal)) V₀ (Proc.devRef .tc main_v2) = val_main_v2 (F := Ideal) := by
  have h := end1 hW V₀ (after (HandRun.refOps (F := Ideal)) V₀) [] (fun _ _ => rfl) 3 _ _ _ _ _ rfl (nk (by decide)) (nk (by decide))
  rw [rb_main_c V₀] at h
  exact h

theorem rb_main_v3 : after (HandRun.refOps (F := Ideal)) V₀ (Proc.devRef .tc main_v3) = val_main_v3 (F := Ideal) (arg3 V₀) := by
  have h := end2 hW V₀ (after (HandRun.refOps (F := Ideal)) V₀) [] (fun _ _ => rfl) 4 _ _ _ _ _ _ _ rfl (nk (by decide)) (nk (by decide)) (nk (by decide))
  rw [rb_main_v1 V₀, rb_main_v2 V₀] at h
  exact h

theorem rb_main_c_0 : after (HandRun.refOps (F := Ideal)) V₀ (Proc.devRef .tc main_c_0) = val_main_c_0 (F := Ideal) :=
  end0 hW V₀ (after (HandRun.refOps (F := Ideal)) V₀) [] (fun _ _ => rfl) 5 _ _ _ rfl (nk (by decide))

theorem rb_main_v4 : after (HandRun.refOps (F := Ideal)) V₀ (Proc.devRef .tc main_v4) = val_main_v4 (F := Ideal) := by
  have h := end1 hW V₀ (after (HandRun.refOps (F := Ideal)) V₀) [] (fun _ _ => rfl) 6 _ _ _ _ _ rfl (nk (by decide)) (nk (by decide))
  rw [rb_main_c_0 V₀] at h
  exact h

theorem rb_main_v5 : after (HandRun.refOps (F := Ideal)) V₀ (Proc.devRef .tc main_v5) = val_main_v5 (F := Ideal) (arg3 V₀) := by
  have h := end2 hW V₀ (after (HandRun.refOps (F := Ideal)) V₀) [] (fun _ _ => rfl) 7 _ _ _ _ _ _ _ rfl (nk (by decide)) (nk (by decide)) (nk (by decide))
  rw [rb_main_v1 V₀, rb_main_v4 V₀] at h
  exact h

theorem rb_main_v6 : after (HandRun.refOps (F := Ideal)) V₀ (Proc.devRef .tc main_v6) = val_main_v6 (F := Ideal) (arg3 V₀) := by
  have h := end3 hW V₀ (after (HandRun.refOps (F := Ideal)) V₀) [] (fun _ _ => rfl) 8 _ _ _ _ _ _ _ _ _ rfl (nk (by decide)) (nk (by decide)) (nk (by decide)) (nk (by decide))
  rw [rb_main_v3 V₀, rb_main_v5 V₀, rb_main_v1 V₀] at h
  exact h

theorem rb_main_v7 : after (HandRun.refOps (F := Ideal)) V₀ (Proc.devRef .tc main_v7) = val_main_v7 (F := Ideal) (arg3 V₀) := by
  have h := end1 hW V₀ (after (HandRun.refOps (F := Ideal)) V₀) [] (fun _ _ => rfl) 9 _ _ _ _ _ rfl (nk (by decide)) (nk (by decide))
  rw [rb_main_v6 V₀] at h
  exact h

theorem rb_main_v8 : after (HandRun.refOps (F := Ideal)) V₀ (Proc.devRef .tc main_v8) = val_main_v8 (F := Ideal) (arg0 V₀) (arg3 V₀) := by
  have h := end2 hW V₀ (after (HandRun.refOps (F := Ideal)) V₀) [] (fun _ _ => rfl) 10 _ _ _ _ _ _ _ rfl (nk (by decide)) (nk (by decide)) (nk (by decide))
  rw [rb_arg0 V₀, rb_main_v7 V₀] at h
  exact h

theorem rb_main_v9 : after (HandRun.refOps (F := Ideal)) V₀ (Proc.devRef .tc main_v9) = val_main_v9 (F := Ideal) (arg3 V₀) := by
  have h := end1 hW V₀ (after (HandRun.refOps (F := Ideal)) V₀) [] (fun _ _ => rfl) 11 _ _ _ _ _ rfl (nk (by decide)) (nk (by decide))
  rw [rb_arg3 V₀] at h
  exact h

theorem rb_main_v10 : after (HandRun.refOps (F := Ideal)) V₀ (Proc.devRef .tc main_v10) = val_main_v10 (F := Ideal) (arg3 V₀) := by
  have h := endReshape hW V₀ (after (HandRun.refOps (F := Ideal)) V₀) [] (fun _ _ => rfl) 12 _ _ _ _ _ _ rfl (nk (by decide)) (nk (by decide))
  rw [rb_main_v9 V₀] at h
  exact h

theorem rb_main_cst : after (HandRun.refOps (F := Ideal)) V₀ (Proc.devRef .tc main_cst) = val_main_cst (F := Ideal) :=
  end0 hW V₀ (after (HandRun.refOps (F := Ideal)) V₀) [] (fun _ _ => rfl) 13 _ _ _ rfl (nk (by decide))

theorem rb_main_v11 : after (HandRun.refOps (F := Ideal)) V₀ (Proc.devRef .tc main_v11) = val_main_v11 (F := Ideal) := by
  have h := end1 hW V₀ (after (HandRun.refOps (F := Ideal)) V₀) [] (fun _ _ => rfl) 14 _ _ _ _ _ rfl (nk (by decide)) (nk (by decide))
  rw [rb_main_cst V₀] at h
  exact h

theorem rb_main_v12 : after (HandRun.refOps (F := Ideal)) V₀ (Proc.devRef .tc main_v12) = val_main_v12 (F := Ideal) (arg3 V₀) := by
  have h := end1 hW V₀ (after (HandRun.refOps (F := Ideal)) V₀) [] (fun _ _ => rfl) 15 _ _ _ _ _ rfl (nk (by decide)) (nk (by decide))
  rw [rb_main_v10 V₀] at h
  exact h

theorem rb_main_v13 : after (HandRun.refOps (F := Ideal)) V₀ (Proc.devRef .tc main_v13) = val_main_v13 (F := Ideal) (arg0 V₀) (arg3 V₀) := by
  have h := end3 hW V₀ (after (HandRun.refOps (F := Ideal)) V₀) [] (fun _ _ => rfl) 16 _ _ _ _ _ _ _ _ _ rfl (nk (by decide)) (nk (by decide)) (nk (by decide)) (nk (by decide))
  rw [rb_main_v11 V₀, rb_main_v12 V₀, rb_main_v8 V₀] at h
  exact h

theorem rb_main_v14 : after (HandRun.refOps (F := Ideal)) V₀ (Proc.devRef .tc main_v14) = val_main_v14 (F := Ideal) (arg0 V₀) (arg3 V₀) := by
  have h := end2 hW V₀ (after (HandRun.refOps (F := Ideal)) V₀) [] (fun _ _ => rfl) 17 _ _ _ _ _ _ _ rfl (nk (by decide)) (nk (by decide)) (nk (by decide))
  rw [rb_arg0 V₀, rb_main_v13 V₀] at h
  exact h

theorem rb_main_v15 : after (HandRun.refOps (F := Ideal)) V₀ (Proc.devRef .tc main_v15) = val_main_v15 (F := Ideal) (arg6 V₀) := by
  have h := end1 hW V₀ (after (HandRun.refOps (F := Ideal)) V₀) [] (fun _ _ => rfl) 18 _ _ _ _ _ rfl (nk (by decide)) (nk (by decide))
  rw [rb_arg6 V₀] at h
  exact h

theorem rb_main_v16 : after (HandRun.refOps (F := Ideal)) V₀ (Proc.devRef .tc main_v16) = val_main_v16 (F := Ideal) (arg0 V₀) (arg3 V₀) (arg6 V₀) := by
  have h := end2 hW V₀ (after (HandRun.refOps (F := Ideal)) V₀) [] (fun _ _ => rfl) 19 _ _ _ _ _ _ _ rfl (nk (by decide)) (nk (by decide)) (nk (by decide))
  rw [rb_main_v14 V₀, rb_main_v15 V₀] at h
  exact h

theorem rb_main_v17 : after (HandRun.refOps (F := Ideal)) V₀ (Proc.devRef .tc main_v17) = val_main_v17 (F := Ideal) (arg7 V₀) := by
  have h := end1 hW V₀ (after (HandRun.refOps (F := Ideal)) V₀) [] (fun _ _ => rfl) 20 _ _ _ _ _ rfl (nk (by decide)) (nk (by decide))
  rw [rb_arg7 V₀] at h
  exact h

theorem rb_main_v18 : after (HandRun.refOps (F := Ideal)) V₀ (Proc.devRef .tc main_v18) = val_main_v18 (F := Ideal) (arg7 V₀) := by
  have h := end1 hW V₀ (after (HandRun.refOps (F := Ideal)) V₀) [] (fun _ _ => rfl) 21 _ _ _ _ _ rfl (nk (by decide)) (nk (by decide))
  rw [rb_main_v17 V₀] at h
  exact h

theorem rb_main_v19 : after (HandRun.refOps (F := Ideal)) V₀ (Proc.devRef .tc main_v19) = val_main_v19 (F := Ideal) (arg0 V₀) (arg3 V₀) (arg6 V₀) (arg7 V₀) := by
  have h := end2 hW V₀ (after (HandRun.refOps (F := Ideal)) V₀) [] (fun _ _ => rfl) 22 _ _ _ _ _ _ _ rfl (nk (by decide)) (nk (by decide)) (nk (by decide))
  rw [rb_main_v16 V₀, rb_main_v18 V₀] at h
  exact h

theorem rb_main_cst_1 : after (HandRun.refOps (F := Ideal)) V₀ (Proc.devRef .tc main_cst_1) = val_main_cst_1 (F := Ideal) :=
  end0 hW V₀ (after (HandRun.refOps (F := Ideal)) V₀) [] (fun _ _ => rfl) 23 _ _ _ rfl (nk (by decide))

theorem rb_main_v20 : after (HandRun.refOps (F := Ideal)) V₀ (Proc.devRef .tc main_v20) = val_main_v20 (F := Ideal) (arg0 V₀) (arg3 V₀) (arg6 V₀) (arg7 V₀) := by
  have h := end2 hW V₀ (after (HandRun.refOps (F := Ideal)) V₀) [] (fun _ _ => rfl) 24 _ _ _ _ _ _ _ rfl (nk (by decide)) (nk (by decide)) (nk (by decide))
  rw [rb_main_v19 V₀, rb_main_cst_1 V₀] at h
  exact h

theorem rb_main_cst_2 : after (HandRun.refOps (F := Ideal)) V₀ (Proc.devRef .tc main_cst_2) = val_main_cst_2 (F := Ideal) :=
  end0 hW V₀ (after (HandRun.refOps (F := Ideal)) V₀) [] (fun _ _ => rfl) 25 _ _ _ rfl (nk (by decide))

theorem rb_main_v21 : after (HandRun.refOps (F := Ideal)) V₀ (Proc.devRef .tc main_v21) = val_main_v21 (F := Ideal) := by
  have h := end1 hW V₀ (after (HandRun.refOps (F := Ideal)) V₀) [] (fun _ _ => rfl) 26 _ _ _ _ _ rfl (nk (by decide)) (nk (by decide))
  rw [rb_main_cst_2 V₀] at h
  exact h

theorem rb_main_v22 : after (HandRun.refOps (F := Ideal)) V₀ (Proc.devRef .tc main_v22) = val_main_v22 (F := Ideal) (arg0 V₀) (arg3 V₀) (arg6 V₀) (arg7 V₀) := by
  have h := end2 hW V₀ (after (HandRun.refOps (F := Ideal)) V₀) [] (fun _ _ => rfl) 27 _ _ _ _ _ _ _ rfl (nk (by decide)) (nk (by decide)) (nk (by decide))
  rw [rb_main_v20 V₀, rb_main_v21 V₀] at h
  exact h

theorem rb_main_v23 : after (HandRun.refOps (F := Ideal)) V₀ (Proc.devRef .tc main_v23) = val_main_v23 (F := Ideal) (arg0 V₀) (arg3 V₀) (arg6 V₀) (arg7 V₀) := by
  have h := end1 hW V₀ (after (HandRun.refOps (F := Ideal)) V₀) [] (fun _ _ => rfl) 28 _ _ _ _ _ rfl (nk (by decide)) (nk (by decide))
  rw [rb_main_v22 V₀] at h
  exact h

theorem rb_main_v24 : after (HandRun.refOps (F := Ideal)) V₀ (Proc.devRef .tc main_v24) = val_main_v24 (F := Ideal) (arg0 V₀) (arg3 V₀) (arg6 V₀) (arg7 V₀) := by
  have h := end1 hW V₀ (after (HandRun.refOps (F := Ideal)) V₀) [] (fun _ _ => rfl) 29 _ _ _ _ _ rfl (nk (by decide)) (nk (by decide))
  rw [rb_main_v23 V₀] at h
  exact h

theorem rb_main_v25 : after (HandRun.refOps (F := Ideal)) V₀ (Proc.devRef .tc main_v25) = val_main_v25 (F := Ideal) (arg0 V₀) (arg3 V₀) (arg6 V₀) (arg7 V₀) := by
  have h := end2 hW V₀ (after (HandRun.refOps (F := Ideal)) V₀) [] (fun _ _ => rfl) 30 _ _ _ _ _ _ _ rfl (nk (by decide)) (nk (by decide)) (nk (by decide))
  rw [rb_main_v19 V₀, rb_main_v24 V₀] at h
  exact h

theorem rb_main_v26 : after (HandRun.refOps (F := Ideal)) V₀ (Proc.devRef .tc main_v26) = val_main_v26 (F := Ideal) (arg0 V₀) (arg3 V₀) (arg6 V₀) (arg7 V₀) := by
  have h := end2 hW V₀ (after (HandRun.refOps (F := Ideal)) V₀) [] (fun _ _ => rfl) 31 _ _ _ _ _ _ _ rfl (nk (by decide)) (nk (by decide)) (nk (by decide))
  rw [rb_main_v25 V₀] at h
  exact h

theorem rb_main_cst_3 : after (HandRun.refOps (F := Ideal)) V₀ (Proc.devRef .tc main_cst_3) = val_main_cst_3 (F := Ideal) :=
  end0 hW V₀ (after (HandRun.refOps (F := Ideal)) V₀) [] (fun _ _ => rfl) 32 _ _ _ rfl (nk (by decide))

theorem rb_main_v27 : after (HandRun.refOps (F := Ideal)) V₀ (Proc.devRef .tc main_v27) = val_main_v27 (F := Ideal) (arg0 V₀) (arg3 V₀) (arg6 V₀) (arg7 V₀) := by
  have h := end2 hW V₀ (after (HandRun.refOps (F := Ideal)) V₀) [] (fun _ _ => rfl) 33 _ _ _ _ _ _ _ rfl (nk (by decide)) (nk (by decide)) (nk (by decide))
  rw [rb_main_v26 V₀, rb_main_cst_3 V₀] at h
  exact h

theorem rb_main_cst_4 : after (HandRun.refOps (F := Ideal)) V₀ (Proc.devRef .tc main_cst_4) = val_main_cst_4 (F := Ideal) :=
  end0 hW V₀ (after (HandRun.refOps (F := Ideal)) V₀) [] (fun _ _ => rfl) 34 _ _ _ rfl (nk (by decide))

theorem rb_main_v28 : after (HandRun.refOps (F := Ideal)) V₀ (Proc.devRef .tc main_v28) = val_main_v28 (F := Ideal) := by
  have h := end1 hW V₀ (after (HandRun.refOps (F := Ideal)) V₀) [] (fun _ _ => rfl) 35 _ _ _ _ _ rfl (nk (by decide)) (nk (by decide))
  rw [rb_main_cst_4 V₀] at h
  exact h

theorem rb_main_v29 : after (HandRun.refOps (F := Ideal)) V₀ (Proc.devRef .tc main_v29) = val_main_v29 (F := Ideal) (arg0 V₀) (arg3 V₀) (arg6 V₀) (arg7 V₀) := by
  have h := end2 hW V₀ (after (HandRun.refOps (F := Ideal)) V₀) [] (fun _ _ => rfl) 36 _ _ _ _ _ _ _ rfl (nk (by decide)) (nk (by decide)) (nk (by decide))
  rw [rb_main_v27 V₀, rb_main_v28 V₀] at h
  exact h

theorem rb_main_v30 : after (HandRun.refOps (F := Ideal)) V₀ (Proc.devRef .tc main_v30) = val_main_v30 (F := Ideal) (arg0 V₀) (arg3 V₀) (arg6 V₀) (arg7 V₀) := by
  have h := end1 hW V₀ (after (HandRun.refOps (F := Ideal)) V₀) [] (fun _ _ => rfl) 37 _ _ _ _ _ rfl (nk (by decide)) (nk (by decide))
  rw [rb_main_v22 V₀] at h
  exact h

theorem rb_main_v31 : after (HandRun.refOps (F := Ideal)) V₀ (Proc.devRef .tc main_v31) = val_main_v31 (F := Ideal) (arg0 V₀) (arg3 V₀) (arg6 V₀) (arg7 V₀) := by
  have h := end1 hW V₀ (after (HandRun.refOps (F := Ideal)) V₀) [] (fun _ _ => rfl) 38 _ _ _ _ _ rfl (nk (by decide)) (nk (by decide))
  rw [rb_main_v30 V₀] at h
  exact h

theorem rb_main_v32 : after (HandRun.refOps (F := Ideal)) V₀ (Proc.devRef .tc main_v32) = val_main_v32 (F := Ideal) (arg0 V₀) (arg3 V₀) (arg6 V₀) (arg7 V₀) := by
  have h := end2 hW V₀ (after (HandRun.refOps (F := Ideal)) V₀) [] (fun _ _ => rfl) 39 _ _ _ _ _ _ _ rfl (nk (by decide)) (nk (by decide)) (nk (by decide))
  rw [rb_main_v19 V₀, rb_main_v31 V₀] at h
  exact h

theorem rb_main_cst_5 : after (HandRun.refOps (F := Ideal)) V₀ (Proc.devRef .tc main_cst_5) = val_main_cst_5 (F := Ideal) :=
  end0 hW V₀ (after (HandRun.refOps (F := Ideal)) V₀) [] (fun _ _ => rfl) 40 _ _ _ rfl (nk (by decide))

theorem rb_main_v33 : after (HandRun.refOps (F := Ideal)) V₀ (Proc.devRef .tc main_v33) = val_main_v33 (F := Ideal) := by
  have h := end1 hW V₀ (after (HandRun.refOps (F := Ideal)) V₀) [] (fun _ _ => rfl) 41 _ _ _ _ _ rfl (nk (by decide)) (nk (by decide))
  rw [rb_main_cst_5 V₀] at h
  exact h

theorem rb_main_v34 : after (HandRun.refOps (F := Ideal)) V₀ (Proc.devRef .tc main_v34) = val_main_v34 (F := Ideal) (arg0 V₀) (arg3 V₀) (arg6 V₀) (arg7 V₀) := by
  have h := end2 hW V₀ (after (HandRun.refOps (F := Ideal)) V₀) [] (fun _ _ => rfl) 42 _ _ _ _ _ _ _ rfl (nk (by decide)) (nk (by decide)) (nk (by decide))
  rw [rb_main_v29 V₀, rb_main_v33 V₀] at h
  exact h

theorem rb_main_v35 : after (HandRun.refOps (F := Ideal)) V₀ (Proc.devRef .tc main_v35) = val_main_v35 (F := Ideal) (arg0 V₀) (arg3 V₀) (arg6 V₀) (arg7 V₀) := by
  have h := end1 hW V₀ (after (HandRun.refOps (F := Ideal)) V₀) [] (fun _ _ => rfl) 43 _ _ _ _ _ rfl (nk (by decide)) (nk (by decide))
  rw [rb_main_v34 V₀] at h
  exact h

theorem rb_main_v36 : after (HandRun.refOps (F := Ideal)) V₀ (Proc.devRef .tc main_v36) = val_main_v36 (F := Ideal) (arg0 V₀) (arg3 V₀) (arg6 V₀) (arg7 V₀) := by
  have h := end1 hW V₀ (after (HandRun.refOps (F := Ideal)) V₀) [] (fun _ _ => rfl) 44 _ _ _ _ _ rfl (nk (by decide)) (nk (by decide))
  rw [rb_main_v35 V₀] at h
  exact h

theorem rb_main_v37 : after (HandRun.refOps (F := Ideal)) V₀ (Proc.devRef .tc main_v37) = val_main_v37 (F := Ideal) (arg0 V₀) (arg3 V₀) (arg6 V₀) (arg7 V₀) := by
  have h := end1 hW V₀ (after (HandRun.refOps (F := Ideal)) V₀) [] (fun _ _ => rfl) 45 _ _ _ _ _ rfl (nk (by decide)) (nk (by decide))
  rw [rb_main_v36 V₀] at h
  exact h

theorem rb_main_v38 : after (HandRun.refOps (F := Ideal)) V₀ (Proc.devRef .tc main_v38) = val_main_v38 (F := Ideal) (arg0 V₀) (arg3 V₀) (arg6 V₀) (arg7 V₀) := by
  have h := end2 hW V₀ (after (HandRun.refOps (F := Ideal)) V₀) [] (fun _ _ => rfl) 46 _ _ _ _ _ _ _ rfl (nk (by decide)) (nk (by decide)) (nk (by decide))
  rw [rb_main_v32 V₀, rb_main_v37 V₀] at h
  exact h

theorem rb_main_v39 : after (HandRun.refOps (F := Ideal)) V₀ (Proc.devRef .tc main_v39) = val_main_v39 (F := Ideal) (arg8 V₀) := by
  have h := end1 hW V₀ (after (HandRun.refOps (F := Ideal)) V₀) [] (fun _ _ => rfl) 47 _ _ _ _ _ rfl (nk (by decide)) (nk (by decide))
  rw [rb_arg8 V₀] at h
  exact h

theorem rb_main_v40 : after (HandRun.refOps (F := Ideal)) V₀ (Proc.devRef .tc main_v40) = val_main_v40 (F := Ideal) (arg8 V₀) := by
  have h := end1 hW V₀ (after (HandRun.refOps (F := Ideal)) V₀) [] (fun _ _ => rfl) 48 _ _ _ _ _ rfl (nk (by decide)) (nk (by decide))
  rw [rb_main_v39 V₀] at h
  exact h

theorem rb_main_v41 : after (HandRun.refOps (F := Ideal)) V₀ (Proc.devRef .tc main_v41) = val_main_v41 (F := Ideal) (arg0 V₀) (arg3 V₀) (arg6 V₀) (arg7 V₀) (arg8 V₀) := by
  have h := end2 hW V₀ (after (HandRun.refOps (F := Ideal)) V₀) [] (fun _ _ => rfl) 49 _ _ _ _ _ _ _ rfl (nk (by decide)) (nk (by decide)) (nk (by decide))
  rw [rb_main_v38 V₀, rb_main_v40 V₀] at h
  exact h

theorem rb_main_v42 : after (HandRun.refOps (F := Ideal)) V₀ (Proc.devRef .tc main_v42) = val_main_v42 (F := Ideal) (arg9 V₀) := by
  have h := end1 hW V₀ (after (HandRun.refOps (F := Ideal)) V₀) [] (fun _ _ => rfl) 50 _ _ _ _ _ rfl (nk (by decide)) (nk (by decide))
  rw [rb_arg9 V₀] at h
  exact h

theorem rb_main_v43 : after (HandRun.refOps (F := Ideal)) V₀ (Proc.devRef .tc main_v43) = val_main_v43 (F := Ideal) (arg9 V₀) := by
  have h := end1 hW V₀ (after (HandRun.refOps (F := Ideal)) V₀) [] (fun _ _ => rfl) 51 _ _ _ _ _ rfl (nk (by decide)) (nk (by decide))
  rw [rb_main_v42 V₀] at h
  exact h

theorem rb_main_v44 : after (HandRun.refOps (F := Ideal)) V₀ (Proc.devRef .tc main_v44) = val_main_v44 (F := Ideal) (arg0 V₀) (arg3 V₀) (arg6 V₀) (arg7 V₀) (arg8 V₀) (arg9 V₀) := by
  have h := end2 hW V₀ (after (HandRun.refOps (F := Ideal)) V₀) [] (fun _ _ => rfl) 52 _ _ _ _ _ _ _ rfl (nk (by decide)) (nk (by decide)) (nk (by decide))
  rw [rb_main_v41 V₀, rb_main_v43 V₀] at h
  exact h

theorem rb_main_call0_cst : after (HandRun.refOps (F := Ideal)) V₀ (Proc.devRef .tc main_call0_cst) = val_main_call0_cst (F := Ideal) :=
  end0 hW V₀ (after (HandRun.refOps (F := Ideal)) V₀) [] (fun _ _ => rfl) 53 _ _ _ rfl (nk (by decide))

theorem rb_main_call0_v0 : after (HandRun.refOps (F := Ideal)) V₀ (Proc.devRef .tc main_call0_v0) = val_main_call0_v0 (F := Ideal) := by
  have h := end1 hW V₀ (after (HandRun.refOps (F := Ideal)) V₀) [] (fun _ _ => rfl) 54 _ _ _ _ _ rfl (nk (by decide)) (nk (by decide))
  rw [rb_main_call0_cst V₀] at h
  exact h

theorem rb_main_v45 : after (HandRun.refOps (F := Ideal)) V₀ (Proc.devRef .tc main_v45) = val_main_v45 (F := Ideal) (arg0 V₀) (arg3 V₀) (arg6 V₀) (arg7 V₀) (arg8 V₀) (arg9 V₀) := by
  have h := end2 hW V₀ (after (HandRun.refOps (F := Ideal)) V₀) [] (fun _ _ => rfl) 55 _ _ _ _ _ _ _ rfl (nk (by decide)) (nk (by decide)) (nk (by decide))
  rw [rb_main_v44 V₀, rb_main_call0_v0 V₀] at h
  exact h

theorem rb_main_v46 : after (HandRun.refOps (F := Ideal)) V₀ (Proc.devRef .tc main_v46) = val_main_v46 (F := Ideal) (arg4 V₀) := by
  have h := end1 hW V₀ (after (HandRun.refOps (F := Ideal)) V₀) [] (fun _ _ => rfl) 56 _ _ _ _ _ rfl (nk (by decide)) (nk (by decide))
  rw [rb_arg4 V₀] at h
  exact h

theorem rb_main_v47 : after (HandRun.refOps (F := Ideal)) V₀ (Proc.devRef .tc main_v47) = val_main_v47 (F := Ideal) (arg4 V₀) := by
  have h := endReshape hW V₀ (after (HandRun.refOps (F := Ideal)) V₀) [] (fun _ _ => rfl) 57 _ _ _ _ _ _ rfl (nk (by decide)) (nk (by decide))
  rw [rb_main_v46 V₀] at h
  exact h

theorem rb_main_c_6 : after (HandRun.refOps (F := Ideal)) V₀ (Proc.devRef .tc main_c_6) = val_main_c_6 (F := Ideal) :=
  end0 hW V₀ (after (HandRun.refOps (F := Ideal)) V₀) [] (fun _ _ => rfl) 58 _ _ _ rfl (nk (by decide))

theorem rb_main_v48 : after (HandRun.refOps (F := Ideal)) V₀ (Proc.devRef .tc main_v48) = val_main_v48 (F := Ideal) := by
  have h := end1 hW V₀ (after (HandRun.refOps (F := Ideal)) V₀) [] (fun _ _ => rfl) 59 _ _ _ _ _ rfl (nk (by decide)) (nk (by decide))
  rw [rb_main_c_6 V₀] at h
  exact h

theorem rb_main_v49 : after (HandRun.refOps (F := Ideal)) V₀ (Proc.devRef .tc main_v49) = val_main_v49 (F := Ideal) (arg4 V₀) := by
  have h := end2 hW V₀ (after (HandRun.refOps (F := Ideal)) V₀) [] (fun _ _ => rfl) 60 _ _ _ _ _ _ _ rfl (nk (by decide)) (nk (by decide)) (nk (by decide))
  rw [rb_main_v47 V₀, rb_main_v48 V₀] at h
  exact h

theorem rb_main_c_7 : after (HandRun.refOps (F := Ideal)) V₀ (Proc.devRef .tc main_c_7) = val_main_c_7 (F := Ideal) :=
  end0 hW V₀ (after (HandRun.refOps (F := Ideal)) V₀) [] (fun _ _ => rfl) 61 _ _ _ rfl (nk (by decide))

theorem rb_main_v50 : after (HandRun.refOps (F := Ideal)) V₀ (Proc.devRef .tc main_v50) = val_main_v50 (F := Ideal) := by
  have h := end1 hW V₀ (after (HandRun.refOps (F := Ideal)) V₀) [] (fun _ _ => rfl) 62 _ _ _ _ _ rfl (nk (by decide)) (nk (by decide))
  rw [rb_main_c_7 V₀] at h
  exact h

theorem rb_main_v51 : after (HandRun.refOps (F := Ideal)) V₀ (Proc.devRef .tc main_v51) = val_main_v51 (F := Ideal) (arg4 V₀) := by
  have h := end2 hW V₀ (after (HandRun.refOps (F := Ideal)) V₀) [] (fun _ _ => rfl) 63 _ _ _ _ _ _ _ rfl (nk (by decide)) (nk (by decide)) (nk (by decide))
  rw [rb_main_v47 V₀, rb_main_v50 V₀] at h
  exact h

theorem rb_main_v52 : after (HandRun.refOps (F := Ideal)) V₀ (Proc.devRef .tc main_v52) = val_main_v52 (F := Ideal) (arg4 V₀) := by
  have h := end3 hW V₀ (after (HandRun.refOps (F := Ideal)) V₀) [] (fun _ _ => rfl) 64 _ _ _ _ _ _ _ _ _ rfl (nk (by decide)) (nk (by decide)) (nk (by decide)) (nk (by decide))
  rw [rb_main_v49 V₀, rb_main_v51 V₀, rb_main_v47 V₀] at h
  exact h

theorem rb_main_v53 : after (HandRun.refOps (F := Ideal)) V₀ (Proc.devRef .tc main_v53) = val_main_v53 (F := Ideal) (arg4 V₀) := by
  have h := end1 hW V₀ (after (HandRun.refOps (F := Ideal)) V₀) [] (fun _ _ => rfl) 65 _ _ _ _ _ rfl (nk (by decide)) (nk (by decide))
  rw [rb_main_v52 V₀] at h
  exact h

theorem rb_main_v54 : after (HandRun.refOps (F := Ideal)) V₀ (Proc.devRef .tc main_v54) = val_main_v54 (F := Ideal) (arg1 V₀) (arg4 V₀) := by
  have h := end2 hW V₀ (after (HandRun.refOps (F := Ideal)) V₀) [] (fun _ _ => rfl) 66 _ _ _ _ _ _ _ rfl (nk (by decide)) (nk (by decide)) (nk (by decide))
  rw [rb_arg1 V₀, rb_main_v53 V₀] at h
  exact h

theorem rb_main_v55 : after (HandRun.refOps (F := Ideal)) V₀ (Proc.devRef .tc main_v55) = val_main_v55 (F := Ideal) (arg4 V₀) := by
  have h := end1 hW V₀ (after (HandRun.refOps (F := Ideal)) V₀) [] (fun _ _ => rfl) 67 _ _ _ _ _ rfl (nk (by decide)) (nk (by decide))
  rw [rb_arg4 V₀] at h
  exact h

theorem rb_main_v56 : after (HandRun.refOps (F := Ideal)) V₀ (Proc.devRef .tc main_v56) = val_main_v56 (F := Ideal) (arg4 V₀) := by
  have h := endReshape hW V₀ (after (HandRun.refOps (F := Ideal)) V₀) [] (fun _ _ => rfl) 68 _ _ _ _ _ _ rfl (nk (by decide)) (nk (by decide))
  rw [rb_main_v55 V₀] at h
  exact h

theorem rb_main_cst_8 : after (HandRun.refOps (F := Ideal)) V₀ (Proc.devRef .tc main_cst_8) = val_main_cst_8 (F := Ideal) :=
  end0 hW V₀ (after (HandRun.refOps (F := Ideal)) V₀) [] (fun _ _ => rfl) 69 _ _ _ rfl (nk (by decide))

theorem rb_main_v57 : after (HandRun.refOps (F := Ideal)) V₀ (Proc.devRef .tc main_v57) = val_main_v57 (F := Ideal) := by
  have h := end1 hW V₀ (after (HandRun.refOps (F := Ideal)) V₀) [] (fun _ _ => rfl) 70 _ _ _ _ _ rfl (nk (by decide)) (nk (by decide))
  rw [rb_main_cst_8 V₀] at h
  exact h

theorem rb_main_v58 : after (HandRun.refOps (F := Ideal)) V₀ (Proc.devRef .tc main_v58) = val_main_v58 (F := Ideal) (arg4 V₀) := by
  have h := end1 hW V₀ (after (HandRun.refOps (F := Ideal)) V₀) [] (fun _ _ => rfl) 71 _ _ _ _ _ rfl (nk (by decide)) (nk (by decide))
  rw [rb_main_v56 V₀] at h
  exact h

theorem rb_main_v59 : after (HandRun.refOps (F := Ideal)) V₀ (Proc.devRef .tc main_v59) = val_main_v59 (F := Ideal) (arg1 V₀) (arg4 V₀) := by
  have h := end3 hW V₀ (after (HandRun.refOps (F := Ideal)) V₀) [] (fun _ _ => rfl) 72 _ _ _ _ _ _ _ _ _ rfl (nk (by decide)) (nk (by decide)) (nk (by decide)) (nk (by decide))
  rw [rb_main_v57 V₀, rb_main_v58 V₀, rb_main_v54 V₀] at h
  exact h

theorem rb_main_v60 : after (HandRun.refOps (F := Ideal)) V₀ (Proc.devRef .tc main_v60) = val_main_v60 (F := Ideal) (arg1 V₀) (arg4 V₀) := by
  have h := end2 hW V₀ (after (HandRun.refOps (F := Ideal)) V₀) [] (fun _ _ => rfl) 73 _ _ _ _ _ _ _ rfl (nk (by decide)) (nk (by decide)) (nk (by decide))
  rw [rb_arg1 V₀, rb_main_v59 V₀] at h
  exact h

theorem rb_main_v61 : after (HandRun.refOps (F := Ideal)) V₀ (Proc.devRef .tc main_v61) = val_main_v61 (F := Ideal) (arg10 V₀) := by
  have h := end1 hW V₀ (after (HandRun.refOps (F := Ideal)) V₀) [] (fun _ _ => rfl) 74 _ _ _ _ _ rfl (nk (by decide)) (nk (by decide))
  rw [rb_arg10 V₀] at h
  exact h

theorem rb_main_v62 : after (HandRun.refOps (F := Ideal)) V₀ (Proc.devRef .tc main_v62) = val_main_v62 (F := Ideal) (arg1 V₀) (arg4 V₀) (arg10 V₀) := by
  have h := end2 hW V₀ (after (HandRun.refOps (F := Ideal)) V₀) [] (fun _ _ => rfl) 75 _ _ _ _ _ _ _ rfl (nk (by decide)) (nk (by decide)) (nk (by decide))
  rw [rb_main_v60 V₀, rb_main_v61 V₀] at h
  exact h

theorem rb_main_v63 : after (HandRun.refOps (F := Ideal)) V₀ (Proc.devRef .tc main_v63) = val_main_v63 (F := Ideal) (arg11 V₀) := by
  have h := end1 hW V₀ (after (HandRun.refOps (F := Ideal)) V₀) [] (fun _ _ => rfl) 76 _ _ _ _ _ rfl (nk (by decide)) (nk (by decide))
  rw [rb_arg11 V₀] at h
  exact h

theorem rb_main_v64 : after (HandRun.refOps (F := Ideal)) V₀ (Proc.devRef .tc main_v64) = val_main_v64 (F := Ideal) (arg11 V₀) := by
  have h := end1 hW V₀ (after (HandRun.refOps (F := Ideal)) V₀) [] (fun _ _ => rfl) 77 _ _ _ _ _ rfl (nk (by decide)) (nk (by decide))
  rw [rb_main_v63 V₀] at h
  exact h

theorem rb_main_v65 : after (HandRun.refOps (F := Ideal)) V₀ (Proc.devRef .tc main_v65) = val_main_v65 (F := Ideal) (arg1 V₀) (arg4 V₀) (arg10 V₀) (arg11 V₀) := by
  have h := end2 hW V₀ (after (HandRun.refOps (F := Ideal)) V₀) [] (fun _ _ => rfl) 78 _ _ _ _ _ _ _ rfl (nk (by decide)) (nk (by decide)) (nk (by decide))
  rw [rb_main_v62 V₀, rb_main_v64 V₀] at h
  exact h

theorem rb_main_cst_9 : after (HandRun.refOps (F := Ideal)) V₀ (Proc.devRef .tc main_cst_9) = val_main_cst_9 (F := Ideal) :=
  end0 hW V₀ (after (HandRun.refOps (F := Ideal)) V₀) [] (fun _ _ => rfl) 79 _ _ _ rfl (nk (by decide))

theorem rb_main_v66 : after (HandRun.refOps (F := Ideal)) V₀ (Proc.devRef .tc main_v66) = val_main_v66 (F := Ideal) (arg1 V₀) (arg4 V₀) (arg10 V₀) (arg11 V₀) := by
  have h := end2 hW V₀ (after (HandRun.refOps (F := Ideal)) V₀) [] (fun _ _ => rfl) 80 _ _ _ _ _ _ _ rfl (nk (by decide)) (nk (by decide)) (nk (by decide))
  rw [rb_main_v65 V₀, rb_main_cst_9 V₀] at h
  exact h

theorem rb_main_cst_10 : after (HandRun.refOps (F := Ideal)) V₀ (Proc.devRef .tc main_cst_10) = val_main_cst_10 (F := Ideal) :=
  end0 hW V₀ (after (HandRun.refOps (F := Ideal)) V₀) [] (fun _ _ => rfl) 81 _ _ _ rfl (nk (by decide))

theorem rb_main_v67 : after (HandRun.refOps (F := Ideal)) V₀ (Proc.devRef .tc main_v67) = val_main_v67 (F := Ideal) := by
  have h := end1 hW V₀ (after (HandRun.refOps (F := Ideal)) V₀) [] (fun _ _ => rfl) 82 _ _ _ _ _ rfl (nk (by decide)) (nk (by decide))
  rw [rb_main_cst_10 V₀] at h
  exact h

theorem rb_main_v68 : after (HandRun.refOps (F := Ideal)) V₀ (Proc.devRef .tc main_v68) = val_main_v68 (F := Ideal) (arg1 V₀) (arg4 V₀) (arg10 V₀) (arg11 V₀) := by
  have h := end2 hW V₀ (after (HandRun.refOps (F := Ideal)) V₀) [] (fun _ _ => rfl) 83 _ _ _ _ _ _ _ rfl (nk (by decide)) (nk (by decide)) (nk (by decide))
  rw [rb_main_v66 V₀, rb_main_v67 V₀] at h
  exact h

theorem rb_main_v69 : after (HandRun.refOps (F := Ideal)) V₀ (Proc.devRef .tc main_v69) = val_main_v69 (F := Ideal) (arg1 V₀) (arg4 V₀) (arg10 V₀) (arg11 V₀) := by
  have h := end1 hW V₀ (after (HandRun.refOps (F := Ideal)) V₀) [] (fun _ _ => rfl) 84 _ _ _ _ _ rfl (nk (by decide)) (nk (by decide))
  rw [rb_main_v68 V₀] at h
  exact h

theorem rb_main_v70 : after (HandRun.refOps (F := Ideal)) V₀ (Proc.devRef .tc main_v70) = val_main_v70 (F := Ideal) (arg1 V₀) (arg4 V₀) (arg10 V₀) (arg11 V₀) := by
  have h := end1 hW V₀ (after (HandRun.refOps (F := Ideal)) V₀) [] (fun _ _ => rfl) 85 _ _ _ _ _ rfl (nk (by decide)) (nk (by decide))
  rw [rb_main_v69 V₀] at h
  exact h

theorem rb_main_v71 : after (HandRun.refOps (F := Ideal)) V₀ (Proc.devRef .tc main_v71) = val_main_v71 (F := Ideal) (arg1 V₀) (arg4 V₀) (arg10 V₀) (arg11 V₀) := by
  have h := end2 hW V₀ (after (HandRun.refOps (F := Ideal)) V₀) [] (fun _ _ => rfl) 86 _ _ _ _ _ _ _ rfl (nk (by decide)) (nk (by decide)) (nk (by decide))
  rw [rb_main_v65 V₀, rb_main_v70 V₀] at h
  exact h

theorem rb_main_v72 : after (HandRun.refOps (F := Ideal)) V₀ (Proc.devRef .tc main_v72) = val_main_v72 (F := Ideal) (arg1 V₀) (arg4 V₀) (arg10 V₀) (arg11 V₀) := by
  have h := end2 hW V₀ (after (HandRun.refOps (F := Ideal)) V₀) [] (fun _ _ => rfl) 87 _ _ _ _ _ _ _ rfl (nk (by decide)) (nk (by decide)) (nk (by decide))
  rw [rb_main_v71 V₀] at h
  exact h

theorem rb_main_cst_11 : after (HandRun.refOps (F := Ideal)) V₀ (Proc.devRef .tc main_cst_11) = val_main_cst_11 (F := Ideal) :=
  end0 hW V₀ (after (HandRun.refOps (F := Ideal)) V₀) [] (fun _ _ => rfl) 88 _ _ _ rfl (nk (by decide))

theorem rb_main_v73 : after (HandRun.refOps (F := Ideal)) V₀ (Proc.devRef .tc main_v73) = val_main_v73 (F := Ideal) (arg1 V₀) (arg4 V₀) (arg10 V₀) (arg11 V₀) := by
  have h := end2 hW V₀ (after (HandRun.refOps (F := Ideal)) V₀) [] (fun _ _ => rfl) 89 _ _ _ _ _ _ _ rfl (nk (by decide)) (nk (by decide)) (nk (by decide))
  rw [rb_main_v72 V₀, rb_main_cst_11 V₀] at h
  exact h

theorem rb_main_cst_12 : after (HandRun.refOps (F := Ideal)) V₀ (Proc.devRef .tc main_cst_12) = val_main_cst_12 (F := Ideal) :=
  end0 hW V₀ (after (HandRun.refOps (F := Ideal)) V₀) [] (fun _ _ => rfl) 90 _ _ _ rfl (nk (by decide))

theorem rb_main_v74 : after (HandRun.refOps (F := Ideal)) V₀ (Proc.devRef .tc main_v74) = val_main_v74 (F := Ideal) := by
  have h := end1 hW V₀ (after (HandRun.refOps (F := Ideal)) V₀) [] (fun _ _ => rfl) 91 _ _ _ _ _ rfl (nk (by decide)) (nk (by decide))
  rw [rb_main_cst_12 V₀] at h
  exact h

theorem rb_main_v75 : after (HandRun.refOps (F := Ideal)) V₀ (Proc.devRef .tc main_v75) = val_main_v75 (F := Ideal) (arg1 V₀) (arg4 V₀) (arg10 V₀) (arg11 V₀) := by
  have h := end2 hW V₀ (after (HandRun.refOps (F := Ideal)) V₀) [] (fun _ _ => rfl) 92 _ _ _ _ _ _ _ rfl (nk (by decide)) (nk (by decide)) (nk (by decide))
  rw [rb_main_v73 V₀, rb_main_v74 V₀] at h
  exact h

theorem rb_main_v76 : after (HandRun.refOps (F := Ideal)) V₀ (Proc.devRef .tc main_v76) = val_main_v76 (F := Ideal) (arg1 V₀) (arg4 V₀) (arg10 V₀) (arg11 V₀) := by
  have h := end1 hW V₀ (after (HandRun.refOps (F := Ideal)) V₀) [] (fun _ _ => rfl) 93 _ _ _ _ _ rfl (nk (by decide)) (nk (by decide))
  rw [rb_main_v68 V₀] at h
  exact h

theorem rb_main_v77 : after (HandRun.refOps (F := Ideal)) V₀ (Proc.devRef .tc main_v77) = val_main_v77 (F := Ideal) (arg1 V₀) (arg4 V₀) (arg10 V₀) (arg11 V₀) := by
  have h := end1 hW V₀ (after (HandRun.refOps (F := Ideal)) V₀) [] (fun _ _ => rfl) 94 _ _ _ _ _ rfl (nk (by decide)) (nk (by decide))
  rw [rb_main_v76 V₀] at h
  exact h

theorem rb_main_v78 : after (HandRun.refOps (F := Ideal)) V₀ (Proc.devRef .tc main_v78) = val_main_v78 (F := Ideal) (arg1 V₀) (arg4 V₀) (arg10 V₀) (arg11 V₀) := by
  have h := end2 hW V₀ (after (HandRun.refOps (F := Ideal)) V₀) [] (fun _ _ => rfl) 95 _ _ _ _ _ _ _ rfl (nk (by decide)) (nk (by decide)) (nk (by decide))
  rw [rb_main_v65 V₀, rb_main_v77 V₀] at h
  exact h

theorem rb_main_cst_13 : after (HandRun.refOps (F := Ideal)) V₀ (Proc.devRef .tc main_cst_13) = val_main_cst_13 (F := Ideal) :=
  end0 hW V₀ (after (HandRun.refOps (F := Ideal)) V₀) [] (fun _ _ => rfl) 96 _ _ _ rfl (nk (by decide))

theorem rb_main_v79 : after (HandRun.refOps (F := Ideal)) V₀ (Proc.devRef .tc main_v79) = val_main_v79 (F := Ideal) := by
  have h := end1 hW V₀ (after (HandRun.refOps (F := Ideal)) V₀) [] (fun _ _ => rfl) 97 _ _ _ _ _ rfl (nk (by decide)) (nk (by decide))
  rw [rb_main_cst_13 V₀] at h
  exact h

theorem rb_main_v80 : after (HandRun.refOps (F := Ideal)) V₀ (Proc.devRef .tc main_v80) = val_main_v80 (F := Ideal) (arg1 V₀) (arg4 V₀) (arg10 V₀) (arg11 V₀) := by
  have h := end2 hW V₀ (after (HandRun.refOps (F := Ideal)) V₀) [] (fun _ _ => rfl) 98 _ _ _ _ _ _ _ rfl (nk (by decide)) (nk (by decide)) (nk (by decide))
  rw [rb_main_v75 V₀, rb_main_v79 V₀] at h
  exact h

theorem rb_main_v81 : after (HandRun.refOps (F := Ideal)) V₀ (Proc.devRef .tc main_v81) = val_main_v81 (F := Ideal) (arg1 V₀) (arg4 V₀) (arg10 V₀) (arg11 V₀) := by
  have h := end1 hW V₀ (after (HandRun.refOps (F := Ideal)) V₀) [] (fun _ _ => rfl) 99 _ _ _ _ _ rfl (nk (by decide)) (nk (by decide))
  rw [rb_main_v80 V₀] at h
  exact h

theorem rb_main_v82 : after (HandRun.refOps (F := Ideal)) V₀ (Proc.devRef .tc main_v82) = val_main_v82 (F := Ideal) (arg1 V₀) (arg4 V₀) (arg10 V₀) (arg11 V₀) := by
  have h := end1 hW V₀ (after (HandRun.refOps (F := Ideal)) V₀) [] (fun _ _ => rfl) 100 _ _ _ _ _ rfl (nk (by decide)) (nk (by decide))
  rw [rb_main_v81 V₀] at h
  exact h

theorem rb_main_v83 : after (HandRun.refOps (F := Ideal)) V₀ (Proc.devRef .tc main_v83) = val_main_v83 (F := Ideal) (arg1 V₀) (arg4 V₀) (arg10 V₀) (arg11 V₀) := by
  have h := end1 hW V₀ (after (HandRun.refOps (F := Ideal)) V₀) [] (fun _ _ => rfl) 101 _ _ _ _ _ rfl (nk (by decide)) (nk (by decide))
  rw [rb_main_v82 V₀] at h
  exact h

theorem rb_main_v84 : after (HandRun.refOps (F := Ideal)) V₀ (Proc.devRef .tc main_v84) = val_main_v84 (F := Ideal) (arg1 V₀) (arg4 V₀) (arg10 V₀) (arg11 V₀) := by
  have h := end2 hW V₀ (after (HandRun.refOps (F := Ideal)) V₀) [] (fun _ _ => rfl) 102 _ _ _ _ _ _ _ rfl (nk (by decide)) (nk (by decide)) (nk (by decide))
  rw [rb_main_v78 V₀, rb_main_v83 V₀] at h
  exact h

theorem rb_main_v85 : after (HandRun.refOps (F := Ideal)) V₀ (Proc.devRef .tc main_v85) = val_main_v85 (F := Ideal) (arg12 V₀) := by
  have h := end1 hW V₀ (after (HandRun.refOps (F := Ideal)) V₀) [] (fun _ _ => rfl) 103 _ _ _ _ _ rfl (nk (by decide)) (nk (by decide))
  rw [rb_arg12 V₀] at h
  exact h

theorem rb_main_v86 : after (HandRun.refOps (F := Ideal)) V₀ (Proc.devRef .tc main_v86) = val_main_v86 (F := Ideal) (arg12 V₀) := by
  have h := end1 hW V₀ (after (HandRun.refOps (F := Ideal)) V₀) [] (fun _ _ => rfl) 104 _ _ _ _ _ rfl (nk (by decide)) (nk (by decide))
  rw [rb_main_v85 V₀] at h
  exact h

theorem rb_main_v87 : after (HandRun.refOps (F := Ideal)) V₀ (Proc.devRef .tc main_v87) = val_main_v87 (F := Ideal) (arg1 V₀) (arg4 V₀) (arg10 V₀) (arg11 V₀) (arg12 V₀) := by
  have h := end2 hW V₀ (after (HandRun.refOps (F := Ideal)) V₀) [] (fun _ _ => rfl) 105 _ _ _ _ _ _ _ rfl (nk (by decide)) (nk (by decide)) (nk (by decide))
  rw [rb_main_v84 V₀, rb_main_v86 V₀] at h
  exact h

theorem rb_main_v88 : after (HandRun.refOps (F := Ideal)) V₀ (Proc.devRef .tc main_v88) = val_main_v88 (F := Ideal) (arg13 V₀) := by
  have h := end1 hW V₀ (after (HandRun.refOps (F := Ideal)) V₀) [] (fun _ _ => rfl) 106 _ _ _ _ _ rfl (nk (by decide)) (nk (by decide))
  rw [rb_arg13 V₀] at h
  exact h

theorem rb_main_v89 : after (HandRun.refOps (F := Ideal)) V₀ (Proc.devRef .tc main_v89) = val_main_v89 (F := Ideal) (arg13 V₀) := by
  have h := end1 hW V₀ (after (HandRun.refOps (F := Ideal)) V₀) [] (fun _ _ => rfl) 107 _ _ _ _ _ rfl (nk (by decide)) (nk (by decide))
  rw [rb_main_v88 V₀] at h
  exact h

theorem rb_main_v90 : after (HandRun.refOps (F := Ideal)) V₀ (Proc.devRef .tc main_v90) = val_main_v90 (F := Ideal) (arg1 V₀) (arg4 V₀) (arg10 V₀) (arg11 V₀) (arg12 V₀) (arg13 V₀) := by
  have h := end2 hW V₀ (after (HandRun.refOps (F := Ideal)) V₀) [] (fun _ _ => rfl) 108 _ _ _ _ _ _ _ rfl (nk (by decide)) (nk (by decide)) (nk (by decide))
  rw [rb_main_v87 V₀, rb_main_v89 V₀] at h
  exact h

theorem rb_main_call1_cst : after (HandRun.refOps (F := Ideal)) V₀ (Proc.devRef .tc main_call1_cst) = val_main_call1_cst (F := Ideal) :=
  end0 hW V₀ (after (HandRun.refOps (F := Ideal)) V₀) [] (fun _ _ => rfl) 109 _ _ _ rfl (nk (by decide))

theorem rb_main_call1_v0 : after (HandRun.refOps (F := Ideal)) V₀ (Proc.devRef .tc main_call1_v0) = val_main_call1_v0 (F := Ideal) := by
  have h := end1 hW V₀ (after (HandRun.refOps (F := Ideal)) V₀) [] (fun _ _ => rfl) 110 _ _ _ _ _ rfl (nk (by decide)) (nk (by decide))
  rw [rb_main_call1_cst V₀] at h
  exact h

theorem rb_main_v91 : after (HandRun.refOps (F := Ideal)) V₀ (Proc.devRef .tc main_v91) = val_main_v91 (F := Ideal) (arg1 V₀) (arg4 V₀) (arg10 V₀) (arg11 V₀) (arg12 V₀) (arg13 V₀) := by
  have h := end2 hW V₀ (after (HandRun.refOps (F := Ideal)) V₀) [] (fun _ _ => rfl) 111 _ _ _ _ _ _ _ rfl (nk (by decide)) (nk (by decide)) (nk (by decide))
  rw [rb_main_v90 V₀, rb_main_call1_v0 V₀] at h
  exact h

theorem rb_main_v92 : after (HandRun.refOps (F := Ideal)) V₀ (Proc.devRef .tc main_v92) = val_main_v92 (F := Ideal) (arg5 V₀) := by
  have h := end1 hW V₀ (after (HandRun.refOps (F := Ideal)) V₀) [] (fun _ _ => rfl) 112 _ _ _ _ _ rfl (nk (by decide)) (nk (by decide))
  rw [rb_arg5 V₀] at h
  exact h

theorem rb_main_v93 : after (HandRun.refOps (F := Ideal)) V₀ (Proc.devRef .tc main_v93) = val_main_v93 (F := Ideal) (arg5 V₀) := by
  have h := endReshape hW V₀ (after (HandRun.refOps (F := Ideal)) V₀) [] (fun _ _ => rfl) 113 _ _ _ _ _ _ rfl (nk (by decide)) (nk (by decide))
  rw [rb_main_v92 V₀] at h
  exact h

theorem rb_main_c_14 : after (HandRun.refOps (F := Ideal)) V₀ (Proc.devRef .tc main_c_14) = val_main_c_14 (F := Ideal) :=
  end0 hW V₀ (after (HandRun.refOps (F := Ideal)) V₀) [] (fun _ _ => rfl) 114 _ _ _ rfl (nk (by decide))

theorem rb_main_v94 : after (HandRun.refOps (F := Ideal)) V₀ (Proc.devRef .tc main_v94) = val_main_v94 (F := Ideal) := by
  have h := end1 hW V₀ (after (HandRun.refOps (F := Ideal)) V₀) [] (fun _ _ => rfl) 115 _ _ _ _ _ rfl (nk (by decide)) (nk (by decide))
  rw [rb_main_c_14 V₀] at h
  exact h

theorem rb_main_v95 : after (HandRun.refOps (F := Ideal)) V₀ (Proc.devRef .tc main_v95) = val_main_v95 (F := Ideal) (arg5 V₀) := by
  have h := end2 hW V₀ (after (HandRun.refOps (F := Ideal)) V₀) [] (fun _ _ => rfl) 116 _ _ _ _ _ _ _ rfl (nk (by decide)) (nk (by decide)) (nk (by decide))
  rw [rb_main_v93 V₀, rb_main_v94 V₀] at h
  exact h

theorem rb_main_c_15 : after (HandRun.refOps (F := Ideal)) V₀ (Proc.devRef .tc main_c_15) = val_main_c_15 (F := Ideal) :=
  end0 hW V₀ (after (HandRun.refOps (F := Ideal)) V₀) [] (fun _ _ => rfl) 117 _ _ _ rfl (nk (by decide))

theorem rb_main_v96 : after (HandRun.refOps (F := Ideal)) V₀ (Proc.devRef .tc main_v96) = val_main_v96 (F := Ideal) := by
  have h := end1 hW V₀ (after (HandRun.refOps (F := Ideal)) V₀) [] (fun _ _ => rfl) 118 _ _ _ _ _ rfl (nk (by decide)) (nk (by decide))
  rw [rb_main_c_15 V₀] at h
  exact h

theorem rb_main_v97 : after (HandRun.refOps (F := Ideal)) V₀ (Proc.devRef .tc main_v97) = val_main_v97 (F := Ideal) (arg5 V₀) := by
  have h := end2 hW V₀ (after (HandRun.refOps (F := Ideal)) V₀) [] (fun _ _ => rfl) 119 _ _ _ _ _ _ _ rfl (nk (by decide)) (nk (by decide)) (nk (by decide))
  rw [rb_main_v93 V₀, rb_main_v96 V₀] at h
  exact h

theorem rb_main_v98 : after (HandRun.refOps (F := Ideal)) V₀ (Proc.devRef .tc main_v98) = val_main_v98 (F := Ideal) (arg5 V₀) := by
  have h := end3 hW V₀ (after (HandRun.refOps (F := Ideal)) V₀) [] (fun _ _ => rfl) 120 _ _ _ _ _ _ _ _ _ rfl (nk (by decide)) (nk (by decide)) (nk (by decide)) (nk (by decide))
  rw [rb_main_v95 V₀, rb_main_v97 V₀, rb_main_v93 V₀] at h
  exact h

theorem rb_main_v99 : after (HandRun.refOps (F := Ideal)) V₀ (Proc.devRef .tc main_v99) = val_main_v99 (F := Ideal) (arg5 V₀) := by
  have h := end1 hW V₀ (after (HandRun.refOps (F := Ideal)) V₀) [] (fun _ _ => rfl) 121 _ _ _ _ _ rfl (nk (by decide)) (nk (by decide))
  rw [rb_main_v98 V₀] at h
  exact h

theorem rb_main_v100 : after (HandRun.refOps (F := Ideal)) V₀ (Proc.devRef .tc main_v100) = val_main_v100 (F := Ideal) (arg2 V₀) (arg5 V₀) := by
  have h := end2 hW V₀ (after (HandRun.refOps (F := Ideal)) V₀) [] (fun _ _ => rfl) 122 _ _ _ _ _ _ _ rfl (nk (by decide)) (nk (by decide)) (nk (by decide))
  rw [rb_arg2 V₀, rb_main_v99 V₀] at h
  exact h

theorem rb_main_v101 : after (HandRun.refOps (F := Ideal)) V₀ (Proc.devRef .tc main_v101) = val_main_v101 (F := Ideal) (arg5 V₀) := by
  have h := end1 hW V₀ (after (HandRun.refOps (F := Ideal)) V₀) [] (fun _ _ => rfl) 123 _ _ _ _ _ rfl (nk (by decide)) (nk (by decide))
  rw [rb_arg5 V₀] at h
  exact h

theorem rb_main_v102 : after (HandRun.refOps (F := Ideal)) V₀ (Proc.devRef .tc main_v102) = val_main_v102 (F := Ideal) (arg5 V₀) := by
  have h := endReshape hW V₀ (after (HandRun.refOps (F := Ideal)) V₀) [] (fun _ _ => rfl) 124 _ _ _ _ _ _ rfl (nk (by decide)) (nk (by decide))
  rw [rb_main_v101 V₀] at h
  exact h

theorem rb_main_cst_16 : after (HandRun.refOps (F := Ideal)) V₀ (Proc.devRef .tc main_cst_16) = val_main_cst_16 (F := Ideal) :=
  end0 hW V₀ (after (HandRun.refOps (F := Ideal)) V₀) [] (fun _ _ => rfl) 125 _ _ _ rfl (nk (by decide))

theorem rb_main_v103 : after (HandRun.refOps (F := Ideal)) V₀ (Proc.devRef .tc main_v103) = val_main_v103 (F := Ideal) := by
  have h := end1 hW V₀ (after (HandRun.refOps (F := Ideal)) V₀) [] (fun _ _ => rfl) 126 _ _ _ _ _ rfl (nk (by decide)) (nk (by decide))
  rw [rb_main_cst_16 V₀] at h
  exact h

theorem rb_main_v104 : after (HandRun.refOps (F := Ideal)) V₀ (Proc.devRef .tc main_v104) = val_main_v104 (F := Ideal) (arg5 V₀) := by
  have h := end1 hW V₀ (after (HandRun.refOps (F := Ideal)) V₀) [] (fun _ _ => rfl) 127 _ _ _ _ _ rfl (nk (by decide)) (nk (by decide))
  rw [rb_main_v102 V₀] at h
  exact h

theorem rb_main_v105 : after (HandRun.refOps (F := Ideal)) V₀ (Proc.devRef .tc main_v105) = val_main_v105 (F := Ideal) (arg2 V₀) (arg5 V₀) := by
  have h := end3 hW V₀ (after (HandRun.refOps (F := Ideal)) V₀) [] (fun _ _ => rfl) 128 _ _ _ _ _ _ _ _ _ rfl (nk (by decide)) (nk (by decide)) (nk (by decide)) (nk (by decide))
  rw [rb_main_v103 V₀, rb_main_v104 V₀, rb_main_v100 V₀] at h
  exact h

theorem rb_main_v106 : after (HandRun.refOps (F := Ideal)) V₀ (Proc.devRef .tc main_v106) = val_main_v106 (F := Ideal) (arg2 V₀) (arg5 V₀) := by
  have h := end2 hW V₀ (after (HandRun.refOps (F := Ideal)) V₀) [] (fun _ _ => rfl) 129 _ _ _ _ _ _ _ rfl (nk (by decide)) (nk (by decide)) (nk (by decide))
  rw [rb_arg2 V₀, rb_main_v105 V₀] at h
  exact h

theorem rb_main_v107 : after (HandRun.refOps (F := Ideal)) V₀ (Proc.devRef .tc main_v107) = val_main_v107 (F := Ideal) (arg14 V₀) := by
  have h := end1 hW V₀ (after (HandRun.refOps (F := Ideal)) V₀) [] (fun _ _ => rfl) 130 _ _ _ _ _ rfl (nk (by decide)) (nk (by decide))
  rw [rb_arg14 V₀] at h
  exact h

theorem rb_main_v108 : after (HandRun.refOps (F := Ideal)) V₀ (Proc.devRef .tc main_v108) = val_main_v108 (F := Ideal) (arg2 V₀) (arg5 V₀) (arg14 V₀) := by
  have h := end2 hW V₀ (after (HandRun.refOps (F := Ideal)) V₀) [] (fun _ _ => rfl) 131 _ _ _ _ _ _ _ rfl (nk (by decide)) (nk (by decide)) (nk (by decide))
  rw [rb_main_v106 V₀, rb_main_v107 V₀] at h
  exact h

theorem rb_main_v109 : after (HandRun.refOps (F := Ideal)) V₀ (Proc.devRef .tc main_v109) = val_main_v109 (F := Ideal) (arg15 V₀) := by
  have h := end1 hW V₀ (after (HandRun.refOps (F := Ideal)) V₀) [] (fun _ _ => rfl) 132 _ _ _ _ _ rfl (nk (by decide)) (nk (by decide))
  rw [rb_arg15 V₀] at h
  exact h

theorem rb_main_v110 : after (HandRun.refOps (F := Ideal)) V₀ (Proc.devRef .tc main_v110) = val_main_v110 (F := Ideal) (arg15 V₀) := by
  have h := end1 hW V₀ (after (HandRun.refOps (F := Ideal)) V₀) [] (fun _ _ => rfl) 133 _ _ _ _ _ rfl (nk (by decide)) (nk (by decide))
  rw [rb_main_v109 V₀] at h
  exact h

theorem rb_main_v111 : after (HandRun.refOps (F := Ideal)) V₀ (Proc.devRef .tc main_v111) = val_main_v111 (F := Ideal) (arg2 V₀) (arg5 V₀) (arg14 V₀) (arg15 V₀) := by
  have h := end2 hW V₀ (after (HandRun.refOps (F := Ideal)) V₀) [] (fun _ _ => rfl) 134 _ _ _ _ _ _ _ rfl (nk (by decide)) (nk (by decide)) (nk (by decide))
  rw [rb_main_v108 V₀, rb_main_v110 V₀] at h
  exact h

theorem rb_main_cst_17 : after (HandRun.refOps (F := Ideal)) V₀ (Proc.devRef .tc main_cst_17) = val_main_cst_17 (F := Ideal) :=
  end0 hW V₀ (after (HandRun.refOps (F := Ideal)) V₀) [] (fun _ _ => rfl) 135 _ _ _ rfl (nk (by decide))

theorem rb_main_v112 : after (HandRun.refOps (F := Ideal)) V₀ (Proc.devRef .tc main_v112) = val_main_v112 (F := Ideal) (arg2 V₀) (arg5 V₀) (arg14 V₀) (arg15 V₀) := by
  have h := end2 hW V₀ (after (HandRun.refOps (F := Ideal)) V₀) [] (fun _ _ => rfl) 136 _ _ _ _ _ _ _ rfl (nk (by decide)) (nk (by decide)) (nk (by decide))
  rw [rb_main_v111 V₀, rb_main_cst_17 V₀] at h
  exact h

theorem rb_main_cst_18 : after (HandRun.refOps (F := Ideal)) V₀ (Proc.devRef .tc main_cst_18) = val_main_cst_18 (F := Ideal) :=
  end0 hW V₀ (after (HandRun.refOps (F := Ideal)) V₀) [] (fun _ _ => rfl) 137 _ _ _ rfl (nk (by decide))

theorem rb_main_v113 : after (HandRun.refOps (F := Ideal)) V₀ (Proc.devRef .tc main_v113) = val_main_v113 (F := Ideal) := by
  have h := end1 hW V₀ (after (HandRun.refOps (F := Ideal)) V₀) [] (fun _ _ => rfl) 138 _ _ _ _ _ rfl (nk (by decide)) (nk (by decide))
  rw [rb_main_cst_18 V₀] at h
  exact h

theorem rb_main_v114 : after (HandRun.refOps (F := Ideal)) V₀ (Proc.devRef .tc main_v114) = val_main_v114 (F := Ideal) (arg2 V₀) (arg5 V₀) (arg14 V₀) (arg15 V₀) := by
  have h := end2 hW V₀ (after (HandRun.refOps (F := Ideal)) V₀) [] (fun _ _ => rfl) 139 _ _ _ _ _ _ _ rfl (nk (by decide)) (nk (by decide)) (nk (by decide))
  rw [rb_main_v112 V₀, rb_main_v113 V₀] at h
  exact h

theorem rb_main_v115 : after (HandRun.refOps (F := Ideal)) V₀ (Proc.devRef .tc main_v115) = val_main_v115 (F := Ideal) (arg2 V₀) (arg5 V₀) (arg14 V₀) (arg15 V₀) := by
  have h := end1 hW V₀ (after (HandRun.refOps (F := Ideal)) V₀) [] (fun _ _ => rfl) 140 _ _ _ _ _ rfl (nk (by decide)) (nk (by decide))
  rw [rb_main_v114 V₀] at h
  exact h

theorem rb_main_v116 : after (HandRun.refOps (F := Ideal)) V₀ (Proc.devRef .tc main_v116) = val_main_v116 (F := Ideal) (arg2 V₀) (arg5 V₀) (arg14 V₀) (arg15 V₀) := by
  have h := end1 hW V₀ (after (HandRun.refOps (F := Ideal)) V₀) [] (fun _ _ => rfl) 141 _ _ _ _ _ rfl (nk (by decide)) (nk (by decide))
  rw [rb_main_v115 V₀] at h
  exact h

theorem rb_main_v117 : after (HandRun.refOps (F := Ideal)) V₀ (Proc.devRef .tc main_v117) = val_main_v117 (F := Ideal) (arg2 V₀) (arg5 V₀) (arg14 V₀) (arg15 V₀) := by
  have h := end2 hW V₀ (after (HandRun.refOps (F := Ideal)) V₀) [] (fun _ _ => rfl) 142 _ _ _ _ _ _ _ rfl (nk (by decide)) (nk (by decide)) (nk (by decide))
  rw [rb_main_v111 V₀, rb_main_v116 V₀] at h
  exact h

theorem rb_main_v118 : after (HandRun.refOps (F := Ideal)) V₀ (Proc.devRef .tc main_v118) = val_main_v118 (F := Ideal) (arg2 V₀) (arg5 V₀) (arg14 V₀) (arg15 V₀) := by
  have h := end2 hW V₀ (after (HandRun.refOps (F := Ideal)) V₀) [] (fun _ _ => rfl) 143 _ _ _ _ _ _ _ rfl (nk (by decide)) (nk (by decide)) (nk (by decide))
  rw [rb_main_v117 V₀] at h
  exact h

theorem rb_main_cst_19 : after (HandRun.refOps (F := Ideal)) V₀ (Proc.devRef .tc main_cst_19) = val_main_cst_19 (F := Ideal) :=
  end0 hW V₀ (after (HandRun.refOps (F := Ideal)) V₀) [] (fun _ _ => rfl) 144 _ _ _ rfl (nk (by decide))

theorem rb_main_v119 : after (HandRun.refOps (F := Ideal)) V₀ (Proc.devRef .tc main_v119) = val_main_v119 (F := Ideal) (arg2 V₀) (arg5 V₀) (arg14 V₀) (arg15 V₀) := by
  have h := end2 hW V₀ (after (HandRun.refOps (F := Ideal)) V₀) [] (fun _ _ => rfl) 145 _ _ _ _ _ _ _ rfl (nk (by decide)) (nk (by decide)) (nk (by decide))
  rw [rb_main_v118 V₀, rb_main_cst_19 V₀] at h
  exact h

theorem rb_main_cst_20 : after (HandRun.refOps (F := Ideal)) V₀ (Proc.devRef .tc main_cst_20) = val_main_cst_20 (F := Ideal) :=
  end0 hW V₀ (after (HandRun.refOps (F := Ideal)) V₀) [] (fun _ _ => rfl) 146 _ _ _ rfl (nk (by decide))

theorem rb_main_v120 : after (HandRun.refOps (F := Ideal)) V₀ (Proc.devRef .tc main_v120) = val_main_v120 (F := Ideal) := by
  have h := end1 hW V₀ (after (HandRun.refOps (F := Ideal)) V₀) [] (fun _ _ => rfl) 147 _ _ _ _ _ rfl (nk (by decide)) (nk (by decide))
  rw [rb_main_cst_20 V₀] at h
  exact h

theorem rb_main_v121 : after (HandRun.refOps (F := Ideal)) V₀ (Proc.devRef .tc main_v121) = val_main_v121 (F := Ideal) (arg2 V₀) (arg5 V₀) (arg14 V₀) (arg15 V₀) := by
  have h := end2 hW V₀ (after (HandRun.refOps (F := Ideal)) V₀) [] (fun _ _ => rfl) 148 _ _ _ _ _ _ _ rfl (nk (by decide)) (nk (by decide)) (nk (by decide))
  rw [rb_main_v119 V₀, rb_main_v120 V₀] at h
  exact h

theorem rb_main_v122 : after (HandRun.refOps (F := Ideal)) V₀ (Proc.devRef .tc main_v122) = val_main_v122 (F := Ideal) (arg2 V₀) (arg5 V₀) (arg14 V₀) (arg15 V₀) := by
  have h := end1 hW V₀ (after (HandRun.refOps (F := Ideal)) V₀) [] (fun _ _ => rfl) 149 _ _ _ _ _ rfl (nk (by decide)) (nk (by decide))
  rw [rb_main_v114 V₀] at h
  exact h

theorem rb_main_v123 : after (HandRun.refOps (F := Ideal)) V₀ (Proc.devRef .tc main_v123) = val_main_v123 (F := Ideal) (arg2 V₀) (arg5 V₀) (arg14 V₀) (arg15 V₀) := by
  have h := end1 hW V₀ (after (HandRun.refOps (F := Ideal)) V₀) [] (fun _ _ => rfl) 150 _ _ _ _ _ rfl (nk (by decide)) (nk (by decide))
  rw [rb_main_v122 V₀] at h
  exact h

theorem rb_main_v124 : after (HandRun.refOps (F := Ideal)) V₀ (Proc.devRef .tc main_v124) = val_main_v124 (F := Ideal) (arg2 V₀) (arg5 V₀) (arg14 V₀) (arg15 V₀) := by
  have h := end2 hW V₀ (after (HandRun.refOps (F := Ideal)) V₀) [] (fun _ _ => rfl) 151 _ _ _ _ _ _ _ rfl (nk (by decide)) (nk (by decide)) (nk (by decide))
  rw [rb_main_v111 V₀, rb_main_v123 V₀] at h
  exact h

theorem rb_main_cst_21 : after (HandRun.refOps (F := Ideal)) V₀ (Proc.devRef .tc main_cst_21) = val_main_cst_21 (F := Ideal) :=
  end0 hW V₀ (after (HandRun.refOps (F := Ideal)) V₀) [] (fun _ _ => rfl) 152 _ _ _ rfl (nk (by decide))

theorem rb_main_v125 : after (HandRun.refOps (F := Ideal)) V₀ (Proc.devRef .tc main_v125) = val_main_v125 (F := Ideal) := by
  have h := end1 hW V₀ (after (HandRun.refOps (F := Ideal)) V₀) [] (fun _ _ => rfl) 153 _ _ _ _ _ rfl (nk (by decide)) (nk (by decide))
  rw [rb_main_cst_21 V₀] at h
  exact h

theorem rb_main_v126 : after (HandRun.refOps (F := Ideal)) V₀ (Proc.devRef .tc main_v126) = val_main_v126 (F := Ideal) (arg2 V₀) (arg5 V₀) (arg14 V₀) (arg15 V₀) := by
  have h := end2 hW V₀ (after (HandRun.refOps (F := Ideal)) V₀) [] (fun _ _ => rfl) 154 _ _ _ _ _ _ _ rfl (nk (by decide)) (nk (by decide)) (nk (by decide))
  rw [rb_main_v121 V₀, rb_main_v125 V₀] at h
  exact h

theorem rb_main_v127 : after (HandRun.refOps (F := Ideal)) V₀ (Proc.devRef .tc main_v127) = val_main_v127 (F := Ideal) (arg2 V₀) (arg5 V₀) (arg14 V₀) (arg15 V₀) := by
  have h := end1 hW V₀ (after (HandRun.refOps (F := Ideal)) V₀) [] (fun _ _ => rfl) 155 _ _ _ _ _ rfl (nk (by decide)) (nk (by decide))
  rw [rb_main_v126 V₀] at h
  exact h

theorem rb_main_v128 : after (HandRun.refOps (F := Ideal)) V₀ (Proc.devRef .tc main_v128) = val_main_v128 (F := Ideal) (arg2 V₀) (arg5 V₀) (arg14 V₀) (arg15 V₀) := by
  have h := end1 hW V₀ (after (HandRun.refOps (F := Ideal)) V₀) [] (fun _ _ => rfl) 156 _ _ _ _ _ rfl (nk (by decide)) (nk (by decide))
  rw [rb_main_v127 V₀] at h
  exact h

theorem rb_main_v129 : after (HandRun.refOps (F := Ideal)) V₀ (Proc.devRef .tc main_v129) = val_main_v129 (F := Ideal) (arg2 V₀) (arg5 V₀) (arg14 V₀) (arg15 V₀) := by
  have h := end1 hW V₀ (after (HandRun.refOps (F := Ideal)) V₀) [] (fun _ _ => rfl) 157 _ _ _ _ _ rfl (nk (by decide)) (nk (by decide))
  rw [rb_main_v128 V₀] at h
  exact h

theorem rb_main_v130 : after (HandRun.refOps (F := Ideal)) V₀ (Proc.devRef .tc main_v130) = val_main_v130 (F := Ideal) (arg2 V₀) (arg5 V₀) (arg14 V₀) (arg15 V₀) := by
  have h := end2 hW V₀ (after (HandRun.refOps (F := Ideal)) V₀) [] (fun _ _ => rfl) 158 _ _ _ _ _ _ _ rfl (nk (by decide)) (nk (by decide)) (nk (by decide))
  rw [rb_main_v124 V₀, rb_main_v129 V₀] at h
  exact h

theorem rb_main_v131 : after (HandRun.refOps (F := Ideal)) V₀ (Proc.devRef .tc main_v131) = val_main_v131 (F := Ideal) (arg16 V₀) := by
  have h := end1 hW V₀ (after (HandRun.refOps (F := Ideal)) V₀) [] (fun _ _ => rfl) 159 _ _ _ _ _ rfl (nk (by decide)) (nk (by decide))
  rw [rb_arg16 V₀] at h
  exact h

theorem rb_main_v132 : after (HandRun.refOps (F := Ideal)) V₀ (Proc.devRef .tc main_v132) = val_main_v132 (F := Ideal) (arg16 V₀) := by
  have h := end1 hW V₀ (after (HandRun.refOps (F := Ideal)) V₀) [] (fun _ _ => rfl) 160 _ _ _ _ _ rfl (nk (by decide)) (nk (by decide))
  rw [rb_main_v131 V₀] at h
  exact h

theorem rb_main_v133 : after (HandRun.refOps (F := Ideal)) V₀ (Proc.devRef .tc main_v133) = val_main_v133 (F := Ideal) (arg2 V₀) (arg5 V₀) (arg14 V₀) (arg15 V₀) (arg16 V₀) := by
  have h := end2 hW V₀ (after (HandRun.refOps (F := Ideal)) V₀) [] (fun _ _ => rfl) 161 _ _ _ _ _ _ _ rfl (nk (by decide)) (nk (by decide)) (nk (by decide))
  rw [rb_main_v130 V₀, rb_main_v132 V₀] at h
  exact h

theorem rb_main_v134 : after (HandRun.refOps (F := Ideal)) V₀ (Proc.devRef .tc main_v134) = val_main_v134 (F := Ideal) (arg17 V₀) := by
  have h := end1 hW V₀ (after (HandRun.refOps (F := Ideal)) V₀) [] (fun _ _ => rfl) 162 _ _ _ _ _ rfl (nk (by decide)) (nk (by decide))
  rw [rb_arg17 V₀] at h
  exact h

theorem rb_main_v135 : after (HandRun.refOps (F := Ideal)) V₀ (Proc.devRef .tc main_v135) = val_main_v135 (F := Ideal) (arg17 V₀) := by
  have h := end1 hW V₀ (after (HandRun.refOps (F := Ideal)) V₀) [] (fun _ _ => rfl) 163 _ _ _ _ _ rfl (nk (by decide)) (nk (by decide))
  rw [rb_main_v134 V₀] at h
  exact h

theorem rb_main_v136 : after (HandRun.refOps (F := Ideal)) V₀ (Proc.devRef .tc main_v136) = val_main_v136 (F := Ideal) (arg2 V₀) (arg5 V₀) (arg14 V₀) (arg15 V₀) (arg16 V₀) (arg17 V₀) := by
  have h := end2 hW V₀ (after (HandRun.refOps (F := Ideal)) V₀) [] (fun _ _ => rfl) 164 _ _ _ _ _ _ _ rfl (nk (by decide)) (nk (by decide)) (nk (by decide))
  rw [rb_main_v133 V₀, rb_main_v135 V₀] at h
  exact h

theorem rb_main_call2_cst : after (HandRun.refOps (F := Ideal)) V₀ (Proc.devRef .tc main_call2_cst) = val_main_call2_cst (F := Ideal) :=
  end0 hW V₀ (after (HandRun.refOps (F := Ideal)) V₀) [] (fun _ _ => rfl) 165 _ _ _ rfl (nk (by decide))

theorem rb_main_call2_v0 : after (HandRun.refOps (F := Ideal)) V₀ (Proc.devRef .tc main_call2_v0) = val_main_call2_v0 (F := Ideal) := by
  have h := end1 hW V₀ (after (HandRun.refOps (F := Ideal)) V₀) [] (fun _ _ => rfl) 166 _ _ _ _ _ rfl (nk (by decide)) (nk (by decide))
  rw [rb_main_call2_cst V₀] at h
  exact h

theorem rb_main_v137 : after (HandRun.refOps (F := Ideal)) V₀ (Proc.devRef .tc main_v137) = val_main_v137 (F := Ideal) (arg2 V₀) (arg5 V₀) (arg14 V₀) (arg15 V₀) (arg16 V₀) (arg17 V₀) := by
  have h := end2 hW V₀ (after (HandRun.refOps (F := Ideal)) V₀) [] (fun _ _ => rfl) 167 _ _ _ _ _ _ _ rfl (nk (by decide)) (nk (by decide)) (nk (by decide))
  rw [rb_main_v136 V₀, rb_main_call2_v0 V₀] at h
  exact h

theorem rb_main_v138 : after (HandRun.refOps (F := Ideal)) V₀ (Proc.devRef .tc main_v138) = val_main_v138 (F := Ideal) (arg3 V₀) := by
  have h := end1 hW V₀ (after (HandRun.refOps (F := Ideal)) V₀) [] (fun _ _ => rfl) 168 _ _ _ _ _ rfl (nk (by decide)) (nk (by decide))
  rw [rb_arg3 V₀] at h
  exact h

theorem rb_main_v139 : after (HandRun.refOps (F := Ideal)) V₀ (Proc.devRef .tc main_v139) = val_main_v139 (F := Ideal) (arg3 V₀) := by
  have h := endReshape hW V₀ (after (HandRun.refOps (F := Ideal)) V₀) [] (fun _ _ => rfl) 169 _ _ _ _ _ _ rfl (nk (by decide)) (nk (by decide))
  rw [rb_main_v138 V₀] at h
  exact h

theorem rb_main_c_22 : after (HandRun.refOps (F := Ideal)) V₀ (Proc.devRef .tc main_c_22) = val_main_c_22 (F := Ideal) :=
  end0 hW V₀ (after (HandRun.refOps (F := Ideal)) V₀) [] (fun _ _ => rfl) 170 _ _ _ rfl (nk (by decide))

theorem rb_main_v140 : after (HandRun.refOps (F := Ideal)) V₀ (Proc.devRef .tc main_v140) = val_main_v140 (F := Ideal) := by
  have h := end1 hW V₀ (after (HandRun.refOps (F := Ideal)) V₀) [] (fun _ _ => rfl) 171 _ _ _ _ _ rfl (nk (by decide)) (nk (by decide))
  rw [rb_main_c_22 V₀] at h
  exact h

theorem rb_main_v141 : after (HandRun.refOps (F := Ideal)) V₀ (Proc.devRef .tc main_v141) = val_main_v141 (F := Ideal) (arg3 V₀) := by
  have h := end2 hW V₀ (after (HandRun.refOps (F := Ideal)) V₀) [] (fun _ _ => rfl) 172 _ _ _ _ _ _ _ rfl (nk (by decide)) (nk (by decide)) (nk (by decide))
  rw [rb_main_v139 V₀, rb_main_v140 V₀] at h
  exact h

theorem rb_main_c_23 : after (HandRun.refOps (F := Ideal)) V₀ (Proc.devRef .tc main_c_23) = val_main_c_23 (F := Ideal) :=
  end0 hW V₀ (after (HandRun.refOps (F := Ideal)) V₀) [] (fun _ _ => rfl) 173 _ _ _ rfl (nk (by decide))

theorem rb_main_v142 : after (HandRun.refOps (F := Ideal)) V₀ (Proc.devRef .tc main_v142) = val_main_v142 (F := Ideal) := by
  have h := end1 hW V₀ (after (HandRun.refOps (F := Ideal)) V₀) [] (fun _ _ => rfl) 174 _ _ _ _ _ rfl (nk (by decide)) (nk (by decide))
  rw [rb_main_c_23 V₀] at h
  exact h

theorem rb_main_v143 : after (HandRun.refOps (F := Ideal)) V₀ (Proc.devRef .tc main_v143) = val_main_v143 (F := Ideal) (arg3 V₀) := by
  have h := end2 hW V₀ (after (HandRun.refOps (F := Ideal)) V₀) [] (fun _ _ => rfl) 175 _ _ _ _ _ _ _ rfl (nk (by decide)) (nk (by decide)) (nk (by decide))
  rw [rb_main_v139 V₀, rb_main_v142 V₀] at h
  exact h

theorem rb_main_v144 : after (HandRun.refOps (F := Ideal)) V₀ (Proc.devRef .tc main_v144) = val_main_v144 (F := Ideal) (arg3 V₀) := by
  have h := end3 hW V₀ (after (HandRun.refOps (F := Ideal)) V₀) [] (fun _ _ => rfl) 176 _ _ _ _ _ _ _ _ _ rfl (nk (by decide)) (nk (by decide)) (nk (by decide)) (nk (by decide))
  rw [rb_main_v141 V₀, rb_main_v143 V₀, rb_main_v139 V₀] at h
  exact h

theorem rb_main_v145 : after (HandRun.refOps (F := Ideal)) V₀ (Proc.devRef .tc main_v145) = val_main_v145 (F := Ideal) (arg3 V₀) := by
  have h := end1 hW V₀ (after (HandRun.refOps (F := Ideal)) V₀) [] (fun _ _ => rfl) 177 _ _ _ _ _ rfl (nk (by decide)) (nk (by decide))
  rw [rb_main_v144 V₀] at h
  exact h

theorem rb_main_v146 : after (HandRun.refOps (F := Ideal)) V₀ (Proc.devRef .tc main_v146) = val_main_v146 (F := Ideal) (arg0 V₀) (arg3 V₀) (arg6 V₀) (arg7 V₀) (arg8 V₀) (arg9 V₀) := by
  have h := end2 hW V₀ (after (HandRun.refOps (F := Ideal)) V₀) [] (fun _ _ => rfl) 178 _ _ _ _ _ _ _ rfl (nk (by decide)) (nk (by decide)) (nk (by decide))
  rw [rb_main_v45 V₀, rb_main_v145 V₀] at h
  exact h

theorem rb_main_v147 : after (HandRun.refOps (F := Ideal)) V₀ (Proc.devRef .tc main_v147) = val_main_v147 (F := Ideal) (arg3 V₀) := by
  have h := end1 hW V₀ (after (HandRun.refOps (F := Ideal)) V₀) [] (fun _ _ => rfl) 179 _ _ _ _ _ rfl (nk (by decide)) (nk (by decide))
  rw [rb_arg3 V₀] at h
  exact h

theorem rb_main_v148 : after (HandRun.refOps (F := Ideal)) V₀ (Proc.devRef .tc main_v148) = val_main_v148 (F := Ideal) (arg3 V₀) := by
  have h := endReshape hW V₀ (after (HandRun.refOps (F := Ideal)) V₀) [] (fun _ _ => rfl) 180 _ _ _ _ _ _ rfl (nk (by decide)) (nk (by decide))
  rw [rb_main_v147 V₀] at h
  exact h

theorem rb_main_cst_24 : after (HandRun.refOps (F := Ideal)) V₀ (Proc.devRef .tc main_cst_24) = val_main_cst_24 (F := Ideal) :=
  end0 hW V₀ (after (HandRun.refOps (F := Ideal)) V₀) [] (fun _ _ => rfl) 181 _ _ _ rfl (nk (by decide))

theorem rb_main_v149 : after (HandRun.refOps (F := Ideal)) V₀ (Proc.devRef .tc main_v149) = val_main_v149 (F := Ideal) := by
  have h := end1 hW V₀ (after (HandRun.refOps (F := Ideal)) V₀) [] (fun _ _ => rfl) 182 _ _ _ _ _ rfl (nk (by decide)) (nk (by decide))
  rw [rb_main_cst_24 V₀] at h
  exact h

theorem rb_main_v150 : after (HandRun.refOps (F := Ideal)) V₀ (Proc.devRef .tc main_v150) = val_main_v150 (F := Ideal) (arg3 V₀) := by
  have h := end1 hW V₀ (after (HandRun.refOps (F := Ideal)) V₀) [] (fun _ _ => rfl) 183 _ _ _ _ _ rfl (nk (by decide)) (nk (by decide))
  rw [rb_main_v148 V₀] at h
  exact h

theorem rb_main_v151 : after (HandRun.refOps (F := Ideal)) V₀ (Proc.devRef .tc main_v151) = val_main_v151 (F := Ideal) (arg0 V₀) (arg3 V₀) (arg6 V₀) (arg7 V₀) (arg8 V₀) (arg9 V₀) := by
  have h := end3 hW V₀ (after (HandRun.refOps (F := Ideal)) V₀) [] (fun _ _ => rfl) 184 _ _ _ _ _ _ _ _ _ rfl (nk (by decide)) (nk (by decide)) (nk (by decide)) (nk (by decide))
  rw [rb_main_v149 V₀, rb_main_v150 V₀, rb_main_v146 V₀] at h
  exact h

theorem rb_main_v152 : after (HandRun.refOps (F := Ideal)) V₀ (Proc.devRef .tc main_v152) = val_main_v152 (F := Ideal) (arg0 V₀) (arg3 V₀) (arg6 V₀) (arg7 V₀) (arg8 V₀) (arg9 V₀) := by
  have h := end2 hW V₀ (after (HandRun.refOps (F := Ideal)) V₀) [] (fun _ _ => rfl) 185 _ _ _ _ _ _ _ rfl (nk (by decide)) (nk (by decide)) (nk (by decide))
  rw [rb_main_v45 V₀, rb_main_v151 V₀] at h
  exact h

theorem rb_main_v153 : after (HandRun.refOps (F := Ideal)) V₀ (Proc.devRef .tc main_v153) = val_main_v153 (F := Ideal) (arg18 V₀) := by
  have h := end1 hW V₀ (after (HandRun.refOps (F := Ideal)) V₀) [] (fun _ _ => rfl) 186 _ _ _ _ _ rfl (nk (by decide)) (nk (by decide))
  rw [rb_arg18 V₀] at h
  exact h

theorem rb_main_v154 : after (HandRun.refOps (F := Ideal)) V₀ (Proc.devRef .tc main_v154) = val_main_v154 (F := Ideal) (arg0 V₀) (arg3 V₀) (arg6 V₀) (arg7 V₀) (arg8 V₀) (arg9 V₀) (arg18 V₀) := by
  have h := end2 hW V₀ (after (HandRun.refOps (F := Ideal)) V₀) [] (fun _ _ => rfl) 187 _ _ _ _ _ _ _ rfl (nk (by decide)) (nk (by decide)) (nk (by decide))
  rw [rb_main_v152 V₀, rb_main_v153 V₀] at h
  exact h

theorem rb_main_v155 : after (HandRun.refOps (F := Ideal)) V₀ (Proc.devRef .tc main_v155) = val_main_v155 (F := Ideal) (arg19 V₀) := by
  have h := end1 hW V₀ (after (HandRun.refOps (F := Ideal)) V₀) [] (fun _ _ => rfl) 188 _ _ _ _ _ rfl (nk (by decide)) (nk (by decide))
  rw [rb_arg19 V₀] at h
  exact h

theorem rb_main_v156 : after (HandRun.refOps (F := Ideal)) V₀ (Proc.devRef .tc main_v156) = val_main_v156 (F := Ideal) (arg19 V₀) := by
  have h := end1 hW V₀ (after (HandRun.refOps (F := Ideal)) V₀) [] (fun _ _ => rfl) 189 _ _ _ _ _ rfl (nk (by decide)) (nk (by decide))
  rw [rb_main_v155 V₀] at h
  exact h

theorem rb_main_v157 : after (HandRun.refOps (F := Ideal)) V₀ (Proc.devRef .tc main_v157) = val_main_v157 (F := Ideal) (arg0 V₀) (arg3 V₀) (arg6 V₀) (arg7 V₀) (arg8 V₀) (arg9 V₀) (arg18 V₀) (arg19 V₀) := by
  have h := end2 hW V₀ (after (HandRun.refOps (F := Ideal)) V₀) [] (fun _ _ => rfl) 190 _ _ _ _ _ _ _ rfl (nk (by decide)) (nk (by decide)) (nk (by decide))
  rw [rb_main_v154 V₀, rb_main_v156 V₀] at h
  exact h

theorem rb_main_cst_25 : after (HandRun.refOps (F := Ideal)) V₀ (Proc.devRef .tc main_cst_25) = val_main_cst_25 (F := Ideal) :=
  end0 hW V₀ (after (HandRun.refOps (F := Ideal)) V₀) [] (fun _ _ => rfl) 191 _ _ _ rfl (nk (by decide))

theorem rb_main_v158 : after (HandRun.refOps (F := Ideal)) V₀ (Proc.devRef .tc main_v158) = val_main_v158 (F := Ideal) (arg0 V₀) (arg3 V₀) (arg6 V₀) (arg7 V₀) (arg8 V₀) (arg9 V₀) (arg18 V₀) (arg19 V₀) := by
  have h := end2 hW V₀ (after (HandRun.refOps (F := Ideal)) V₀) [] (fun _ _ => rfl) 192 _ _ _ _ _ _ _ rfl (nk (by decide)) (nk (by decide)) (nk (by decide))
  rw [rb_main_v157 V₀, rb_main_cst_25 V₀] at h
  exact h

theorem rb_main_cst_26 : after (HandRun.refOps (F := Ideal)) V₀ (Proc.devRef .tc main_cst_26) = val_main_cst_26 (F := Ideal) :=
  end0 hW V₀ (after (HandRun.refOps (F := Ideal)) V₀) [] (fun _ _ => rfl) 193 _ _ _ rfl (nk (by decide))

theorem rb_main_v159 : after (HandRun.refOps (F := Ideal)) V₀ (Proc.devRef .tc main_v159) = val_main_v159 (F := Ideal) := by
  have h := end1 hW V₀ (after (HandRun.refOps (F := Ideal)) V₀) [] (fun _ _ => rfl) 194 _ _ _ _ _ rfl (nk (by decide)) (nk (by decide))
  rw [rb_main_cst_26 V₀] at h
  exact h

theorem rb_main_v160 : after (HandRun.refOps (F := Ideal)) V₀ (Proc.devRef .tc main_v160) = val_main_v160 (F := Ideal) (arg0 V₀) (arg3 V₀) (arg6 V₀) (arg7 V₀) (arg8 V₀) (arg9 V₀) (arg18 V₀) (arg19 V₀) := by
  have h := end2 hW V₀ (after (HandRun.refOps (F := Ideal)) V₀) [] (fun _ _ => rfl) 195 _ _ _ _ _ _ _ rfl (nk (by decide)) (nk (by decide)) (nk (by decide))
  rw [rb_main_v158 V₀, rb_main_v159 V₀] at h
  exact h

theorem rb_main_v161 : after (HandRun.refOps (F := Ideal)) V₀ (Proc.devRef .tc main_v161) = val_main_v161 (F := Ideal) (arg0 V₀) (arg3 V₀) (arg6 V₀) (arg7 V₀) (arg8 V₀) (arg9 V₀) (arg18 V₀) (arg19 V₀) := by
  have h := end1 hW V₀ (after (HandRun.refOps (F := Ideal)) V₀) [] (fun _ _ => rfl) 196 _ _ _ _ _ rfl (nk (by decide)) (nk (by decide))
  rw [rb_main_v160 V₀] at h
  exact h

theorem rb_main_v162 : after (HandRun.refOps (F := Ideal)) V₀ (Proc.devRef .tc main_v162) = val_main_v162 (F := Ideal) (arg0 V₀) (arg3 V₀) (arg6 V₀) (arg7 V₀) (arg8 V₀) (arg9 V₀) (arg18 V₀) (arg19 V₀) := by
  have h := end1 hW V₀ (after (HandRun.refOps (F := Ideal)) V₀) [] (fun _ _ => rfl) 197 _ _ _ _ _ rfl (nk (by decide)) (nk (by decide))
  rw [rb_main_v161 V₀] at h
  exact h

theorem rb_main_v163 : after (HandRun.refOps (F := Ideal)) V₀ (Proc.devRef .tc main_v163) = val_main_v163 (F := Ideal) (arg0 V₀) (arg3 V₀) (arg6 V₀) (arg7 V₀) (arg8 V₀) (arg9 V₀) (arg18 V₀) (arg19 V₀) := by
  have h := end2 hW V₀ (after (HandRun.refOps (F := Ideal)) V₀) [] (fun _ _ => rfl) 198 _ _ _ _ _ _ _ rfl (nk (by decide)) (nk (by decide)) (nk (by decide))
  rw [rb_main_v157 V₀, rb_main_v162 V₀] at h
  exact h

theorem rb_main_v164 : after (HandRun.refOps (F := Ideal)) V₀ (Proc.devRef .tc main_v164) = val_main_v164 (F := Ideal) (arg0 V₀) (arg3 V₀) (arg6 V₀) (arg7 V₀) (arg8 V₀) (arg9 V₀) (arg18 V₀) (arg19 V₀) := by
  have h := end2 hW V₀ (after (HandRun.refOps (F := Ideal)) V₀) [] (fun _ _ => rfl) 199 _ _ _ _ _ _ _ rfl (nk (by decide)) (nk (by decide)) (nk (by decide))
  rw [rb_main_v163 V₀] at h
  exact h

theorem rb_main_cst_27 : after (HandRun.refOps (F := Ideal)) V₀ (Proc.devRef .tc main_cst_27) = val_main_cst_27 (F := Ideal) :=
  end0 hW V₀ (after (HandRun.refOps (F := Ideal)) V₀) [] (fun _ _ => rfl) 200 _ _ _ rfl (nk (by decide))

theorem rb_main_v165 : after (HandRun.refOps (F := Ideal)) V₀ (Proc.devRef .tc main_v165) = val_main_v165 (F := Ideal) (arg0 V₀) (arg3 V₀) (arg6 V₀) (arg7 V₀) (arg8 V₀) (arg9 V₀) (arg18 V₀) (arg19 V₀) := by
  have h := end2 hW V₀ (after (HandRun.refOps (F := Ideal)) V₀) [] (fun _ _ => rfl) 201 _ _ _ _ _ _ _ rfl (nk (by decide)) (nk (by decide)) (nk (by decide))
  rw [rb_main_v164 V₀, rb_main_cst_27 V₀] at h
  exact h

theorem rb_main_cst_28 : after (HandRun.refOps (F := Ideal)) V₀ (Proc.devRef .tc main_cst_28) = val_main_cst_28 (F := Ideal) :=
  end0 hW V₀ (after (HandRun.refOps (F := Ideal)) V₀) [] (fun _ _ => rfl) 202 _ _ _ rfl (nk (by decide))

theorem rb_main_v166 : after (HandRun.refOps (F := Ideal)) V₀ (Proc.devRef .tc main_v166) = val_main_v166 (F := Ideal) := by
  have h := end1 hW V₀ (after (HandRun.refOps (F := Ideal)) V₀) [] (fun _ _ => rfl) 203 _ _ _ _ _ rfl (nk (by decide)) (nk (by decide))
  rw [rb_main_cst_28 V₀] at h
  exact h

theorem rb_main_v167 : after (HandRun.refOps (F := Ideal)) V₀ (Proc.devRef .tc main_v167) = val_main_v167 (F := Ideal) (arg0 V₀) (arg3 V₀) (arg6 V₀) (arg7 V₀) (arg8 V₀) (arg9 V₀) (arg18 V₀) (arg19 V₀) := by
  have h := end2 hW V₀ (after (HandRun.refOps (F := Ideal)) V₀) [] (fun _ _ => rfl) 204 _ _ _ _ _ _ _ rfl (nk (by decide)) (nk (by decide)) (nk (by decide))
  rw [rb_main_v165 V₀, rb_main_v166 V₀] at h
  exact h

theorem rb_main_v168 : after (HandRun.refOps (F := Ideal)) V₀ (Proc.devRef .tc main_v168) = val_main_v168 (F := Ideal) (arg0 V₀) (arg3 V₀) (arg6 V₀) (arg7 V₀) (arg8 V₀) (arg9 V₀) (arg18 V₀) (arg19 V₀) := by
  have h := end1 hW V₀ (after (HandRun.refOps (F := Ideal)) V₀) [] (fun _ _ => rfl) 205 _ _ _ _ _ rfl (nk (by decide)) (nk (by decide))
  rw [rb_main_v160 V₀] at h
  exact h

theorem rb_main_v169 : after (HandRun.refOps (F := Ideal)) V₀ (Proc.devRef .tc main_v169) = val_main_v169 (F := Ideal) (arg0 V₀) (arg3 V₀) (arg6 V₀) (arg7 V₀) (arg8 V₀) (arg9 V₀) (arg18 V₀) (arg19 V₀) := by
  have h := end1 hW V₀ (after (HandRun.refOps (F := Ideal)) V₀) [] (fun _ _ => rfl) 206 _ _ _ _ _ rfl (nk (by decide)) (nk (by decide))
  rw [rb_main_v168 V₀] at h
  exact h

theorem rb_main_v170 : after (HandRun.refOps (F := Ideal)) V₀ (Proc.devRef .tc main_v170) = val_main_v170 (F := Ideal) (arg0 V₀) (arg3 V₀) (arg6 V₀) (arg7 V₀) (arg8 V₀) (arg9 V₀) (arg18 V₀) (arg19 V₀) := by
  have h := end2 hW V₀ (after (HandRun.refOps (F := Ideal)) V₀) [] (fun _ _ => rfl) 207 _ _ _ _ _ _ _ rfl (nk (by decide)) (nk (by decide)) (nk (by decide))
  rw [rb_main_v157 V₀, rb_main_v169 V₀] at h
  exact h

theorem rb_main_cst_29 : after (HandRun.refOps (F := Ideal)) V₀ (Proc.devRef .tc main_cst_29) = val_main_cst_29 (F := Ideal) :=
  end0 hW V₀ (after (HandRun.refOps (F := Ideal)) V₀) [] (fun _ _ => rfl) 208 _ _ _ rfl (nk (by decide))

theorem rb_main_v171 : after (HandRun.refOps (F := Ideal)) V₀ (Proc.devRef .tc main_v171) = val_main_v171 (F := Ideal) := by
  have h := end1 hW V₀ (after (HandRun.refOps (F := Ideal)) V₀) [] (fun _ _ => rfl) 209 _ _ _ _ _ rfl (nk (by decide)) (nk (by decide))
  rw [rb_main_cst_29 V₀] at h
  exact h

theorem rb_main_v172 : after (HandRun.refOps (F := Ideal)) V₀ (Proc.devRef .tc main_v172) = val_main_v172 (F := Ideal) (arg0 V₀) (arg3 V₀) (arg6 V₀) (arg7 V₀) (arg8 V₀) (arg9 V₀) (arg18 V₀) (arg19 V₀) := by
  have h := end2 hW V₀ (after (HandRun.refOps (F := Ideal)) V₀) [] (fun _ _ => rfl) 210 _ _ _ _ _ _ _ rfl (nk (by decide)) (nk (by decide)) (nk (by decide))
  rw [rb_main_v167 V₀, rb_main_v171 V₀] at h
  exact h

theorem rb_main_v173 : after (HandRun.refOps (F := Ideal)) V₀ (Proc.devRef .tc main_v173) = val_main_v173 (F := Ideal) (arg0 V₀) (arg3 V₀) (arg6 V₀) (arg7 V₀) (arg8 V₀) (arg9 V₀) (arg18 V₀) (arg19 V₀) := by
  have h := end1 hW V₀ (after (HandRun.refOps (F := Ideal)) V₀) [] (fun _ _ => rfl) 211 _ _ _ _ _ rfl (nk (by decide)) (nk (by decide))
  rw [rb_main_v172 V₀] at h
  exact h

theorem rb_main_v174 : after (HandRun.refOps (F := Ideal)) V₀ (Proc.devRef .tc main_v174) = val_main_v174 (F := Ideal) (arg0 V₀) (arg3 V₀) (arg6 V₀) (arg7 V₀) (arg8 V₀) (arg9 V₀) (arg18 V₀) (arg19 V₀) := by
  have h := end1 hW V₀ (after (HandRun.refOps (F := Ideal)) V₀) [] (fun _ _ => rfl) 212 _ _ _ _ _ rfl (nk (by decide)) (nk (by decide))
  rw [rb_main_v173 V₀] at h
  exact h

theorem rb_main_v175 : after (HandRun.refOps (F := Ideal)) V₀ (Proc.devRef .tc main_v175) = val_main_v175 (F := Ideal) (arg0 V₀) (arg3 V₀) (arg6 V₀) (arg7 V₀) (arg8 V₀) (arg9 V₀) (arg18 V₀) (arg19 V₀) := by
  have h := end1 hW V₀ (after (HandRun.refOps (F := Ideal)) V₀) [] (fun _ _ => rfl) 213 _ _ _ _ _ rfl (nk (by decide)) (nk (by decide))
  rw [rb_main_v174 V₀] at h
  exact h

theorem rb_main_v176 : after (HandRun.refOps (F := Ideal)) V₀ (Proc.devRef .tc main_v176) = val_main_v176 (F := Ideal) (arg0 V₀) (arg3 V₀) (arg6 V₀) (arg7 V₀) (arg8 V₀) (arg9 V₀) (arg18 V₀) (arg19 V₀) := by
  have h := end2 hW V₀ (after (HandRun.refOps (F := Ideal)) V₀) [] (fun _ _ => rfl) 214 _ _ _ _ _ _ _ rfl (nk (by decide)) (nk (by decide)) (nk (by decide))
  rw [rb_main_v170 V₀, rb_main_v175 V₀] at h
  exact h

theorem rb_main_v177 : after (HandRun.refOps (F := Ideal)) V₀ (Proc.devRef .tc main_v177) = val_main_v177 (F := Ideal) (arg20 V₀) := by
  have h := end1 hW V₀ (after (HandRun.refOps (F := Ideal)) V₀) [] (fun _ _ => rfl) 215 _ _ _ _ _ rfl (nk (by decide)) (nk (by decide))
  rw [rb_arg20 V₀] at h
  exact h

theorem rb_main_v178 : after (HandRun.refOps (F := Ideal)) V₀ (Proc.devRef .tc main_v178) = val_main_v178 (F := Ideal) (arg20 V₀) := by
  have h := end1 hW V₀ (after (HandRun.refOps (F := Ideal)) V₀) [] (fun _ _ => rfl) 216 _ _ _ _ _ rfl (nk (by decide)) (nk (by decide))
  rw [rb_main_v177 V₀] at h
  exact h

theorem rb_main_v179 : after (HandRun.refOps (F := Ideal)) V₀ (Proc.devRef .tc main_v179) = val_main_v179 (F := Ideal) (arg0 V₀) (arg3 V₀) (arg6 V₀) (arg7 V₀) (arg8 V₀) (arg9 V₀) (arg18 V₀) (arg19 V₀) (arg20 V₀) := by
  have h := end2 hW V₀ (after (HandRun.refOps (F := Ideal)) V₀) [] (fun _ _ => rfl) 217 _ _ _ _ _ _ _ rfl (nk (by decide)) (nk (by decide)) (nk (by decide))
  rw [rb_main_v176 V₀, rb_main_v178 V₀] at h
  exact h

theorem rb_main_v180 : after (HandRun.refOps (F := Ideal)) V₀ (Proc.devRef .tc main_v180) = val_main_v180 (F := Ideal) (arg21 V₀) := by
  have h := end1 hW V₀ (after (HandRun.refOps (F := Ideal)) V₀) [] (fun _ _ => rfl) 218 _ _ _ _ _ rfl (nk (by decide)) (nk (by decide))
  rw [rb_arg21 V₀] at h
  exact h

theorem rb_main_v181 : after (HandRun.refOps (F := Ideal)) V₀ (Proc.devRef .tc main_v181) = val_main_v181 (F := Ideal) (arg21 V₀) := by
  have h := end1 hW V₀ (after (HandRun.refOps (F := Ideal)) V₀) [] (fun _ _ => rfl) 219 _ _ _ _ _ rfl (nk (by decide)) (nk (by decide))
  rw [rb_main_v180 V₀] at h
  exact h

theorem rb_main_v182 : after (HandRun.refOps (F := Ideal)) V₀ (Proc.devRef .tc main_v182) = val_main_v182 (F := Ideal) (arg0 V₀) (arg3 V₀) (arg6 V₀) (arg7 V₀) (arg8 V₀) (arg9 V₀) (arg18 V₀) (arg19 V₀) (arg20 V₀) (arg21 V₀) := by
  have h := end2 hW V₀ (after (HandRun.refOps (F := Ideal)) V₀) [] (fun _ _ => rfl) 220 _ _ _ _ _ _ _ rfl (nk (by decide)) (nk (by decide)) (nk (by decide))
  rw [rb_main_v179 V₀, rb_main_v181 V₀] at h
  exact h

theorem rb_main_call3_cst : after (HandRun.refOps (F := Ideal)) V₀ (Proc.devRef .tc main_call3_cst) = val_main_call3_cst (F := Ideal) :=
  end0 hW V₀ (after (HandRun.refOps (F := Ideal)) V₀) [] (fun _ _ => rfl) 221 _ _ _ rfl (nk (by decide))

theorem rb_main_call3_v0 : after (HandRun.refOps (F := Ideal)) V₀ (Proc.devRef .tc main_call3_v0) = val_main_call3_v0 (F := Ideal) := by
  have h := end1 hW V₀ (after (HandRun.refOps (F := Ideal)) V₀) [] (fun _ _ => rfl) 222 _ _ _ _ _ rfl (nk (by decide)) (nk (by decide))
  rw [rb_main_call3_cst V₀] at h
  exact h

theorem rb_main_v183 : after (HandRun.refOps (F := Ideal)) V₀ (Proc.devRef .tc main_v183) = val_main_v183 (F := Ideal) (arg0 V₀) (arg3 V₀) (arg6 V₀) (arg7 V₀) (arg8 V₀) (arg9 V₀) (arg18 V₀) (arg19 V₀) (arg20 V₀) (arg21 V₀) := by
  have h := end2 hW V₀ (after (HandRun.refOps (F := Ideal)) V₀) [] (fun _ _ => rfl) 223 _ _ _ _ _ _ _ rfl (nk (by decide)) (nk (by decide)) (nk (by decide))
  rw [rb_main_v182 V₀, rb_main_call3_v0 V₀] at h
  exact h

theorem rb_main_v184 : after (HandRun.refOps (F := Ideal)) V₀ (Proc.devRef .tc main_v184) = val_main_v184 (F := Ideal) (arg4 V₀) := by
  have h := end1 hW V₀ (after (HandRun.refOps (F := Ideal)) V₀) [] (fun _ _ => rfl) 224 _ _ _ _ _ rfl (nk (by decide)) (nk (by decide))
  rw [rb_arg4 V₀] at h
  exact h

theorem rb_main_v185 : after (HandRun.refOps (F := Ideal)) V₀ (Proc.devRef .tc main_v185) = val_main_v185 (F := Ideal) (arg4 V₀) := by
  have h := endReshape hW V₀ (after (HandRun.refOps (F := Ideal)) V₀) [] (fun _ _ => rfl) 225 _ _ _ _ _ _ rfl (nk (by decide)) (nk (by decide))
  rw [rb_main_v184 V₀] at h
  exact h

theorem rb_main_c_30 : after (HandRun.refOps (F := Ideal)) V₀ (Proc.devRef .tc main_c_30) = val_main_c_30 (F := Ideal) :=
  end0 hW V₀ (after (HandRun.refOps (F := Ideal)) V₀) [] (fun _ _ => rfl) 226 _ _ _ rfl (nk (by decide))

theorem rb_main_v186 : after (HandRun.refOps (F := Ideal)) V₀ (Proc.devRef .tc main_v186) = val_main_v186 (F := Ideal) := by
  have h := end1 hW V₀ (after (HandRun.refOps (F := Ideal)) V₀) [] (fun _ _ => rfl) 227 _ _ _ _ _ rfl (nk (by decide)) (nk (by decide))
  rw [rb_main_c_30 V₀] at h
  exact h

theorem rb_main_v187 : after (HandRun.refOps (F := Ideal)) V₀ (Proc.devRef .tc main_v187) = val_main_v187 (F := Ideal) (arg4 V₀) := by
  have h := end2 hW V₀ (after (HandRun.refOps (F := Ideal)) V₀) [] (fun _ _ => rfl) 228 _ _ _ _ _ _ _ rfl (nk (by decide)) (nk (by decide)) (nk (by decide))
  rw [rb_main_v185 V₀, rb_main_v186 V₀] at h
  exact h

theorem rb_main_c_31 : after (HandRun.refOps (F := Ideal)) V₀ (Proc.devRef .tc main_c_31) = val_main_c_31 (F := Ideal) :=
  end0 hW V₀ (after (HandRun.refOps (F := Ideal)) V₀) [] (fun _ _ => rfl) 229 _ _ _ rfl (nk (by decide))

theorem rb_main_v188 : after (HandRun.refOps (F := Ideal)) V₀ (Proc.devRef .tc main_v188) = val_main_v188 (F := Ideal) := by
  have h := end1 hW V₀ (after (HandRun.refOps (F := Ideal)) V₀) [] (fun _ _ => rfl) 230 _ _ _ _ _ rfl (nk (by decide)) (nk (by decide))
  rw [rb_main_c_31 V₀] at h
  exact h

theorem rb_main_v189 : after (HandRun.refOps (F := Ideal)) V₀ (Proc.devRef .tc main_v189) = val_main_v189 (F := Ideal) (arg4 V₀) := by
  have h := end2 hW V₀ (after (HandRun.refOps (F := Ideal)) V₀) [] (fun _ _ => rfl) 231 _ _ _ _ _ _ _ rfl (nk (by decide)) (nk (by decide)) (nk (by decide))
  rw [rb_main_v185 V₀, rb_main_v188 V₀] at h
  exact h

theorem rb_main_v190 : after (HandRun.refOps (F := Ideal)) V₀ (Proc.devRef .tc main_v190) = val_main_v190 (F := Ideal) (arg4 V₀) := by
  have h := end3 hW V₀ (after (HandRun.refOps (F := Ideal)) V₀) [] (fun _ _ => rfl) 232 _ _ _ _ _ _ _ _ _ rfl (nk (by decide)) (nk (by decide)) (nk (by decide)) (nk (by decide))
  rw [rb_main_v187 V₀, rb_main_v189 V₀, rb_main_v185 V₀] at h
  exact h

theorem rb_main_v191 : after (HandRun.refOps (F := Ideal)) V₀ (Proc.devRef .tc main_v191) = val_main_v191 (F := Ideal) (arg4 V₀) := by
  have h := end1 hW V₀ (after (HandRun.refOps (F := Ideal)) V₀) [] (fun _ _ => rfl) 233 _ _ _ _ _ rfl (nk (by decide)) (nk (by decide))
  rw [rb_main_v190 V₀] at h
  exact h

theorem rb_main_v192 : after (HandRun.refOps (F := Ideal)) V₀ (Proc.devRef .tc main_v192) = val_main_v192 (F := Ideal) (arg1 V₀) (arg4 V₀) (arg10 V₀) (arg11 V₀) (arg12 V₀) (arg13 V₀) := by
  have h := end2 hW V₀ (after (HandRun.refOps (F := Ideal)) V₀) [] (fun _ _ => rfl) 234 _ _ _ _ _ _ _ rfl (nk (by decide)) (nk (by decide)) (nk (by decide))
  rw [rb_main_v91 V₀, rb_main_v191 V₀] at h
  exact h

theorem rb_main_v193 : after (HandRun.refOps (F := Ideal)) V₀ (Proc.devRef .tc main_v193) = val_main_v193 (F := Ideal) (arg4 V₀) := by
  have h := end1 hW V₀ (after (HandRun.refOps (F := Ideal)) V₀) [] (fun _ _ => rfl) 235 _ _ _ _ _ rfl (nk (by decide)) (nk (by decide))
  rw [rb_arg4 V₀] at h
  exact h

theorem rb_main_v194 : after (HandRun.refOps (F := Ideal)) V₀ (Proc.devRef .tc main_v194) = val_main_v194 (F := Ideal) (arg4 V₀) := by
  have h := endReshape hW V₀ (after (HandRun.refOps (F := Ideal)) V₀) [] (fun _ _ => rfl) 236 _ _ _ _ _ _ rfl (nk (by decide)) (nk (by decide))
  rw [rb_main_v193 V₀] at h
  exact h

theorem rb_main_cst_32 : after (HandRun.refOps (F := Ideal)) V₀ (Proc.devRef .tc main_cst_32) = val_main_cst_32 (F := Ideal) :=
  end0 hW V₀ (after (HandRun.refOps (F := Ideal)) V₀) [] (fun _ _ => rfl) 237 _ _ _ rfl (nk (by decide))

theorem rb_main_v195 : after (HandRun.refOps (F := Ideal)) V₀ (Proc.devRef .tc main_v195) = val_main_v195 (F := Ideal) := by
  have h := end1 hW V₀ (after (HandRun.refOps (F := Ideal)) V₀) [] (fun _ _ => rfl) 238 _ _ _ _ _ rfl (nk (by decide)) (nk (by decide))
  rw [rb_main_cst_32 V₀] at h
  exact h

theorem rb_main_v196 : after (HandRun.refOps (F := Ideal)) V₀ (Proc.devRef .tc main_v196) = val_main_v196 (F := Ideal) (arg4 V₀) := by
  have h := end1 hW V₀ (after (HandRun.refOps (F := Ideal)) V₀) [] (fun _ _ => rfl) 239 _ _ _ _ _ rfl (nk (by decide)) (nk (by decide))
  rw [rb_main_v194 V₀] at h
  exact h

theorem rb_main_v197 : after (HandRun.refOps (F := Ideal)) V₀ (Proc.devRef .tc main_v197) = val_main_v197 (F := Ideal) (arg1 V₀) (arg4 V₀) (arg10 V₀) (arg11 V₀) (arg12 V₀) (arg13 V₀) := by
  have h := end3 hW V₀ (after (HandRun.refOps (F := Ideal)) V₀) [] (fun _ _ => rfl) 240 _ _ _ _ _ _ _ _ _ rfl (nk (by decide)) (nk (by decide)) (nk (by decide)) (nk (by decide))
  rw [rb_main_v195 V₀, rb_main_v196 V₀, rb_main_v192 V₀] at h
  exact h

theorem rb_main_v198 : after (HandRun.refOps (F := Ideal)) V₀ (Proc.devRef .tc main_v198) = val_main_v198 (F := Ideal) (arg1 V₀) (arg4 V₀) (arg10 V₀) (arg11 V₀) (arg12 V₀) (arg13 V₀) := by
  have h := end2 hW V₀ (after (HandRun.refOps (F := Ideal)) V₀) [] (fun _ _ => rfl) 241 _ _ _ _ _ _ _ rfl (nk (by decide)) (nk (by decide)) (nk (by decide))
  rw [rb_main_v91 V₀, rb_main_v197 V₀] at h
  exact h

theorem rb_main_v199 : after (HandRun.refOps (F := Ideal)) V₀ (Proc.devRef .tc main_v199) = val_main_v199 (F := Ideal) (arg18 V₀) := by
  have h := end1 hW V₀ (after (HandRun.refOps (F := Ideal)) V₀) [] (fun _ _ => rfl) 242 _ _ _ _ _ rfl (nk (by decide)) (nk (by decide))
  rw [rb_arg18 V₀] at h
  exact h

theorem rb_main_v200 : after (HandRun.refOps (F := Ideal)) V₀ (Proc.devRef .tc main_v200) = val_main_v200 (F := Ideal) (arg1 V₀) (arg4 V₀) (arg10 V₀) (arg11 V₀) (arg12 V₀) (arg13 V₀) (arg18 V₀) := by
  have h := end2 hW V₀ (after (HandRun.refOps (F := Ideal)) V₀) [] (fun _ _ => rfl) 243 _ _ _ _ _ _ _ rfl (nk (by decide)) (nk (by decide)) (nk (by decide))
  rw [rb_main_v198 V₀, rb_main_v199 V₀] at h
  exact h

theorem rb_main_v201 : after (HandRun.refOps (F := Ideal)) V₀ (Proc.devRef .tc main_v201) = val_main_v201 (F := Ideal) (arg19 V₀) := by
  have h := end1 hW V₀ (after (HandRun.refOps (F := Ideal)) V₀) [] (fun _ _ => rfl) 244 _ _ _ _ _ rfl (nk (by decide)) (nk (by decide))
  rw [rb_arg19 V₀] at h
  exact h

theorem rb_main_v202 : after (HandRun.refOps (F := Ideal)) V₀ (Proc.devRef .tc main_v202) = val_main_v202 (F := Ideal) (arg19 V₀) := by
  have h := end1 hW V₀ (after (HandRun.refOps (F := Ideal)) V₀) [] (fun _ _ => rfl) 245 _ _ _ _ _ rfl (nk (by decide)) (nk (by decide))
  rw [rb_main_v201 V₀] at h
  exact h

theorem rb_main_v203 : after (HandRun.refOps (F := Ideal)) V₀ (Proc.devRef .tc main_v203) = val_main_v203 (F := Ideal) (arg1 V₀) (arg4 V₀) (arg10 V₀) (arg11 V₀) (arg12 V₀) (arg13 V₀) (arg18 V₀) (arg19 V₀) := by
  have h := end2 hW V₀ (after (HandRun.refOps (F := Ideal)) V₀) [] (fun _ _ => rfl) 246 _ _ _ _ _ _ _ rfl (nk (by decide)) (nk (by decide)) (nk (by decide))
  rw [rb_main_v200 V₀, rb_main_v202 V₀] at h
  exact h

theorem rb_main_cst_33 : after (HandRun.refOps (F := Ideal)) V₀ (Proc.devRef .tc main_cst_33) = val_main_cst_33 (F := Ideal) :=
  end0 hW V₀ (after (HandRun.refOps (F := Ideal)) V₀) [] (fun _ _ => rfl) 247 _ _ _ rfl (nk (by decide))

theorem rb_main_v204 : after (HandRun.refOps (F := Ideal)) V₀ (Proc.devRef .tc main_v204) = val_main_v204 (F := Ideal) (arg1 V₀) (arg4 V₀) (arg10 V₀) (arg11 V₀) (arg12 V₀) (arg13 V₀) (arg18 V₀) (arg19 V₀) := by
  have h := end2 hW V₀ (after (HandRun.refOps (F := Ideal)) V₀) [] (fun _ _ => rfl) 248 _ _ _ _ _ _ _ rfl (nk (by decide)) (nk (by decide)) (nk (by decide))
  rw [rb_main_v203 V₀, rb_main_cst_33 V₀] at h
  exact h

theorem rb_main_cst_34 : after (HandRun.refOps (F := Ideal)) V₀ (Proc.devRef .tc main_cst_34) = val_main_cst_34 (F := Ideal) :=
  end0 hW V₀ (after (HandRun.refOps (F := Ideal)) V₀) [] (fun _ _ => rfl) 249 _ _ _ rfl (nk (by decide))

theorem rb_main_v205 : after (HandRun.refOps (F := Ideal)) V₀ (Proc.devRef .tc main_v205) = val_main_v205 (F := Ideal) := by
  have h := end1 hW V₀ (after (HandRun.refOps (F := Ideal)) V₀) [] (fun _ _ => rfl) 250 _ _ _ _ _ rfl (nk (by decide)) (nk (by decide))
  rw [rb_main_cst_34 V₀] at h
  exact h

theorem rb_main_v206 : after (HandRun.refOps (F := Ideal)) V₀ (Proc.devRef .tc main_v206) = val_main_v206 (F := Ideal) (arg1 V₀) (arg4 V₀) (arg10 V₀) (arg11 V₀) (arg12 V₀) (arg13 V₀) (arg18 V₀) (arg19 V₀) := by
  have h := end2 hW V₀ (after (HandRun.refOps (F := Ideal)) V₀) [] (fun _ _ => rfl) 251 _ _ _ _ _ _ _ rfl (nk (by decide)) (nk (by decide)) (nk (by decide))
  rw [rb_main_v204 V₀, rb_main_v205 V₀] at h
  exact h

theorem rb_main_v207 : after (HandRun.refOps (F := Ideal)) V₀ (Proc.devRef .tc main_v207) = val_main_v207 (F := Ideal) (arg1 V₀) (arg4 V₀) (arg10 V₀) (arg11 V₀) (arg12 V₀) (arg13 V₀) (arg18 V₀) (arg19 V₀) := by
  have h := end1 hW V₀ (after (HandRun.refOps (F := Ideal)) V₀) [] (fun _ _ => rfl) 252 _ _ _ _ _ rfl (nk (by decide)) (nk (by decide))
  rw [rb_main_v206 V₀] at h
  exact h

theorem rb_main_v208 : after (HandRun.refOps (F := Ideal)) V₀ (Proc.devRef .tc main_v208) = val_main_v208 (F := Ideal) (arg1 V₀) (arg4 V₀) (arg10 V₀) (arg11 V₀) (arg12 V₀) (arg13 V₀) (arg18 V₀) (arg19 V₀) := by
  have h := end1 hW V₀ (after (HandRun.refOps (F := Ideal)) V₀) [] (fun _ _ => rfl) 253 _ _ _ _ _ rfl (nk (by decide)) (nk (by decide))
  rw [rb_main_v207 V₀] at h
  exact h

theorem rb_main_v209 : after (HandRun.refOps (F := Ideal)) V₀ (Proc.devRef .tc main_v209) = val_main_v209 (F := Ideal) (arg1 V₀) (arg4 V₀) (arg10 V₀) (arg11 V₀) (arg12 V₀) (arg13 V₀) (arg18 V₀) (arg19 V₀) := by
  have h := end2 hW V₀ (after (HandRun.refOps (F := Ideal)) V₀) [] (fun _ _ => rfl) 254 _ _ _ _ _ _ _ rfl (nk (by decide)) (nk (by decide)) (nk (by decide))
  rw [rb_main_v203 V₀, rb_main_v208 V₀] at h
  exact h

theorem rb_main_v210 : after (HandRun.refOps (F := Ideal)) V₀ (Proc.devRef .tc main_v210) = val_main_v210 (F := Ideal) (arg1 V₀) (arg4 V₀) (arg10 V₀) (arg11 V₀) (arg12 V₀) (arg13 V₀) (arg18 V₀) (arg19 V₀) := by
  have h := end2 hW V₀ (after (HandRun.refOps (F := Ideal)) V₀) [] (fun _ _ => rfl) 255 _ _ _ _ _ _ _ rfl (nk (by decide)) (nk (by decide)) (nk (by decide))
  rw [rb_main_v209 V₀] at h
  exact h

theorem rb_main_cst_35 : after (HandRun.refOps (F := Ideal)) V₀ (Proc.devRef .tc main_cst_35) = val_main_cst_35 (F := Ideal) :=
  end0 hW V₀ (after (HandRun.refOps (F := Ideal)) V₀) [] (fun _ _ => rfl) 256 _ _ _ rfl (nk (by decide))

theorem rb_main_v211 : after (HandRun.refOps (F := Ideal)) V₀ (Proc.devRef .tc main_v211) = val_main_v211 (F := Ideal) (arg1 V₀) (arg4 V₀) (arg10 V₀) (arg11 V₀) (arg12 V₀) (arg13 V₀) (arg18 V₀) (arg19 V₀) := by
  have h := end2 hW V₀ (after (HandRun.refOps (F := Ideal)) V₀) [] (fun _ _ => rfl) 257 _ _ _ _ _ _ _ rfl (nk (by decide)) (nk (by decide)) (nk (by decide))
  rw [rb_main_v210 V₀, rb_main_cst_35 V₀] at h
  exact h

theorem rb_main_cst_36 : after (HandRun.refOps (F := Ideal)) V₀ (Proc.devRef .tc main_cst_36) = val_main_cst_36 (F := Ideal) :=
  end0 hW V₀ (after (HandRun.refOps (F := Ideal)) V₀) [] (fun _ _ => rfl) 258 _ _ _ rfl (nk (by decide))

theorem rb_main_v212 : after (HandRun.refOps (F := Ideal)) V₀ (Proc.devRef .tc main_v212) = val_main_v212 (F := Ideal) := by
  have h := end1 hW V₀ (after (HandRun.refOps (F := Ideal)) V₀) [] (fun _ _ => rfl) 259 _ _ _ _ _ rfl (nk (by decide)) (nk (by decide))
  rw [rb_main_cst_36 V₀] at h
  exact h

theorem rb_main_v213 : after (HandRun.refOps (F := Ideal)) V₀ (Proc.devRef .tc main_v213) = val_main_v213 (F := Ideal) (arg1 V₀) (arg4 V₀) (arg10 V₀) (arg11 V₀) (arg12 V₀) (arg13 V₀) (arg18 V₀) (arg19 V₀) := by
  have h := end2 hW V₀ (after (HandRun.refOps (F := Ideal)) V₀) [] (fun _ _ => rfl) 260 _ _ _ _ _ _ _ rfl (nk (by decide)) (nk (by decide)) (nk (by decide))
  rw [rb_main_v211 V₀, rb_main_v212 V₀] at h
  exact h

theorem rb_main_v214 : after (HandRun.refOps (F := Ideal)) V₀ (Proc.devRef .tc main_v214) = val_main_v214 (F := Ideal) (arg1 V₀) (arg4 V₀) (arg10 V₀) (arg11 V₀) (arg12 V₀) (arg13 V₀) (arg18 V₀) (arg19 V₀) := by
  have h := end1 hW V₀ (after (HandRun.refOps (F := Ideal)) V₀) [] (fun _ _ => rfl) 261 _ _ _ _ _ rfl (nk (by decide)) (nk (by decide))
  rw [rb_main_v206 V₀] at h
  exact h

theorem rb_main_v215 : after (HandRun.refOps (F := Ideal)) V₀ (Proc.devRef .tc main_v215) = val_main_v215 (F := Ideal) (arg1 V₀) (arg4 V₀) (arg10 V₀) (arg11 V₀) (arg12 V₀) (arg13 V₀) (arg18 V₀) (arg19 V₀) := by
  have h := end1 hW V₀ (after (HandRun.refOps (F := Ideal)) V₀) [] (fun _ _ => rfl) 262 _ _ _ _ _ rfl (nk (by decide)) (nk (by decide))
  rw [rb_main_v214 V₀] at h
  exact h

theorem rb_main_v216 : after (HandRun.refOps (F := Ideal)) V₀ (Proc.devRef .tc main_v216) = val_main_v216 (F := Ideal) (arg1 V₀) (arg4 V₀) (arg10 V₀) (arg11 V₀) (arg12 V₀) (arg13 V₀) (arg18 V₀) (arg19 V₀) := by
  have h := end2 hW V₀ (after (HandRun.refOps (F := Ideal)) V₀) [] (fun _ _ => rfl) 263 _ _ _ _ _ _ _ rfl (nk (by decide)) (nk (by decide)) (nk (by decide))
  rw [rb_main_v203 V₀, rb_main_v215 V₀] at h
  exact h

theorem rb_main_cst_37 : after (HandRun.refOps (F := Ideal)) V₀ (Proc.devRef .tc main_cst_37) = val_main_cst_37 (F := Ideal) :=
  end0 hW V₀ (after (HandRun.refOps (F := Ideal)) V₀) [] (fun _ _ => rfl) 264 _ _ _ rfl (nk (by decide))

theorem rb_main_v217 : after (HandRun.refOps (F := Ideal)) V₀ (Proc.devRef .tc main_v217) = val_main_v217 (F := Ideal) := by
  have h := end1 hW V₀ (after (HandRun.refOps (F := Ideal)) V₀) [] (fun _ _ => rfl) 265 _ _ _ _ _ rfl (nk (by decide)) (nk (by decide))
  rw [rb_main_cst_37 V₀] at h
  exact h

theorem rb_main_v218 : after (HandRun.refOps (F := Ideal)) V₀ (Proc.devRef .tc main_v218) = val_main_v218 (F := Ideal) (arg1 V₀) (arg4 V₀) (arg10 V₀) (arg11 V₀) (arg12 V₀) (arg13 V₀) (arg18 V₀) (arg19 V₀) := by
  have h := end2 hW V₀ (after (HandRun.refOps (F := Ideal)) V₀) [] (fun _ _ => rfl) 266 _ _ _ _ _ _ _ rfl (nk (by decide)) (nk (by decide)) (nk (by decide))
  rw [rb_main_v213 V₀, rb_main_v217 V₀] at h
  exact h

theorem rb_main_v219 : after (HandRun.refOps (F := Ideal)) V₀ (Proc.devRef .tc main_v219) = val_main_v219 (F := Ideal) (arg1 V₀) (arg4 V₀) (arg10 V₀) (arg11 V₀) (arg12 V₀) (arg13 V₀) (arg18 V₀) (arg19 V₀) := by
  have h := end1 hW V₀ (after (HandRun.refOps (F := Ideal)) V₀) [] (fun _ _ => rfl) 267 _ _ _ _ _ rfl (nk (by decide)) (nk (by decide))
  rw [rb_main_v218 V₀] at h
  exact h

theorem rb_main_v220 : after (HandRun.refOps (F := Ideal)) V₀ (Proc.devRef .tc main_v220) = val_main_v220 (F := Ideal) (arg1 V₀) (arg4 V₀) (arg10 V₀) (arg11 V₀) (arg12 V₀) (arg13 V₀) (arg18 V₀) (arg19 V₀) := by
  have h := end1 hW V₀ (after (HandRun.refOps (F := Ideal)) V₀) [] (fun _ _ => rfl) 268 _ _ _ _ _ rfl (nk (by decide)) (nk (by decide))
  rw [rb_main_v219 V₀] at h
  exact h

theorem rb_main_v221 : after (HandRun.refOps (F := Ideal)) V₀ (Proc.devRef .tc main_v221) = val_main_v221 (F := Ideal) (arg1 V₀) (arg4 V₀) (arg10 V₀) (arg11 V₀) (arg12 V₀) (arg13 V₀) (arg18 V₀) (arg19 V₀) := by
  have h := end1 hW V₀ (after (HandRun.refOps (F := Ideal)) V₀) [] (fun _ _ => rfl) 269 _ _ _ _ _ rfl (nk (by decide)) (nk (by decide))
  rw [rb_main_v220 V₀] at h
  exact h

theorem rb_main_v222 : after (HandRun.refOps (F := Ideal)) V₀ (Proc.devRef .tc main_v222) = val_main_v222 (F := Ideal) (arg1 V₀) (arg4 V₀) (arg10 V₀) (arg11 V₀) (arg12 V₀) (arg13 V₀) (arg18 V₀) (arg19 V₀) := by
  have h := end2 hW V₀ (after (HandRun.refOps (F := Ideal)) V₀) [] (fun _ _ => rfl) 270 _ _ _ _ _ _ _ rfl (nk (by decide)) (nk (by decide)) (nk (by decide))
  rw [rb_main_v216 V₀, rb_main_v221 V₀] at h
  exact h

theorem rb_main_v223 : after (HandRun.refOps (F := Ideal)) V₀ (Proc.devRef .tc main_v223) = val_main_v223 (F := Ideal) (arg20 V₀) := by
  have h := end1 hW V₀ (after (HandRun.refOps (F := Ideal)) V₀) [] (fun _ _ => rfl) 271 _ _ _ _ _ rfl (nk (by decide)) (nk (by decide))
  rw [rb_arg20 V₀] at h
  exact h

theorem rb_main_v224 : after (HandRun.refOps (F := Ideal)) V₀ (Proc.devRef .tc main_v224) = val_main_v224 (F := Ideal) (arg20 V₀) := by
  have h := end1 hW V₀ (after (HandRun.refOps (F := Ideal)) V₀) [] (fun _ _ => rfl) 272 _ _ _ _ _ rfl (nk (by decide)) (nk (by decide))
  rw [rb_main_v223 V₀] at h
  exact h

theorem rb_main_v225 : after (HandRun.refOps (F := Ideal)) V₀ (Proc.devRef .tc main_v225) = val_main_v225 (F := Ideal) (arg1 V₀) (arg4 V₀) (arg10 V₀) (arg11 V₀) (arg12 V₀) (arg13 V₀) (arg18 V₀) (arg19 V₀) (arg20 V₀) := by
  have h := end2 hW V₀ (after (HandRun.refOps (F := Ideal)) V₀) [] (fun _ _ => rfl) 273 _ _ _ _ _ _ _ rfl (nk (by decide)) (nk (by decide)) (nk (by decide))
  rw [rb_main_v222 V₀, rb_main_v224 V₀] at h
  exact h

theorem rb_main_v226 : after (HandRun.refOps (F := Ideal)) V₀ (Proc.devRef .tc main_v226) = val_main_v226 (F := Ideal) (arg21 V₀) := by
  have h := end1 hW V₀ (after (HandRun.refOps (F := Ideal)) V₀) [] (fun _ _ => rfl) 274 _ _ _ _ _ rfl (nk (by decide)) (nk (by decide))
  rw [rb_arg21 V₀] at h
  exact h

theorem rb_main_v227 : after (HandRun.refOps (F := Ideal)) V₀ (Proc.devRef .tc main_v227) = val_main_v227 (F := Ideal) (arg21 V₀) := by
  have h := end1 hW V₀ (after (HandRun.refOps (F := Ideal)) V₀) [] (fun _ _ => rfl) 275 _ _ _ _ _ rfl (nk (by decide)) (nk (by decide))
  rw [rb_main_v226 V₀] at h
  exact h

theorem rb_main_v228 : after (HandRun.refOps (F := Ideal)) V₀ (Proc.devRef .tc main_v228) = val_main_v228 (F := Ideal) (arg1 V₀) (arg4 V₀) (arg10 V₀) (arg11 V₀) (arg12 V₀) (arg13 V₀) (arg18 V₀) (arg19 V₀) (arg20 V₀) (arg21 V₀) := by
  have h := end2 hW V₀ (after (HandRun.refOps (F := Ideal)) V₀) [] (fun _ _ => rfl) 276 _ _ _ _ _ _ _ rfl (nk (by decide)) (nk (by decide)) (nk (by decide))
  rw [rb_main_v225 V₀, rb_main_v227 V₀] at h
  exact h

theorem rb_main_call4_cst : after (HandRun.refOps (F := Ideal)) V₀ (Proc.devRef .tc main_call4_cst) = val_main_call4_cst (F := Ideal) :=
  end0 hW V₀ (after (HandRun.refOps (F := Ideal)) V₀) [] (fun _ _ => rfl) 277 _ _ _ rfl (nk (by decide))

theorem rb_main_call4_v0 : after (HandRun.refOps (F := Ideal)) V₀ (Proc.devRef .tc main_call4_v0) = val_main_call4_v0 (F := Ideal) := by
  have h := end1 hW V₀ (after (HandRun.refOps (F := Ideal)) V₀) [] (fun _ _ => rfl) 278 _ _ _ _ _ rfl (nk (by decide)) (nk (by decide))
  rw [rb_main_call4_cst V₀] at h
  exact h

theorem rb_main_v229 : after (HandRun.refOps (F := Ideal)) V₀ (Proc.devRef .tc main_v229) = val_main_v229 (F := Ideal) (arg1 V₀) (arg4 V₀) (arg10 V₀) (arg11 V₀) (arg12 V₀) (arg13 V₀) (arg18 V₀) (arg19 V₀) (arg20 V₀) (arg21 V₀) := by
  have h := end2 hW V₀ (after (HandRun.refOps (F := Ideal)) V₀) [] (fun _ _ => rfl) 279 _ _ _ _ _ _ _ rfl (nk (by decide)) (nk (by decide)) (nk (by decide))
  rw [rb_main_v228 V₀, rb_main_call4_v0 V₀] at h
  exact h

theorem rb_main_v230 : after (HandRun.refOps (F := Ideal)) V₀ (Proc.devRef .tc main_v230) = val_main_v230 (F := Ideal) (arg5 V₀) := by
  have h := end1 hW V₀ (after (HandRun.refOps (F := Ideal)) V₀) [] (fun _ _ => rfl) 280 _ _ _ _ _ rfl (nk (by decide)) (nk (by decide))
  rw [rb_arg5 V₀] at h
  exact h

theorem rb_main_v231 : after (HandRun.refOps (F := Ideal)) V₀ (Proc.devRef .tc main_v231) = val_main_v231 (F := Ideal) (arg5 V₀) := by
  have h := endReshape hW V₀ (after (HandRun.refOps (F := Ideal)) V₀) [] (fun _ _ => rfl) 281 _ _ _ _ _ _ rfl (nk (by decide)) (nk (by decide))
  rw [rb_main_v230 V₀] at h
  exact h

theorem rb_main_c_38 : after (HandRun.refOps (F := Ideal)) V₀ (Proc.devRef .tc main_c_38) = val_main_c_38 (F := Ideal) :=
  end0 hW V₀ (after (HandRun.refOps (F := Ideal)) V₀) [] (fun _ _ => rfl) 282 _ _ _ rfl (nk (by decide))

theorem rb_main_v232 : after (HandRun.refOps (F := Ideal)) V₀ (Proc.devRef .tc main_v232) = val_main_v232 (F := Ideal) := by
  have h := end1 hW V₀ (after (HandRun.refOps (F := Ideal)) V₀) [] (fun _ _ => rfl) 283 _ _ _ _ _ rfl (nk (by decide)) (nk (by decide))
  rw [rb_main_c_38 V₀] at h
  exact h

theorem rb_main_v233 : after (HandRun.refOps (F := Ideal)) V₀ (Proc.devRef .tc main_v233) = val_main_v233 (F := Ideal) (arg5 V₀) := by
  have h := end2 hW V₀ (after (HandRun.refOps (F := Ideal)) V₀) [] (fun _ _ => rfl) 284 _ _ _ _ _ _ _ rfl (nk (by decide)) (nk (by decide)) (nk (by decide))
  rw [rb_main_v231 V₀, rb_main_v232 V₀] at h
  exact h

theorem rb_main_c_39 : after (HandRun.refOps (F := Ideal)) V₀ (Proc.devRef .tc main_c_39) = val_main_c_39 (F := Ideal) :=
  end0 hW V₀ (after (HandRun.refOps (F := Ideal)) V₀) [] (fun _ _ => rfl) 285 _ _ _ rfl (nk (by decide))

theorem rb_main_v234 : after (HandRun.refOps (F := Ideal)) V₀ (Proc.devRef .tc main_v234) = val_main_v234 (F := Ideal) := by
  have h := end1 hW V₀ (after (HandRun.refOps (F := Ideal)) V₀) [] (fun _ _ => rfl) 286 _ _ _ _ _ rfl (nk (by decide)) (nk (by decide))
  rw [rb_main_c_39 V₀] at h
  exact h

theorem rb_main_v235 : after (HandRun.refOps (F := Ideal)) V₀ (Proc.devRef .tc main_v235) = val_main_v235 (F := Ideal) (arg5 V₀) := by
  have h := end2 hW V₀ (after (HandRun.refOps (F := Ideal)) V₀) [] (fun _ _ => rfl) 287 _ _ _ _ _ _ _ rfl (nk (by decide)) (nk (by decide)) (nk (by decide))
  rw [rb_main_v231 V₀, rb_main_v234 V₀] at h
  exact h

theorem rb_main_v236 : after (HandRun.refOps (F := Ideal)) V₀ (Proc.devRef .tc main_v236) = val_main_v236 (F := Ideal) (arg5 V₀) := by
  have h := end3 hW V₀ (after (HandRun.refOps (F := Ideal)) V₀) [] (fun _ _ => rfl) 288 _ _ _ _ _ _ _ _ _ rfl (nk (by decide)) (nk (by decide)) (nk (by decide)) (nk (by decide))
  rw [rb_main_v233 V₀, rb_main_v235 V₀, rb_main_v231 V₀] at h
  exact h

theorem rb_main_v237 : after (HandRun.refOps (F := Ideal)) V₀ (Proc.devRef .tc main_v237) = val_main_v237 (F := Ideal) (arg5 V₀) := by
  have h := end1 hW V₀ (after (HandRun.refOps (F := Ideal)) V₀) [] (fun _ _ => rfl) 289 _ _ _ _ _ rfl (nk (by decide)) (nk (by decide))
  rw [rb_main_v236 V₀] at h
  exact h

theorem rb_main_v238 : after (HandRun.refOps (F := Ideal)) V₀ (Proc.devRef .tc main_v238) = val_main_v238 (F := Ideal) (arg2 V₀) (arg5 V₀) (arg14 V₀) (arg15 V₀) (arg16 V₀) (arg17 V₀) := by
  have h := end2 hW V₀ (after (HandRun.refOps (F := Ideal)) V₀) [] (fun _ _ => rfl) 290 _ _ _ _ _ _ _ rfl (nk (by decide)) (nk (by decide)) (nk (by decide))
  rw [rb_main_v137 V₀, rb_main_v237 V₀] at h
  exact h

theorem rb_main_v239 : after (HandRun.refOps (F := Ideal)) V₀ (Proc.devRef .tc main_v239) = val_main_v239 (F := Ideal) (arg5 V₀) := by
  have h := end1 hW V₀ (after (HandRun.refOps (F := Ideal)) V₀) [] (fun _ _ => rfl) 291 _ _ _ _ _ rfl (nk (by decide)) (nk (by decide))
  rw [rb_arg5 V₀] at h
  exact h

theorem rb_main_v240 : after (HandRun.refOps (F := Ideal)) V₀ (Proc.devRef .tc main_v240) = val_main_v240 (F := Ideal) (arg5 V₀) := by
  have h := endReshape hW V₀ (after (HandRun.refOps (F := Ideal)) V₀) [] (fun _ _ => rfl) 292 _ _ _ _ _ _ rfl (nk (by decide)) (nk (by decide))
  rw [rb_main_v239 V₀] at h
  exact h

theorem rb_main_cst_40 : after (HandRun.refOps (F := Ideal)) V₀ (Proc.devRef .tc main_cst_40) = val_main_cst_40 (F := Ideal) :=
  end0 hW V₀ (after (HandRun.refOps (F := Ideal)) V₀) [] (fun _ _ => rfl) 293 _ _ _ rfl (nk (by decide))

theorem rb_main_v241 : after (HandRun.refOps (F := Ideal)) V₀ (Proc.devRef .tc main_v241) = val_main_v241 (F := Ideal) := by
  have h := end1 hW V₀ (after (HandRun.refOps (F := Ideal)) V₀) [] (fun _ _ => rfl) 294 _ _ _ _ _ rfl (nk (by decide)) (nk (by decide))
  rw [rb_main_cst_40 V₀] at h
  exact h

theorem rb_main_v242 : after (HandRun.refOps (F := Ideal)) V₀ (Proc.devRef .tc main_v242) = val_main_v242 (F := Ideal) (arg5 V₀) := by
  have h := end1 hW V₀ (after (HandRun.refOps (F := Ideal)) V₀) [] (fun _ _ => rfl) 295 _ _ _ _ _ rfl (nk (by decide)) (nk (by decide))
  rw [rb_main_v240 V₀] at h
  exact h

theorem rb_main_v243 : after (HandRun.refOps (F := Ideal)) V₀ (Proc.devRef .tc main_v243) = val_main_v243 (F := Ideal) (arg2 V₀) (arg5 V₀) (arg14 V₀) (arg15 V₀) (arg16 V₀) (arg17 V₀) := by
  have h := end3 hW V₀ (after (HandRun.refOps (F := Ideal)) V₀) [] (fun _ _ => rfl) 296 _ _ _ _ _ _ _ _ _ rfl (nk (by decide)) (nk (by decide)) (nk (by decide)) (nk (by decide))
  rw [rb_main_v241 V₀, rb_main_v242 V₀, rb_main_v238 V₀] at h
  exact h

theorem rb_main_v244 : after (HandRun.refOps (F := Ideal)) V₀ (Proc.devRef .tc main_v244) = val_main_v244 (F := Ideal) (arg2 V₀) (arg5 V₀) (arg14 V₀) (arg15 V₀) (arg16 V₀) (arg17 V₀) := by
  have h := end2 hW V₀ (after (HandRun.refOps (F := Ideal)) V₀) [] (fun _ _ => rfl) 297 _ _ _ _ _ _ _ rfl (nk (by decide)) (nk (by decide)) (nk (by decide))
  rw [rb_main_v137 V₀, rb_main_v243 V₀] at h
  exact h

theorem rb_main_v245 : after (HandRun.refOps (F := Ideal)) V₀ (Proc.devRef .tc main_v245) = val_main_v245 (F := Ideal) (arg18 V₀) := by
  have h := end1 hW V₀ (after (HandRun.refOps (F := Ideal)) V₀) [] (fun _ _ => rfl) 298 _ _ _ _ _ rfl (nk (by decide)) (nk (by decide))
  rw [rb_arg18 V₀] at h
  exact h

theorem rb_main_v246 : after (HandRun.refOps (F := Ideal)) V₀ (Proc.devRef .tc main_v246) = val_main_v246 (F := Ideal) (arg2 V₀) (arg5 V₀) (arg14 V₀) (arg15 V₀) (arg16 V₀) (arg17 V₀) (arg18 V₀) := by
  have h := end2 hW V₀ (after (HandRun.refOps (F := Ideal)) V₀) [] (fun _ _ => rfl) 299 _ _ _ _ _ _ _ rfl (nk (by decide)) (nk (by decide)) (nk (by decide))
  rw [rb_main_v244 V₀, rb_main_v245 V₀] at h
  exact h

theorem rb_main_v247 : after (HandRun.refOps (F := Ideal)) V₀ (Proc.devRef .tc main_v247) = val_main_v247 (F := Ideal) (arg19 V₀) := by
  have h := end1 hW V₀ (after (HandRun.refOps (F := Ideal)) V₀) [] (fun _ _ => rfl) 300 _ _ _ _ _ rfl (nk (by decide)) (nk (by decide))
  rw [rb_arg19 V₀] at h
  exact h

theorem rb_main_v248 : after (HandRun.refOps (F := Ideal)) V₀ (Proc.devRef .tc main_v248) = val_main_v248 (F := Ideal) (arg19 V₀) := by
  have h := end1 hW V₀ (after (HandRun.refOps (F := Ideal)) V₀) [] (fun _ _ => rfl) 301 _ _ _ _ _ rfl (nk (by decide)) (nk (by decide))
  rw [rb_main_v247 V₀] at h
  exact h

theorem rb_main_v249 : after (HandRun.refOps (F := Ideal)) V₀ (Proc.devRef .tc main_v249) = val_main_v249 (F := Ideal) (arg2 V₀) (arg5 V₀) (arg14 V₀) (arg15 V₀) (arg16 V₀) (arg17 V₀) (arg18 V₀) (arg19 V₀) := by
  have h := end2 hW V₀ (after (HandRun.refOps (F := Ideal)) V₀) [] (fun _ _ => rfl) 302 _ _ _ _ _ _ _ rfl (nk (by decide)) (nk (by decide)) (nk (by decide))
  rw [rb_main_v246 V₀, rb_main_v248 V₀] at h
  exact h

theorem rb_main_cst_41 : after (HandRun.refOps (F := Ideal)) V₀ (Proc.devRef .tc main_cst_41) = val_main_cst_41 (F := Ideal) :=
  end0 hW V₀ (after (HandRun.refOps (F := Ideal)) V₀) [] (fun _ _ => rfl) 303 _ _ _ rfl (nk (by decide))

theorem rb_main_v250 : after (HandRun.refOps (F := Ideal)) V₀ (Proc.devRef .tc main_v250) = val_main_v250 (F := Ideal) (arg2 V₀) (arg5 V₀) (arg14 V₀) (arg15 V₀) (arg16 V₀) (arg17 V₀) (arg18 V₀) (arg19 V₀) := by
  have h := end2 hW V₀ (after (HandRun.refOps (F := Ideal)) V₀) [] (fun _ _ => rfl) 304 _ _ _ _ _ _ _ rfl (nk (by decide)) (nk (by decide)) (nk (by decide))
  rw [rb_main_v249 V₀, rb_main_cst_41 V₀] at h
  exact h

theorem rb_main_cst_42 : after (HandRun.refOps (F := Ideal)) V₀ (Proc.devRef .tc main_cst_42) = val_main_cst_42 (F := Ideal) :=
  end0 hW V₀ (after (HandRun.refOps (F := Ideal)) V₀) [] (fun _ _ => rfl) 305 _ _ _ rfl (nk (by decide))

theorem rb_main_v251 : after (HandRun.refOps (F := Ideal)) V₀ (Proc.devRef .tc main_v251) = val_main_v251 (F := Ideal) := by
  have h := end1 hW V₀ (after (HandRun.refOps (F := Ideal)) V₀) [] (fun _ _ => rfl) 306 _ _ _ _ _ rfl (nk (by decide)) (nk (by decide))
  rw [rb_main_cst_42 V₀] at h
  exact h

theorem rb_main_v252 : after (HandRun.refOps (F := Ideal)) V₀ (Proc.devRef .tc main_v252) = val_main_v252 (F := Ideal) (arg2 V₀) (arg5 V₀) (arg14 V₀) (arg15 V₀) (arg16 V₀) (arg17 V₀) (arg18 V₀) (arg19 V₀) := by
  have h := end2 hW V₀ (after (HandRun.refOps (F := Ideal)) V₀) [] (fun _ _ => rfl) 307 _ _ _ _ _ _ _ rfl (nk (by decide)) (nk (by decide)) (nk (by decide))
  rw [rb_main_v250 V₀, rb_main_v251 V₀] at h
  exact h

theorem rb_main_v253 : after (HandRun.refOps (F := Ideal)) V₀ (Proc.devRef .tc main_v253) = val_main_v253 (F := Ideal) (arg2 V₀) (arg5 V₀) (arg14 V₀) (arg15 V₀) (arg16 V₀) (arg17 V₀) (arg18 V₀) (arg19 V₀) := by
  have h := end1 hW V₀ (after (HandRun.refOps (F := Ideal)) V₀) [] (fun _ _ => rfl) 308 _ _ _ _ _ rfl (nk (by decide)) (nk (by decide))
  rw [rb_main_v252 V₀] at h
  exact h

theorem rb_main_v254 : after (HandRun.refOps (F := Ideal)) V₀ (Proc.devRef .tc main_v254) = val_main_v254 (F := Ideal) (arg2 V₀) (arg5 V₀) (arg14 V₀) (arg15 V₀) (arg16 V₀) (arg17 V₀) (arg18 V₀) (arg19 V₀) := by
  have h := end1 hW V₀ (after (HandRun.refOps (F := Ideal)) V₀) [] (fun _ _ => rfl) 309 _ _ _ _ _ rfl (nk (by decide)) (nk (by decide))
  rw [rb_main_v253 V₀] at h
  exact h

theorem rb_main_v255 : after (HandRun.refOps (F := Ideal)) V₀ (Proc.devRef .tc main_v255) = val_main_v255 (F := Ideal) (arg2 V₀) (arg5 V₀) (arg14 V₀) (arg15 V₀) (arg16 V₀) (arg17 V₀) (arg18 V₀) (arg19 V₀) := by
  have h := end2 hW V₀ (after (HandRun.refOps (F := Ideal)) V₀) [] (fun _ _ => rfl) 310 _ _ _ _ _ _ _ rfl (nk (by decide)) (nk (by decide)) (nk (by decide))
  rw [rb_main_v249 V₀, rb_main_v254 V₀] at h
  exact h

theorem rb_main_v256 : after (HandRun.refOps (F := Ideal)) V₀ (Proc.devRef .tc main_v256) = val_main_v256 (F := Ideal) (arg2 V₀) (arg5 V₀) (arg14 V₀) (arg15 V₀) (arg16 V₀) (arg17 V₀) (arg18 V₀) (arg19 V₀) := by
  have h := end2 hW V₀ (after (HandRun.refOps (F := Ideal)) V₀) [] (fun _ _ => rfl) 311 _ _ _ _ _ _ _ rfl (nk (by decide)) (nk (by decide)) (nk (by decide))
  rw [rb_main_v255 V₀] at h
  exact h

theorem rb_main_cst_43 : after (HandRun.refOps (F := Ideal)) V₀ (Proc.devRef .tc main_cst_43) = val_main_cst_43 (F := Ideal) :=
  end0 hW V₀ (after (HandRun.refOps (F := Ideal)) V₀) [] (fun _ _ => rfl) 312 _ _ _ rfl (nk (by decide))

theorem rb_main_v257 : after (HandRun.refOps (F := Ideal)) V₀ (Proc.devRef .tc main_v257) = val_main_v257 (F := Ideal) (arg2 V₀) (arg5 V₀) (arg14 V₀) (arg15 V₀) (arg16 V₀) (arg17 V₀) (arg18 V₀) (arg19 V₀) := by
  have h := end2 hW V₀ (after (HandRun.refOps (F := Ideal)) V₀) [] (fun _ _ => rfl) 313 _ _ _ _ _ _ _ rfl (nk (by decide)) (nk (by decide)) (nk (by decide))
  rw [rb_main_v256 V₀, rb_main_cst_43 V₀] at h
  exact h

theorem rb_main_cst_44 : after (HandRun.refOps (F := Ideal)) V₀ (Proc.devRef .tc main_cst_44) = val_main_cst_44 (F := Ideal) :=
  end0 hW V₀ (after (HandRun.refOps (F := Ideal)) V₀) [] (fun _ _ => rfl) 314 _ _ _ rfl (nk (by decide))

theorem rb_main_v258 : after (HandRun.refOps (F := Ideal)) V₀ (Proc.devRef .tc main_v258) = val_main_v258 (F := Ideal) := by
  have h := end1 hW V₀ (after (HandRun.refOps (F := Ideal)) V₀) [] (fun _ _ => rfl) 315 _ _ _ _ _ rfl (nk (by decide)) (nk (by decide))
  rw [rb_main_cst_44 V₀] at h
  exact h

theorem rb_main_v259 : after (HandRun.refOps (F := Ideal)) V₀ (Proc.devRef .tc main_v259) = val_main_v259 (F := Ideal) (arg2 V₀) (arg5 V₀) (arg14 V₀) (arg15 V₀) (arg16 V₀) (arg17 V₀) (arg18 V₀) (arg19 V₀) := by
  have h := end2 hW V₀ (after (HandRun.refOps (F := Ideal)) V₀) [] (fun _ _ => rfl) 316 _ _ _ _ _ _ _ rfl (nk (by decide)) (nk (by decide)) (nk (by decide))
  rw [rb_main_v257 V₀, rb_main_v258 V₀] at h
  exact h

theorem rb_main_v260 : after (HandRun.refOps (F := Ideal)) V₀ (Proc.devRef .tc main_v260) = val_main_v260 (F := Ideal) (arg2 V₀) (arg5 V₀) (arg14 V₀) (arg15 V₀) (arg16 V₀) (arg17 V₀) (arg18 V₀) (arg19 V₀) := by
  have h := end1 hW V₀ (after (HandRun.refOps (F := Ideal)) V₀) [] (fun _ _ => rfl) 317 _ _ _ _ _ rfl (nk (by decide)) (nk (by decide))
  rw [rb_main_v252 V₀] at h
  exact h

theorem rb_main_v261 : after (HandRun.refOps (F := Ideal)) V₀ (Proc.devRef .tc main_v261) = val_main_v261 (F := Ideal) (arg2 V₀) (arg5 V₀) (arg14 V₀) (arg15 V₀) (arg16 V₀) (arg17 V₀) (arg18 V₀) (arg19 V₀) := by
  have h := end1 hW V₀ (after (HandRun.refOps (F := Ideal)) V₀) [] (fun _ _ => rfl) 318 _ _ _ _ _ rfl (nk (by decide)) (nk (by decide))
  rw [rb_main_v260 V₀] at h
  exact h

theorem rb_main_v262 : after (HandRun.refOps (F := Ideal)) V₀ (Proc.devRef .tc main_v262) = val_main_v262 (F := Ideal) (arg2 V₀) (arg5 V₀) (arg14 V₀) (arg15 V₀) (arg16 V₀) (arg17 V₀) (arg18 V₀) (arg19 V₀) := by
  have h := end2 hW V₀ (after (HandRun.refOps (F := Ideal)) V₀) [] (fun _ _ => rfl) 319 _ _ _ _ _ _ _ rfl (nk (by decide)) (nk (by decide)) (nk (by decide))
  rw [rb_main_v249 V₀, rb_main_v261 V₀] at h
  exact h

theorem rb_main_cst_45 : after (HandRun.refOps (F := Ideal)) V₀ (Proc.devRef .tc main_cst_45) = val_main_cst_45 (F := Ideal) :=
  end0 hW V₀ (after (HandRun.refOps (F := Ideal)) V₀) [] (fun _ _ => rfl) 320 _ _ _ rfl (nk (by decide))

theorem rb_main_v263 : after (HandRun.refOps (F := Ideal)) V₀ (Proc.devRef .tc main_v263) = val_main_v263 (F := Ideal) := by
  have h := end1 hW V₀ (after (HandRun.refOps (F := Ideal)) V₀) [] (fun _ _ => rfl) 321 _ _ _ _ _ rfl (nk (by decide)) (nk (by decide))
  rw [rb_main_cst_45 V₀] at h
  exact h

theorem rb_main_v264 : after (HandRun.refOps (F := Ideal)) V₀ (Proc.devRef .tc main_v264) = val_main_v264 (F := Ideal) (arg2 V₀) (arg5 V₀) (arg14 V₀) (arg15 V₀) (arg16 V₀) (arg17 V₀) (arg18 V₀) (arg19 V₀) := by
  have h := end2 hW V₀ (after (HandRun.refOps (F := Ideal)) V₀) [] (fun _ _ => rfl) 322 _ _ _ _ _ _ _ rfl (nk (by decide)) (nk (by decide)) (nk (by decide))
  rw [rb_main_v259 V₀, rb_main_v263 V₀] at h
  exact h

theorem rb_main_v265 : after (HandRun.refOps (F := Ideal)) V₀ (Proc.devRef .tc main_v265) = val_main_v265 (F := Ideal) (arg2 V₀) (arg5 V₀) (arg14 V₀) (arg15 V₀) (arg16 V₀) (arg17 V₀) (arg18 V₀) (arg19 V₀) := by
  have h := end1 hW V₀ (after (HandRun.refOps (F := Ideal)) V₀) [] (fun _ _ => rfl) 323 _ _ _ _ _ rfl (nk (by decide)) (nk (by decide))
  rw [rb_main_v264 V₀] at h
  exact h

theorem rb_main_v266 : after (HandRun.refOps (F := Ideal)) V₀ (Proc.devRef .tc main_v266) = val_main_v266 (F := Ideal) (arg2 V₀) (arg5 V₀) (arg14 V₀) (arg15 V₀) (arg16 V₀) (arg17 V₀) (arg18 V₀) (arg19 V₀) := by
  have h := end1 hW V₀ (after (HandRun.refOps (F := Ideal)) V₀) [] (fun _ _ => rfl) 324 _ _ _ _ _ rfl (nk (by decide)) (nk (by decide))
  rw [rb_main_v265 V₀] at h
  exact h

theorem rb_main_v267 : after (HandRun.refOps (F := Ideal)) V₀ (Proc.devRef .tc main_v267) = val_main_v267 (F := Ideal) (arg2 V₀) (arg5 V₀) (arg14 V₀) (arg15 V₀) (arg16 V₀) (arg17 V₀) (arg18 V₀) (arg19 V₀) := by
  have h := end1 hW V₀ (after (HandRun.refOps (F := Ideal)) V₀) [] (fun _ _ => rfl) 325 _ _ _ _ _ rfl (nk (by decide)) (nk (by decide))
  rw [rb_main_v266 V₀] at h
  exact h

theorem rb_main_v268 : after (HandRun.refOps (F := Ideal)) V₀ (Proc.devRef .tc main_v268) = val_main_v268 (F := Ideal) (arg2 V₀) (arg5 V₀) (arg14 V₀) (arg15 V₀) (arg16 V₀) (arg17 V₀) (arg18 V₀) (arg19 V₀) := by
  have h := end2 hW V₀ (after (HandRun.refOps (F := Ideal)) V₀) [] (fun _ _ => rfl) 326 _ _ _ _ _ _ _ rfl (nk (by decide)) (nk (by decide)) (nk (by decide))
  rw [rb_main_v262 V₀, rb_main_v267 V₀] at h
  exact h

theorem rb_main_v269 : after (HandRun.refOps (F := Ideal)) V₀ (Proc.devRef .tc main_v269) = val_main_v269 (F := Ideal) (arg20 V₀) := by
  have h := end1 hW V₀ (after (HandRun.refOps (F := Ideal)) V₀) [] (fun _ _ => rfl) 327 _ _ _ _ _ rfl (nk (by decide)) (nk (by decide))
  rw [rb_arg20 V₀] at h
  exact h

theorem rb_main_v270 : after (HandRun.refOps (F := Ideal)) V₀ (Proc.devRef .tc main_v270) = val_main_v270 (F := Ideal) (arg20 V₀) := by
  have h := end1 hW V₀ (after (HandRun.refOps (F := Ideal)) V₀) [] (fun _ _ => rfl) 328 _ _ _ _ _ rfl (nk (by decide)) (nk (by decide))
  rw [rb_main_v269 V₀] at h
  exact h

theorem rb_main_v271 : after (HandRun.refOps (F := Ideal)) V₀ (Proc.devRef .tc main_v271) = val_main_v271 (F := Ideal) (arg2 V₀) (arg5 V₀) (arg14 V₀) (arg15 V₀) (arg16 V₀) (arg17 V₀) (arg18 V₀) (arg19 V₀) (arg20 V₀) := by
  have h := end2 hW V₀ (after (HandRun.refOps (F := Ideal)) V₀) [] (fun _ _ => rfl) 329 _ _ _ _ _ _ _ rfl (nk (by decide)) (nk (by decide)) (nk (by decide))
  rw [rb_main_v268 V₀, rb_main_v270 V₀] at h
  exact h

theorem rb_main_v272 : after (HandRun.refOps (F := Ideal)) V₀ (Proc.devRef .tc main_v272) = val_main_v272 (F := Ideal) (arg21 V₀) := by
  have h := end1 hW V₀ (after (HandRun.refOps (F := Ideal)) V₀) [] (fun _ _ => rfl) 330 _ _ _ _ _ rfl (nk (by decide)) (nk (by decide))
  rw [rb_arg21 V₀] at h
  exact h

theorem rb_main_v273 : after (HandRun.refOps (F := Ideal)) V₀ (Proc.devRef .tc main_v273) = val_main_v273 (F := Ideal) (arg21 V₀) := by
  have h := end1 hW V₀ (after (HandRun.refOps (F := Ideal)) V₀) [] (fun _ _ => rfl) 331 _ _ _ _ _ rfl (nk (by decide)) (nk (by decide))
  rw [rb_main_v272 V₀] at h
  exact h

theorem rb_main_v274 : after (HandRun.refOps (F := Ideal)) V₀ (Proc.devRef .tc main_v274) = val_main_v274 (F := Ideal) (arg2 V₀) (arg5 V₀) (arg14 V₀) (arg15 V₀) (arg16 V₀) (arg17 V₀) (arg18 V₀) (arg19 V₀) (arg20 V₀) (arg21 V₀) := by
  have h := end2 hW V₀ (after (HandRun.refOps (F := Ideal)) V₀) [] (fun _ _ => rfl) 332 _ _ _ _ _ _ _ rfl (nk (by decide)) (nk (by decide)) (nk (by decide))
  rw [rb_main_v271 V₀, rb_main_v273 V₀] at h
  exact h

theorem rb_main_call5_cst : after (HandRun.refOps (F := Ideal)) V₀ (Proc.devRef .tc main_call5_cst) = val_main_call5_cst (F := Ideal) :=
  end0 hW V₀ (after (HandRun.refOps (F := Ideal)) V₀) [] (fun _ _ => rfl) 333 _ _ _ rfl (nk (by decide))

theorem rb_main_call5_v0 : after (HandRun.refOps (F := Ideal)) V₀ (Proc.devRef .tc main_call5_v0) = val_main_call5_v0 (F := Ideal) := by
  have h := end1 hW V₀ (after (HandRun.refOps (F := Ideal)) V₀) [] (fun _ _ => rfl) 334 _ _ _ _ _ rfl (nk (by decide)) (nk (by decide))
  rw [rb_main_call5_cst V₀] at h
  exact h

theorem rb_main_v275 : after (HandRun.refOps (F := Ideal)) V₀ (Proc.devRef .tc main_v275) = val_main_v275 (F := Ideal) (arg2 V₀) (arg5 V₀) (arg14 V₀) (arg15 V₀) (arg16 V₀) (arg17 V₀) (arg18 V₀) (arg19 V₀) (arg20 V₀) (arg21 V₀) := by
  have h := end2 hW V₀ (after (HandRun.refOps (F := Ideal)) V₀) [] (fun _ _ => rfl) 335 _ _ _ _ _ _ _ rfl (nk (by decide)) (nk (by decide)) (nk (by decide))
  rw [rb_main_v274 V₀, rb_main_call5_v0 V₀] at h
  exact h

theorem rb_main_v276 : after (HandRun.refOps (F := Ideal)) V₀ (Proc.devRef .tc main_v276) = val_main_v276 (F := Ideal) (arg3 V₀) := by
  have h := end1 hW V₀ (after (HandRun.refOps (F := Ideal)) V₀) [] (fun _ _ => rfl) 336 _ _ _ _ _ rfl (nk (by decide)) (nk (by decide))
  rw [rb_arg3 V₀] at h
  exact h

theorem rb_main_v277 : after (HandRun.refOps (F := Ideal)) V₀ (Proc.devRef .tc main_v277) = val_main_v277 (F := Ideal) (arg3 V₀) := by
  have h := endReshape hW V₀ (after (HandRun.refOps (F := Ideal)) V₀) [] (fun _ _ => rfl) 337 _ _ _ _ _ _ rfl (nk (by decide)) (nk (by decide))
  rw [rb_main_v276 V₀] at h
  exact h

theorem rb_main_c_46 : after (HandRun.refOps (F := Ideal)) V₀ (Proc.devRef .tc main_c_46) = val_main_c_46 (F := Ideal) :=
  end0 hW V₀ (after (HandRun.refOps (F := Ideal)) V₀) [] (fun _ _ => rfl) 338 _ _ _ rfl (nk (by decide))

theorem rb_main_v278 : after (HandRun.refOps (F := Ideal)) V₀ (Proc.devRef .tc main_v278) = val_main_v278 (F := Ideal) := by
  have h := end1 hW V₀ (after (HandRun.refOps (F := Ideal)) V₀) [] (fun _ _ => rfl) 339 _ _ _ _ _ rfl (nk (by decide)) (nk (by decide))
  rw [rb_main_c_46 V₀] at h
  exact h

theorem rb_main_v279 : after (HandRun.refOps (F := Ideal)) V₀ (Proc.devRef .tc main_v279) = val_main_v279 (F := Ideal) (arg3 V₀) := by
  have h := end2 hW V₀ (after (HandRun.refOps (F := Ideal)) V₀) [] (fun _ _ => rfl) 340 _ _ _ _ _ _ _ rfl (nk (by decide)) (nk (by decide)) (nk (by decide))
  rw [rb_main_v277 V₀, rb_main_v278 V₀] at h
  exact h

theorem rb_main_c_47 : after (HandRun.refOps (F := Ideal)) V₀ (Proc.devRef .tc main_c_47) = val_main_c_47 (F := Ideal) :=
  end0 hW V₀ (after (HandRun.refOps (F := Ideal)) V₀) [] (fun _ _ => rfl) 341 _ _ _ rfl (nk (by decide))

theorem rb_main_v280 : after (HandRun.refOps (F := Ideal)) V₀ (Proc.devRef .tc main_v280) = val_main_v280 (F := Ideal) := by
  have h := end1 hW V₀ (after (HandRun.refOps (F := Ideal)) V₀) [] (fun _ _ => rfl) 342 _ _ _ _ _ rfl (nk (by decide)) (nk (by decide))
  rw [rb_main_c_47 V₀] at h
  exact h

theorem rb_main_v281 : after (HandRun.refOps (F := Ideal)) V₀ (Proc.devRef .tc main_v281) = val_main_v281 (F := Ideal) (arg3 V₀) := by
  have h := end2 hW V₀ (after (HandRun.refOps (F := Ideal)) V₀) [] (fun _ _ => rfl) 343 _ _ _ _ _ _ _ rfl (nk (by decide)) (nk (by decide)) (nk (by decide))
  rw [rb_main_v277 V₀, rb_main_v280 V₀] at h
  exact h

theorem rb_main_v282 : after (HandRun.refOps (F := Ideal)) V₀ (Proc.devRef .tc main_v282) = val_main_v282 (F := Ideal) (arg3 V₀) := by
  have h := end3 hW V₀ (after (HandRun.refOps (F := Ideal)) V₀) [] (fun _ _ => rfl) 344 _ _ _ _ _ _ _ _ _ rfl (nk (by decide)) (nk (by decide)) (nk (by decide)) (nk (by decide))
  rw [rb_main_v279 V₀, rb_main_v281 V₀, rb_main_v277 V₀] at h
  exact h

theorem rb_main_v283 : after (HandRun.refOps (F := Ideal)) V₀ (Proc.devRef .tc main_v283) = val_main_v283 (F := Ideal) (arg3 V₀) := by
  have h := end1 hW V₀ (after (HandRun.refOps (F := Ideal)) V₀) [] (fun _ _ => rfl) 345 _ _ _ _ _ rfl (nk (by decide)) (nk (by decide))
  rw [rb_main_v282 V₀] at h
  exact h

theorem rb_main_v284 : after (HandRun.refOps (F := Ideal)) V₀ (Proc.devRef .tc main_v284) = val_main_v284 (F := Ideal) (arg0 V₀) (arg3 V₀) (arg6 V₀) (arg7 V₀) (arg8 V₀) (arg9 V₀) (arg18 V₀) (arg19 V₀) (arg20 V₀) (arg21 V₀) := by
  have h := end2 hW V₀ (after (HandRun.refOps (F := Ideal)) V₀) [] (fun _ _ => rfl) 346 _ _ _ _ _ _ _ rfl (nk (by decide)) (nk (by decide)) (nk (by decide))
  rw [rb_main_v183 V₀, rb_main_v283 V₀] at h
  exact h

theorem rb_main_v285 : after (HandRun.refOps (F := Ideal)) V₀ (Proc.devRef .tc main_v285) = val_main_v285 (F := Ideal) (arg3 V₀) := by
  have h := end1 hW V₀ (after (HandRun.refOps (F := Ideal)) V₀) [] (fun _ _ => rfl) 347 _ _ _ _ _ rfl (nk (by decide)) (nk (by decide))
  rw [rb_arg3 V₀] at h
  exact h

theorem rb_main_v286 : after (HandRun.refOps (F := Ideal)) V₀ (Proc.devRef .tc main_v286) = val_main_v286 (F := Ideal) (arg3 V₀) := by
  have h := endReshape hW V₀ (after (HandRun.refOps (F := Ideal)) V₀) [] (fun _ _ => rfl) 348 _ _ _ _ _ _ rfl (nk (by decide)) (nk (by decide))
  rw [rb_main_v285 V₀] at h
  exact h

theorem rb_main_cst_48 : after (HandRun.refOps (F := Ideal)) V₀ (Proc.devRef .tc main_cst_48) = val_main_cst_48 (F := Ideal) :=
  end0 hW V₀ (after (HandRun.refOps (F := Ideal)) V₀) [] (fun _ _ => rfl) 349 _ _ _ rfl (nk (by decide))

theorem rb_main_v287 : after (HandRun.refOps (F := Ideal)) V₀ (Proc.devRef .tc main_v287) = val_main_v287 (F := Ideal) := by
  have h := end1 hW V₀ (after (HandRun.refOps (F := Ideal)) V₀) [] (fun _ _ => rfl) 350 _ _ _ _ _ rfl (nk (by decide)) (nk (by decide))
  rw [rb_main_cst_48 V₀] at h
  exact h

theorem rb_main_v288 : after (HandRun.refOps (F := Ideal)) V₀ (Proc.devRef .tc main_v288) = val_main_v288 (F := Ideal) (arg3 V₀) := by
  have h := end1 hW V₀ (after (HandRun.refOps (F := Ideal)) V₀) [] (fun _ _ => rfl) 351 _ _ _ _ _ rfl (nk (by decide)) (nk (by decide))
  rw [rb_main_v286 V₀] at h
  exact h

theorem rb_main_v289 : after (HandRun.refOps (F := Ideal)) V₀ (Proc.devRef .tc main_v289) = val_main_v289 (F := Ideal) (arg0 V₀) (arg3 V₀) (arg6 V₀) (arg7 V₀) (arg8 V₀) (arg9 V₀) (arg18 V₀) (arg19 V₀) (arg20 V₀) (arg21 V₀) := by
  have h := end3 hW V₀ (after (HandRun.refOps (F := Ideal)) V₀) [] (fun _ _ => rfl) 352 _ _ _ _ _ _ _ _ _ rfl (nk (by decide)) (nk (by decide)) (nk (by decide)) (nk (by decide))
  rw [rb_main_v287 V₀, rb_main_v288 V₀, rb_main_v284 V₀] at h
  exact h

theorem rb_main_v290 : after (HandRun.refOps (F := Ideal)) V₀ (Proc.devRef .tc main_v290) = val_main_v290 (F := Ideal) (arg0 V₀) (arg3 V₀) (arg6 V₀) (arg7 V₀) (arg8 V₀) (arg9 V₀) (arg18 V₀) (arg19 V₀) (arg20 V₀) (arg21 V₀) := by
  have h := end2 hW V₀ (after (HandRun.refOps (F := Ideal)) V₀) [] (fun _ _ => rfl) 353 _ _ _ _ _ _ _ rfl (nk (by decide)) (nk (by decide)) (nk (by decide))
  rw [rb_main_v183 V₀, rb_main_v289 V₀] at h
  exact h

theorem rb_main_v291 : after (HandRun.refOps (F := Ideal)) V₀ (Proc.devRef .tc main_v291) = val_main_v291 (F := Ideal) (arg22 V₀) := by
  have h := end1 hW V₀ (after (HandRun.refOps (F := Ideal)) V₀) [] (fun _ _ => rfl) 354 _ _ _ _ _ rfl (nk (by decide)) (nk (by decide))
  rw [rb_arg22 V₀] at h
  exact h

theorem rb_main_v292 : after (HandRun.refOps (F := Ideal)) V₀ (Proc.devRef .tc main_v292) = val_main_v292 (F := Ideal) (arg0 V₀) (arg3 V₀) (arg6 V₀) (arg7 V₀) (arg8 V₀) (arg9 V₀) (arg18 V₀) (arg19 V₀) (arg20 V₀) (arg21 V₀) (arg22 V₀) := by
  have h := end2 hW V₀ (after (HandRun.refOps (F := Ideal)) V₀) [] (fun _ _ => rfl) 355 _ _ _ _ _ _ _ rfl (nk (by decide)) (nk (by decide)) (nk (by decide))
  rw [rb_main_v290 V₀, rb_main_v291 V₀] at h
  exact h

theorem rb_main_v293 : after (HandRun.refOps (F := Ideal)) V₀ (Proc.devRef .tc main_v293) = val_main_v293 (F := Ideal) (arg23 V₀) := by
  have h := end1 hW V₀ (after (HandRun.refOps (F := Ideal)) V₀) [] (fun _ _ => rfl) 356 _ _ _ _ _ rfl (nk (by decide)) (nk (by decide))
  rw [rb_arg23 V₀] at h
  exact h

theorem rb_main_v294 : after (HandRun.refOps (F := Ideal)) V₀ (Proc.devRef .tc main_v294) = val_main_v294 (F := Ideal) (arg23 V₀) := by
  have h := end1 hW V₀ (after (HandRun.refOps (F := Ideal)) V₀) [] (fun _ _ => rfl) 357 _ _ _ _ _ rfl (nk (by decide)) (nk (by decide))
  rw [rb_main_v293 V₀] at h
  exact h

theorem rb_main_v295 : after (HandRun.refOps (F := Ideal)) V₀ (Proc.devRef .tc main_v295) = val_main_v295 (F := Ideal) (arg0 V₀) (arg3 V₀) (arg6 V₀) (arg7 V₀) (arg8 V₀) (arg9 V₀) (arg18 V₀) (arg19 V₀) (arg20 V₀) (arg21 V₀) (arg22 V₀) (arg23 V₀) := by
  have h := end2 hW V₀ (after (HandRun.refOps (F := Ideal)) V₀) [] (fun _ _ => rfl) 358 _ _ _ _ _ _ _ rfl (nk (by decide)) (nk (by decide)) (nk (by decide))
  rw [rb_main_v292 V₀, rb_main_v294 V₀] at h
  exact h

theorem rb_main_call6_cst : after (HandRun.refOps (F := Ideal)) V₀ (Proc.devRef .tc main_call6_cst) = val_main_call6_cst (F := Ideal) :=
  end0 hW V₀ (after (HandRun.refOps (F := Ideal)) V₀) [] (fun _ _ => rfl) 359 _ _ _ rfl (nk (by decide))

theorem rb_main_call6_v0 : after (HandRun.refOps (F := Ideal)) V₀ (Proc.devRef .tc main_call6_v0) = val_main_call6_v0 (F := Ideal) := by
  have h := end1 hW V₀ (after (HandRun.refOps (F := Ideal)) V₀) [] (fun _ _ => rfl) 360 _ _ _ _ _ rfl (nk (by decide)) (nk (by decide))
  rw [rb_main_call6_cst V₀] at h
  exact h

theorem rb_main_v296 : after (HandRun.refOps (F := Ideal)) V₀ (Proc.devRef .tc main_v296) = val_main_v296 (F := Ideal) (arg0 V₀) (arg3 V₀) (arg6 V₀) (arg7 V₀) (arg8 V₀) (arg9 V₀) (arg18 V₀) (arg19 V₀) (arg20 V₀) (arg21 V₀) (arg22 V₀) (arg23 V₀) := by
  have h := end2 hW V₀ (after (HandRun.refOps (F := Ideal)) V₀) [] (fun _ _ => rfl) 361 _ _ _ _ _ _ _ rfl (nk (by decide)) (nk (by decide)) (nk (by decide))
  rw [rb_main_v295 V₀, rb_main_call6_v0 V₀] at h
  exact h

theorem rb_main_v297 : after (HandRun.refOps (F := Ideal)) V₀ (Proc.devRef .tc main_v297) = val_main_v297 (F := Ideal) (arg4 V₀) := by
  have h := end1 hW V₀ (after (HandRun.refOps (F := Ideal)) V₀) [] (fun _ _ => rfl) 362 _ _ _ _ _ rfl (nk (by decide)) (nk (by decide))
  rw [rb_arg4 V₀] at h
  exact h

theorem rb_main_v298 : after (HandRun.refOps (F := Ideal)) V₀ (Proc.devRef .tc main_v298) = val_main_v298 (F := Ideal) (arg4 V₀) := by
  have h := endReshape hW V₀ (after (HandRun.refOps (F := Ideal)) V₀) [] (fun _ _ => rfl) 363 _ _ _ _ _ _ rfl (nk (by decide)) (nk (by decide))
  rw [rb_main_v297 V₀] at h
  exact h

theorem rb_main_c_49 : after (HandRun.refOps (F := Ideal)) V₀ (Proc.devRef .tc main_c_49) = val_main_c_49 (F := Ideal) :=
  end0 hW V₀ (after (HandRun.refOps (F := Ideal)) V₀) [] (fun _ _ => rfl) 364 _ _ _ rfl (nk (by decide))

theorem rb_main_v299 : after (HandRun.refOps (F := Ideal)) V₀ (Proc.devRef .tc main_v299) = val_main_v299 (F := Ideal) := by
  have h := end1 hW V₀ (after (HandRun.refOps (F := Ideal)) V₀) [] (fun _ _ => rfl) 365 _ _ _ _ _ rfl (nk (by decide)) (nk (by decide))
  rw [rb_main_c_49 V₀] at h
  exact h

theorem rb_main_v300 : after (HandRun.refOps (F := Ideal)) V₀ (Proc.devRef .tc main_v300) = val_main_v300 (F := Ideal) (arg4 V₀) := by
  have h := end2 hW V₀ (after (HandRun.refOps (F := Ideal)) V₀) [] (fun _ _ => rfl) 366 _ _ _ _ _ _ _ rfl (nk (by decide)) (nk (by decide)) (nk (by decide))
  rw [rb_main_v298 V₀, rb_main_v299 V₀] at h
  exact h

theorem rb_main_c_50 : after (HandRun.refOps (F := Ideal)) V₀ (Proc.devRef .tc main_c_50) = val_main_c_50 (F := Ideal) :=
  end0 hW V₀ (after (HandRun.refOps (F := Ideal)) V₀) [] (fun _ _ => rfl) 367 _ _ _ rfl (nk (by decide))

theorem rb_main_v301 : after (HandRun.refOps (F := Ideal)) V₀ (Proc.devRef .tc main_v301) = val_main_v301 (F := Ideal) := by
  have h := end1 hW V₀ (after (HandRun.refOps (F := Ideal)) V₀) [] (fun _ _ => rfl) 368 _ _ _ _ _ rfl (nk (by decide)) (nk (by decide))
  rw [rb_main_c_50 V₀] at h
  exact h

theorem rb_main_v302 : after (HandRun.refOps (F := Ideal)) V₀ (Proc.devRef .tc main_v302) = val_main_v302 (F := Ideal) (arg4 V₀) := by
  have h := end2 hW V₀ (after (HandRun.refOps (F := Ideal)) V₀) [] (fun _ _ => rfl) 369 _ _ _ _ _ _ _ rfl (nk (by decide)) (nk (by decide)) (nk (by decide))
  rw [rb_main_v298 V₀, rb_main_v301 V₀] at h
  exact h

theorem rb_main_v303 : after (HandRun.refOps (F := Ideal)) V₀ (Proc.devRef .tc main_v303) = val_main_v303 (F := Ideal) (arg4 V₀) := by
  have h := end3 hW V₀ (after (HandRun.refOps (F := Ideal)) V₀) [] (fun _ _ => rfl) 370 _ _ _ _ _ _ _ _ _ rfl (nk (by decide)) (nk (by decide)) (nk (by decide)) (nk (by decide))
  rw [rb_main_v300 V₀, rb_main_v302 V₀, rb_main_v298 V₀] at h
  exact h

theorem rb_main_v304 : after (HandRun.refOps (F := Ideal)) V₀ (Proc.devRef .tc main_v304) = val_main_v304 (F := Ideal) (arg4 V₀) := by
  have h := end1 hW V₀ (after (HandRun.refOps (F := Ideal)) V₀) [] (fun _ _ => rfl) 371 _ _ _ _ _ rfl (nk (by decide)) (nk (by decide))
  rw [rb_main_v303 V₀] at h
  exact h

theorem rb_main_v305 : after (HandRun.refOps (F := Ideal)) V₀ (Proc.devRef .tc main_v305) = val_main_v305 (F := Ideal) (arg1 V₀) (arg4 V₀) (arg10 V₀) (arg11 V₀) (arg12 V₀) (arg13 V₀) (arg18 V₀) (arg19 V₀) (arg20 V₀) (arg21 V₀) := by
  have h := end2 hW V₀ (after (HandRun.refOps (F := Ideal)) V₀) [] (fun _ _ => rfl) 372 _ _ _ _ _ _ _ rfl (nk (by decide)) (nk (by decide)) (nk (by decide))
  rw [rb_main_v229 V₀, rb_main_v304 V₀] at h
  exact h

theorem rb_main_v306 : after (HandRun.refOps (F := Ideal)) V₀ (Proc.devRef .tc main_v306) = val_main_v306 (F := Ideal) (arg4 V₀) := by
  have h := end1 hW V₀ (after (HandRun.refOps (F := Ideal)) V₀) [] (fun _ _ => rfl) 373 _ _ _ _ _ rfl (nk (by decide)) (nk (by decide))
  rw [rb_arg4 V₀] at h
  exact h

theorem rb_main_v307 : after (HandRun.refOps (F := Ideal)) V₀ (Proc.devRef .tc main_v307) = val_main_v307 (F := Ideal) (arg4 V₀) := by
  have h := endReshape hW V₀ (after (HandRun.refOps (F := Ideal)) V₀) [] (fun _ _ => rfl) 374 _ _ _ _ _ _ rfl (nk (by decide)) (nk (by decide))
  rw [rb_main_v306 V₀] at h
  exact h

theorem rb_main_cst_51 : after (HandRun.refOps (F := Ideal)) V₀ (Proc.devRef .tc main_cst_51) = val_main_cst_51 (F := Ideal) :=
  end0 hW V₀ (after (HandRun.refOps (F := Ideal)) V₀) [] (fun _ _ => rfl) 375 _ _ _ rfl (nk (by decide))

theorem rb_main_v308 : after (HandRun.refOps (F := Ideal)) V₀ (Proc.devRef .tc main_v308) = val_main_v308 (F := Ideal) := by
  have h := end1 hW V₀ (after (HandRun.refOps (F := Ideal)) V₀) [] (fun _ _ => rfl) 376 _ _ _ _ _ rfl (nk (by decide)) (nk (by decide))
  rw [rb_main_cst_51 V₀] at h
  exact h

theorem rb_main_v309 : after (HandRun.refOps (F := Ideal)) V₀ (Proc.devRef .tc main_v309) = val_main_v309 (F := Ideal) (arg4 V₀) := by
  have h := end1 hW V₀ (after (HandRun.refOps (F := Ideal)) V₀) [] (fun _ _ => rfl) 377 _ _ _ _ _ rfl (nk (by decide)) (nk (by decide))
  rw [rb_main_v307 V₀] at h
  exact h

theorem rb_main_v310 : after (HandRun.refOps (F := Ideal)) V₀ (Proc.devRef .tc main_v310) = val_main_v310 (F := Ideal) (arg1 V₀) (arg4 V₀) (arg10 V₀) (arg11 V₀) (arg12 V₀) (arg13 V₀) (arg18 V₀) (arg19 V₀) (arg20 V₀) (arg21 V₀) := by
  have h := end3 hW V₀ (after (HandRun.refOps (F := Ideal)) V₀) [] (fun _ _ => rfl) 378 _ _ _ _ _ _ _ _ _ rfl (nk (by decide)) (nk (by decide)) (nk (by decide)) (nk (by decide))
  rw [rb_main_v308 V₀, rb_main_v309 V₀, rb_main_v305 V₀] at h
  exact h

theorem rb_main_v311 : after (HandRun.refOps (F := Ideal)) V₀ (Proc.devRef .tc main_v311) = val_main_v311 (F := Ideal) (arg1 V₀) (arg4 V₀) (arg10 V₀) (arg11 V₀) (arg12 V₀) (arg13 V₀) (arg18 V₀) (arg19 V₀) (arg20 V₀) (arg21 V₀) := by
  have h := end2 hW V₀ (after (HandRun.refOps (F := Ideal)) V₀) [] (fun _ _ => rfl) 379 _ _ _ _ _ _ _ rfl (nk (by decide)) (nk (by decide)) (nk (by decide))
  rw [rb_main_v229 V₀, rb_main_v310 V₀] at h
  exact h

theorem rb_main_v312 : after (HandRun.refOps (F := Ideal)) V₀ (Proc.devRef .tc main_v312) = val_main_v312 (F := Ideal) (arg24 V₀) := by
  have h := end1 hW V₀ (after (HandRun.refOps (F := Ideal)) V₀) [] (fun _ _ => rfl) 380 _ _ _ _ _ rfl (nk (by decide)) (nk (by decide))
  rw [rb_arg24 V₀] at h
  exact h

theorem rb_main_v313 : after (HandRun.refOps (F := Ideal)) V₀ (Proc.devRef .tc main_v313) = val_main_v313 (F := Ideal) (arg1 V₀) (arg4 V₀) (arg10 V₀) (arg11 V₀) (arg12 V₀) (arg13 V₀) (arg18 V₀) (arg19 V₀) (arg20 V₀) (arg21 V₀) (arg24 V₀) := by
  have h := end2 hW V₀ (after (HandRun.refOps (F := Ideal)) V₀) [] (fun _ _ => rfl) 381 _ _ _ _ _ _ _ rfl (nk (by decide)) (nk (by decide)) (nk (by decide))
  rw [rb_main_v311 V₀, rb_main_v312 V₀] at h
  exact h

theorem rb_main_v314 : after (HandRun.refOps (F := Ideal)) V₀ (Proc.devRef .tc main_v314) = val_main_v314 (F := Ideal) (arg25 V₀) := by
  have h := end1 hW V₀ (after (HandRun.refOps (F := Ideal)) V₀) [] (fun _ _ => rfl) 382 _ _ _ _ _ rfl (nk (by decide)) (nk (by decide))
  rw [rb_arg25 V₀] at h
  exact h

theorem rb_main_v315 : after (HandRun.refOps (F := Ideal)) V₀ (Proc.devRef .tc main_v315) = val_main_v315 (F := Ideal) (arg25 V₀) := by
  have h := end1 hW V₀ (after (HandRun.refOps (F := Ideal)) V₀) [] (fun _ _ => rfl) 383 _ _ _ _ _ rfl (nk (by decide)) (nk (by decide))
  rw [rb_main_v314 V₀] at h
  exact h

theorem rb_main_v316 : after (HandRun.refOps (F := Ideal)) V₀ (Proc.devRef .tc main_v316) = val_main_v316 (F := Ideal) (arg1 V₀) (arg4 V₀) (arg10 V₀) (arg11 V₀) (arg12 V₀) (arg13 V₀) (arg18 V₀) (arg19 V₀) (arg20 V₀) (arg21 V₀) (arg24 V₀) (arg25 V₀) := by
  have h := end2 hW V₀ (after (HandRun.refOps (F := Ideal)) V₀) [] (fun _ _ => rfl) 384 _ _ _ _ _ _ _ rfl (nk (by decide)) (nk (by decide)) (nk (by decide))
  rw [rb_main_v313 V₀, rb_main_v315 V₀] at h
  exact h

theorem rb_main_call7_cst : after (HandRun.refOps (F := Ideal)) V₀ (Proc.devRef .tc main_call7_cst) = val_main_call7_cst (F := Ideal) :=
  end0 hW V₀ (after (HandRun.refOps (F := Ideal)) V₀) [] (fun _ _ => rfl) 385 _ _ _ rfl (nk (by decide))

theorem rb_main_call7_v0 : after (HandRun.refOps (F := Ideal)) V₀ (Proc.devRef .tc main_call7_v0) = val_main_call7_v0 (F := Ideal) := by
  have h := end1 hW V₀ (after (HandRun.refOps (F := Ideal)) V₀) [] (fun _ _ => rfl) 386 _ _ _ _ _ rfl (nk (by decide)) (nk (by decide))
  rw [rb_main_call7_cst V₀] at h
  exact h

theorem rb_main_v317 : after (HandRun.refOps (F := Ideal)) V₀ (Proc.devRef .tc main_v317) = val_main_v317 (F := Ideal) (arg1 V₀) (arg4 V₀) (arg10 V₀) (arg11 V₀) (arg12 V₀) (arg13 V₀) (arg18 V₀) (arg19 V₀) (arg20 V₀) (arg21 V₀) (arg24 V₀) (arg25 V₀) := by
  have h := end2 hW V₀ (after (HandRun.refOps (F := Ideal)) V₀) [] (fun _ _ => rfl) 387 _ _ _ _ _ _ _ rfl (nk (by decide)) (nk (by decide)) (nk (by decide))
  rw [rb_main_v316 V₀, rb_main_call7_v0 V₀] at h
  exact h

theorem rb_main_v318 : after (HandRun.refOps (F := Ideal)) V₀ (Proc.devRef .tc main_v318) = val_main_v318 (F := Ideal) (arg0 V₀) (arg1 V₀) (arg3 V₀) (arg4 V₀) (arg6 V₀) (arg7 V₀) (arg8 V₀) (arg9 V₀) (arg10 V₀) (arg11 V₀) (arg12 V₀) (arg13 V₀) (arg18 V₀) (arg19 V₀) (arg20 V₀) (arg21 V₀) := by
  have h := end2 hW V₀ (after (HandRun.refOps (F := Ideal)) V₀) [] (fun _ _ => rfl) 388 _ _ _ _ _ _ _ rfl (nk (by decide)) (nk (by decide)) (nk (by decide))
  rw [rb_main_v183 V₀, rb_main_v229 V₀] at h
  exact h

/-! ## The four results and the arguments, over a launch memory

With the launch contents of a device's buffers taken from a memory `m`, the end contents of each result buffer are the
reference's value function of the arguments' launch contents, and every argument buffer ends as it started. -/

theorem E_main_v275 (m : (ℓ : Loc nD τ sig) → Buf (Elt Ideal) ℓ) (c : Dev nD) :
    after (HandRun.refOps (F := Ideal)) (launchContents m c) (Proc.devRef .tc main_v275)
      = val_main_v275 (F := Ideal) (m ((c.tc : Thread nD τ).loc main_arg2)) (m ((c.tc : Thread nD τ).loc main_arg5)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  rb_main_v275 (launchContents m c)

theorem E_main_v318 (m : (ℓ : Loc nD τ sig) → Buf (Elt Ideal) ℓ) (c : Dev nD) :
    after (HandRun.refOps (F := Ideal)) (launchContents m c) (Proc.devRef .tc main_v318)
      = val_main_v318 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg21)) :=
  rb_main_v318 (launchContents m c)

theorem E_main_v296 (m : (ℓ : Loc nD τ sig) → Buf (Elt Ideal) ℓ) (c : Dev nD) :
    after (HandRun.refOps (F := Ideal)) (launchContents m c) (Proc.devRef .tc main_v296)
      = val_main_v296 (F := Ideal) (m ((c.tc : Thread nD τ).loc main_arg0)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  rb_main_v296 (launchContents m c)

theorem E_main_v317 (m : (ℓ : Loc nD τ sig) → Buf (Elt Ideal) ℓ) (c : Dev nD) :
    after (HandRun.refOps (F := Ideal)) (launchContents m c) (Proc.devRef .tc main_v317)
      = val_main_v317 (F := Ideal) (m ((c.tc : Thread nD τ).loc main_arg1)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg24)) (m ((c.tc : Thread nD τ).loc main_arg25)) :=
  rb_main_v317 (launchContents m c)

theorem E_main_arg0 (m : (ℓ : Loc nD τ sig) → Buf (Elt Ideal) ℓ) (c : Dev nD) :
    after (HandRun.refOps (F := Ideal)) (launchContents m c) (Proc.devRef .tc main_arg0) = m ((c.tc : Thread nD τ).loc main_arg0) :=
  rb_arg0 (launchContents m c)

theorem E_main_arg1 (m : (ℓ : Loc nD τ sig) → Buf (Elt Ideal) ℓ) (c : Dev nD) :
    after (HandRun.refOps (F := Ideal)) (launchContents m c) (Proc.devRef .tc main_arg1) = m ((c.tc : Thread nD τ).loc main_arg1) :=
  rb_arg1 (launchContents m c)

theorem E_main_arg2 (m : (ℓ : Loc nD τ sig) → Buf (Elt Ideal) ℓ) (c : Dev nD) :
    after (HandRun.refOps (F := Ideal)) (launchContents m c) (Proc.devRef .tc main_arg2) = m ((c.tc : Thread nD τ).loc main_arg2) :=
  rb_arg2 (launchContents m c)

theorem E_main_arg3 (m : (ℓ : Loc nD τ sig) → Buf (Elt Ideal) ℓ) (c : Dev nD) :
    after (HandRun.refOps (F := Ideal)) (launchContents m c) (Proc.devRef .tc main_arg3) = m ((c.tc : Thread nD τ).loc main_arg3) :=
  rb_arg3 (launchContents m c)

theorem E_main_arg4 (m : (ℓ : Loc nD τ sig) → Buf (Elt Ideal) ℓ) (c : Dev nD) :
    after (HandRun.refOps (F := Ideal)) (launchContents m c) (Proc.devRef .tc main_arg4) = m ((c.tc : Thread nD τ).loc main_arg4) :=
  rb_arg4 (launchContents m c)

theorem E_main_arg5 (m : (ℓ : Loc nD τ sig) → Buf (Elt Ideal) ℓ) (c : Dev nD) :
    after (HandRun.refOps (F := Ideal)) (launchContents m c) (Proc.devRef .tc main_arg5) = m ((c.tc : Thread nD τ).loc main_arg5) :=
  rb_arg5 (launchContents m c)

theorem E_main_arg6 (m : (ℓ : Loc nD τ sig) → Buf (Elt Ideal) ℓ) (c : Dev nD) :
    after (HandRun.refOps (F := Ideal)) (launchContents m c) (Proc.devRef .tc main_arg6) = m ((c.tc : Thread nD τ).loc main_arg6) :=
  rb_arg6 (launchContents m c)

theorem E_main_arg7 (m : (ℓ : Loc nD τ sig) → Buf (Elt Ideal) ℓ) (c : Dev nD) :
    after (HandRun.refOps (F := Ideal)) (launchContents m c) (Proc.devRef .tc main_arg7) = m ((c.tc : Thread nD τ).loc main_arg7) :=
  rb_arg7 (launchContents m c)

theorem E_main_arg8 (m : (ℓ : Loc nD τ sig) → Buf (Elt Ideal) ℓ) (c : Dev nD) :
    after (HandRun.refOps (F := Ideal)) (launchContents m c) (Proc.devRef .tc main_arg8) = m ((c.tc : Thread nD τ).loc main_arg8) :=
  rb_arg8 (launchContents m c)

theorem E_main_arg9 (m : (ℓ : Loc nD τ sig) → Buf (Elt Ideal) ℓ) (c : Dev nD) :
    after (HandRun.refOps (F := Ideal)) (launchContents m c) (Proc.devRef .tc main_arg9) = m ((c.tc : Thread nD τ).loc main_arg9) :=
  rb_arg9 (launchContents m c)

theorem E_main_arg10 (m : (ℓ : Loc nD τ sig) → Buf (Elt Ideal) ℓ) (c : Dev nD) :
    after (HandRun.refOps (F := Ideal)) (launchContents m c) (Proc.devRef .tc main_arg10) = m ((c.tc : Thread nD τ).loc main_arg10) :=
  rb_arg10 (launchContents m c)

theorem E_main_arg11 (m : (ℓ : Loc nD τ sig) → Buf (Elt Ideal) ℓ) (c : Dev nD) :
    after (HandRun.refOps (F := Ideal)) (launchContents m c) (Proc.devRef .tc main_arg11) = m ((c.tc : Thread nD τ).loc main_arg11) :=
  rb_arg11 (launchContents m c)

theorem E_main_arg12 (m : (ℓ : Loc nD τ sig) → Buf (Elt Ideal) ℓ) (c : Dev nD) :
    after (HandRun.refOps (F := Ideal)) (launchContents m c) (Proc.devRef .tc main_arg12) = m ((c.tc : Thread nD τ).loc main_arg12) :=
  rb_arg12 (launchContents m c)

theorem E_main_arg13 (m : (ℓ : Loc nD τ sig) → Buf (Elt Ideal) ℓ) (c : Dev nD) :
    after (HandRun.refOps (F := Ideal)) (launchContents m c) (Proc.devRef .tc main_arg13) = m ((c.tc : Thread nD τ).loc main_arg13) :=
  rb_arg13 (launchContents m c)

theorem E_main_arg14 (m : (ℓ : Loc nD τ sig) → Buf (Elt Ideal) ℓ) (c : Dev nD) :
    after (HandRun.refOps (F := Ideal)) (launchContents m c) (Proc.devRef .tc main_arg14) = m ((c.tc : Thread nD τ).loc main_arg14) :=
  rb_arg14 (launchContents m c)

theorem E_main_arg15 (m : (ℓ : Loc nD τ sig) → Buf (Elt Ideal) ℓ) (c : Dev nD) :
    after (HandRun.refOps (F := Ideal)) (launchContents m c) (Proc.devRef .tc main_arg15) = m ((c.tc : Thread nD τ).loc main_arg15) :=
  rb_arg15 (launchContents m c)

theorem E_main_arg16 (m : (ℓ : Loc nD τ sig) → Buf (Elt Ideal) ℓ) (c : Dev nD) :
    after (HandRun.refOps (F := Ideal)) (launchContents m c) (Proc.devRef .tc main_arg16) = m ((c.tc : Thread nD τ).loc main_arg16) :=
  rb_arg16 (launchContents m c)

theorem E_main_arg17 (m : (ℓ : Loc nD τ sig) → Buf (Elt Ideal) ℓ) (c : Dev nD) :
    after (HandRun.refOps (F := Ideal)) (launchContents m c) (Proc.devRef .tc main_arg17) = m ((c.tc : Thread nD τ).loc main_arg17) :=
  rb_arg17 (launchContents m c)

theorem E_main_arg18 (m : (ℓ : Loc nD τ sig) → Buf (Elt Ideal) ℓ) (c : Dev nD) :
    after (HandRun.refOps (F := Ideal)) (launchContents m c) (Proc.devRef .tc main_arg18) = m ((c.tc : Thread nD τ).loc main_arg18) :=
  rb_arg18 (launchContents m c)

theorem E_main_arg19 (m : (ℓ : Loc nD τ sig) → Buf (Elt Ideal) ℓ) (c : Dev nD) :
    after (HandRun.refOps (F := Ideal)) (launchContents m c) (Proc.devRef .tc main_arg19) = m ((c.tc : Thread nD τ).loc main_arg19) :=
  rb_arg19 (launchContents m c)

theorem E_main_arg20 (m : (ℓ : Loc nD τ sig) → Buf (Elt Ideal) ℓ) (c : Dev nD) :
    after (HandRun.refOps (F := Ideal)) (launchContents m c) (Proc.devRef .tc main_arg20) = m ((c.tc : Thread nD τ).loc main_arg20) :=
  rb_arg20 (launchContents m c)

theorem E_main_arg21 (m : (ℓ : Loc nD τ sig) → Buf (Elt Ideal) ℓ) (c : Dev nD) :
    after (HandRun.refOps (F := Ideal)) (launchContents m c) (Proc.devRef .tc main_arg21) = m ((c.tc : Thread nD τ).loc main_arg21) :=
  rb_arg21 (launchContents m c)

theorem E_main_arg22 (m : (ℓ : Loc nD τ sig) → Buf (Elt Ideal) ℓ) (c : Dev nD) :
    after (HandRun.refOps (F := Ideal)) (launchContents m c) (Proc.devRef .tc main_arg22) = m ((c.tc : Thread nD τ).loc main_arg22) :=
  rb_arg22 (launchContents m c)

theorem E_main_arg23 (m : (ℓ : Loc nD τ sig) → Buf (Elt Ideal) ℓ) (c : Dev nD) :
    after (HandRun.refOps (F := Ideal)) (launchContents m c) (Proc.devRef .tc main_arg23) = m ((c.tc : Thread nD τ).loc main_arg23) :=
  rb_arg23 (launchContents m c)

theorem E_main_arg24 (m : (ℓ : Loc nD τ sig) → Buf (Elt Ideal) ℓ) (c : Dev nD) :
    after (HandRun.refOps (F := Ideal)) (launchContents m c) (Proc.devRef .tc main_arg24) = m ((c.tc : Thread nD τ).loc main_arg24) :=
  rb_arg24 (launchContents m c)

theorem E_main_arg25 (m : (ℓ : Loc nD τ sig) → Buf (Elt Ideal) ℓ) (c : Dev nD) :
    after (HandRun.refOps (F := Ideal)) (launchContents m c) (Proc.devRef .tc main_arg25) = m ((c.tc : Thread nD τ).loc main_arg25) :=
  rb_arg25 (launchContents m c)

end Cert.ReferenceIdeal.HandRead

end
-- ==== Proof.RefFinal.lean ====
/-
  The reference program's run with its results read back: every weakly fair execution of @main terminates, each of the
  four results holds the value its operation computes as a function of the arguments' launch contents, and every
  argument is unchanged.
-/
import proofs.«144613_j17471926960174_1_alg».proof.Proof.RefRun
import proofs.«144613_j17471926960174_1_alg».proof.Proof.RefRead

noncomputable section

namespace Cert.ReferenceIdeal.HandRun

open Cert.ReferenceIdeal Cert.ReferenceIdeal.Gen Cert.ReferenceIdeal.ReadP Cert.ReferenceIdeal.HandRead Idealize.ShloMosaic Idealize.ShloMosaic.TcCoe Idealize.SL.Sem Idealize.ShloMosaic.StableHlo

set_option maxRecDepth 8192 in
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v275) = val_main_v275 (F := Ideal) (m' ((c.tc : Thread nD τ).loc main_arg2)) (m' ((c.tc : Thread nD τ).loc main_arg5)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21))
      ∧ r.2.mem ((c.tc : Thread nD τ).loc main_v318) = val_main_v318 (F := Ideal) (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg18)) (m' ((c.tc : Thread nD τ).loc main_arg19)) (m' ((c.tc : Thread nD τ).loc main_arg20)) (m' ((c.tc : Thread nD τ).loc main_arg21))
      ∧ r.2.mem ((c.tc : Thread nD τ).loc main_v296) = val_main_v296 (F := Ideal) (m' ((c.tc : Thread nD τ).loc main_arg0)) (m' ((c.tc : Thread nD τ).loc main_arg3)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23))
      ∧ r.2.mem ((c.tc : Thread nD τ).loc main_v317) = val_main_v317 (F := Ideal) (m' ((c.tc : Thread nD τ).loc main_arg1)) (m' ((c.tc : Thread nD τ).loc main_arg4)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg24)) (m' ((c.tc : Thread nD τ).loc main_arg25))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)) :=
  (θ_run (defs (F := Ideal)) _ _).mono (fun _ h c =>
    ⟨(h c main_v275).trans (E_main_v275 m' c),
      (h c main_v318).trans (E_main_v318 m' c),
      (h c main_v296).trans (E_main_v296 m' c),
      (h c main_v317).trans (E_main_v317 m' c),
      (h c main_arg0).trans (E_main_arg0 m' c),
      (h c main_arg1).trans (E_main_arg1 m' c),
      (h c main_arg2).trans (E_main_arg2 m' c),
      (h c main_arg3).trans (E_main_arg3 m' c),
      (h c main_arg4).trans (E_main_arg4 m' c),
      (h c main_arg5).trans (E_main_arg5 m' c),
      (h c main_arg6).trans (E_main_arg6 m' c),
      (h c main_arg7).trans (E_main_arg7 m' c),
      (h c main_arg8).trans (E_main_arg8 m' c),
      (h c main_arg9).trans (E_main_arg9 m' c),
      (h c main_arg10).trans (E_main_arg10 m' c),
      (h c main_arg11).trans (E_main_arg11 m' c),
      (h c main_arg12).trans (E_main_arg12 m' c),
      (h c main_arg13).trans (E_main_arg13 m' c),
      (h c main_arg14).trans (E_main_arg14 m' c),
      (h c main_arg15).trans (E_main_arg15 m' c),
      (h c main_arg16).trans (E_main_arg16 m' c),
      (h c main_arg17).trans (E_main_arg17 m' c),
      (h c main_arg18).trans (E_main_arg18 m' c),
      (h c main_arg19).trans (E_main_arg19 m' c),
      (h c main_arg20).trans (E_main_arg20 m' c),
      (h c main_arg21).trans (E_main_arg21 m' c),
      (h c main_arg22).trans (E_main_arg22 m' c),
      (h c main_arg23).trans (E_main_arg23 m' c),
      (h c main_arg24).trans (E_main_arg24 m' c),
      (h c main_arg25).trans (E_main_arg25 m' c)⟩)
    (run (F := Ideal) m' ρ')

end Cert.ReferenceIdeal.HandRun

end
-- ==== Proof.Carry.lean ====
/-
  A buffer no item of @main writes between two boundaries of the chain holds the same contents at both: the lemmas
  that carry an argument, or a layer's output, from where it is produced to where a later item reads it.
-/
import proofs.«144613_j17471926960174_1_alg».proof.Proof.RegsCore

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg)

variable {F : FTy → Type} [FloatOps F]

variable (m : (ℓ : Loc nD τ sig) → Buf (Elt F) ℓ)

theorem cy_main_arg0_0_1 (c : Dev nD) : W1 m c main_arg0 = W0 m c main_arg0 := by
  rw [← W_eq1 m c, ← W_eq0 m c]
  exact (V1_of m c main_arg0 (by decide))
theorem cy_main_arg8_0_2 (c : Dev nD) : W2 m XX c main_arg8 = W0 m c main_arg8 := by
  rw [← W_eq2 m XX c, ← W_eq0 m c]
  exact (V2_of m _ c main_arg8 (by decide)).trans ((V1_of m c main_arg8 (by decide)))
theorem cy_main_arg9_0_2 (c : Dev nD) : W2 m XX c main_arg9 = W0 m c main_arg9 := by
  rw [← W_eq2 m XX c, ← W_eq0 m c]
  exact (V2_of m _ c main_arg9 (by decide)).trans ((V1_of m c main_arg9 (by decide)))
theorem cy_main_v16_0_2_3 (c : Dev nD) : W3 m XX c main_v16_0 = W2 m XX c main_v16_0 := by
  rw [← W_eq3 m XX c, ← W_eq2 m XX c]
  exact (V3_of m _ c main_v16_0 (by decide))
theorem cy_main_arg1_0_4 (c : Dev nD) : W4 m XX c main_arg1 = W0 m c main_arg1 := by
  rw [← W_eq4 m XX c, ← W_eq0 m c]
  exact (V4_of m _ c main_arg1 (by decide)).trans ((V3_of m _ c main_arg1 (by decide)).trans ((V2_of m _ c main_arg1 (by decide)).trans ((V1_of m c main_arg1 (by decide)))))
theorem cy_main_arg4_0_4 (c : Dev nD) : W4 m XX c main_arg4 = W0 m c main_arg4 := by
  rw [← W_eq4 m XX c, ← W_eq0 m c]
  exact (V4_of m _ c main_arg4 (by decide)).trans ((V3_of m _ c main_arg4 (by decide)).trans ((V2_of m _ c main_arg4 (by decide)).trans ((V1_of m c main_arg4 (by decide)))))
theorem cy_main_arg10_0_4 (c : Dev nD) : W4 m XX c main_arg10 = W0 m c main_arg10 := by
  rw [← W_eq4 m XX c, ← W_eq0 m c]
  exact (V4_of m _ c main_arg10 (by decide)).trans ((V3_of m _ c main_arg10 (by decide)).trans ((V2_of m _ c main_arg10 (by decide)).trans ((V1_of m c main_arg10 (by decide)))))
theorem cy_main_arg11_0_4 (c : Dev nD) : W4 m XX c main_arg11 = W0 m c main_arg11 := by
  rw [← W_eq4 m XX c, ← W_eq0 m c]
  exact (V4_of m _ c main_arg11 (by decide)).trans ((V3_of m _ c main_arg11 (by decide)).trans ((V2_of m _ c main_arg11 (by decide)).trans ((V1_of m c main_arg11 (by decide)))))
theorem cy_main_arg1_0_5 (c : Dev nD) : W5 m XX c main_arg1 = W0 m c main_arg1 := by
  rw [← W_eq5 m XX c, ← W_eq0 m c]
  exact (V5_of m _ c main_arg1 (by decide)).trans ((V4_of m _ c main_arg1 (by decide)).trans ((V3_of m _ c main_arg1 (by decide)).trans ((V2_of m _ c main_arg1 (by decide)).trans ((V1_of m c main_arg1 (by decide))))))
theorem cy_main_arg12_0_6 (c : Dev nD) : W6 m XX c main_arg12 = W0 m c main_arg12 := by
  rw [← W_eq6 m XX c, ← W_eq0 m c]
  exact (V6_of m _ c main_arg12 (by decide)).trans ((V5_of m _ c main_arg12 (by decide)).trans ((V4_of m _ c main_arg12 (by decide)).trans ((V3_of m _ c main_arg12 (by decide)).trans ((V2_of m _ c main_arg12 (by decide)).trans ((V1_of m c main_arg12 (by decide)))))))
theorem cy_main_arg13_0_6 (c : Dev nD) : W6 m XX c main_arg13 = W0 m c main_arg13 := by
  rw [← W_eq6 m XX c, ← W_eq0 m c]
  exact (V6_of m _ c main_arg13 (by decide)).trans ((V5_of m _ c main_arg13 (by decide)).trans ((V4_of m _ c main_arg13 (by decide)).trans ((V3_of m _ c main_arg13 (by decide)).trans ((V2_of m _ c main_arg13 (by decide)).trans ((V1_of m c main_arg13 (by decide)))))))
theorem cy_main_v42_0_6_7 (c : Dev nD) : W7 m XX c main_v42_0 = W6 m XX c main_v42_0 := by
  rw [← W_eq7 m XX c, ← W_eq6 m XX c]
  exact (V7_of m _ c main_v42_0 (by decide))
theorem cy_main_arg2_0_8 (c : Dev nD) : W8 m XX c main_arg2 = W0 m c main_arg2 := by
  rw [← W_eq8 m XX c, ← W_eq0 m c]
  exact (V8_of m _ c main_arg2 (by decide)).trans ((V7_of m _ c main_arg2 (by decide)).trans ((V6_of m _ c main_arg2 (by decide)).trans ((V5_of m _ c main_arg2 (by decide)).trans ((V4_of m _ c main_arg2 (by decide)).trans ((V3_of m _ c main_arg2 (by decide)).trans ((V2_of m _ c main_arg2 (by decide)).trans ((V1_of m c main_arg2 (by decide)))))))))
theorem cy_main_arg5_0_8 (c : Dev nD) : W8 m XX c main_arg5 = W0 m c main_arg5 := by
  rw [← W_eq8 m XX c, ← W_eq0 m c]
  exact (V8_of m _ c main_arg5 (by decide)).trans ((V7_of m _ c main_arg5 (by decide)).trans ((V6_of m _ c main_arg5 (by decide)).trans ((V5_of m _ c main_arg5 (by decide)).trans ((V4_of m _ c main_arg5 (by decide)).trans ((V3_of m _ c main_arg5 (by decide)).trans ((V2_of m _ c main_arg5 (by decide)).trans ((V1_of m c main_arg5 (by decide)))))))))
theorem cy_main_arg14_0_8 (c : Dev nD) : W8 m XX c main_arg14 = W0 m c main_arg14 := by
  rw [← W_eq8 m XX c, ← W_eq0 m c]
  exact (V8_of m _ c main_arg14 (by decide)).trans ((V7_of m _ c main_arg14 (by decide)).trans ((V6_of m _ c main_arg14 (by decide)).trans ((V5_of m _ c main_arg14 (by decide)).trans ((V4_of m _ c main_arg14 (by decide)).trans ((V3_of m _ c main_arg14 (by decide)).trans ((V2_of m _ c main_arg14 (by decide)).trans ((V1_of m c main_arg14 (by decide)))))))))
theorem cy_main_arg15_0_8 (c : Dev nD) : W8 m XX c main_arg15 = W0 m c main_arg15 := by
  rw [← W_eq8 m XX c, ← W_eq0 m c]
  exact (V8_of m _ c main_arg15 (by decide)).trans ((V7_of m _ c main_arg15 (by decide)).trans ((V6_of m _ c main_arg15 (by decide)).trans ((V5_of m _ c main_arg15 (by decide)).trans ((V4_of m _ c main_arg15 (by decide)).trans ((V3_of m _ c main_arg15 (by decide)).trans ((V2_of m _ c main_arg15 (by decide)).trans ((V1_of m c main_arg15 (by decide)))))))))
theorem cy_main_arg2_0_9 (c : Dev nD) : W9 m XX c main_arg2 = W0 m c main_arg2 := by
  rw [← W_eq9 m XX c, ← W_eq0 m c]
  exact (V9_of m _ c main_arg2 (by decide)).trans ((V8_of m _ c main_arg2 (by decide)).trans ((V7_of m _ c main_arg2 (by decide)).trans ((V6_of m _ c main_arg2 (by decide)).trans ((V5_of m _ c main_arg2 (by decide)).trans ((V4_of m _ c main_arg2 (by decide)).trans ((V3_of m _ c main_arg2 (by decide)).trans ((V2_of m _ c main_arg2 (by decide)).trans ((V1_of m c main_arg2 (by decide))))))))))
theorem cy_main_arg16_0_10 (c : Dev nD) : W10 m XX c main_arg16 = W0 m c main_arg16 := by
  rw [← W_eq10 m XX c, ← W_eq0 m c]
  exact (V10_of m _ c main_arg16 (by decide)).trans ((V9_of m _ c main_arg16 (by decide)).trans ((V8_of m _ c main_arg16 (by decide)).trans ((V7_of m _ c main_arg16 (by decide)).trans ((V6_of m _ c main_arg16 (by decide)).trans ((V5_of m _ c main_arg16 (by decide)).trans ((V4_of m _ c main_arg16 (by decide)).trans ((V3_of m _ c main_arg16 (by decide)).trans ((V2_of m _ c main_arg16 (by decide)).trans ((V1_of m c main_arg16 (by decide)))))))))))
theorem cy_main_arg17_0_10 (c : Dev nD) : W10 m XX c main_arg17 = W0 m c main_arg17 := by
  rw [← W_eq10 m XX c, ← W_eq0 m c]
  exact (V10_of m _ c main_arg17 (by decide)).trans ((V9_of m _ c main_arg17 (by decide)).trans ((V8_of m _ c main_arg17 (by decide)).trans ((V7_of m _ c main_arg17 (by decide)).trans ((V6_of m _ c main_arg17 (by decide)).trans ((V5_of m _ c main_arg17 (by decide)).trans ((V4_of m _ c main_arg17 (by decide)).trans ((V3_of m _ c main_arg17 (by decide)).trans ((V2_of m _ c main_arg17 (by decide)).trans ((V1_of m c main_arg17 (by decide)))))))))))
theorem cy_main_v68_0_10_11 (c : Dev nD) : W11 m XX c main_v68_0 = W10 m XX c main_v68_0 := by
  rw [← W_eq11 m XX c, ← W_eq10 m XX c]
  exact (V11_of m _ c main_v68_0 (by decide))
theorem cy_main_v25_4_12 (c : Dev nD) : W12 m XX c main_v25 = W4 m XX c main_v25 := by
  rw [← W_eq12 m XX c, ← W_eq4 m XX c]
  exact (V12_of m _ c main_v25 (by decide)).trans ((V11_of m _ c main_v25 (by decide)).trans ((V10_of m _ c main_v25 (by decide)).trans ((V9_of m _ c main_v25 (by decide)).trans ((V8_of m _ c main_v25 (by decide)).trans ((V7_of m _ c main_v25 (by decide)).trans ((V6_of m _ c main_v25 (by decide)).trans ((V5_of m _ c main_v25 (by decide)))))))))
theorem cy_main_arg3_0_12 (c : Dev nD) : W12 m XX c main_arg3 = W0 m c main_arg3 := by
  rw [← W_eq12 m XX c, ← W_eq0 m c]
  exact (V12_of m _ c main_arg3 (by decide)).trans ((V11_of m _ c main_arg3 (by decide)).trans ((V10_of m _ c main_arg3 (by decide)).trans ((V9_of m _ c main_arg3 (by decide)).trans ((V8_of m _ c main_arg3 (by decide)).trans ((V7_of m _ c main_arg3 (by decide)).trans ((V6_of m _ c main_arg3 (by decide)).trans ((V5_of m _ c main_arg3 (by decide)).trans ((V4_of m _ c main_arg3 (by decide)).trans ((V3_of m _ c main_arg3 (by decide)).trans ((V2_of m _ c main_arg3 (by decide)).trans ((V1_of m c main_arg3 (by decide)))))))))))))
theorem cy_main_arg18_0_12 (c : Dev nD) : W12 m XX c main_arg18 = W0 m c main_arg18 := by
  rw [← W_eq12 m XX c, ← W_eq0 m c]
  exact (V12_of m _ c main_arg18 (by decide)).trans ((V11_of m _ c main_arg18 (by decide)).trans ((V10_of m _ c main_arg18 (by decide)).trans ((V9_of m _ c main_arg18 (by decide)).trans ((V8_of m _ c main_arg18 (by decide)).trans ((V7_of m _ c main_arg18 (by decide)).trans ((V6_of m _ c main_arg18 (by decide)).trans ((V5_of m _ c main_arg18 (by decide)).trans ((V4_of m _ c main_arg18 (by decide)).trans ((V3_of m _ c main_arg18 (by decide)).trans ((V2_of m _ c main_arg18 (by decide)).trans ((V1_of m c main_arg18 (by decide)))))))))))))
theorem cy_main_arg19_0_12 (c : Dev nD) : W12 m XX c main_arg19 = W0 m c main_arg19 := by
  rw [← W_eq12 m XX c, ← W_eq0 m c]
  exact (V12_of m _ c main_arg19 (by decide)).trans ((V11_of m _ c main_arg19 (by decide)).trans ((V10_of m _ c main_arg19 (by decide)).trans ((V9_of m _ c main_arg19 (by decide)).trans ((V8_of m _ c main_arg19 (by decide)).trans ((V7_of m _ c main_arg19 (by decide)).trans ((V6_of m _ c main_arg19 (by decide)).trans ((V5_of m _ c main_arg19 (by decide)).trans ((V4_of m _ c main_arg19 (by decide)).trans ((V3_of m _ c main_arg19 (by decide)).trans ((V2_of m _ c main_arg19 (by decide)).trans ((V1_of m c main_arg19 (by decide)))))))))))))
theorem cy_main_v25_4_13 (c : Dev nD) : W13 m XX c main_v25 = W4 m XX c main_v25 := by
  rw [← W_eq13 m XX c, ← W_eq4 m XX c]
  exact (V13_of m _ c main_v25 (by decide)).trans ((V12_of m _ c main_v25 (by decide)).trans ((V11_of m _ c main_v25 (by decide)).trans ((V10_of m _ c main_v25 (by decide)).trans ((V9_of m _ c main_v25 (by decide)).trans ((V8_of m _ c main_v25 (by decide)).trans ((V7_of m _ c main_v25 (by decide)).trans ((V6_of m _ c main_v25 (by decide)).trans ((V5_of m _ c main_v25 (by decide))))))))))
theorem cy_main_arg20_0_14 (c : Dev nD) : W14 m XX c main_arg20 = W0 m c main_arg20 := by
  rw [← W_eq14 m XX c, ← W_eq0 m c]
  exact (V14_of m _ c main_arg20 (by decide)).trans ((V13_of m _ c main_arg20 (by decide)).trans ((V12_of m _ c main_arg20 (by decide)).trans ((V11_of m _ c main_arg20 (by decide)).trans ((V10_of m _ c main_arg20 (by decide)).trans ((V9_of m _ c main_arg20 (by decide)).trans ((V8_of m _ c main_arg20 (by decide)).trans ((V7_of m _ c main_arg20 (by decide)).trans ((V6_of m _ c main_arg20 (by decide)).trans ((V5_of m _ c main_arg20 (by decide)).trans ((V4_of m _ c main_arg20 (by decide)).trans ((V3_of m _ c main_arg20 (by decide)).trans ((V2_of m _ c main_arg20 (by decide)).trans ((V1_of m c main_arg20 (by decide)))))))))))))))
theorem cy_main_arg21_0_14 (c : Dev nD) : W14 m XX c main_arg21 = W0 m c main_arg21 := by
  rw [← W_eq14 m XX c, ← W_eq0 m c]
  exact (V14_of m _ c main_arg21 (by decide)).trans ((V13_of m _ c main_arg21 (by decide)).trans ((V12_of m _ c main_arg21 (by decide)).trans ((V11_of m _ c main_arg21 (by decide)).trans ((V10_of m _ c main_arg21 (by decide)).trans ((V9_of m _ c main_arg21 (by decide)).trans ((V8_of m _ c main_arg21 (by decide)).trans ((V7_of m _ c main_arg21 (by decide)).trans ((V6_of m _ c main_arg21 (by decide)).trans ((V5_of m _ c main_arg21 (by decide)).trans ((V4_of m _ c main_arg21 (by decide)).trans ((V3_of m _ c main_arg21 (by decide)).trans ((V2_of m _ c main_arg21 (by decide)).trans ((V1_of m c main_arg21 (by decide)))))))))))))))
theorem cy_main_v94_0_14_15 (c : Dev nD) : W15 m XX c main_v94_0 = W14 m XX c main_v94_0 := by
  rw [← W_eq15 m XX c, ← W_eq14 m XX c]
  exact (V15_of m _ c main_v94_0 (by decide))
theorem cy_main_v51_8_16 (c : Dev nD) : W16 m XX c main_v51 = W8 m XX c main_v51 := by
  rw [← W_eq16 m XX c, ← W_eq8 m XX c]
  exact (V16_of m _ c main_v51 (by decide)).trans ((V15_of m _ c main_v51 (by decide)).trans ((V14_of m _ c main_v51 (by decide)).trans ((V13_of m _ c main_v51 (by decide)).trans ((V12_of m _ c main_v51 (by decide)).trans ((V11_of m _ c main_v51 (by decide)).trans ((V10_of m _ c main_v51 (by decide)).trans ((V9_of m _ c main_v51 (by decide)))))))))
theorem cy_main_arg4_0_16 (c : Dev nD) : W16 m XX c main_arg4 = W0 m c main_arg4 := by
  rw [← W_eq16 m XX c, ← W_eq0 m c]
  exact (V16_of m _ c main_arg4 (by decide)).trans ((V15_of m _ c main_arg4 (by decide)).trans ((V14_of m _ c main_arg4 (by decide)).trans ((V13_of m _ c main_arg4 (by decide)).trans ((V12_of m _ c main_arg4 (by decide)).trans ((V11_of m _ c main_arg4 (by decide)).trans ((V10_of m _ c main_arg4 (by decide)).trans ((V9_of m _ c main_arg4 (by decide)).trans ((V8_of m _ c main_arg4 (by decide)).trans ((V7_of m _ c main_arg4 (by decide)).trans ((V6_of m _ c main_arg4 (by decide)).trans ((V5_of m _ c main_arg4 (by decide)).trans ((V4_of m _ c main_arg4 (by decide)).trans ((V3_of m _ c main_arg4 (by decide)).trans ((V2_of m _ c main_arg4 (by decide)).trans ((V1_of m c main_arg4 (by decide)))))))))))))))))
theorem cy_main_arg18_0_16 (c : Dev nD) : W16 m XX c main_arg18 = W0 m c main_arg18 := by
  rw [← W_eq16 m XX c, ← W_eq0 m c]
  exact (V16_of m _ c main_arg18 (by decide)).trans ((V15_of m _ c main_arg18 (by decide)).trans ((V14_of m _ c main_arg18 (by decide)).trans ((V13_of m _ c main_arg18 (by decide)).trans ((V12_of m _ c main_arg18 (by decide)).trans ((V11_of m _ c main_arg18 (by decide)).trans ((V10_of m _ c main_arg18 (by decide)).trans ((V9_of m _ c main_arg18 (by decide)).trans ((V8_of m _ c main_arg18 (by decide)).trans ((V7_of m _ c main_arg18 (by decide)).trans ((V6_of m _ c main_arg18 (by decide)).trans ((V5_of m _ c main_arg18 (by decide)).trans ((V4_of m _ c main_arg18 (by decide)).trans ((V3_of m _ c main_arg18 (by decide)).trans ((V2_of m _ c main_arg18 (by decide)).trans ((V1_of m c main_arg18 (by decide)))))))))))))))))
theorem cy_main_arg19_0_16 (c : Dev nD) : W16 m XX c main_arg19 = W0 m c main_arg19 := by
  rw [← W_eq16 m XX c, ← W_eq0 m c]
  exact (V16_of m _ c main_arg19 (by decide)).trans ((V15_of m _ c main_arg19 (by decide)).trans ((V14_of m _ c main_arg19 (by decide)).trans ((V13_of m _ c main_arg19 (by decide)).trans ((V12_of m _ c main_arg19 (by decide)).trans ((V11_of m _ c main_arg19 (by decide)).trans ((V10_of m _ c main_arg19 (by decide)).trans ((V9_of m _ c main_arg19 (by decide)).trans ((V8_of m _ c main_arg19 (by decide)).trans ((V7_of m _ c main_arg19 (by decide)).trans ((V6_of m _ c main_arg19 (by decide)).trans ((V5_of m _ c main_arg19 (by decide)).trans ((V4_of m _ c main_arg19 (by decide)).trans ((V3_of m _ c main_arg19 (by decide)).trans ((V2_of m _ c main_arg19 (by decide)).trans ((V1_of m c main_arg19 (by decide)))))))))))))))))
theorem cy_main_v51_8_17 (c : Dev nD) : W17 m XX c main_v51 = W8 m XX c main_v51 := by
  rw [← W_eq17 m XX c, ← W_eq8 m XX c]
  exact (V17_of m _ c main_v51 (by decide)).trans ((V16_of m _ c main_v51 (by decide)).trans ((V15_of m _ c main_v51 (by decide)).trans ((V14_of m _ c main_v51 (by decide)).trans ((V13_of m _ c main_v51 (by decide)).trans ((V12_of m _ c main_v51 (by decide)).trans ((V11_of m _ c main_v51 (by decide)).trans ((V10_of m _ c main_v51 (by decide)).trans ((V9_of m _ c main_v51 (by decide))))))))))
theorem cy_main_arg20_0_18 (c : Dev nD) : W18 m XX c main_arg20 = W0 m c main_arg20 := by
  rw [← W_eq18 m XX c, ← W_eq0 m c]
  exact (V18_of m _ c main_arg20 (by decide)).trans ((V17_of m _ c main_arg20 (by decide)).trans ((V16_of m _ c main_arg20 (by decide)).trans ((V15_of m _ c main_arg20 (by decide)).trans ((V14_of m _ c main_arg20 (by decide)).trans ((V13_of m _ c main_arg20 (by decide)).trans ((V12_of m _ c main_arg20 (by decide)).trans ((V11_of m _ c main_arg20 (by decide)).trans ((V10_of m _ c main_arg20 (by decide)).trans ((V9_of m _ c main_arg20 (by decide)).trans ((V8_of m _ c main_arg20 (by decide)).trans ((V7_of m _ c main_arg20 (by decide)).trans ((V6_of m _ c main_arg20 (by decide)).trans ((V5_of m _ c main_arg20 (by decide)).trans ((V4_of m _ c main_arg20 (by decide)).trans ((V3_of m _ c main_arg20 (by decide)).trans ((V2_of m _ c main_arg20 (by decide)).trans ((V1_of m c main_arg20 (by decide)))))))))))))))))))
theorem cy_main_arg21_0_18 (c : Dev nD) : W18 m XX c main_arg21 = W0 m c main_arg21 := by
  rw [← W_eq18 m XX c, ← W_eq0 m c]
  exact (V18_of m _ c main_arg21 (by decide)).trans ((V17_of m _ c main_arg21 (by decide)).trans ((V16_of m _ c main_arg21 (by decide)).trans ((V15_of m _ c main_arg21 (by decide)).trans ((V14_of m _ c main_arg21 (by decide)).trans ((V13_of m _ c main_arg21 (by decide)).trans ((V12_of m _ c main_arg21 (by decide)).trans ((V11_of m _ c main_arg21 (by decide)).trans ((V10_of m _ c main_arg21 (by decide)).trans ((V9_of m _ c main_arg21 (by decide)).trans ((V8_of m _ c main_arg21 (by decide)).trans ((V7_of m _ c main_arg21 (by decide)).trans ((V6_of m _ c main_arg21 (by decide)).trans ((V5_of m _ c main_arg21 (by decide)).trans ((V4_of m _ c main_arg21 (by decide)).trans ((V3_of m _ c main_arg21 (by decide)).trans ((V2_of m _ c main_arg21 (by decide)).trans ((V1_of m c main_arg21 (by decide)))))))))))))))))))
theorem cy_main_v120_0_18_19 (c : Dev nD) : W19 m XX c main_v120_0 = W18 m XX c main_v120_0 := by
  rw [← W_eq19 m XX c, ← W_eq18 m XX c]
  exact (V19_of m _ c main_v120_0 (by decide))
theorem cy_main_v77_12_20 (c : Dev nD) : W20 m XX c main_v77 = W12 m XX c main_v77 := by
  rw [← W_eq20 m XX c, ← W_eq12 m XX c]
  exact (V20_of m _ c main_v77 (by decide)).trans ((V19_of m _ c main_v77 (by decide)).trans ((V18_of m _ c main_v77 (by decide)).trans ((V17_of m _ c main_v77 (by decide)).trans ((V16_of m _ c main_v77 (by decide)).trans ((V15_of m _ c main_v77 (by decide)).trans ((V14_of m _ c main_v77 (by decide)).trans ((V13_of m _ c main_v77 (by decide)))))))))
theorem cy_main_arg5_0_20 (c : Dev nD) : W20 m XX c main_arg5 = W0 m c main_arg5 := by
  rw [← W_eq20 m XX c, ← W_eq0 m c]
  exact (V20_of m _ c main_arg5 (by decide)).trans ((V19_of m _ c main_arg5 (by decide)).trans ((V18_of m _ c main_arg5 (by decide)).trans ((V17_of m _ c main_arg5 (by decide)).trans ((V16_of m _ c main_arg5 (by decide)).trans ((V15_of m _ c main_arg5 (by decide)).trans ((V14_of m _ c main_arg5 (by decide)).trans ((V13_of m _ c main_arg5 (by decide)).trans ((V12_of m _ c main_arg5 (by decide)).trans ((V11_of m _ c main_arg5 (by decide)).trans ((V10_of m _ c main_arg5 (by decide)).trans ((V9_of m _ c main_arg5 (by decide)).trans ((V8_of m _ c main_arg5 (by decide)).trans ((V7_of m _ c main_arg5 (by decide)).trans ((V6_of m _ c main_arg5 (by decide)).trans ((V5_of m _ c main_arg5 (by decide)).trans ((V4_of m _ c main_arg5 (by decide)).trans ((V3_of m _ c main_arg5 (by decide)).trans ((V2_of m _ c main_arg5 (by decide)).trans ((V1_of m c main_arg5 (by decide)))))))))))))))))))))
theorem cy_main_arg18_0_20 (c : Dev nD) : W20 m XX c main_arg18 = W0 m c main_arg18 := by
  rw [← W_eq20 m XX c, ← W_eq0 m c]
  exact (V20_of m _ c main_arg18 (by decide)).trans ((V19_of m _ c main_arg18 (by decide)).trans ((V18_of m _ c main_arg18 (by decide)).trans ((V17_of m _ c main_arg18 (by decide)).trans ((V16_of m _ c main_arg18 (by decide)).trans ((V15_of m _ c main_arg18 (by decide)).trans ((V14_of m _ c main_arg18 (by decide)).trans ((V13_of m _ c main_arg18 (by decide)).trans ((V12_of m _ c main_arg18 (by decide)).trans ((V11_of m _ c main_arg18 (by decide)).trans ((V10_of m _ c main_arg18 (by decide)).trans ((V9_of m _ c main_arg18 (by decide)).trans ((V8_of m _ c main_arg18 (by decide)).trans ((V7_of m _ c main_arg18 (by decide)).trans ((V6_of m _ c main_arg18 (by decide)).trans ((V5_of m _ c main_arg18 (by decide)).trans ((V4_of m _ c main_arg18 (by decide)).trans ((V3_of m _ c main_arg18 (by decide)).trans ((V2_of m _ c main_arg18 (by decide)).trans ((V1_of m c main_arg18 (by decide)))))))))))))))))))))
theorem cy_main_arg19_0_20 (c : Dev nD) : W20 m XX c main_arg19 = W0 m c main_arg19 := by
  rw [← W_eq20 m XX c, ← W_eq0 m c]
  exact (V20_of m _ c main_arg19 (by decide)).trans ((V19_of m _ c main_arg19 (by decide)).trans ((V18_of m _ c main_arg19 (by decide)).trans ((V17_of m _ c main_arg19 (by decide)).trans ((V16_of m _ c main_arg19 (by decide)).trans ((V15_of m _ c main_arg19 (by decide)).trans ((V14_of m _ c main_arg19 (by decide)).trans ((V13_of m _ c main_arg19 (by decide)).trans ((V12_of m _ c main_arg19 (by decide)).trans ((V11_of m _ c main_arg19 (by decide)).trans ((V10_of m _ c main_arg19 (by decide)).trans ((V9_of m _ c main_arg19 (by decide)).trans ((V8_of m _ c main_arg19 (by decide)).trans ((V7_of m _ c main_arg19 (by decide)).trans ((V6_of m _ c main_arg19 (by decide)).trans ((V5_of m _ c main_arg19 (by decide)).trans ((V4_of m _ c main_arg19 (by decide)).trans ((V3_of m _ c main_arg19 (by decide)).trans ((V2_of m _ c main_arg19 (by decide)).trans ((V1_of m c main_arg19 (by decide)))))))))))))))))))))
theorem cy_main_v77_12_21 (c : Dev nD) : W21 m XX c main_v77 = W12 m XX c main_v77 := by
  rw [← W_eq21 m XX c, ← W_eq12 m XX c]
  exact (V21_of m _ c main_v77 (by decide)).trans ((V20_of m _ c main_v77 (by decide)).trans ((V19_of m _ c main_v77 (by decide)).trans ((V18_of m _ c main_v77 (by decide)).trans ((V17_of m _ c main_v77 (by decide)).trans ((V16_of m _ c main_v77 (by decide)).trans ((V15_of m _ c main_v77 (by decide)).trans ((V14_of m _ c main_v77 (by decide)).trans ((V13_of m _ c main_v77 (by decide))))))))))
theorem cy_main_arg20_0_22 (c : Dev nD) : W22 m XX c main_arg20 = W0 m c main_arg20 := by
  rw [← W_eq22 m XX c, ← W_eq0 m c]
  exact (V22_of m _ c main_arg20 (by decide)).trans ((V21_of m _ c main_arg20 (by decide)).trans ((V20_of m _ c main_arg20 (by decide)).trans ((V19_of m _ c main_arg20 (by decide)).trans ((V18_of m _ c main_arg20 (by decide)).trans ((V17_of m _ c main_arg20 (by decide)).trans ((V16_of m _ c main_arg20 (by decide)).trans ((V15_of m _ c main_arg20 (by decide)).trans ((V14_of m _ c main_arg20 (by decide)).trans ((V13_of m _ c main_arg20 (by decide)).trans ((V12_of m _ c main_arg20 (by decide)).trans ((V11_of m _ c main_arg20 (by decide)).trans ((V10_of m _ c main_arg20 (by decide)).trans ((V9_of m _ c main_arg20 (by decide)).trans ((V8_of m _ c main_arg20 (by decide)).trans ((V7_of m _ c main_arg20 (by decide)).trans ((V6_of m _ c main_arg20 (by decide)).trans ((V5_of m _ c main_arg20 (by decide)).trans ((V4_of m _ c main_arg20 (by decide)).trans ((V3_of m _ c main_arg20 (by decide)).trans ((V2_of m _ c main_arg20 (by decide)).trans ((V1_of m c main_arg20 (by decide)))))))))))))))))))))))
theorem cy_main_arg21_0_22 (c : Dev nD) : W22 m XX c main_arg21 = W0 m c main_arg21 := by
  rw [← W_eq22 m XX c, ← W_eq0 m c]
  exact (V22_of m _ c main_arg21 (by decide)).trans ((V21_of m _ c main_arg21 (by decide)).trans ((V20_of m _ c main_arg21 (by decide)).trans ((V19_of m _ c main_arg21 (by decide)).trans ((V18_of m _ c main_arg21 (by decide)).trans ((V17_of m _ c main_arg21 (by decide)).trans ((V16_of m _ c main_arg21 (by decide)).trans ((V15_of m _ c main_arg21 (by decide)).trans ((V14_of m _ c main_arg21 (by decide)).trans ((V13_of m _ c main_arg21 (by decide)).trans ((V12_of m _ c main_arg21 (by decide)).trans ((V11_of m _ c main_arg21 (by decide)).trans ((V10_of m _ c main_arg21 (by decide)).trans ((V9_of m _ c main_arg21 (by decide)).trans ((V8_of m _ c main_arg21 (by decide)).trans ((V7_of m _ c main_arg21 (by decide)).trans ((V6_of m _ c main_arg21 (by decide)).trans ((V5_of m _ c main_arg21 (by decide)).trans ((V4_of m _ c main_arg21 (by decide)).trans ((V3_of m _ c main_arg21 (by decide)).trans ((V2_of m _ c main_arg21 (by decide)).trans ((V1_of m c main_arg21 (by decide)))))))))))))))))))))))
theorem cy_main_v146_0_22_23 (c : Dev nD) : W23 m XX c main_v146_0 = W22 m XX c main_v146_0 := by
  rw [← W_eq23 m XX c, ← W_eq22 m XX c]
  exact (V23_of m _ c main_v146_0 (by decide))
theorem cy_main_v103_16_24 (c : Dev nD) : W24 m XX c main_v103 = W16 m XX c main_v103 := by
  rw [← W_eq24 m XX c, ← W_eq16 m XX c]
  exact (V24_of m _ c main_v103 (by decide)).trans ((V23_of m _ c main_v103 (by decide)).trans ((V22_of m _ c main_v103 (by decide)).trans ((V21_of m _ c main_v103 (by decide)).trans ((V20_of m _ c main_v103 (by decide)).trans ((V19_of m _ c main_v103 (by decide)).trans ((V18_of m _ c main_v103 (by decide)).trans ((V17_of m _ c main_v103 (by decide)))))))))
theorem cy_main_arg3_0_24 (c : Dev nD) : W24 m XX c main_arg3 = W0 m c main_arg3 := by
  rw [← W_eq24 m XX c, ← W_eq0 m c]
  exact (V24_of m _ c main_arg3 (by decide)).trans ((V23_of m _ c main_arg3 (by decide)).trans ((V22_of m _ c main_arg3 (by decide)).trans ((V21_of m _ c main_arg3 (by decide)).trans ((V20_of m _ c main_arg3 (by decide)).trans ((V19_of m _ c main_arg3 (by decide)).trans ((V18_of m _ c main_arg3 (by decide)).trans ((V17_of m _ c main_arg3 (by decide)).trans ((V16_of m _ c main_arg3 (by decide)).trans ((V15_of m _ c main_arg3 (by decide)).trans ((V14_of m _ c main_arg3 (by decide)).trans ((V13_of m _ c main_arg3 (by decide)).trans ((V12_of m _ c main_arg3 (by decide)).trans ((V11_of m _ c main_arg3 (by decide)).trans ((V10_of m _ c main_arg3 (by decide)).trans ((V9_of m _ c main_arg3 (by decide)).trans ((V8_of m _ c main_arg3 (by decide)).trans ((V7_of m _ c main_arg3 (by decide)).trans ((V6_of m _ c main_arg3 (by decide)).trans ((V5_of m _ c main_arg3 (by decide)).trans ((V4_of m _ c main_arg3 (by decide)).trans ((V3_of m _ c main_arg3 (by decide)).trans ((V2_of m _ c main_arg3 (by decide)).trans ((V1_of m c main_arg3 (by decide)))))))))))))))))))))))))
theorem cy_main_arg22_0_24 (c : Dev nD) : W24 m XX c main_arg22 = W0 m c main_arg22 := by
  rw [← W_eq24 m XX c, ← W_eq0 m c]
  exact (V24_of m _ c main_arg22 (by decide)).trans ((V23_of m _ c main_arg22 (by decide)).trans ((V22_of m _ c main_arg22 (by decide)).trans ((V21_of m _ c main_arg22 (by decide)).trans ((V20_of m _ c main_arg22 (by decide)).trans ((V19_of m _ c main_arg22 (by decide)).trans ((V18_of m _ c main_arg22 (by decide)).trans ((V17_of m _ c main_arg22 (by decide)).trans ((V16_of m _ c main_arg22 (by decide)).trans ((V15_of m _ c main_arg22 (by decide)).trans ((V14_of m _ c main_arg22 (by decide)).trans ((V13_of m _ c main_arg22 (by decide)).trans ((V12_of m _ c main_arg22 (by decide)).trans ((V11_of m _ c main_arg22 (by decide)).trans ((V10_of m _ c main_arg22 (by decide)).trans ((V9_of m _ c main_arg22 (by decide)).trans ((V8_of m _ c main_arg22 (by decide)).trans ((V7_of m _ c main_arg22 (by decide)).trans ((V6_of m _ c main_arg22 (by decide)).trans ((V5_of m _ c main_arg22 (by decide)).trans ((V4_of m _ c main_arg22 (by decide)).trans ((V3_of m _ c main_arg22 (by decide)).trans ((V2_of m _ c main_arg22 (by decide)).trans ((V1_of m c main_arg22 (by decide)))))))))))))))))))))))))
theorem cy_main_arg23_0_24 (c : Dev nD) : W24 m XX c main_arg23 = W0 m c main_arg23 := by
  rw [← W_eq24 m XX c, ← W_eq0 m c]
  exact (V24_of m _ c main_arg23 (by decide)).trans ((V23_of m _ c main_arg23 (by decide)).trans ((V22_of m _ c main_arg23 (by decide)).trans ((V21_of m _ c main_arg23 (by decide)).trans ((V20_of m _ c main_arg23 (by decide)).trans ((V19_of m _ c main_arg23 (by decide)).trans ((V18_of m _ c main_arg23 (by decide)).trans ((V17_of m _ c main_arg23 (by decide)).trans ((V16_of m _ c main_arg23 (by decide)).trans ((V15_of m _ c main_arg23 (by decide)).trans ((V14_of m _ c main_arg23 (by decide)).trans ((V13_of m _ c main_arg23 (by decide)).trans ((V12_of m _ c main_arg23 (by decide)).trans ((V11_of m _ c main_arg23 (by decide)).trans ((V10_of m _ c main_arg23 (by decide)).trans ((V9_of m _ c main_arg23 (by decide)).trans ((V8_of m _ c main_arg23 (by decide)).trans ((V7_of m _ c main_arg23 (by decide)).trans ((V6_of m _ c main_arg23 (by decide)).trans ((V5_of m _ c main_arg23 (by decide)).trans ((V4_of m _ c main_arg23 (by decide)).trans ((V3_of m _ c main_arg23 (by decide)).trans ((V2_of m _ c main_arg23 (by decide)).trans ((V1_of m c main_arg23 (by decide)))))))))))))))))))))))))
theorem cy_main_v103_16_25 (c : Dev nD) : W25 m XX c main_v103 = W16 m XX c main_v103 := by
  rw [← W_eq25 m XX c, ← W_eq16 m XX c]
  exact (V25_of m _ c main_v103 (by decide)).trans ((V24_of m _ c main_v103 (by decide)).trans ((V23_of m _ c main_v103 (by decide)).trans ((V22_of m _ c main_v103 (by decide)).trans ((V21_of m _ c main_v103 (by decide)).trans ((V20_of m _ c main_v103 (by decide)).trans ((V19_of m _ c main_v103 (by decide)).trans ((V18_of m _ c main_v103 (by decide)).trans ((V17_of m _ c main_v103 (by decide))))))))))
theorem cy_main_v129_20_26 (c : Dev nD) : W26 m XX c main_v129 = W20 m XX c main_v129 := by
  rw [← W_eq26 m XX c, ← W_eq20 m XX c]
  exact (V26_of m _ c main_v129 (by decide)).trans ((V25_of m _ c main_v129 (by decide)).trans ((V24_of m _ c main_v129 (by decide)).trans ((V23_of m _ c main_v129 (by decide)).trans ((V22_of m _ c main_v129 (by decide)).trans ((V21_of m _ c main_v129 (by decide)))))))
theorem cy_main_arg4_0_26 (c : Dev nD) : W26 m XX c main_arg4 = W0 m c main_arg4 := by
  rw [← W_eq26 m XX c, ← W_eq0 m c]
  exact (V26_of m _ c main_arg4 (by decide)).trans ((V25_of m _ c main_arg4 (by decide)).trans ((V24_of m _ c main_arg4 (by decide)).trans ((V23_of m _ c main_arg4 (by decide)).trans ((V22_of m _ c main_arg4 (by decide)).trans ((V21_of m _ c main_arg4 (by decide)).trans ((V20_of m _ c main_arg4 (by decide)).trans ((V19_of m _ c main_arg4 (by decide)).trans ((V18_of m _ c main_arg4 (by decide)).trans ((V17_of m _ c main_arg4 (by decide)).trans ((V16_of m _ c main_arg4 (by decide)).trans ((V15_of m _ c main_arg4 (by decide)).trans ((V14_of m _ c main_arg4 (by decide)).trans ((V13_of m _ c main_arg4 (by decide)).trans ((V12_of m _ c main_arg4 (by decide)).trans ((V11_of m _ c main_arg4 (by decide)).trans ((V10_of m _ c main_arg4 (by decide)).trans ((V9_of m _ c main_arg4 (by decide)).trans ((V8_of m _ c main_arg4 (by decide)).trans ((V7_of m _ c main_arg4 (by decide)).trans ((V6_of m _ c main_arg4 (by decide)).trans ((V5_of m _ c main_arg4 (by decide)).trans ((V4_of m _ c main_arg4 (by decide)).trans ((V3_of m _ c main_arg4 (by decide)).trans ((V2_of m _ c main_arg4 (by decide)).trans ((V1_of m c main_arg4 (by decide)))))))))))))))))))))))))))
theorem cy_main_arg24_0_26 (c : Dev nD) : W26 m XX c main_arg24 = W0 m c main_arg24 := by
  rw [← W_eq26 m XX c, ← W_eq0 m c]
  exact (V26_of m _ c main_arg24 (by decide)).trans ((V25_of m _ c main_arg24 (by decide)).trans ((V24_of m _ c main_arg24 (by decide)).trans ((V23_of m _ c main_arg24 (by decide)).trans ((V22_of m _ c main_arg24 (by decide)).trans ((V21_of m _ c main_arg24 (by decide)).trans ((V20_of m _ c main_arg24 (by decide)).trans ((V19_of m _ c main_arg24 (by decide)).trans ((V18_of m _ c main_arg24 (by decide)).trans ((V17_of m _ c main_arg24 (by decide)).trans ((V16_of m _ c main_arg24 (by decide)).trans ((V15_of m _ c main_arg24 (by decide)).trans ((V14_of m _ c main_arg24 (by decide)).trans ((V13_of m _ c main_arg24 (by decide)).trans ((V12_of m _ c main_arg24 (by decide)).trans ((V11_of m _ c main_arg24 (by decide)).trans ((V10_of m _ c main_arg24 (by decide)).trans ((V9_of m _ c main_arg24 (by decide)).trans ((V8_of m _ c main_arg24 (by decide)).trans ((V7_of m _ c main_arg24 (by decide)).trans ((V6_of m _ c main_arg24 (by decide)).trans ((V5_of m _ c main_arg24 (by decide)).trans ((V4_of m _ c main_arg24 (by decide)).trans ((V3_of m _ c main_arg24 (by decide)).trans ((V2_of m _ c main_arg24 (by decide)).trans ((V1_of m c main_arg24 (by decide)))))))))))))))))))))))))))
theorem cy_main_arg25_0_26 (c : Dev nD) : W26 m XX c main_arg25 = W0 m c main_arg25 := by
  rw [← W_eq26 m XX c, ← W_eq0 m c]
  exact (V26_of m _ c main_arg25 (by decide)).trans ((V25_of m _ c main_arg25 (by decide)).trans ((V24_of m _ c main_arg25 (by decide)).trans ((V23_of m _ c main_arg25 (by decide)).trans ((V22_of m _ c main_arg25 (by decide)).trans ((V21_of m _ c main_arg25 (by decide)).trans ((V20_of m _ c main_arg25 (by decide)).trans ((V19_of m _ c main_arg25 (by decide)).trans ((V18_of m _ c main_arg25 (by decide)).trans ((V17_of m _ c main_arg25 (by decide)).trans ((V16_of m _ c main_arg25 (by decide)).trans ((V15_of m _ c main_arg25 (by decide)).trans ((V14_of m _ c main_arg25 (by decide)).trans ((V13_of m _ c main_arg25 (by decide)).trans ((V12_of m _ c main_arg25 (by decide)).trans ((V11_of m _ c main_arg25 (by decide)).trans ((V10_of m _ c main_arg25 (by decide)).trans ((V9_of m _ c main_arg25 (by decide)).trans ((V8_of m _ c main_arg25 (by decide)).trans ((V7_of m _ c main_arg25 (by decide)).trans ((V6_of m _ c main_arg25 (by decide)).trans ((V5_of m _ c main_arg25 (by decide)).trans ((V4_of m _ c main_arg25 (by decide)).trans ((V3_of m _ c main_arg25 (by decide)).trans ((V2_of m _ c main_arg25 (by decide)).trans ((V1_of m c main_arg25 (by decide)))))))))))))))))))))))))))
theorem cy_main_v129_20_27 (c : Dev nD) : W27 m XX c main_v129 = W20 m XX c main_v129 := by
  rw [← W_eq27 m XX c, ← W_eq20 m XX c]
  exact (V27_of m _ c main_v129 (by decide)).trans ((V26_of m _ c main_v129 (by decide)).trans ((V25_of m _ c main_v129 (by decide)).trans ((V24_of m _ c main_v129 (by decide)).trans ((V23_of m _ c main_v129 (by decide)).trans ((V22_of m _ c main_v129 (by decide)).trans ((V21_of m _ c main_v129 (by decide))))))))
theorem cy_main_v103_16_28 (c : Dev nD) : W28 m XX c main_v103 = W16 m XX c main_v103 := by
  rw [← W_eq28 m XX c, ← W_eq16 m XX c]
  exact (V28_of m _ c main_v103 (by decide)).trans ((V27_of m _ c main_v103 (by decide)).trans ((V26_of m _ c main_v103 (by decide)).trans ((V25_of m _ c main_v103 (by decide)).trans ((V24_of m _ c main_v103 (by decide)).trans ((V23_of m _ c main_v103 (by decide)).trans ((V22_of m _ c main_v103 (by decide)).trans ((V21_of m _ c main_v103 (by decide)).trans ((V20_of m _ c main_v103 (by decide)).trans ((V19_of m _ c main_v103 (by decide)).trans ((V18_of m _ c main_v103 (by decide)).trans ((V17_of m _ c main_v103 (by decide)))))))))))))
theorem cy_main_v129_20_28 (c : Dev nD) : W28 m XX c main_v129 = W20 m XX c main_v129 := by
  rw [← W_eq28 m XX c, ← W_eq20 m XX c]
  exact (V28_of m _ c main_v129 (by decide)).trans ((V27_of m _ c main_v129 (by decide)).trans ((V26_of m _ c main_v129 (by decide)).trans ((V25_of m _ c main_v129 (by decide)).trans ((V24_of m _ c main_v129 (by decide)).trans ((V23_of m _ c main_v129 (by decide)).trans ((V22_of m _ c main_v129 (by decide)).trans ((V21_of m _ c main_v129 (by decide)))))))))
theorem cy_main_v155_24_29 (c : Dev nD) : W29 m XX c main_v155 = W24 m XX c main_v155 := by
  rw [← W_eq29 m XX c, ← W_eq24 m XX c]
  exact (V29_of m _ c main_v155 (by decide)).trans ((V28_of m _ c main_v155 (by decide)).trans ((V27_of m _ c main_v155 (by decide)).trans ((V26_of m _ c main_v155 (by decide)).trans ((V25_of m _ c main_v155 (by decide))))))
theorem cy_main_v172_26_29 (c : Dev nD) : W29 m XX c main_v172 = W26 m XX c main_v172 := by
  rw [← W_eq29 m XX c, ← W_eq26 m XX c]
  exact (V29_of m _ c main_v172 (by decide)).trans ((V28_of m _ c main_v172 (by decide)).trans ((V27_of m _ c main_v172 (by decide))))
theorem cy_main_v189_28_29 (c : Dev nD) : W29 m XX c main_v189 = W28 m XX c main_v189 := by
  rw [← W_eq29 m XX c, ← W_eq28 m XX c]
  exact (V29_of m _ c main_v189 (by decide))

end Cert.KernelIdeal.Hand

end
-- ==== Proof.LibDotSingle.lean ====
/-
  A matrix product with ONE contracted axis, accumulated into the zero splat and read at the ideal values, as a sum over
  the contracted axis's coordinates `k : Fin n`: the product's own contraction index is a one-coordinate multi-index, and the
  sum is re-indexed through the bijection between such multi-indices and `Fin n`. The caller names what each operand reads
  at contraction coordinate `k` (`L k`, `R k`); at literal dimension numbers the operand indices' coordinates are
  `rfl` on a kept axis and `DotDims.lhsIdx_val_of_single` / `rhsIdx_val_of_single` with `contrEquiv1_symm_val` on the contracted one.
-/
import Idealize.ShloMosaic.PureOps.Ideal
import Idealize.ShloMosaic.PureOps.Ideal.Laws
import Idealize.ShloMosaic.Lib.ValueIdx

noncomputable section

open scoped BigOperators

namespace Cert.LibDotSingle

open Idealize.ShloMosaic Idealize.ShloMosaic.ValueIdx

/-- The product at result index `j` is `∑ k : Fin n, L k * R k` once each operand, at the operand index of `j` and of the
    contraction multi-index with coordinate `k`, is known to read `L k`, respectively `R k`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (L R : Fin n → EReal)
    (hl : ∀ k : Fin n, lhs (d.lhsIdx j ((contrEquiv1 d n hr hs).symm k)) = L k)
    (hR : ∀ k : Fin n, rhs (d.rhsIdx j ((contrEquiv1 d n hr hs).symm k)) = R k) :
    FloatOps.matmul d prec lhs rhs (constant so .f32 0x00000000#32) j = ∑ k : Fin n, L k * R k := by
  rw [Ideal.matmul_constant_zero_apply, ← Equiv.sum_comp (contrEquiv1 d n hr hs).symm]
  exact Finset.sum_congr rfl fun k _ => by rw [hl k, hR k]

end Cert.LibDotSingle

end
-- ==== Proof.PayStats.lean ====
/-
  What the linear-and-statistics kernel bodies compute at the ideal values, index by index.

  A body forms h = (x + agg) · W + b for its tile of rows (the matrix product accumulated into the zero splat, the bias
  row broadcast over the rows), and adds the tile's column sums of h and of h · h to two running rows. Read at the
  extended reals every format change is the identity, so at row r and column j

    h (r, j) = (∑ k, (x (r, k) + agg (r, k)) · W (k, j)) + b (0, j),

  and the two rows become  s (0, j) + ∑ r, h (r, j)  and  q (0, j) + ∑ r, h (r, j) · h (r, j).
-/
import proofs.«144613_j17471926960174_1_alg».proof.Proof.Gen.KernelIdeal.Skeleton
import proofs.«144613_j17471926960174_1_alg».proof.Proof.LibDotSingle
import Idealize.ShloMosaic.PureOps.Ideal.Laws
import Idealize.ShloMosaic.Lib.ValueIdx
import Idealize.ShloMosaic.Lib.ValueLayout

noncomputable section

open scoped BigOperators

namespace Cert.KernelIdeal.PayVal

open Cert.KernelIdeal Cert.KernelIdeal.Gen Idealize.ShloMosaic Idealize.ShloMosaic.ValueIdx

/-! ## Region 0: 256 input columns, 128 output columns -/

/-- Coordinates of the product's operand indices: a kept axis reads the result index, the contracted axis the
    contraction index. -/
theorem k0_lhs0 (i : (⟨2, ![5000, 128]⟩ : Shape).Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem k0_rhs1 (i : (⟨2, ![5000, 128]⟩ : Shape).Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The left operand's index of the product at (r, j) and contraction coordinate k is (r, k). -/
theorem k0_lhsIdx (r : Fin 5000) (j : Fin 128) (k : Fin 256) :
    dot_S5000x256_S256x128_S5000x128_1_0_0_1_n_n.lhsIdx (ix2 r j) ((contrEquiv1 dot_S5000x256_S256x128_S5000x128_1_0_0_1_n_n 256 rfl rfl).symm k) = ix2 r k := by
  have hk := contrEquiv1_symm_val dot_S5000x256_S256x128_S5000x128_1_0_0_1_n_n 256 rfl rfl k
  refine funext fun a => Fin.ext ?_
  match a with
  | ⟨0, _⟩ => exact k0_lhs0 _ _
  | ⟨1, _⟩ => exact (dot_S5000x256_S256x128_S5000x128_1_0_0_1_n_n.lhsIdx_val_of_single rfl _ _).trans hk

/-- The right operand's index there is (k, j). -/
theorem k0_rhsIdx (r : Fin 5000) (j : Fin 128) (k : Fin 256) :
    dot_S5000x256_S256x128_S5000x128_1_0_0_1_n_n.rhsIdx (ix2 r j) ((contrEquiv1 dot_S5000x256_S256x128_S5000x128_1_0_0_1_n_n 256 rfl rfl).symm k) = ix2 k j := by
  have hk := contrEquiv1_symm_val dot_S5000x256_S256x128_S5000x128_1_0_0_1_n_n 256 rfl rfl k
  refine funext fun a => Fin.ext ?_
  match a with
  | ⟨0, _⟩ => exact (dot_S5000x256_S256x128_S5000x128_1_0_0_1_n_n.rhsIdx_val_of_single rfl _ _).trans hk
  | ⟨1, _⟩ => exact k0_rhs1 _ _

/-- The rows the two running sums start from are the zero row. -/
theorem k0_pay1_apply (j : Fin 128) : k0_pay1 (F := Ideal) (ix2 0 j) = 0 := by
  unfold k0_pay1
  simp only [shapeCast_self]
  exact Ideal.ofBits_zero_f32

theorem k0_pay2_apply (j : Fin 128) : k0_pay2 (F := Ideal) (ix2 0 j) = 0 := by
  unfold k0_pay2
  simp only [shapeCast_self]
  exact Ideal.ofBits_zero_f32

/-- The tile of h at row r and column j. -/
theorem k0_pay3_apply (v3 v4 : Vec Ideal S5000x256 .f32) (v8 : Vec Ideal S256x128 .f32) (v12 : Vec Ideal S1x128 .f32)
    (r : Fin 5000) (j : Fin 128) :
    k0_pay3 (F := Ideal) v3 v4 v8 v12 (ix2 r j)
      = (∑ k : Fin 256, (v3 (ix2 r k) + v4 (ix2 r k)) * v8 (ix2 k j)) + v12 (ix2 0 j) := by
  unfold k0_pay3
  simp only [shapeCast_self]
  rw [addf_apply, broadcastTo_1b_ab_apply]
  refine congrArg (· + v12 (ix2 0 j)) ?_
  refine Cert.LibDotSingle.matmul_zero_single dot_S5000x256_S256x128_S5000x128_1_0_0_1_n_n none 256 rfl rfl _ _ (ix2 r j)
    (fun k => v3 (ix2 r k) + v4 (ix2 r k)) (fun k => v8 (ix2 k j)) (fun k => ?_) (fun k => ?_)
  · rw [k0_lhsIdx, truncf_apply, addf_apply]
  · rw [k0_rhsIdx, truncf_apply]

/-- A sum over the rows of a tile, into the zero word, at column j. -/
theorem k0_rowsum (src : FVec Ideal ⟨2, ![5000, 128]⟩ .f32) (h : (⟨2, ![5000, 128]⟩ : Shape).Reduces [0] ⟨1, ![128]⟩)
    (hφ : FKind.Formats .f32) (hacc : (0x00000000#32 : BitVec 32) = 0x00000000#32) (j : Fin 128) :
    multiReduction (F := Ideal) .add [0] ⟨1, ![128]⟩ src 0x00000000#32 h hφ hacc (ix1 j) = ∑ r : Fin 5000, src (ix2 r j) :=
  (Ideal.multiReduction_add_single src 0x00000000#32 h hφ hacc (ix1 j)).trans
    (Finset.sum_congr rfl fun r _ => congrArg src (funext fun c => Fin.ext (by
      match c with
      | ⟨0, _⟩ => rfl
      | ⟨1, _⟩ => rfl)))

/-- The running column sum of h after this tile. -/
theorem k0_pay4_apply (v3 v4 : Vec Ideal S5000x256 .f32) (v8 : Vec Ideal S256x128 .f32) (v12 : Vec Ideal S1x128 .f32)
    (v17 : Vec Ideal S1x128 .f32) (j : Fin 128) :
    k0_pay4 (F := Ideal) v3 v4 v8 v12 v17 (ix2 0 j)
      = v17 (ix2 0 j) + ∑ r : Fin 5000, k0_pay3 (F := Ideal) v3 v4 v8 v12 (ix2 r j) := by
  unfold k0_pay4
  simp only [shapeCast_self]
  rw [addf_apply, shapeCast_a_1a_apply]
  exact congrArg (v17 (ix2 0 j) + ·) (k0_rowsum _ _ _ _ j)

/-- The running column sum of h · h after this tile. -/
theorem k0_pay5_apply (v3 v4 : Vec Ideal S5000x256 .f32) (v8 : Vec Ideal S256x128 .f32) (v12 : Vec Ideal S1x128 .f32)
    (v24 : Vec Ideal S1x128 .f32) (j : Fin 128) :
    k0_pay5 (F := Ideal) v3 v4 v8 v12 v24 (ix2 0 j)
      = v24 (ix2 0 j) + ∑ r : Fin 5000, k0_pay3 (F := Ideal) v3 v4 v8 v12 (ix2 r j)
          * k0_pay3 (F := Ideal) v3 v4 v8 v12 (ix2 r j) := by
  unfold k0_pay5
  simp only [shapeCast_self]
  rw [addf_apply, shapeCast_a_1a_apply]
  refine congrArg (v24 (ix2 0 j) + ·) ((k0_rowsum _ _ _ _ j).trans ?_)
  exact Finset.sum_congr rfl fun r _ => mulf_apply _ _ _

/-! ## Region 2: 128 input columns, 128 output columns -/

/-- Coordinates of the product's operand indices: a kept axis reads the result index, the contracted axis the
    contraction index. -/
theorem k2_lhs0 (i : (⟨2, ![5000, 128]⟩ : Shape).Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem k2_rhs1 (i : (⟨2, ![5000, 128]⟩ : Shape).Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The left operand's index of the product at (r, j) and contraction coordinate k is (r, k). -/
theorem k2_lhsIdx (r : Fin 5000) (j : Fin 128) (k : Fin 128) :
    dot_S5000x128_S128x128_S5000x128_1_0_0_1_n_n.lhsIdx (ix2 r j) ((contrEquiv1 dot_S5000x128_S128x128_S5000x128_1_0_0_1_n_n 128 rfl rfl).symm k) = ix2 r k := by
  have hk := contrEquiv1_symm_val dot_S5000x128_S128x128_S5000x128_1_0_0_1_n_n 128 rfl rfl k
  refine funext fun a => Fin.ext ?_
  match a with
  | ⟨0, _⟩ => exact k2_lhs0 _ _
  | ⟨1, _⟩ => exact (dot_S5000x128_S128x128_S5000x128_1_0_0_1_n_n.lhsIdx_val_of_single rfl _ _).trans hk

/-- The right operand's index there is (k, j). -/
theorem k2_rhsIdx (r : Fin 5000) (j : Fin 128) (k : Fin 128) :
    dot_S5000x128_S128x128_S5000x128_1_0_0_1_n_n.rhsIdx (ix2 r j) ((contrEquiv1 dot_S5000x128_S128x128_S5000x128_1_0_0_1_n_n 128 rfl rfl).symm k) = ix2 k j := by
  have hk := contrEquiv1_symm_val dot_S5000x128_S128x128_S5000x128_1_0_0_1_n_n 128 rfl rfl k
  refine funext fun a => Fin.ext ?_
  match a with
  | ⟨0, _⟩ => exact (dot_S5000x128_S128x128_S5000x128_1_0_0_1_n_n.rhsIdx_val_of_single rfl _ _).trans hk
  | ⟨1, _⟩ => exact k2_rhs1 _ _

/-- The rows the two running sums start from are the zero row. -/
theorem k2_pay1_apply (j : Fin 128) : k2_pay1 (F := Ideal) (ix2 0 j) = 0 := by
  unfold k2_pay1
  simp only [shapeCast_self]
  exact Ideal.ofBits_zero_f32

theorem k2_pay2_apply (j : Fin 128) : k2_pay2 (F := Ideal) (ix2 0 j) = 0 := by
  unfold k2_pay2
  simp only [shapeCast_self]
  exact Ideal.ofBits_zero_f32

/-- The tile of h at row r and column j. -/
theorem k2_pay3_apply (v3 v4 : Vec Ideal S5000x128 .f32) (v8 : Vec Ideal S128x128 .f32) (v12 : Vec Ideal S1x128 .f32)
    (r : Fin 5000) (j : Fin 128) :
    k2_pay3 (F := Ideal) v3 v4 v8 v12 (ix2 r j)
      = (∑ k : Fin 128, (v3 (ix2 r k) + v4 (ix2 r k)) * v8 (ix2 k j)) + v12 (ix2 0 j) := by
  unfold k2_pay3
  simp only [shapeCast_self]
  rw [addf_apply, broadcastTo_1b_ab_apply]
  refine congrArg (· + v12 (ix2 0 j)) ?_
  refine Cert.LibDotSingle.matmul_zero_single dot_S5000x128_S128x128_S5000x128_1_0_0_1_n_n none 128 rfl rfl _ _ (ix2 r j)
    (fun k => v3 (ix2 r k) + v4 (ix2 r k)) (fun k => v8 (ix2 k j)) (fun k => ?_) (fun k => ?_)
  · rw [k2_lhsIdx, truncf_apply, addf_apply]
  · rw [k2_rhsIdx, truncf_apply]

/-- A sum over the rows of a tile, into the zero word, at column j. -/
theorem k2_rowsum (src : FVec Ideal ⟨2, ![5000, 128]⟩ .f32) (h : (⟨2, ![5000, 128]⟩ : Shape).Reduces [0] ⟨1, ![128]⟩)
    (hφ : FKind.Formats .f32) (hacc : (0x00000000#32 : BitVec 32) = 0x00000000#32) (j : Fin 128) :
    multiReduction (F := Ideal) .add [0] ⟨1, ![128]⟩ src 0x00000000#32 h hφ hacc (ix1 j) = ∑ r : Fin 5000, src (ix2 r j) :=
  (Ideal.multiReduction_add_single src 0x00000000#32 h hφ hacc (ix1 j)).trans
    (Finset.sum_congr rfl fun r _ => congrArg src (funext fun c => Fin.ext (by
      match c with
      | ⟨0, _⟩ => rfl
      | ⟨1, _⟩ => rfl)))

/-- The running column sum of h after this tile. -/
theorem k2_pay4_apply (v3 v4 : Vec Ideal S5000x128 .f32) (v8 : Vec Ideal S128x128 .f32) (v12 : Vec Ideal S1x128 .f32)
    (v17 : Vec Ideal S1x128 .f32) (j : Fin 128) :
    k2_pay4 (F := Ideal) v3 v4 v8 v12 v17 (ix2 0 j)
      = v17 (ix2 0 j) + ∑ r : Fin 5000, k2_pay3 (F := Ideal) v3 v4 v8 v12 (ix2 r j) := by
  unfold k2_pay4
  simp only [shapeCast_self]
  rw [addf_apply, shapeCast_a_1a_apply]
  exact congrArg (v17 (ix2 0 j) + ·) (k2_rowsum _ _ _ _ j)

/-- The running column sum of h · h after this tile. -/
theorem k2_pay5_apply (v3 v4 : Vec Ideal S5000x128 .f32) (v8 : Vec Ideal S128x128 .f32) (v12 : Vec Ideal S1x128 .f32)
    (v24 : Vec Ideal S1x128 .f32) (j : Fin 128) :
    k2_pay5 (F := Ideal) v3 v4 v8 v12 v24 (ix2 0 j)
      = v24 (ix2 0 j) + ∑ r : Fin 5000, k2_pay3 (F := Ideal) v3 v4 v8 v12 (ix2 r j)
          * k2_pay3 (F := Ideal) v3 v4 v8 v12 (ix2 r j) := by
  unfold k2_pay5
  simp only [shapeCast_self]
  rw [addf_apply, shapeCast_a_1a_apply]
  refine congrArg (v24 (ix2 0 j) + ·) ((k2_rowsum _ _ _ _ j).trans ?_)
  exact Finset.sum_congr rfl fun r _ => mulf_apply _ _ _

/-! ## Region 6: 128 input columns, 64 output columns -/

/-- Coordinates of the product's operand indices: a kept axis reads the result index, the contracted axis the
    contraction index. -/
theorem k6_lhs0 (i : (⟨2, ![5000, 64]⟩ : Shape).Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem k6_rhs1 (i : (⟨2, ![5000, 64]⟩ : Shape).Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The left operand's index of the product at (r, j) and contraction coordinate k is (r, k). -/
theorem k6_lhsIdx (r : Fin 5000) (j : Fin 64) (k : Fin 128) :
    dot_S5000x128_S128x64_S5000x64_1_0_0_1_n_n.lhsIdx (ix2 r j) ((contrEquiv1 dot_S5000x128_S128x64_S5000x64_1_0_0_1_n_n 128 rfl rfl).symm k) = ix2 r k := by
  have hk := contrEquiv1_symm_val dot_S5000x128_S128x64_S5000x64_1_0_0_1_n_n 128 rfl rfl k
  refine funext fun a => Fin.ext ?_
  match a with
  | ⟨0, _⟩ => exact k6_lhs0 _ _
  | ⟨1, _⟩ => exact (dot_S5000x128_S128x64_S5000x64_1_0_0_1_n_n.lhsIdx_val_of_single rfl _ _).trans hk

/-- The right operand's index there is (k, j). -/
theorem k6_rhsIdx (r : Fin 5000) (j : Fin 64) (k : Fin 128) :
    dot_S5000x128_S128x64_S5000x64_1_0_0_1_n_n.rhsIdx (ix2 r j) ((contrEquiv1 dot_S5000x128_S128x64_S5000x64_1_0_0_1_n_n 128 rfl rfl).symm k) = ix2 k j := by
  have hk := contrEquiv1_symm_val dot_S5000x128_S128x64_S5000x64_1_0_0_1_n_n 128 rfl rfl k
  refine funext fun a => Fin.ext ?_
  match a with
  | ⟨0, _⟩ => exact (dot_S5000x128_S128x64_S5000x64_1_0_0_1_n_n.rhsIdx_val_of_single rfl _ _).trans hk
  | ⟨1, _⟩ => exact k6_rhs1 _ _

/-- The rows the two running sums start from are the zero row. -/
theorem k6_pay1_apply (j : Fin 64) : k6_pay1 (F := Ideal) (ix2 0 j) = 0 := by
  unfold k6_pay1
  simp only [shapeCast_self]
  exact Ideal.ofBits_zero_f32

theorem k6_pay2_apply (j : Fin 64) : k6_pay2 (F := Ideal) (ix2 0 j) = 0 := by
  unfold k6_pay2
  simp only [shapeCast_self]
  exact Ideal.ofBits_zero_f32

/-- The tile of h at row r and column j. -/
theorem k6_pay3_apply (v3 v5 : Vec Ideal S5000x128 .f32) (v9 : Vec Ideal S128x64 .f32) (v13 : Vec Ideal S1x64 .f32)
    (r : Fin 5000) (j : Fin 64) :
    k6_pay3 (F := Ideal) v3 v5 v9 v13 (ix2 r j)
      = (∑ k : Fin 128, (v3 (ix2 r k) + v5 (ix2 r k)) * v9 (ix2 k j)) + v13 (ix2 0 j) := by
  unfold k6_pay3
  simp only [shapeCast_self]
  rw [addf_apply, broadcastTo_1b_ab_apply]
  refine congrArg (· + v13 (ix2 0 j)) ?_
  refine Cert.LibDotSingle.matmul_zero_single dot_S5000x128_S128x64_S5000x64_1_0_0_1_n_n none 128 rfl rfl _ _ (ix2 r j)
    (fun k => v3 (ix2 r k) + v5 (ix2 r k)) (fun k => v9 (ix2 k j)) (fun k => ?_) (fun k => ?_)
  · rw [k6_lhsIdx, truncf_apply, addf_apply]
  · rw [k6_rhsIdx, truncf_apply]

/-- A sum over the rows of a tile, into the zero word, at column j. -/
theorem k6_rowsum (src : FVec Ideal ⟨2, ![5000, 64]⟩ .f32) (h : (⟨2, ![5000, 64]⟩ : Shape).Reduces [0] ⟨1, ![64]⟩)
    (hφ : FKind.Formats .f32) (hacc : (0x00000000#32 : BitVec 32) = 0x00000000#32) (j : Fin 64) :
    multiReduction (F := Ideal) .add [0] ⟨1, ![64]⟩ src 0x00000000#32 h hφ hacc (ix1 j) = ∑ r : Fin 5000, src (ix2 r j) :=
  (Ideal.multiReduction_add_single src 0x00000000#32 h hφ hacc (ix1 j)).trans
    (Finset.sum_congr rfl fun r _ => congrArg src (funext fun c => Fin.ext (by
      match c with
      | ⟨0, _⟩ => rfl
      | ⟨1, _⟩ => rfl)))

/-- The running column sum of h after this tile. -/
theorem k6_pay4_apply (v3 v5 : Vec Ideal S5000x128 .f32) (v9 : Vec Ideal S128x64 .f32) (v13 : Vec Ideal S1x64 .f32)
    (v18 : Vec Ideal S1x64 .f32) (j : Fin 64) :
    k6_pay4 (F := Ideal) v3 v5 v9 v13 v18 (ix2 0 j)
      = v18 (ix2 0 j) + ∑ r : Fin 5000, k6_pay3 (F := Ideal) v3 v5 v9 v13 (ix2 r j) := by
  unfold k6_pay4
  simp only [shapeCast_self]
  rw [addf_apply, shapeCast_a_1a_apply]
  exact congrArg (v18 (ix2 0 j) + ·) (k6_rowsum _ _ _ _ j)

/-- The running column sum of h · h after this tile. -/
theorem k6_pay5_apply (v3 v5 : Vec Ideal S5000x128 .f32) (v9 : Vec Ideal S128x64 .f32) (v13 : Vec Ideal S1x64 .f32)
    (v25 : Vec Ideal S1x64 .f32) (j : Fin 64) :
    k6_pay5 (F := Ideal) v3 v5 v9 v13 v25 (ix2 0 j)
      = v25 (ix2 0 j) + ∑ r : Fin 5000, k6_pay3 (F := Ideal) v3 v5 v9 v13 (ix2 r j)
          * k6_pay3 (F := Ideal) v3 v5 v9 v13 (ix2 r j) := by
  unfold k6_pay5
  simp only [shapeCast_self]
  rw [addf_apply, shapeCast_a_1a_apply]
  refine congrArg (v25 (ix2 0 j) + ·) ((k6_rowsum _ _ _ _ j).trans ?_)
  exact Finset.sum_congr rfl fun r _ => mulf_apply _ _ _

/-! ## Regions 4, 8 and 10 repeat the bodies of regions 0, 6 and 6 -/

theorem k4_pay1_eq : @k4_pay1 = @k0_pay1 := rfl
theorem k4_pay2_eq : @k4_pay2 = @k0_pay2 := rfl
theorem k4_pay3_eq : @k4_pay3 = @k0_pay3 := rfl
theorem k4_pay4_eq : @k4_pay4 = @k0_pay4 := rfl
theorem k4_pay5_eq : @k4_pay5 = @k0_pay5 := rfl

theorem k8_pay1_eq : @k8_pay1 = @k6_pay1 := rfl
theorem k8_pay2_eq : @k8_pay2 = @k6_pay2 := rfl
theorem k8_pay3_eq : @k8_pay3 = @k6_pay3 := rfl
theorem k8_pay4_eq : @k8_pay4 = @k6_pay4 := rfl
theorem k8_pay5_eq : @k8_pay5 = @k6_pay5 := rfl

theorem k10_pay1_eq : @k10_pay1 = @k6_pay1 := rfl
theorem k10_pay2_eq : @k10_pay2 = @k6_pay2 := rfl
theorem k10_pay3_eq : @k10_pay3 = @k6_pay3 := rfl
theorem k10_pay4_eq : @k10_pay4 = @k6_pay4 := rfl
theorem k10_pay5_eq : @k10_pay5 = @k6_pay5 := rfl

end Cert.KernelIdeal.PayVal

end
-- ==== Proof.LibTileSum.lean ====
/-
  A sum over a * b consecutive positions, taken tile by tile.

  Position i of a row-major range of a * b positions lies in tile i / b at place i % b. Summing first inside each
  tile and then over the tiles is summing over all positions, in any commutative monoid — in particular on the
  extended reals, whose addition is commutative and associative at the infinities too.
-/
import Mathlib.Algebra.BigOperators.Fin
import Mathlib.Logic.Equiv.Fin.Basic

namespace Cert.LibTileSum

open scoped BigOperators

/-- The sum over the tiles of the sums inside each tile is the sum over all positions, for any way of naming
    position (t, r) whose number is t * b + r. -/
theorem sum_tiles {α : Type} [AddCommMonoid α] {a b n : ℕ} (hn : a * b = n) (idx : Fin a → Fin b → Fin n)
    (hidx : ∀ t r, (idx t r).val = t.val * b + r.val) (f : Fin n → α) :
    ∑ t : Fin a, ∑ r : Fin b, f (idx t r) = ∑ i : Fin n, f i := by
  subst hn
  rw [← Equiv.sum_comp finProdFinEquiv f, Fintype.sum_prod_type]
  refine Finset.sum_congr rfl fun t _ => Finset.sum_congr rfl fun r _ => ?_
  congr 1
  apply Fin.ext
  rw [hidx, finProdFinEquiv_apply_val]
  show t.val * b + r.val = r.val + b * t.val
  rw [Nat.mul_comm, Nat.add_comm]

end Cert.LibTileSum
-- ==== Proof.PayTiles.lean ====
/-
  The column statistic over all ten tiles.

  The 50000 rows are cut into ten tiles of 5000 consecutive rows: row r of tile t is row 5000 · t + r. A running sum
  that starts, at tile 0, as zero plus that tile's sum, and at each later tile adds that tile's sum to what it held,
  holds after tile 9 the sum over all 50000 rows — in any commutative monoid, in particular on the extended reals,
  whose addition is commutative and associative at the infinities too.
-/
import proofs.«144613_j17471926960174_1_alg».proof.Proof.LibTileSum
import Mathlib.Algebra.BigOperators.Intervals

open scoped BigOperators

namespace Cert.KernelIdeal.PayVal

/-- Row r of tile t among the 50000 rows. -/
def tileRow (t : Fin 10) (r : Fin 5000) : Fin 50000 := ⟨5000 * t.val + r.val, by omega⟩

theorem tileRow_val (t : Fin 10) (r : Fin 5000) : (tileRow t r).val = 5000 * t.val + r.val := rfl

/-- The tiles' sums, added up, are the sum over all rows. -/
theorem sum_tileRow {α : Type} [AddCommMonoid α] (h : Fin 50000 → α) :
    ∑ t : Fin 10, ∑ r : Fin 5000, h (tileRow t r) = ∑ i : Fin 50000, h i :=
  Cert.LibTileSum.sum_tiles (a := 10) (b := 5000) (n := 50000) rfl tileRow
    (fun t r => by rw [tileRow_val, Nat.mul_comm]) h

/-- A running sum fed one term at a time holds, after term n, the sum of the terms 0, …, n. -/
theorem acc_eq_sum_range {α : Type} [AddCommMonoid α] (N : ℕ) (T S : ℕ → α) (h0 : S 0 = 0 + T 0)
    (hs : ∀ n, n + 1 < N → S (n + 1) = S n + T (n + 1)) :
    ∀ n, n < N → S n = ∑ t ∈ Finset.range (n + 1), T t := by
  intro n
  induction n with
  | zero => intro _; rw [Finset.sum_range_one]; exact h0.trans (zero_add _)
  | succ n ih =>
    intro hn
    rw [Finset.sum_range_succ, ← ih (by omega)]
    exact hs n hn

/-- The running column sum after the tenth tile is the column's sum over all 50000 rows: S t is what the running sum
    holds after tile t, zero plus the first tile's sum at tile 0 and the previous value plus the tile's sum after. -/
theorem colsum_tiles {α : Type} [AddCommMonoid α] (h : Fin 50000 → α) (S : Fin 10 → α)
    (h0 : S 0 = 0 + ∑ r : Fin 5000, h (tileRow 0 r))
    (hs : ∀ (n : ℕ) (hn : n + 1 < 10),
      S ⟨n + 1, hn⟩ = S ⟨n, by omega⟩ + ∑ r : Fin 5000, h (tileRow ⟨n + 1, hn⟩ r)) :
    S 9 = ∑ i : Fin 50000, h i := by
  have key := acc_eq_sum_range 10
    (fun t => if ht : t < 10 then ∑ r : Fin 5000, h (tileRow ⟨t, ht⟩ r) else 0)
    (fun t => if ht : t < 10 then S ⟨t, ht⟩ else 0)
    (by rw [dif_pos (by omega), dif_pos (by omega)]; exact h0)
    (fun n hn => by rw [dif_pos hn, dif_pos (by omega), dif_pos hn]; exact hs n hn)
    9 (by omega)
  rw [dif_pos (by omega), Finset.sum_range] at key
  rw [← sum_tileRow h]
  refine key.trans (Finset.sum_congr rfl fun t _ => ?_)
  rw [dif_pos t.isLt]

end Cert.KernelIdeal.PayVal
-- ==== Proof.PayAcc.lean ====
/-
  The two column statistics of a linear-and-statistics kernel over its ten grid points.

  At each grid point the body adds its tile's column sums of h and of h · h to two running rows, which start from the
  zero row at the first point. With the tile at point t holding rows 5000 · t, …, 5000 · t + 4999 of a column
  H : Fin 50000 → EReal, the rows hold after the tenth point  Σ H  and  Σ H · H  over all 50000 rows.
-/
import proofs.«144613_j17471926960174_1_alg».proof.Proof.PayStats
import proofs.«144613_j17471926960174_1_alg».proof.Proof.PayTiles

noncomputable section

open scoped BigOperators

namespace Cert.KernelIdeal.PayVal

open Cert.KernelIdeal Cert.KernelIdeal.Gen Idealize.ShloMosaic Idealize.ShloMosaic.ValueIdx

/-! ## Region 0: 128 columns -/

/-- The running column sum of h after the tenth tile is the column's sum over all 50000 rows. -/
theorem k0_colsum (x a : ℕ → Vec Ideal S5000x256 .f32) (w : Vec Ideal S256x128 .f32) (b : Vec Ideal S1x128 .f32)
    (A : ℕ → Vec Ideal S1x128 .f32)
    (hA0 : A 0 = k0_pay4 (F := Ideal) (x 0) (a 0) w b (k0_pay1 (F := Ideal)))
    (hAs : ∀ n, n + 1 < 10 → A (n + 1) = k0_pay4 (F := Ideal) (x (n + 1)) (a (n + 1)) w b (A n))
    (H : Fin 50000 → EReal) (j : Fin 128)
    (hH : ∀ (t : Fin 10) (r : Fin 5000), k0_pay3 (F := Ideal) (x t.val) (a t.val) w b (ix2 r j) = H (tileRow t r)) :
    A 9 (ix2 0 j) = ∑ i : Fin 50000, H i := by
  have key := acc_eq_sum_range 10
    (fun t => ∑ r : Fin 5000, k0_pay3 (F := Ideal) (x t) (a t) w b (ix2 r j)) (fun t => A t (ix2 0 j))
    (by show A 0 (ix2 0 j) = _; rw [hA0, k0_pay4_apply, k0_pay1_apply])
    (fun n hn => by show A (n + 1) (ix2 0 j) = _; rw [hAs n hn, k0_pay4_apply])
    9 (by omega)
  rw [Finset.sum_range] at key
  rw [← sum_tileRow H]
  exact key.trans (Finset.sum_congr rfl fun t _ => Finset.sum_congr rfl fun r _ => hH t r)

/-- The running column sum of h · h after the tenth tile is the column's sum of squares over all 50000 rows. -/
theorem k0_colsumsq (x a : ℕ → Vec Ideal S5000x256 .f32) (w : Vec Ideal S256x128 .f32) (b : Vec Ideal S1x128 .f32)
    (Q : ℕ → Vec Ideal S1x128 .f32)
    (hQ0 : Q 0 = k0_pay5 (F := Ideal) (x 0) (a 0) w b (k0_pay2 (F := Ideal)))
    (hQs : ∀ n, n + 1 < 10 → Q (n + 1) = k0_pay5 (F := Ideal) (x (n + 1)) (a (n + 1)) w b (Q n))
    (H : Fin 50000 → EReal) (j : Fin 128)
    (hH : ∀ (t : Fin 10) (r : Fin 5000), k0_pay3 (F := Ideal) (x t.val) (a t.val) w b (ix2 r j) = H (tileRow t r)) :
    Q 9 (ix2 0 j) = ∑ i : Fin 50000, H i * H i := by
  have key := acc_eq_sum_range 10
    (fun t => ∑ r : Fin 5000, k0_pay3 (F := Ideal) (x t) (a t) w b (ix2 r j)
      * k0_pay3 (F := Ideal) (x t) (a t) w b (ix2 r j)) (fun t => Q t (ix2 0 j))
    (by show Q 0 (ix2 0 j) = _; rw [hQ0, k0_pay5_apply, k0_pay2_apply])
    (fun n hn => by show Q (n + 1) (ix2 0 j) = _; rw [hQs n hn, k0_pay5_apply])
    9 (by omega)
  rw [Finset.sum_range] at key
  rw [← sum_tileRow fun i => H i * H i]
  exact key.trans (Finset.sum_congr rfl fun t _ => Finset.sum_congr rfl fun r _ => by rw [hH t r])

/-! ## Region 2: 128 columns -/

/-- The running column sum of h after the tenth tile is the column's sum over all 50000 rows. -/
theorem k2_colsum (x a : ℕ → Vec Ideal S5000x128 .f32) (w : Vec Ideal S128x128 .f32) (b : Vec Ideal S1x128 .f32)
    (A : ℕ → Vec Ideal S1x128 .f32)
    (hA0 : A 0 = k2_pay4 (F := Ideal) (x 0) (a 0) w b (k2_pay1 (F := Ideal)))
    (hAs : ∀ n, n + 1 < 10 → A (n + 1) = k2_pay4 (F := Ideal) (x (n + 1)) (a (n + 1)) w b (A n))
    (H : Fin 50000 → EReal) (j : Fin 128)
    (hH : ∀ (t : Fin 10) (r : Fin 5000), k2_pay3 (F := Ideal) (x t.val) (a t.val) w b (ix2 r j) = H (tileRow t r)) :
    A 9 (ix2 0 j) = ∑ i : Fin 50000, H i := by
  have key := acc_eq_sum_range 10
    (fun t => ∑ r : Fin 5000, k2_pay3 (F := Ideal) (x t) (a t) w b (ix2 r j)) (fun t => A t (ix2 0 j))
    (by show A 0 (ix2 0 j) = _; rw [hA0, k2_pay4_apply, k2_pay1_apply])
    (fun n hn => by show A (n + 1) (ix2 0 j) = _; rw [hAs n hn, k2_pay4_apply])
    9 (by omega)
  rw [Finset.sum_range] at key
  rw [← sum_tileRow H]
  exact key.trans (Finset.sum_congr rfl fun t _ => Finset.sum_congr rfl fun r _ => hH t r)

/-- The running column sum of h · h after the tenth tile is the column's sum of squares over all 50000 rows. -/
theorem k2_colsumsq (x a : ℕ → Vec Ideal S5000x128 .f32) (w : Vec Ideal S128x128 .f32) (b : Vec Ideal S1x128 .f32)
    (Q : ℕ → Vec Ideal S1x128 .f32)
    (hQ0 : Q 0 = k2_pay5 (F := Ideal) (x 0) (a 0) w b (k2_pay2 (F := Ideal)))
    (hQs : ∀ n, n + 1 < 10 → Q (n + 1) = k2_pay5 (F := Ideal) (x (n + 1)) (a (n + 1)) w b (Q n))
    (H : Fin 50000 → EReal) (j : Fin 128)
    (hH : ∀ (t : Fin 10) (r : Fin 5000), k2_pay3 (F := Ideal) (x t.val) (a t.val) w b (ix2 r j) = H (tileRow t r)) :
    Q 9 (ix2 0 j) = ∑ i : Fin 50000, H i * H i := by
  have key := acc_eq_sum_range 10
    (fun t => ∑ r : Fin 5000, k2_pay3 (F := Ideal) (x t) (a t) w b (ix2 r j)
      * k2_pay3 (F := Ideal) (x t) (a t) w b (ix2 r j)) (fun t => Q t (ix2 0 j))
    (by show Q 0 (ix2 0 j) = _; rw [hQ0, k2_pay5_apply, k2_pay2_apply])
    (fun n hn => by show Q (n + 1) (ix2 0 j) = _; rw [hQs n hn, k2_pay5_apply])
    9 (by omega)
  rw [Finset.sum_range] at key
  rw [← sum_tileRow fun i => H i * H i]
  exact key.trans (Finset.sum_congr rfl fun t _ => Finset.sum_congr rfl fun r _ => by rw [hH t r])

/-! ## Region 6: 64 columns -/

/-- The running column sum of h after the tenth tile is the column's sum over all 50000 rows. -/
theorem k6_colsum (x a : ℕ → Vec Ideal S5000x128 .f32) (w : Vec Ideal S128x64 .f32) (b : Vec Ideal S1x64 .f32)
    (A : ℕ → Vec Ideal S1x64 .f32)
    (hA0 : A 0 = k6_pay4 (F := Ideal) (x 0) (a 0) w b (k6_pay1 (F := Ideal)))
    (hAs : ∀ n, n + 1 < 10 → A (n + 1) = k6_pay4 (F := Ideal) (x (n + 1)) (a (n + 1)) w b (A n))
    (H : Fin 50000 → EReal) (j : Fin 64)
    (hH : ∀ (t : Fin 10) (r : Fin 5000), k6_pay3 (F := Ideal) (x t.val) (a t.val) w b (ix2 r j) = H (tileRow t r)) :
    A 9 (ix2 0 j) = ∑ i : Fin 50000, H i := by
  have key := acc_eq_sum_range 10
    (fun t => ∑ r : Fin 5000, k6_pay3 (F := Ideal) (x t) (a t) w b (ix2 r j)) (fun t => A t (ix2 0 j))
    (by show A 0 (ix2 0 j) = _; rw [hA0, k6_pay4_apply, k6_pay1_apply])
    (fun n hn => by show A (n + 1) (ix2 0 j) = _; rw [hAs n hn, k6_pay4_apply])
    9 (by omega)
  rw [Finset.sum_range] at key
  rw [← sum_tileRow H]
  exact key.trans (Finset.sum_congr rfl fun t _ => Finset.sum_congr rfl fun r _ => hH t r)

/-- The running column sum of h · h after the tenth tile is the column's sum of squares over all 50000 rows. -/
theorem k6_colsumsq (x a : ℕ → Vec Ideal S5000x128 .f32) (w : Vec Ideal S128x64 .f32) (b : Vec Ideal S1x64 .f32)
    (Q : ℕ → Vec Ideal S1x64 .f32)
    (hQ0 : Q 0 = k6_pay5 (F := Ideal) (x 0) (a 0) w b (k6_pay2 (F := Ideal)))
    (hQs : ∀ n, n + 1 < 10 → Q (n + 1) = k6_pay5 (F := Ideal) (x (n + 1)) (a (n + 1)) w b (Q n))
    (H : Fin 50000 → EReal) (j : Fin 64)
    (hH : ∀ (t : Fin 10) (r : Fin 5000), k6_pay3 (F := Ideal) (x t.val) (a t.val) w b (ix2 r j) = H (tileRow t r)) :
    Q 9 (ix2 0 j) = ∑ i : Fin 50000, H i * H i := by
  have key := acc_eq_sum_range 10
    (fun t => ∑ r : Fin 5000, k6_pay3 (F := Ideal) (x t) (a t) w b (ix2 r j)
      * k6_pay3 (F := Ideal) (x t) (a t) w b (ix2 r j)) (fun t => Q t (ix2 0 j))
    (by show Q 0 (ix2 0 j) = _; rw [hQ0, k6_pay5_apply, k6_pay2_apply])
    (fun n hn => by show Q (n + 1) (ix2 0 j) = _; rw [hQs n hn, k6_pay5_apply])
    9 (by omega)
  rw [Finset.sum_range] at key
  rw [← sum_tileRow fun i => H i * H i]
  exact key.trans (Finset.sum_congr rfl fun t _ => Finset.sum_congr rfl fun r _ => by rw [hH t r])

/-! ## Region 4 (the body of region 0) -/

theorem k4_colsum (x a : ℕ → Vec Ideal S5000x256 .f32) (w : Vec Ideal S256x128 .f32) (b : Vec Ideal S1x128 .f32)
    (A : ℕ → Vec Ideal S1x128 .f32)
    (hA0 : A 0 = k4_pay4 (F := Ideal) (x 0) (a 0) w b (k4_pay1 (F := Ideal)))
    (hAs : ∀ n, n + 1 < 10 → A (n + 1) = k4_pay4 (F := Ideal) (x (n + 1)) (a (n + 1)) w b (A n))
    (H : Fin 50000 → EReal) (j : Fin 128)
    (hH : ∀ (t : Fin 10) (r : Fin 5000), k4_pay3 (F := Ideal) (x t.val) (a t.val) w b (ix2 r j) = H (tileRow t r)) :
    A 9 (ix2 0 j) = ∑ i : Fin 50000, H i := by
  rw [k4_pay4_eq, k4_pay1_eq] at hA0
  simp only [k4_pay4_eq] at hAs
  simp only [k4_pay3_eq] at hH
  exact k0_colsum x a w b A hA0 hAs H j hH

theorem k4_colsumsq (x a : ℕ → Vec Ideal S5000x256 .f32) (w : Vec Ideal S256x128 .f32) (b : Vec Ideal S1x128 .f32)
    (Q : ℕ → Vec Ideal S1x128 .f32)
    (hQ0 : Q 0 = k4_pay5 (F := Ideal) (x 0) (a 0) w b (k4_pay2 (F := Ideal)))
    (hQs : ∀ n, n + 1 < 10 → Q (n + 1) = k4_pay5 (F := Ideal) (x (n + 1)) (a (n + 1)) w b (Q n))
    (H : Fin 50000 → EReal) (j : Fin 128)
    (hH : ∀ (t : Fin 10) (r : Fin 5000), k4_pay3 (F := Ideal) (x t.val) (a t.val) w b (ix2 r j) = H (tileRow t r)) :
    Q 9 (ix2 0 j) = ∑ i : Fin 50000, H i * H i := by
  rw [k4_pay5_eq, k4_pay2_eq] at hQ0
  simp only [k4_pay5_eq] at hQs
  simp only [k4_pay3_eq] at hH
  exact k0_colsumsq x a w b Q hQ0 hQs H j hH

/-! ## Region 8 (the body of region 6) -/

theorem k8_colsum (x a : ℕ → Vec Ideal S5000x128 .f32) (w : Vec Ideal S128x64 .f32) (b : Vec Ideal S1x64 .f32)
    (A : ℕ → Vec Ideal S1x64 .f32)
    (hA0 : A 0 = k8_pay4 (F := Ideal) (x 0) (a 0) w b (k8_pay1 (F := Ideal)))
    (hAs : ∀ n, n + 1 < 10 → A (n + 1) = k8_pay4 (F := Ideal) (x (n + 1)) (a (n + 1)) w b (A n))
    (H : Fin 50000 → EReal) (j : Fin 64)
    (hH : ∀ (t : Fin 10) (r : Fin 5000), k8_pay3 (F := Ideal) (x t.val) (a t.val) w b (ix2 r j) = H (tileRow t r)) :
    A 9 (ix2 0 j) = ∑ i : Fin 50000, H i := by
  rw [k8_pay4_eq, k8_pay1_eq] at hA0
  simp only [k8_pay4_eq] at hAs
  simp only [k8_pay3_eq] at hH
  exact k6_colsum x a w b A hA0 hAs H j hH

theorem k8_colsumsq (x a : ℕ → Vec Ideal S5000x128 .f32) (w : Vec Ideal S128x64 .f32) (b : Vec Ideal S1x64 .f32)
    (Q : ℕ → Vec Ideal S1x64 .f32)
    (hQ0 : Q 0 = k8_pay5 (F := Ideal) (x 0) (a 0) w b (k8_pay2 (F := Ideal)))
    (hQs : ∀ n, n + 1 < 10 → Q (n + 1) = k8_pay5 (F := Ideal) (x (n + 1)) (a (n + 1)) w b (Q n))
    (H : Fin 50000 → EReal) (j : Fin 64)
    (hH : ∀ (t : Fin 10) (r : Fin 5000), k8_pay3 (F := Ideal) (x t.val) (a t.val) w b (ix2 r j) = H (tileRow t r)) :
    Q 9 (ix2 0 j) = ∑ i : Fin 50000, H i * H i := by
  rw [k8_pay5_eq, k8_pay2_eq] at hQ0
  simp only [k8_pay5_eq] at hQs
  simp only [k8_pay3_eq] at hH
  exact k6_colsumsq x a w b Q hQ0 hQs H j hH

/-! ## Region 10 (the body of region 6) -/

theorem k10_colsum (x a : ℕ → Vec Ideal S5000x128 .f32) (w : Vec Ideal S128x64 .f32) (b : Vec Ideal S1x64 .f32)
    (A : ℕ → Vec Ideal S1x64 .f32)
    (hA0 : A 0 = k10_pay4 (F := Ideal) (x 0) (a 0) w b (k10_pay1 (F := Ideal)))
    (hAs : ∀ n, n + 1 < 10 → A (n + 1) = k10_pay4 (F := Ideal) (x (n + 1)) (a (n + 1)) w b (A n))
    (H : Fin 50000 → EReal) (j : Fin 64)
    (hH : ∀ (t : Fin 10) (r : Fin 5000), k10_pay3 (F := Ideal) (x t.val) (a t.val) w b (ix2 r j) = H (tileRow t r)) :
    A 9 (ix2 0 j) = ∑ i : Fin 50000, H i := by
  rw [k10_pay4_eq, k10_pay1_eq] at hA0
  simp only [k10_pay4_eq] at hAs
  simp only [k10_pay3_eq] at hH
  exact k6_colsum x a w b A hA0 hAs H j hH

theorem k10_colsumsq (x a : ℕ → Vec Ideal S5000x128 .f32) (w : Vec Ideal S128x64 .f32) (b : Vec Ideal S1x64 .f32)
    (Q : ℕ → Vec Ideal S1x64 .f32)
    (hQ0 : Q 0 = k10_pay5 (F := Ideal) (x 0) (a 0) w b (k10_pay2 (F := Ideal)))
    (hQs : ∀ n, n + 1 < 10 → Q (n + 1) = k10_pay5 (F := Ideal) (x (n + 1)) (a (n + 1)) w b (Q n))
    (H : Fin 50000 → EReal) (j : Fin 64)
    (hH : ∀ (t : Fin 10) (r : Fin 5000), k10_pay3 (F := Ideal) (x t.val) (a t.val) w b (ix2 r j) = H (tileRow t r)) :
    Q 9 (ix2 0 j) = ∑ i : Fin 50000, H i * H i := by
  rw [k10_pay5_eq, k10_pay2_eq] at hQ0
  simp only [k10_pay5_eq] at hQs
  simp only [k10_pay3_eq] at hH
  exact k6_colsumsq x a w b Q hQ0 hQs H j hH

end Cert.KernelIdeal.PayVal

end
-- ==== Proof.ValStats0.lean ====
/-
  From the blocks to the arrays, at the ideal instance: what the call that computes one graph layer's linear map with
  its batch statistics leaves in its three result arrays, as functions of the arrays it is entered with.

  Point t of the ten-point grid writes rows 5000 t … 5000 t + 4999 of the first result, each entry the affine map
  h(i, j) = Σ_k (x(i, k) + g(i, k)) · w(k, j) + b(j) of the row; the ten blocks tile the array. The two statistics
  results are written back once, after the last point, and hold the accumulators after all ten points: the column sums
  of h and of h · h over all 50000 rows.
-/
import proofs.«144613_j17471926960174_1_alg».proof.Proof.Stats0
import proofs.«144613_j17471926960174_1_alg».proof.Proof.PayStats
import proofs.«144613_j17471926960174_1_alg».proof.Proof.PayTiles
import proofs.«144613_j17471926960174_1_alg».proof.Proof.PayAcc
import Idealize.ShloMosaic.Lib.Pipeline.Value

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays the region is entered with, and the affine map -/

/-- The layer's input, the aggregated array, the transposed weights and the bias row, as the region finds them. -/
abbrev xin0 (c : Dev nD) : Vec Ideal S50000x256 .f32 := V c (Pipeline.arrRef spec0 0)
abbrev agg0 (c : Dev nD) : Vec Ideal S50000x256 .f32 := V c (Pipeline.arrRef spec0 1)
abbrev wgt0 (c : Dev nD) : Vec Ideal S256x128 .f32 := V c (Pipeline.arrRef spec0 2)
abbrev bia0 (c : Dev nD) : Vec Ideal S1x128 .f32 := V c (Pipeline.arrRef spec0 3)

/-- The linear layer at row `i`, column `j`. -/
def Hlin0 (c : Dev nD) (i : Fin 50000) (j : Fin 128) : EReal :=
  (∑ k : Fin 256, (xin0 V c (ix2 i k) + agg0 V c (ix2 i k)) * wgt0 V c (ix2 k j)) + bia0 V c (ix2 0 j)

/-! ## Where each window's block sits -/

/-- The printed index maps, decided over the grid: the row tiles move with the point, everything else stays at 0. -/
theorem idx0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Each input block read where its rectangle says: a block's coordinate is index × size + the coordinate inside. -/
theorem read0_0 (c : Dev nD) (t : Fin cfg0.N) (u : Fin 10) (hu : u.val = t.val) (r : Fin 5000) (k : Fin 256) :
    iblk0 V c 0 t (ix2 r k) = xin0 V c (ix2 (tileRow u r) k) := by
  obtain ⟨e0, e1, -⟩ := idx0_facts t
  show xin0 V c (((cfg0.win 0).blk t).view.emb (ix2 r k)) = _
  congr 1
  funext a; apply Fin.ext
  match a with
  | ⟨0, _⟩ => show win0_0.index t (0 : Fin 2) * 5000 + 1 * r.val = 5000 * u.val + r.val; omega
  | ⟨1, _⟩ => show win0_0.index t (1 : Fin 2) * 256 + 1 * k.val = k.val; omega
theorem read0_1 (c : Dev nD) (t : Fin cfg0.N) (u : Fin 10) (hu : u.val = t.val) (r : Fin 5000) (k : Fin 256) :
    iblk0 V c 1 t (ix2 r k) = agg0 V c (ix2 (tileRow u r) k) := by
  obtain ⟨-, -, e0, e1, -⟩ := idx0_facts t
  show agg0 V c (((cfg0.win 1).blk t).view.emb (ix2 r k)) = _
  congr 1
  funext a; apply Fin.ext
  match a with
  | ⟨0, _⟩ => show win0_1.index t (0 : Fin 2) * 5000 + 1 * r.val = 5000 * u.val + r.val; omega
  | ⟨1, _⟩ => show win0_1.index t (1 : Fin 2) * 256 + 1 * k.val = k.val; omega
theorem read0_2 (c : Dev nD) (t : Fin cfg0.N) (k : Fin 256) (j : Fin 128) :
    iblk0 V c 2 t (ix2 k j) = wgt0 V c (ix2 k j) := by
  obtain ⟨-, -, -, -, e0, e1, -⟩ := idx0_facts t
  show wgt0 V c (((cfg0.win 2).blk t).view.emb (ix2 k j)) = _
  congr 1
  funext a; apply Fin.ext
  match a with
  | ⟨0, _⟩ => show win0_2.index t (0 : Fin 2) * 256 + 1 * k.val = k.val; omega
  | ⟨1, _⟩ => show win0_2.index t (1 : Fin 2) * 128 + 1 * j.val = j.val; omega
theorem read0_3 (c : Dev nD) (t : Fin cfg0.N) (z : Fin 1) (j : Fin 128) :
    iblk0 V c 3 t (ix2 z j) = bia0 V c (ix2 z j) := by
  obtain ⟨-, -, -, -, -, -, e0, e1, -⟩ := idx0_facts t
  show bia0 V c (((cfg0.win 3).blk t).view.emb (ix2 z j)) = _
  congr 1
  funext a; apply Fin.ext
  match a with
  | ⟨0, _⟩ => show win0_3.index t (0 : Fin 2) * 1 + 1 * z.val = z.val; omega
  | ⟨1, _⟩ => show win0_3.index t (1 : Fin 2) * 128 + 1 * j.val = j.val; omega

/-- The weights' and the bias's blocks are the arrays, at every point. -/
theorem iblk0_2_eq (c : Dev nD) (t : Fin cfg0.N) : iblk0 V c 2 t = wgt0 V c :=
  funext fun i => by rw [eq_ix2 i]; exact read0_2 V c t _ _
theorem iblk0_3_eq (c : Dev nD) (t : Fin cfg0.N) : iblk0 V c 3 t = bia0 V c :=
  funext fun i => by rw [eq_ix2 i]; exact read0_3 V c t _ _

/-- The body's payload on the blocks of point `t` is the affine map on the tile's rows. -/
theorem pay3_blocks0 (c : Dev nD) (t : Fin cfg0.N) (u : Fin 10) (hu : u.val = t.val) (r : Fin 5000) (j : Fin 128) :
    k0_pay3 (F := Ideal) (iblk0 V c 0 t) (iblk0 V c 1 t) (wgt0 V c) (bia0 V c) (ix2 r j) = Hlin0 V c (tileRow u r) j := by
  rw [k0_pay3_apply]
  unfold Hlin0
  simp only [read0_0 V c t u hu, read0_1 V c t u hu]
theorem hblk0_apply (c : Dev nD) (t : Fin cfg0.N) (u : Fin 10) (hu : u.val = t.val) (r : Fin 5000) (j : Fin 128) :
    hblk0 V c t (ix2 r j) = Hlin0 V c (tileRow u r) j := by
  unfold hblk0
  rw [iblk0_2_eq, iblk0_3_eq]
  exact pay3_blocks0 V c t u hu r j

theorem hblk0_apply' (c : Dev nD) (t : Fin cfg0.N) (u : Fin 10) (hu : u.val = t.val) (j : S5000x128.Idx) :
    hblk0 V c t j = Hlin0 V c (tileRow u (j 0)) (j 1) :=
  (congrArg (hblk0 V c t) (eq_ix2 j)).trans (hblk0_apply V c t u hu (j 0) (j 1))

/-! ## The first result: ten row tiles -/

/-- What the first result ends holding: the affine map, row by row. -/
def G0_4 (c : Dev nD) : Vec Ideal S50000x128 .f32 := fun i => Hlin0 V c (i 0) (i 1)

/-- What point `t` writes back is block `t` of it. -/
theorem flushed0_4_eq (c : Dev nD) (t : Fin cfg0.N) :
    (dat0 V c).flushed 4 t = ((cfg0.win 4).blk t).view.read (Elt Ideal) (G0_4 V c) := by
  show (cfg0.win 4).cut (grid0.coords t) ((dat0 V c).after 4 t) = _
  rw [after0_4]
  obtain ⟨-, -, -, -, -, -, -, -, e0, e1, -⟩ := idx0_facts t
  funext j
  show hblk0 V c t j = Hlin0 V c ((((cfg0.win 4).blk t).view.emb j) 0) ((((cfg0.win 4).blk t).view.emb j) 1)
  rw [hblk0_apply' V c t (Fin.cast N0_eq t) rfl]
  congr 1
  · apply Fin.ext; show 5000 * t.val + (j 0).val = win0_4.index t (0 : Fin 2) * 5000 + 1 * (j 0).val; omega
  · apply Fin.ext; show (j 1).val = win0_4.index t (1 : Fin 2) * 128 + 1 * (j 1).val; omega

/-- An index of the array is in point `t`'s block iff each coordinate is in the block's range on its axis. -/
theorem mem_blk0_4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v16_0).slice (win0_4.rect t)).set ↔ _
  rw [View.set_slice_whole, Rect.mem_set_unit]
  exact Iff.rfl

/-- Row `i` is covered by point `i / 5000`. -/
theorem cover0_4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hlt : (i 0).val / 5000 < cfg0.N := by rw [N0_eq]; omega
  obtain ⟨-, -, -, -, -, -, -, -, e0, e1, -⟩ := idx0_facts ⟨(i 0).val / 5000, hlt⟩
  refine ⟨⟨(i 0).val / 5000, hlt⟩, flush0_4 _, ?_⟩
  rw [mem_blk0_4]
  intro a
  match a with
  | ⟨0, _⟩ => show win0_4.index ⟨(i 0).val / 5000, hlt⟩ (0 : Fin 2) * 5000 ≤ (i 0).val ∧ (i 0).val < win0_4.index ⟨(i 0).val / 5000, hlt⟩ (0 : Fin 2) * 5000 + 5000; dsimp only at e0; omega
  | ⟨1, _⟩ => show win0_4.index ⟨(i 0).val / 5000, hlt⟩ (1 : Fin 2) * 128 ≤ (i 1).val ∧ (i 1).val < win0_4.index ⟨(i 0).val / 5000, hlt⟩ (1 : Fin 2) * 128 + 128; omega

/-- THE FIRST RESULT after the region: the affine map at every row and column. -/
theorem final0_4 (c : Dev nD) (i : Fin 50000) (j : Fin 128) :
    (dat0 (F := Ideal) V c).arrAt 4 cfg0.N (ix2 i j) = Hlin0 V c i j := by
  rw [(dat0 V c).arrAt_eq_of_cover 4 (G0_4 V c) (fun t _ => flushed0_4_eq V c t) cover0_4]
  rfl

/-! ## The two statistics results: written back once, after the last point -/

theorem flushed0_5_eq (c : Dev nD) (t : Fin cfg0.N) (hf : (cfg0.win 5).flush t = true) :
    (dat0 V c).flushed 5 t = ((cfg0.win 5).blk t).view.read (Elt Ideal) (accS0 V c 9) := by
  have h9 : t.val = 9 := by have h1 := (flush0_5 t).mp hf; have h2 := lt_of_lt_of_eq t.isLt N0_eq; omega
  obtain ⟨-, -, -, -, -, -, -, -, -, -, e0, e1, -⟩ := idx0_facts t
  show (cfg0.win 5).cut (grid0.coords t) ((dat0 V c).after 5 t) = _
  rw [after0_5, h9]
  funext j
  show accS0 V c 9 j = accS0 V c 9 (((cfg0.win 5).blk t).view.emb j)
  congr 1
  funext a; apply Fin.ext
  match a with
  | ⟨0, _⟩ => show (j 0).val = win0_5.index t (0 : Fin 2) * 1 + 1 * (j 0).val; omega
  | ⟨1, _⟩ => show (j 1).val = win0_5.index t (1 : Fin 2) * 128 + 1 * (j 1).val; omega

theorem mem_blk0_5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v16_1).slice (win0_5.rect t)).set ↔ _
  rw [View.set_slice_whole, Rect.mem_set_unit]
  exact Iff.rfl

/-- The last point's block is the whole array. -/
theorem cover0_5 (i : S1x128.Idx) : ∃ t : Fin cfg0.N, (cfg0.win 5).flush t = true ∧ i ∈ ((cfg0.win 5).blk t).view.set := by
  have hi0 : (i 0).val < 1 := (i 0).isLt
  have hi1 : (i 1).val < 128 := (i 1).isLt
  obtain ⟨-, -, -, -, -, -, -, -, -, -, e0, e1, -⟩ := idx0_facts t0_9
  refine ⟨t0_9, (flush0_5 t0_9).mpr rfl, ?_⟩
  rw [mem_blk0_5]
  intro a
  match a with
  | ⟨0, _⟩ => show win0_5.index t0_9 (0 : Fin 2) * 1 ≤ (i 0).val ∧ (i 0).val < win0_5.index t0_9 (0 : Fin 2) * 1 + 1; omega
  | ⟨1, _⟩ => show win0_5.index t0_9 (1 : Fin 2) * 128 ≤ (i 1).val ∧ (i 1).val < win0_5.index t0_9 (1 : Fin 2) * 128 + 128; omega

/-- The array ends holding the accumulator after all ten points. -/
theorem arr0_5 (c : Dev nD) : (dat0 (F := Ideal) V c).arrAt 5 cfg0.N = accS0 V c 9 :=
  (dat0 V c).arrAt_eq_of_cover 5 (accS0 V c 9) (fun t hf => flushed0_5_eq V c t hf) cover0_5

theorem flushed0_6_eq (c : Dev nD) (t : Fin cfg0.N) (hf : (cfg0.win 6).flush t = true) :
    (dat0 V c).flushed 6 t = ((cfg0.win 6).blk t).view.read (Elt Ideal) (accQ0 V c 9) := by
  have h9 : t.val = 9 := by have h1 := (flush0_6 t).mp hf; have h2 := lt_of_lt_of_eq t.isLt N0_eq; omega
  obtain ⟨-, -, -, -, -, -, -, -, -, -, -, -, e0, e1⟩ := idx0_facts t
  show (cfg0.win 6).cut (grid0.coords t) ((dat0 V c).after 6 t) = _
  rw [after0_6, h9]
  funext j
  show accQ0 V c 9 j = accQ0 V c 9 (((cfg0.win 6).blk t).view.emb j)
  congr 1
  funext a; apply Fin.ext
  match a with
  | ⟨0, _⟩ => show (j 0).val = win0_6.index t (0 : Fin 2) * 1 + 1 * (j 0).val; omega
  | ⟨1, _⟩ => show (j 1).val = win0_6.index t (1 : Fin 2) * 128 + 1 * (j 1).val; omega

theorem mem_blk0_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v16_2).slice (win0_6.rect t)).set ↔ _
  rw [View.set_slice_whole, Rect.mem_set_unit]
  exact Iff.rfl

/-- The last point's block is the whole array. -/
theorem cover0_6 (i : S1x128.Idx) : ∃ t : Fin cfg0.N, (cfg0.win 6).flush t = true ∧ i ∈ ((cfg0.win 6).blk t).view.set := by
  have hi0 : (i 0).val < 1 := (i 0).isLt
  have hi1 : (i 1).val < 128 := (i 1).isLt
  obtain ⟨-, -, -, -, -, -, -, -, -, -, -, -, e0, e1⟩ := idx0_facts t0_9
  refine ⟨t0_9, (flush0_6 t0_9).mpr rfl, ?_⟩
  rw [mem_blk0_6]
  intro a
  match a with
  | ⟨0, _⟩ => show win0_6.index t0_9 (0 : Fin 2) * 1 ≤ (i 0).val ∧ (i 0).val < win0_6.index t0_9 (0 : Fin 2) * 1 + 1; omega
  | ⟨1, _⟩ => show win0_6.index t0_9 (1 : Fin 2) * 128 ≤ (i 1).val ∧ (i 1).val < win0_6.index t0_9 (1 : Fin 2) * 128 + 128; omega

/-- The array ends holding the accumulator after all ten points. -/
theorem arr0_6 (c : Dev nD) : (dat0 (F := Ideal) V c).arrAt 6 cfg0.N = accQ0 V c 9 :=
  (dat0 V c).arrAt_eq_of_cover 6 (accQ0 V c 9) (fun t hf => flushed0_6_eq V c t hf) cover0_6

/-- The blocks of the point numbered `u`. -/
theorem pt0_cast (u : Fin 10) : u.val = (pt0 u.val).val := (Nat.mod_eq_of_lt u.isLt).symm

/-- THE SECOND RESULT after the region: the column sums of the affine map over all 50000 rows. -/
theorem final0_5 (c : Dev nD) (j : Fin 128) :
    (dat0 (F := Ideal) V c).arrAt 5 cfg0.N (ix2 0 j) = ∑ i : Fin 50000, Hlin0 V c i j := by
  rw [arr0_5]
  exact k0_colsum (fun n => iblk0 V c 0 (pt0 n)) (fun n => iblk0 V c 1 (pt0 n)) (wgt0 V c) (bia0 V c) (accS0 V c)
    (by rw [accS0, iblk0_2_eq, iblk0_3_eq]) (fun n _ => by rw [accS0, iblk0_2_eq, iblk0_3_eq])
    (fun i => Hlin0 V c i j) j
    (fun u r => pay3_blocks0 V c (pt0 u.val) u (pt0_cast u) r j)

/-- THE THIRD RESULT after the region: the column sums of its square. -/
theorem final0_6 (c : Dev nD) (j : Fin 128) :
    (dat0 (F := Ideal) V c).arrAt 6 cfg0.N (ix2 0 j) = ∑ i : Fin 50000, Hlin0 V c i j * Hlin0 V c i j := by
  rw [arr0_6]
  exact k0_colsumsq (fun n => iblk0 V c 0 (pt0 n)) (fun n => iblk0 V c 1 (pt0 n)) (wgt0 V c) (bia0 V c) (accQ0 V c)
    (by rw [accQ0, iblk0_2_eq, iblk0_3_eq]) (fun n _ => by rw [accQ0, iblk0_2_eq, iblk0_3_eq])
    (fun i => Hlin0 V c i j) j
    (fun u r => pay3_blocks0 V c (pt0 u.val) u (pt0_cast u) r j)

end Cert.KernelIdeal.HandVal

end
-- ==== Proof.PayBn.lean ====
/-
  What the normalise-and-rectify kernel bodies compute at the ideal values, index by index.

  With the column mean m, the column variance v, the scale g and the shift β each a single row broadcast over the
  tile's rows, the body stores  max ((h − m) · rsqrt (v + ε) · g + β, 0)  at every row and column, ε the constant
  the body adds to the variance, kept as the extended real its word denotes.
-/
import proofs.«144613_j17471926960174_1_alg».proof.Proof.Gen.KernelIdeal.Skeleton
import Idealize.ShloMosaic.PureOps.Ideal.Laws
import Idealize.ShloMosaic.Lib.ValueIdx
import Idealize.ShloMosaic.Lib.ValueLayout

noncomputable section

open scoped BigOperators

namespace Cert.KernelIdeal.PayVal

open Cert.KernelIdeal Cert.KernelIdeal.Gen Idealize.ShloMosaic Idealize.ShloMosaic.ValueIdx

/-- The reciprocal square root of a vector, read at an index, is the extended reals' own of the element there. -/
theorem rsqrt_apply {s : Shape} {φ : FTy} (a : FVec Ideal s φ) (i : s.Idx) : rsqrt a i = Ideal.rsqrt (a i) := rfl

/-- A scalar constant at the ideal values is the extended real its word denotes. -/
theorem scalar_ofBits (φ : FTy) (b : BitVec φ.bits) : Scalar.ofBits (F := Ideal) φ b = Ideal.ofBits φ b := rfl

/-! ## Region 1: 128 columns -/

theorem k1_pay1_apply (v0 : Vec Ideal S5000x128 .f32) (v2 v4 v6 v8 : Vec Ideal S1x128 .f32) (r : Fin 5000) (j : Fin 128) :
    k1_pay1 (F := Ideal) v0 v2 v4 v6 v8 (ix2 r j)
      = max ((v0 (ix2 r j) - v2 (ix2 0 j)) * Ideal.rsqrt (v4 (ix2 0 j) + Ideal.ofBits .f32 0x3727C5AC#32) * v6 (ix2 0 j)
          + v8 (ix2 0 j)) 0 := by
  unfold k1_pay1
  simp only [shapeCast_self]
  rw [maximumf_apply, broadcast_apply, addf_apply, mulf_apply, mulf_apply, subf_apply]
  simp only [broadcastTo_1b_ab_apply]
  rw [rsqrt_apply, addf_apply, broadcast_apply]
  exact congrArg (max _) Ideal.ofBits_zero_f32

/-! ## Region 7: 64 columns -/

theorem k7_pay1_apply (v0 : Vec Ideal S5000x64 .f32) (v2 v4 v6 v8 : Vec Ideal S1x64 .f32) (r : Fin 5000) (j : Fin 64) :
    k7_pay1 (F := Ideal) v0 v2 v4 v6 v8 (ix2 r j)
      = max ((v0 (ix2 r j) - v2 (ix2 0 j)) * Ideal.rsqrt (v4 (ix2 0 j) + Ideal.ofBits .f32 0x3727C5AC#32) * v6 (ix2 0 j)
          + v8 (ix2 0 j)) 0 := by
  unfold k7_pay1
  simp only [shapeCast_self]
  rw [maximumf_apply, broadcast_apply, addf_apply, mulf_apply, mulf_apply, subf_apply]
  simp only [broadcastTo_1b_ab_apply]
  rw [rsqrt_apply, addf_apply, broadcast_apply]
  exact congrArg (max _) Ideal.ofBits_zero_f32

/-! ## Regions 3 and 5 repeat the body of region 1, regions 9 and 11 that of region 7 -/

theorem k3_pay1_eq : @k3_pay1 = @k1_pay1 := rfl
theorem k5_pay1_eq : @k5_pay1 = @k1_pay1 := rfl
theorem k9_pay1_eq : @k9_pay1 = @k7_pay1 := rfl
theorem k11_pay1_eq : @k11_pay1 = @k7_pay1 := rfl

end Cert.KernelIdeal.PayVal

end
-- ==== Proof.ValBn1.lean ====
/- From blocks to the array, region 1: after the normalise-and-rectify region the output array holds, at row `i` and
   column `j`,  max ((h i j − m j) · rsqrt (v j + ε) · g j + β j, 0)  of the five input arrays as the region finds
   them. Point `t` of the grid handles rows `5000 t … 5000 t + 4999`: its input tile is those rows of `h`, the four
   row vectors are read whole at every point, and its output tile is written back to those rows; the ten tiles cover
   the array. -/
import proofs.«144613_j17471926960174_1_alg».proof.Proof.Bn1
import proofs.«144613_j17471926960174_1_alg».proof.Proof.PayBn
import Idealize.ShloMosaic.Lib.Pipeline.Value
import Idealize.ShloMosaic.Lib.ValueIdx
import Idealize.ShloMosaic.Lib.Tactic

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-- The five input arrays as the region finds them, at their element type: `h`, the column mean, the column
    variance, the scale row and the shift row. -/
abbrev arr1_0 (c : Dev nD) : S50000x128.Idx → EReal := V c main_v16_0
abbrev arr1_1 (c : Dev nD) : S1x128.Idx → EReal := V c main_v18
abbrev arr1_2 (c : Dev nD) : S1x128.Idx → EReal := V c main_v22
abbrev arr1_3 (c : Dev nD) : S1x128.Idx → EReal := V c main_v23
abbrev arr1_4 (c : Dev nD) : S1x128.Idx → EReal := V c main_v24

/-- The printed index maps, decided over the grid: the tiled windows sit at block row `t`, the row vectors at block 0. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the output array holds at row `i`, column `j`: the normalised, scaled, shifted and rectified entry. -/
def bnAt1 (c : Dev nD) (i : Fin 50000) (j : Fin 128) : EReal :=
  max ((arr1_0 V c (ix2 i j) - arr1_1 V c (ix2 0 j)) * Ideal.rsqrt (arr1_2 V c (ix2 0 j) + Ideal.ofBits .f32 0x3727C5AC#32)
      * arr1_3 V c (ix2 0 j) + arr1_4 V c (ix2 0 j)) 0

/-- The whole output array. -/
def bnArr1 (c : Dev nD) : S50000x128.Idx → EReal := fun k => bnAt1 V c (k 0) (k 1)

/-- The input tile at point `t` is rows `5000 t …` of the array. -/
theorem tile1_0_apply (c : Dev nD) (t : Fin cfg1.N) (r : Fin 5000) (j : Fin 128) (i : Fin 50000)
    (hi : i.val = 5000 * t.val + r.val) :
    (iblk1 V c 0 t : Vec Ideal S5000x128 .f32) (ix2 r j) = arr1_0 V c (ix2 i j) := by
  have hx := index_facts1 t
  unfold iblk1 arr1_0
  rw [View.read_apply]
  show V c main_v16_0 _ = V c main_v16_0 _
  congr 1
  funext a
  apply Fin.ext
  match a with
  | ⟨0, _⟩ => show win1_0.index t 0 * 5000 + 1 * r.val = i.val; omega
  | ⟨1, _⟩ => show win1_0.index t 1 * 128 + 1 * j.val = j.val; omega

/-- Window 1 is the whole one-row array at every point. -/
theorem row1_1_apply (c : Dev nD) (t : Fin cfg1.N) (j : Fin 128) :
    (iblk1 V c 1 t : Vec Ideal S1x128 .f32) (ix2 0 j) = arr1_1 V c (ix2 0 j) := by
  have hi := index_facts1 t
  unfold iblk1 arr1_1
  rw [View.read_apply]
  show V c main_v18 _ = V c main_v18 _
  congr 1
  funext a
  apply Fin.ext
  match a with
  | ⟨0, _⟩ => show win1_1.index t 0 * 1 + 1 * 0 = 0; omega
  | ⟨1, _⟩ => show win1_1.index t 1 * 128 + 1 * j.val = j.val; omega

/-- Window 2 is the whole one-row array at every point. -/
theorem row1_2_apply (c : Dev nD) (t : Fin cfg1.N) (j : Fin 128) :
    (iblk1 V c 2 t : Vec Ideal S1x128 .f32) (ix2 0 j) = arr1_2 V c (ix2 0 j) := by
  have hi := index_facts1 t
  unfold iblk1 arr1_2
  rw [View.read_apply]
  show V c main_v22 _ = V c main_v22 _
  congr 1
  funext a
  apply Fin.ext
  match a with
  | ⟨0, _⟩ => show win1_2.index t 0 * 1 + 1 * 0 = 0; omega
  | ⟨1, _⟩ => show win1_2.index t 1 * 128 + 1 * j.val = j.val; omega

/-- Window 3 is the whole one-row array at every point. -/
theorem row1_3_apply (c : Dev nD) (t : Fin cfg1.N) (j : Fin 128) :
    (iblk1 V c 3 t : Vec Ideal S1x128 .f32) (ix2 0 j) = arr1_3 V c (ix2 0 j) := by
  have hi := index_facts1 t
  unfold iblk1 arr1_3
  rw [View.read_apply]
  show V c main_v23 _ = V c main_v23 _
  congr 1
  funext a
  apply Fin.ext
  match a with
  | ⟨0, _⟩ => show win1_3.index t 0 * 1 + 1 * 0 = 0; omega
  | ⟨1, _⟩ => show win1_3.index t 1 * 128 + 1 * j.val = j.val; omega

/-- Window 4 is the whole one-row array at every point. -/
theorem row1_4_apply (c : Dev nD) (t : Fin cfg1.N) (j : Fin 128) :
    (iblk1 V c 4 t : Vec Ideal S1x128 .f32) (ix2 0 j) = arr1_4 V c (ix2 0 j) := by
  have hi := index_facts1 t
  unfold iblk1 arr1_4
  rw [View.read_apply]
  show V c main_v24 _ = V c main_v24 _
  congr 1
  funext a
  apply Fin.ext
  match a with
  | ⟨0, _⟩ => show win1_4.index t 0 * 1 + 1 * 0 = 0; omega
  | ⟨1, _⟩ => show win1_4.index t 1 * 128 + 1 * j.val = j.val; omega

/-- The output tile of point `t`, entry by entry. -/
theorem out1_5_apply (c : Dev nD) (t : Fin cfg1.N) (r : Fin 5000) (j : Fin 128) (i : Fin 50000)
    (hi : i.val = 5000 * t.val + r.val) :
    out1_5 (iblk1 V c 0 t) (iblk1 V c 1 t) (iblk1 V c 2 t) (iblk1 V c 3 t) (iblk1 V c 4 t) (ix2 r j) = bnAt1 V c i j := by
  rw [out1_5_eq, k1_pay1_apply, tile1_0_apply V c t r j i hi, row1_1_apply, row1_2_apply, row1_3_apply, row1_4_apply]
  rfl

/-- What point `t` writes back is block `t` of the whole output array. -/
theorem flushed1_eq (c : Dev nD) (t : Fin cfg1.N) :
    (dat1 (F := Ideal) V c).flushed 5 t = ((cfg1.win 5).blk t).view.read (Elt Ideal) (bnArr1 V c) := by
  show (cfg1.win 5).cut (grid1.coords t) ((dat1 (F := Ideal) V c).after 5 t) = _
  rw [after1_5]
  have hx := index_facts1 t
  have hN : cfg1.N = 10 := N_1
  funext y
  have hy0 : (y 0).val < 5000 := (y 0).isLt
  have hy1 : (y 1).val < 128 := (y 1).isLt
  have ht : t.val < 10 := hN ▸ t.isLt
  have e := out1_5_apply V c t ⟨(y 0).val, hy0⟩ ⟨(y 1).val, hy1⟩ ⟨5000 * t.val + (y 0).val, by omega⟩ rfl
  have hy : (cfg1.win 5).xinj (grid1.coords t) y = ix2 (n0 := 5000) (n1 := 128) ⟨(y 0).val, hy0⟩ ⟨(y 1).val, hy1⟩ := by
    funext a
    match a with
    | ⟨0, _⟩ => rfl
    | ⟨1, _⟩ => rfl
  show out1_5 (F := Ideal) _ _ _ _ _ ((cfg1.win 5).xinj (grid1.coords t) y) = bnArr1 V c (((cfg1.win 5).blk t).view.emb y)
  rw [hy, e]
  unfold bnArr1
  refine congrArg₂ (bnAt1 V c) (Fin.ext ?_) (Fin.ext ?_)
  · show 5000 * t.val + (y 0).val = win1_5.index t 0 * 5000 + 1 * (y 0).val
    omega
  · show (y 1).val = win1_5.index t 1 * 128 + 1 * (y 1).val
    omega

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- Row `i` is in the block of point `i / 5000`: the ten tiles cover the array. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have hq : (i 0).val / 5000 < cfg1.N := by rw [hN]; omega
  refine ⟨⟨(i 0).val / 5000, hq⟩, flush1_5 _, ?_⟩
  rw [mem_blk1]
  have hx := index_facts1 ⟨(i 0).val / 5000, hq⟩
  have h50 : win1_5.index ⟨(i 0).val / 5000, hq⟩ (0 : Fin 2) = (i 0).val / 5000 := hx.2.2.2.2.2.2.2.2.2.2.1
  have h51 : win1_5.index ⟨(i 0).val / 5000, hq⟩ (1 : Fin 2) = 0 := hx.2.2.2.2.2.2.2.2.2.2.2
  intro a
  match a with
  | ⟨0, _⟩ =>
    show win1_5.index ⟨(i 0).val / 5000, hq⟩ (0 : Fin 2) * 5000 ≤ (i 0).val ∧ (i 0).val < win1_5.index ⟨(i 0).val / 5000, hq⟩ (0 : Fin 2) * 5000 + 5000
    rw [h50]
    omega
  | ⟨1, _⟩ =>
    show win1_5.index ⟨(i 0).val / 5000, hq⟩ (1 : Fin 2) * 128 ≤ (i 1).val ∧ (i 1).val < win1_5.index ⟨(i 0).val / 5000, hq⟩ (1 : Fin 2) * 128 + 128
    rw [h51]
    omega

/-- The output array after the region. -/
theorem final1 (c : Dev nD) : (dat1 (F := Ideal) V c).arrAt 5 cfg1.N = bnArr1 V c :=
  (dat1 (F := Ideal) V c).arrAt_eq_of_cover 5 (bnArr1 V c) (fun t _ => flushed1_eq V c t) (cover1)

/-- The output array after the region, index by index. -/
theorem final1_apply (c : Dev nD) (i : Fin 50000) (j : Fin 128) :
    (dat1 (F := Ideal) V c).arrAt 5 cfg1.N (ix2 i j)
      = max ((arr1_0 V c (ix2 i j) - arr1_1 V c (ix2 0 j)) * Ideal.rsqrt (arr1_2 V c (ix2 0 j) + Ideal.ofBits .f32 0x3727C5AC#32)
          * arr1_3 V c (ix2 0 j) + arr1_4 V c (ix2 0 j)) 0 := by
  rw [final1]
  rfl

end Cert.KernelIdeal.HandVal
-- ==== Proof.AggReal.lean ====
/-
  The neighbour aggregation keeps reals real.

  A gather reads, at each result index, one element of its operand; an accumulating scatter leaves, at each index, the
  operand's element plus the sum of the updates that land there. Whatever the indices are, if every element of the
  operands is a real then so is every element of the result: a finite sum of reals is a real. The array the scatter
  starts from is the zero splat, every element of which is the real 0.
-/
import Idealize.ShloMosaic.PureOps.Ideal
import Idealize.ShloMosaic.PureOps.Ideal.Laws

noncomputable section

open scoped BigOperators

namespace Cert.AggReal

open Idealize.ShloMosaic

/-- A finite sum of extended reals each of which is a real is a real. -/
theorem finset_sum_real {ι : Type*} (s : Finset ι) (f : ι → EReal) (h : ∀ i ∈ s, ∃ y : ℝ, f i = (y : EReal)) :
    ∃ y : ℝ, ∑ i ∈ s, f i = (y : EReal) := by
  classical
  induction s using Finset.induction_on with
  | empty => exact ⟨0, by simp⟩
  | insert a s ha ih =>
    obtain ⟨ya, hya⟩ := h a (Finset.mem_insert_self a s)
    obtain ⟨ys, hys⟩ := ih fun i hi => h i (Finset.mem_insert_of_mem hi)
    exact ⟨ya + ys, by rw [Finset.sum_insert ha, hya, hys, EReal.coe_add]⟩

/-- A gather of an array of reals is an array of reals, whatever rows the indices name. -/
theorem gather_real {s si t : Shape} {w : Nat} (d : GatherDims s si t) (x : s.Idx → EReal) (idx : IVec si w)
    (hx : ∀ i, ∃ y : ℝ, x i = (y : EReal)) (j : t.Idx) : ∃ y : ℝ, Host.gather d x idx j = (y : EReal) :=
  hx _

/-- An accumulating scatter of reals into reals is an array of reals, wherever the updates land. -/
theorem scatterAdd_real {s si u : Shape} {w : Nat} {φ : FTy} (d : ScatterDims s si u) (x : FVec Ideal s φ)
    (idx : IVec si w) (upd : FVec Ideal u φ) (hx : ∀ i, ∃ y : ℝ, x i = (y : EReal))
    (hu : ∀ j, ∃ y : ℝ, upd j = (y : EReal)) (i : s.Idx) :
    ∃ y : ℝ, Host.scatterAdd d x idx upd i = (y : EReal) := by
  have key : ∀ S : Finset u.Idx, ∃ y : ℝ, x i + ∑ j ∈ S, upd j = (y : EReal) := fun S => by
    obtain ⟨a, ha⟩ := hx i
    obtain ⟨b, hb⟩ := finset_sum_real S upd fun j _ => hu j
    exact ⟨a + b, by rw [ha, hb, EReal.coe_add]⟩
  unfold Host.scatterAdd
  rw [Ideal.hostScatterAdd_def]
  unfold Ideal.hostScatterAdd
  exact key _

/-- Every element of the zero splat is the real 0. -/
theorem zero_splat_real {S : Shape} (bc : (⟨0, ![]⟩ : Shape).BroadcastsInDim S (![] : Fin 0 → Fin S.rank)) (i : S.Idx) :
    ∃ y : ℝ, broadcastInDim S ![] bc (constant (F := Ideal) ⟨0, ![]⟩ .f32 0x00000000#32) i = (y : EReal) :=
  ⟨0, by
    show Ideal.ofBits .f32 0x00000000#32 = _
    rw [Ideal.ofBits_zero_f32, EReal.coe_zero]⟩

end Cert.AggReal

end
-- ==== Proof.HostAgg.lean ====
/-
  The neighbour aggregation of a layer's input as one function of the input and the edge array.

  Before each linear kernel the host forms, from the layer input x : [50000, d] and the edge array e : [2, 800000],
  the array whose row v is the sum of the rows x[u] over the edges (u, v): row 0 of e gives the sources (a negative
  index wrapped by adding 50000), row 1 the destinations; the source rows are gathered and added, by an accumulating
  scatter, into the zero array at the destination rows. Whatever the edges are, real inputs give real sums.
-/
import proofs.«144613_j17471926960174_1_alg».proof.Proof.Gen.KernelIdeal
import proofs.«144613_j17471926960174_1_alg».proof.Proof.AggReal
import Idealize.ShloMosaic.PureOps.Ideal

noncomputable section

namespace Cert.KernelIdeal.HostVal

open Cert.KernelIdeal Cert.KernelIdeal.Gen Idealize.ShloMosaic

/-- The edges' source indices: row 0 of the edge array, as a vector. -/
def edgeSrc (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edges' destination indices: row 1 of the edge array, as a vector. -/
def edgeDst (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- A negative index counts from the end: 50000 is added to it. -/
def wrapIdx (s : (⟨S800000, .i32⟩ : BufTy).Contents (Elt Ideal)) : (⟨S800000, .i32⟩ : BufTy).Contents (Elt Ideal) :=
  select (cmpi .slt s (broadcastInDim S800000 ![] bcast_S_S800000 (constantI S_ 32 0#32)))
    (addi s (broadcastInDim S800000 ![] bcast_S_S800000 (constantI S_ 32 50000#32))) s

/-- The aggregation of a 256-column input. -/
def agg256 (x : (⟨S50000x256, .f32⟩ : BufTy).Contents (Elt Ideal)) (e : (⟨S2x800000, .i32⟩ : BufTy).Contents (Elt Ideal)) : (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 (edgeDst e))
    (Host.gather gather_S50000x256_S800000x1_S800000x256_1_0_n_n_0_1_1256 x
      (broadcastInDim S800000x1 ![0] bcast_S800000_S800000x1_0 (wrapIdx (edgeSrc e))))

/-- … of a real input is real. -/
theorem agg256_real (x : (⟨S50000x256, .f32⟩ : BufTy).Contents (Elt Ideal)) (e : (⟨S2x800000, .i32⟩ : BufTy).Contents (Elt Ideal))
    (hx : ∀ i, ∃ y : ℝ, x i = (y : EReal)) (i : S50000x256.Idx) : ∃ y : ℝ, agg256 x e i = (y : EReal) :=
  Cert.AggReal.scatterAdd_real _ _ _ _ (Cert.AggReal.zero_splat_real _)
    (fun j => Cert.AggReal.gather_real _ x _ hx j) i

/-- The aggregation of a 128-column input. -/
def agg128 (x : (⟨S50000x128, .f32⟩ : BufTy).Contents (Elt Ideal)) (e : (⟨S2x800000, .i32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (edgeDst e))
    (Host.gather gather_S50000x128_S800000x1_S800000x128_1_0_n_n_0_1_1128 x
      (broadcastInDim S800000x1 ![0] bcast_S800000_S800000x1_0 (wrapIdx (edgeSrc e))))

/-- … of a real input is real. -/
theorem agg128_real (x : (⟨S50000x128, .f32⟩ : BufTy).Contents (Elt Ideal)) (e : (⟨S2x800000, .i32⟩ : BufTy).Contents (Elt Ideal))
    (hx : ∀ i, ∃ y : ℝ, x i = (y : EReal)) (i : S50000x128.Idx) : ∃ y : ℝ, agg128 x e i = (y : EReal) :=
  Cert.AggReal.scatterAdd_real _ _ _ _ (Cert.AggReal.zero_splat_real _)
    (fun j => Cert.AggReal.gather_real _ x _ hx j) i

/-- The aggregation of a 64-column input. -/
def agg64 (x : (⟨S50000x64, .f32⟩ : BufTy).Contents (Elt Ideal)) (e : (⟨S2x800000, .i32⟩ : BufTy).Contents (Elt Ideal)) : (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 (edgeDst e))
    (Host.gather gather_S50000x64_S800000x1_S800000x64_1_0_n_n_0_1_164 x
      (broadcastInDim S800000x1 ![0] bcast_S800000_S800000x1_0 (wrapIdx (edgeSrc e))))

/-- … of a real input is real. -/
theorem agg64_real (x : (⟨S50000x64, .f32⟩ : BufTy).Contents (Elt Ideal)) (e : (⟨S2x800000, .i32⟩ : BufTy).Contents (Elt Ideal))
    (hx : ∀ i, ∃ y : ℝ, x i = (y : EReal)) (i : S50000x64.Idx) : ∃ y : ℝ, agg64 x e i = (y : EReal) :=
  Cert.AggReal.scatterAdd_real _ _ _ _ (Cert.AggReal.zero_splat_real _)
    (fun j => Cert.AggReal.gather_real _ x _ hx j) i

end Cert.KernelIdeal.HostVal

end
-- ==== Proof.HostEvenA.lean ====
/-
  The host stretches before the first four linear kernels, read over any contents W of the buffers: the aggregated layer
  input as the aggregation function of the input and the edges, the weight transposed, and the bias as a row.
-/
import proofs.«144613_j17471926960174_1_alg».proof.Proof.Gen.KernelIdeal.Launch
import proofs.«144613_j17471926960174_1_alg».proof.Proof.HostAgg
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostVal

open Cert.KernelIdeal Cert.KernelIdeal.Gen Idealize.ShloMosaic Idealize.ShloMosaic.ValueIdx Idealize.ShloMosaic.StableHlo

variable (W : Valuation τ sig (Elt Ideal))

/-! ## Stretch 0: before the linear kernel of 256 input and 128 output columns -/

set_option maxHeartbeats 2000000 in
/-- The aggregated input. -/
theorem hostOps0_v13 : (StableHlo.after (hostOps0 (F := Ideal)) W (Proc.devRef .tc main_v13) : (⟨S50000x256, .f32⟩ : BufTy).Contents (Elt Ideal)) = agg256 (W (Proc.devRef .tc main_arg0)) (W (Proc.devRef .tc main_arg3)) := by
  after_results <;> rfl

/-- The weight, transposed. -/
theorem hostOps0_v14_fn : (StableHlo.after (hostOps0 (F := Ideal)) W (Proc.devRef .tc main_v14) : (⟨S256x128, .f32⟩ : BufTy).Contents (Elt Ideal)) = transpose S256x128 [1, 0] (W (Proc.devRef .tc main_arg6)) transposes_S128x256_S256x128_1_0 := by
  after_results <;> rfl

theorem hostOps0_v14 (k : Fin 256) (j : Fin 128) :
    (StableHlo.after (hostOps0 (F := Ideal)) W (Proc.devRef .tc main_v14) : (⟨S256x128, .f32⟩ : BufTy).Contents (Elt Ideal)) (ix2 k j) = (W (Proc.devRef .tc main_arg6) : (⟨S128x256, .f32⟩ : BufTy).Contents (Elt Ideal)) (ix2 j k) := by
  rw [hostOps0_v14_fn]
  exact transpose_ix2_apply _ _ k j

/-- The bias, as a row. -/
theorem hostOps0_v15_fn : (StableHlo.after (hostOps0 (F := Ideal)) W (Proc.devRef .tc main_v15) : (⟨S1x128, .f32⟩ : BufTy).Contents (Elt Ideal)) = shapeCast S1x128 (W (Proc.devRef .tc main_arg7)) shapeCasts_S128_S1x128 := by
  after_results <;> rfl

theorem hostOps0_v15 (j : Fin 128) :
    (StableHlo.after (hostOps0 (F := Ideal)) W (Proc.devRef .tc main_v15) : (⟨S1x128, .f32⟩ : BufTy).Contents (Elt Ideal)) (ix2 0 j) = (W (Proc.devRef .tc main_arg7) : (⟨S128, .f32⟩ : BufTy).Contents (Elt Ideal)) (ix1 j) := by
  rw [hostOps0_v15_fn]
  exact shapeCast_a_1a_apply _ _ 0 j

/-! ## Stretch 2: before the linear kernel of 128 input and 128 output columns -/

set_option maxHeartbeats 2000000 in
/-- The aggregated input. -/
theorem hostOps2_v39 : (StableHlo.after (hostOps2 (F := Ideal)) W (Proc.devRef .tc main_v39) : (⟨S50000x128, .f32⟩ : BufTy).Contents (Elt Ideal)) = agg128 (W (Proc.devRef .tc main_arg1)) (W (Proc.devRef .tc main_arg4)) := by
  after_results <;> rfl

/-- The weight, transposed. -/
theorem hostOps2_v40_fn : (StableHlo.after (hostOps2 (F := Ideal)) W (Proc.devRef .tc main_v40) : (⟨S128x128, .f32⟩ : BufTy).Contents (Elt Ideal)) = transpose S128x128 [1, 0] (W (Proc.devRef .tc main_arg10)) transposes_S128x128_S128x128_1_0 := by
  after_results <;> rfl

theorem hostOps2_v40 (k : Fin 128) (j : Fin 128) :
    (StableHlo.after (hostOps2 (F := Ideal)) W (Proc.devRef .tc main_v40) : (⟨S128x128, .f32⟩ : BufTy).Contents (Elt Ideal)) (ix2 k j) = (W (Proc.devRef .tc main_arg10) : (⟨S128x128, .f32⟩ : BufTy).Contents (Elt Ideal)) (ix2 j k) := by
  rw [hostOps2_v40_fn]
  exact transpose_ix2_apply _ _ k j

/-- The bias, as a row. -/
theorem hostOps2_v41_fn : (StableHlo.after (hostOps2 (F := Ideal)) W (Proc.devRef .tc main_v41) : (⟨S1x128, .f32⟩ : BufTy).Contents (Elt Ideal)) = shapeCast S1x128 (W (Proc.devRef .tc main_arg11)) shapeCasts_S128_S1x128 := by
  after_results <;> rfl

theorem hostOps2_v41 (j : Fin 128) :
    (StableHlo.after (hostOps2 (F := Ideal)) W (Proc.devRef .tc main_v41) : (⟨S1x128, .f32⟩ : BufTy).Contents (Elt Ideal)) (ix2 0 j) = (W (Proc.devRef .tc main_arg11) : (⟨S128, .f32⟩ : BufTy).Contents (Elt Ideal)) (ix1 j) := by
  rw [hostOps2_v41_fn]
  exact shapeCast_a_1a_apply _ _ 0 j

/-! ## Stretch 4: before the linear kernel of 256 input and 128 output columns -/

set_option maxHeartbeats 2000000 in
/-- The aggregated input. -/
theorem hostOps4_v65 : (StableHlo.after (hostOps4 (F := Ideal)) W (Proc.devRef .tc main_v65) : (⟨S50000x256, .f32⟩ : BufTy).Contents (Elt Ideal)) = agg256 (W (Proc.devRef .tc main_arg2)) (W (Proc.devRef .tc main_arg5)) := by
  after_results <;> rfl

/-- The weight, transposed. -/
theorem hostOps4_v66_fn : (StableHlo.after (hostOps4 (F := Ideal)) W (Proc.devRef .tc main_v66) : (⟨S256x128, .f32⟩ : BufTy).Contents (Elt Ideal)) = transpose S256x128 [1, 0] (W (Proc.devRef .tc main_arg14)) transposes_S128x256_S256x128_1_0 := by
  after_results <;> rfl

theorem hostOps4_v66 (k : Fin 256) (j : Fin 128) :
    (StableHlo.after (hostOps4 (F := Ideal)) W (Proc.devRef .tc main_v66) : (⟨S256x128, .f32⟩ : BufTy).Contents (Elt Ideal)) (ix2 k j) = (W (Proc.devRef .tc main_arg14) : (⟨S128x256, .f32⟩ : BufTy).Contents (Elt Ideal)) (ix2 j k) := by
  rw [hostOps4_v66_fn]
  exact transpose_ix2_apply _ _ k j

/-- The bias, as a row. -/
theorem hostOps4_v67_fn : (StableHlo.after (hostOps4 (F := Ideal)) W (Proc.devRef .tc main_v67) : (⟨S1x128, .f32⟩ : BufTy).Contents (Elt Ideal)) = shapeCast S1x128 (W (Proc.devRef .tc main_arg15)) shapeCasts_S128_S1x128 := by
  after_results <;> rfl

theorem hostOps4_v67 (j : Fin 128) :
    (StableHlo.after (hostOps4 (F := Ideal)) W (Proc.devRef .tc main_v67) : (⟨S1x128, .f32⟩ : BufTy).Contents (Elt Ideal)) (ix2 0 j) = (W (Proc.devRef .tc main_arg15) : (⟨S128, .f32⟩ : BufTy).Contents (Elt Ideal)) (ix1 j) := by
  rw [hostOps4_v67_fn]
  exact shapeCast_a_1a_apply _ _ 0 j

/-! ## Stretch 6: before the linear kernel of 128 input and 64 output columns -/

set_option maxHeartbeats 2000000 in
/-- The aggregated input. -/
theorem hostOps6_v91 : (StableHlo.after (hostOps6 (F := Ideal)) W (Proc.devRef .tc main_v91) : (⟨S50000x128, .f32⟩ : BufTy).Contents (Elt Ideal)) = agg128 (W (Proc.devRef .tc main_v25)) (W (Proc.devRef .tc main_arg3)) := by
  after_results <;> rfl

/-- The weight, transposed. -/
theorem hostOps6_v92_fn : (StableHlo.after (hostOps6 (F := Ideal)) W (Proc.devRef .tc main_v92) : (⟨S128x64, .f32⟩ : BufTy).Contents (Elt Ideal)) = transpose S128x64 [1, 0] (W (Proc.devRef .tc main_arg18)) transposes_S64x128_S128x64_1_0 := by
  after_results <;> rfl

theorem hostOps6_v92 (k : Fin 128) (j : Fin 64) :
    (StableHlo.after (hostOps6 (F := Ideal)) W (Proc.devRef .tc main_v92) : (⟨S128x64, .f32⟩ : BufTy).Contents (Elt Ideal)) (ix2 k j) = (W (Proc.devRef .tc main_arg18) : (⟨S64x128, .f32⟩ : BufTy).Contents (Elt Ideal)) (ix2 j k) := by
  rw [hostOps6_v92_fn]
  exact transpose_ix2_apply _ _ k j

/-- The bias, as a row. -/
theorem hostOps6_v93_fn : (StableHlo.after (hostOps6 (F := Ideal)) W (Proc.devRef .tc main_v93) : (⟨S1x64, .f32⟩ : BufTy).Contents (Elt Ideal)) = shapeCast S1x64 (W (Proc.devRef .tc main_arg19)) shapeCasts_S64_S1x64 := by
  after_results <;> rfl

theorem hostOps6_v93 (j : Fin 64) :
    (StableHlo.after (hostOps6 (F := Ideal)) W (Proc.devRef .tc main_v93) : (⟨S1x64, .f32⟩ : BufTy).Contents (Elt Ideal)) (ix2 0 j) = (W (Proc.devRef .tc main_arg19) : (⟨S64, .f32⟩ : BufTy).Contents (Elt Ideal)) (ix1 j) := by
  rw [hostOps6_v93_fn]
  exact shapeCast_a_1a_apply _ _ 0 j

end Cert.KernelIdeal.HostVal

end
-- ==== Proof.HostEvenB.lean ====
/-
  The host stretches before the last four linear kernels, read over any contents W of the buffers: the aggregated layer
  input as the aggregation function of the input and the edges, the weight transposed, and the bias as a row.
-/
import proofs.«144613_j17471926960174_1_alg».proof.Proof.Gen.KernelIdeal.Launch
import proofs.«144613_j17471926960174_1_alg».proof.Proof.HostAgg
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostVal

open Cert.KernelIdeal Cert.KernelIdeal.Gen Idealize.ShloMosaic Idealize.ShloMosaic.ValueIdx Idealize.ShloMosaic.StableHlo

variable (W : Valuation τ sig (Elt Ideal))

/-! ## Stretch 8: before the linear kernel of 128 input and 64 output columns -/

set_option maxHeartbeats 2000000 in
/-- The aggregated input. -/
theorem hostOps8_v117 : (StableHlo.after (hostOps8 (F := Ideal)) W (Proc.devRef .tc main_v117) : (⟨S50000x128, .f32⟩ : BufTy).Contents (Elt Ideal)) = agg128 (W (Proc.devRef .tc main_v51)) (W (Proc.devRef .tc main_arg4)) := by
  after_results <;> rfl

/-- The weight, transposed. -/
theorem hostOps8_v118_fn : (StableHlo.after (hostOps8 (F := Ideal)) W (Proc.devRef .tc main_v118) : (⟨S128x64, .f32⟩ : BufTy).Contents (Elt Ideal)) = transpose S128x64 [1, 0] (W (Proc.devRef .tc main_arg18)) transposes_S64x128_S128x64_1_0 := by
  after_results <;> rfl

theorem hostOps8_v118 (k : Fin 128) (j : Fin 64) :
    (StableHlo.after (hostOps8 (F := Ideal)) W (Proc.devRef .tc main_v118) : (⟨S128x64, .f32⟩ : BufTy).Contents (Elt Ideal)) (ix2 k j) = (W (Proc.devRef .tc main_arg18) : (⟨S64x128, .f32⟩ : BufTy).Contents (Elt Ideal)) (ix2 j k) := by
  rw [hostOps8_v118_fn]
  exact transpose_ix2_apply _ _ k j

/-- The bias, as a row. -/
theorem hostOps8_v119_fn : (StableHlo.after (hostOps8 (F := Ideal)) W (Proc.devRef .tc main_v119) : (⟨S1x64, .f32⟩ : BufTy).Contents (Elt Ideal)) = shapeCast S1x64 (W (Proc.devRef .tc main_arg19)) shapeCasts_S64_S1x64 := by
  after_results <;> rfl

theorem hostOps8_v119 (j : Fin 64) :
    (StableHlo.after (hostOps8 (F := Ideal)) W (Proc.devRef .tc main_v119) : (⟨S1x64, .f32⟩ : BufTy).Contents (Elt Ideal)) (ix2 0 j) = (W (Proc.devRef .tc main_arg19) : (⟨S64, .f32⟩ : BufTy).Contents (Elt Ideal)) (ix1 j) := by
  rw [hostOps8_v119_fn]
  exact shapeCast_a_1a_apply _ _ 0 j

/-! ## Stretch 10: before the linear kernel of 128 input and 64 output columns -/

set_option maxHeartbeats 2000000 in
/-- The aggregated input. -/
theorem hostOps10_v143 : (StableHlo.after (hostOps10 (F := Ideal)) W (Proc.devRef .tc main_v143) : (⟨S50000x128, .f32⟩ : BufTy).Contents (Elt Ideal)) = agg128 (W (Proc.devRef .tc main_v77)) (W (Proc.devRef .tc main_arg5)) := by
  after_results <;> rfl

/-- The weight, transposed. -/
theorem hostOps10_v144_fn : (StableHlo.after (hostOps10 (F := Ideal)) W (Proc.devRef .tc main_v144) : (⟨S128x64, .f32⟩ : BufTy).Contents (Elt Ideal)) = transpose S128x64 [1, 0] (W (Proc.devRef .tc main_arg18)) transposes_S64x128_S128x64_1_0 := by
  after_results <;> rfl

theorem hostOps10_v144 (k : Fin 128) (j : Fin 64) :
    (StableHlo.after (hostOps10 (F := Ideal)) W (Proc.devRef .tc main_v144) : (⟨S128x64, .f32⟩ : BufTy).Contents (Elt Ideal)) (ix2 k j) = (W (Proc.devRef .tc main_arg18) : (⟨S64x128, .f32⟩ : BufTy).Contents (Elt Ideal)) (ix2 j k) := by
  rw [hostOps10_v144_fn]
  exact transpose_ix2_apply _ _ k j

/-- The bias, as a row. -/
theorem hostOps10_v145_fn : (StableHlo.after (hostOps10 (F := Ideal)) W (Proc.devRef .tc main_v145) : (⟨S1x64, .f32⟩ : BufTy).Contents (Elt Ideal)) = shapeCast S1x64 (W (Proc.devRef .tc main_arg19)) shapeCasts_S64_S1x64 := by
  after_results <;> rfl

theorem hostOps10_v145 (j : Fin 64) :
    (StableHlo.after (hostOps10 (F := Ideal)) W (Proc.devRef .tc main_v145) : (⟨S1x64, .f32⟩ : BufTy).Contents (Elt Ideal)) (ix2 0 j) = (W (Proc.devRef .tc main_arg19) : (⟨S64, .f32⟩ : BufTy).Contents (Elt Ideal)) (ix1 j) := by
  rw [hostOps10_v145_fn]
  exact shapeCast_a_1a_apply _ _ 0 j

/-! ## Stretch 12: before the linear kernel of 64 input and 256 output columns -/

set_option maxHeartbeats 2000000 in
/-- The aggregated input. -/
theorem hostOps12_v169 : (StableHlo.after (hostOps12 (F := Ideal)) W (Proc.devRef .tc main_v169) : (⟨S50000x64, .f32⟩ : BufTy).Contents (Elt Ideal)) = agg64 (W (Proc.devRef .tc main_v103)) (W (Proc.devRef .tc main_arg3)) := by
  after_results <;> rfl

/-- The weight, transposed. -/
theorem hostOps12_v170_fn : (StableHlo.after (hostOps12 (F := Ideal)) W (Proc.devRef .tc main_v170) : (⟨S64x256, .f32⟩ : BufTy).Contents (Elt Ideal)) = transpose S64x256 [1, 0] (W (Proc.devRef .tc main_arg22)) transposes_S256x64_S64x256_1_0 := by
  after_results <;> rfl

theorem hostOps12_v170 (k : Fin 64) (j : Fin 256) :
    (StableHlo.after (hostOps12 (F := Ideal)) W (Proc.devRef .tc main_v170) : (⟨S64x256, .f32⟩ : BufTy).Contents (Elt Ideal)) (ix2 k j) = (W (Proc.devRef .tc main_arg22) : (⟨S256x64, .f32⟩ : BufTy).Contents (Elt Ideal)) (ix2 j k) := by
  rw [hostOps12_v170_fn]
  exact transpose_ix2_apply _ _ k j

/-- The bias, as a row. -/
theorem hostOps12_v171_fn : (StableHlo.after (hostOps12 (F := Ideal)) W (Proc.devRef .tc main_v171) : (⟨S1x256, .f32⟩ : BufTy).Contents (Elt Ideal)) = shapeCast S1x256 (W (Proc.devRef .tc main_arg23)) shapeCasts_S256_S1x256 := by
  after_results <;> rfl

theorem hostOps12_v171 (j : Fin 256) :
    (StableHlo.after (hostOps12 (F := Ideal)) W (Proc.devRef .tc main_v171) : (⟨S1x256, .f32⟩ : BufTy).Contents (Elt Ideal)) (ix2 0 j) = (W (Proc.devRef .tc main_arg23) : (⟨S256, .f32⟩ : BufTy).Contents (Elt Ideal)) (ix1 j) := by
  rw [hostOps12_v171_fn]
  exact shapeCast_a_1a_apply _ _ 0 j

/-! ## Stretch 13: before the linear kernel of 64 input and 128 output columns -/

set_option maxHeartbeats 2000000 in
/-- The aggregated input. -/
theorem hostOps13_v186 : (StableHlo.after (hostOps13 (F := Ideal)) W (Proc.devRef .tc main_v186) : (⟨S50000x64, .f32⟩ : BufTy).Contents (Elt Ideal)) = agg64 (W (Proc.devRef .tc main_v129)) (W (Proc.devRef .tc main_arg4)) := by
  after_results <;> rfl

/-- The weight, transposed. -/
theorem hostOps13_v187_fn : (StableHlo.after (hostOps13 (F := Ideal)) W (Proc.devRef .tc main_v187) : (⟨S64x128, .f32⟩ : BufTy).Contents (Elt Ideal)) = transpose S64x128 [1, 0] (W (Proc.devRef .tc main_arg24)) transposes_S128x64_S64x128_1_0 := by
  after_results <;> rfl

theorem hostOps13_v187 (k : Fin 64) (j : Fin 128) :
    (StableHlo.after (hostOps13 (F := Ideal)) W (Proc.devRef .tc main_v187) : (⟨S64x128, .f32⟩ : BufTy).Contents (Elt Ideal)) (ix2 k j) = (W (Proc.devRef .tc main_arg24) : (⟨S128x64, .f32⟩ : BufTy).Contents (Elt Ideal)) (ix2 j k) := by
  rw [hostOps13_v187_fn]
  exact transpose_ix2_apply _ _ k j

/-- The bias, as a row. -/
theorem hostOps13_v188_fn : (StableHlo.after (hostOps13 (F := Ideal)) W (Proc.devRef .tc main_v188) : (⟨S1x128, .f32⟩ : BufTy).Contents (Elt Ideal)) = shapeCast S1x128 (W (Proc.devRef .tc main_arg25)) shapeCasts_S128_S1x128 := by
  after_results <;> rfl

theorem hostOps13_v188 (j : Fin 128) :
    (StableHlo.after (hostOps13 (F := Ideal)) W (Proc.devRef .tc main_v188) : (⟨S1x128, .f32⟩ : BufTy).Contents (Elt Ideal)) (ix2 0 j) = (W (Proc.devRef .tc main_arg25) : (⟨S128, .f32⟩ : BufTy).Contents (Elt Ideal)) (ix1 j) := by
  rw [hostOps13_v188_fn]
  exact shapeCast_a_1a_apply _ _ 0 j

end Cert.KernelIdeal.HostVal

end
-- ==== Proof.HostOdd.lean ====
/-
  The host stretches between a statistics kernel and its normalising kernel, read over any contents W of the buffers:
  the column mean and variance from the two accumulated rows, and the scale and shift as rows; and the last stretch,
  which stacks the two outputs.
-/
import proofs.«144613_j17471926960174_1_alg».proof.Proof.Gen.KernelIdeal.Launch
import proofs.«144613_j17471926960174_1_alg».proof.Proof.HostAgg
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostVal

open Cert.KernelIdeal Cert.KernelIdeal.Gen Idealize.ShloMosaic Idealize.ShloMosaic.ValueIdx Idealize.ShloMosaic.StableHlo

variable (W : Valuation τ sig (Elt Ideal))

/-! ## Stretch 1: between the statistics kernel and the normalising kernel, 128 columns -/

/-- The column mean: the sum row over the row count. -/
theorem hostOps1_v18_fn : (StableHlo.after (hostOps1 (F := Ideal)) W (Proc.devRef .tc main_v18) : (⟨S1x128, .f32⟩ : BufTy).Contents (Elt Ideal))
    = Host.divf (W (Proc.devRef .tc main_v16_1)) (broadcastInDim S1x128 ![] bcast_S_S1x128 (constant (F := Ideal) S_ .f32 0x47435000#32)) := by
  after_results <;> rfl

theorem hostOps1_v18 (j : Fin 128) :
    (StableHlo.after (hostOps1 (F := Ideal)) W (Proc.devRef .tc main_v18) : (⟨S1x128, .f32⟩ : BufTy).Contents (Elt Ideal)) (ix2 0 j) = Ideal.div ((W (Proc.devRef .tc main_v16_1) : (⟨S1x128, .f32⟩ : BufTy).Contents (Elt Ideal)) (ix2 0 j)) (Ideal.ofBits .f32 0x47435000#32) := by
  rw [hostOps1_v18_fn]; rfl

/-- The column variance: the square-sum row over the row count, less the squared mean. -/
theorem hostOps1_v22_fn : (StableHlo.after (hostOps1 (F := Ideal)) W (Proc.devRef .tc main_v22) : (⟨S1x128, .f32⟩ : BufTy).Contents (Elt Ideal))
    = subf (Host.divf (W (Proc.devRef .tc main_v16_2)) (broadcastInDim S1x128 ![] bcast_S_S1x128 (constant (F := Ideal) S_ .f32 0x47435000#32)))
        (mulf (Host.divf (W (Proc.devRef .tc main_v16_1)) (broadcastInDim S1x128 ![] bcast_S_S1x128 (constant (F := Ideal) S_ .f32 0x47435000#32)))
          (Host.divf (W (Proc.devRef .tc main_v16_1)) (broadcastInDim S1x128 ![] bcast_S_S1x128 (constant (F := Ideal) S_ .f32 0x47435000#32)))) := by
  after_results <;> rfl

theorem hostOps1_v22 (j : Fin 128) :
    (StableHlo.after (hostOps1 (F := Ideal)) W (Proc.devRef .tc main_v22) : (⟨S1x128, .f32⟩ : BufTy).Contents (Elt Ideal)) (ix2 0 j)
      = Ideal.div ((W (Proc.devRef .tc main_v16_2) : (⟨S1x128, .f32⟩ : BufTy).Contents (Elt Ideal)) (ix2 0 j)) (Ideal.ofBits .f32 0x47435000#32)
        - Ideal.div ((W (Proc.devRef .tc main_v16_1) : (⟨S1x128, .f32⟩ : BufTy).Contents (Elt Ideal)) (ix2 0 j)) (Ideal.ofBits .f32 0x47435000#32)
          * Ideal.div ((W (Proc.devRef .tc main_v16_1) : (⟨S1x128, .f32⟩ : BufTy).Contents (Elt Ideal)) (ix2 0 j)) (Ideal.ofBits .f32 0x47435000#32) := by
  rw [hostOps1_v22_fn]; rfl

/-- The scale and the shift, as rows. -/
theorem hostOps1_v23_fn : (StableHlo.after (hostOps1 (F := Ideal)) W (Proc.devRef .tc main_v23) : (⟨S1x128, .f32⟩ : BufTy).Contents (Elt Ideal)) = shapeCast S1x128 (W (Proc.devRef .tc main_arg8)) shapeCasts_S128_S1x128 := by
  after_results <;> rfl

theorem hostOps1_v23 (j : Fin 128) : (StableHlo.after (hostOps1 (F := Ideal)) W (Proc.devRef .tc main_v23) : (⟨S1x128, .f32⟩ : BufTy).Contents (Elt Ideal)) (ix2 0 j) = (W (Proc.devRef .tc main_arg8) : (⟨S128, .f32⟩ : BufTy).Contents (Elt Ideal)) (ix1 j) := by
  rw [hostOps1_v23_fn]
  exact shapeCast_a_1a_apply _ _ 0 j

theorem hostOps1_v24_fn : (StableHlo.after (hostOps1 (F := Ideal)) W (Proc.devRef .tc main_v24) : (⟨S1x128, .f32⟩ : BufTy).Contents (Elt Ideal)) = shapeCast S1x128 (W (Proc.devRef .tc main_arg9)) shapeCasts_S128_S1x128 := by
  after_results <;> rfl

theorem hostOps1_v24 (j : Fin 128) : (StableHlo.after (hostOps1 (F := Ideal)) W (Proc.devRef .tc main_v24) : (⟨S1x128, .f32⟩ : BufTy).Contents (Elt Ideal)) (ix2 0 j) = (W (Proc.devRef .tc main_arg9) : (⟨S128, .f32⟩ : BufTy).Contents (Elt Ideal)) (ix1 j) := by
  rw [hostOps1_v24_fn]
  exact shapeCast_a_1a_apply _ _ 0 j

/-! ## Stretch 3: between the statistics kernel and the normalising kernel, 128 columns -/

/-- The column mean: the sum row over the row count. -/
theorem hostOps3_v44_fn : (StableHlo.after (hostOps3 (F := Ideal)) W (Proc.devRef .tc main_v44) : (⟨S1x128, .f32⟩ : BufTy).Contents (Elt Ideal))
    = Host.divf (W (Proc.devRef .tc main_v42_1)) (broadcastInDim S1x128 ![] bcast_S_S1x128 (constant (F := Ideal) S_ .f32 0x47435000#32)) := by
  after_results <;> rfl

theorem hostOps3_v44 (j : Fin 128) :
    (StableHlo.after (hostOps3 (F := Ideal)) W (Proc.devRef .tc main_v44) : (⟨S1x128, .f32⟩ : BufTy).Contents (Elt Ideal)) (ix2 0 j) = Ideal.div ((W (Proc.devRef .tc main_v42_1) : (⟨S1x128, .f32⟩ : BufTy).Contents (Elt Ideal)) (ix2 0 j)) (Ideal.ofBits .f32 0x47435000#32) := by
  rw [hostOps3_v44_fn]; rfl

/-- The column variance: the square-sum row over the row count, less the squared mean. -/
theorem hostOps3_v48_fn : (StableHlo.after (hostOps3 (F := Ideal)) W (Proc.devRef .tc main_v48) : (⟨S1x128, .f32⟩ : BufTy).Contents (Elt Ideal))
    = subf (Host.divf (W (Proc.devRef .tc main_v42_2)) (broadcastInDim S1x128 ![] bcast_S_S1x128 (constant (F := Ideal) S_ .f32 0x47435000#32)))
        (mulf (Host.divf (W (Proc.devRef .tc main_v42_1)) (broadcastInDim S1x128 ![] bcast_S_S1x128 (constant (F := Ideal) S_ .f32 0x47435000#32)))
          (Host.divf (W (Proc.devRef .tc main_v42_1)) (broadcastInDim S1x128 ![] bcast_S_S1x128 (constant (F := Ideal) S_ .f32 0x47435000#32)))) := by
  after_results <;> rfl

theorem hostOps3_v48 (j : Fin 128) :
    (StableHlo.after (hostOps3 (F := Ideal)) W (Proc.devRef .tc main_v48) : (⟨S1x128, .f32⟩ : BufTy).Contents (Elt Ideal)) (ix2 0 j)
      = Ideal.div ((W (Proc.devRef .tc main_v42_2) : (⟨S1x128, .f32⟩ : BufTy).Contents (Elt Ideal)) (ix2 0 j)) (Ideal.ofBits .f32 0x47435000#32)
        - Ideal.div ((W (Proc.devRef .tc main_v42_1) : (⟨S1x128, .f32⟩ : BufTy).Contents (Elt Ideal)) (ix2 0 j)) (Ideal.ofBits .f32 0x47435000#32)
          * Ideal.div ((W (Proc.devRef .tc main_v42_1) : (⟨S1x128, .f32⟩ : BufTy).Contents (Elt Ideal)) (ix2 0 j)) (Ideal.ofBits .f32 0x47435000#32) := by
  rw [hostOps3_v48_fn]; rfl

/-- The scale and the shift, as rows. -/
theorem hostOps3_v49_fn : (StableHlo.after (hostOps3 (F := Ideal)) W (Proc.devRef .tc main_v49) : (⟨S1x128, .f32⟩ : BufTy).Contents (Elt Ideal)) = shapeCast S1x128 (W (Proc.devRef .tc main_arg12)) shapeCasts_S128_S1x128 := by
  after_results <;> rfl

theorem hostOps3_v49 (j : Fin 128) : (StableHlo.after (hostOps3 (F := Ideal)) W (Proc.devRef .tc main_v49) : (⟨S1x128, .f32⟩ : BufTy).Contents (Elt Ideal)) (ix2 0 j) = (W (Proc.devRef .tc main_arg12) : (⟨S128, .f32⟩ : BufTy).Contents (Elt Ideal)) (ix1 j) := by
  rw [hostOps3_v49_fn]
  exact shapeCast_a_1a_apply _ _ 0 j

theorem hostOps3_v50_fn : (StableHlo.after (hostOps3 (F := Ideal)) W (Proc.devRef .tc main_v50) : (⟨S1x128, .f32⟩ : BufTy).Contents (Elt Ideal)) = shapeCast S1x128 (W (Proc.devRef .tc main_arg13)) shapeCasts_S128_S1x128 := by
  after_results <;> rfl

theorem hostOps3_v50 (j : Fin 128) : (StableHlo.after (hostOps3 (F := Ideal)) W (Proc.devRef .tc main_v50) : (⟨S1x128, .f32⟩ : BufTy).Contents (Elt Ideal)) (ix2 0 j) = (W (Proc.devRef .tc main_arg13) : (⟨S128, .f32⟩ : BufTy).Contents (Elt Ideal)) (ix1 j) := by
  rw [hostOps3_v50_fn]
  exact shapeCast_a_1a_apply _ _ 0 j

/-! ## Stretch 5: between the statistics kernel and the normalising kernel, 128 columns -/

/-- The column mean: the sum row over the row count. -/
theorem hostOps5_v70_fn : (StableHlo.after (hostOps5 (F := Ideal)) W (Proc.devRef .tc main_v70) : (⟨S1x128, .f32⟩ : BufTy).Contents (Elt Ideal))
    = Host.divf (W (Proc.devRef .tc main_v68_1)) (broadcastInDim S1x128 ![] bcast_S_S1x128 (constant (F := Ideal) S_ .f32 0x47435000#32)) := by
  after_results <;> rfl

theorem hostOps5_v70 (j : Fin 128) :
    (StableHlo.after (hostOps5 (F := Ideal)) W (Proc.devRef .tc main_v70) : (⟨S1x128, .f32⟩ : BufTy).Contents (Elt Ideal)) (ix2 0 j) = Ideal.div ((W (Proc.devRef .tc main_v68_1) : (⟨S1x128, .f32⟩ : BufTy).Contents (Elt Ideal)) (ix2 0 j)) (Ideal.ofBits .f32 0x47435000#32) := by
  rw [hostOps5_v70_fn]; rfl

/-- The column variance: the square-sum row over the row count, less the squared mean. -/
theorem hostOps5_v74_fn : (StableHlo.after (hostOps5 (F := Ideal)) W (Proc.devRef .tc main_v74) : (⟨S1x128, .f32⟩ : BufTy).Contents (Elt Ideal))
    = subf (Host.divf (W (Proc.devRef .tc main_v68_2)) (broadcastInDim S1x128 ![] bcast_S_S1x128 (constant (F := Ideal) S_ .f32 0x47435000#32)))
        (mulf (Host.divf (W (Proc.devRef .tc main_v68_1)) (broadcastInDim S1x128 ![] bcast_S_S1x128 (constant (F := Ideal) S_ .f32 0x47435000#32)))
          (Host.divf (W (Proc.devRef .tc main_v68_1)) (broadcastInDim S1x128 ![] bcast_S_S1x128 (constant (F := Ideal) S_ .f32 0x47435000#32)))) := by
  after_results <;> rfl

theorem hostOps5_v74 (j : Fin 128) :
    (StableHlo.after (hostOps5 (F := Ideal)) W (Proc.devRef .tc main_v74) : (⟨S1x128, .f32⟩ : BufTy).Contents (Elt Ideal)) (ix2 0 j)
      = Ideal.div ((W (Proc.devRef .tc main_v68_2) : (⟨S1x128, .f32⟩ : BufTy).Contents (Elt Ideal)) (ix2 0 j)) (Ideal.ofBits .f32 0x47435000#32)
        - Ideal.div ((W (Proc.devRef .tc main_v68_1) : (⟨S1x128, .f32⟩ : BufTy).Contents (Elt Ideal)) (ix2 0 j)) (Ideal.ofBits .f32 0x47435000#32)
          * Ideal.div ((W (Proc.devRef .tc main_v68_1) : (⟨S1x128, .f32⟩ : BufTy).Contents (Elt Ideal)) (ix2 0 j)) (Ideal.ofBits .f32 0x47435000#32) := by
  rw [hostOps5_v74_fn]; rfl

/-- The scale and the shift, as rows. -/
theorem hostOps5_v75_fn : (StableHlo.after (hostOps5 (F := Ideal)) W (Proc.devRef .tc main_v75) : (⟨S1x128, .f32⟩ : BufTy).Contents (Elt Ideal)) = shapeCast S1x128 (W (Proc.devRef .tc main_arg16)) shapeCasts_S128_S1x128 := by
  after_results <;> rfl

theorem hostOps5_v75 (j : Fin 128) : (StableHlo.after (hostOps5 (F := Ideal)) W (Proc.devRef .tc main_v75) : (⟨S1x128, .f32⟩ : BufTy).Contents (Elt Ideal)) (ix2 0 j) = (W (Proc.devRef .tc main_arg16) : (⟨S128, .f32⟩ : BufTy).Contents (Elt Ideal)) (ix1 j) := by
  rw [hostOps5_v75_fn]
  exact shapeCast_a_1a_apply _ _ 0 j

theorem hostOps5_v76_fn : (StableHlo.after (hostOps5 (F := Ideal)) W (Proc.devRef .tc main_v76) : (⟨S1x128, .f32⟩ : BufTy).Contents (Elt Ideal)) = shapeCast S1x128 (W (Proc.devRef .tc main_arg17)) shapeCasts_S128_S1x128 := by
  after_results <;> rfl

theorem hostOps5_v76 (j : Fin 128) : (StableHlo.after (hostOps5 (F := Ideal)) W (Proc.devRef .tc main_v76) : (⟨S1x128, .f32⟩ : BufTy).Contents (Elt Ideal)) (ix2 0 j) = (W (Proc.devRef .tc main_arg17) : (⟨S128, .f32⟩ : BufTy).Contents (Elt Ideal)) (ix1 j) := by
  rw [hostOps5_v76_fn]
  exact shapeCast_a_1a_apply _ _ 0 j

/-! ## Stretch 7: between the statistics kernel and the normalising kernel, 64 columns -/

/-- The column mean: the sum row over the row count. -/
theorem hostOps7_v96_fn : (StableHlo.after (hostOps7 (F := Ideal)) W (Proc.devRef .tc main_v96) : (⟨S1x64, .f32⟩ : BufTy).Contents (Elt Ideal))
    = Host.divf (W (Proc.devRef .tc main_v94_1)) (broadcastInDim S1x64 ![] bcast_S_S1x64 (constant (F := Ideal) S_ .f32 0x47435000#32)) := by
  after_results <;> rfl

theorem hostOps7_v96 (j : Fin 64) :
    (StableHlo.after (hostOps7 (F := Ideal)) W (Proc.devRef .tc main_v96) : (⟨S1x64, .f32⟩ : BufTy).Contents (Elt Ideal)) (ix2 0 j) = Ideal.div ((W (Proc.devRef .tc main_v94_1) : (⟨S1x64, .f32⟩ : BufTy).Contents (Elt Ideal)) (ix2 0 j)) (Ideal.ofBits .f32 0x47435000#32) := by
  rw [hostOps7_v96_fn]; rfl

/-- The column variance: the square-sum row over the row count, less the squared mean. -/
theorem hostOps7_v100_fn : (StableHlo.after (hostOps7 (F := Ideal)) W (Proc.devRef .tc main_v100) : (⟨S1x64, .f32⟩ : BufTy).Contents (Elt Ideal))
    = subf (Host.divf (W (Proc.devRef .tc main_v94_2)) (broadcastInDim S1x64 ![] bcast_S_S1x64 (constant (F := Ideal) S_ .f32 0x47435000#32)))
        (mulf (Host.divf (W (Proc.devRef .tc main_v94_1)) (broadcastInDim S1x64 ![] bcast_S_S1x64 (constant (F := Ideal) S_ .f32 0x47435000#32)))
          (Host.divf (W (Proc.devRef .tc main_v94_1)) (broadcastInDim S1x64 ![] bcast_S_S1x64 (constant (F := Ideal) S_ .f32 0x47435000#32)))) := by
  after_results <;> rfl

theorem hostOps7_v100 (j : Fin 64) :
    (StableHlo.after (hostOps7 (F := Ideal)) W (Proc.devRef .tc main_v100) : (⟨S1x64, .f32⟩ : BufTy).Contents (Elt Ideal)) (ix2 0 j)
      = Ideal.div ((W (Proc.devRef .tc main_v94_2) : (⟨S1x64, .f32⟩ : BufTy).Contents (Elt Ideal)) (ix2 0 j)) (Ideal.ofBits .f32 0x47435000#32)
        - Ideal.div ((W (Proc.devRef .tc main_v94_1) : (⟨S1x64, .f32⟩ : BufTy).Contents (Elt Ideal)) (ix2 0 j)) (Ideal.ofBits .f32 0x47435000#32)
          * Ideal.div ((W (Proc.devRef .tc main_v94_1) : (⟨S1x64, .f32⟩ : BufTy).Contents (Elt Ideal)) (ix2 0 j)) (Ideal.ofBits .f32 0x47435000#32) := by
  rw [hostOps7_v100_fn]; rfl

/-- The scale and the shift, as rows. -/
theorem hostOps7_v101_fn : (StableHlo.after (hostOps7 (F := Ideal)) W (Proc.devRef .tc main_v101) : (⟨S1x64, .f32⟩ : BufTy).Contents (Elt Ideal)) = shapeCast S1x64 (W (Proc.devRef .tc main_arg20)) shapeCasts_S64_S1x64 := by
  after_results <;> rfl

theorem hostOps7_v101 (j : Fin 64) : (StableHlo.after (hostOps7 (F := Ideal)) W (Proc.devRef .tc main_v101) : (⟨S1x64, .f32⟩ : BufTy).Contents (Elt Ideal)) (ix2 0 j) = (W (Proc.devRef .tc main_arg20) : (⟨S64, .f32⟩ : BufTy).Contents (Elt Ideal)) (ix1 j) := by
  rw [hostOps7_v101_fn]
  exact shapeCast_a_1a_apply _ _ 0 j

theorem hostOps7_v102_fn : (StableHlo.after (hostOps7 (F := Ideal)) W (Proc.devRef .tc main_v102) : (⟨S1x64, .f32⟩ : BufTy).Contents (Elt Ideal)) = shapeCast S1x64 (W (Proc.devRef .tc main_arg21)) shapeCasts_S64_S1x64 := by
  after_results <;> rfl

theorem hostOps7_v102 (j : Fin 64) : (StableHlo.after (hostOps7 (F := Ideal)) W (Proc.devRef .tc main_v102) : (⟨S1x64, .f32⟩ : BufTy).Contents (Elt Ideal)) (ix2 0 j) = (W (Proc.devRef .tc main_arg21) : (⟨S64, .f32⟩ : BufTy).Contents (Elt Ideal)) (ix1 j) := by
  rw [hostOps7_v102_fn]
  exact shapeCast_a_1a_apply _ _ 0 j

/-! ## Stretch 9: between the statistics kernel and the normalising kernel, 64 columns -/

/-- The column mean: the sum row over the row count. -/
theorem hostOps9_v122_fn : (StableHlo.after (hostOps9 (F := Ideal)) W (Proc.devRef .tc main_v122) : (⟨S1x64, .f32⟩ : BufTy).Contents (Elt Ideal))
    = Host.divf (W (Proc.devRef .tc main_v120_1)) (broadcastInDim S1x64 ![] bcast_S_S1x64 (constant (F := Ideal) S_ .f32 0x47435000#32)) := by
  after_results <;> rfl

theorem hostOps9_v122 (j : Fin 64) :
    (StableHlo.after (hostOps9 (F := Ideal)) W (Proc.devRef .tc main_v122) : (⟨S1x64, .f32⟩ : BufTy).Contents (Elt Ideal)) (ix2 0 j) = Ideal.div ((W (Proc.devRef .tc main_v120_1) : (⟨S1x64, .f32⟩ : BufTy).Contents (Elt Ideal)) (ix2 0 j)) (Ideal.ofBits .f32 0x47435000#32) := by
  rw [hostOps9_v122_fn]; rfl

/-- The column variance: the square-sum row over the row count, less the squared mean. -/
theorem hostOps9_v126_fn : (StableHlo.after (hostOps9 (F := Ideal)) W (Proc.devRef .tc main_v126) : (⟨S1x64, .f32⟩ : BufTy).Contents (Elt Ideal))
    = subf (Host.divf (W (Proc.devRef .tc main_v120_2)) (broadcastInDim S1x64 ![] bcast_S_S1x64 (constant (F := Ideal) S_ .f32 0x47435000#32)))
        (mulf (Host.divf (W (Proc.devRef .tc main_v120_1)) (broadcastInDim S1x64 ![] bcast_S_S1x64 (constant (F := Ideal) S_ .f32 0x47435000#32)))
          (Host.divf (W (Proc.devRef .tc main_v120_1)) (broadcastInDim S1x64 ![] bcast_S_S1x64 (constant (F := Ideal) S_ .f32 0x47435000#32)))) := by
  after_results <;> rfl

theorem hostOps9_v126 (j : Fin 64) :
    (StableHlo.after (hostOps9 (F := Ideal)) W (Proc.devRef .tc main_v126) : (⟨S1x64, .f32⟩ : BufTy).Contents (Elt Ideal)) (ix2 0 j)
      = Ideal.div ((W (Proc.devRef .tc main_v120_2) : (⟨S1x64, .f32⟩ : BufTy).Contents (Elt Ideal)) (ix2 0 j)) (Ideal.ofBits .f32 0x47435000#32)
        - Ideal.div ((W (Proc.devRef .tc main_v120_1) : (⟨S1x64, .f32⟩ : BufTy).Contents (Elt Ideal)) (ix2 0 j)) (Ideal.ofBits .f32 0x47435000#32)
          * Ideal.div ((W (Proc.devRef .tc main_v120_1) : (⟨S1x64, .f32⟩ : BufTy).Contents (Elt Ideal)) (ix2 0 j)) (Ideal.ofBits .f32 0x47435000#32) := by
  rw [hostOps9_v126_fn]; rfl

/-- The scale and the shift, as rows. -/
theorem hostOps9_v127_fn : (StableHlo.after (hostOps9 (F := Ideal)) W (Proc.devRef .tc main_v127) : (⟨S1x64, .f32⟩ : BufTy).Contents (Elt Ideal)) = shapeCast S1x64 (W (Proc.devRef .tc main_arg20)) shapeCasts_S64_S1x64 := by
  after_results <;> rfl

theorem hostOps9_v127 (j : Fin 64) : (StableHlo.after (hostOps9 (F := Ideal)) W (Proc.devRef .tc main_v127) : (⟨S1x64, .f32⟩ : BufTy).Contents (Elt Ideal)) (ix2 0 j) = (W (Proc.devRef .tc main_arg20) : (⟨S64, .f32⟩ : BufTy).Contents (Elt Ideal)) (ix1 j) := by
  rw [hostOps9_v127_fn]
  exact shapeCast_a_1a_apply _ _ 0 j

theorem hostOps9_v128_fn : (StableHlo.after (hostOps9 (F := Ideal)) W (Proc.devRef .tc main_v128) : (⟨S1x64, .f32⟩ : BufTy).Contents (Elt Ideal)) = shapeCast S1x64 (W (Proc.devRef .tc main_arg21)) shapeCasts_S64_S1x64 := by
  after_results <;> rfl

theorem hostOps9_v128 (j : Fin 64) : (StableHlo.after (hostOps9 (F := Ideal)) W (Proc.devRef .tc main_v128) : (⟨S1x64, .f32⟩ : BufTy).Contents (Elt Ideal)) (ix2 0 j) = (W (Proc.devRef .tc main_arg21) : (⟨S64, .f32⟩ : BufTy).Contents (Elt Ideal)) (ix1 j) := by
  rw [hostOps9_v128_fn]
  exact shapeCast_a_1a_apply _ _ 0 j

/-! ## Stretch 11: between the statistics kernel and the normalising kernel, 64 columns -/

/-- The column mean: the sum row over the row count. -/
theorem hostOps11_v148_fn : (StableHlo.after (hostOps11 (F := Ideal)) W (Proc.devRef .tc main_v148) : (⟨S1x64, .f32⟩ : BufTy).Contents (Elt Ideal))
    = Host.divf (W (Proc.devRef .tc main_v146_1)) (broadcastInDim S1x64 ![] bcast_S_S1x64 (constant (F := Ideal) S_ .f32 0x47435000#32)) := by
  after_results <;> rfl

theorem hostOps11_v148 (j : Fin 64) :
    (StableHlo.after (hostOps11 (F := Ideal)) W (Proc.devRef .tc main_v148) : (⟨S1x64, .f32⟩ : BufTy).Contents (Elt Ideal)) (ix2 0 j) = Ideal.div ((W (Proc.devRef .tc main_v146_1) : (⟨S1x64, .f32⟩ : BufTy).Contents (Elt Ideal)) (ix2 0 j)) (Ideal.ofBits .f32 0x47435000#32) := by
  rw [hostOps11_v148_fn]; rfl

/-- The column variance: the square-sum row over the row count, less the squared mean. -/
theorem hostOps11_v152_fn : (StableHlo.after (hostOps11 (F := Ideal)) W (Proc.devRef .tc main_v152) : (⟨S1x64, .f32⟩ : BufTy).Contents (Elt Ideal))
    = subf (Host.divf (W (Proc.devRef .tc main_v146_2)) (broadcastInDim S1x64 ![] bcast_S_S1x64 (constant (F := Ideal) S_ .f32 0x47435000#32)))
        (mulf (Host.divf (W (Proc.devRef .tc main_v146_1)) (broadcastInDim S1x64 ![] bcast_S_S1x64 (constant (F := Ideal) S_ .f32 0x47435000#32)))
          (Host.divf (W (Proc.devRef .tc main_v146_1)) (broadcastInDim S1x64 ![] bcast_S_S1x64 (constant (F := Ideal) S_ .f32 0x47435000#32)))) := by
  after_results <;> rfl

theorem hostOps11_v152 (j : Fin 64) :
    (StableHlo.after (hostOps11 (F := Ideal)) W (Proc.devRef .tc main_v152) : (⟨S1x64, .f32⟩ : BufTy).Contents (Elt Ideal)) (ix2 0 j)
      = Ideal.div ((W (Proc.devRef .tc main_v146_2) : (⟨S1x64, .f32⟩ : BufTy).Contents (Elt Ideal)) (ix2 0 j)) (Ideal.ofBits .f32 0x47435000#32)
        - Ideal.div ((W (Proc.devRef .tc main_v146_1) : (⟨S1x64, .f32⟩ : BufTy).Contents (Elt Ideal)) (ix2 0 j)) (Ideal.ofBits .f32 0x47435000#32)
          * Ideal.div ((W (Proc.devRef .tc main_v146_1) : (⟨S1x64, .f32⟩ : BufTy).Contents (Elt Ideal)) (ix2 0 j)) (Ideal.ofBits .f32 0x47435000#32) := by
  rw [hostOps11_v152_fn]; rfl

/-- The scale and the shift, as rows. -/
theorem hostOps11_v153_fn : (StableHlo.after (hostOps11 (F := Ideal)) W (Proc.devRef .tc main_v153) : (⟨S1x64, .f32⟩ : BufTy).Contents (Elt Ideal)) = shapeCast S1x64 (W (Proc.devRef .tc main_arg20)) shapeCasts_S64_S1x64 := by
  after_results <;> rfl

theorem hostOps11_v153 (j : Fin 64) : (StableHlo.after (hostOps11 (F := Ideal)) W (Proc.devRef .tc main_v153) : (⟨S1x64, .f32⟩ : BufTy).Contents (Elt Ideal)) (ix2 0 j) = (W (Proc.devRef .tc main_arg20) : (⟨S64, .f32⟩ : BufTy).Contents (Elt Ideal)) (ix1 j) := by
  rw [hostOps11_v153_fn]
  exact shapeCast_a_1a_apply _ _ 0 j

theorem hostOps11_v154_fn : (StableHlo.after (hostOps11 (F := Ideal)) W (Proc.devRef .tc main_v154) : (⟨S1x64, .f32⟩ : BufTy).Contents (Elt Ideal)) = shapeCast S1x64 (W (Proc.devRef .tc main_arg21)) shapeCasts_S64_S1x64 := by
  after_results <;> rfl

theorem hostOps11_v154 (j : Fin 64) : (StableHlo.after (hostOps11 (F := Ideal)) W (Proc.devRef .tc main_v154) : (⟨S1x64, .f32⟩ : BufTy).Contents (Elt Ideal)) (ix2 0 j) = (W (Proc.devRef .tc main_arg21) : (⟨S64, .f32⟩ : BufTy).Contents (Elt Ideal)) (ix1 j) := by
  rw [hostOps11_v154_fn]
  exact shapeCast_a_1a_apply _ _ 0 j

/-! ## The last stretch: the two outputs stacked -/

theorem hostOps14_v190 : (StableHlo.after (hostOps14 (F := Ideal)) W (Proc.devRef .tc main_v190) : (⟨S100000x64, .f32⟩ : BufTy).Contents (Elt Ideal))
    = concatenate S100000x64 0 [⟨S50000x64, W (Proc.devRef .tc main_v103)⟩, ⟨S50000x64, W (Proc.devRef .tc main_v129)⟩]
        concatenates_S50000x64_S50000x64_S100000x64_d0 := by
  after_results <;> rfl

end Cert.KernelIdeal.HostVal

end
-- ==== Proof.SpecForm.lean ====
/-
  The layer of the network at one entry, as plain sums on the extended reals — the form both programs are read to.
  A layer's linear part at row `i`, column `j` is `Σ_k (x i k + a i k) · W j k + b j` (`a` the neighbour aggregation of
  `x`); batch normalization subtracts the column mean, scales by the reciprocal square root of the column variance plus
  `ε`, then by `γ`, adds `β`, and the layer ends in `max · 0`. The column variance is taken in two arrangements: the mean
  of the squared deviations, and the mean of the squares minus the squared mean.
-/
import Idealize.ShloMosaic.PureOps.Ideal
import Idealize.ShloMosaic.Lib.ValueIdx

noncomputable section

open scoped BigOperators

namespace Cert.SpecForm

open Idealize.ShloMosaic Idealize.ShloMosaic.ValueIdx

/-- The linear part: `Σ_k (x i k + a i k) · W j k + b j`, the weight stored output-major. -/
def lin {n din dout : ℕ} (x a : (⟨2, ![n, din]⟩ : Shape).Idx → EReal) (W : (⟨2, ![dout, din]⟩ : Shape).Idx → EReal)
    (b : (⟨1, ![dout]⟩ : Shape).Idx → EReal) (i : Fin n) (j : Fin dout) : EReal :=
  (∑ k : Fin din, (x (ix2 i k) + a (ix2 i k)) * W (ix2 j k)) + b (ix1 j)

/-- The column mean. -/
def mean {n d : ℕ} (h : Fin n → Fin d → EReal) (N : EReal) (j : Fin d) : EReal := Ideal.div (∑ a : Fin n, h a j) N

/-- The column variance as the mean of the squared deviations. -/
def varDev {n d : ℕ} (h : Fin n → Fin d → EReal) (N : EReal) (j : Fin d) : EReal :=
  Ideal.div (∑ a : Fin n, (h a j - mean h N j) * (h a j - mean h N j)) N

/-- The column variance as the mean of the squares minus the squared mean. -/
def varSq {n d : ℕ} (h : Fin n → Fin d → EReal) (N : EReal) (j : Fin d) : EReal :=
  Ideal.div (∑ a : Fin n, h a j * h a j) N - mean h N j * mean h N j

/-- Normalization with a given column variance, then `max · 0`. -/
def bnWith {n d : ℕ} (h : Fin n → Fin d → EReal) (N ε : EReal) (var : Fin d → EReal) (g β : (⟨1, ![d]⟩ : Shape).Idx → EReal)
    (i : Fin n) (j : Fin d) : EReal :=
  max (((h i j - mean h N j) * Ideal.rsqrt (var j + ε)) * g (ix1 j) + β (ix1 j)) 0

/-- The layer's last step without normalization. -/
def relu {n d : ℕ} (h : Fin n → Fin d → EReal) (i : Fin n) (j : Fin d) : EReal := max (h i j) 0

end Cert.SpecForm

end
-- ==== Proof.KLayerA.lean ====
/-
  One layer of the network on the kernel's side, composed: the layer's output array as one closed expression of the
  layer's input, the edge list and the layer's parameters — through the host stretch that aggregates the neighbours and
  lays out the weights, the pipelined call that forms the linear map with its column statistics, the host stretch that
  turns the statistics into the column mean and variance, and the pipelined call that normalizes and ends in max · 0.
-/
import proofs.«144613_j17471926960174_1_alg».proof.Proof.Reg0
import proofs.«144613_j17471926960174_1_alg».proof.Proof.Reg1
import proofs.«144613_j17471926960174_1_alg».proof.Proof.Carry
import proofs.«144613_j17471926960174_1_alg».proof.Proof.ValStats0
import proofs.«144613_j17471926960174_1_alg».proof.Proof.ValBn1
import proofs.«144613_j17471926960174_1_alg».proof.Proof.HostEvenA
import proofs.«144613_j17471926960174_1_alg».proof.Proof.HostEvenB
import proofs.«144613_j17471926960174_1_alg».proof.Proof.HostOdd
import proofs.«144613_j17471926960174_1_alg».proof.Proof.SpecForm

set_option maxRecDepth 16384

noncomputable section

open scoped BigOperators

namespace Cert.KernelIdeal.HandVal

open Cert.KernelIdeal Cert.KernelIdeal.Gen Cert.KernelIdeal.Hand Cert.KernelIdeal.HostVal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's input, edges and parameters, and its linear part -/

abbrev xA (c : Dev nD) : S50000x256.Idx → EReal := W0 m c main_arg0
abbrev eA (c : Dev nD) : (⟨S2x800000, .i32⟩ : BufTy).Contents (Elt Ideal) := W0 m c main_arg3
abbrev wA (c : Dev nD) : S128x256.Idx → EReal := W0 m c main_arg6
abbrev bA (c : Dev nD) : S128.Idx → EReal := W0 m c main_arg7
abbrev gA (c : Dev nD) : S128.Idx → EReal := W0 m c main_arg8
abbrev βA (c : Dev nD) : S128.Idx → EReal := W0 m c main_arg9

/-- The layer's linear part, row by row and column by column. -/
abbrev hA (c : Dev nD) : Fin 50000 → Fin 128 → EReal :=
  Cert.SpecForm.lin (xA m c) (agg256 (xA m c) (eA m c)) (wA m c) (bA m c)

/-- The call's four operands as it is entered: the input carried, the aggregation, the transposed weights and the bias
    row as the host stretch before it leaves them. -/
abbrev oxA (c : Dev nD) : S50000x256.Idx → EReal := W1 m c main_arg0
abbrev oaA (c : Dev nD) : S50000x256.Idx → EReal := W1 m c main_v13
abbrev owA (c : Dev nD) : S256x128.Idx → EReal := W1 m c main_v14
abbrev obA (c : Dev nD) : S1x128.Idx → EReal := W1 m c main_v15

theorem opxA (c : Dev nD) : oxA m c = xA m c := cy_main_arg0_0_1 m c
theorem opaA (c : Dev nD) : oaA m c = agg256 (xA m c) (eA m c) := by
  have h := hostOps0_v13 (W0 m c)

  exact h
theorem opwA (c : Dev nD) (k : Fin 256) (j : Fin 128) : owA m c (ix2 k j) = wA m c (ix2 j k) := by
  have h := hostOps0_v14 (W0 m c) k j

  exact h
theorem opbA (c : Dev nD) (j : Fin 128) : obA m c (ix2 0 j) = bA m c (ix1 j) := by
  have h := hostOps0_v15 (W0 m c) j

  exact h

/-- The linear map the first call computes is the layer's linear part. -/
theorem linA (c : Dev nD) (i : Fin 50000) (j : Fin 128) : Hlin0 (E1 m) c i j = hA m c i j := by
  show (∑ k : Fin 256, (oxA m c (ix2 i k) + oaA m c (ix2 i k)) * owA m c (ix2 k j))
      + obA m c (ix2 0 j)
    = (∑ k : Fin 256, (xA m c (ix2 i k) + agg256 (xA m c) (eA m c) (ix2 i k)) * wA m c (ix2 j k)) + bA m c (ix1 j)
  rw [opxA, opaA, opbA]
  exact congrArg (· + bA m c (ix1 j)) (Finset.sum_congr rfl fun k _ => by rw [opwA])

/-- The three arrays the first call leaves: the linear part, its column sums and the column sums of its squares. -/
abbrev rhA (c : Dev nD) : S50000x128.Idx → EReal := W2 m XX c main_v16_0
abbrev rsA (c : Dev nD) : S1x128.Idx → EReal := W2 m XX c main_v16_1
abbrev rqA (c : Dev nD) : S1x128.Idx → EReal := W2 m XX c main_v16_2
theorem lhA (c : Dev nD) (i : Fin 50000) (j : Fin 128) : rhA m c (ix2 i j) = hA m c i j := by
  have e : rhA m c = (dat0 (F := Ideal) (E1 m) c).arrAt 4 cfg0.N := (hF0_4 m c).symm
  rw [e, final0_4, linA]
theorem lsA (c : Dev nD) (j : Fin 128) : rsA m c (ix2 0 j) = ∑ a : Fin 50000, hA m c a j := by
  have e : rsA m c = (dat0 (F := Ideal) (E1 m) c).arrAt 5 cfg0.N := (hF0_5 m c).symm
  rw [e, final0_5]
  exact Finset.sum_congr rfl fun a _ => linA m c a j
theorem lqA (c : Dev nD) (j : Fin 128) : rqA m c (ix2 0 j) = ∑ a : Fin 50000, hA m c a j * hA m c a j := by
  have e : rqA m c = (dat0 (F := Ideal) (E1 m) c).arrAt 6 cfg0.N := (hF0_6 m c).symm
  rw [e, final0_6]
  exact Finset.sum_congr rfl fun a _ => by rw [linA]

set_option quotPrecheck false in
local notation "N₀" => (Ideal.ofBits .f32 0x47435000#32 : EReal)
set_option quotPrecheck false in
local notation "ε₀" => (Ideal.ofBits .f32 0x3727C5AC#32 : EReal)

/-- THE LAYER, on the kernel's side. -/
theorem klayerA (c : Dev nD) (i : Fin 50000) (j : Fin 128) :
    (W4 m XX c main_v25 : S50000x128.Idx → EReal) (ix2 i j)
      = Cert.SpecForm.bnWith (hA m c) N₀ ε₀ (Cert.SpecForm.varSq (hA m c) N₀) (gA m c) (βA m c) i j := by
  rw [← hF1_5 m c, final1_apply]
  have e0 : arr1_0 (E3 m XX) c (ix2 i j) = hA m c i j := by
    have e : arr1_0 (E3 m XX) c = rhA m c := cy_main_v16_0_2_3 m c
    rw [e]
    exact lhA m c i j
  have e1 : arr1_1 (E3 m XX) c (ix2 0 j) = Cert.SpecForm.mean (hA m c) N₀ j :=
    (hostOps1_v18 (W2 m XX c) j).trans (congrArg (fun s => Ideal.div s N₀) (lsA m c j))
  have e2 : arr1_2 (E3 m XX) c (ix2 0 j) = Cert.SpecForm.varSq (hA m c) N₀ j :=
    (hostOps1_v22 (W2 m XX c) j).trans
      (congrArg₂ (fun q s => Ideal.div q N₀ - Ideal.div s N₀ * Ideal.div s N₀) (lqA m c j) (lsA m c j))
  have e3 : arr1_3 (E3 m XX) c (ix2 0 j) = gA m c (ix1 j) :=
    (hostOps1_v23 (W2 m XX c) j).trans (congrFun (cy_main_arg8_0_2 m c) (ix1 j))
  have e4 : arr1_4 (E3 m XX) c (ix2 0 j) = βA m c (ix1 j) :=
    (hostOps1_v24 (W2 m XX c) j).trans (congrFun (cy_main_arg9_0_2 m c) (ix1 j))
  rw [e0, e1, e2, e3, e4]
  rfl

end Cert.KernelIdeal.HandVal

end
-- ==== Proof.ValStats2.lean ====
/-
  From the blocks to the arrays, at the ideal instance: what the call that computes one graph layer's linear map with
  its batch statistics leaves in its three result arrays, as functions of the arrays it is entered with.

  Point t of the ten-point grid writes rows 5000 t … 5000 t + 4999 of the first result, each entry the affine map
  h(i, j) = Σ_k (x(i, k) + g(i, k)) · w(k, j) + b(j) of the row; the ten blocks tile the array. The two statistics
  results are written back once, after the last point, and hold the accumulators after all ten points: the column sums
  of h and of h · h over all 50000 rows.
-/
import proofs.«144613_j17471926960174_1_alg».proof.Proof.Stats2
import proofs.«144613_j17471926960174_1_alg».proof.Proof.PayStats
import proofs.«144613_j17471926960174_1_alg».proof.Proof.PayTiles
import proofs.«144613_j17471926960174_1_alg».proof.Proof.PayAcc
import Idealize.ShloMosaic.Lib.Pipeline.Value

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays the region is entered with, and the affine map -/

/-- The layer's input, the aggregated array, the transposed weights and the bias row, as the region finds them. -/
abbrev xin2 (c : Dev nD) : Vec Ideal S50000x128 .f32 := V c (Pipeline.arrRef spec2 0)
abbrev agg2 (c : Dev nD) : Vec Ideal S50000x128 .f32 := V c (Pipeline.arrRef spec2 1)
abbrev wgt2 (c : Dev nD) : Vec Ideal S128x128 .f32 := V c (Pipeline.arrRef spec2 2)
abbrev bia2 (c : Dev nD) : Vec Ideal S1x128 .f32 := V c (Pipeline.arrRef spec2 3)

/-- The linear layer at row `i`, column `j`. -/
def Hlin2 (c : Dev nD) (i : Fin 50000) (j : Fin 128) : EReal :=
  (∑ k : Fin 128, (xin2 V c (ix2 i k) + agg2 V c (ix2 i k)) * wgt2 V c (ix2 k j)) + bia2 V c (ix2 0 j)

/-! ## Where each window's block sits -/

/-- The printed index maps, decided over the grid: the row tiles move with the point, everything else stays at 0. -/
theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Each input block read where its rectangle says: a block's coordinate is index × size + the coordinate inside. -/
theorem read2_0 (c : Dev nD) (t : Fin cfg2.N) (u : Fin 10) (hu : u.val = t.val) (r : Fin 5000) (k : Fin 128) :
    iblk2 V c 0 t (ix2 r k) = xin2 V c (ix2 (tileRow u r) k) := by
  obtain ⟨e0, e1, -⟩ := idx2_facts t
  show xin2 V c (((cfg2.win 0).blk t).view.emb (ix2 r k)) = _
  congr 1
  funext a; apply Fin.ext
  match a with
  | ⟨0, _⟩ => show win2_0.index t (0 : Fin 2) * 5000 + 1 * r.val = 5000 * u.val + r.val; omega
  | ⟨1, _⟩ => show win2_0.index t (1 : Fin 2) * 128 + 1 * k.val = k.val; omega
theorem read2_1 (c : Dev nD) (t : Fin cfg2.N) (u : Fin 10) (hu : u.val = t.val) (r : Fin 5000) (k : Fin 128) :
    iblk2 V c 1 t (ix2 r k) = agg2 V c (ix2 (tileRow u r) k) := by
  obtain ⟨-, -, e0, e1, -⟩ := idx2_facts t
  show agg2 V c (((cfg2.win 1).blk t).view.emb (ix2 r k)) = _
  congr 1
  funext a; apply Fin.ext
  match a with
  | ⟨0, _⟩ => show win2_1.index t (0 : Fin 2) * 5000 + 1 * r.val = 5000 * u.val + r.val; omega
  | ⟨1, _⟩ => show win2_1.index t (1 : Fin 2) * 128 + 1 * k.val = k.val; omega
theorem read2_2 (c : Dev nD) (t : Fin cfg2.N) (k : Fin 128) (j : Fin 128) :
    iblk2 V c 2 t (ix2 k j) = wgt2 V c (ix2 k j) := by
  obtain ⟨-, -, -, -, e0, e1, -⟩ := idx2_facts t
  show wgt2 V c (((cfg2.win 2).blk t).view.emb (ix2 k j)) = _
  congr 1
  funext a; apply Fin.ext
  match a with
  | ⟨0, _⟩ => show win2_2.index t (0 : Fin 2) * 128 + 1 * k.val = k.val; omega
  | ⟨1, _⟩ => show win2_2.index t (1 : Fin 2) * 128 + 1 * j.val = j.val; omega
theorem read2_3 (c : Dev nD) (t : Fin cfg2.N) (z : Fin 1) (j : Fin 128) :
    iblk2 V c 3 t (ix2 z j) = bia2 V c (ix2 z j) := by
  obtain ⟨-, -, -, -, -, -, e0, e1, -⟩ := idx2_facts t
  show bia2 V c (((cfg2.win 3).blk t).view.emb (ix2 z j)) = _
  congr 1
  funext a; apply Fin.ext
  match a with
  | ⟨0, _⟩ => show win2_3.index t (0 : Fin 2) * 1 + 1 * z.val = z.val; omega
  | ⟨1, _⟩ => show win2_3.index t (1 : Fin 2) * 128 + 1 * j.val = j.val; omega

/-- The weights' and the bias's blocks are the arrays, at every point. -/
theorem iblk2_2_eq (c : Dev nD) (t : Fin cfg2.N) : iblk2 V c 2 t = wgt2 V c :=
  funext fun i => by rw [eq_ix2 i]; exact read2_2 V c t _ _
theorem iblk2_3_eq (c : Dev nD) (t : Fin cfg2.N) : iblk2 V c 3 t = bia2 V c :=
  funext fun i => by rw [eq_ix2 i]; exact read2_3 V c t _ _

/-- The body's payload on the blocks of point `t` is the affine map on the tile's rows. -/
theorem pay3_blocks2 (c : Dev nD) (t : Fin cfg2.N) (u : Fin 10) (hu : u.val = t.val) (r : Fin 5000) (j : Fin 128) :
    k2_pay3 (F := Ideal) (iblk2 V c 0 t) (iblk2 V c 1 t) (wgt2 V c) (bia2 V c) (ix2 r j) = Hlin2 V c (tileRow u r) j := by
  rw [k2_pay3_apply]
  unfold Hlin2
  simp only [read2_0 V c t u hu, read2_1 V c t u hu]
theorem hblk2_apply (c : Dev nD) (t : Fin cfg2.N) (u : Fin 10) (hu : u.val = t.val) (r : Fin 5000) (j : Fin 128) :
    hblk2 V c t (ix2 r j) = Hlin2 V c (tileRow u r) j := by
  unfold hblk2
  rw [iblk2_2_eq, iblk2_3_eq]
  exact pay3_blocks2 V c t u hu r j

theorem hblk2_apply' (c : Dev nD) (t : Fin cfg2.N) (u : Fin 10) (hu : u.val = t.val) (j : S5000x128.Idx) :
    hblk2 V c t j = Hlin2 V c (tileRow u (j 0)) (j 1) :=
  (congrArg (hblk2 V c t) (eq_ix2 j)).trans (hblk2_apply V c t u hu (j 0) (j 1))

/-! ## The first result: ten row tiles -/

/-- What the first result ends holding: the affine map, row by row. -/
def G2_4 (c : Dev nD) : Vec Ideal S50000x128 .f32 := fun i => Hlin2 V c (i 0) (i 1)

/-- What point `t` writes back is block `t` of it. -/
theorem flushed2_4_eq (c : Dev nD) (t : Fin cfg2.N) :
    (dat2 V c).flushed 4 t = ((cfg2.win 4).blk t).view.read (Elt Ideal) (G2_4 V c) := by
  show (cfg2.win 4).cut (grid2.coords t) ((dat2 V c).after 4 t) = _
  rw [after2_4]
  obtain ⟨-, -, -, -, -, -, -, -, e0, e1, -⟩ := idx2_facts t
  funext j
  show hblk2 V c t j = Hlin2 V c ((((cfg2.win 4).blk t).view.emb j) 0) ((((cfg2.win 4).blk t).view.emb j) 1)
  rw [hblk2_apply' V c t (Fin.cast N2_eq t) rfl]
  congr 1
  · apply Fin.ext; show 5000 * t.val + (j 0).val = win2_4.index t (0 : Fin 2) * 5000 + 1 * (j 0).val; omega
  · apply Fin.ext; show (j 1).val = win2_4.index t (1 : Fin 2) * 128 + 1 * (j 1).val; omega

/-- An index of the array is in point `t`'s block iff each coordinate is in the block's range on its axis. -/
theorem mem_blk2_4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v42_0).slice (win2_4.rect t)).set ↔ _
  rw [View.set_slice_whole, Rect.mem_set_unit]
  exact Iff.rfl

/-- Row `i` is covered by point `i / 5000`. -/
theorem cover2_4 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hlt : (i 0).val / 5000 < cfg2.N := by rw [N2_eq]; omega
  obtain ⟨-, -, -, -, -, -, -, -, e0, e1, -⟩ := idx2_facts ⟨(i 0).val / 5000, hlt⟩
  refine ⟨⟨(i 0).val / 5000, hlt⟩, flush2_4 _, ?_⟩
  rw [mem_blk2_4]
  intro a
  match a with
  | ⟨0, _⟩ => show win2_4.index ⟨(i 0).val / 5000, hlt⟩ (0 : Fin 2) * 5000 ≤ (i 0).val ∧ (i 0).val < win2_4.index ⟨(i 0).val / 5000, hlt⟩ (0 : Fin 2) * 5000 + 5000; dsimp only at e0; omega
  | ⟨1, _⟩ => show win2_4.index ⟨(i 0).val / 5000, hlt⟩ (1 : Fin 2) * 128 ≤ (i 1).val ∧ (i 1).val < win2_4.index ⟨(i 0).val / 5000, hlt⟩ (1 : Fin 2) * 128 + 128; omega

/-- THE FIRST RESULT after the region: the affine map at every row and column. -/
theorem final2_4 (c : Dev nD) (i : Fin 50000) (j : Fin 128) :
    (dat2 (F := Ideal) V c).arrAt 4 cfg2.N (ix2 i j) = Hlin2 V c i j := by
  rw [(dat2 V c).arrAt_eq_of_cover 4 (G2_4 V c) (fun t _ => flushed2_4_eq V c t) cover2_4]
  rfl

/-! ## The two statistics results: written back once, after the last point -/

theorem flushed2_5_eq (c : Dev nD) (t : Fin cfg2.N) (hf : (cfg2.win 5).flush t = true) :
    (dat2 V c).flushed 5 t = ((cfg2.win 5).blk t).view.read (Elt Ideal) (accS2 V c 9) := by
  have h9 : t.val = 9 := by have h1 := (flush2_5 t).mp hf; have h2 := lt_of_lt_of_eq t.isLt N2_eq; omega
  obtain ⟨-, -, -, -, -, -, -, -, -, -, e0, e1, -⟩ := idx2_facts t
  show (cfg2.win 5).cut (grid2.coords t) ((dat2 V c).after 5 t) = _
  rw [after2_5, h9]
  funext j
  show accS2 V c 9 j = accS2 V c 9 (((cfg2.win 5).blk t).view.emb j)
  congr 1
  funext a; apply Fin.ext
  match a with
  | ⟨0, _⟩ => show (j 0).val = win2_5.index t (0 : Fin 2) * 1 + 1 * (j 0).val; omega
  | ⟨1, _⟩ => show (j 1).val = win2_5.index t (1 : Fin 2) * 128 + 1 * (j 1).val; omega

theorem mem_blk2_5 (t : Fin cfg2.N) (i : S1x128.Idx) :
    i ∈ ((cfg2.win 5).blk t).view.set ↔ ∀ a : Fin 2, win2_5.index t a * S1x128.size a ≤ (i a).val ∧ (i a).val < win2_5.index t a * S1x128.size a + S1x128.size a := by
  show i ∈ ((View.whole main_v42_1).slice (win2_5.rect t)).set ↔ _
  rw [View.set_slice_whole, Rect.mem_set_unit]
  exact Iff.rfl

/-- The last point's block is the whole array. -/
theorem cover2_5 (i : S1x128.Idx) : ∃ t : Fin cfg2.N, (cfg2.win 5).flush t = true ∧ i ∈ ((cfg2.win 5).blk t).view.set := by
  have hi0 : (i 0).val < 1 := (i 0).isLt
  have hi1 : (i 1).val < 128 := (i 1).isLt
  obtain ⟨-, -, -, -, -, -, -, -, -, -, e0, e1, -⟩ := idx2_facts t2_9
  refine ⟨t2_9, (flush2_5 t2_9).mpr rfl, ?_⟩
  rw [mem_blk2_5]
  intro a
  match a with
  | ⟨0, _⟩ => show win2_5.index t2_9 (0 : Fin 2) * 1 ≤ (i 0).val ∧ (i 0).val < win2_5.index t2_9 (0 : Fin 2) * 1 + 1; omega
  | ⟨1, _⟩ => show win2_5.index t2_9 (1 : Fin 2) * 128 ≤ (i 1).val ∧ (i 1).val < win2_5.index t2_9 (1 : Fin 2) * 128 + 128; omega

/-- The array ends holding the accumulator after all ten points. -/
theorem arr2_5 (c : Dev nD) : (dat2 (F := Ideal) V c).arrAt 5 cfg2.N = accS2 V c 9 :=
  (dat2 V c).arrAt_eq_of_cover 5 (accS2 V c 9) (fun t hf => flushed2_5_eq V c t hf) cover2_5

theorem flushed2_6_eq (c : Dev nD) (t : Fin cfg2.N) (hf : (cfg2.win 6).flush t = true) :
    (dat2 V c).flushed 6 t = ((cfg2.win 6).blk t).view.read (Elt Ideal) (accQ2 V c 9) := by
  have h9 : t.val = 9 := by have h1 := (flush2_6 t).mp hf; have h2 := lt_of_lt_of_eq t.isLt N2_eq; omega
  obtain ⟨-, -, -, -, -, -, -, -, -, -, -, -, e0, e1⟩ := idx2_facts t
  show (cfg2.win 6).cut (grid2.coords t) ((dat2 V c).after 6 t) = _
  rw [after2_6, h9]
  funext j
  show accQ2 V c 9 j = accQ2 V c 9 (((cfg2.win 6).blk t).view.emb j)
  congr 1
  funext a; apply Fin.ext
  match a with
  | ⟨0, _⟩ => show (j 0).val = win2_6.index t (0 : Fin 2) * 1 + 1 * (j 0).val; omega
  | ⟨1, _⟩ => show (j 1).val = win2_6.index t (1 : Fin 2) * 128 + 1 * (j 1).val; omega

theorem mem_blk2_6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v42_2).slice (win2_6.rect t)).set ↔ _
  rw [View.set_slice_whole, Rect.mem_set_unit]
  exact Iff.rfl

/-- The last point's block is the whole array. -/
theorem cover2_6 (i : S1x128.Idx) : ∃ t : Fin cfg2.N, (cfg2.win 6).flush t = true ∧ i ∈ ((cfg2.win 6).blk t).view.set := by
  have hi0 : (i 0).val < 1 := (i 0).isLt
  have hi1 : (i 1).val < 128 := (i 1).isLt
  obtain ⟨-, -, -, -, -, -, -, -, -, -, -, -, e0, e1⟩ := idx2_facts t2_9
  refine ⟨t2_9, (flush2_6 t2_9).mpr rfl, ?_⟩
  rw [mem_blk2_6]
  intro a
  match a with
  | ⟨0, _⟩ => show win2_6.index t2_9 (0 : Fin 2) * 1 ≤ (i 0).val ∧ (i 0).val < win2_6.index t2_9 (0 : Fin 2) * 1 + 1; omega
  | ⟨1, _⟩ => show win2_6.index t2_9 (1 : Fin 2) * 128 ≤ (i 1).val ∧ (i 1).val < win2_6.index t2_9 (1 : Fin 2) * 128 + 128; omega

/-- The array ends holding the accumulator after all ten points. -/
theorem arr2_6 (c : Dev nD) : (dat2 (F := Ideal) V c).arrAt 6 cfg2.N = accQ2 V c 9 :=
  (dat2 V c).arrAt_eq_of_cover 6 (accQ2 V c 9) (fun t hf => flushed2_6_eq V c t hf) cover2_6

/-- The blocks of the point numbered `u`. -/
theorem pt2_cast (u : Fin 10) : u.val = (pt2 u.val).val := (Nat.mod_eq_of_lt u.isLt).symm

/-- THE SECOND RESULT after the region: the column sums of the affine map over all 50000 rows. -/
theorem final2_5 (c : Dev nD) (j : Fin 128) :
    (dat2 (F := Ideal) V c).arrAt 5 cfg2.N (ix2 0 j) = ∑ i : Fin 50000, Hlin2 V c i j := by
  rw [arr2_5]
  exact k2_colsum (fun n => iblk2 V c 0 (pt2 n)) (fun n => iblk2 V c 1 (pt2 n)) (wgt2 V c) (bia2 V c) (accS2 V c)
    (by rw [accS2, iblk2_2_eq, iblk2_3_eq]) (fun n _ => by rw [accS2, iblk2_2_eq, iblk2_3_eq])
    (fun i => Hlin2 V c i j) j
    (fun u r => pay3_blocks2 V c (pt2 u.val) u (pt2_cast u) r j)

/-- THE THIRD RESULT after the region: the column sums of its square. -/
theorem final2_6 (c : Dev nD) (j : Fin 128) :
    (dat2 (F := Ideal) V c).arrAt 6 cfg2.N (ix2 0 j) = ∑ i : Fin 50000, Hlin2 V c i j * Hlin2 V c i j := by
  rw [arr2_6]
  exact k2_colsumsq (fun n => iblk2 V c 0 (pt2 n)) (fun n => iblk2 V c 1 (pt2 n)) (wgt2 V c) (bia2 V c) (accQ2 V c)
    (by rw [accQ2, iblk2_2_eq, iblk2_3_eq]) (fun n _ => by rw [accQ2, iblk2_2_eq, iblk2_3_eq])
    (fun i => Hlin2 V c i j) j
    (fun u r => pay3_blocks2 V c (pt2 u.val) u (pt2_cast u) r j)

end Cert.KernelIdeal.HandVal

end
-- ==== Proof.ValBn3.lean ====
/- From blocks to the array, region 3: after the normalise-and-rectify region the output array holds, at row `i` and
   column `j`,  max ((h i j − m j) · rsqrt (v j + ε) · g j + β j, 0)  of the five input arrays as the region finds
   them. Point `t` of the grid handles rows `5000 t … 5000 t + 4999`: its input tile is those rows of `h`, the four
   row vectors are read whole at every point, and its output tile is written back to those rows; the ten tiles cover
   the array. -/
import proofs.«144613_j17471926960174_1_alg».proof.Proof.Bn3
import proofs.«144613_j17471926960174_1_alg».proof.Proof.PayBn
import Idealize.ShloMosaic.Lib.Pipeline.Value
import Idealize.ShloMosaic.Lib.ValueIdx
import Idealize.ShloMosaic.Lib.Tactic

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-- The five input arrays as the region finds them, at their element type: `h`, the column mean, the column
    variance, the scale row and the shift row. -/
abbrev arr3_0 (c : Dev nD) : S50000x128.Idx → EReal := V c main_v42_0
abbrev arr3_1 (c : Dev nD) : S1x128.Idx → EReal := V c main_v44
abbrev arr3_2 (c : Dev nD) : S1x128.Idx → EReal := V c main_v48
abbrev arr3_3 (c : Dev nD) : S1x128.Idx → EReal := V c main_v49
abbrev arr3_4 (c : Dev nD) : S1x128.Idx → EReal := V c main_v50

/-- The printed index maps, decided over the grid: the tiled windows sit at block row `t`, the row vectors at block 0. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What the output array holds at row `i`, column `j`: the normalised, scaled, shifted and rectified entry. -/
def bnAt3 (c : Dev nD) (i : Fin 50000) (j : Fin 128) : EReal :=
  max ((arr3_0 V c (ix2 i j) - arr3_1 V c (ix2 0 j)) * Ideal.rsqrt (arr3_2 V c (ix2 0 j) + Ideal.ofBits .f32 0x3727C5AC#32)
      * arr3_3 V c (ix2 0 j) + arr3_4 V c (ix2 0 j)) 0

/-- The whole output array. -/
def bnArr3 (c : Dev nD) : S50000x128.Idx → EReal := fun k => bnAt3 V c (k 0) (k 1)

/-- The input tile at point `t` is rows `5000 t …` of the array. -/
theorem tile3_0_apply (c : Dev nD) (t : Fin cfg3.N) (r : Fin 5000) (j : Fin 128) (i : Fin 50000)
    (hi : i.val = 5000 * t.val + r.val) :
    (iblk3 V c 0 t : Vec Ideal S5000x128 .f32) (ix2 r j) = arr3_0 V c (ix2 i j) := by
  have hx := index_facts3 t
  unfold iblk3 arr3_0
  rw [View.read_apply]
  show V c main_v42_0 _ = V c main_v42_0 _
  congr 1
  funext a
  apply Fin.ext
  match a with
  | ⟨0, _⟩ => show win3_0.index t 0 * 5000 + 1 * r.val = i.val; omega
  | ⟨1, _⟩ => show win3_0.index t 1 * 128 + 1 * j.val = j.val; omega

/-- Window 1 is the whole one-row array at every point. -/
theorem row3_1_apply (c : Dev nD) (t : Fin cfg3.N) (j : Fin 128) :
    (iblk3 V c 1 t : Vec Ideal S1x128 .f32) (ix2 0 j) = arr3_1 V c (ix2 0 j) := by
  have hi := index_facts3 t
  unfold iblk3 arr3_1
  rw [View.read_apply]
  show V c main_v44 _ = V c main_v44 _
  congr 1
  funext a
  apply Fin.ext
  match a with
  | ⟨0, _⟩ => show win3_1.index t 0 * 1 + 1 * 0 = 0; omega
  | ⟨1, _⟩ => show win3_1.index t 1 * 128 + 1 * j.val = j.val; omega

/-- Window 2 is the whole one-row array at every point. -/
theorem row3_2_apply (c : Dev nD) (t : Fin cfg3.N) (j : Fin 128) :
    (iblk3 V c 2 t : Vec Ideal S1x128 .f32) (ix2 0 j) = arr3_2 V c (ix2 0 j) := by
  have hi := index_facts3 t
  unfold iblk3 arr3_2
  rw [View.read_apply]
  show V c main_v48 _ = V c main_v48 _
  congr 1
  funext a
  apply Fin.ext
  match a with
  | ⟨0, _⟩ => show win3_2.index t 0 * 1 + 1 * 0 = 0; omega
  | ⟨1, _⟩ => show win3_2.index t 1 * 128 + 1 * j.val = j.val; omega

/-- Window 3 is the whole one-row array at every point. -/
theorem row3_3_apply (c : Dev nD) (t : Fin cfg3.N) (j : Fin 128) :
    (iblk3 V c 3 t : Vec Ideal S1x128 .f32) (ix2 0 j) = arr3_3 V c (ix2 0 j) := by
  have hi := index_facts3 t
  unfold iblk3 arr3_3
  rw [View.read_apply]
  show V c main_v49 _ = V c main_v49 _
  congr 1
  funext a
  apply Fin.ext
  match a with
  | ⟨0, _⟩ => show win3_3.index t 0 * 1 + 1 * 0 = 0; omega
  | ⟨1, _⟩ => show win3_3.index t 1 * 128 + 1 * j.val = j.val; omega

/-- Window 4 is the whole one-row array at every point. -/
theorem row3_4_apply (c : Dev nD) (t : Fin cfg3.N) (j : Fin 128) :
    (iblk3 V c 4 t : Vec Ideal S1x128 .f32) (ix2 0 j) = arr3_4 V c (ix2 0 j) := by
  have hi := index_facts3 t
  unfold iblk3 arr3_4
  rw [View.read_apply]
  show V c main_v50 _ = V c main_v50 _
  congr 1
  funext a
  apply Fin.ext
  match a with
  | ⟨0, _⟩ => show win3_4.index t 0 * 1 + 1 * 0 = 0; omega
  | ⟨1, _⟩ => show win3_4.index t 1 * 128 + 1 * j.val = j.val; omega

/-- The output tile of point `t`, entry by entry. -/
theorem out3_5_apply (c : Dev nD) (t : Fin cfg3.N) (r : Fin 5000) (j : Fin 128) (i : Fin 50000)
    (hi : i.val = 5000 * t.val + r.val) :
    out3_5 (iblk3 V c 0 t) (iblk3 V c 1 t) (iblk3 V c 2 t) (iblk3 V c 3 t) (iblk3 V c 4 t) (ix2 r j) = bnAt3 V c i j := by
  rw [out3_5_eq, k3_pay1_eq, k1_pay1_apply, tile3_0_apply V c t r j i hi, row3_1_apply, row3_2_apply, row3_3_apply, row3_4_apply]
  rfl

/-- What point `t` writes back is block `t` of the whole output array. -/
theorem flushed3_eq (c : Dev nD) (t : Fin cfg3.N) :
    (dat3 (F := Ideal) V c).flushed 5 t = ((cfg3.win 5).blk t).view.read (Elt Ideal) (bnArr3 V c) := by
  show (cfg3.win 5).cut (grid3.coords t) ((dat3 (F := Ideal) V c).after 5 t) = _
  rw [after3_5]
  have hx := index_facts3 t
  have hN : cfg3.N = 10 := N_3
  funext y
  have hy0 : (y 0).val < 5000 := (y 0).isLt
  have hy1 : (y 1).val < 128 := (y 1).isLt
  have ht : t.val < 10 := hN ▸ t.isLt
  have e := out3_5_apply V c t ⟨(y 0).val, hy0⟩ ⟨(y 1).val, hy1⟩ ⟨5000 * t.val + (y 0).val, by omega⟩ rfl
  have hy : (cfg3.win 5).xinj (grid3.coords t) y = ix2 (n0 := 5000) (n1 := 128) ⟨(y 0).val, hy0⟩ ⟨(y 1).val, hy1⟩ := by
    funext a
    match a with
    | ⟨0, _⟩ => rfl
    | ⟨1, _⟩ => rfl
  show out3_5 (F := Ideal) _ _ _ _ _ ((cfg3.win 5).xinj (grid3.coords t) y) = bnArr3 V c (((cfg3.win 5).blk t).view.emb y)
  rw [hy, e]
  unfold bnArr3
  refine congrArg₂ (bnAt3 V c) (Fin.ext ?_) (Fin.ext ?_)
  · show 5000 * t.val + (y 0).val = win3_5.index t 0 * 5000 + 1 * (y 0).val
    omega
  · show (y 1).val = win3_5.index t 1 * 128 + 1 * (y 1).val
    omega

/-- An index of the array is in point `t`'s block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v51).slice (win3_5.rect t)).set ↔ _
  rw [View.set_slice_whole, Rect.mem_set_unit]
  exact Iff.rfl

/-- Row `i` is in the block of point `i / 5000`: the ten tiles cover the array. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  have hq : (i 0).val / 5000 < cfg3.N := by rw [hN]; omega
  refine ⟨⟨(i 0).val / 5000, hq⟩, flush3_5 _, ?_⟩
  rw [mem_blk3]
  have hx := index_facts3 ⟨(i 0).val / 5000, hq⟩
  have h50 : win3_5.index ⟨(i 0).val / 5000, hq⟩ (0 : Fin 2) = (i 0).val / 5000 := hx.2.2.2.2.2.2.2.2.2.2.1
  have h51 : win3_5.index ⟨(i 0).val / 5000, hq⟩ (1 : Fin 2) = 0 := hx.2.2.2.2.2.2.2.2.2.2.2
  intro a
  match a with
  | ⟨0, _⟩ =>
    show win3_5.index ⟨(i 0).val / 5000, hq⟩ (0 : Fin 2) * 5000 ≤ (i 0).val ∧ (i 0).val < win3_5.index ⟨(i 0).val / 5000, hq⟩ (0 : Fin 2) * 5000 + 5000
    rw [h50]
    omega
  | ⟨1, _⟩ =>
    show win3_5.index ⟨(i 0).val / 5000, hq⟩ (1 : Fin 2) * 128 ≤ (i 1).val ∧ (i 1).val < win3_5.index ⟨(i 0).val / 5000, hq⟩ (1 : Fin 2) * 128 + 128
    rw [h51]
    omega

/-- The output array after the region. -/
theorem final3 (c : Dev nD) : (dat3 (F := Ideal) V c).arrAt 5 cfg3.N = bnArr3 V c :=
  (dat3 (F := Ideal) V c).arrAt_eq_of_cover 5 (bnArr3 V c) (fun t _ => flushed3_eq V c t) (cover3)

/-- The output array after the region, index by index. -/
theorem final3_apply (c : Dev nD) (i : Fin 50000) (j : Fin 128) :
    (dat3 (F := Ideal) V c).arrAt 5 cfg3.N (ix2 i j)
      = max ((arr3_0 V c (ix2 i j) - arr3_1 V c (ix2 0 j)) * Ideal.rsqrt (arr3_2 V c (ix2 0 j) + Ideal.ofBits .f32 0x3727C5AC#32)
          * arr3_3 V c (ix2 0 j) + arr3_4 V c (ix2 0 j)) 0 := by
  rw [final3]
  rfl

end Cert.KernelIdeal.HandVal
-- ==== Proof.KLayerB.lean ====
/-
  One layer of the network on the kernel's side, composed: the layer's output array as one closed expression of the
  layer's input, the edge list and the layer's parameters — through the host stretch that aggregates the neighbours and
  lays out the weights, the pipelined call that forms the linear map with its column statistics, the host stretch that
  turns the statistics into the column mean and variance, and the pipelined call that normalizes and ends in max · 0.
-/
import proofs.«144613_j17471926960174_1_alg».proof.Proof.Reg2
import proofs.«144613_j17471926960174_1_alg».proof.Proof.Reg3
import proofs.«144613_j17471926960174_1_alg».proof.Proof.Carry
import proofs.«144613_j17471926960174_1_alg».proof.Proof.ValStats2
import proofs.«144613_j17471926960174_1_alg».proof.Proof.ValBn3
import proofs.«144613_j17471926960174_1_alg».proof.Proof.HostEvenA
import proofs.«144613_j17471926960174_1_alg».proof.Proof.HostEvenB
import proofs.«144613_j17471926960174_1_alg».proof.Proof.HostOdd
import proofs.«144613_j17471926960174_1_alg».proof.Proof.SpecForm

set_option maxRecDepth 16384

noncomputable section

open scoped BigOperators

namespace Cert.KernelIdeal.HandVal

open Cert.KernelIdeal Cert.KernelIdeal.Gen Cert.KernelIdeal.Hand Cert.KernelIdeal.HostVal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's input, edges and parameters, and its linear part -/

abbrev xB (c : Dev nD) : S50000x128.Idx → EReal := W0 m c main_arg1
abbrev eB (c : Dev nD) : (⟨S2x800000, .i32⟩ : BufTy).Contents (Elt Ideal) := W0 m c main_arg4
abbrev wB (c : Dev nD) : S128x128.Idx → EReal := W0 m c main_arg10
abbrev bB (c : Dev nD) : S128.Idx → EReal := W0 m c main_arg11
abbrev gB (c : Dev nD) : S128.Idx → EReal := W0 m c main_arg12
abbrev βB (c : Dev nD) : S128.Idx → EReal := W0 m c main_arg13

/-- The layer's linear part, row by row and column by column. -/
abbrev hB (c : Dev nD) : Fin 50000 → Fin 128 → EReal :=
  Cert.SpecForm.lin (xB m c) (agg128 (xB m c) (eB m c)) (wB m c) (bB m c)

/-- The call's four operands as it is entered: the input carried, the aggregation, the transposed weights and the bias
    row as the host stretch before it leaves them. -/
abbrev oxB (c : Dev nD) : S50000x128.Idx → EReal := W5 m XX c main_arg1
abbrev oaB (c : Dev nD) : S50000x128.Idx → EReal := W5 m XX c main_v39
abbrev owB (c : Dev nD) : S128x128.Idx → EReal := W5 m XX c main_v40
abbrev obB (c : Dev nD) : S1x128.Idx → EReal := W5 m XX c main_v41

theorem opxB (c : Dev nD) : oxB m c = xB m c := cy_main_arg1_0_5 m c
theorem opaB (c : Dev nD) : oaB m c = agg128 (xB m c) (eB m c) := by
  have h := hostOps2_v39 (W4 m XX c)
  rw [show (W4 m XX c) (Proc.devRef .tc main_arg1) = W0 m c main_arg1 from cy_main_arg1_0_4 m c, show (W4 m XX c) (Proc.devRef .tc main_arg4) = W0 m c main_arg4 from cy_main_arg4_0_4 m c] at h
  exact h
theorem opwB (c : Dev nD) (k : Fin 128) (j : Fin 128) : owB m c (ix2 k j) = wB m c (ix2 j k) := by
  have h := hostOps2_v40 (W4 m XX c) k j
  rw [show (W4 m XX c) (Proc.devRef .tc main_arg10) = W0 m c main_arg10 from cy_main_arg10_0_4 m c] at h
  exact h
theorem opbB (c : Dev nD) (j : Fin 128) : obB m c (ix2 0 j) = bB m c (ix1 j) := by
  have h := hostOps2_v41 (W4 m XX c) j
  rw [show (W4 m XX c) (Proc.devRef .tc main_arg11) = W0 m c main_arg11 from cy_main_arg11_0_4 m c] at h
  exact h

/-- The linear map the first call computes is the layer's linear part. -/
theorem linB (c : Dev nD) (i : Fin 50000) (j : Fin 128) : Hlin2 (E5 m XX) c i j = hB m c i j := by
  show (∑ k : Fin 128, (oxB m c (ix2 i k) + oaB m c (ix2 i k)) * owB m c (ix2 k j))
      + obB m c (ix2 0 j)
    = (∑ k : Fin 128, (xB m c (ix2 i k) + agg128 (xB m c) (eB m c) (ix2 i k)) * wB m c (ix2 j k)) + bB m c (ix1 j)
  rw [opxB, opaB, opbB]
  exact congrArg (· + bB m c (ix1 j)) (Finset.sum_congr rfl fun k _ => by rw [opwB])

/-- The three arrays the first call leaves: the linear part, its column sums and the column sums of its squares. -/
abbrev rhB (c : Dev nD) : S50000x128.Idx → EReal := W6 m XX c main_v42_0
abbrev rsB (c : Dev nD) : S1x128.Idx → EReal := W6 m XX c main_v42_1
abbrev rqB (c : Dev nD) : S1x128.Idx → EReal := W6 m XX c main_v42_2
theorem lhB (c : Dev nD) (i : Fin 50000) (j : Fin 128) : rhB m c (ix2 i j) = hB m c i j := by
  have e : rhB m c = (dat2 (F := Ideal) (E5 m XX) c).arrAt 4 cfg2.N := (hF2_4 m c).symm
  rw [e, final2_4, linB]
theorem lsB (c : Dev nD) (j : Fin 128) : rsB m c (ix2 0 j) = ∑ a : Fin 50000, hB m c a j := by
  have e : rsB m c = (dat2 (F := Ideal) (E5 m XX) c).arrAt 5 cfg2.N := (hF2_5 m c).symm
  rw [e, final2_5]
  exact Finset.sum_congr rfl fun a _ => linB m c a j
theorem lqB (c : Dev nD) (j : Fin 128) : rqB m c (ix2 0 j) = ∑ a : Fin 50000, hB m c a j * hB m c a j := by
  have e : rqB m c = (dat2 (F := Ideal) (E5 m XX) c).arrAt 6 cfg2.N := (hF2_6 m c).symm
  rw [e, final2_6]
  exact Finset.sum_congr rfl fun a _ => by rw [linB]

set_option quotPrecheck false in
local notation "N₀" => (Ideal.ofBits .f32 0x47435000#32 : EReal)
set_option quotPrecheck false in
local notation "ε₀" => (Ideal.ofBits .f32 0x3727C5AC#32 : EReal)

/-- THE LAYER, on the kernel's side. -/
theorem klayerB (c : Dev nD) (i : Fin 50000) (j : Fin 128) :
    (W8 m XX c main_v51 : S50000x128.Idx → EReal) (ix2 i j)
      = Cert.SpecForm.bnWith (hB m c) N₀ ε₀ (Cert.SpecForm.varSq (hB m c) N₀) (gB m c) (βB m c) i j := by
  rw [← hF3_5 m c, final3_apply]
  have e0 : arr3_0 (E7 m XX) c (ix2 i j) = hB m c i j := by
    have e : arr3_0 (E7 m XX) c = rhB m c := cy_main_v42_0_6_7 m c
    rw [e]
    exact lhB m c i j
  have e1 : arr3_1 (E7 m XX) c (ix2 0 j) = Cert.SpecForm.mean (hB m c) N₀ j :=
    (hostOps3_v44 (W6 m XX c) j).trans (congrArg (fun s => Ideal.div s N₀) (lsB m c j))
  have e2 : arr3_2 (E7 m XX) c (ix2 0 j) = Cert.SpecForm.varSq (hB m c) N₀ j :=
    (hostOps3_v48 (W6 m XX c) j).trans
      (congrArg₂ (fun q s => Ideal.div q N₀ - Ideal.div s N₀ * Ideal.div s N₀) (lqB m c j) (lsB m c j))
  have e3 : arr3_3 (E7 m XX) c (ix2 0 j) = gB m c (ix1 j) :=
    (hostOps3_v49 (W6 m XX c) j).trans (congrFun (cy_main_arg12_0_6 m c) (ix1 j))
  have e4 : arr3_4 (E7 m XX) c (ix2 0 j) = βB m c (ix1 j) :=
    (hostOps3_v50 (W6 m XX c) j).trans (congrFun (cy_main_arg13_0_6 m c) (ix1 j))
  rw [e0, e1, e2, e3, e4]
  rfl

end Cert.KernelIdeal.HandVal

end
-- ==== Proof.ValStats4.lean ====
/-
  From the blocks to the arrays, at the ideal instance: what the call that computes one graph layer's linear map with
  its batch statistics leaves in its three result arrays, as functions of the arrays it is entered with.

  Point t of the ten-point grid writes rows 5000 t … 5000 t + 4999 of the first result, each entry the affine map
  h(i, j) = Σ_k (x(i, k) + g(i, k)) · w(k, j) + b(j) of the row; the ten blocks tile the array. The two statistics
  results are written back once, after the last point, and hold the accumulators after all ten points: the column sums
  of h and of h · h over all 50000 rows.
-/
import proofs.«144613_j17471926960174_1_alg».proof.Proof.Stats4
import proofs.«144613_j17471926960174_1_alg».proof.Proof.PayStats
import proofs.«144613_j17471926960174_1_alg».proof.Proof.PayTiles
import proofs.«144613_j17471926960174_1_alg».proof.Proof.PayAcc
import Idealize.ShloMosaic.Lib.Pipeline.Value

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays the region is entered with, and the affine map -/

/-- The layer's input, the aggregated array, the transposed weights and the bias row, as the region finds them. -/
abbrev xin4 (c : Dev nD) : Vec Ideal S50000x256 .f32 := V c (Pipeline.arrRef spec4 0)
abbrev agg4 (c : Dev nD) : Vec Ideal S50000x256 .f32 := V c (Pipeline.arrRef spec4 1)
abbrev wgt4 (c : Dev nD) : Vec Ideal S256x128 .f32 := V c (Pipeline.arrRef spec4 2)
abbrev bia4 (c : Dev nD) : Vec Ideal S1x128 .f32 := V c (Pipeline.arrRef spec4 3)

/-- The linear layer at row `i`, column `j`. -/
def Hlin4 (c : Dev nD) (i : Fin 50000) (j : Fin 128) : EReal :=
  (∑ k : Fin 256, (xin4 V c (ix2 i k) + agg4 V c (ix2 i k)) * wgt4 V c (ix2 k j)) + bia4 V c (ix2 0 j)

/-! ## Where each window's block sits -/

/-- The printed index maps, decided over the grid: the row tiles move with the point, everything else stays at 0. -/
theorem idx4_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- Each input block read where its rectangle says: a block's coordinate is index × size + the coordinate inside. -/
theorem read4_0 (c : Dev nD) (t : Fin cfg4.N) (u : Fin 10) (hu : u.val = t.val) (r : Fin 5000) (k : Fin 256) :
    iblk4 V c 0 t (ix2 r k) = xin4 V c (ix2 (tileRow u r) k) := by
  obtain ⟨e0, e1, -⟩ := idx4_facts t
  show xin4 V c (((cfg4.win 0).blk t).view.emb (ix2 r k)) = _
  congr 1
  funext a; apply Fin.ext
  match a with
  | ⟨0, _⟩ => show win4_0.index t (0 : Fin 2) * 5000 + 1 * r.val = 5000 * u.val + r.val; omega
  | ⟨1, _⟩ => show win4_0.index t (1 : Fin 2) * 256 + 1 * k.val = k.val; omega
theorem read4_1 (c : Dev nD) (t : Fin cfg4.N) (u : Fin 10) (hu : u.val = t.val) (r : Fin 5000) (k : Fin 256) :
    iblk4 V c 1 t (ix2 r k) = agg4 V c (ix2 (tileRow u r) k) := by
  obtain ⟨-, -, e0, e1, -⟩ := idx4_facts t
  show agg4 V c (((cfg4.win 1).blk t).view.emb (ix2 r k)) = _
  congr 1
  funext a; apply Fin.ext
  match a with
  | ⟨0, _⟩ => show win4_1.index t (0 : Fin 2) * 5000 + 1 * r.val = 5000 * u.val + r.val; omega
  | ⟨1, _⟩ => show win4_1.index t (1 : Fin 2) * 256 + 1 * k.val = k.val; omega
theorem read4_2 (c : Dev nD) (t : Fin cfg4.N) (k : Fin 256) (j : Fin 128) :
    iblk4 V c 2 t (ix2 k j) = wgt4 V c (ix2 k j) := by
  obtain ⟨-, -, -, -, e0, e1, -⟩ := idx4_facts t
  show wgt4 V c (((cfg4.win 2).blk t).view.emb (ix2 k j)) = _
  congr 1
  funext a; apply Fin.ext
  match a with
  | ⟨0, _⟩ => show win4_2.index t (0 : Fin 2) * 256 + 1 * k.val = k.val; omega
  | ⟨1, _⟩ => show win4_2.index t (1 : Fin 2) * 128 + 1 * j.val = j.val; omega
theorem read4_3 (c : Dev nD) (t : Fin cfg4.N) (z : Fin 1) (j : Fin 128) :
    iblk4 V c 3 t (ix2 z j) = bia4 V c (ix2 z j) := by
  obtain ⟨-, -, -, -, -, -, e0, e1, -⟩ := idx4_facts t
  show bia4 V c (((cfg4.win 3).blk t).view.emb (ix2 z j)) = _
  congr 1
  funext a; apply Fin.ext
  match a with
  | ⟨0, _⟩ => show win4_3.index t (0 : Fin 2) * 1 + 1 * z.val = z.val; omega
  | ⟨1, _⟩ => show win4_3.index t (1 : Fin 2) * 128 + 1 * j.val = j.val; omega

/-- The weights' and the bias's blocks are the arrays, at every point. -/
theorem iblk4_2_eq (c : Dev nD) (t : Fin cfg4.N) : iblk4 V c 2 t = wgt4 V c :=
  funext fun i => by rw [eq_ix2 i]; exact read4_2 V c t _ _
theorem iblk4_3_eq (c : Dev nD) (t : Fin cfg4.N) : iblk4 V c 3 t = bia4 V c :=
  funext fun i => by rw [eq_ix2 i]; exact read4_3 V c t _ _

/-- The body's payload on the blocks of point `t` is the affine map on the tile's rows. -/
theorem pay3_blocks4 (c : Dev nD) (t : Fin cfg4.N) (u : Fin 10) (hu : u.val = t.val) (r : Fin 5000) (j : Fin 128) :
    k4_pay3 (F := Ideal) (iblk4 V c 0 t) (iblk4 V c 1 t) (wgt4 V c) (bia4 V c) (ix2 r j) = Hlin4 V c (tileRow u r) j := by
  rw [k4_pay3_eq, k0_pay3_apply]
  unfold Hlin4
  simp only [read4_0 V c t u hu, read4_1 V c t u hu]
theorem hblk4_apply (c : Dev nD) (t : Fin cfg4.N) (u : Fin 10) (hu : u.val = t.val) (r : Fin 5000) (j : Fin 128) :
    hblk4 V c t (ix2 r j) = Hlin4 V c (tileRow u r) j := by
  unfold hblk4
  rw [iblk4_2_eq, iblk4_3_eq]
  exact pay3_blocks4 V c t u hu r j

theorem hblk4_apply' (c : Dev nD) (t : Fin cfg4.N) (u : Fin 10) (hu : u.val = t.val) (j : S5000x128.Idx) :
    hblk4 V c t j = Hlin4 V c (tileRow u (j 0)) (j 1) :=
  (congrArg (hblk4 V c t) (eq_ix2 j)).trans (hblk4_apply V c t u hu (j 0) (j 1))

/-! ## The first result: ten row tiles -/

/-- What the first result ends holding: the affine map, row by row. -/
def G4_4 (c : Dev nD) : Vec Ideal S50000x128 .f32 := fun i => Hlin4 V c (i 0) (i 1)

/-- What point `t` writes back is block `t` of it. -/
theorem flushed4_4_eq (c : Dev nD) (t : Fin cfg4.N) :
    (dat4 V c).flushed 4 t = ((cfg4.win 4).blk t).view.read (Elt Ideal) (G4_4 V c) := by
  show (cfg4.win 4).cut (grid4.coords t) ((dat4 V c).after 4 t) = _
  rw [after4_4]
  obtain ⟨-, -, -, -, -, -, -, -, e0, e1, -⟩ := idx4_facts t
  funext j
  show hblk4 V c t j = Hlin4 V c ((((cfg4.win 4).blk t).view.emb j) 0) ((((cfg4.win 4).blk t).view.emb j) 1)
  rw [hblk4_apply' V c t (Fin.cast N4_eq t) rfl]
  congr 1
  · apply Fin.ext; show 5000 * t.val + (j 0).val = win4_4.index t (0 : Fin 2) * 5000 + 1 * (j 0).val; omega
  · apply Fin.ext; show (j 1).val = win4_4.index t (1 : Fin 2) * 128 + 1 * (j 1).val; omega

/-- An index of the array is in point `t`'s block iff each coordinate is in the block's range on its axis. -/
theorem mem_blk4_4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v68_0).slice (win4_4.rect t)).set ↔ _
  rw [View.set_slice_whole, Rect.mem_set_unit]
  exact Iff.rfl

/-- Row `i` is covered by point `i / 5000`. -/
theorem cover4_4 (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  have hlt : (i 0).val / 5000 < cfg4.N := by rw [N4_eq]; omega
  obtain ⟨-, -, -, -, -, -, -, -, e0, e1, -⟩ := idx4_facts ⟨(i 0).val / 5000, hlt⟩
  refine ⟨⟨(i 0).val / 5000, hlt⟩, flush4_4 _, ?_⟩
  rw [mem_blk4_4]
  intro a
  match a with
  | ⟨0, _⟩ => show win4_4.index ⟨(i 0).val / 5000, hlt⟩ (0 : Fin 2) * 5000 ≤ (i 0).val ∧ (i 0).val < win4_4.index ⟨(i 0).val / 5000, hlt⟩ (0 : Fin 2) * 5000 + 5000; dsimp only at e0; omega
  | ⟨1, _⟩ => show win4_4.index ⟨(i 0).val / 5000, hlt⟩ (1 : Fin 2) * 128 ≤ (i 1).val ∧ (i 1).val < win4_4.index ⟨(i 0).val / 5000, hlt⟩ (1 : Fin 2) * 128 + 128; omega

/-- THE FIRST RESULT after the region: the affine map at every row and column. -/
theorem final4_4 (c : Dev nD) (i : Fin 50000) (j : Fin 128) :
    (dat4 (F := Ideal) V c).arrAt 4 cfg4.N (ix2 i j) = Hlin4 V c i j := by
  rw [(dat4 V c).arrAt_eq_of_cover 4 (G4_4 V c) (fun t _ => flushed4_4_eq V c t) cover4_4]
  rfl

/-! ## The two statistics results: written back once, after the last point -/

theorem flushed4_5_eq (c : Dev nD) (t : Fin cfg4.N) (hf : (cfg4.win 5).flush t = true) :
    (dat4 V c).flushed 5 t = ((cfg4.win 5).blk t).view.read (Elt Ideal) (accS4 V c 9) := by
  have h9 : t.val = 9 := by have h1 := (flush4_5 t).mp hf; have h2 := lt_of_lt_of_eq t.isLt N4_eq; omega
  obtain ⟨-, -, -, -, -, -, -, -, -, -, e0, e1, -⟩ := idx4_facts t
  show (cfg4.win 5).cut (grid4.coords t) ((dat4 V c).after 5 t) = _
  rw [after4_5, h9]
  funext j
  show accS4 V c 9 j = accS4 V c 9 (((cfg4.win 5).blk t).view.emb j)
  congr 1
  funext a; apply Fin.ext
  match a with
  | ⟨0, _⟩ => show (j 0).val = win4_5.index t (0 : Fin 2) * 1 + 1 * (j 0).val; omega
  | ⟨1, _⟩ => show (j 1).val = win4_5.index t (1 : Fin 2) * 128 + 1 * (j 1).val; omega

theorem mem_blk4_5 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v68_1).slice (win4_5.rect t)).set ↔ _
  rw [View.set_slice_whole, Rect.mem_set_unit]
  exact Iff.rfl

/-- The last point's block is the whole array. -/
theorem cover4_5 (i : S1x128.Idx) : ∃ t : Fin cfg4.N, (cfg4.win 5).flush t = true ∧ i ∈ ((cfg4.win 5).blk t).view.set := by
  have hi0 : (i 0).val < 1 := (i 0).isLt
  have hi1 : (i 1).val < 128 := (i 1).isLt
  obtain ⟨-, -, -, -, -, -, -, -, -, -, e0, e1, -⟩ := idx4_facts t4_9
  refine ⟨t4_9, (flush4_5 t4_9).mpr rfl, ?_⟩
  rw [mem_blk4_5]
  intro a
  match a with
  | ⟨0, _⟩ => show win4_5.index t4_9 (0 : Fin 2) * 1 ≤ (i 0).val ∧ (i 0).val < win4_5.index t4_9 (0 : Fin 2) * 1 + 1; omega
  | ⟨1, _⟩ => show win4_5.index t4_9 (1 : Fin 2) * 128 ≤ (i 1).val ∧ (i 1).val < win4_5.index t4_9 (1 : Fin 2) * 128 + 128; omega

/-- The array ends holding the accumulator after all ten points. -/
theorem arr4_5 (c : Dev nD) : (dat4 (F := Ideal) V c).arrAt 5 cfg4.N = accS4 V c 9 :=
  (dat4 V c).arrAt_eq_of_cover 5 (accS4 V c 9) (fun t hf => flushed4_5_eq V c t hf) cover4_5

theorem flushed4_6_eq (c : Dev nD) (t : Fin cfg4.N) (hf : (cfg4.win 6).flush t = true) :
    (dat4 V c).flushed 6 t = ((cfg4.win 6).blk t).view.read (Elt Ideal) (accQ4 V c 9) := by
  have h9 : t.val = 9 := by have h1 := (flush4_6 t).mp hf; have h2 := lt_of_lt_of_eq t.isLt N4_eq; omega
  obtain ⟨-, -, -, -, -, -, -, -, -, -, -, -, e0, e1⟩ := idx4_facts t
  show (cfg4.win 6).cut (grid4.coords t) ((dat4 V c).after 6 t) = _
  rw [after4_6, h9]
  funext j
  show accQ4 V c 9 j = accQ4 V c 9 (((cfg4.win 6).blk t).view.emb j)
  congr 1
  funext a; apply Fin.ext
  match a with
  | ⟨0, _⟩ => show (j 0).val = win4_6.index t (0 : Fin 2) * 1 + 1 * (j 0).val; omega
  | ⟨1, _⟩ => show (j 1).val = win4_6.index t (1 : Fin 2) * 128 + 1 * (j 1).val; omega

theorem mem_blk4_6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v68_2).slice (win4_6.rect t)).set ↔ _
  rw [View.set_slice_whole, Rect.mem_set_unit]
  exact Iff.rfl

/-- The last point's block is the whole array. -/
theorem cover4_6 (i : S1x128.Idx) : ∃ t : Fin cfg4.N, (cfg4.win 6).flush t = true ∧ i ∈ ((cfg4.win 6).blk t).view.set := by
  have hi0 : (i 0).val < 1 := (i 0).isLt
  have hi1 : (i 1).val < 128 := (i 1).isLt
  obtain ⟨-, -, -, -, -, -, -, -, -, -, -, -, e0, e1⟩ := idx4_facts t4_9
  refine ⟨t4_9, (flush4_6 t4_9).mpr rfl, ?_⟩
  rw [mem_blk4_6]
  intro a
  match a with
  | ⟨0, _⟩ => show win4_6.index t4_9 (0 : Fin 2) * 1 ≤ (i 0).val ∧ (i 0).val < win4_6.index t4_9 (0 : Fin 2) * 1 + 1; omega
  | ⟨1, _⟩ => show win4_6.index t4_9 (1 : Fin 2) * 128 ≤ (i 1).val ∧ (i 1).val < win4_6.index t4_9 (1 : Fin 2) * 128 + 128; omega

/-- The array ends holding the accumulator after all ten points. -/
theorem arr4_6 (c : Dev nD) : (dat4 (F := Ideal) V c).arrAt 6 cfg4.N = accQ4 V c 9 :=
  (dat4 V c).arrAt_eq_of_cover 6 (accQ4 V c 9) (fun t hf => flushed4_6_eq V c t hf) cover4_6

/-- The blocks of the point numbered `u`. -/
theorem pt4_cast (u : Fin 10) : u.val = (pt4 u.val).val := (Nat.mod_eq_of_lt u.isLt).symm

/-- THE SECOND RESULT after the region: the column sums of the affine map over all 50000 rows. -/
theorem final4_5 (c : Dev nD) (j : Fin 128) :
    (dat4 (F := Ideal) V c).arrAt 5 cfg4.N (ix2 0 j) = ∑ i : Fin 50000, Hlin4 V c i j := by
  rw [arr4_5]
  exact k4_colsum (fun n => iblk4 V c 0 (pt4 n)) (fun n => iblk4 V c 1 (pt4 n)) (wgt4 V c) (bia4 V c) (accS4 V c)
    (by rw [accS4, iblk4_2_eq, iblk4_3_eq]) (fun n _ => by rw [accS4, iblk4_2_eq, iblk4_3_eq])
    (fun i => Hlin4 V c i j) j
    (fun u r => pay3_blocks4 V c (pt4 u.val) u (pt4_cast u) r j)

/-- THE THIRD RESULT after the region: the column sums of its square. -/
theorem final4_6 (c : Dev nD) (j : Fin 128) :
    (dat4 (F := Ideal) V c).arrAt 6 cfg4.N (ix2 0 j) = ∑ i : Fin 50000, Hlin4 V c i j * Hlin4 V c i j := by
  rw [arr4_6]
  exact k4_colsumsq (fun n => iblk4 V c 0 (pt4 n)) (fun n => iblk4 V c 1 (pt4 n)) (wgt4 V c) (bia4 V c) (accQ4 V c)
    (by rw [accQ4, iblk4_2_eq, iblk4_3_eq]) (fun n _ => by rw [accQ4, iblk4_2_eq, iblk4_3_eq])
    (fun i => Hlin4 V c i j) j
    (fun u r => pay3_blocks4 V c (pt4 u.val) u (pt4_cast u) r j)

end Cert.KernelIdeal.HandVal

end
-- ==== Proof.ValBn5.lean ====
/- From blocks to the array, region 5: after the normalise-and-rectify region the output array holds, at row `i` and
   column `j`,  max ((h i j − m j) · rsqrt (v j + ε) · g j + β j, 0)  of the five input arrays as the region finds
   them. Point `t` of the grid handles rows `5000 t … 5000 t + 4999`: its input tile is those rows of `h`, the four
   row vectors are read whole at every point, and its output tile is written back to those rows; the ten tiles cover
   the array. -/
import proofs.«144613_j17471926960174_1_alg».proof.Proof.Bn5
import proofs.«144613_j17471926960174_1_alg».proof.Proof.PayBn
import Idealize.ShloMosaic.Lib.Pipeline.Value
import Idealize.ShloMosaic.Lib.ValueIdx
import Idealize.ShloMosaic.Lib.Tactic

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-- The five input arrays as the region finds them, at their element type: `h`, the column mean, the column
    variance, the scale row and the shift row. -/
abbrev arr5_0 (c : Dev nD) : S50000x128.Idx → EReal := V c main_v68_0
abbrev arr5_1 (c : Dev nD) : S1x128.Idx → EReal := V c main_v70
abbrev arr5_2 (c : Dev nD) : S1x128.Idx → EReal := V c main_v74
abbrev arr5_3 (c : Dev nD) : S1x128.Idx → EReal := V c main_v75
abbrev arr5_4 (c : Dev nD) : S1x128.Idx → EReal := V c main_v76

/-- The printed index maps, decided over the grid: the tiled windows sit at block row `t`, the row vectors at block 0. -/
theorem index_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What the output array holds at row `i`, column `j`: the normalised, scaled, shifted and rectified entry. -/
def bnAt5 (c : Dev nD) (i : Fin 50000) (j : Fin 128) : EReal :=
  max ((arr5_0 V c (ix2 i j) - arr5_1 V c (ix2 0 j)) * Ideal.rsqrt (arr5_2 V c (ix2 0 j) + Ideal.ofBits .f32 0x3727C5AC#32)
      * arr5_3 V c (ix2 0 j) + arr5_4 V c (ix2 0 j)) 0

/-- The whole output array. -/
def bnArr5 (c : Dev nD) : S50000x128.Idx → EReal := fun k => bnAt5 V c (k 0) (k 1)

/-- The input tile at point `t` is rows `5000 t …` of the array. -/
theorem tile5_0_apply (c : Dev nD) (t : Fin cfg5.N) (r : Fin 5000) (j : Fin 128) (i : Fin 50000)
    (hi : i.val = 5000 * t.val + r.val) :
    (iblk5 V c 0 t : Vec Ideal S5000x128 .f32) (ix2 r j) = arr5_0 V c (ix2 i j) := by
  have hx := index_facts5 t
  unfold iblk5 arr5_0
  rw [View.read_apply]
  show V c main_v68_0 _ = V c main_v68_0 _
  congr 1
  funext a
  apply Fin.ext
  match a with
  | ⟨0, _⟩ => show win5_0.index t 0 * 5000 + 1 * r.val = i.val; omega
  | ⟨1, _⟩ => show win5_0.index t 1 * 128 + 1 * j.val = j.val; omega

/-- Window 1 is the whole one-row array at every point. -/
theorem row5_1_apply (c : Dev nD) (t : Fin cfg5.N) (j : Fin 128) :
    (iblk5 V c 1 t : Vec Ideal S1x128 .f32) (ix2 0 j) = arr5_1 V c (ix2 0 j) := by
  have hi := index_facts5 t
  unfold iblk5 arr5_1
  rw [View.read_apply]
  show V c main_v70 _ = V c main_v70 _
  congr 1
  funext a
  apply Fin.ext
  match a with
  | ⟨0, _⟩ => show win5_1.index t 0 * 1 + 1 * 0 = 0; omega
  | ⟨1, _⟩ => show win5_1.index t 1 * 128 + 1 * j.val = j.val; omega

/-- Window 2 is the whole one-row array at every point. -/
theorem row5_2_apply (c : Dev nD) (t : Fin cfg5.N) (j : Fin 128) :
    (iblk5 V c 2 t : Vec Ideal S1x128 .f32) (ix2 0 j) = arr5_2 V c (ix2 0 j) := by
  have hi := index_facts5 t
  unfold iblk5 arr5_2
  rw [View.read_apply]
  show V c main_v74 _ = V c main_v74 _
  congr 1
  funext a
  apply Fin.ext
  match a with
  | ⟨0, _⟩ => show win5_2.index t 0 * 1 + 1 * 0 = 0; omega
  | ⟨1, _⟩ => show win5_2.index t 1 * 128 + 1 * j.val = j.val; omega

/-- Window 3 is the whole one-row array at every point. -/
theorem row5_3_apply (c : Dev nD) (t : Fin cfg5.N) (j : Fin 128) :
    (iblk5 V c 3 t : Vec Ideal S1x128 .f32) (ix2 0 j) = arr5_3 V c (ix2 0 j) := by
  have hi := index_facts5 t
  unfold iblk5 arr5_3
  rw [View.read_apply]
  show V c main_v75 _ = V c main_v75 _
  congr 1
  funext a
  apply Fin.ext
  match a with
  | ⟨0, _⟩ => show win5_3.index t 0 * 1 + 1 * 0 = 0; omega
  | ⟨1, _⟩ => show win5_3.index t 1 * 128 + 1 * j.val = j.val; omega

/-- Window 4 is the whole one-row array at every point. -/
theorem row5_4_apply (c : Dev nD) (t : Fin cfg5.N) (j : Fin 128) :
    (iblk5 V c 4 t : Vec Ideal S1x128 .f32) (ix2 0 j) = arr5_4 V c (ix2 0 j) := by
  have hi := index_facts5 t
  unfold iblk5 arr5_4
  rw [View.read_apply]
  show V c main_v76 _ = V c main_v76 _
  congr 1
  funext a
  apply Fin.ext
  match a with
  | ⟨0, _⟩ => show win5_4.index t 0 * 1 + 1 * 0 = 0; omega
  | ⟨1, _⟩ => show win5_4.index t 1 * 128 + 1 * j.val = j.val; omega

/-- The output tile of point `t`, entry by entry. -/
theorem out5_5_apply (c : Dev nD) (t : Fin cfg5.N) (r : Fin 5000) (j : Fin 128) (i : Fin 50000)
    (hi : i.val = 5000 * t.val + r.val) :
    out5_5 (iblk5 V c 0 t) (iblk5 V c 1 t) (iblk5 V c 2 t) (iblk5 V c 3 t) (iblk5 V c 4 t) (ix2 r j) = bnAt5 V c i j := by
  rw [out5_5_eq, k5_pay1_eq, k1_pay1_apply, tile5_0_apply V c t r j i hi, row5_1_apply, row5_2_apply, row5_3_apply, row5_4_apply]
  rfl

/-- What point `t` writes back is block `t` of the whole output array. -/
theorem flushed5_eq (c : Dev nD) (t : Fin cfg5.N) :
    (dat5 (F := Ideal) V c).flushed 5 t = ((cfg5.win 5).blk t).view.read (Elt Ideal) (bnArr5 V c) := by
  show (cfg5.win 5).cut (grid5.coords t) ((dat5 (F := Ideal) V c).after 5 t) = _
  rw [after5_5]
  have hx := index_facts5 t
  have hN : cfg5.N = 10 := N_5
  funext y
  have hy0 : (y 0).val < 5000 := (y 0).isLt
  have hy1 : (y 1).val < 128 := (y 1).isLt
  have ht : t.val < 10 := hN ▸ t.isLt
  have e := out5_5_apply V c t ⟨(y 0).val, hy0⟩ ⟨(y 1).val, hy1⟩ ⟨5000 * t.val + (y 0).val, by omega⟩ rfl
  have hy : (cfg5.win 5).xinj (grid5.coords t) y = ix2 (n0 := 5000) (n1 := 128) ⟨(y 0).val, hy0⟩ ⟨(y 1).val, hy1⟩ := by
    funext a
    match a with
    | ⟨0, _⟩ => rfl
    | ⟨1, _⟩ => rfl
  show out5_5 (F := Ideal) _ _ _ _ _ ((cfg5.win 5).xinj (grid5.coords t) y) = bnArr5 V c (((cfg5.win 5).blk t).view.emb y)
  rw [hy, e]
  unfold bnArr5
  refine congrArg₂ (bnAt5 V c) (Fin.ext ?_) (Fin.ext ?_)
  · show 5000 * t.val + (y 0).val = win5_5.index t 0 * 5000 + 1 * (y 0).val
    omega
  · show (y 1).val = win5_5.index t 1 * 128 + 1 * (y 1).val
    omega

/-- An index of the array is in point `t`'s block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v77).slice (win5_5.rect t)).set ↔ _
  rw [View.set_slice_whole, Rect.mem_set_unit]
  exact Iff.rfl

/-- Row `i` is in the block of point `i / 5000`: the ten tiles cover the array. -/
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  have hq : (i 0).val / 5000 < cfg5.N := by rw [hN]; omega
  refine ⟨⟨(i 0).val / 5000, hq⟩, flush5_5 _, ?_⟩
  rw [mem_blk5]
  have hx := index_facts5 ⟨(i 0).val / 5000, hq⟩
  have h50 : win5_5.index ⟨(i 0).val / 5000, hq⟩ (0 : Fin 2) = (i 0).val / 5000 := hx.2.2.2.2.2.2.2.2.2.2.1
  have h51 : win5_5.index ⟨(i 0).val / 5000, hq⟩ (1 : Fin 2) = 0 := hx.2.2.2.2.2.2.2.2.2.2.2
  intro a
  match a with
  | ⟨0, _⟩ =>
    show win5_5.index ⟨(i 0).val / 5000, hq⟩ (0 : Fin 2) * 5000 ≤ (i 0).val ∧ (i 0).val < win5_5.index ⟨(i 0).val / 5000, hq⟩ (0 : Fin 2) * 5000 + 5000
    rw [h50]
    omega
  | ⟨1, _⟩ =>
    show win5_5.index ⟨(i 0).val / 5000, hq⟩ (1 : Fin 2) * 128 ≤ (i 1).val ∧ (i 1).val < win5_5.index ⟨(i 0).val / 5000, hq⟩ (1 : Fin 2) * 128 + 128
    rw [h51]
    omega

/-- The output array after the region. -/
theorem final5 (c : Dev nD) : (dat5 (F := Ideal) V c).arrAt 5 cfg5.N = bnArr5 V c :=
  (dat5 (F := Ideal) V c).arrAt_eq_of_cover 5 (bnArr5 V c) (fun t _ => flushed5_eq V c t) (cover5)

/-- The output array after the region, index by index. -/
theorem final5_apply (c : Dev nD) (i : Fin 50000) (j : Fin 128) :
    (dat5 (F := Ideal) V c).arrAt 5 cfg5.N (ix2 i j)
      = max ((arr5_0 V c (ix2 i j) - arr5_1 V c (ix2 0 j)) * Ideal.rsqrt (arr5_2 V c (ix2 0 j) + Ideal.ofBits .f32 0x3727C5AC#32)
          * arr5_3 V c (ix2 0 j) + arr5_4 V c (ix2 0 j)) 0 := by
  rw [final5]
  rfl

end Cert.KernelIdeal.HandVal
-- ==== Proof.KLayerC.lean ====
/-
  One layer of the network on the kernel's side, composed: the layer's output array as one closed expression of the
  layer's input, the edge list and the layer's parameters — through the host stretch that aggregates the neighbours and
  lays out the weights, the pipelined call that forms the linear map with its column statistics, the host stretch that
  turns the statistics into the column mean and variance, and the pipelined call that normalizes and ends in max · 0.
-/
import proofs.«144613_j17471926960174_1_alg».proof.Proof.Reg4
import proofs.«144613_j17471926960174_1_alg».proof.Proof.Reg5
import proofs.«144613_j17471926960174_1_alg».proof.Proof.Carry
import proofs.«144613_j17471926960174_1_alg».proof.Proof.ValStats4
import proofs.«144613_j17471926960174_1_alg».proof.Proof.ValBn5
import proofs.«144613_j17471926960174_1_alg».proof.Proof.HostEvenA
import proofs.«144613_j17471926960174_1_alg».proof.Proof.HostEvenB
import proofs.«144613_j17471926960174_1_alg».proof.Proof.HostOdd
import proofs.«144613_j17471926960174_1_alg».proof.Proof.SpecForm

set_option maxRecDepth 16384

noncomputable section

open scoped BigOperators

namespace Cert.KernelIdeal.HandVal

open Cert.KernelIdeal Cert.KernelIdeal.Gen Cert.KernelIdeal.Hand Cert.KernelIdeal.HostVal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's input, edges and parameters, and its linear part -/

abbrev xC (c : Dev nD) : S50000x256.Idx → EReal := W0 m c main_arg2
abbrev eC (c : Dev nD) : (⟨S2x800000, .i32⟩ : BufTy).Contents (Elt Ideal) := W0 m c main_arg5
abbrev wC (c : Dev nD) : S128x256.Idx → EReal := W0 m c main_arg14
abbrev bC (c : Dev nD) : S128.Idx → EReal := W0 m c main_arg15
abbrev gC (c : Dev nD) : S128.Idx → EReal := W0 m c main_arg16
abbrev βC (c : Dev nD) : S128.Idx → EReal := W0 m c main_arg17

/-- The layer's linear part, row by row and column by column. -/
abbrev hC (c : Dev nD) : Fin 50000 → Fin 128 → EReal :=
  Cert.SpecForm.lin (xC m c) (agg256 (xC m c) (eC m c)) (wC m c) (bC m c)

/-- The call's four operands as it is entered: the input carried, the aggregation, the transposed weights and the bias
    row as the host stretch before it leaves them. -/
abbrev oxC (c : Dev nD) : S50000x256.Idx → EReal := W9 m XX c main_arg2
abbrev oaC (c : Dev nD) : S50000x256.Idx → EReal := W9 m XX c main_v65
abbrev owC (c : Dev nD) : S256x128.Idx → EReal := W9 m XX c main_v66
abbrev obC (c : Dev nD) : S1x128.Idx → EReal := W9 m XX c main_v67

theorem opxC (c : Dev nD) : oxC m c = xC m c := cy_main_arg2_0_9 m c
theorem opaC (c : Dev nD) : oaC m c = agg256 (xC m c) (eC m c) := by
  have h := hostOps4_v65 (W8 m XX c)
  rw [show (W8 m XX c) (Proc.devRef .tc main_arg2) = W0 m c main_arg2 from cy_main_arg2_0_8 m c, show (W8 m XX c) (Proc.devRef .tc main_arg5) = W0 m c main_arg5 from cy_main_arg5_0_8 m c] at h
  exact h
theorem opwC (c : Dev nD) (k : Fin 256) (j : Fin 128) : owC m c (ix2 k j) = wC m c (ix2 j k) := by
  have h := hostOps4_v66 (W8 m XX c) k j
  rw [show (W8 m XX c) (Proc.devRef .tc main_arg14) = W0 m c main_arg14 from cy_main_arg14_0_8 m c] at h
  exact h
theorem opbC (c : Dev nD) (j : Fin 128) : obC m c (ix2 0 j) = bC m c (ix1 j) := by
  have h := hostOps4_v67 (W8 m XX c) j
  rw [show (W8 m XX c) (Proc.devRef .tc main_arg15) = W0 m c main_arg15 from cy_main_arg15_0_8 m c] at h
  exact h

/-- The linear map the first call computes is the layer's linear part. -/
theorem linC (c : Dev nD) (i : Fin 50000) (j : Fin 128) : Hlin4 (E9 m XX) c i j = hC m c i j := by
  show (∑ k : Fin 256, (oxC m c (ix2 i k) + oaC m c (ix2 i k)) * owC m c (ix2 k j))
      + obC m c (ix2 0 j)
    = (∑ k : Fin 256, (xC m c (ix2 i k) + agg256 (xC m c) (eC m c) (ix2 i k)) * wC m c (ix2 j k)) + bC m c (ix1 j)
  rw [opxC, opaC, opbC]
  exact congrArg (· + bC m c (ix1 j)) (Finset.sum_congr rfl fun k _ => by rw [opwC])

/-- The three arrays the first call leaves: the linear part, its column sums and the column sums of its squares. -/
abbrev rhC (c : Dev nD) : S50000x128.Idx → EReal := W10 m XX c main_v68_0
abbrev rsC (c : Dev nD) : S1x128.Idx → EReal := W10 m XX c main_v68_1
abbrev rqC (c : Dev nD) : S1x128.Idx → EReal := W10 m XX c main_v68_2
theorem lhC (c : Dev nD) (i : Fin 50000) (j : Fin 128) : rhC m c (ix2 i j) = hC m c i j := by
  have e : rhC m c = (dat4 (F := Ideal) (E9 m XX) c).arrAt 4 cfg4.N := (hF4_4 m c).symm
  rw [e, final4_4, linC]
theorem lsC (c : Dev nD) (j : Fin 128) : rsC m c (ix2 0 j) = ∑ a : Fin 50000, hC m c a j := by
  have e : rsC m c = (dat4 (F := Ideal) (E9 m XX) c).arrAt 5 cfg4.N := (hF4_5 m c).symm
  rw [e, final4_5]
  exact Finset.sum_congr rfl fun a _ => linC m c a j
theorem lqC (c : Dev nD) (j : Fin 128) : rqC m c (ix2 0 j) = ∑ a : Fin 50000, hC m c a j * hC m c a j := by
  have e : rqC m c = (dat4 (F := Ideal) (E9 m XX) c).arrAt 6 cfg4.N := (hF4_6 m c).symm
  rw [e, final4_6]
  exact Finset.sum_congr rfl fun a _ => by rw [linC]

set_option quotPrecheck false in
local notation "N₀" => (Ideal.ofBits .f32 0x47435000#32 : EReal)
set_option quotPrecheck false in
local notation "ε₀" => (Ideal.ofBits .f32 0x3727C5AC#32 : EReal)

/-- THE LAYER, on the kernel's side. -/
theorem klayerC (c : Dev nD) (i : Fin 50000) (j : Fin 128) :
    (W12 m XX c main_v77 : S50000x128.Idx → EReal) (ix2 i j)
      = Cert.SpecForm.bnWith (hC m c) N₀ ε₀ (Cert.SpecForm.varSq (hC m c) N₀) (gC m c) (βC m c) i j := by
  rw [← hF5_5 m c, final5_apply]
  have e0 : arr5_0 (E11 m XX) c (ix2 i j) = hC m c i j := by
    have e : arr5_0 (E11 m XX) c = rhC m c := cy_main_v68_0_10_11 m c
    rw [e]
    exact lhC m c i j
  have e1 : arr5_1 (E11 m XX) c (ix2 0 j) = Cert.SpecForm.mean (hC m c) N₀ j :=
    (hostOps5_v70 (W10 m XX c) j).trans (congrArg (fun s => Ideal.div s N₀) (lsC m c j))
  have e2 : arr5_2 (E11 m XX) c (ix2 0 j) = Cert.SpecForm.varSq (hC m c) N₀ j :=
    (hostOps5_v74 (W10 m XX c) j).trans
      (congrArg₂ (fun q s => Ideal.div q N₀ - Ideal.div s N₀ * Ideal.div s N₀) (lqC m c j) (lsC m c j))
  have e3 : arr5_3 (E11 m XX) c (ix2 0 j) = gC m c (ix1 j) :=
    (hostOps5_v75 (W10 m XX c) j).trans (congrFun (cy_main_arg16_0_10 m c) (ix1 j))
  have e4 : arr5_4 (E11 m XX) c (ix2 0 j) = βC m c (ix1 j) :=
    (hostOps5_v76 (W10 m XX c) j).trans (congrFun (cy_main_arg17_0_10 m c) (ix1 j))
  rw [e0, e1, e2, e3, e4]
  rfl

end Cert.KernelIdeal.HandVal

end
-- ==== Proof.ValStats6.lean ====
/-
  From the blocks to the arrays, at the ideal instance: what the call that computes one graph layer's linear map with
  its batch statistics leaves in its three result arrays, as functions of the arrays it is entered with.

  Point t of the ten-point grid writes rows 5000 t … 5000 t + 4999 of the first result, each entry the affine map
  h(i, j) = Σ_k (x(i, k) + g(i, k)) · w(k, j) + b(j) of the row; the ten blocks tile the array. The two statistics
  results are written back once, after the last point, and hold the accumulators after all ten points: the column sums
  of h and of h · h over all 50000 rows.
-/
import proofs.«144613_j17471926960174_1_alg».proof.Proof.Stats6
import proofs.«144613_j17471926960174_1_alg».proof.Proof.PayStats
import proofs.«144613_j17471926960174_1_alg».proof.Proof.PayTiles
import proofs.«144613_j17471926960174_1_alg».proof.Proof.PayAcc
import Idealize.ShloMosaic.Lib.Pipeline.Value

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays the region is entered with, and the affine map -/

/-- The layer's input, the aggregated array, the transposed weights and the bias row, as the region finds them. -/
abbrev xin6 (c : Dev nD) : Vec Ideal S50000x128 .f32 := V c (Pipeline.arrRef spec6 0)
abbrev agg6 (c : Dev nD) : Vec Ideal S50000x128 .f32 := V c (Pipeline.arrRef spec6 1)
abbrev wgt6 (c : Dev nD) : Vec Ideal S128x64 .f32 := V c (Pipeline.arrRef spec6 2)
abbrev bia6 (c : Dev nD) : Vec Ideal S1x64 .f32 := V c (Pipeline.arrRef spec6 3)

/-- The linear layer at row `i`, column `j`. -/
def Hlin6 (c : Dev nD) (i : Fin 50000) (j : Fin 64) : EReal :=
  (∑ k : Fin 128, (xin6 V c (ix2 i k) + agg6 V c (ix2 i k)) * wgt6 V c (ix2 k j)) + bia6 V c (ix2 0 j)

/-! ## Where each window's block sits -/

/-- The printed index maps, decided over the grid: the row tiles move with the point, everything else stays at 0. -/
theorem idx6_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- Each input block read where its rectangle says: a block's coordinate is index × size + the coordinate inside. -/
theorem read6_0 (c : Dev nD) (t : Fin cfg6.N) (u : Fin 10) (hu : u.val = t.val) (r : Fin 5000) (k : Fin 128) :
    iblk6 V c 0 t (ix2 r k) = xin6 V c (ix2 (tileRow u r) k) := by
  obtain ⟨e0, e1, -⟩ := idx6_facts t
  show xin6 V c (((cfg6.win 0).blk t).view.emb (ix2 r k)) = _
  congr 1
  funext a; apply Fin.ext
  match a with
  | ⟨0, _⟩ => show win6_0.index t (0 : Fin 2) * 5000 + 1 * r.val = 5000 * u.val + r.val; omega
  | ⟨1, _⟩ => show win6_0.index t (1 : Fin 2) * 128 + 1 * k.val = k.val; omega
theorem read6_1 (c : Dev nD) (t : Fin cfg6.N) (u : Fin 10) (hu : u.val = t.val) (r : Fin 5000) (k : Fin 128) :
    iblk6 V c 1 t (ix2 r k) = agg6 V c (ix2 (tileRow u r) k) := by
  obtain ⟨-, -, e0, e1, -⟩ := idx6_facts t
  show agg6 V c (((cfg6.win 1).blk t).view.emb (ix2 r k)) = _
  congr 1
  funext a; apply Fin.ext
  match a with
  | ⟨0, _⟩ => show win6_1.index t (0 : Fin 2) * 5000 + 1 * r.val = 5000 * u.val + r.val; omega
  | ⟨1, _⟩ => show win6_1.index t (1 : Fin 2) * 128 + 1 * k.val = k.val; omega
theorem read6_2 (c : Dev nD) (t : Fin cfg6.N) (k : Fin 128) (j : Fin 64) :
    iblk6 V c 2 t (ix2 k j) = wgt6 V c (ix2 k j) := by
  obtain ⟨-, -, -, -, e0, e1, -⟩ := idx6_facts t
  show wgt6 V c (((cfg6.win 2).blk t).view.emb (ix2 k j)) = _
  congr 1
  funext a; apply Fin.ext
  match a with
  | ⟨0, _⟩ => show win6_2.index t (0 : Fin 2) * 128 + 1 * k.val = k.val; omega
  | ⟨1, _⟩ => show win6_2.index t (1 : Fin 2) * 64 + 1 * j.val = j.val; omega
theorem read6_3 (c : Dev nD) (t : Fin cfg6.N) (z : Fin 1) (j : Fin 64) :
    iblk6 V c 3 t (ix2 z j) = bia6 V c (ix2 z j) := by
  obtain ⟨-, -, -, -, -, -, e0, e1, -⟩ := idx6_facts t
  show bia6 V c (((cfg6.win 3).blk t).view.emb (ix2 z j)) = _
  congr 1
  funext a; apply Fin.ext
  match a with
  | ⟨0, _⟩ => show win6_3.index t (0 : Fin 2) * 1 + 1 * z.val = z.val; omega
  | ⟨1, _⟩ => show win6_3.index t (1 : Fin 2) * 64 + 1 * j.val = j.val; omega

/-- The weights' and the bias's blocks are the arrays, at every point. -/
theorem iblk6_2_eq (c : Dev nD) (t : Fin cfg6.N) : iblk6 V c 2 t = wgt6 V c :=
  funext fun i => by rw [eq_ix2 i]; exact read6_2 V c t _ _
theorem iblk6_3_eq (c : Dev nD) (t : Fin cfg6.N) : iblk6 V c 3 t = bia6 V c :=
  funext fun i => by rw [eq_ix2 i]; exact read6_3 V c t _ _

/-- The body's payload on the blocks of point `t` is the affine map on the tile's rows. -/
theorem pay3_blocks6 (c : Dev nD) (t : Fin cfg6.N) (u : Fin 10) (hu : u.val = t.val) (r : Fin 5000) (j : Fin 64) :
    k6_pay3 (F := Ideal) (iblk6 V c 0 t) (iblk6 V c 1 t) (wgt6 V c) (bia6 V c) (ix2 r j) = Hlin6 V c (tileRow u r) j := by
  rw [k6_pay3_apply]
  unfold Hlin6
  simp only [read6_0 V c t u hu, read6_1 V c t u hu]
theorem hblk6_apply (c : Dev nD) (t : Fin cfg6.N) (u : Fin 10) (hu : u.val = t.val) (r : Fin 5000) (j : Fin 64) :
    hblk6 V c t (ix2 r j) = Hlin6 V c (tileRow u r) j := by
  unfold hblk6
  rw [iblk6_2_eq, iblk6_3_eq]
  exact pay3_blocks6 V c t u hu r j

theorem hblk6_apply' (c : Dev nD) (t : Fin cfg6.N) (u : Fin 10) (hu : u.val = t.val) (j : S5000x64.Idx) :
    hblk6 V c t j = Hlin6 V c (tileRow u (j 0)) (j 1) :=
  (congrArg (hblk6 V c t) (eq_ix2 j)).trans (hblk6_apply V c t u hu (j 0) (j 1))

/-! ## The first result: ten row tiles -/

/-- What the first result ends holding: the affine map, row by row. -/
def G6_4 (c : Dev nD) : Vec Ideal S50000x64 .f32 := fun i => Hlin6 V c (i 0) (i 1)

/-- What point `t` writes back is block `t` of it. -/
theorem flushed6_4_eq (c : Dev nD) (t : Fin cfg6.N) :
    (dat6 V c).flushed 4 t = ((cfg6.win 4).blk t).view.read (Elt Ideal) (G6_4 V c) := by
  show (cfg6.win 4).cut (grid6.coords t) ((dat6 V c).after 4 t) = _
  rw [after6_4]
  obtain ⟨-, -, -, -, -, -, -, -, e0, e1, -⟩ := idx6_facts t
  funext j
  show hblk6 V c t j = Hlin6 V c ((((cfg6.win 4).blk t).view.emb j) 0) ((((cfg6.win 4).blk t).view.emb j) 1)
  rw [hblk6_apply' V c t (Fin.cast N6_eq t) rfl]
  congr 1
  · apply Fin.ext; show 5000 * t.val + (j 0).val = win6_4.index t (0 : Fin 2) * 5000 + 1 * (j 0).val; omega
  · apply Fin.ext; show (j 1).val = win6_4.index t (1 : Fin 2) * 64 + 1 * (j 1).val; omega

/-- An index of the array is in point `t`'s block iff each coordinate is in the block's range on its axis. -/
theorem mem_blk6_4 (t : Fin cfg6.N) (i : S50000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v94_0).slice (win6_4.rect t)).set ↔ _
  rw [View.set_slice_whole, Rect.mem_set_unit]
  exact Iff.rfl

/-- Row `i` is covered by point `i / 5000`. -/
theorem cover6_4 (i : S50000x64.Idx) : ∃ t : Fin cfg6.N, (cfg6.win 4).flush t = true ∧ i ∈ ((cfg6.win 4).blk t).view.set := by
  have hi0 : (i 0).val < 50000 := (i 0).isLt
  have hi1 : (i 1).val < 64 := (i 1).isLt
  have hlt : (i 0).val / 5000 < cfg6.N := by rw [N6_eq]; omega
  obtain ⟨-, -, -, -, -, -, -, -, e0, e1, -⟩ := idx6_facts ⟨(i 0).val / 5000, hlt⟩
  refine ⟨⟨(i 0).val / 5000, hlt⟩, flush6_4 _, ?_⟩
  rw [mem_blk6_4]
  intro a
  match a with
  | ⟨0, _⟩ => show win6_4.index ⟨(i 0).val / 5000, hlt⟩ (0 : Fin 2) * 5000 ≤ (i 0).val ∧ (i 0).val < win6_4.index ⟨(i 0).val / 5000, hlt⟩ (0 : Fin 2) * 5000 + 5000; dsimp only at e0; omega
  | ⟨1, _⟩ => show win6_4.index ⟨(i 0).val / 5000, hlt⟩ (1 : Fin 2) * 64 ≤ (i 1).val ∧ (i 1).val < win6_4.index ⟨(i 0).val / 5000, hlt⟩ (1 : Fin 2) * 64 + 64; omega

/-- THE FIRST RESULT after the region: the affine map at every row and column. -/
theorem final6_4 (c : Dev nD) (i : Fin 50000) (j : Fin 64) :
    (dat6 (F := Ideal) V c).arrAt 4 cfg6.N (ix2 i j) = Hlin6 V c i j := by
  rw [(dat6 V c).arrAt_eq_of_cover 4 (G6_4 V c) (fun t _ => flushed6_4_eq V c t) cover6_4]
  rfl

/-! ## The two statistics results: written back once, after the last point -/

theorem flushed6_5_eq (c : Dev nD) (t : Fin cfg6.N) (hf : (cfg6.win 5).flush t = true) :
    (dat6 V c).flushed 5 t = ((cfg6.win 5).blk t).view.read (Elt Ideal) (accS6 V c 9) := by
  have h9 : t.val = 9 := by have h1 := (flush6_5 t).mp hf; have h2 := lt_of_lt_of_eq t.isLt N6_eq; omega
  obtain ⟨-, -, -, -, -, -, -, -, -, -, e0, e1, -⟩ := idx6_facts t
  show (cfg6.win 5).cut (grid6.coords t) ((dat6 V c).after 5 t) = _
  rw [after6_5, h9]
  funext j
  show accS6 V c 9 j = accS6 V c 9 (((cfg6.win 5).blk t).view.emb j)
  congr 1
  funext a; apply Fin.ext
  match a with
  | ⟨0, _⟩ => show (j 0).val = win6_5.index t (0 : Fin 2) * 1 + 1 * (j 0).val; omega
  | ⟨1, _⟩ => show (j 1).val = win6_5.index t (1 : Fin 2) * 64 + 1 * (j 1).val; omega

theorem mem_blk6_5 (t : Fin cfg6.N) (i : S1x64.Idx) :
    i ∈ ((cfg6.win 5).blk t).view.set ↔ ∀ a : Fin 2, win6_5.index t a * S1x64.size a ≤ (i a).val ∧ (i a).val < win6_5.index t a * S1x64.size a + S1x64.size a := by
  show i ∈ ((View.whole main_v94_1).slice (win6_5.rect t)).set ↔ _
  rw [View.set_slice_whole, Rect.mem_set_unit]
  exact Iff.rfl

/-- The last point's block is the whole array. -/
theorem cover6_5 (i : S1x64.Idx) : ∃ t : Fin cfg6.N, (cfg6.win 5).flush t = true ∧ i ∈ ((cfg6.win 5).blk t).view.set := by
  have hi0 : (i 0).val < 1 := (i 0).isLt
  have hi1 : (i 1).val < 64 := (i 1).isLt
  obtain ⟨-, -, -, -, -, -, -, -, -, -, e0, e1, -⟩ := idx6_facts t6_9
  refine ⟨t6_9, (flush6_5 t6_9).mpr rfl, ?_⟩
  rw [mem_blk6_5]
  intro a
  match a with
  | ⟨0, _⟩ => show win6_5.index t6_9 (0 : Fin 2) * 1 ≤ (i 0).val ∧ (i 0).val < win6_5.index t6_9 (0 : Fin 2) * 1 + 1; omega
  | ⟨1, _⟩ => show win6_5.index t6_9 (1 : Fin 2) * 64 ≤ (i 1).val ∧ (i 1).val < win6_5.index t6_9 (1 : Fin 2) * 64 + 64; omega

/-- The array ends holding the accumulator after all ten points. -/
theorem arr6_5 (c : Dev nD) : (dat6 (F := Ideal) V c).arrAt 5 cfg6.N = accS6 V c 9 :=
  (dat6 V c).arrAt_eq_of_cover 5 (accS6 V c 9) (fun t hf => flushed6_5_eq V c t hf) cover6_5

theorem flushed6_6_eq (c : Dev nD) (t : Fin cfg6.N) (hf : (cfg6.win 6).flush t = true) :
    (dat6 V c).flushed 6 t = ((cfg6.win 6).blk t).view.read (Elt Ideal) (accQ6 V c 9) := by
  have h9 : t.val = 9 := by have h1 := (flush6_6 t).mp hf; have h2 := lt_of_lt_of_eq t.isLt N6_eq; omega
  obtain ⟨-, -, -, -, -, -, -, -, -, -, -, -, e0, e1⟩ := idx6_facts t
  show (cfg6.win 6).cut (grid6.coords t) ((dat6 V c).after 6 t) = _
  rw [after6_6, h9]
  funext j
  show accQ6 V c 9 j = accQ6 V c 9 (((cfg6.win 6).blk t).view.emb j)
  congr 1
  funext a; apply Fin.ext
  match a with
  | ⟨0, _⟩ => show (j 0).val = win6_6.index t (0 : Fin 2) * 1 + 1 * (j 0).val; omega
  | ⟨1, _⟩ => show (j 1).val = win6_6.index t (1 : Fin 2) * 64 + 1 * (j 1).val; omega

theorem mem_blk6_6 (t : Fin cfg6.N) (i : S1x64.Idx) :
    i ∈ ((cfg6.win 6).blk t).view.set ↔ ∀ a : Fin 2, win6_6.index t a * S1x64.size a ≤ (i a).val ∧ (i a).val < win6_6.index t a * S1x64.size a + S1x64.size a := by
  show i ∈ ((View.whole main_v94_2).slice (win6_6.rect t)).set ↔ _
  rw [View.set_slice_whole, Rect.mem_set_unit]
  exact Iff.rfl

/-- The last point's block is the whole array. -/
theorem cover6_6 (i : S1x64.Idx) : ∃ t : Fin cfg6.N, (cfg6.win 6).flush t = true ∧ i ∈ ((cfg6.win 6).blk t).view.set := by
  have hi0 : (i 0).val < 1 := (i 0).isLt
  have hi1 : (i 1).val < 64 := (i 1).isLt
  obtain ⟨-, -, -, -, -, -, -, -, -, -, -, -, e0, e1⟩ := idx6_facts t6_9
  refine ⟨t6_9, (flush6_6 t6_9).mpr rfl, ?_⟩
  rw [mem_blk6_6]
  intro a
  match a with
  | ⟨0, _⟩ => show win6_6.index t6_9 (0 : Fin 2) * 1 ≤ (i 0).val ∧ (i 0).val < win6_6.index t6_9 (0 : Fin 2) * 1 + 1; omega
  | ⟨1, _⟩ => show win6_6.index t6_9 (1 : Fin 2) * 64 ≤ (i 1).val ∧ (i 1).val < win6_6.index t6_9 (1 : Fin 2) * 64 + 64; omega

/-- The array ends holding the accumulator after all ten points. -/
theorem arr6_6 (c : Dev nD) : (dat6 (F := Ideal) V c).arrAt 6 cfg6.N = accQ6 V c 9 :=
  (dat6 V c).arrAt_eq_of_cover 6 (accQ6 V c 9) (fun t hf => flushed6_6_eq V c t hf) cover6_6

/-- The blocks of the point numbered `u`. -/
theorem pt6_cast (u : Fin 10) : u.val = (pt6 u.val).val := (Nat.mod_eq_of_lt u.isLt).symm

/-- THE SECOND RESULT after the region: the column sums of the affine map over all 50000 rows. -/
theorem final6_5 (c : Dev nD) (j : Fin 64) :
    (dat6 (F := Ideal) V c).arrAt 5 cfg6.N (ix2 0 j) = ∑ i : Fin 50000, Hlin6 V c i j := by
  rw [arr6_5]
  exact k6_colsum (fun n => iblk6 V c 0 (pt6 n)) (fun n => iblk6 V c 1 (pt6 n)) (wgt6 V c) (bia6 V c) (accS6 V c)
    (by rw [accS6, iblk6_2_eq, iblk6_3_eq]) (fun n _ => by rw [accS6, iblk6_2_eq, iblk6_3_eq])
    (fun i => Hlin6 V c i j) j
    (fun u r => pay3_blocks6 V c (pt6 u.val) u (pt6_cast u) r j)

/-- THE THIRD RESULT after the region: the column sums of its square. -/
theorem final6_6 (c : Dev nD) (j : Fin 64) :
    (dat6 (F := Ideal) V c).arrAt 6 cfg6.N (ix2 0 j) = ∑ i : Fin 50000, Hlin6 V c i j * Hlin6 V c i j := by
  rw [arr6_6]
  exact k6_colsumsq (fun n => iblk6 V c 0 (pt6 n)) (fun n => iblk6 V c 1 (pt6 n)) (wgt6 V c) (bia6 V c) (accQ6 V c)
    (by rw [accQ6, iblk6_2_eq, iblk6_3_eq]) (fun n _ => by rw [accQ6, iblk6_2_eq, iblk6_3_eq])
    (fun i => Hlin6 V c i j) j
    (fun u r => pay3_blocks6 V c (pt6 u.val) u (pt6_cast u) r j)

end Cert.KernelIdeal.HandVal

end
-- ==== Proof.ValBn7.lean ====
/- From blocks to the array, region 7: after the normalise-and-rectify region the output array holds, at row `i` and
   column `j`,  max ((h i j − m j) · rsqrt (v j + ε) · g j + β j, 0)  of the five input arrays as the region finds
   them. Point `t` of the grid handles rows `5000 t … 5000 t + 4999`: its input tile is those rows of `h`, the four
   row vectors are read whole at every point, and its output tile is written back to those rows; the ten tiles cover
   the array. -/
import proofs.«144613_j17471926960174_1_alg».proof.Proof.Bn7
import proofs.«144613_j17471926960174_1_alg».proof.Proof.PayBn
import Idealize.ShloMosaic.Lib.Pipeline.Value
import Idealize.ShloMosaic.Lib.ValueIdx
import Idealize.ShloMosaic.Lib.Tactic

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-- The five input arrays as the region finds them, at their element type: `h`, the column mean, the column
    variance, the scale row and the shift row. -/
abbrev arr7_0 (c : Dev nD) : S50000x64.Idx → EReal := V c main_v94_0
abbrev arr7_1 (c : Dev nD) : S1x64.Idx → EReal := V c main_v96
abbrev arr7_2 (c : Dev nD) : S1x64.Idx → EReal := V c main_v100
abbrev arr7_3 (c : Dev nD) : S1x64.Idx → EReal := V c main_v101
abbrev arr7_4 (c : Dev nD) : S1x64.Idx → EReal := V c main_v102

/-- The printed index maps, decided over the grid: the tiled windows sit at block row `t`, the row vectors at block 0. -/
theorem index_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- What the output array holds at row `i`, column `j`: the normalised, scaled, shifted and rectified entry. -/
def bnAt7 (c : Dev nD) (i : Fin 50000) (j : Fin 64) : EReal :=
  max ((arr7_0 V c (ix2 i j) - arr7_1 V c (ix2 0 j)) * Ideal.rsqrt (arr7_2 V c (ix2 0 j) + Ideal.ofBits .f32 0x3727C5AC#32)
      * arr7_3 V c (ix2 0 j) + arr7_4 V c (ix2 0 j)) 0

/-- The whole output array. -/
def bnArr7 (c : Dev nD) : S50000x64.Idx → EReal := fun k => bnAt7 V c (k 0) (k 1)

/-- The input tile at point `t` is rows `5000 t …` of the array. -/
theorem tile7_0_apply (c : Dev nD) (t : Fin cfg7.N) (r : Fin 5000) (j : Fin 64) (i : Fin 50000)
    (hi : i.val = 5000 * t.val + r.val) :
    (iblk7 V c 0 t : Vec Ideal S5000x64 .f32) (ix2 r j) = arr7_0 V c (ix2 i j) := by
  have hx := index_facts7 t
  unfold iblk7 arr7_0
  rw [View.read_apply]
  show V c main_v94_0 _ = V c main_v94_0 _
  congr 1
  funext a
  apply Fin.ext
  match a with
  | ⟨0, _⟩ => show win7_0.index t 0 * 5000 + 1 * r.val = i.val; omega
  | ⟨1, _⟩ => show win7_0.index t 1 * 64 + 1 * j.val = j.val; omega

/-- Window 1 is the whole one-row array at every point. -/
theorem row7_1_apply (c : Dev nD) (t : Fin cfg7.N) (j : Fin 64) :
    (iblk7 V c 1 t : Vec Ideal S1x64 .f32) (ix2 0 j) = arr7_1 V c (ix2 0 j) := by
  have hi := index_facts7 t
  unfold iblk7 arr7_1
  rw [View.read_apply]
  show V c main_v96 _ = V c main_v96 _
  congr 1
  funext a
  apply Fin.ext
  match a with
  | ⟨0, _⟩ => show win7_1.index t 0 * 1 + 1 * 0 = 0; omega
  | ⟨1, _⟩ => show win7_1.index t 1 * 64 + 1 * j.val = j.val; omega

/-- Window 2 is the whole one-row array at every point. -/
theorem row7_2_apply (c : Dev nD) (t : Fin cfg7.N) (j : Fin 64) :
    (iblk7 V c 2 t : Vec Ideal S1x64 .f32) (ix2 0 j) = arr7_2 V c (ix2 0 j) := by
  have hi := index_facts7 t
  unfold iblk7 arr7_2
  rw [View.read_apply]
  show V c main_v100 _ = V c main_v100 _
  congr 1
  funext a
  apply Fin.ext
  match a with
  | ⟨0, _⟩ => show win7_2.index t 0 * 1 + 1 * 0 = 0; omega
  | ⟨1, _⟩ => show win7_2.index t 1 * 64 + 1 * j.val = j.val; omega

/-- Window 3 is the whole one-row array at every point. -/
theorem row7_3_apply (c : Dev nD) (t : Fin cfg7.N) (j : Fin 64) :
    (iblk7 V c 3 t : Vec Ideal S1x64 .f32) (ix2 0 j) = arr7_3 V c (ix2 0 j) := by
  have hi := index_facts7 t
  unfold iblk7 arr7_3
  rw [View.read_apply]
  show V c main_v101 _ = V c main_v101 _
  congr 1
  funext a
  apply Fin.ext
  match a with
  | ⟨0, _⟩ => show win7_3.index t 0 * 1 + 1 * 0 = 0; omega
  | ⟨1, _⟩ => show win7_3.index t 1 * 64 + 1 * j.val = j.val; omega

/-- Window 4 is the whole one-row array at every point. -/
theorem row7_4_apply (c : Dev nD) (t : Fin cfg7.N) (j : Fin 64) :
    (iblk7 V c 4 t : Vec Ideal S1x64 .f32) (ix2 0 j) = arr7_4 V c (ix2 0 j) := by
  have hi := index_facts7 t
  unfold iblk7 arr7_4
  rw [View.read_apply]
  show V c main_v102 _ = V c main_v102 _
  congr 1
  funext a
  apply Fin.ext
  match a with
  | ⟨0, _⟩ => show win7_4.index t 0 * 1 + 1 * 0 = 0; omega
  | ⟨1, _⟩ => show win7_4.index t 1 * 64 + 1 * j.val = j.val; omega

/-- The output tile of point `t`, entry by entry. -/
theorem out7_5_apply (c : Dev nD) (t : Fin cfg7.N) (r : Fin 5000) (j : Fin 64) (i : Fin 50000)
    (hi : i.val = 5000 * t.val + r.val) :
    out7_5 (iblk7 V c 0 t) (iblk7 V c 1 t) (iblk7 V c 2 t) (iblk7 V c 3 t) (iblk7 V c 4 t) (ix2 r j) = bnAt7 V c i j := by
  rw [out7_5_eq, k7_pay1_apply, tile7_0_apply V c t r j i hi, row7_1_apply, row7_2_apply, row7_3_apply, row7_4_apply]
  rfl

/-- What point `t` writes back is block `t` of the whole output array. -/
theorem flushed7_eq (c : Dev nD) (t : Fin cfg7.N) :
    (dat7 (F := Ideal) V c).flushed 5 t = ((cfg7.win 5).blk t).view.read (Elt Ideal) (bnArr7 V c) := by
  show (cfg7.win 5).cut (grid7.coords t) ((dat7 (F := Ideal) V c).after 5 t) = _
  rw [after7_5]
  have hx := index_facts7 t
  have hN : cfg7.N = 10 := N_7
  funext y
  have hy0 : (y 0).val < 5000 := (y 0).isLt
  have hy1 : (y 1).val < 64 := (y 1).isLt
  have ht : t.val < 10 := hN ▸ t.isLt
  have e := out7_5_apply V c t ⟨(y 0).val, hy0⟩ ⟨(y 1).val, hy1⟩ ⟨5000 * t.val + (y 0).val, by omega⟩ rfl
  have hy : (cfg7.win 5).xinj (grid7.coords t) y = ix2 (n0 := 5000) (n1 := 64) ⟨(y 0).val, hy0⟩ ⟨(y 1).val, hy1⟩ := by
    funext a
    match a with
    | ⟨0, _⟩ => rfl
    | ⟨1, _⟩ => rfl
  show out7_5 (F := Ideal) _ _ _ _ _ ((cfg7.win 5).xinj (grid7.coords t) y) = bnArr7 V c (((cfg7.win 5).blk t).view.emb y)
  rw [hy, e]
  unfold bnArr7
  refine congrArg₂ (bnAt7 V c) (Fin.ext ?_) (Fin.ext ?_)
  · show 5000 * t.val + (y 0).val = win7_5.index t 0 * 5000 + 1 * (y 0).val
    omega
  · show (y 1).val = win7_5.index t 1 * 64 + 1 * (y 1).val
    omega

/-- An index of the array is in point `t`'s block iff each coordinate is in the block's range on its axis. -/
theorem mem_blk7 (t : Fin cfg7.N) (i : S50000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v103).slice (win7_5.rect t)).set ↔ _
  rw [View.set_slice_whole, Rect.mem_set_unit]
  exact Iff.rfl

/-- Row `i` is in the block of point `i / 5000`: the ten tiles cover the array. -/
theorem cover7 (i : S50000x64.Idx) : ∃ t : Fin cfg7.N, (cfg7.win 5).flush t = true ∧ i ∈ ((cfg7.win 5).blk t).view.set := by
  have hi0 : (i 0).val < 50000 := (i 0).isLt
  have hi1 : (i 1).val < 64 := (i 1).isLt
  have hN : cfg7.N = 10 := N_7
  have hq : (i 0).val / 5000 < cfg7.N := by rw [hN]; omega
  refine ⟨⟨(i 0).val / 5000, hq⟩, flush7_5 _, ?_⟩
  rw [mem_blk7]
  have hx := index_facts7 ⟨(i 0).val / 5000, hq⟩
  have h50 : win7_5.index ⟨(i 0).val / 5000, hq⟩ (0 : Fin 2) = (i 0).val / 5000 := hx.2.2.2.2.2.2.2.2.2.2.1
  have h51 : win7_5.index ⟨(i 0).val / 5000, hq⟩ (1 : Fin 2) = 0 := hx.2.2.2.2.2.2.2.2.2.2.2
  intro a
  match a with
  | ⟨0, _⟩ =>
    show win7_5.index ⟨(i 0).val / 5000, hq⟩ (0 : Fin 2) * 5000 ≤ (i 0).val ∧ (i 0).val < win7_5.index ⟨(i 0).val / 5000, hq⟩ (0 : Fin 2) * 5000 + 5000
    rw [h50]
    omega
  | ⟨1, _⟩ =>
    show win7_5.index ⟨(i 0).val / 5000, hq⟩ (1 : Fin 2) * 64 ≤ (i 1).val ∧ (i 1).val < win7_5.index ⟨(i 0).val / 5000, hq⟩ (1 : Fin 2) * 64 + 64
    rw [h51]
    omega

/-- The output array after the region. -/
theorem final7 (c : Dev nD) : (dat7 (F := Ideal) V c).arrAt 5 cfg7.N = bnArr7 V c :=
  (dat7 (F := Ideal) V c).arrAt_eq_of_cover 5 (bnArr7 V c) (fun t _ => flushed7_eq V c t) (cover7)

/-- The output array after the region, index by index. -/
theorem final7_apply (c : Dev nD) (i : Fin 50000) (j : Fin 64) :
    (dat7 (F := Ideal) V c).arrAt 5 cfg7.N (ix2 i j)
      = max ((arr7_0 V c (ix2 i j) - arr7_1 V c (ix2 0 j)) * Ideal.rsqrt (arr7_2 V c (ix2 0 j) + Ideal.ofBits .f32 0x3727C5AC#32)
          * arr7_3 V c (ix2 0 j) + arr7_4 V c (ix2 0 j)) 0 := by
  rw [final7]
  rfl

end Cert.KernelIdeal.HandVal
-- ==== Proof.KLayerD.lean ====
/-
  One layer of the network on the kernel's side, composed: the layer's output array as one closed expression of the
  layer's input, the edge list and the layer's parameters — through the host stretch that aggregates the neighbours and
  lays out the weights, the pipelined call that forms the linear map with its column statistics, the host stretch that
  turns the statistics into the column mean and variance, and the pipelined call that normalizes and ends in max · 0.
-/
import proofs.«144613_j17471926960174_1_alg».proof.Proof.Reg6
import proofs.«144613_j17471926960174_1_alg».proof.Proof.Reg7
import proofs.«144613_j17471926960174_1_alg».proof.Proof.Carry
import proofs.«144613_j17471926960174_1_alg».proof.Proof.ValStats6
import proofs.«144613_j17471926960174_1_alg».proof.Proof.ValBn7
import proofs.«144613_j17471926960174_1_alg».proof.Proof.HostEvenA
import proofs.«144613_j17471926960174_1_alg».proof.Proof.HostEvenB
import proofs.«144613_j17471926960174_1_alg».proof.Proof.HostOdd
import proofs.«144613_j17471926960174_1_alg».proof.Proof.SpecForm

set_option maxRecDepth 16384

noncomputable section

open scoped BigOperators

namespace Cert.KernelIdeal.HandVal

open Cert.KernelIdeal Cert.KernelIdeal.Gen Cert.KernelIdeal.Hand Cert.KernelIdeal.HostVal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's input, edges and parameters, and its linear part -/

abbrev xD (c : Dev nD) : S50000x128.Idx → EReal := W4 m XX c main_v25
abbrev eD (c : Dev nD) : (⟨S2x800000, .i32⟩ : BufTy).Contents (Elt Ideal) := W0 m c main_arg3
abbrev wD (c : Dev nD) : S64x128.Idx → EReal := W0 m c main_arg18
abbrev bD (c : Dev nD) : S64.Idx → EReal := W0 m c main_arg19
abbrev gD (c : Dev nD) : S64.Idx → EReal := W0 m c main_arg20
abbrev βD (c : Dev nD) : S64.Idx → EReal := W0 m c main_arg21

/-- The layer's linear part, row by row and column by column. -/
abbrev hD (c : Dev nD) : Fin 50000 → Fin 64 → EReal :=
  Cert.SpecForm.lin (xD m c) (agg128 (xD m c) (eD m c)) (wD m c) (bD m c)

/-- The call's four operands as it is entered: the input carried, the aggregation, the transposed weights and the bias
    row as the host stretch before it leaves them. -/
abbrev oxD (c : Dev nD) : S50000x128.Idx → EReal := W13 m XX c main_v25
abbrev oaD (c : Dev nD) : S50000x128.Idx → EReal := W13 m XX c main_v91
abbrev owD (c : Dev nD) : S128x64.Idx → EReal := W13 m XX c main_v92
abbrev obD (c : Dev nD) : S1x64.Idx → EReal := W13 m XX c main_v93

theorem opxD (c : Dev nD) : oxD m c = xD m c := cy_main_v25_4_13 m c
theorem opaD (c : Dev nD) : oaD m c = agg128 (xD m c) (eD m c) := by
  have h := hostOps6_v91 (W12 m XX c)
  rw [show (W12 m XX c) (Proc.devRef .tc main_v25) = W4 m XX c main_v25 from cy_main_v25_4_12 m c, show (W12 m XX c) (Proc.devRef .tc main_arg3) = W0 m c main_arg3 from cy_main_arg3_0_12 m c] at h
  exact h
theorem opwD (c : Dev nD) (k : Fin 128) (j : Fin 64) : owD m c (ix2 k j) = wD m c (ix2 j k) := by
  have h := hostOps6_v92 (W12 m XX c) k j
  rw [show (W12 m XX c) (Proc.devRef .tc main_arg18) = W0 m c main_arg18 from cy_main_arg18_0_12 m c] at h
  exact h
theorem opbD (c : Dev nD) (j : Fin 64) : obD m c (ix2 0 j) = bD m c (ix1 j) := by
  have h := hostOps6_v93 (W12 m XX c) j
  rw [show (W12 m XX c) (Proc.devRef .tc main_arg19) = W0 m c main_arg19 from cy_main_arg19_0_12 m c] at h
  exact h

/-- The linear map the first call computes is the layer's linear part. -/
theorem linD (c : Dev nD) (i : Fin 50000) (j : Fin 64) : Hlin6 (E13 m XX) c i j = hD m c i j := by
  show (∑ k : Fin 128, (oxD m c (ix2 i k) + oaD m c (ix2 i k)) * owD m c (ix2 k j))
      + obD m c (ix2 0 j)
    = (∑ k : Fin 128, (xD m c (ix2 i k) + agg128 (xD m c) (eD m c) (ix2 i k)) * wD m c (ix2 j k)) + bD m c (ix1 j)
  rw [opxD, opaD, opbD]
  exact congrArg (· + bD m c (ix1 j)) (Finset.sum_congr rfl fun k _ => by rw [opwD])

/-- The three arrays the first call leaves: the linear part, its column sums and the column sums of its squares. -/
abbrev rhD (c : Dev nD) : S50000x64.Idx → EReal := W14 m XX c main_v94_0
abbrev rsD (c : Dev nD) : S1x64.Idx → EReal := W14 m XX c main_v94_1
abbrev rqD (c : Dev nD) : S1x64.Idx → EReal := W14 m XX c main_v94_2
theorem lhD (c : Dev nD) (i : Fin 50000) (j : Fin 64) : rhD m c (ix2 i j) = hD m c i j := by
  have e : rhD m c = (dat6 (F := Ideal) (E13 m XX) c).arrAt 4 cfg6.N := (hF6_4 m c).symm
  rw [e, final6_4, linD]
theorem lsD (c : Dev nD) (j : Fin 64) : rsD m c (ix2 0 j) = ∑ a : Fin 50000, hD m c a j := by
  have e : rsD m c = (dat6 (F := Ideal) (E13 m XX) c).arrAt 5 cfg6.N := (hF6_5 m c).symm
  rw [e, final6_5]
  exact Finset.sum_congr rfl fun a _ => linD m c a j
theorem lqD (c : Dev nD) (j : Fin 64) : rqD m c (ix2 0 j) = ∑ a : Fin 50000, hD m c a j * hD m c a j := by
  have e : rqD m c = (dat6 (F := Ideal) (E13 m XX) c).arrAt 6 cfg6.N := (hF6_6 m c).symm
  rw [e, final6_6]
  exact Finset.sum_congr rfl fun a _ => by rw [linD]

set_option quotPrecheck false in
local notation "N₀" => (Ideal.ofBits .f32 0x47435000#32 : EReal)
set_option quotPrecheck false in
local notation "ε₀" => (Ideal.ofBits .f32 0x3727C5AC#32 : EReal)

/-- THE LAYER, on the kernel's side. -/
theorem klayerD (c : Dev nD) (i : Fin 50000) (j : Fin 64) :
    (W16 m XX c main_v103 : S50000x64.Idx → EReal) (ix2 i j)
      = Cert.SpecForm.bnWith (hD m c) N₀ ε₀ (Cert.SpecForm.varSq (hD m c) N₀) (gD m c) (βD m c) i j := by
  rw [← hF7_5 m c, final7_apply]
  have e0 : arr7_0 (E15 m XX) c (ix2 i j) = hD m c i j := by
    have e : arr7_0 (E15 m XX) c = rhD m c := cy_main_v94_0_14_15 m c
    rw [e]
    exact lhD m c i j
  have e1 : arr7_1 (E15 m XX) c (ix2 0 j) = Cert.SpecForm.mean (hD m c) N₀ j :=
    (hostOps7_v96 (W14 m XX c) j).trans (congrArg (fun s => Ideal.div s N₀) (lsD m c j))
  have e2 : arr7_2 (E15 m XX) c (ix2 0 j) = Cert.SpecForm.varSq (hD m c) N₀ j :=
    (hostOps7_v100 (W14 m XX c) j).trans
      (congrArg₂ (fun q s => Ideal.div q N₀ - Ideal.div s N₀ * Ideal.div s N₀) (lqD m c j) (lsD m c j))
  have e3 : arr7_3 (E15 m XX) c (ix2 0 j) = gD m c (ix1 j) :=
    (hostOps7_v101 (W14 m XX c) j).trans (congrFun (cy_main_arg20_0_14 m c) (ix1 j))
  have e4 : arr7_4 (E15 m XX) c (ix2 0 j) = βD m c (ix1 j) :=
    (hostOps7_v102 (W14 m XX c) j).trans (congrFun (cy_main_arg21_0_14 m c) (ix1 j))
  rw [e0, e1, e2, e3, e4]
  rfl

end Cert.KernelIdeal.HandVal

end
-- ==== Proof.ValStats8.lean ====
/-
  From the blocks to the arrays, at the ideal instance: what the call that computes one graph layer's linear map with
  its batch statistics leaves in its three result arrays, as functions of the arrays it is entered with.

  Point t of the ten-point grid writes rows 5000 t … 5000 t + 4999 of the first result, each entry the affine map
  h(i, j) = Σ_k (x(i, k) + g(i, k)) · w(k, j) + b(j) of the row; the ten blocks tile the array. The two statistics
  results are written back once, after the last point, and hold the accumulators after all ten points: the column sums
  of h and of h · h over all 50000 rows.
-/
import proofs.«144613_j17471926960174_1_alg».proof.Proof.Stats8
import proofs.«144613_j17471926960174_1_alg».proof.Proof.PayStats
import proofs.«144613_j17471926960174_1_alg».proof.Proof.PayTiles
import proofs.«144613_j17471926960174_1_alg».proof.Proof.PayAcc
import Idealize.ShloMosaic.Lib.Pipeline.Value

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays the region is entered with, and the affine map -/

/-- The layer's input, the aggregated array, the transposed weights and the bias row, as the region finds them. -/
abbrev xin8 (c : Dev nD) : Vec Ideal S50000x128 .f32 := V c (Pipeline.arrRef spec8 0)
abbrev agg8 (c : Dev nD) : Vec Ideal S50000x128 .f32 := V c (Pipeline.arrRef spec8 1)
abbrev wgt8 (c : Dev nD) : Vec Ideal S128x64 .f32 := V c (Pipeline.arrRef spec8 2)
abbrev bia8 (c : Dev nD) : Vec Ideal S1x64 .f32 := V c (Pipeline.arrRef spec8 3)

/-- The linear layer at row `i`, column `j`. -/
def Hlin8 (c : Dev nD) (i : Fin 50000) (j : Fin 64) : EReal :=
  (∑ k : Fin 128, (xin8 V c (ix2 i k) + agg8 V c (ix2 i k)) * wgt8 V c (ix2 k j)) + bia8 V c (ix2 0 j)

/-! ## Where each window's block sits -/

/-- The printed index maps, decided over the grid: the row tiles move with the point, everything else stays at 0. -/
theorem idx8_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0 :=
  (by decide +kernel : ∀ t : Fin grid8.N, _)

/-- Each input block read where its rectangle says: a block's coordinate is index × size + the coordinate inside. -/
theorem read8_0 (c : Dev nD) (t : Fin cfg8.N) (u : Fin 10) (hu : u.val = t.val) (r : Fin 5000) (k : Fin 128) :
    iblk8 V c 0 t (ix2 r k) = xin8 V c (ix2 (tileRow u r) k) := by
  obtain ⟨e0, e1, -⟩ := idx8_facts t
  show xin8 V c (((cfg8.win 0).blk t).view.emb (ix2 r k)) = _
  congr 1
  funext a; apply Fin.ext
  match a with
  | ⟨0, _⟩ => show win8_0.index t (0 : Fin 2) * 5000 + 1 * r.val = 5000 * u.val + r.val; omega
  | ⟨1, _⟩ => show win8_0.index t (1 : Fin 2) * 128 + 1 * k.val = k.val; omega
theorem read8_1 (c : Dev nD) (t : Fin cfg8.N) (u : Fin 10) (hu : u.val = t.val) (r : Fin 5000) (k : Fin 128) :
    iblk8 V c 1 t (ix2 r k) = agg8 V c (ix2 (tileRow u r) k) := by
  obtain ⟨-, -, e0, e1, -⟩ := idx8_facts t
  show agg8 V c (((cfg8.win 1).blk t).view.emb (ix2 r k)) = _
  congr 1
  funext a; apply Fin.ext
  match a with
  | ⟨0, _⟩ => show win8_1.index t (0 : Fin 2) * 5000 + 1 * r.val = 5000 * u.val + r.val; omega
  | ⟨1, _⟩ => show win8_1.index t (1 : Fin 2) * 128 + 1 * k.val = k.val; omega
theorem read8_2 (c : Dev nD) (t : Fin cfg8.N) (k : Fin 128) (j : Fin 64) :
    iblk8 V c 2 t (ix2 k j) = wgt8 V c (ix2 k j) := by
  obtain ⟨-, -, -, -, e0, e1, -⟩ := idx8_facts t
  show wgt8 V c (((cfg8.win 2).blk t).view.emb (ix2 k j)) = _
  congr 1
  funext a; apply Fin.ext
  match a with
  | ⟨0, _⟩ => show win8_2.index t (0 : Fin 2) * 128 + 1 * k.val = k.val; omega
  | ⟨1, _⟩ => show win8_2.index t (1 : Fin 2) * 64 + 1 * j.val = j.val; omega
theorem read8_3 (c : Dev nD) (t : Fin cfg8.N) (z : Fin 1) (j : Fin 64) :
    iblk8 V c 3 t (ix2 z j) = bia8 V c (ix2 z j) := by
  obtain ⟨-, -, -, -, -, -, e0, e1, -⟩ := idx8_facts t
  show bia8 V c (((cfg8.win 3).blk t).view.emb (ix2 z j)) = _
  congr 1
  funext a; apply Fin.ext
  match a with
  | ⟨0, _⟩ => show win8_3.index t (0 : Fin 2) * 1 + 1 * z.val = z.val; omega
  | ⟨1, _⟩ => show win8_3.index t (1 : Fin 2) * 64 + 1 * j.val = j.val; omega

/-- The weights' and the bias's blocks are the arrays, at every point. -/
theorem iblk8_2_eq (c : Dev nD) (t : Fin cfg8.N) : iblk8 V c 2 t = wgt8 V c :=
  funext fun i => by rw [eq_ix2 i]; exact read8_2 V c t _ _
theorem iblk8_3_eq (c : Dev nD) (t : Fin cfg8.N) : iblk8 V c 3 t = bia8 V c :=
  funext fun i => by rw [eq_ix2 i]; exact read8_3 V c t _ _

/-- The body's payload on the blocks of point `t` is the affine map on the tile's rows. -/
theorem pay3_blocks8 (c : Dev nD) (t : Fin cfg8.N) (u : Fin 10) (hu : u.val = t.val) (r : Fin 5000) (j : Fin 64) :
    k8_pay3 (F := Ideal) (iblk8 V c 0 t) (iblk8 V c 1 t) (wgt8 V c) (bia8 V c) (ix2 r j) = Hlin8 V c (tileRow u r) j := by
  rw [k8_pay3_eq, k6_pay3_apply]
  unfold Hlin8
  simp only [read8_0 V c t u hu, read8_1 V c t u hu]
theorem hblk8_apply (c : Dev nD) (t : Fin cfg8.N) (u : Fin 10) (hu : u.val = t.val) (r : Fin 5000) (j : Fin 64) :
    hblk8 V c t (ix2 r j) = Hlin8 V c (tileRow u r) j := by
  unfold hblk8
  rw [iblk8_2_eq, iblk8_3_eq]
  exact pay3_blocks8 V c t u hu r j

theorem hblk8_apply' (c : Dev nD) (t : Fin cfg8.N) (u : Fin 10) (hu : u.val = t.val) (j : S5000x64.Idx) :
    hblk8 V c t j = Hlin8 V c (tileRow u (j 0)) (j 1) :=
  (congrArg (hblk8 V c t) (eq_ix2 j)).trans (hblk8_apply V c t u hu (j 0) (j 1))

/-! ## The first result: ten row tiles -/

/-- What the first result ends holding: the affine map, row by row. -/
def G8_4 (c : Dev nD) : Vec Ideal S50000x64 .f32 := fun i => Hlin8 V c (i 0) (i 1)

/-- What point `t` writes back is block `t` of it. -/
theorem flushed8_4_eq (c : Dev nD) (t : Fin cfg8.N) :
    (dat8 V c).flushed 4 t = ((cfg8.win 4).blk t).view.read (Elt Ideal) (G8_4 V c) := by
  show (cfg8.win 4).cut (grid8.coords t) ((dat8 V c).after 4 t) = _
  rw [after8_4]
  obtain ⟨-, -, -, -, -, -, -, -, e0, e1, -⟩ := idx8_facts t
  funext j
  show hblk8 V c t j = Hlin8 V c ((((cfg8.win 4).blk t).view.emb j) 0) ((((cfg8.win 4).blk t).view.emb j) 1)
  rw [hblk8_apply' V c t (Fin.cast N8_eq t) rfl]
  congr 1
  · apply Fin.ext; show 5000 * t.val + (j 0).val = win8_4.index t (0 : Fin 2) * 5000 + 1 * (j 0).val; omega
  · apply Fin.ext; show (j 1).val = win8_4.index t (1 : Fin 2) * 64 + 1 * (j 1).val; omega

/-- An index of the array is in point `t`'s block iff each coordinate is in the block's range on its axis. -/
theorem mem_blk8_4 (t : Fin cfg8.N) (i : S50000x64.Idx) :
    i ∈ ((cfg8.win 4).blk t).view.set ↔ ∀ a : Fin 2, win8_4.index t a * S5000x64.size a ≤ (i a).val ∧ (i a).val < win8_4.index t a * S5000x64.size a + S5000x64.size a := by
  show i ∈ ((View.whole main_v120_0).slice (win8_4.rect t)).set ↔ _
  rw [View.set_slice_whole, Rect.mem_set_unit]
  exact Iff.rfl

/-- Row `i` is covered by point `i / 5000`. -/
theorem cover8_4 (i : S50000x64.Idx) : ∃ t : Fin cfg8.N, (cfg8.win 4).flush t = true ∧ i ∈ ((cfg8.win 4).blk t).view.set := by
  have hi0 : (i 0).val < 50000 := (i 0).isLt
  have hi1 : (i 1).val < 64 := (i 1).isLt
  have hlt : (i 0).val / 5000 < cfg8.N := by rw [N8_eq]; omega
  obtain ⟨-, -, -, -, -, -, -, -, e0, e1, -⟩ := idx8_facts ⟨(i 0).val / 5000, hlt⟩
  refine ⟨⟨(i 0).val / 5000, hlt⟩, flush8_4 _, ?_⟩
  rw [mem_blk8_4]
  intro a
  match a with
  | ⟨0, _⟩ => show win8_4.index ⟨(i 0).val / 5000, hlt⟩ (0 : Fin 2) * 5000 ≤ (i 0).val ∧ (i 0).val < win8_4.index ⟨(i 0).val / 5000, hlt⟩ (0 : Fin 2) * 5000 + 5000; dsimp only at e0; omega
  | ⟨1, _⟩ => show win8_4.index ⟨(i 0).val / 5000, hlt⟩ (1 : Fin 2) * 64 ≤ (i 1).val ∧ (i 1).val < win8_4.index ⟨(i 0).val / 5000, hlt⟩ (1 : Fin 2) * 64 + 64; omega

/-- THE FIRST RESULT after the region: the affine map at every row and column. -/
theorem final8_4 (c : Dev nD) (i : Fin 50000) (j : Fin 64) :
    (dat8 (F := Ideal) V c).arrAt 4 cfg8.N (ix2 i j) = Hlin8 V c i j := by
  rw [(dat8 V c).arrAt_eq_of_cover 4 (G8_4 V c) (fun t _ => flushed8_4_eq V c t) cover8_4]
  rfl

/-! ## The two statistics results: written back once, after the last point -/

theorem flushed8_5_eq (c : Dev nD) (t : Fin cfg8.N) (hf : (cfg8.win 5).flush t = true) :
    (dat8 V c).flushed 5 t = ((cfg8.win 5).blk t).view.read (Elt Ideal) (accS8 V c 9) := by
  have h9 : t.val = 9 := by have h1 := (flush8_5 t).mp hf; have h2 := lt_of_lt_of_eq t.isLt N8_eq; omega
  obtain ⟨-, -, -, -, -, -, -, -, -, -, e0, e1, -⟩ := idx8_facts t
  show (cfg8.win 5).cut (grid8.coords t) ((dat8 V c).after 5 t) = _
  rw [after8_5, h9]
  funext j
  show accS8 V c 9 j = accS8 V c 9 (((cfg8.win 5).blk t).view.emb j)
  congr 1
  funext a; apply Fin.ext
  match a with
  | ⟨0, _⟩ => show (j 0).val = win8_5.index t (0 : Fin 2) * 1 + 1 * (j 0).val; omega
  | ⟨1, _⟩ => show (j 1).val = win8_5.index t (1 : Fin 2) * 64 + 1 * (j 1).val; omega

theorem mem_blk8_5 (t : Fin cfg8.N) (i : S1x64.Idx) :
    i ∈ ((cfg8.win 5).blk t).view.set ↔ ∀ a : Fin 2, win8_5.index t a * S1x64.size a ≤ (i a).val ∧ (i a).val < win8_5.index t a * S1x64.size a + S1x64.size a := by
  show i ∈ ((View.whole main_v120_1).slice (win8_5.rect t)).set ↔ _
  rw [View.set_slice_whole, Rect.mem_set_unit]
  exact Iff.rfl

/-- The last point's block is the whole array. -/
theorem cover8_5 (i : S1x64.Idx) : ∃ t : Fin cfg8.N, (cfg8.win 5).flush t = true ∧ i ∈ ((cfg8.win 5).blk t).view.set := by
  have hi0 : (i 0).val < 1 := (i 0).isLt
  have hi1 : (i 1).val < 64 := (i 1).isLt
  obtain ⟨-, -, -, -, -, -, -, -, -, -, e0, e1, -⟩ := idx8_facts t8_9
  refine ⟨t8_9, (flush8_5 t8_9).mpr rfl, ?_⟩
  rw [mem_blk8_5]
  intro a
  match a with
  | ⟨0, _⟩ => show win8_5.index t8_9 (0 : Fin 2) * 1 ≤ (i 0).val ∧ (i 0).val < win8_5.index t8_9 (0 : Fin 2) * 1 + 1; omega
  | ⟨1, _⟩ => show win8_5.index t8_9 (1 : Fin 2) * 64 ≤ (i 1).val ∧ (i 1).val < win8_5.index t8_9 (1 : Fin 2) * 64 + 64; omega

/-- The array ends holding the accumulator after all ten points. -/
theorem arr8_5 (c : Dev nD) : (dat8 (F := Ideal) V c).arrAt 5 cfg8.N = accS8 V c 9 :=
  (dat8 V c).arrAt_eq_of_cover 5 (accS8 V c 9) (fun t hf => flushed8_5_eq V c t hf) cover8_5

theorem flushed8_6_eq (c : Dev nD) (t : Fin cfg8.N) (hf : (cfg8.win 6).flush t = true) :
    (dat8 V c).flushed 6 t = ((cfg8.win 6).blk t).view.read (Elt Ideal) (accQ8 V c 9) := by
  have h9 : t.val = 9 := by have h1 := (flush8_6 t).mp hf; have h2 := lt_of_lt_of_eq t.isLt N8_eq; omega
  obtain ⟨-, -, -, -, -, -, -, -, -, -, -, -, e0, e1⟩ := idx8_facts t
  show (cfg8.win 6).cut (grid8.coords t) ((dat8 V c).after 6 t) = _
  rw [after8_6, h9]
  funext j
  show accQ8 V c 9 j = accQ8 V c 9 (((cfg8.win 6).blk t).view.emb j)
  congr 1
  funext a; apply Fin.ext
  match a with
  | ⟨0, _⟩ => show (j 0).val = win8_6.index t (0 : Fin 2) * 1 + 1 * (j 0).val; omega
  | ⟨1, _⟩ => show (j 1).val = win8_6.index t (1 : Fin 2) * 64 + 1 * (j 1).val; omega

theorem mem_blk8_6 (t : Fin cfg8.N) (i : S1x64.Idx) :
    i ∈ ((cfg8.win 6).blk t).view.set ↔ ∀ a : Fin 2, win8_6.index t a * S1x64.size a ≤ (i a).val ∧ (i a).val < win8_6.index t a * S1x64.size a + S1x64.size a := by
  show i ∈ ((View.whole main_v120_2).slice (win8_6.rect t)).set ↔ _
  rw [View.set_slice_whole, Rect.mem_set_unit]
  exact Iff.rfl

/-- The last point's block is the whole array. -/
theorem cover8_6 (i : S1x64.Idx) : ∃ t : Fin cfg8.N, (cfg8.win 6).flush t = true ∧ i ∈ ((cfg8.win 6).blk t).view.set := by
  have hi0 : (i 0).val < 1 := (i 0).isLt
  have hi1 : (i 1).val < 64 := (i 1).isLt
  obtain ⟨-, -, -, -, -, -, -, -, -, -, -, -, e0, e1⟩ := idx8_facts t8_9
  refine ⟨t8_9, (flush8_6 t8_9).mpr rfl, ?_⟩
  rw [mem_blk8_6]
  intro a
  match a with
  | ⟨0, _⟩ => show win8_6.index t8_9 (0 : Fin 2) * 1 ≤ (i 0).val ∧ (i 0).val < win8_6.index t8_9 (0 : Fin 2) * 1 + 1; omega
  | ⟨1, _⟩ => show win8_6.index t8_9 (1 : Fin 2) * 64 ≤ (i 1).val ∧ (i 1).val < win8_6.index t8_9 (1 : Fin 2) * 64 + 64; omega

/-- The array ends holding the accumulator after all ten points. -/
theorem arr8_6 (c : Dev nD) : (dat8 (F := Ideal) V c).arrAt 6 cfg8.N = accQ8 V c 9 :=
  (dat8 V c).arrAt_eq_of_cover 6 (accQ8 V c 9) (fun t hf => flushed8_6_eq V c t hf) cover8_6

/-- The blocks of the point numbered `u`. -/
theorem pt8_cast (u : Fin 10) : u.val = (pt8 u.val).val := (Nat.mod_eq_of_lt u.isLt).symm

/-- THE SECOND RESULT after the region: the column sums of the affine map over all 50000 rows. -/
theorem final8_5 (c : Dev nD) (j : Fin 64) :
    (dat8 (F := Ideal) V c).arrAt 5 cfg8.N (ix2 0 j) = ∑ i : Fin 50000, Hlin8 V c i j := by
  rw [arr8_5]
  exact k8_colsum (fun n => iblk8 V c 0 (pt8 n)) (fun n => iblk8 V c 1 (pt8 n)) (wgt8 V c) (bia8 V c) (accS8 V c)
    (by rw [accS8, iblk8_2_eq, iblk8_3_eq]) (fun n _ => by rw [accS8, iblk8_2_eq, iblk8_3_eq])
    (fun i => Hlin8 V c i j) j
    (fun u r => pay3_blocks8 V c (pt8 u.val) u (pt8_cast u) r j)

/-- THE THIRD RESULT after the region: the column sums of its square. -/
theorem final8_6 (c : Dev nD) (j : Fin 64) :
    (dat8 (F := Ideal) V c).arrAt 6 cfg8.N (ix2 0 j) = ∑ i : Fin 50000, Hlin8 V c i j * Hlin8 V c i j := by
  rw [arr8_6]
  exact k8_colsumsq (fun n => iblk8 V c 0 (pt8 n)) (fun n => iblk8 V c 1 (pt8 n)) (wgt8 V c) (bia8 V c) (accQ8 V c)
    (by rw [accQ8, iblk8_2_eq, iblk8_3_eq]) (fun n _ => by rw [accQ8, iblk8_2_eq, iblk8_3_eq])
    (fun i => Hlin8 V c i j) j
    (fun u r => pay3_blocks8 V c (pt8 u.val) u (pt8_cast u) r j)

end Cert.KernelIdeal.HandVal

end
-- ==== Proof.ValBn9.lean ====
/- From blocks to the array, region 9: after the normalise-and-rectify region the output array holds, at row `i` and
   column `j`,  max ((h i j − m j) · rsqrt (v j + ε) · g j + β j, 0)  of the five input arrays as the region finds
   them. Point `t` of the grid handles rows `5000 t … 5000 t + 4999`: its input tile is those rows of `h`, the four
   row vectors are read whole at every point, and its output tile is written back to those rows; the ten tiles cover
   the array. -/
import proofs.«144613_j17471926960174_1_alg».proof.Proof.Bn9
import proofs.«144613_j17471926960174_1_alg».proof.Proof.PayBn
import Idealize.ShloMosaic.Lib.Pipeline.Value
import Idealize.ShloMosaic.Lib.ValueIdx
import Idealize.ShloMosaic.Lib.Tactic

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-- The five input arrays as the region finds them, at their element type: `h`, the column mean, the column
    variance, the scale row and the shift row. -/
abbrev arr9_0 (c : Dev nD) : S50000x64.Idx → EReal := V c main_v120_0
abbrev arr9_1 (c : Dev nD) : S1x64.Idx → EReal := V c main_v122
abbrev arr9_2 (c : Dev nD) : S1x64.Idx → EReal := V c main_v126
abbrev arr9_3 (c : Dev nD) : S1x64.Idx → EReal := V c main_v127
abbrev arr9_4 (c : Dev nD) : S1x64.Idx → EReal := V c main_v128

/-- The printed index maps, decided over the grid: the tiled windows sit at block row `t`, the row vectors at block 0. -/
theorem index_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- What the output array holds at row `i`, column `j`: the normalised, scaled, shifted and rectified entry. -/
def bnAt9 (c : Dev nD) (i : Fin 50000) (j : Fin 64) : EReal :=
  max ((arr9_0 V c (ix2 i j) - arr9_1 V c (ix2 0 j)) * Ideal.rsqrt (arr9_2 V c (ix2 0 j) + Ideal.ofBits .f32 0x3727C5AC#32)
      * arr9_3 V c (ix2 0 j) + arr9_4 V c (ix2 0 j)) 0

/-- The whole output array. -/
def bnArr9 (c : Dev nD) : S50000x64.Idx → EReal := fun k => bnAt9 V c (k 0) (k 1)

/-- The input tile at point `t` is rows `5000 t …` of the array. -/
theorem tile9_0_apply (c : Dev nD) (t : Fin cfg9.N) (r : Fin 5000) (j : Fin 64) (i : Fin 50000)
    (hi : i.val = 5000 * t.val + r.val) :
    (iblk9 V c 0 t : Vec Ideal S5000x64 .f32) (ix2 r j) = arr9_0 V c (ix2 i j) := by
  have hx := index_facts9 t
  unfold iblk9 arr9_0
  rw [View.read_apply]
  show V c main_v120_0 _ = V c main_v120_0 _
  congr 1
  funext a
  apply Fin.ext
  match a with
  | ⟨0, _⟩ => show win9_0.index t 0 * 5000 + 1 * r.val = i.val; omega
  | ⟨1, _⟩ => show win9_0.index t 1 * 64 + 1 * j.val = j.val; omega

/-- Window 1 is the whole one-row array at every point. -/
theorem row9_1_apply (c : Dev nD) (t : Fin cfg9.N) (j : Fin 64) :
    (iblk9 V c 1 t : Vec Ideal S1x64 .f32) (ix2 0 j) = arr9_1 V c (ix2 0 j) := by
  have hi := index_facts9 t
  unfold iblk9 arr9_1
  rw [View.read_apply]
  show V c main_v122 _ = V c main_v122 _
  congr 1
  funext a
  apply Fin.ext
  match a with
  | ⟨0, _⟩ => show win9_1.index t 0 * 1 + 1 * 0 = 0; omega
  | ⟨1, _⟩ => show win9_1.index t 1 * 64 + 1 * j.val = j.val; omega

/-- Window 2 is the whole one-row array at every point. -/
theorem row9_2_apply (c : Dev nD) (t : Fin cfg9.N) (j : Fin 64) :
    (iblk9 V c 2 t : Vec Ideal S1x64 .f32) (ix2 0 j) = arr9_2 V c (ix2 0 j) := by
  have hi := index_facts9 t
  unfold iblk9 arr9_2
  rw [View.read_apply]
  show V c main_v126 _ = V c main_v126 _
  congr 1
  funext a
  apply Fin.ext
  match a with
  | ⟨0, _⟩ => show win9_2.index t 0 * 1 + 1 * 0 = 0; omega
  | ⟨1, _⟩ => show win9_2.index t 1 * 64 + 1 * j.val = j.val; omega

/-- Window 3 is the whole one-row array at every point. -/
theorem row9_3_apply (c : Dev nD) (t : Fin cfg9.N) (j : Fin 64) :
    (iblk9 V c 3 t : Vec Ideal S1x64 .f32) (ix2 0 j) = arr9_3 V c (ix2 0 j) := by
  have hi := index_facts9 t
  unfold iblk9 arr9_3
  rw [View.read_apply]
  show V c main_v127 _ = V c main_v127 _
  congr 1
  funext a
  apply Fin.ext
  match a with
  | ⟨0, _⟩ => show win9_3.index t 0 * 1 + 1 * 0 = 0; omega
  | ⟨1, _⟩ => show win9_3.index t 1 * 64 + 1 * j.val = j.val; omega

/-- Window 4 is the whole one-row array at every point. -/
theorem row9_4_apply (c : Dev nD) (t : Fin cfg9.N) (j : Fin 64) :
    (iblk9 V c 4 t : Vec Ideal S1x64 .f32) (ix2 0 j) = arr9_4 V c (ix2 0 j) := by
  have hi := index_facts9 t
  unfold iblk9 arr9_4
  rw [View.read_apply]
  show V c main_v128 _ = V c main_v128 _
  congr 1
  funext a
  apply Fin.ext
  match a with
  | ⟨0, _⟩ => show win9_4.index t 0 * 1 + 1 * 0 = 0; omega
  | ⟨1, _⟩ => show win9_4.index t 1 * 64 + 1 * j.val = j.val; omega

/-- The output tile of point `t`, entry by entry. -/
theorem out9_5_apply (c : Dev nD) (t : Fin cfg9.N) (r : Fin 5000) (j : Fin 64) (i : Fin 50000)
    (hi : i.val = 5000 * t.val + r.val) :
    out9_5 (iblk9 V c 0 t) (iblk9 V c 1 t) (iblk9 V c 2 t) (iblk9 V c 3 t) (iblk9 V c 4 t) (ix2 r j) = bnAt9 V c i j := by
  rw [out9_5_eq, k9_pay1_eq, k7_pay1_apply, tile9_0_apply V c t r j i hi, row9_1_apply, row9_2_apply, row9_3_apply, row9_4_apply]
  rfl

/-- What point `t` writes back is block `t` of the whole output array. -/
theorem flushed9_eq (c : Dev nD) (t : Fin cfg9.N) :
    (dat9 (F := Ideal) V c).flushed 5 t = ((cfg9.win 5).blk t).view.read (Elt Ideal) (bnArr9 V c) := by
  show (cfg9.win 5).cut (grid9.coords t) ((dat9 (F := Ideal) V c).after 5 t) = _
  rw [after9_5]
  have hx := index_facts9 t
  have hN : cfg9.N = 10 := N_9
  funext y
  have hy0 : (y 0).val < 5000 := (y 0).isLt
  have hy1 : (y 1).val < 64 := (y 1).isLt
  have ht : t.val < 10 := hN ▸ t.isLt
  have e := out9_5_apply V c t ⟨(y 0).val, hy0⟩ ⟨(y 1).val, hy1⟩ ⟨5000 * t.val + (y 0).val, by omega⟩ rfl
  have hy : (cfg9.win 5).xinj (grid9.coords t) y = ix2 (n0 := 5000) (n1 := 64) ⟨(y 0).val, hy0⟩ ⟨(y 1).val, hy1⟩ := by
    funext a
    match a with
    | ⟨0, _⟩ => rfl
    | ⟨1, _⟩ => rfl
  show out9_5 (F := Ideal) _ _ _ _ _ ((cfg9.win 5).xinj (grid9.coords t) y) = bnArr9 V c (((cfg9.win 5).blk t).view.emb y)
  rw [hy, e]
  unfold bnArr9
  refine congrArg₂ (bnAt9 V c) (Fin.ext ?_) (Fin.ext ?_)
  · show 5000 * t.val + (y 0).val = win9_5.index t 0 * 5000 + 1 * (y 0).val
    omega
  · show (y 1).val = win9_5.index t 1 * 64 + 1 * (y 1).val
    omega

/-- An index of the array is in point `t`'s block iff each coordinate is in the block's range on its axis. -/
theorem mem_blk9 (t : Fin cfg9.N) (i : S50000x64.Idx) :
    i ∈ ((cfg9.win 5).blk t).view.set ↔ ∀ a : Fin 2, win9_5.index t a * S5000x64.size a ≤ (i a).val ∧ (i a).val < win9_5.index t a * S5000x64.size a + S5000x64.size a := by
  show i ∈ ((View.whole main_v129).slice (win9_5.rect t)).set ↔ _
  rw [View.set_slice_whole, Rect.mem_set_unit]
  exact Iff.rfl

/-- Row `i` is in the block of point `i / 5000`: the ten tiles cover the array. -/
theorem cover9 (i : S50000x64.Idx) : ∃ t : Fin cfg9.N, (cfg9.win 5).flush t = true ∧ i ∈ ((cfg9.win 5).blk t).view.set := by
  have hi0 : (i 0).val < 50000 := (i 0).isLt
  have hi1 : (i 1).val < 64 := (i 1).isLt
  have hN : cfg9.N = 10 := N_9
  have hq : (i 0).val / 5000 < cfg9.N := by rw [hN]; omega
  refine ⟨⟨(i 0).val / 5000, hq⟩, flush9_5 _, ?_⟩
  rw [mem_blk9]
  have hx := index_facts9 ⟨(i 0).val / 5000, hq⟩
  have h50 : win9_5.index ⟨(i 0).val / 5000, hq⟩ (0 : Fin 2) = (i 0).val / 5000 := hx.2.2.2.2.2.2.2.2.2.2.1
  have h51 : win9_5.index ⟨(i 0).val / 5000, hq⟩ (1 : Fin 2) = 0 := hx.2.2.2.2.2.2.2.2.2.2.2
  intro a
  match a with
  | ⟨0, _⟩ =>
    show win9_5.index ⟨(i 0).val / 5000, hq⟩ (0 : Fin 2) * 5000 ≤ (i 0).val ∧ (i 0).val < win9_5.index ⟨(i 0).val / 5000, hq⟩ (0 : Fin 2) * 5000 + 5000
    rw [h50]
    omega
  | ⟨1, _⟩ =>
    show win9_5.index ⟨(i 0).val / 5000, hq⟩ (1 : Fin 2) * 64 ≤ (i 1).val ∧ (i 1).val < win9_5.index ⟨(i 0).val / 5000, hq⟩ (1 : Fin 2) * 64 + 64
    rw [h51]
    omega

/-- The output array after the region. -/
theorem final9 (c : Dev nD) : (dat9 (F := Ideal) V c).arrAt 5 cfg9.N = bnArr9 V c :=
  (dat9 (F := Ideal) V c).arrAt_eq_of_cover 5 (bnArr9 V c) (fun t _ => flushed9_eq V c t) (cover9)

/-- The output array after the region, index by index. -/
theorem final9_apply (c : Dev nD) (i : Fin 50000) (j : Fin 64) :
    (dat9 (F := Ideal) V c).arrAt 5 cfg9.N (ix2 i j)
      = max ((arr9_0 V c (ix2 i j) - arr9_1 V c (ix2 0 j)) * Ideal.rsqrt (arr9_2 V c (ix2 0 j) + Ideal.ofBits .f32 0x3727C5AC#32)
          * arr9_3 V c (ix2 0 j) + arr9_4 V c (ix2 0 j)) 0 := by
  rw [final9]
  rfl

end Cert.KernelIdeal.HandVal
-- ==== Proof.KLayerE.lean ====
/-
  One layer of the network on the kernel's side, composed: the layer's output array as one closed expression of the
  layer's input, the edge list and the layer's parameters — through the host stretch that aggregates the neighbours and
  lays out the weights, the pipelined call that forms the linear map with its column statistics, the host stretch that
  turns the statistics into the column mean and variance, and the pipelined call that normalizes and ends in max · 0.
-/
import proofs.«144613_j17471926960174_1_alg».proof.Proof.Reg8
import proofs.«144613_j17471926960174_1_alg».proof.Proof.Reg9
import proofs.«144613_j17471926960174_1_alg».proof.Proof.Carry
import proofs.«144613_j17471926960174_1_alg».proof.Proof.ValStats8
import proofs.«144613_j17471926960174_1_alg».proof.Proof.ValBn9
import proofs.«144613_j17471926960174_1_alg».proof.Proof.HostEvenA
import proofs.«144613_j17471926960174_1_alg».proof.Proof.HostEvenB
import proofs.«144613_j17471926960174_1_alg».proof.Proof.HostOdd
import proofs.«144613_j17471926960174_1_alg».proof.Proof.SpecForm

set_option maxRecDepth 16384

noncomputable section

open scoped BigOperators

namespace Cert.KernelIdeal.HandVal

open Cert.KernelIdeal Cert.KernelIdeal.Gen Cert.KernelIdeal.Hand Cert.KernelIdeal.HostVal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's input, edges and parameters, and its linear part -/

abbrev xE (c : Dev nD) : S50000x128.Idx → EReal := W8 m XX c main_v51
abbrev eE (c : Dev nD) : (⟨S2x800000, .i32⟩ : BufTy).Contents (Elt Ideal) := W0 m c main_arg4
abbrev wE (c : Dev nD) : S64x128.Idx → EReal := W0 m c main_arg18
abbrev bE (c : Dev nD) : S64.Idx → EReal := W0 m c main_arg19
abbrev gE (c : Dev nD) : S64.Idx → EReal := W0 m c main_arg20
abbrev βE (c : Dev nD) : S64.Idx → EReal := W0 m c main_arg21

/-- The layer's linear part, row by row and column by column. -/
abbrev hE (c : Dev nD) : Fin 50000 → Fin 64 → EReal :=
  Cert.SpecForm.lin (xE m c) (agg128 (xE m c) (eE m c)) (wE m c) (bE m c)

/-- The call's four operands as it is entered: the input carried, the aggregation, the transposed weights and the bias
    row as the host stretch before it leaves them. -/
abbrev oxE (c : Dev nD) : S50000x128.Idx → EReal := W17 m XX c main_v51
abbrev oaE (c : Dev nD) : S50000x128.Idx → EReal := W17 m XX c main_v117
abbrev owE (c : Dev nD) : S128x64.Idx → EReal := W17 m XX c main_v118
abbrev obE (c : Dev nD) : S1x64.Idx → EReal := W17 m XX c main_v119

theorem opxE (c : Dev nD) : oxE m c = xE m c := cy_main_v51_8_17 m c
theorem opaE (c : Dev nD) : oaE m c = agg128 (xE m c) (eE m c) := by
  have h := hostOps8_v117 (W16 m XX c)
  rw [show (W16 m XX c) (Proc.devRef .tc main_v51) = W8 m XX c main_v51 from cy_main_v51_8_16 m c, show (W16 m XX c) (Proc.devRef .tc main_arg4) = W0 m c main_arg4 from cy_main_arg4_0_16 m c] at h
  exact h
theorem opwE (c : Dev nD) (k : Fin 128) (j : Fin 64) : owE m c (ix2 k j) = wE m c (ix2 j k) := by
  have h := hostOps8_v118 (W16 m XX c) k j
  rw [show (W16 m XX c) (Proc.devRef .tc main_arg18) = W0 m c main_arg18 from cy_main_arg18_0_16 m c] at h
  exact h
theorem opbE (c : Dev nD) (j : Fin 64) : obE m c (ix2 0 j) = bE m c (ix1 j) := by
  have h := hostOps8_v119 (W16 m XX c) j
  rw [show (W16 m XX c) (Proc.devRef .tc main_arg19) = W0 m c main_arg19 from cy_main_arg19_0_16 m c] at h
  exact h

/-- The linear map the first call computes is the layer's linear part. -/
theorem linE (c : Dev nD) (i : Fin 50000) (j : Fin 64) : Hlin8 (E17 m XX) c i j = hE m c i j := by
  show (∑ k : Fin 128, (oxE m c (ix2 i k) + oaE m c (ix2 i k)) * owE m c (ix2 k j))
      + obE m c (ix2 0 j)
    = (∑ k : Fin 128, (xE m c (ix2 i k) + agg128 (xE m c) (eE m c) (ix2 i k)) * wE m c (ix2 j k)) + bE m c (ix1 j)
  rw [opxE, opaE, opbE]
  exact congrArg (· + bE m c (ix1 j)) (Finset.sum_congr rfl fun k _ => by rw [opwE])

/-- The three arrays the first call leaves: the linear part, its column sums and the column sums of its squares. -/
abbrev rhE (c : Dev nD) : S50000x64.Idx → EReal := W18 m XX c main_v120_0
abbrev rsE (c : Dev nD) : S1x64.Idx → EReal := W18 m XX c main_v120_1
abbrev rqE (c : Dev nD) : S1x64.Idx → EReal := W18 m XX c main_v120_2
theorem lhE (c : Dev nD) (i : Fin 50000) (j : Fin 64) : rhE m c (ix2 i j) = hE m c i j := by
  have e : rhE m c = (dat8 (F := Ideal) (E17 m XX) c).arrAt 4 cfg8.N := (hF8_4 m c).symm
  rw [e, final8_4, linE]
theorem lsE (c : Dev nD) (j : Fin 64) : rsE m c (ix2 0 j) = ∑ a : Fin 50000, hE m c a j := by
  have e : rsE m c = (dat8 (F := Ideal) (E17 m XX) c).arrAt 5 cfg8.N := (hF8_5 m c).symm
  rw [e, final8_5]
  exact Finset.sum_congr rfl fun a _ => linE m c a j
theorem lqE (c : Dev nD) (j : Fin 64) : rqE m c (ix2 0 j) = ∑ a : Fin 50000, hE m c a j * hE m c a j := by
  have e : rqE m c = (dat8 (F := Ideal) (E17 m XX) c).arrAt 6 cfg8.N := (hF8_6 m c).symm
  rw [e, final8_6]
  exact Finset.sum_congr rfl fun a _ => by rw [linE]

set_option quotPrecheck false in
local notation "N₀" => (Ideal.ofBits .f32 0x47435000#32 : EReal)
set_option quotPrecheck false in
local notation "ε₀" => (Ideal.ofBits .f32 0x3727C5AC#32 : EReal)

/-- THE LAYER, on the kernel's side. -/
theorem klayerE (c : Dev nD) (i : Fin 50000) (j : Fin 64) :
    (W20 m XX c main_v129 : S50000x64.Idx → EReal) (ix2 i j)
      = Cert.SpecForm.bnWith (hE m c) N₀ ε₀ (Cert.SpecForm.varSq (hE m c) N₀) (gE m c) (βE m c) i j := by
  rw [← hF9_5 m c, final9_apply]
  have e0 : arr9_0 (E19 m XX) c (ix2 i j) = hE m c i j := by
    have e : arr9_0 (E19 m XX) c = rhE m c := cy_main_v120_0_18_19 m c
    rw [e]
    exact lhE m c i j
  have e1 : arr9_1 (E19 m XX) c (ix2 0 j) = Cert.SpecForm.mean (hE m c) N₀ j :=
    (hostOps9_v122 (W18 m XX c) j).trans (congrArg (fun s => Ideal.div s N₀) (lsE m c j))
  have e2 : arr9_2 (E19 m XX) c (ix2 0 j) = Cert.SpecForm.varSq (hE m c) N₀ j :=
    (hostOps9_v126 (W18 m XX c) j).trans
      (congrArg₂ (fun q s => Ideal.div q N₀ - Ideal.div s N₀ * Ideal.div s N₀) (lqE m c j) (lsE m c j))
  have e3 : arr9_3 (E19 m XX) c (ix2 0 j) = gE m c (ix1 j) :=
    (hostOps9_v127 (W18 m XX c) j).trans (congrFun (cy_main_arg20_0_18 m c) (ix1 j))
  have e4 : arr9_4 (E19 m XX) c (ix2 0 j) = βE m c (ix1 j) :=
    (hostOps9_v128 (W18 m XX c) j).trans (congrFun (cy_main_arg21_0_18 m c) (ix1 j))
  rw [e0, e1, e2, e3, e4]
  rfl

end Cert.KernelIdeal.HandVal

end
-- ==== Proof.ValStats10.lean ====
/-
  From the blocks to the arrays, at the ideal instance: what the call that computes one graph layer's linear map with
  its batch statistics leaves in its three result arrays, as functions of the arrays it is entered with.

  Point t of the ten-point grid writes rows 5000 t … 5000 t + 4999 of the first result, each entry the affine map
  h(i, j) = Σ_k (x(i, k) + g(i, k)) · w(k, j) + b(j) of the row; the ten blocks tile the array. The two statistics
  results are written back once, after the last point, and hold the accumulators after all ten points: the column sums
  of h and of h · h over all 50000 rows.
-/
import proofs.«144613_j17471926960174_1_alg».proof.Proof.Stats10
import proofs.«144613_j17471926960174_1_alg».proof.Proof.PayStats
import proofs.«144613_j17471926960174_1_alg».proof.Proof.PayTiles
import proofs.«144613_j17471926960174_1_alg».proof.Proof.PayAcc
import Idealize.ShloMosaic.Lib.Pipeline.Value

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays the region is entered with, and the affine map -/

/-- The layer's input, the aggregated array, the transposed weights and the bias row, as the region finds them. -/
abbrev xin10 (c : Dev nD) : Vec Ideal S50000x128 .f32 := V c (Pipeline.arrRef spec10 0)
abbrev agg10 (c : Dev nD) : Vec Ideal S50000x128 .f32 := V c (Pipeline.arrRef spec10 1)
abbrev wgt10 (c : Dev nD) : Vec Ideal S128x64 .f32 := V c (Pipeline.arrRef spec10 2)
abbrev bia10 (c : Dev nD) : Vec Ideal S1x64 .f32 := V c (Pipeline.arrRef spec10 3)

/-- The linear layer at row `i`, column `j`. -/
def Hlin10 (c : Dev nD) (i : Fin 50000) (j : Fin 64) : EReal :=
  (∑ k : Fin 128, (xin10 V c (ix2 i k) + agg10 V c (ix2 i k)) * wgt10 V c (ix2 k j)) + bia10 V c (ix2 0 j)

/-! ## Where each window's block sits -/

/-- The printed index maps, decided over the grid: the row tiles move with the point, everything else stays at 0. -/
theorem idx10_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0 :=
  (by decide +kernel : ∀ t : Fin grid10.N, _)

/-- Each input block read where its rectangle says: a block's coordinate is index × size + the coordinate inside. -/
theorem read10_0 (c : Dev nD) (t : Fin cfg10.N) (u : Fin 10) (hu : u.val = t.val) (r : Fin 5000) (k : Fin 128) :
    iblk10 V c 0 t (ix2 r k) = xin10 V c (ix2 (tileRow u r) k) := by
  obtain ⟨e0, e1, -⟩ := idx10_facts t
  show xin10 V c (((cfg10.win 0).blk t).view.emb (ix2 r k)) = _
  congr 1
  funext a; apply Fin.ext
  match a with
  | ⟨0, _⟩ => show win10_0.index t (0 : Fin 2) * 5000 + 1 * r.val = 5000 * u.val + r.val; omega
  | ⟨1, _⟩ => show win10_0.index t (1 : Fin 2) * 128 + 1 * k.val = k.val; omega
theorem read10_1 (c : Dev nD) (t : Fin cfg10.N) (u : Fin 10) (hu : u.val = t.val) (r : Fin 5000) (k : Fin 128) :
    iblk10 V c 1 t (ix2 r k) = agg10 V c (ix2 (tileRow u r) k) := by
  obtain ⟨-, -, e0, e1, -⟩ := idx10_facts t
  show agg10 V c (((cfg10.win 1).blk t).view.emb (ix2 r k)) = _
  congr 1
  funext a; apply Fin.ext
  match a with
  | ⟨0, _⟩ => show win10_1.index t (0 : Fin 2) * 5000 + 1 * r.val = 5000 * u.val + r.val; omega
  | ⟨1, _⟩ => show win10_1.index t (1 : Fin 2) * 128 + 1 * k.val = k.val; omega
theorem read10_2 (c : Dev nD) (t : Fin cfg10.N) (k : Fin 128) (j : Fin 64) :
    iblk10 V c 2 t (ix2 k j) = wgt10 V c (ix2 k j) := by
  obtain ⟨-, -, -, -, e0, e1, -⟩ := idx10_facts t
  show wgt10 V c (((cfg10.win 2).blk t).view.emb (ix2 k j)) = _
  congr 1
  funext a; apply Fin.ext
  match a with
  | ⟨0, _⟩ => show win10_2.index t (0 : Fin 2) * 128 + 1 * k.val = k.val; omega
  | ⟨1, _⟩ => show win10_2.index t (1 : Fin 2) * 64 + 1 * j.val = j.val; omega
theorem read10_3 (c : Dev nD) (t : Fin cfg10.N) (z : Fin 1) (j : Fin 64) :
    iblk10 V c 3 t (ix2 z j) = bia10 V c (ix2 z j) := by
  obtain ⟨-, -, -, -, -, -, e0, e1, -⟩ := idx10_facts t
  show bia10 V c (((cfg10.win 3).blk t).view.emb (ix2 z j)) = _
  congr 1
  funext a; apply Fin.ext
  match a with
  | ⟨0, _⟩ => show win10_3.index t (0 : Fin 2) * 1 + 1 * z.val = z.val; omega
  | ⟨1, _⟩ => show win10_3.index t (1 : Fin 2) * 64 + 1 * j.val = j.val; omega

/-- The weights' and the bias's blocks are the arrays, at every point. -/
theorem iblk10_2_eq (c : Dev nD) (t : Fin cfg10.N) : iblk10 V c 2 t = wgt10 V c :=
  funext fun i => by rw [eq_ix2 i]; exact read10_2 V c t _ _
theorem iblk10_3_eq (c : Dev nD) (t : Fin cfg10.N) : iblk10 V c 3 t = bia10 V c :=
  funext fun i => by rw [eq_ix2 i]; exact read10_3 V c t _ _

/-- The body's payload on the blocks of point `t` is the affine map on the tile's rows. -/
theorem pay3_blocks10 (c : Dev nD) (t : Fin cfg10.N) (u : Fin 10) (hu : u.val = t.val) (r : Fin 5000) (j : Fin 64) :
    k10_pay3 (F := Ideal) (iblk10 V c 0 t) (iblk10 V c 1 t) (wgt10 V c) (bia10 V c) (ix2 r j) = Hlin10 V c (tileRow u r) j := by
  rw [k10_pay3_eq, k6_pay3_apply]
  unfold Hlin10
  simp only [read10_0 V c t u hu, read10_1 V c t u hu]
theorem hblk10_apply (c : Dev nD) (t : Fin cfg10.N) (u : Fin 10) (hu : u.val = t.val) (r : Fin 5000) (j : Fin 64) :
    hblk10 V c t (ix2 r j) = Hlin10 V c (tileRow u r) j := by
  unfold hblk10
  rw [iblk10_2_eq, iblk10_3_eq]
  exact pay3_blocks10 V c t u hu r j

theorem hblk10_apply' (c : Dev nD) (t : Fin cfg10.N) (u : Fin 10) (hu : u.val = t.val) (j : S5000x64.Idx) :
    hblk10 V c t j = Hlin10 V c (tileRow u (j 0)) (j 1) :=
  (congrArg (hblk10 V c t) (eq_ix2 j)).trans (hblk10_apply V c t u hu (j 0) (j 1))

/-! ## The first result: ten row tiles -/

/-- What the first result ends holding: the affine map, row by row. -/
def G10_4 (c : Dev nD) : Vec Ideal S50000x64 .f32 := fun i => Hlin10 V c (i 0) (i 1)

/-- What point `t` writes back is block `t` of it. -/
theorem flushed10_4_eq (c : Dev nD) (t : Fin cfg10.N) :
    (dat10 V c).flushed 4 t = ((cfg10.win 4).blk t).view.read (Elt Ideal) (G10_4 V c) := by
  show (cfg10.win 4).cut (grid10.coords t) ((dat10 V c).after 4 t) = _
  rw [after10_4]
  obtain ⟨-, -, -, -, -, -, -, -, e0, e1, -⟩ := idx10_facts t
  funext j
  show hblk10 V c t j = Hlin10 V c ((((cfg10.win 4).blk t).view.emb j) 0) ((((cfg10.win 4).blk t).view.emb j) 1)
  rw [hblk10_apply' V c t (Fin.cast N10_eq t) rfl]
  congr 1
  · apply Fin.ext; show 5000 * t.val + (j 0).val = win10_4.index t (0 : Fin 2) * 5000 + 1 * (j 0).val; omega
  · apply Fin.ext; show (j 1).val = win10_4.index t (1 : Fin 2) * 64 + 1 * (j 1).val; omega

/-- An index of the array is in point `t`'s block iff each coordinate is in the block's range on its axis. -/
theorem mem_blk10_4 (t : Fin cfg10.N) (i : S50000x64.Idx) :
    i ∈ ((cfg10.win 4).blk t).view.set ↔ ∀ a : Fin 2, win10_4.index t a * S5000x64.size a ≤ (i a).val ∧ (i a).val < win10_4.index t a * S5000x64.size a + S5000x64.size a := by
  show i ∈ ((View.whole main_v146_0).slice (win10_4.rect t)).set ↔ _
  rw [View.set_slice_whole, Rect.mem_set_unit]
  exact Iff.rfl

/-- Row `i` is covered by point `i / 5000`. -/
theorem cover10_4 (i : S50000x64.Idx) : ∃ t : Fin cfg10.N, (cfg10.win 4).flush t = true ∧ i ∈ ((cfg10.win 4).blk t).view.set := by
  have hi0 : (i 0).val < 50000 := (i 0).isLt
  have hi1 : (i 1).val < 64 := (i 1).isLt
  have hlt : (i 0).val / 5000 < cfg10.N := by rw [N10_eq]; omega
  obtain ⟨-, -, -, -, -, -, -, -, e0, e1, -⟩ := idx10_facts ⟨(i 0).val / 5000, hlt⟩
  refine ⟨⟨(i 0).val / 5000, hlt⟩, flush10_4 _, ?_⟩
  rw [mem_blk10_4]
  intro a
  match a with
  | ⟨0, _⟩ => show win10_4.index ⟨(i 0).val / 5000, hlt⟩ (0 : Fin 2) * 5000 ≤ (i 0).val ∧ (i 0).val < win10_4.index ⟨(i 0).val / 5000, hlt⟩ (0 : Fin 2) * 5000 + 5000; dsimp only at e0; omega
  | ⟨1, _⟩ => show win10_4.index ⟨(i 0).val / 5000, hlt⟩ (1 : Fin 2) * 64 ≤ (i 1).val ∧ (i 1).val < win10_4.index ⟨(i 0).val / 5000, hlt⟩ (1 : Fin 2) * 64 + 64; omega

/-- THE FIRST RESULT after the region: the affine map at every row and column. -/
theorem final10_4 (c : Dev nD) (i : Fin 50000) (j : Fin 64) :
    (dat10 (F := Ideal) V c).arrAt 4 cfg10.N (ix2 i j) = Hlin10 V c i j := by
  rw [(dat10 V c).arrAt_eq_of_cover 4 (G10_4 V c) (fun t _ => flushed10_4_eq V c t) cover10_4]
  rfl

/-! ## The two statistics results: written back once, after the last point -/

theorem flushed10_5_eq (c : Dev nD) (t : Fin cfg10.N) (hf : (cfg10.win 5).flush t = true) :
    (dat10 V c).flushed 5 t = ((cfg10.win 5).blk t).view.read (Elt Ideal) (accS10 V c 9) := by
  have h9 : t.val = 9 := by have h1 := (flush10_5 t).mp hf; have h2 := lt_of_lt_of_eq t.isLt N10_eq; omega
  obtain ⟨-, -, -, -, -, -, -, -, -, -, e0, e1, -⟩ := idx10_facts t
  show (cfg10.win 5).cut (grid10.coords t) ((dat10 V c).after 5 t) = _
  rw [after10_5, h9]
  funext j
  show accS10 V c 9 j = accS10 V c 9 (((cfg10.win 5).blk t).view.emb j)
  congr 1
  funext a; apply Fin.ext
  match a with
  | ⟨0, _⟩ => show (j 0).val = win10_5.index t (0 : Fin 2) * 1 + 1 * (j 0).val; omega
  | ⟨1, _⟩ => show (j 1).val = win10_5.index t (1 : Fin 2) * 64 + 1 * (j 1).val; omega

theorem mem_blk10_5 (t : Fin cfg10.N) (i : S1x64.Idx) :
    i ∈ ((cfg10.win 5).blk t).view.set ↔ ∀ a : Fin 2, win10_5.index t a * S1x64.size a ≤ (i a).val ∧ (i a).val < win10_5.index t a * S1x64.size a + S1x64.size a := by
  show i ∈ ((View.whole main_v146_1).slice (win10_5.rect t)).set ↔ _
  rw [View.set_slice_whole, Rect.mem_set_unit]
  exact Iff.rfl

/-- The last point's block is the whole array. -/
theorem cover10_5 (i : S1x64.Idx) : ∃ t : Fin cfg10.N, (cfg10.win 5).flush t = true ∧ i ∈ ((cfg10.win 5).blk t).view.set := by
  have hi0 : (i 0).val < 1 := (i 0).isLt
  have hi1 : (i 1).val < 64 := (i 1).isLt
  obtain ⟨-, -, -, -, -, -, -, -, -, -, e0, e1, -⟩ := idx10_facts t10_9
  refine ⟨t10_9, (flush10_5 t10_9).mpr rfl, ?_⟩
  rw [mem_blk10_5]
  intro a
  match a with
  | ⟨0, _⟩ => show win10_5.index t10_9 (0 : Fin 2) * 1 ≤ (i 0).val ∧ (i 0).val < win10_5.index t10_9 (0 : Fin 2) * 1 + 1; omega
  | ⟨1, _⟩ => show win10_5.index t10_9 (1 : Fin 2) * 64 ≤ (i 1).val ∧ (i 1).val < win10_5.index t10_9 (1 : Fin 2) * 64 + 64; omega

/-- The array ends holding the accumulator after all ten points. -/
theorem arr10_5 (c : Dev nD) : (dat10 (F := Ideal) V c).arrAt 5 cfg10.N = accS10 V c 9 :=
  (dat10 V c).arrAt_eq_of_cover 5 (accS10 V c 9) (fun t hf => flushed10_5_eq V c t hf) cover10_5

theorem flushed10_6_eq (c : Dev nD) (t : Fin cfg10.N) (hf : (cfg10.win 6).flush t = true) :
    (dat10 V c).flushed 6 t = ((cfg10.win 6).blk t).view.read (Elt Ideal) (accQ10 V c 9) := by
  have h9 : t.val = 9 := by have h1 := (flush10_6 t).mp hf; have h2 := lt_of_lt_of_eq t.isLt N10_eq; omega
  obtain ⟨-, -, -, -, -, -, -, -, -, -, -, -, e0, e1⟩ := idx10_facts t
  show (cfg10.win 6).cut (grid10.coords t) ((dat10 V c).after 6 t) = _
  rw [after10_6, h9]
  funext j
  show accQ10 V c 9 j = accQ10 V c 9 (((cfg10.win 6).blk t).view.emb j)
  congr 1
  funext a; apply Fin.ext
  match a with
  | ⟨0, _⟩ => show (j 0).val = win10_6.index t (0 : Fin 2) * 1 + 1 * (j 0).val; omega
  | ⟨1, _⟩ => show (j 1).val = win10_6.index t (1 : Fin 2) * 64 + 1 * (j 1).val; omega

theorem mem_blk10_6 (t : Fin cfg10.N) (i : S1x64.Idx) :
    i ∈ ((cfg10.win 6).blk t).view.set ↔ ∀ a : Fin 2, win10_6.index t a * S1x64.size a ≤ (i a).val ∧ (i a).val < win10_6.index t a * S1x64.size a + S1x64.size a := by
  show i ∈ ((View.whole main_v146_2).slice (win10_6.rect t)).set ↔ _
  rw [View.set_slice_whole, Rect.mem_set_unit]
  exact Iff.rfl

/-- The last point's block is the whole array. -/
theorem cover10_6 (i : S1x64.Idx) : ∃ t : Fin cfg10.N, (cfg10.win 6).flush t = true ∧ i ∈ ((cfg10.win 6).blk t).view.set := by
  have hi0 : (i 0).val < 1 := (i 0).isLt
  have hi1 : (i 1).val < 64 := (i 1).isLt
  obtain ⟨-, -, -, -, -, -, -, -, -, -, -, -, e0, e1⟩ := idx10_facts t10_9
  refine ⟨t10_9, (flush10_6 t10_9).mpr rfl, ?_⟩
  rw [mem_blk10_6]
  intro a
  match a with
  | ⟨0, _⟩ => show win10_6.index t10_9 (0 : Fin 2) * 1 ≤ (i 0).val ∧ (i 0).val < win10_6.index t10_9 (0 : Fin 2) * 1 + 1; omega
  | ⟨1, _⟩ => show win10_6.index t10_9 (1 : Fin 2) * 64 ≤ (i 1).val ∧ (i 1).val < win10_6.index t10_9 (1 : Fin 2) * 64 + 64; omega

/-- The array ends holding the accumulator after all ten points. -/
theorem arr10_6 (c : Dev nD) : (dat10 (F := Ideal) V c).arrAt 6 cfg10.N = accQ10 V c 9 :=
  (dat10 V c).arrAt_eq_of_cover 6 (accQ10 V c 9) (fun t hf => flushed10_6_eq V c t hf) cover10_6

/-- The blocks of the point numbered `u`. -/
theorem pt10_cast (u : Fin 10) : u.val = (pt10 u.val).val := (Nat.mod_eq_of_lt u.isLt).symm

/-- THE SECOND RESULT after the region: the column sums of the affine map over all 50000 rows. -/
theorem final10_5 (c : Dev nD) (j : Fin 64) :
    (dat10 (F := Ideal) V c).arrAt 5 cfg10.N (ix2 0 j) = ∑ i : Fin 50000, Hlin10 V c i j := by
  rw [arr10_5]
  exact k10_colsum (fun n => iblk10 V c 0 (pt10 n)) (fun n => iblk10 V c 1 (pt10 n)) (wgt10 V c) (bia10 V c) (accS10 V c)
    (by rw [accS10, iblk10_2_eq, iblk10_3_eq]) (fun n _ => by rw [accS10, iblk10_2_eq, iblk10_3_eq])
    (fun i => Hlin10 V c i j) j
    (fun u r => pay3_blocks10 V c (pt10 u.val) u (pt10_cast u) r j)

/-- THE THIRD RESULT after the region: the column sums of its square. -/
theorem final10_6 (c : Dev nD) (j : Fin 64) :
    (dat10 (F := Ideal) V c).arrAt 6 cfg10.N (ix2 0 j) = ∑ i : Fin 50000, Hlin10 V c i j * Hlin10 V c i j := by
  rw [arr10_6]
  exact k10_colsumsq (fun n => iblk10 V c 0 (pt10 n)) (fun n => iblk10 V c 1 (pt10 n)) (wgt10 V c) (bia10 V c) (accQ10 V c)
    (by rw [accQ10, iblk10_2_eq, iblk10_3_eq]) (fun n _ => by rw [accQ10, iblk10_2_eq, iblk10_3_eq])
    (fun i => Hlin10 V c i j) j
    (fun u r => pay3_blocks10 V c (pt10 u.val) u (pt10_cast u) r j)

end Cert.KernelIdeal.HandVal

end
-- ==== Proof.ValBn11.lean ====
/- From blocks to the array, region 11: after the normalise-and-rectify region the output array holds, at row `i` and
   column `j`,  max ((h i j − m j) · rsqrt (v j + ε) · g j + β j, 0)  of the five input arrays as the region finds
   them. Point `t` of the grid handles rows `5000 t … 5000 t + 4999`: its input tile is those rows of `h`, the four
   row vectors are read whole at every point, and its output tile is written back to those rows; the ten tiles cover
   the array. -/
import proofs.«144613_j17471926960174_1_alg».proof.Proof.Bn11
import proofs.«144613_j17471926960174_1_alg».proof.Proof.PayBn
import Idealize.ShloMosaic.Lib.Pipeline.Value
import Idealize.ShloMosaic.Lib.ValueIdx
import Idealize.ShloMosaic.Lib.Tactic

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-- The five input arrays as the region finds them, at their element type: `h`, the column mean, the column
    variance, the scale row and the shift row. -/
abbrev arr11_0 (c : Dev nD) : S50000x64.Idx → EReal := V c main_v146_0
abbrev arr11_1 (c : Dev nD) : S1x64.Idx → EReal := V c main_v148
abbrev arr11_2 (c : Dev nD) : S1x64.Idx → EReal := V c main_v152
abbrev arr11_3 (c : Dev nD) : S1x64.Idx → EReal := V c main_v153
abbrev arr11_4 (c : Dev nD) : S1x64.Idx → EReal := V c main_v154

/-- The printed index maps, decided over the grid: the tiled windows sit at block row `t`, the row vectors at block 0. -/
theorem index_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- What the output array holds at row `i`, column `j`: the normalised, scaled, shifted and rectified entry. -/
def bnAt11 (c : Dev nD) (i : Fin 50000) (j : Fin 64) : EReal :=
  max ((arr11_0 V c (ix2 i j) - arr11_1 V c (ix2 0 j)) * Ideal.rsqrt (arr11_2 V c (ix2 0 j) + Ideal.ofBits .f32 0x3727C5AC#32)
      * arr11_3 V c (ix2 0 j) + arr11_4 V c (ix2 0 j)) 0

/-- The whole output array. -/
def bnArr11 (c : Dev nD) : S50000x64.Idx → EReal := fun k => bnAt11 V c (k 0) (k 1)

/-- The input tile at point `t` is rows `5000 t …` of the array. -/
theorem tile11_0_apply (c : Dev nD) (t : Fin cfg11.N) (r : Fin 5000) (j : Fin 64) (i : Fin 50000)
    (hi : i.val = 5000 * t.val + r.val) :
    (iblk11 V c 0 t : Vec Ideal S5000x64 .f32) (ix2 r j) = arr11_0 V c (ix2 i j) := by
  have hx := index_facts11 t
  unfold iblk11 arr11_0
  rw [View.read_apply]
  show V c main_v146_0 _ = V c main_v146_0 _
  congr 1
  funext a
  apply Fin.ext
  match a with
  | ⟨0, _⟩ => show win11_0.index t 0 * 5000 + 1 * r.val = i.val; omega
  | ⟨1, _⟩ => show win11_0.index t 1 * 64 + 1 * j.val = j.val; omega

/-- Window 1 is the whole one-row array at every point. -/
theorem row11_1_apply (c : Dev nD) (t : Fin cfg11.N) (j : Fin 64) :
    (iblk11 V c 1 t : Vec Ideal S1x64 .f32) (ix2 0 j) = arr11_1 V c (ix2 0 j) := by
  have hi := index_facts11 t
  unfold iblk11 arr11_1
  rw [View.read_apply]
  show V c main_v148 _ = V c main_v148 _
  congr 1
  funext a
  apply Fin.ext
  match a with
  | ⟨0, _⟩ => show win11_1.index t 0 * 1 + 1 * 0 = 0; omega
  | ⟨1, _⟩ => show win11_1.index t 1 * 64 + 1 * j.val = j.val; omega

/-- Window 2 is the whole one-row array at every point. -/
theorem row11_2_apply (c : Dev nD) (t : Fin cfg11.N) (j : Fin 64) :
    (iblk11 V c 2 t : Vec Ideal S1x64 .f32) (ix2 0 j) = arr11_2 V c (ix2 0 j) := by
  have hi := index_facts11 t
  unfold iblk11 arr11_2
  rw [View.read_apply]
  show V c main_v152 _ = V c main_v152 _
  congr 1
  funext a
  apply Fin.ext
  match a with
  | ⟨0, _⟩ => show win11_2.index t 0 * 1 + 1 * 0 = 0; omega
  | ⟨1, _⟩ => show win11_2.index t 1 * 64 + 1 * j.val = j.val; omega

/-- Window 3 is the whole one-row array at every point. -/
theorem row11_3_apply (c : Dev nD) (t : Fin cfg11.N) (j : Fin 64) :
    (iblk11 V c 3 t : Vec Ideal S1x64 .f32) (ix2 0 j) = arr11_3 V c (ix2 0 j) := by
  have hi := index_facts11 t
  unfold iblk11 arr11_3
  rw [View.read_apply]
  show V c main_v153 _ = V c main_v153 _
  congr 1
  funext a
  apply Fin.ext
  match a with
  | ⟨0, _⟩ => show win11_3.index t 0 * 1 + 1 * 0 = 0; omega
  | ⟨1, _⟩ => show win11_3.index t 1 * 64 + 1 * j.val = j.val; omega

/-- Window 4 is the whole one-row array at every point. -/
theorem row11_4_apply (c : Dev nD) (t : Fin cfg11.N) (j : Fin 64) :
    (iblk11 V c 4 t : Vec Ideal S1x64 .f32) (ix2 0 j) = arr11_4 V c (ix2 0 j) := by
  have hi := index_facts11 t
  unfold iblk11 arr11_4
  rw [View.read_apply]
  show V c main_v154 _ = V c main_v154 _
  congr 1
  funext a
  apply Fin.ext
  match a with
  | ⟨0, _⟩ => show win11_4.index t 0 * 1 + 1 * 0 = 0; omega
  | ⟨1, _⟩ => show win11_4.index t 1 * 64 + 1 * j.val = j.val; omega

/-- The output tile of point `t`, entry by entry. -/
theorem out11_5_apply (c : Dev nD) (t : Fin cfg11.N) (r : Fin 5000) (j : Fin 64) (i : Fin 50000)
    (hi : i.val = 5000 * t.val + r.val) :
    out11_5 (iblk11 V c 0 t) (iblk11 V c 1 t) (iblk11 V c 2 t) (iblk11 V c 3 t) (iblk11 V c 4 t) (ix2 r j) = bnAt11 V c i j := by
  rw [out11_5_eq, k11_pay1_eq, k7_pay1_apply, tile11_0_apply V c t r j i hi, row11_1_apply, row11_2_apply, row11_3_apply, row11_4_apply]
  rfl

/-- What point `t` writes back is block `t` of the whole output array. -/
theorem flushed11_eq (c : Dev nD) (t : Fin cfg11.N) :
    (dat11 (F := Ideal) V c).flushed 5 t = ((cfg11.win 5).blk t).view.read (Elt Ideal) (bnArr11 V c) := by
  show (cfg11.win 5).cut (grid11.coords t) ((dat11 (F := Ideal) V c).after 5 t) = _
  rw [after11_5]
  have hx := index_facts11 t
  have hN : cfg11.N = 10 := N_11
  funext y
  have hy0 : (y 0).val < 5000 := (y 0).isLt
  have hy1 : (y 1).val < 64 := (y 1).isLt
  have ht : t.val < 10 := hN ▸ t.isLt
  have e := out11_5_apply V c t ⟨(y 0).val, hy0⟩ ⟨(y 1).val, hy1⟩ ⟨5000 * t.val + (y 0).val, by omega⟩ rfl
  have hy : (cfg11.win 5).xinj (grid11.coords t) y = ix2 (n0 := 5000) (n1 := 64) ⟨(y 0).val, hy0⟩ ⟨(y 1).val, hy1⟩ := by
    funext a
    match a with
    | ⟨0, _⟩ => rfl
    | ⟨1, _⟩ => rfl
  show out11_5 (F := Ideal) _ _ _ _ _ ((cfg11.win 5).xinj (grid11.coords t) y) = bnArr11 V c (((cfg11.win 5).blk t).view.emb y)
  rw [hy, e]
  unfold bnArr11
  refine congrArg₂ (bnAt11 V c) (Fin.ext ?_) (Fin.ext ?_)
  · show 5000 * t.val + (y 0).val = win11_5.index t 0 * 5000 + 1 * (y 0).val
    omega
  · show (y 1).val = win11_5.index t 1 * 64 + 1 * (y 1).val
    omega

/-- An index of the array is in point `t`'s block iff each coordinate is in the block's range on its axis. -/
theorem mem_blk11 (t : Fin cfg11.N) (i : S50000x64.Idx) :
    i ∈ ((cfg11.win 5).blk t).view.set ↔ ∀ a : Fin 2, win11_5.index t a * S5000x64.size a ≤ (i a).val ∧ (i a).val < win11_5.index t a * S5000x64.size a + S5000x64.size a := by
  show i ∈ ((View.whole main_v155).slice (win11_5.rect t)).set ↔ _
  rw [View.set_slice_whole, Rect.mem_set_unit]
  exact Iff.rfl

/-- Row `i` is in the block of point `i / 5000`: the ten tiles cover the array. -/
theorem cover11 (i : S50000x64.Idx) : ∃ t : Fin cfg11.N, (cfg11.win 5).flush t = true ∧ i ∈ ((cfg11.win 5).blk t).view.set := by
  have hi0 : (i 0).val < 50000 := (i 0).isLt
  have hi1 : (i 1).val < 64 := (i 1).isLt
  have hN : cfg11.N = 10 := N_11
  have hq : (i 0).val / 5000 < cfg11.N := by rw [hN]; omega
  refine ⟨⟨(i 0).val / 5000, hq⟩, flush11_5 _, ?_⟩
  rw [mem_blk11]
  have hx := index_facts11 ⟨(i 0).val / 5000, hq⟩
  have h50 : win11_5.index ⟨(i 0).val / 5000, hq⟩ (0 : Fin 2) = (i 0).val / 5000 := hx.2.2.2.2.2.2.2.2.2.2.1
  have h51 : win11_5.index ⟨(i 0).val / 5000, hq⟩ (1 : Fin 2) = 0 := hx.2.2.2.2.2.2.2.2.2.2.2
  intro a
  match a with
  | ⟨0, _⟩ =>
    show win11_5.index ⟨(i 0).val / 5000, hq⟩ (0 : Fin 2) * 5000 ≤ (i 0).val ∧ (i 0).val < win11_5.index ⟨(i 0).val / 5000, hq⟩ (0 : Fin 2) * 5000 + 5000
    rw [h50]
    omega
  | ⟨1, _⟩ =>
    show win11_5.index ⟨(i 0).val / 5000, hq⟩ (1 : Fin 2) * 64 ≤ (i 1).val ∧ (i 1).val < win11_5.index ⟨(i 0).val / 5000, hq⟩ (1 : Fin 2) * 64 + 64
    rw [h51]
    omega

/-- The output array after the region. -/
theorem final11 (c : Dev nD) : (dat11 (F := Ideal) V c).arrAt 5 cfg11.N = bnArr11 V c :=
  (dat11 (F := Ideal) V c).arrAt_eq_of_cover 5 (bnArr11 V c) (fun t _ => flushed11_eq V c t) (cover11)

/-- The output array after the region, index by index. -/
theorem final11_apply (c : Dev nD) (i : Fin 50000) (j : Fin 64) :
    (dat11 (F := Ideal) V c).arrAt 5 cfg11.N (ix2 i j)
      = max ((arr11_0 V c (ix2 i j) - arr11_1 V c (ix2 0 j)) * Ideal.rsqrt (arr11_2 V c (ix2 0 j) + Ideal.ofBits .f32 0x3727C5AC#32)
          * arr11_3 V c (ix2 0 j) + arr11_4 V c (ix2 0 j)) 0 := by
  rw [final11]
  rfl

end Cert.KernelIdeal.HandVal
-- ==== Proof.KLayerF.lean ====
/-
  One layer of the network on the kernel's side, composed: the layer's output array as one closed expression of the
  layer's input, the edge list and the layer's parameters — through the host stretch that aggregates the neighbours and
  lays out the weights, the pipelined call that forms the linear map with its column statistics, the host stretch that
  turns the statistics into the column mean and variance, and the pipelined call that normalizes and ends in max · 0.
-/
import proofs.«144613_j17471926960174_1_alg».proof.Proof.Reg10
import proofs.«144613_j17471926960174_1_alg».proof.Proof.Reg11
import proofs.«144613_j17471926960174_1_alg».proof.Proof.Carry
import proofs.«144613_j17471926960174_1_alg».proof.Proof.ValStats10
import proofs.«144613_j17471926960174_1_alg».proof.Proof.ValBn11
import proofs.«144613_j17471926960174_1_alg».proof.Proof.HostEvenA
import proofs.«144613_j17471926960174_1_alg».proof.Proof.HostEvenB
import proofs.«144613_j17471926960174_1_alg».proof.Proof.HostOdd
import proofs.«144613_j17471926960174_1_alg».proof.Proof.SpecForm

set_option maxRecDepth 16384

noncomputable section

open scoped BigOperators

namespace Cert.KernelIdeal.HandVal

open Cert.KernelIdeal Cert.KernelIdeal.Gen Cert.KernelIdeal.Hand Cert.KernelIdeal.HostVal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's input, edges and parameters, and its linear part -/

abbrev xF (c : Dev nD) : S50000x128.Idx → EReal := W12 m XX c main_v77
abbrev eF (c : Dev nD) : (⟨S2x800000, .i32⟩ : BufTy).Contents (Elt Ideal) := W0 m c main_arg5
abbrev wF (c : Dev nD) : S64x128.Idx → EReal := W0 m c main_arg18
abbrev bF (c : Dev nD) : S64.Idx → EReal := W0 m c main_arg19
abbrev gF (c : Dev nD) : S64.Idx → EReal := W0 m c main_arg20
abbrev βF (c : Dev nD) : S64.Idx → EReal := W0 m c main_arg21

/-- The layer's linear part, row by row and column by column. -/
abbrev hF (c : Dev nD) : Fin 50000 → Fin 64 → EReal :=
  Cert.SpecForm.lin (xF m c) (agg128 (xF m c) (eF m c)) (wF m c) (bF m c)

/-- The call's four operands as it is entered: the input carried, the aggregation, the transposed weights and the bias
    row as the host stretch before it leaves them. -/
abbrev oxF (c : Dev nD) : S50000x128.Idx → EReal := W21 m XX c main_v77
abbrev oaF (c : Dev nD) : S50000x128.Idx → EReal := W21 m XX c main_v143
abbrev owF (c : Dev nD) : S128x64.Idx → EReal := W21 m XX c main_v144
abbrev obF (c : Dev nD) : S1x64.Idx → EReal := W21 m XX c main_v145

theorem opxF (c : Dev nD) : oxF m c = xF m c := cy_main_v77_12_21 m c
theorem opaF (c : Dev nD) : oaF m c = agg128 (xF m c) (eF m c) := by
  have h := hostOps10_v143 (W20 m XX c)
  rw [show (W20 m XX c) (Proc.devRef .tc main_v77) = W12 m XX c main_v77 from cy_main_v77_12_20 m c, show (W20 m XX c) (Proc.devRef .tc main_arg5) = W0 m c main_arg5 from cy_main_arg5_0_20 m c] at h
  exact h
theorem opwF (c : Dev nD) (k : Fin 128) (j : Fin 64) : owF m c (ix2 k j) = wF m c (ix2 j k) := by
  have h := hostOps10_v144 (W20 m XX c) k j
  rw [show (W20 m XX c) (Proc.devRef .tc main_arg18) = W0 m c main_arg18 from cy_main_arg18_0_20 m c] at h
  exact h
theorem opbF (c : Dev nD) (j : Fin 64) : obF m c (ix2 0 j) = bF m c (ix1 j) := by
  have h := hostOps10_v145 (W20 m XX c) j
  rw [show (W20 m XX c) (Proc.devRef .tc main_arg19) = W0 m c main_arg19 from cy_main_arg19_0_20 m c] at h
  exact h

/-- The linear map the first call computes is the layer's linear part. -/
theorem linF (c : Dev nD) (i : Fin 50000) (j : Fin 64) : Hlin10 (E21 m XX) c i j = hF m c i j := by
  show (∑ k : Fin 128, (oxF m c (ix2 i k) + oaF m c (ix2 i k)) * owF m c (ix2 k j))
      + obF m c (ix2 0 j)
    = (∑ k : Fin 128, (xF m c (ix2 i k) + agg128 (xF m c) (eF m c) (ix2 i k)) * wF m c (ix2 j k)) + bF m c (ix1 j)
  rw [opxF, opaF, opbF]
  exact congrArg (· + bF m c (ix1 j)) (Finset.sum_congr rfl fun k _ => by rw [opwF])

/-- The three arrays the first call leaves: the linear part, its column sums and the column sums of its squares. -/
abbrev rhF (c : Dev nD) : S50000x64.Idx → EReal := W22 m XX c main_v146_0
abbrev rsF (c : Dev nD) : S1x64.Idx → EReal := W22 m XX c main_v146_1
abbrev rqF (c : Dev nD) : S1x64.Idx → EReal := W22 m XX c main_v146_2
theorem lhF (c : Dev nD) (i : Fin 50000) (j : Fin 64) : rhF m c (ix2 i j) = hF m c i j := by
  have e : rhF m c = (dat10 (F := Ideal) (E21 m XX) c).arrAt 4 cfg10.N := (hF10_4 m c).symm
  rw [e, final10_4, linF]
theorem lsF (c : Dev nD) (j : Fin 64) : rsF m c (ix2 0 j) = ∑ a : Fin 50000, hF m c a j := by
  have e : rsF m c = (dat10 (F := Ideal) (E21 m XX) c).arrAt 5 cfg10.N := (hF10_5 m c).symm
  rw [e, final10_5]
  exact Finset.sum_congr rfl fun a _ => linF m c a j
theorem lqF (c : Dev nD) (j : Fin 64) : rqF m c (ix2 0 j) = ∑ a : Fin 50000, hF m c a j * hF m c a j := by
  have e : rqF m c = (dat10 (F := Ideal) (E21 m XX) c).arrAt 6 cfg10.N := (hF10_6 m c).symm
  rw [e, final10_6]
  exact Finset.sum_congr rfl fun a _ => by rw [linF]

set_option quotPrecheck false in
local notation "N₀" => (Ideal.ofBits .f32 0x47435000#32 : EReal)
set_option quotPrecheck false in
local notation "ε₀" => (Ideal.ofBits .f32 0x3727C5AC#32 : EReal)

/-- THE LAYER, on the kernel's side. -/
theorem klayerF (c : Dev nD) (i : Fin 50000) (j : Fin 64) :
    (W24 m XX c main_v155 : S50000x64.Idx → EReal) (ix2 i j)
      = Cert.SpecForm.bnWith (hF m c) N₀ ε₀ (Cert.SpecForm.varSq (hF m c) N₀) (gF m c) (βF m c) i j := by
  rw [← hF11_5 m c, final11_apply]
  have e0 : arr11_0 (E23 m XX) c (ix2 i j) = hF m c i j := by
    have e : arr11_0 (E23 m XX) c = rhF m c := cy_main_v146_0_22_23 m c
    rw [e]
    exact lhF m c i j
  have e1 : arr11_1 (E23 m XX) c (ix2 0 j) = Cert.SpecForm.mean (hF m c) N₀ j :=
    (hostOps11_v148 (W22 m XX c) j).trans (congrArg (fun s => Ideal.div s N₀) (lsF m c j))
  have e2 : arr11_2 (E23 m XX) c (ix2 0 j) = Cert.SpecForm.varSq (hF m c) N₀ j :=
    (hostOps11_v152 (W22 m XX c) j).trans
      (congrArg₂ (fun q s => Ideal.div q N₀ - Ideal.div s N₀ * Ideal.div s N₀) (lqF m c j) (lsF m c j))
  have e3 : arr11_3 (E23 m XX) c (ix2 0 j) = gF m c (ix1 j) :=
    (hostOps11_v153 (W22 m XX c) j).trans (congrFun (cy_main_arg20_0_22 m c) (ix1 j))
  have e4 : arr11_4 (E23 m XX) c (ix2 0 j) = βF m c (ix1 j) :=
    (hostOps11_v154 (W22 m XX c) j).trans (congrFun (cy_main_arg21_0_22 m c) (ix1 j))
  rw [e0, e1, e2, e3, e4]
  rfl

end Cert.KernelIdeal.HandVal

end
-- ==== Proof.PayRelu.lean ====
/-
  What the linear-and-rectify kernel bodies compute at the ideal values, index by index.

  A body forms h = (x + agg) · W + b for its tile of rows (the matrix product accumulated into the zero splat, the bias
  row broadcast over the rows) and stores max (h, 0). Read at the extended reals every format change is the identity,
  so at row r and column j the stored value is

    max ((∑ k, (x (r, k) + agg (r, k)) · W (k, j)) + b (0, j), 0).
-/
import proofs.«144613_j17471926960174_1_alg».proof.Proof.Gen.KernelIdeal.Skeleton
import proofs.«144613_j17471926960174_1_alg».proof.Proof.LibDotSingle
import Idealize.ShloMosaic.PureOps.Ideal.Laws
import Idealize.ShloMosaic.Lib.ValueIdx
import Idealize.ShloMosaic.Lib.ValueLayout

noncomputable section

open scoped BigOperators

namespace Cert.KernelIdeal.PayVal

open Cert.KernelIdeal Cert.KernelIdeal.Gen Idealize.ShloMosaic Idealize.ShloMosaic.ValueIdx

/-! ## Region 12: 64 input columns, 256 output columns -/

/-- Coordinates of the product's operand indices: a kept axis reads the result index, the contracted axis the
    contraction index. -/
theorem k12_lhs0 (i : (⟨2, ![5000, 256]⟩ : Shape).Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide),
    dif_pos (show (0 : Fin S5000x64.rank) ∈ dot_S5000x64_S64x256_S5000x256_1_0_0_1_n_n.lhsNonContracting by decide)]
  rfl
theorem k12_rhs1 (i : (⟨2, ![5000, 256]⟩ : Shape).Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide),
    dif_pos (show (1 : Fin S64x256.rank) ∈ dot_S5000x64_S64x256_S5000x256_1_0_0_1_n_n.rhsNonContracting by decide)]
  rfl

/-- The left operand's index of the product at (r, j) and contraction coordinate k is (r, k). -/
theorem k12_lhsIdx (r : Fin 5000) (j : Fin 256) (k : Fin 64) :
    dot_S5000x64_S64x256_S5000x256_1_0_0_1_n_n.lhsIdx (ix2 r j) ((contrEquiv1 dot_S5000x64_S64x256_S5000x256_1_0_0_1_n_n 64 rfl rfl).symm k) = ix2 r k := by
  have hk := contrEquiv1_symm_val dot_S5000x64_S64x256_S5000x256_1_0_0_1_n_n 64 rfl rfl k
  refine funext fun a => Fin.ext ?_
  match a with
  | ⟨0, _⟩ => exact k12_lhs0 _ _
  | ⟨1, _⟩ => exact (dot_S5000x64_S64x256_S5000x256_1_0_0_1_n_n.lhsIdx_val_of_single rfl _ _).trans hk

/-- The right operand's index there is (k, j). -/
theorem k12_rhsIdx (r : Fin 5000) (j : Fin 256) (k : Fin 64) :
    dot_S5000x64_S64x256_S5000x256_1_0_0_1_n_n.rhsIdx (ix2 r j) ((contrEquiv1 dot_S5000x64_S64x256_S5000x256_1_0_0_1_n_n 64 rfl rfl).symm k) = ix2 k j := by
  have hk := contrEquiv1_symm_val dot_S5000x64_S64x256_S5000x256_1_0_0_1_n_n 64 rfl rfl k
  refine funext fun a => Fin.ext ?_
  match a with
  | ⟨0, _⟩ => exact (dot_S5000x64_S64x256_S5000x256_1_0_0_1_n_n.rhsIdx_val_of_single rfl _ _).trans hk
  | ⟨1, _⟩ => exact k12_rhs1 _ _

theorem k12_pay1_apply (v0 v2 : Vec Ideal S5000x64 .f32) (v6 : Vec Ideal S64x256 .f32) (v10 : Vec Ideal S1x256 .f32)
    (r : Fin 5000) (j : Fin 256) :
    k12_pay1 (F := Ideal) v0 v2 v6 v10 (ix2 r j)
      = max ((∑ k : Fin 64, (v0 (ix2 r k) + v2 (ix2 r k)) * v6 (ix2 k j)) + v10 (ix2 0 j)) 0 := by
  unfold k12_pay1
  simp only [shapeCast_self]
  rw [maximumf_apply, broadcast_apply, addf_apply, broadcastTo_1b_ab_apply]
  refine (congrArg (max _) Ideal.ofBits_zero_f32).trans (congrArg (fun t => max (t + v10 (ix2 0 j)) 0) ?_)
  refine Cert.LibDotSingle.matmul_zero_single dot_S5000x64_S64x256_S5000x256_1_0_0_1_n_n none 64 rfl rfl _ _ (ix2 r j)
    (fun k => v0 (ix2 r k) + v2 (ix2 r k)) (fun k => v6 (ix2 k j)) (fun k => ?_) (fun k => ?_)
  · rw [k12_lhsIdx, truncf_apply, addf_apply]
  · rw [k12_rhsIdx, truncf_apply]

/-! ## Region 13: 64 input columns, 128 output columns -/

/-- Coordinates of the product's operand indices: a kept axis reads the result index, the contracted axis the
    contraction index. -/
theorem k13_lhs0 (i : (⟨2, ![5000, 128]⟩ : Shape).Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl
theorem k13_rhs1 (i : (⟨2, ![5000, 128]⟩ : Shape).Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- The left operand's index of the product at (r, j) and contraction coordinate k is (r, k). -/
theorem k13_lhsIdx (r : Fin 5000) (j : Fin 128) (k : Fin 64) :
    dot_S5000x64_S64x128_S5000x128_1_0_0_1_n_n.lhsIdx (ix2 r j) ((contrEquiv1 dot_S5000x64_S64x128_S5000x128_1_0_0_1_n_n 64 rfl rfl).symm k) = ix2 r k := by
  have hk := contrEquiv1_symm_val dot_S5000x64_S64x128_S5000x128_1_0_0_1_n_n 64 rfl rfl k
  refine funext fun a => Fin.ext ?_
  match a with
  | ⟨0, _⟩ => exact k13_lhs0 _ _
  | ⟨1, _⟩ => exact (dot_S5000x64_S64x128_S5000x128_1_0_0_1_n_n.lhsIdx_val_of_single rfl _ _).trans hk

/-- The right operand's index there is (k, j). -/
theorem k13_rhsIdx (r : Fin 5000) (j : Fin 128) (k : Fin 64) :
    dot_S5000x64_S64x128_S5000x128_1_0_0_1_n_n.rhsIdx (ix2 r j) ((contrEquiv1 dot_S5000x64_S64x128_S5000x128_1_0_0_1_n_n 64 rfl rfl).symm k) = ix2 k j := by
  have hk := contrEquiv1_symm_val dot_S5000x64_S64x128_S5000x128_1_0_0_1_n_n 64 rfl rfl k
  refine funext fun a => Fin.ext ?_
  match a with
  | ⟨0, _⟩ => exact (dot_S5000x64_S64x128_S5000x128_1_0_0_1_n_n.rhsIdx_val_of_single rfl _ _).trans hk
  | ⟨1, _⟩ => exact k13_rhs1 _ _

theorem k13_pay1_apply (v0 v2 : Vec Ideal S5000x64 .f32) (v6 : Vec Ideal S64x128 .f32) (v10 : Vec Ideal S1x128 .f32)
    (r : Fin 5000) (j : Fin 128) :
    k13_pay1 (F := Ideal) v0 v2 v6 v10 (ix2 r j)
      = max ((∑ k : Fin 64, (v0 (ix2 r k) + v2 (ix2 r k)) * v6 (ix2 k j)) + v10 (ix2 0 j)) 0 := by
  unfold k13_pay1
  simp only [shapeCast_self]
  rw [maximumf_apply, broadcast_apply, addf_apply, broadcastTo_1b_ab_apply]
  refine (congrArg (max _) Ideal.ofBits_zero_f32).trans (congrArg (fun t => max (t + v10 (ix2 0 j)) 0) ?_)
  refine Cert.LibDotSingle.matmul_zero_single dot_S5000x64_S64x128_S5000x128_1_0_0_1_n_n none 64 rfl rfl _ _ (ix2 r j)
    (fun k => v0 (ix2 r k) + v2 (ix2 r k)) (fun k => v6 (ix2 k j)) (fun k => ?_) (fun k => ?_)
  · rw [k13_lhsIdx, truncf_apply, addf_apply]
  · rw [k13_rhsIdx, truncf_apply]

end Cert.KernelIdeal.PayVal

end
-- ==== Proof.ValRelu12.lean ====
/- From blocks to the array, region 12: after the linear-and-rectify region the output array holds, at row `i` and
   column `j`,  max ((∑ k, (x i k + agg i k) · W k j) + b j, 0)  of the four input arrays as the region finds them.
   Point `t` of the grid handles rows `5000 t … 5000 t + 4999`: its two input tiles are those rows of `x` and of
   `agg`, the weight matrix and the bias row are read whole at every point, and its output tile is written back to
   those rows; the ten tiles cover the array. -/
import proofs.«144613_j17471926960174_1_alg».proof.Proof.Relu12
import proofs.«144613_j17471926960174_1_alg».proof.Proof.PayRelu
import Idealize.ShloMosaic.Lib.Pipeline.Value
import Idealize.ShloMosaic.Lib.ValueIdx
import Idealize.ShloMosaic.Lib.Tactic

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-- The four input arrays as the region finds them, at their element type: `x`, `agg`, the weight matrix and the bias row. -/
abbrev arr12_0 (c : Dev nD) : S50000x64.Idx → EReal := V c main_v103
abbrev arr12_1 (c : Dev nD) : S50000x64.Idx → EReal := V c main_v169
abbrev arr12_2 (c : Dev nD) : S64x256.Idx → EReal := V c main_v170
abbrev arr12_3 (c : Dev nD) : S1x256.Idx → EReal := V c main_v171

/-- The printed index maps, decided over the grid: the tiled windows sit at block row `t`, the whole ones at block 0. -/
theorem index_facts12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0 :=
  (by decide +kernel : ∀ t : Fin grid12.N, _)

/-- What the output array holds at row `i`, column `j`: the rectified affine image of row `i` of `x + agg`. -/
def reluAt12 (c : Dev nD) (i : Fin 50000) (j : Fin 256) : EReal :=
  max ((∑ k : Fin 64, (arr12_0 V c (ix2 i k) + arr12_1 V c (ix2 i k)) * arr12_2 V c (ix2 k j)) + arr12_3 V c (ix2 0 j)) 0

/-- The whole output array. -/
def reluArr12 (c : Dev nD) : S50000x256.Idx → EReal := fun k => reluAt12 V c (k 0) (k 1)

/-- Input tile 0 at point `t` is rows `5000 t …` of its array. -/
theorem tile12_0_apply (c : Dev nD) (t : Fin cfg12.N) (r : Fin 5000) (k : Fin 64) (i : Fin 50000)
    (hi : i.val = 5000 * t.val + r.val) :
    (iblk12 V c 0 t : Vec Ideal S5000x64 .f32) (ix2 r k) = arr12_0 V c (ix2 i k) := by
  have hx := index_facts12 t
  unfold iblk12 arr12_0
  rw [View.read_apply]
  show V c main_v103 _ = V c main_v103 _
  congr 1
  funext a
  apply Fin.ext
  match a with
  | ⟨0, _⟩ => show win12_0.index t 0 * 5000 + 1 * r.val = i.val; omega
  | ⟨1, _⟩ => show win12_0.index t 1 * 64 + 1 * k.val = k.val; omega

/-- Input tile 1 at point `t` is rows `5000 t …` of its array. -/
theorem tile12_1_apply (c : Dev nD) (t : Fin cfg12.N) (r : Fin 5000) (k : Fin 64) (i : Fin 50000)
    (hi : i.val = 5000 * t.val + r.val) :
    (iblk12 V c 1 t : Vec Ideal S5000x64 .f32) (ix2 r k) = arr12_1 V c (ix2 i k) := by
  have hx := index_facts12 t
  unfold iblk12 arr12_1
  rw [View.read_apply]
  show V c main_v169 _ = V c main_v169 _
  congr 1
  funext a
  apply Fin.ext
  match a with
  | ⟨0, _⟩ => show win12_1.index t 0 * 5000 + 1 * r.val = i.val; omega
  | ⟨1, _⟩ => show win12_1.index t 1 * 64 + 1 * k.val = k.val; omega

/-- Window 2 is the whole weight matrix at every point. -/
theorem whole12_2_apply (c : Dev nD) (t : Fin cfg12.N) (k : Fin 64) (j : Fin 256) :
    (iblk12 V c 2 t : Vec Ideal S64x256 .f32) (ix2 k j) = arr12_2 V c (ix2 k j) := by
  have hx := index_facts12 t
  unfold iblk12 arr12_2
  rw [View.read_apply]
  show V c main_v170 _ = V c main_v170 _
  congr 1
  funext a
  apply Fin.ext
  match a with
  | ⟨0, _⟩ => show win12_2.index t 0 * 64 + 1 * k.val = k.val; omega
  | ⟨1, _⟩ => show win12_2.index t 1 * 256 + 1 * j.val = j.val; omega

/-- Window 3 is the whole bias row at every point. -/
theorem row12_3_apply (c : Dev nD) (t : Fin cfg12.N) (j : Fin 256) :
    (iblk12 V c 3 t : Vec Ideal S1x256 .f32) (ix2 0 j) = arr12_3 V c (ix2 0 j) := by
  have hx := index_facts12 t
  unfold iblk12 arr12_3
  rw [View.read_apply]
  show V c main_v171 _ = V c main_v171 _
  congr 1
  funext a
  apply Fin.ext
  match a with
  | ⟨0, _⟩ => show win12_3.index t 0 * 1 + 1 * 0 = 0; omega
  | ⟨1, _⟩ => show win12_3.index t 1 * 256 + 1 * j.val = j.val; omega

/-- The output tile of point `t`, entry by entry. -/
theorem out12_4_apply (c : Dev nD) (t : Fin cfg12.N) (r : Fin 5000) (j : Fin 256) (i : Fin 50000)
    (hi : i.val = 5000 * t.val + r.val) :
    out12_4 (iblk12 V c 0 t) (iblk12 V c 1 t) (iblk12 V c 2 t) (iblk12 V c 3 t) (ix2 r j) = reluAt12 V c i j := by
  rw [out12_4_eq, k12_pay1_apply, row12_3_apply]
  unfold reluAt12
  refine congrArg (fun s => max (s + arr12_3 V c (ix2 0 j)) 0) (Finset.sum_congr rfl fun k _ => ?_)
  rw [tile12_0_apply V c t r k i hi, tile12_1_apply V c t r k i hi, whole12_2_apply]

/-- What point `t` writes back is block `t` of the whole output array. -/
theorem flushed12_eq (c : Dev nD) (t : Fin cfg12.N) :
    (dat12 (F := Ideal) V c).flushed 4 t = ((cfg12.win 4).blk t).view.read (Elt Ideal) (reluArr12 V c) := by
  show (cfg12.win 4).cut (grid12.coords t) ((dat12 (F := Ideal) V c).after 4 t) = _
  rw [after12_4]
  have hx := index_facts12 t
  have hN : cfg12.N = 10 := N_12
  funext y
  have hy0 : (y 0).val < 5000 := (y 0).isLt
  have hy1 : (y 1).val < 256 := (y 1).isLt
  have ht : t.val < 10 := hN ▸ t.isLt
  have e := out12_4_apply V c t ⟨(y 0).val, hy0⟩ ⟨(y 1).val, hy1⟩ ⟨5000 * t.val + (y 0).val, by omega⟩ rfl
  have hy : (cfg12.win 4).xinj (grid12.coords t) y = ix2 (n0 := 5000) (n1 := 256) ⟨(y 0).val, hy0⟩ ⟨(y 1).val, hy1⟩ := by
    funext a
    match a with
    | ⟨0, _⟩ => rfl
    | ⟨1, _⟩ => rfl
  show out12_4 (F := Ideal) _ _ _ _ ((cfg12.win 4).xinj (grid12.coords t) y) = reluArr12 V c (((cfg12.win 4).blk t).view.emb y)
  rw [hy, e]
  unfold reluArr12
  refine congrArg₂ (reluAt12 V c) (Fin.ext ?_) (Fin.ext ?_)
  · show 5000 * t.val + (y 0).val = win12_4.index t 0 * 5000 + 1 * (y 0).val
    omega
  · show (y 1).val = win12_4.index t 1 * 256 + 1 * (y 1).val
    omega

/-- An index of the array is in point `t`'s block iff each coordinate is in the block's range on its axis. -/
theorem mem_blk12 (t : Fin cfg12.N) (i : S50000x256.Idx) :
    i ∈ ((cfg12.win 4).blk t).view.set ↔ ∀ a : Fin 2, win12_4.index t a * S5000x256.size a ≤ (i a).val ∧ (i a).val < win12_4.index t a * S5000x256.size a + S5000x256.size a := by
  show i ∈ ((View.whole main_v172).slice (win12_4.rect t)).set ↔ _
  rw [View.set_slice_whole, Rect.mem_set_unit]
  exact Iff.rfl

/-- Row `i` is in the block of point `i / 5000`: the ten tiles cover the array. -/
theorem cover12 (i : S50000x256.Idx) : ∃ t : Fin cfg12.N, (cfg12.win 4).flush t = true ∧ i ∈ ((cfg12.win 4).blk t).view.set := by
  have hi0 : (i 0).val < 50000 := (i 0).isLt
  have hi1 : (i 1).val < 256 := (i 1).isLt
  have hN : cfg12.N = 10 := N_12
  have hq : (i 0).val / 5000 < cfg12.N := by rw [hN]; omega
  refine ⟨⟨(i 0).val / 5000, hq⟩, flush12_4 _, ?_⟩
  rw [mem_blk12]
  have hx := index_facts12 ⟨(i 0).val / 5000, hq⟩
  have h40 : win12_4.index ⟨(i 0).val / 5000, hq⟩ (0 : Fin 2) = (i 0).val / 5000 := hx.2.2.2.2.2.2.2.2.1
  have h41 : win12_4.index ⟨(i 0).val / 5000, hq⟩ (1 : Fin 2) = 0 := hx.2.2.2.2.2.2.2.2.2
  intro a
  match a with
  | ⟨0, _⟩ =>
    show win12_4.index ⟨(i 0).val / 5000, hq⟩ (0 : Fin 2) * 5000 ≤ (i 0).val ∧ (i 0).val < win12_4.index ⟨(i 0).val / 5000, hq⟩ (0 : Fin 2) * 5000 + 5000
    rw [h40]
    omega
  | ⟨1, _⟩ =>
    show win12_4.index ⟨(i 0).val / 5000, hq⟩ (1 : Fin 2) * 256 ≤ (i 1).val ∧ (i 1).val < win12_4.index ⟨(i 0).val / 5000, hq⟩ (1 : Fin 2) * 256 + 256
    rw [h41]
    omega

/-- The output array after the region. -/
theorem final12 (c : Dev nD) : (dat12 (F := Ideal) V c).arrAt 4 cfg12.N = reluArr12 V c :=
  (dat12 (F := Ideal) V c).arrAt_eq_of_cover 4 (reluArr12 V c) (fun t _ => flushed12_eq V c t) (cover12)

/-- The output array after the region, index by index. -/
theorem final12_apply (c : Dev nD) (i : Fin 50000) (j : Fin 256) :
    (dat12 (F := Ideal) V c).arrAt 4 cfg12.N (ix2 i j)
      = max ((∑ k : Fin 64, (arr12_0 V c (ix2 i k) + arr12_1 V c (ix2 i k)) * arr12_2 V c (ix2 k j)) + arr12_3 V c (ix2 0 j)) 0 := by
  rw [final12]
  rfl

end Cert.KernelIdeal.HandVal
-- ==== Proof.KLayerG.lean ====
/-
  One layer of the network on the kernel's side, composed: the layer's output array as one closed expression of the
  layer's input, the edge list and the layer's parameters — through the host stretch that aggregates the neighbours and
  lays out the weights, the pipelined call that forms the linear map and ends in max · 0.
-/
import proofs.«144613_j17471926960174_1_alg».proof.Proof.Reg12
import proofs.«144613_j17471926960174_1_alg».proof.Proof.Carry
import proofs.«144613_j17471926960174_1_alg».proof.Proof.ValRelu12
import proofs.«144613_j17471926960174_1_alg».proof.Proof.HostEvenA
import proofs.«144613_j17471926960174_1_alg».proof.Proof.HostEvenB
import proofs.«144613_j17471926960174_1_alg».proof.Proof.HostOdd
import proofs.«144613_j17471926960174_1_alg».proof.Proof.SpecForm

set_option maxRecDepth 16384

noncomputable section

open scoped BigOperators

namespace Cert.KernelIdeal.HandVal

open Cert.KernelIdeal Cert.KernelIdeal.Gen Cert.KernelIdeal.Hand Cert.KernelIdeal.HostVal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's input, edges and parameters, and its linear part -/

abbrev xG (c : Dev nD) : S50000x64.Idx → EReal := W16 m XX c main_v103
abbrev eG (c : Dev nD) : (⟨S2x800000, .i32⟩ : BufTy).Contents (Elt Ideal) := W0 m c main_arg3
abbrev wG (c : Dev nD) : S256x64.Idx → EReal := W0 m c main_arg22
abbrev bG (c : Dev nD) : S256.Idx → EReal := W0 m c main_arg23

/-- The layer's linear part, row by row and column by column. -/
abbrev hG (c : Dev nD) : Fin 50000 → Fin 256 → EReal :=
  Cert.SpecForm.lin (xG m c) (agg64 (xG m c) (eG m c)) (wG m c) (bG m c)

/-- The call's four operands as it is entered: the input carried, the aggregation, the transposed weights and the bias
    row as the host stretch before it leaves them. -/
abbrev oxG (c : Dev nD) : S50000x64.Idx → EReal := W25 m XX c main_v103
abbrev oaG (c : Dev nD) : S50000x64.Idx → EReal := W25 m XX c main_v169
abbrev owG (c : Dev nD) : S64x256.Idx → EReal := W25 m XX c main_v170
abbrev obG (c : Dev nD) : S1x256.Idx → EReal := W25 m XX c main_v171

theorem opxG (c : Dev nD) : oxG m c = xG m c := cy_main_v103_16_25 m c
theorem opaG (c : Dev nD) : oaG m c = agg64 (xG m c) (eG m c) := by
  have h := hostOps12_v169 (W24 m XX c)
  rw [show (W24 m XX c) (Proc.devRef .tc main_v103) = W16 m XX c main_v103 from cy_main_v103_16_24 m c, show (W24 m XX c) (Proc.devRef .tc main_arg3) = W0 m c main_arg3 from cy_main_arg3_0_24 m c] at h
  exact h
theorem opwG (c : Dev nD) (k : Fin 64) (j : Fin 256) : owG m c (ix2 k j) = wG m c (ix2 j k) := by
  have h := hostOps12_v170 (W24 m XX c) k j
  rw [show (W24 m XX c) (Proc.devRef .tc main_arg22) = W0 m c main_arg22 from cy_main_arg22_0_24 m c] at h
  exact h
theorem opbG (c : Dev nD) (j : Fin 256) : obG m c (ix2 0 j) = bG m c (ix1 j) := by
  have h := hostOps12_v171 (W24 m XX c) j
  rw [show (W24 m XX c) (Proc.devRef .tc main_arg23) = W0 m c main_arg23 from cy_main_arg23_0_24 m c] at h
  exact h

/-- THE LAYER, on the kernel's side. -/
theorem klayerG (c : Dev nD) (i : Fin 50000) (j : Fin 256) :
    (W26 m XX c main_v172 : S50000x256.Idx → EReal) (ix2 i j) = Cert.SpecForm.relu (hG m c) i j := by
  rw [← hF12_4 m c, final12_apply]
  show max ((∑ k : Fin 64, (oxG m c (ix2 i k) + oaG m c (ix2 i k)) * owG m c (ix2 k j))
      + obG m c (ix2 0 j)) 0
    = max ((∑ k : Fin 64, (xG m c (ix2 i k) + agg64 (xG m c) (eG m c) (ix2 i k)) * wG m c (ix2 j k)) + bG m c (ix1 j)) 0
  rw [opxG, opaG, opbG]
  exact congrArg (fun s => max (s + bG m c (ix1 j)) 0) (Finset.sum_congr rfl fun k _ => by rw [opwG])

end Cert.KernelIdeal.HandVal

end
-- ==== Proof.ValRelu13.lean ====
/- From blocks to the array, region 13: after the linear-and-rectify region the output array holds, at row `i` and
   column `j`,  max ((∑ k, (x i k + agg i k) · W k j) + b j, 0)  of the four input arrays as the region finds them.
   Point `t` of the grid handles rows `5000 t … 5000 t + 4999`: its two input tiles are those rows of `x` and of
   `agg`, the weight matrix and the bias row are read whole at every point, and its output tile is written back to
   those rows; the ten tiles cover the array. -/
import proofs.«144613_j17471926960174_1_alg».proof.Proof.Relu13
import proofs.«144613_j17471926960174_1_alg».proof.Proof.PayRelu
import Idealize.ShloMosaic.Lib.Pipeline.Value
import Idealize.ShloMosaic.Lib.ValueIdx
import Idealize.ShloMosaic.Lib.Tactic

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-- The four input arrays as the region finds them, at their element type: `x`, `agg`, the weight matrix and the bias row. -/
abbrev arr13_0 (c : Dev nD) : S50000x64.Idx → EReal := V c main_v129
abbrev arr13_1 (c : Dev nD) : S50000x64.Idx → EReal := V c main_v186
abbrev arr13_2 (c : Dev nD) : S64x128.Idx → EReal := V c main_v187
abbrev arr13_3 (c : Dev nD) : S1x128.Idx → EReal := V c main_v188

/-- The printed index maps, decided over the grid: the tiled windows sit at block row `t`, the whole ones at block 0. -/
theorem index_facts13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0 :=
  (by decide +kernel : ∀ t : Fin grid13.N, _)

/-- What the output array holds at row `i`, column `j`: the rectified affine image of row `i` of `x + agg`. -/
def reluAt13 (c : Dev nD) (i : Fin 50000) (j : Fin 128) : EReal :=
  max ((∑ k : Fin 64, (arr13_0 V c (ix2 i k) + arr13_1 V c (ix2 i k)) * arr13_2 V c (ix2 k j)) + arr13_3 V c (ix2 0 j)) 0

/-- The whole output array. -/
def reluArr13 (c : Dev nD) : S50000x128.Idx → EReal := fun k => reluAt13 V c (k 0) (k 1)

/-- Input tile 0 at point `t` is rows `5000 t …` of its array. -/
theorem tile13_0_apply (c : Dev nD) (t : Fin cfg13.N) (r : Fin 5000) (k : Fin 64) (i : Fin 50000)
    (hi : i.val = 5000 * t.val + r.val) :
    (iblk13 V c 0 t : Vec Ideal S5000x64 .f32) (ix2 r k) = arr13_0 V c (ix2 i k) := by
  have hx := index_facts13 t
  unfold iblk13 arr13_0
  rw [View.read_apply]
  show V c main_v129 _ = V c main_v129 _
  congr 1
  funext a
  apply Fin.ext
  match a with
  | ⟨0, _⟩ => show win13_0.index t 0 * 5000 + 1 * r.val = i.val; omega
  | ⟨1, _⟩ => show win13_0.index t 1 * 64 + 1 * k.val = k.val; omega

/-- Input tile 1 at point `t` is rows `5000 t …` of its array. -/
theorem tile13_1_apply (c : Dev nD) (t : Fin cfg13.N) (r : Fin 5000) (k : Fin 64) (i : Fin 50000)
    (hi : i.val = 5000 * t.val + r.val) :
    (iblk13 V c 1 t : Vec Ideal S5000x64 .f32) (ix2 r k) = arr13_1 V c (ix2 i k) := by
  have hx := index_facts13 t
  unfold iblk13 arr13_1
  rw [View.read_apply]
  show V c main_v186 _ = V c main_v186 _
  congr 1
  funext a
  apply Fin.ext
  match a with
  | ⟨0, _⟩ => show win13_1.index t 0 * 5000 + 1 * r.val = i.val; omega
  | ⟨1, _⟩ => show win13_1.index t 1 * 64 + 1 * k.val = k.val; omega

/-- Window 2 is the whole weight matrix at every point. -/
theorem whole13_2_apply (c : Dev nD) (t : Fin cfg13.N) (k : Fin 64) (j : Fin 128) :
    (iblk13 V c 2 t : Vec Ideal S64x128 .f32) (ix2 k j) = arr13_2 V c (ix2 k j) := by
  have hx := index_facts13 t
  unfold iblk13 arr13_2
  rw [View.read_apply]
  show V c main_v187 _ = V c main_v187 _
  congr 1
  funext a
  apply Fin.ext
  match a with
  | ⟨0, _⟩ => show win13_2.index t 0 * 64 + 1 * k.val = k.val; omega
  | ⟨1, _⟩ => show win13_2.index t 1 * 128 + 1 * j.val = j.val; omega

/-- Window 3 is the whole bias row at every point. -/
theorem row13_3_apply (c : Dev nD) (t : Fin cfg13.N) (j : Fin 128) :
    (iblk13 V c 3 t : Vec Ideal S1x128 .f32) (ix2 0 j) = arr13_3 V c (ix2 0 j) := by
  have hx := index_facts13 t
  unfold iblk13 arr13_3
  rw [View.read_apply]
  show V c main_v188 _ = V c main_v188 _
  congr 1
  funext a
  apply Fin.ext
  match a with
  | ⟨0, _⟩ => show win13_3.index t 0 * 1 + 1 * 0 = 0; omega
  | ⟨1, _⟩ => show win13_3.index t 1 * 128 + 1 * j.val = j.val; omega

/-- The output tile of point `t`, entry by entry. -/
theorem out13_4_apply (c : Dev nD) (t : Fin cfg13.N) (r : Fin 5000) (j : Fin 128) (i : Fin 50000)
    (hi : i.val = 5000 * t.val + r.val) :
    out13_4 (iblk13 V c 0 t) (iblk13 V c 1 t) (iblk13 V c 2 t) (iblk13 V c 3 t) (ix2 r j) = reluAt13 V c i j := by
  rw [out13_4_eq, k13_pay1_apply, row13_3_apply]
  unfold reluAt13
  refine congrArg (fun s => max (s + arr13_3 V c (ix2 0 j)) 0) (Finset.sum_congr rfl fun k _ => ?_)
  rw [tile13_0_apply V c t r k i hi, tile13_1_apply V c t r k i hi, whole13_2_apply]

/-- What point `t` writes back is block `t` of the whole output array. -/
theorem flushed13_eq (c : Dev nD) (t : Fin cfg13.N) :
    (dat13 (F := Ideal) V c).flushed 4 t = ((cfg13.win 4).blk t).view.read (Elt Ideal) (reluArr13 V c) := by
  show (cfg13.win 4).cut (grid13.coords t) ((dat13 (F := Ideal) V c).after 4 t) = _
  rw [after13_4]
  have hx := index_facts13 t
  have hN : cfg13.N = 10 := N_13
  funext y
  have hy0 : (y 0).val < 5000 := (y 0).isLt
  have hy1 : (y 1).val < 128 := (y 1).isLt
  have ht : t.val < 10 := hN ▸ t.isLt
  have e := out13_4_apply V c t ⟨(y 0).val, hy0⟩ ⟨(y 1).val, hy1⟩ ⟨5000 * t.val + (y 0).val, by omega⟩ rfl
  have hy : (cfg13.win 4).xinj (grid13.coords t) y = ix2 (n0 := 5000) (n1 := 128) ⟨(y 0).val, hy0⟩ ⟨(y 1).val, hy1⟩ := by
    funext a
    match a with
    | ⟨0, _⟩ => rfl
    | ⟨1, _⟩ => rfl
  show out13_4 (F := Ideal) _ _ _ _ ((cfg13.win 4).xinj (grid13.coords t) y) = reluArr13 V c (((cfg13.win 4).blk t).view.emb y)
  rw [hy, e]
  unfold reluArr13
  refine congrArg₂ (reluAt13 V c) (Fin.ext ?_) (Fin.ext ?_)
  · show 5000 * t.val + (y 0).val = win13_4.index t 0 * 5000 + 1 * (y 0).val
    omega
  · show (y 1).val = win13_4.index t 1 * 128 + 1 * (y 1).val
    omega

/-- An index of the array is in point `t`'s block iff each coordinate is in the block's range on its axis. -/
theorem mem_blk13 (t : Fin cfg13.N) (i : S50000x128.Idx) :
    i ∈ ((cfg13.win 4).blk t).view.set ↔ ∀ a : Fin 2, win13_4.index t a * S5000x128.size a ≤ (i a).val ∧ (i a).val < win13_4.index t a * S5000x128.size a + S5000x128.size a := by
  show i ∈ ((View.whole main_v189).slice (win13_4.rect t)).set ↔ _
  rw [View.set_slice_whole, Rect.mem_set_unit]
  exact Iff.rfl

/-- Row `i` is in the block of point `i / 5000`: the ten tiles cover the array. -/
theorem cover13 (i : S50000x128.Idx) : ∃ t : Fin cfg13.N, (cfg13.win 4).flush t = true ∧ i ∈ ((cfg13.win 4).blk t).view.set := by
  have hi0 : (i 0).val < 50000 := (i 0).isLt
  have hi1 : (i 1).val < 128 := (i 1).isLt
  have hN : cfg13.N = 10 := N_13
  have hq : (i 0).val / 5000 < cfg13.N := by rw [hN]; omega
  refine ⟨⟨(i 0).val / 5000, hq⟩, flush13_4 _, ?_⟩
  rw [mem_blk13]
  have hx := index_facts13 ⟨(i 0).val / 5000, hq⟩
  have h40 : win13_4.index ⟨(i 0).val / 5000, hq⟩ (0 : Fin 2) = (i 0).val / 5000 := hx.2.2.2.2.2.2.2.2.1
  have h41 : win13_4.index ⟨(i 0).val / 5000, hq⟩ (1 : Fin 2) = 0 := hx.2.2.2.2.2.2.2.2.2
  intro a
  match a with
  | ⟨0, _⟩ =>
    show win13_4.index ⟨(i 0).val / 5000, hq⟩ (0 : Fin 2) * 5000 ≤ (i 0).val ∧ (i 0).val < win13_4.index ⟨(i 0).val / 5000, hq⟩ (0 : Fin 2) * 5000 + 5000
    rw [h40]
    omega
  | ⟨1, _⟩ =>
    show win13_4.index ⟨(i 0).val / 5000, hq⟩ (1 : Fin 2) * 128 ≤ (i 1).val ∧ (i 1).val < win13_4.index ⟨(i 0).val / 5000, hq⟩ (1 : Fin 2) * 128 + 128
    rw [h41]
    omega

/-- The output array after the region. -/
theorem final13 (c : Dev nD) : (dat13 (F := Ideal) V c).arrAt 4 cfg13.N = reluArr13 V c :=
  (dat13 (F := Ideal) V c).arrAt_eq_of_cover 4 (reluArr13 V c) (fun t _ => flushed13_eq V c t) (cover13)

/-- The output array after the region, index by index. -/
theorem final13_apply (c : Dev nD) (i : Fin 50000) (j : Fin 128) :
    (dat13 (F := Ideal) V c).arrAt 4 cfg13.N (ix2 i j)
      = max ((∑ k : Fin 64, (arr13_0 V c (ix2 i k) + arr13_1 V c (ix2 i k)) * arr13_2 V c (ix2 k j)) + arr13_3 V c (ix2 0 j)) 0 := by
  rw [final13]
  rfl

end Cert.KernelIdeal.HandVal
-- ==== Proof.KLayerH.lean ====
/-
  One layer of the network on the kernel's side, composed: the layer's output array as one closed expression of the
  layer's input, the edge list and the layer's parameters — through the host stretch that aggregates the neighbours and
  lays out the weights, the pipelined call that forms the linear map and ends in max · 0.
-/
import proofs.«144613_j17471926960174_1_alg».proof.Proof.Reg13
import proofs.«144613_j17471926960174_1_alg».proof.Proof.Carry
import proofs.«144613_j17471926960174_1_alg».proof.Proof.ValRelu13
import proofs.«144613_j17471926960174_1_alg».proof.Proof.HostEvenA
import proofs.«144613_j17471926960174_1_alg».proof.Proof.HostEvenB
import proofs.«144613_j17471926960174_1_alg».proof.Proof.HostOdd
import proofs.«144613_j17471926960174_1_alg».proof.Proof.SpecForm

set_option maxRecDepth 16384

noncomputable section

open scoped BigOperators

namespace Cert.KernelIdeal.HandVal

open Cert.KernelIdeal Cert.KernelIdeal.Gen Cert.KernelIdeal.Hand Cert.KernelIdeal.HostVal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The layer's input, edges and parameters, and its linear part -/

abbrev xH (c : Dev nD) : S50000x64.Idx → EReal := W20 m XX c main_v129
abbrev eH (c : Dev nD) : (⟨S2x800000, .i32⟩ : BufTy).Contents (Elt Ideal) := W0 m c main_arg4
abbrev wH (c : Dev nD) : S128x64.Idx → EReal := W0 m c main_arg24
abbrev bH (c : Dev nD) : S128.Idx → EReal := W0 m c main_arg25

/-- The layer's linear part, row by row and column by column. -/
abbrev hH (c : Dev nD) : Fin 50000 → Fin 128 → EReal :=
  Cert.SpecForm.lin (xH m c) (agg64 (xH m c) (eH m c)) (wH m c) (bH m c)

/-- The call's four operands as it is entered: the input carried, the aggregation, the transposed weights and the bias
    row as the host stretch before it leaves them. -/
abbrev oxH (c : Dev nD) : S50000x64.Idx → EReal := W27 m XX c main_v129
abbrev oaH (c : Dev nD) : S50000x64.Idx → EReal := W27 m XX c main_v186
abbrev owH (c : Dev nD) : S64x128.Idx → EReal := W27 m XX c main_v187
abbrev obH (c : Dev nD) : S1x128.Idx → EReal := W27 m XX c main_v188

theorem opxH (c : Dev nD) : oxH m c = xH m c := cy_main_v129_20_27 m c
theorem opaH (c : Dev nD) : oaH m c = agg64 (xH m c) (eH m c) := by
  have h := hostOps13_v186 (W26 m XX c)
  rw [show (W26 m XX c) (Proc.devRef .tc main_v129) = W20 m XX c main_v129 from cy_main_v129_20_26 m c, show (W26 m XX c) (Proc.devRef .tc main_arg4) = W0 m c main_arg4 from cy_main_arg4_0_26 m c] at h
  exact h
theorem opwH (c : Dev nD) (k : Fin 64) (j : Fin 128) : owH m c (ix2 k j) = wH m c (ix2 j k) := by
  have h := hostOps13_v187 (W26 m XX c) k j
  rw [show (W26 m XX c) (Proc.devRef .tc main_arg24) = W0 m c main_arg24 from cy_main_arg24_0_26 m c] at h
  exact h
theorem opbH (c : Dev nD) (j : Fin 128) : obH m c (ix2 0 j) = bH m c (ix1 j) := by
  have h := hostOps13_v188 (W26 m XX c) j
  rw [show (W26 m XX c) (Proc.devRef .tc main_arg25) = W0 m c main_arg25 from cy_main_arg25_0_26 m c] at h
  exact h

/-- THE LAYER, on the kernel's side. -/
theorem klayerH (c : Dev nD) (i : Fin 50000) (j : Fin 128) :
    (W28 m XX c main_v189 : S50000x128.Idx → EReal) (ix2 i j) = Cert.SpecForm.relu (hH m c) i j := by
  rw [← hF13_4 m c, final13_apply]
  show max ((∑ k : Fin 64, (oxH m c (ix2 i k) + oaH m c (ix2 i k)) * owH m c (ix2 k j))
      + obH m c (ix2 0 j)) 0
    = max ((∑ k : Fin 64, (xH m c (ix2 i k) + agg64 (xH m c) (eH m c) (ix2 i k)) * wH m c (ix2 j k)) + bH m c (ix1 j)) 0
  rw [opxH, opaH, opbH]
  exact congrArg (fun s => max (s + bH m c (ix1 j)) 0) (Finset.sum_congr rfl fun k _ => by rw [opwH])

end Cert.KernelIdeal.HandVal

end
-- ==== Proof.RefAgg.lean ====
import proofs.«144613_j17471926960174_1_alg».proof.Proof.RefReadP

noncomputable section

open scoped BigOperators

namespace Cert.ReferenceIdeal.HandRef

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! The neighbour aggregation `segment_sum(x[edge[0]], edge[1])` as the reference spells it: the edge list's two rows become
    two columns of row numbers, the rows of `x` named by the first are gathered, and they are added into the rows of a
    zero array named by the second. The same seventeen operations occur once per layer; they are named here once per
    width of `x`, and every layer's own spelling is that term by unfolding definitions. -/

/-- The edge list's first row as a column of row numbers: a negative entry is taken from the end (`e + 50000`). -/
def edgeSrc (e : (⟨S2x800000, .i32⟩ : BufTy).Contents (Elt Ideal)) : (⟨S800000x1, .i32⟩ : BufTy).Contents (Elt Ideal) :=
  broadcastInDim S800000x1 ![0] bcast_S800000_S800000x1_0
    (select
      (cmpi .slt (shapeCast _ (extractStridedSlice S1x800000 ![0, 0] e slices_S2x800000_S1x800000_0_0) shapeCasts_S1x800000_S800000)
        (broadcastInDim S800000 ![] bcast_S_S800000 (constantI S_ 32 0#32)))
      (addi (shapeCast _ (extractStridedSlice S1x800000 ![0, 0] e slices_S2x800000_S1x800000_0_0) shapeCasts_S1x800000_S800000)
        (broadcastInDim S800000 ![] bcast_S_S800000 (constantI S_ 32 50000#32)))
      (shapeCast _ (extractStridedSlice S1x800000 ![0, 0] e slices_S2x800000_S1x800000_0_0) shapeCasts_S1x800000_S800000))

/-- The edge list's second row as a column of row numbers. -/
def edgeDst (e : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![1, 0] e slices_S2x800000_S1x800000_1_0) shapeCasts_S1x800000_S800000)

/-- The neighbour aggregation of a 256-wide feature array: row `edgeSrc` of `x` is added into row `edgeDst` of a zero
    array, edge by edge. -/
def aggR256 (x : (⟨S50000x256, .f32⟩ : BufTy).Contents (Elt Ideal)) (e : (⟨S2x800000, .i32⟩ : BufTy).Contents (Elt Ideal)) :
    (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (edgeDst e)
    (Host.gather gather_S50000x256_S800000x1_S800000x256_1_0_n_n_0_1_1256 x (edgeSrc e))

/-- The same for a 128-wide feature array. -/
def aggR128 (x : (⟨S50000x128, .f32⟩ : BufTy).Contents (Elt Ideal)) (e : (⟨S2x800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (edgeDst e)
    (Host.gather gather_S50000x128_S800000x1_S800000x128_1_0_n_n_0_1_1128 x (edgeSrc e))

/-- The same for a 64-wide feature array. -/
def aggR64 (x : (⟨S50000x64, .f32⟩ : BufTy).Contents (Elt Ideal)) (e : (⟨S2x800000, .i32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (edgeDst e)
    (Host.gather gather_S50000x64_S800000x1_S800000x64_1_0_n_n_0_1_164 x (edgeSrc e))

/-- The aggregation the reference computes for layer 1 is the aggregation of the layer's input. -/
theorem val_main_v13_eq_agg (x0 : (⟨S50000x256, .f32⟩ : BufTy).Contents (Elt Ideal)) (x3 : (⟨S2x800000, .i32⟩ : BufTy).Contents (Elt Ideal)) :
    val_main_v13 (F := Ideal) x0 x3 = aggR256 (x0) x3 := rfl

/-- The aggregation the reference computes for layer 2 is the aggregation of the layer's input. -/
theorem val_main_v59_eq_agg (x1 : (⟨S50000x128, .f32⟩ : BufTy).Contents (Elt Ideal)) (x4 : (⟨S2x800000, .i32⟩ : BufTy).Contents (Elt Ideal)) :
    val_main_v59 (F := Ideal) x1 x4 = aggR128 (x1) x4 := rfl

/-- The aggregation the reference computes for layer 3 is the aggregation of the layer's input. -/
theorem val_main_v105_eq_agg (x2 : (⟨S50000x256, .f32⟩ : BufTy).Contents (Elt Ideal)) (x5 : (⟨S2x800000, .i32⟩ : BufTy).Contents (Elt Ideal)) :
    val_main_v105 (F := Ideal) x2 x5 = aggR256 (x2) x5 := rfl

/-- The aggregation the reference computes for layer 4 is the aggregation of the layer's input. -/
theorem val_main_v151_eq_agg (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 x8 x9 : (⟨S128, .f32⟩ : BufTy).Contents (Elt Ideal)) :
    val_main_v151 (F := Ideal) x0 x3 x6 x7 x8 x9 = aggR128 (val_main_v45 (F := Ideal) x0 x3 x6 x7 x8 x9) x3 := rfl

/-- The aggregation the reference computes for layer 5 is the aggregation of the layer's input. -/
theorem val_main_v197_eq_agg (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 x12 x13 : (⟨S128, .f32⟩ : BufTy).Contents (Elt Ideal)) :
    val_main_v197 (F := Ideal) x1 x4 x10 x11 x12 x13 = aggR128 (val_main_v91 (F := Ideal) x1 x4 x10 x11 x12 x13) x4 := rfl

/-- The aggregation the reference computes for layer 6 is the aggregation of the layer's input. -/
theorem val_main_v243_eq_agg (x2 : (⟨S50000x256, .f32⟩ : BufTy).Contents (Elt Ideal)) (x5 : (⟨S2x800000, .i32⟩ : BufTy).Contents (Elt Ideal)) (x14 : (⟨S128x256, .f32⟩ : BufTy).Contents (Elt Ideal)) (x15 x16 x17 : (⟨S128, .f32⟩ : BufTy).Contents (Elt Ideal)) :
    val_main_v243 (F := Ideal) x2 x5 x14 x15 x16 x17 = aggR128 (val_main_v137 (F := Ideal) x2 x5 x14 x15 x16 x17) x5 := rfl

/-- The aggregation the reference computes for layer 7 is the aggregation of the layer's input. -/
theorem val_main_v289_eq_agg (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 x8 x9 : (⟨S128, .f32⟩ : BufTy).Contents (Elt Ideal)) (x18 : (⟨S64x128, .f32⟩ : BufTy).Contents (Elt Ideal)) (x19 x20 x21 : (⟨S64, .f32⟩ : BufTy).Contents (Elt Ideal)) :
    val_main_v289 (F := Ideal) x0 x3 x6 x7 x8 x9 x18 x19 x20 x21 = aggR64 (val_main_v183 (F := Ideal) x0 x3 x6 x7 x8 x9 x18 x19 x20 x21) x3 := rfl

/-- The aggregation the reference computes for layer 8 is the aggregation of the layer's input. -/
theorem val_main_v310_eq_agg (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 x12 x13 : (⟨S128, .f32⟩ : BufTy).Contents (Elt Ideal)) (x18 : (⟨S64x128, .f32⟩ : BufTy).Contents (Elt Ideal)) (x19 x20 x21 : (⟨S64, .f32⟩ : BufTy).Contents (Elt Ideal)) :
    val_main_v310 (F := Ideal) x1 x4 x10 x11 x12 x13 x18 x19 x20 x21 = aggR64 (val_main_v229 (F := Ideal) x1 x4 x10 x11 x12 x13 x18 x19 x20 x21) x4 := rfl

end Cert.ReferenceIdeal.HandRef

end
-- ==== Proof.RefLayers.lean ====
import proofs.«144613_j17471926960174_1_alg».proof.Proof.RefAgg
import proofs.«144613_j17471926960174_1_alg».proof.Proof.SpecForm

noncomputable section

open scoped BigOperators

namespace Cert.ReferenceIdeal.HandRef

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! The reference program read at an entry, layer by layer. Each of the reference's eight layers is, at row `i` and
    column `j`, the plain sum the specification names: the linear part `Σ_k (x i k + a i k) · W j k + b j` over the
    layer's input `x` and its neighbour aggregation `a`; for the six normalized layers, that linear part minus its
    column mean, times the reciprocal square root of its column variance plus `ε`, times `γ`, plus `β`, cut at zero;
    for the last two layers, the linear part cut at zero. A deeper layer's input is the previous layer's whole output,
    which stays a named term. -/

/-! ## The first normalized layer (output `val_main_v45`) -/

/-- The layer's linear part at an entry: the sum over the input width of (input + aggregation) times the weight, plus the bias. -/
theorem layer1_lin (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 : (⟨S128, .f32⟩ : BufTy).Contents (Elt Ideal)) (i : Fin 50000) (j : Fin 128) :
    val_main_v19 (F := Ideal) x0 x3 x6 x7 (ix2 i j) = Cert.SpecForm.lin x0 (aggR256 x0 x3) x6 x7 i j := by
  rw [val_main_v19_apply, val_main_v16_apply, val_main_v18_apply, val_main_v17_apply, Ideal.addf_def]
  unfold Cert.SpecForm.lin
  have eb : idx_main_v17 (idx_main_v18 (ix2 i j)) = ix1 j := funext fun a => Fin.ext (by match a with | ⟨0, _⟩ => rfl)
  rw [eb]
  have h : ∀ k : Fin 256, val_main_v14 (F := Ideal) x0 x3 (lidx_main_v16 (ix2 i j) k) * val_main_v15 (F := Ideal) x6 (ridx_main_v16 (ix2 i j) k)
      = (x0 (ix2 i k) + aggR256 x0 x3 (ix2 i k)) * x6 (ix2 j k) := fun k => by
    have e1 : lidx_main_v16 (ix2 i j) k = ix2 i k := funext fun a => Fin.ext (by match a with | ⟨0, _⟩ => rfl | ⟨1, _⟩ => rfl)
    have e2 : idx_main_v15 (ridx_main_v16 (ix2 i j) k) = ix2 j k := funext fun a => Fin.ext (by match a with | ⟨0, _⟩ => rfl | ⟨1, _⟩ => rfl)
    rw [val_main_v14_apply, val_main_v15_apply, Ideal.addf_def, val_main_v13_eq_agg, e1, e2]
  simp only [h]

/-- The column mean of the linear part. -/
theorem layer1_mean (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 : (⟨S128, .f32⟩ : BufTy).Contents (Elt Ideal)) (j : Fin 128) :
    val_main_v22 (F := Ideal) x0 x3 x6 x7 (ix1 j) = Cert.SpecForm.mean (Cert.SpecForm.lin x0 (aggR256 x0 x3) x6 x7) (Ideal.ofBits .f32 0x47435000#32) j := by
  rw [val_main_v22_apply, val_main_v20_apply, val_main_v21_apply, val_main_cst_2_apply, val_main_cst_1_apply,
    Ideal.hostDivf_def, Ideal.ofBits_def, Ideal.ofBits_def, Ideal.ofBits_zero_f32, zero_add]
  unfold Cert.SpecForm.mean
  have h : ∀ a : Fin 50000, val_main_v19 (F := Ideal) x0 x3 x6 x7 (idx_main_v20 (ix1 j) a) = Cert.SpecForm.lin x0 (aggR256 x0 x3) x6 x7 a j := fun a => by
    have e : idx_main_v20 (ix1 j) a = ix2 a j := funext fun a => Fin.ext (by match a with | ⟨0, _⟩ => rfl | ⟨1, _⟩ => rfl)
    rw [e, layer1_lin]
  simp only [h]

/-- The column variance of the linear part, as the mean of the squared deviations from the column mean. -/
theorem layer1_var (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 : (⟨S128, .f32⟩ : BufTy).Contents (Elt Ideal)) (j : Fin 128) :
    val_main_v29 (F := Ideal) x0 x3 x6 x7 (ix1 j) = Cert.SpecForm.varDev (Cert.SpecForm.lin x0 (aggR256 x0 x3) x6 x7) (Ideal.ofBits .f32 0x47435000#32) j := by
  rw [val_main_v29_apply, val_main_v27_apply, val_main_v28_apply, val_main_cst_4_apply, val_main_cst_3_apply,
    Ideal.hostDivf_def, Ideal.ofBits_def, Ideal.ofBits_def, Ideal.ofBits_zero_f32, zero_add]
  unfold Cert.SpecForm.varDev
  have h : ∀ a : Fin 50000, val_main_v26 (F := Ideal) x0 x3 x6 x7 (idx_main_v27 (ix1 j) a)
      = (Cert.SpecForm.lin x0 (aggR256 x0 x3) x6 x7 a j - Cert.SpecForm.mean (Cert.SpecForm.lin x0 (aggR256 x0 x3) x6 x7) (Ideal.ofBits .f32 0x47435000#32) j) * (Cert.SpecForm.lin x0 (aggR256 x0 x3) x6 x7 a j - Cert.SpecForm.mean (Cert.SpecForm.lin x0 (aggR256 x0 x3) x6 x7) (Ideal.ofBits .f32 0x47435000#32) j) := fun a => by
    have e : idx_main_v27 (ix1 j) a = ix2 a j := funext fun a => Fin.ext (by match a with | ⟨0, _⟩ => rfl | ⟨1, _⟩ => rfl)
    have em : idx_main_v23 (idx_main_v24 (ix2 a j)) = ix1 j := funext fun a => Fin.ext (by match a with | ⟨0, _⟩ => rfl)
    rw [e, val_main_v26_apply, val_main_v25_apply, val_main_v24_apply, val_main_v23_apply, em, layer1_lin, layer1_mean, Ideal.mulf_def, Ideal.subf_def]
  simp only [h]

/-- The layer at an entry: the linear part, normalized by its column mean and variance, scaled, shifted, and cut at zero. -/
theorem layer1_apply (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 x8 x9 : (⟨S128, .f32⟩ : BufTy).Contents (Elt Ideal)) (i : Fin 50000) (j : Fin 128) :
    val_main_v45 (F := Ideal) x0 x3 x6 x7 x8 x9 (ix2 i j)
      = Cert.SpecForm.bnWith (Cert.SpecForm.lin x0 (aggR256 x0 x3) x6 x7) (Ideal.ofBits .f32 0x47435000#32) (Ideal.ofBits .f32 0x3727C5AC#32) (Cert.SpecForm.varDev (Cert.SpecForm.lin x0 (aggR256 x0 x3) x6 x7) (Ideal.ofBits .f32 0x47435000#32)) x8 x9 i j := by
  have em : idx_main_v30 (idx_main_v31 (ix2 i j)) = ix1 j := funext fun a => Fin.ext (by match a with | ⟨0, _⟩ => rfl)
  have er : idx_main_v36 (idx_main_v37 (ix2 i j)) = ix1 j := funext fun a => Fin.ext (by match a with | ⟨0, _⟩ => rfl)
  have eg : idx_main_v39 (idx_main_v40 (ix2 i j)) = ix1 j := funext fun a => Fin.ext (by match a with | ⟨0, _⟩ => rfl)
  have eb : idx_main_v42 (idx_main_v43 (ix2 i j)) = ix1 j := funext fun a => Fin.ext (by match a with | ⟨0, _⟩ => rfl)
  rw [val_main_v45_apply, val_main_call0_v0_apply, val_main_call0_cst_apply, val_main_v44_apply, val_main_v43_apply, val_main_v42_apply,
    val_main_v41_apply, val_main_v40_apply, val_main_v39_apply, val_main_v38_apply, val_main_v37_apply, val_main_v36_apply,
    val_main_v35_apply, val_main_v34_apply, val_main_v33_apply, val_main_cst_5_apply, val_main_v32_apply, val_main_v31_apply,
    val_main_v30_apply, em, er, eg, eb, layer1_lin, layer1_mean, layer1_var,
    Ideal.maximumf_def, Ideal.addf_def, Ideal.mulf_def, Ideal.mulf_def, Ideal.subf_def, Ideal.hostUnary_rsqrt_def, Ideal.addf_def,
    Ideal.ofBits_def, Ideal.ofBits_def, Ideal.ofBits_zero_f32]
  rfl

/-! ## The second normalized layer (output `val_main_v91`) -/

/-- The layer's linear part at an entry: the sum over the input width of (input + aggregation) times the weight, plus the bias. -/
theorem layer2_lin (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 : (⟨S128, .f32⟩ : BufTy).Contents (Elt Ideal)) (i : Fin 50000) (j : Fin 128) :
    val_main_v65 (F := Ideal) x1 x4 x10 x11 (ix2 i j) = Cert.SpecForm.lin x1 (aggR128 x1 x4) x10 x11 i j := by
  rw [val_main_v65_apply, val_main_v62_apply, val_main_v64_apply, val_main_v63_apply, Ideal.addf_def]
  unfold Cert.SpecForm.lin
  have eb : idx_main_v63 (idx_main_v64 (ix2 i j)) = ix1 j := funext fun a => Fin.ext (by match a with | ⟨0, _⟩ => rfl)
  rw [eb]
  have h : ∀ k : Fin 128, val_main_v60 (F := Ideal) x1 x4 (lidx_main_v62 (ix2 i j) k) * val_main_v61 (F := Ideal) x10 (ridx_main_v62 (ix2 i j) k)
      = (x1 (ix2 i k) + aggR128 x1 x4 (ix2 i k)) * x10 (ix2 j k) := fun k => by
    have e1 : lidx_main_v62 (ix2 i j) k = ix2 i k := funext fun a => Fin.ext (by match a with | ⟨0, _⟩ => rfl | ⟨1, _⟩ => rfl)
    have e2 : idx_main_v61 (ridx_main_v62 (ix2 i j) k) = ix2 j k := funext fun a => Fin.ext (by match a with | ⟨0, _⟩ => rfl | ⟨1, _⟩ => rfl)
    rw [val_main_v60_apply, val_main_v61_apply, Ideal.addf_def, val_main_v59_eq_agg, e1, e2]
  simp only [h]

/-- The column mean of the linear part. -/
theorem layer2_mean (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 : (⟨S128, .f32⟩ : BufTy).Contents (Elt Ideal)) (j : Fin 128) :
    val_main_v68 (F := Ideal) x1 x4 x10 x11 (ix1 j) = Cert.SpecForm.mean (Cert.SpecForm.lin x1 (aggR128 x1 x4) x10 x11) (Ideal.ofBits .f32 0x47435000#32) j := by
  rw [val_main_v68_apply, val_main_v66_apply, val_main_v67_apply, val_main_cst_10_apply, val_main_cst_9_apply,
    Ideal.hostDivf_def, Ideal.ofBits_def, Ideal.ofBits_def, Ideal.ofBits_zero_f32, zero_add]
  unfold Cert.SpecForm.mean
  have h : ∀ a : Fin 50000, val_main_v65 (F := Ideal) x1 x4 x10 x11 (idx_main_v66 (ix1 j) a) = Cert.SpecForm.lin x1 (aggR128 x1 x4) x10 x11 a j := fun a => by
    have e : idx_main_v66 (ix1 j) a = ix2 a j := funext fun a => Fin.ext (by match a with | ⟨0, _⟩ => rfl | ⟨1, _⟩ => rfl)
    rw [e, layer2_lin]
  simp only [h]

/-- The column variance of the linear part, as the mean of the squared deviations from the column mean. -/
theorem layer2_var (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 : (⟨S128, .f32⟩ : BufTy).Contents (Elt Ideal)) (j : Fin 128) :
    val_main_v75 (F := Ideal) x1 x4 x10 x11 (ix1 j) = Cert.SpecForm.varDev (Cert.SpecForm.lin x1 (aggR128 x1 x4) x10 x11) (Ideal.ofBits .f32 0x47435000#32) j := by
  rw [val_main_v75_apply, val_main_v73_apply, val_main_v74_apply, val_main_cst_12_apply, val_main_cst_11_apply,
    Ideal.hostDivf_def, Ideal.ofBits_def, Ideal.ofBits_def, Ideal.ofBits_zero_f32, zero_add]
  unfold Cert.SpecForm.varDev
  have h : ∀ a : Fin 50000, val_main_v72 (F := Ideal) x1 x4 x10 x11 (idx_main_v73 (ix1 j) a)
      = (Cert.SpecForm.lin x1 (aggR128 x1 x4) x10 x11 a j - Cert.SpecForm.mean (Cert.SpecForm.lin x1 (aggR128 x1 x4) x10 x11) (Ideal.ofBits .f32 0x47435000#32) j) * (Cert.SpecForm.lin x1 (aggR128 x1 x4) x10 x11 a j - Cert.SpecForm.mean (Cert.SpecForm.lin x1 (aggR128 x1 x4) x10 x11) (Ideal.ofBits .f32 0x47435000#32) j) := fun a => by
    have e : idx_main_v73 (ix1 j) a = ix2 a j := funext fun a => Fin.ext (by match a with | ⟨0, _⟩ => rfl | ⟨1, _⟩ => rfl)
    have em : idx_main_v69 (idx_main_v70 (ix2 a j)) = ix1 j := funext fun a => Fin.ext (by match a with | ⟨0, _⟩ => rfl)
    rw [e, val_main_v72_apply, val_main_v71_apply, val_main_v70_apply, val_main_v69_apply, em, layer2_lin, layer2_mean, Ideal.mulf_def, Ideal.subf_def]
  simp only [h]

/-- The layer at an entry: the linear part, normalized by its column mean and variance, scaled, shifted, and cut at zero. -/
theorem layer2_apply (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 x12 x13 : (⟨S128, .f32⟩ : BufTy).Contents (Elt Ideal)) (i : Fin 50000) (j : Fin 128) :
    val_main_v91 (F := Ideal) x1 x4 x10 x11 x12 x13 (ix2 i j)
      = Cert.SpecForm.bnWith (Cert.SpecForm.lin x1 (aggR128 x1 x4) x10 x11) (Ideal.ofBits .f32 0x47435000#32) (Ideal.ofBits .f32 0x3727C5AC#32) (Cert.SpecForm.varDev (Cert.SpecForm.lin x1 (aggR128 x1 x4) x10 x11) (Ideal.ofBits .f32 0x47435000#32)) x12 x13 i j := by
  have em : idx_main_v76 (idx_main_v77 (ix2 i j)) = ix1 j := funext fun a => Fin.ext (by match a with | ⟨0, _⟩ => rfl)
  have er : idx_main_v82 (idx_main_v83 (ix2 i j)) = ix1 j := funext fun a => Fin.ext (by match a with | ⟨0, _⟩ => rfl)
  have eg : idx_main_v85 (idx_main_v86 (ix2 i j)) = ix1 j := funext fun a => Fin.ext (by match a with | ⟨0, _⟩ => rfl)
  have eb : idx_main_v88 (idx_main_v89 (ix2 i j)) = ix1 j := funext fun a => Fin.ext (by match a with | ⟨0, _⟩ => rfl)
  rw [val_main_v91_apply, val_main_call1_v0_apply, val_main_call1_cst_apply, val_main_v90_apply, val_main_v89_apply, val_main_v88_apply,
    val_main_v87_apply, val_main_v86_apply, val_main_v85_apply, val_main_v84_apply, val_main_v83_apply, val_main_v82_apply,
    val_main_v81_apply, val_main_v80_apply, val_main_v79_apply, val_main_cst_13_apply, val_main_v78_apply, val_main_v77_apply,
    val_main_v76_apply, em, er, eg, eb, layer2_lin, layer2_mean, layer2_var,
    Ideal.maximumf_def, Ideal.addf_def, Ideal.mulf_def, Ideal.mulf_def, Ideal.subf_def, Ideal.hostUnary_rsqrt_def, Ideal.addf_def,
    Ideal.ofBits_def, Ideal.ofBits_def, Ideal.ofBits_zero_f32]
  rfl

/-! ## The third normalized layer (output `val_main_v137`) -/

/-- The layer's linear part at an entry: the sum over the input width of (input + aggregation) times the weight, plus the bias. -/
theorem layer3_lin (x2 : (⟨S50000x256, .f32⟩ : BufTy).Contents (Elt Ideal)) (x5 : (⟨S2x800000, .i32⟩ : BufTy).Contents (Elt Ideal)) (x14 : (⟨S128x256, .f32⟩ : BufTy).Contents (Elt Ideal)) (x15 : (⟨S128, .f32⟩ : BufTy).Contents (Elt Ideal)) (i : Fin 50000) (j : Fin 128) :
    val_main_v111 (F := Ideal) x2 x5 x14 x15 (ix2 i j) = Cert.SpecForm.lin x2 (aggR256 x2 x5) x14 x15 i j := by
  rw [val_main_v111_apply, val_main_v108_apply, val_main_v110_apply, val_main_v109_apply, Ideal.addf_def]
  unfold Cert.SpecForm.lin
  have eb : idx_main_v109 (idx_main_v110 (ix2 i j)) = ix1 j := funext fun a => Fin.ext (by match a with | ⟨0, _⟩ => rfl)
  rw [eb]
  have h : ∀ k : Fin 256, val_main_v106 (F := Ideal) x2 x5 (lidx_main_v108 (ix2 i j) k) * val_main_v107 (F := Ideal) x14 (ridx_main_v108 (ix2 i j) k)
      = (x2 (ix2 i k) + aggR256 x2 x5 (ix2 i k)) * x14 (ix2 j k) := fun k => by
    have e1 : lidx_main_v108 (ix2 i j) k = ix2 i k := funext fun a => Fin.ext (by match a with | ⟨0, _⟩ => rfl | ⟨1, _⟩ => rfl)
    have e2 : idx_main_v107 (ridx_main_v108 (ix2 i j) k) = ix2 j k := funext fun a => Fin.ext (by match a with | ⟨0, _⟩ => rfl | ⟨1, _⟩ => rfl)
    rw [val_main_v106_apply, val_main_v107_apply, Ideal.addf_def, val_main_v105_eq_agg, e1, e2]
  simp only [h]

/-- The column mean of the linear part. -/
theorem layer3_mean (x2 : (⟨S50000x256, .f32⟩ : BufTy).Contents (Elt Ideal)) (x5 : (⟨S2x800000, .i32⟩ : BufTy).Contents (Elt Ideal)) (x14 : (⟨S128x256, .f32⟩ : BufTy).Contents (Elt Ideal)) (x15 : (⟨S128, .f32⟩ : BufTy).Contents (Elt Ideal)) (j : Fin 128) :
    val_main_v114 (F := Ideal) x2 x5 x14 x15 (ix1 j) = Cert.SpecForm.mean (Cert.SpecForm.lin x2 (aggR256 x2 x5) x14 x15) (Ideal.ofBits .f32 0x47435000#32) j := by
  rw [val_main_v114_apply, val_main_v112_apply, val_main_v113_apply, val_main_cst_18_apply, val_main_cst_17_apply,
    Ideal.hostDivf_def, Ideal.ofBits_def, Ideal.ofBits_def, Ideal.ofBits_zero_f32, zero_add]
  unfold Cert.SpecForm.mean
  have h : ∀ a : Fin 50000, val_main_v111 (F := Ideal) x2 x5 x14 x15 (idx_main_v112 (ix1 j) a) = Cert.SpecForm.lin x2 (aggR256 x2 x5) x14 x15 a j := fun a => by
    have e : idx_main_v112 (ix1 j) a = ix2 a j := funext fun a => Fin.ext (by match a with | ⟨0, _⟩ => rfl | ⟨1, _⟩ => rfl)
    rw [e, layer3_lin]
  simp only [h]

/-- The column variance of the linear part, as the mean of the squared deviations from the column mean. -/
theorem layer3_var (x2 : (⟨S50000x256, .f32⟩ : BufTy).Contents (Elt Ideal)) (x5 : (⟨S2x800000, .i32⟩ : BufTy).Contents (Elt Ideal)) (x14 : (⟨S128x256, .f32⟩ : BufTy).Contents (Elt Ideal)) (x15 : (⟨S128, .f32⟩ : BufTy).Contents (Elt Ideal)) (j : Fin 128) :
    val_main_v121 (F := Ideal) x2 x5 x14 x15 (ix1 j) = Cert.SpecForm.varDev (Cert.SpecForm.lin x2 (aggR256 x2 x5) x14 x15) (Ideal.ofBits .f32 0x47435000#32) j := by
  rw [val_main_v121_apply, val_main_v119_apply, val_main_v120_apply, val_main_cst_20_apply, val_main_cst_19_apply,
    Ideal.hostDivf_def, Ideal.ofBits_def, Ideal.ofBits_def, Ideal.ofBits_zero_f32, zero_add]
  unfold Cert.SpecForm.varDev
  have h : ∀ a : Fin 50000, val_main_v118 (F := Ideal) x2 x5 x14 x15 (idx_main_v119 (ix1 j) a)
      = (Cert.SpecForm.lin x2 (aggR256 x2 x5) x14 x15 a j - Cert.SpecForm.mean (Cert.SpecForm.lin x2 (aggR256 x2 x5) x14 x15) (Ideal.ofBits .f32 0x47435000#32) j) * (Cert.SpecForm.lin x2 (aggR256 x2 x5) x14 x15 a j - Cert.SpecForm.mean (Cert.SpecForm.lin x2 (aggR256 x2 x5) x14 x15) (Ideal.ofBits .f32 0x47435000#32) j) := fun a => by
    have e : idx_main_v119 (ix1 j) a = ix2 a j := funext fun a => Fin.ext (by match a with | ⟨0, _⟩ => rfl | ⟨1, _⟩ => rfl)
    have em : idx_main_v115 (idx_main_v116 (ix2 a j)) = ix1 j := funext fun a => Fin.ext (by match a with | ⟨0, _⟩ => rfl)
    rw [e, val_main_v118_apply, val_main_v117_apply, val_main_v116_apply, val_main_v115_apply, em, layer3_lin, layer3_mean, Ideal.mulf_def, Ideal.subf_def]
  simp only [h]

/-- The layer at an entry: the linear part, normalized by its column mean and variance, scaled, shifted, and cut at zero. -/
theorem layer3_apply (x2 : (⟨S50000x256, .f32⟩ : BufTy).Contents (Elt Ideal)) (x5 : (⟨S2x800000, .i32⟩ : BufTy).Contents (Elt Ideal)) (x14 : (⟨S128x256, .f32⟩ : BufTy).Contents (Elt Ideal)) (x15 x16 x17 : (⟨S128, .f32⟩ : BufTy).Contents (Elt Ideal)) (i : Fin 50000) (j : Fin 128) :
    val_main_v137 (F := Ideal) x2 x5 x14 x15 x16 x17 (ix2 i j)
      = Cert.SpecForm.bnWith (Cert.SpecForm.lin x2 (aggR256 x2 x5) x14 x15) (Ideal.ofBits .f32 0x47435000#32) (Ideal.ofBits .f32 0x3727C5AC#32) (Cert.SpecForm.varDev (Cert.SpecForm.lin x2 (aggR256 x2 x5) x14 x15) (Ideal.ofBits .f32 0x47435000#32)) x16 x17 i j := by
  have em : idx_main_v122 (idx_main_v123 (ix2 i j)) = ix1 j := funext fun a => Fin.ext (by match a with | ⟨0, _⟩ => rfl)
  have er : idx_main_v128 (idx_main_v129 (ix2 i j)) = ix1 j := funext fun a => Fin.ext (by match a with | ⟨0, _⟩ => rfl)
  have eg : idx_main_v131 (idx_main_v132 (ix2 i j)) = ix1 j := funext fun a => Fin.ext (by match a with | ⟨0, _⟩ => rfl)
  have eb : idx_main_v134 (idx_main_v135 (ix2 i j)) = ix1 j := funext fun a => Fin.ext (by match a with | ⟨0, _⟩ => rfl)
  rw [val_main_v137_apply, val_main_call2_v0_apply, val_main_call2_cst_apply, val_main_v136_apply, val_main_v135_apply, val_main_v134_apply,
    val_main_v133_apply, val_main_v132_apply, val_main_v131_apply, val_main_v130_apply, val_main_v129_apply, val_main_v128_apply,
    val_main_v127_apply, val_main_v126_apply, val_main_v125_apply, val_main_cst_21_apply, val_main_v124_apply, val_main_v123_apply,
    val_main_v122_apply, em, er, eg, eb, layer3_lin, layer3_mean, layer3_var,
    Ideal.maximumf_def, Ideal.addf_def, Ideal.mulf_def, Ideal.mulf_def, Ideal.subf_def, Ideal.hostUnary_rsqrt_def, Ideal.addf_def,
    Ideal.ofBits_def, Ideal.ofBits_def, Ideal.ofBits_zero_f32]
  rfl

/-! ## The fourth normalized layer (output `val_main_v183`) -/

/-- The layer's linear part at an entry: the sum over the input width of (input + aggregation) times the weight, plus the bias. -/
theorem layer4_lin (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 x8 x9 : (⟨S128, .f32⟩ : BufTy).Contents (Elt Ideal)) (x18 : (⟨S64x128, .f32⟩ : BufTy).Contents (Elt Ideal)) (x19 : (⟨S64, .f32⟩ : BufTy).Contents (Elt Ideal)) (i : Fin 50000) (j : Fin 64) :
    val_main_v157 (F := Ideal) x0 x3 x6 x7 x8 x9 x18 x19 (ix2 i j) = Cert.SpecForm.lin (val_main_v45 (F := Ideal) x0 x3 x6 x7 x8 x9) (aggR128 (val_main_v45 (F := Ideal) x0 x3 x6 x7 x8 x9) x3) x18 x19 i j := by
  rw [val_main_v157_apply, val_main_v154_apply, val_main_v156_apply, val_main_v155_apply, Ideal.addf_def]
  unfold Cert.SpecForm.lin
  have eb : idx_main_v155 (idx_main_v156 (ix2 i j)) = ix1 j := funext fun a => Fin.ext (by match a with | ⟨0, _⟩ => rfl)
  rw [eb]
  have h : ∀ k : Fin 128, val_main_v152 (F := Ideal) x0 x3 x6 x7 x8 x9 (lidx_main_v154 (ix2 i j) k) * val_main_v153 (F := Ideal) x18 (ridx_main_v154 (ix2 i j) k)
      = ((val_main_v45 (F := Ideal) x0 x3 x6 x7 x8 x9) (ix2 i k) + aggR128 (val_main_v45 (F := Ideal) x0 x3 x6 x7 x8 x9) x3 (ix2 i k)) * x18 (ix2 j k) := fun k => by
    have e1 : lidx_main_v154 (ix2 i j) k = ix2 i k := funext fun a => Fin.ext (by match a with | ⟨0, _⟩ => rfl | ⟨1, _⟩ => rfl)
    have e2 : idx_main_v153 (ridx_main_v154 (ix2 i j) k) = ix2 j k := funext fun a => Fin.ext (by match a with | ⟨0, _⟩ => rfl | ⟨1, _⟩ => rfl)
    rw [val_main_v152_apply, val_main_v153_apply, Ideal.addf_def, val_main_v151_eq_agg, e1, e2]
  simp only [h]

/-- The column mean of the linear part. -/
theorem layer4_mean (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 x8 x9 : (⟨S128, .f32⟩ : BufTy).Contents (Elt Ideal)) (x18 : (⟨S64x128, .f32⟩ : BufTy).Contents (Elt Ideal)) (x19 : (⟨S64, .f32⟩ : BufTy).Contents (Elt Ideal)) (j : Fin 64) :
    val_main_v160 (F := Ideal) x0 x3 x6 x7 x8 x9 x18 x19 (ix1 j) = Cert.SpecForm.mean (Cert.SpecForm.lin (val_main_v45 (F := Ideal) x0 x3 x6 x7 x8 x9) (aggR128 (val_main_v45 (F := Ideal) x0 x3 x6 x7 x8 x9) x3) x18 x19) (Ideal.ofBits .f32 0x47435000#32) j := by
  rw [val_main_v160_apply, val_main_v158_apply, val_main_v159_apply, val_main_cst_26_apply, val_main_cst_25_apply,
    Ideal.hostDivf_def, Ideal.ofBits_def, Ideal.ofBits_def, Ideal.ofBits_zero_f32, zero_add]
  unfold Cert.SpecForm.mean
  have h : ∀ a : Fin 50000, val_main_v157 (F := Ideal) x0 x3 x6 x7 x8 x9 x18 x19 (idx_main_v158 (ix1 j) a) = Cert.SpecForm.lin (val_main_v45 (F := Ideal) x0 x3 x6 x7 x8 x9) (aggR128 (val_main_v45 (F := Ideal) x0 x3 x6 x7 x8 x9) x3) x18 x19 a j := fun a => by
    have e : idx_main_v158 (ix1 j) a = ix2 a j := funext fun a => Fin.ext (by match a with | ⟨0, _⟩ => rfl | ⟨1, _⟩ => rfl)
    rw [e, layer4_lin]
  simp only [h]

/-- The column variance of the linear part, as the mean of the squared deviations from the column mean. -/
theorem layer4_var (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 x8 x9 : (⟨S128, .f32⟩ : BufTy).Contents (Elt Ideal)) (x18 : (⟨S64x128, .f32⟩ : BufTy).Contents (Elt Ideal)) (x19 : (⟨S64, .f32⟩ : BufTy).Contents (Elt Ideal)) (j : Fin 64) :
    val_main_v167 (F := Ideal) x0 x3 x6 x7 x8 x9 x18 x19 (ix1 j) = Cert.SpecForm.varDev (Cert.SpecForm.lin (val_main_v45 (F := Ideal) x0 x3 x6 x7 x8 x9) (aggR128 (val_main_v45 (F := Ideal) x0 x3 x6 x7 x8 x9) x3) x18 x19) (Ideal.ofBits .f32 0x47435000#32) j := by
  rw [val_main_v167_apply, val_main_v165_apply, val_main_v166_apply, val_main_cst_28_apply, val_main_cst_27_apply,
    Ideal.hostDivf_def, Ideal.ofBits_def, Ideal.ofBits_def, Ideal.ofBits_zero_f32, zero_add]
  unfold Cert.SpecForm.varDev
  have h : ∀ a : Fin 50000, val_main_v164 (F := Ideal) x0 x3 x6 x7 x8 x9 x18 x19 (idx_main_v165 (ix1 j) a)
      = (Cert.SpecForm.lin (val_main_v45 (F := Ideal) x0 x3 x6 x7 x8 x9) (aggR128 (val_main_v45 (F := Ideal) x0 x3 x6 x7 x8 x9) x3) x18 x19 a j - Cert.SpecForm.mean (Cert.SpecForm.lin (val_main_v45 (F := Ideal) x0 x3 x6 x7 x8 x9) (aggR128 (val_main_v45 (F := Ideal) x0 x3 x6 x7 x8 x9) x3) x18 x19) (Ideal.ofBits .f32 0x47435000#32) j) * (Cert.SpecForm.lin (val_main_v45 (F := Ideal) x0 x3 x6 x7 x8 x9) (aggR128 (val_main_v45 (F := Ideal) x0 x3 x6 x7 x8 x9) x3) x18 x19 a j - Cert.SpecForm.mean (Cert.SpecForm.lin (val_main_v45 (F := Ideal) x0 x3 x6 x7 x8 x9) (aggR128 (val_main_v45 (F := Ideal) x0 x3 x6 x7 x8 x9) x3) x18 x19) (Ideal.ofBits .f32 0x47435000#32) j) := fun a => by
    have e : idx_main_v165 (ix1 j) a = ix2 a j := funext fun a => Fin.ext (by match a with | ⟨0, _⟩ => rfl | ⟨1, _⟩ => rfl)
    have em : idx_main_v161 (idx_main_v162 (ix2 a j)) = ix1 j := funext fun a => Fin.ext (by match a with | ⟨0, _⟩ => rfl)
    rw [e, val_main_v164_apply, val_main_v163_apply, val_main_v162_apply, val_main_v161_apply, em, layer4_lin, layer4_mean, Ideal.mulf_def, Ideal.subf_def]
  simp only [h]

/-- The layer at an entry: the linear part, normalized by its column mean and variance, scaled, shifted, and cut at zero. -/
theorem layer4_apply (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 x8 x9 : (⟨S128, .f32⟩ : BufTy).Contents (Elt Ideal)) (x18 : (⟨S64x128, .f32⟩ : BufTy).Contents (Elt Ideal)) (x19 x20 x21 : (⟨S64, .f32⟩ : BufTy).Contents (Elt Ideal)) (i : Fin 50000) (j : Fin 64) :
    val_main_v183 (F := Ideal) x0 x3 x6 x7 x8 x9 x18 x19 x20 x21 (ix2 i j)
      = Cert.SpecForm.bnWith (Cert.SpecForm.lin (val_main_v45 (F := Ideal) x0 x3 x6 x7 x8 x9) (aggR128 (val_main_v45 (F := Ideal) x0 x3 x6 x7 x8 x9) x3) x18 x19) (Ideal.ofBits .f32 0x47435000#32) (Ideal.ofBits .f32 0x3727C5AC#32) (Cert.SpecForm.varDev (Cert.SpecForm.lin (val_main_v45 (F := Ideal) x0 x3 x6 x7 x8 x9) (aggR128 (val_main_v45 (F := Ideal) x0 x3 x6 x7 x8 x9) x3) x18 x19) (Ideal.ofBits .f32 0x47435000#32)) x20 x21 i j := by
  have em : idx_main_v168 (idx_main_v169 (ix2 i j)) = ix1 j := funext fun a => Fin.ext (by match a with | ⟨0, _⟩ => rfl)
  have er : idx_main_v174 (idx_main_v175 (ix2 i j)) = ix1 j := funext fun a => Fin.ext (by match a with | ⟨0, _⟩ => rfl)
  have eg : idx_main_v177 (idx_main_v178 (ix2 i j)) = ix1 j := funext fun a => Fin.ext (by match a with | ⟨0, _⟩ => rfl)
  have eb : idx_main_v180 (idx_main_v181 (ix2 i j)) = ix1 j := funext fun a => Fin.ext (by match a with | ⟨0, _⟩ => rfl)
  rw [val_main_v183_apply, val_main_call3_v0_apply, val_main_call3_cst_apply, val_main_v182_apply, val_main_v181_apply, val_main_v180_apply,
    val_main_v179_apply, val_main_v178_apply, val_main_v177_apply, val_main_v176_apply, val_main_v175_apply, val_main_v174_apply,
    val_main_v173_apply, val_main_v172_apply, val_main_v171_apply, val_main_cst_29_apply, val_main_v170_apply, val_main_v169_apply,
    val_main_v168_apply, em, er, eg, eb, layer4_lin, layer4_mean, layer4_var,
    Ideal.maximumf_def, Ideal.addf_def, Ideal.mulf_def, Ideal.mulf_def, Ideal.subf_def, Ideal.hostUnary_rsqrt_def, Ideal.addf_def,
    Ideal.ofBits_def, Ideal.ofBits_def, Ideal.ofBits_zero_f32]
  rfl

/-! ## The fifth normalized layer (output `val_main_v229`) -/

/-- The layer's linear part at an entry: the sum over the input width of (input + aggregation) times the weight, plus the bias. -/
theorem layer5_lin (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 x12 x13 : (⟨S128, .f32⟩ : BufTy).Contents (Elt Ideal)) (x18 : (⟨S64x128, .f32⟩ : BufTy).Contents (Elt Ideal)) (x19 : (⟨S64, .f32⟩ : BufTy).Contents (Elt Ideal)) (i : Fin 50000) (j : Fin 64) :
    val_main_v203 (F := Ideal) x1 x4 x10 x11 x12 x13 x18 x19 (ix2 i j) = Cert.SpecForm.lin (val_main_v91 (F := Ideal) x1 x4 x10 x11 x12 x13) (aggR128 (val_main_v91 (F := Ideal) x1 x4 x10 x11 x12 x13) x4) x18 x19 i j := by
  rw [val_main_v203_apply, val_main_v200_apply, val_main_v202_apply, val_main_v201_apply, Ideal.addf_def]
  unfold Cert.SpecForm.lin
  have eb : idx_main_v201 (idx_main_v202 (ix2 i j)) = ix1 j := funext fun a => Fin.ext (by match a with | ⟨0, _⟩ => rfl)
  rw [eb]
  have h : ∀ k : Fin 128, val_main_v198 (F := Ideal) x1 x4 x10 x11 x12 x13 (lidx_main_v200 (ix2 i j) k) * val_main_v199 (F := Ideal) x18 (ridx_main_v200 (ix2 i j) k)
      = ((val_main_v91 (F := Ideal) x1 x4 x10 x11 x12 x13) (ix2 i k) + aggR128 (val_main_v91 (F := Ideal) x1 x4 x10 x11 x12 x13) x4 (ix2 i k)) * x18 (ix2 j k) := fun k => by
    have e1 : lidx_main_v200 (ix2 i j) k = ix2 i k := funext fun a => Fin.ext (by match a with | ⟨0, _⟩ => rfl | ⟨1, _⟩ => rfl)
    have e2 : idx_main_v199 (ridx_main_v200 (ix2 i j) k) = ix2 j k := funext fun a => Fin.ext (by match a with | ⟨0, _⟩ => rfl | ⟨1, _⟩ => rfl)
    rw [val_main_v198_apply, val_main_v199_apply, Ideal.addf_def, val_main_v197_eq_agg, e1, e2]
  simp only [h]

/-- The column mean of the linear part. -/
theorem layer5_mean (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 x12 x13 : (⟨S128, .f32⟩ : BufTy).Contents (Elt Ideal)) (x18 : (⟨S64x128, .f32⟩ : BufTy).Contents (Elt Ideal)) (x19 : (⟨S64, .f32⟩ : BufTy).Contents (Elt Ideal)) (j : Fin 64) :
    val_main_v206 (F := Ideal) x1 x4 x10 x11 x12 x13 x18 x19 (ix1 j) = Cert.SpecForm.mean (Cert.SpecForm.lin (val_main_v91 (F := Ideal) x1 x4 x10 x11 x12 x13) (aggR128 (val_main_v91 (F := Ideal) x1 x4 x10 x11 x12 x13) x4) x18 x19) (Ideal.ofBits .f32 0x47435000#32) j := by
  rw [val_main_v206_apply, val_main_v204_apply, val_main_v205_apply, val_main_cst_34_apply, val_main_cst_33_apply,
    Ideal.hostDivf_def, Ideal.ofBits_def, Ideal.ofBits_def, Ideal.ofBits_zero_f32, zero_add]
  unfold Cert.SpecForm.mean
  have h : ∀ a : Fin 50000, val_main_v203 (F := Ideal) x1 x4 x10 x11 x12 x13 x18 x19 (idx_main_v204 (ix1 j) a) = Cert.SpecForm.lin (val_main_v91 (F := Ideal) x1 x4 x10 x11 x12 x13) (aggR128 (val_main_v91 (F := Ideal) x1 x4 x10 x11 x12 x13) x4) x18 x19 a j := fun a => by
    have e : idx_main_v204 (ix1 j) a = ix2 a j := funext fun a => Fin.ext (by match a with | ⟨0, _⟩ => rfl | ⟨1, _⟩ => rfl)
    rw [e, layer5_lin]
  simp only [h]

/-- The column variance of the linear part, as the mean of the squared deviations from the column mean. -/
theorem layer5_var (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 x12 x13 : (⟨S128, .f32⟩ : BufTy).Contents (Elt Ideal)) (x18 : (⟨S64x128, .f32⟩ : BufTy).Contents (Elt Ideal)) (x19 : (⟨S64, .f32⟩ : BufTy).Contents (Elt Ideal)) (j : Fin 64) :
    val_main_v213 (F := Ideal) x1 x4 x10 x11 x12 x13 x18 x19 (ix1 j) = Cert.SpecForm.varDev (Cert.SpecForm.lin (val_main_v91 (F := Ideal) x1 x4 x10 x11 x12 x13) (aggR128 (val_main_v91 (F := Ideal) x1 x4 x10 x11 x12 x13) x4) x18 x19) (Ideal.ofBits .f32 0x47435000#32) j := by
  rw [val_main_v213_apply, val_main_v211_apply, val_main_v212_apply, val_main_cst_36_apply, val_main_cst_35_apply,
    Ideal.hostDivf_def, Ideal.ofBits_def, Ideal.ofBits_def, Ideal.ofBits_zero_f32, zero_add]
  unfold Cert.SpecForm.varDev
  have h : ∀ a : Fin 50000, val_main_v210 (F := Ideal) x1 x4 x10 x11 x12 x13 x18 x19 (idx_main_v211 (ix1 j) a)
      = (Cert.SpecForm.lin (val_main_v91 (F := Ideal) x1 x4 x10 x11 x12 x13) (aggR128 (val_main_v91 (F := Ideal) x1 x4 x10 x11 x12 x13) x4) x18 x19 a j - Cert.SpecForm.mean (Cert.SpecForm.lin (val_main_v91 (F := Ideal) x1 x4 x10 x11 x12 x13) (aggR128 (val_main_v91 (F := Ideal) x1 x4 x10 x11 x12 x13) x4) x18 x19) (Ideal.ofBits .f32 0x47435000#32) j) * (Cert.SpecForm.lin (val_main_v91 (F := Ideal) x1 x4 x10 x11 x12 x13) (aggR128 (val_main_v91 (F := Ideal) x1 x4 x10 x11 x12 x13) x4) x18 x19 a j - Cert.SpecForm.mean (Cert.SpecForm.lin (val_main_v91 (F := Ideal) x1 x4 x10 x11 x12 x13) (aggR128 (val_main_v91 (F := Ideal) x1 x4 x10 x11 x12 x13) x4) x18 x19) (Ideal.ofBits .f32 0x47435000#32) j) := fun a => by
    have e : idx_main_v211 (ix1 j) a = ix2 a j := funext fun a => Fin.ext (by match a with | ⟨0, _⟩ => rfl | ⟨1, _⟩ => rfl)
    have em : idx_main_v207 (idx_main_v208 (ix2 a j)) = ix1 j := funext fun a => Fin.ext (by match a with | ⟨0, _⟩ => rfl)
    rw [e, val_main_v210_apply, val_main_v209_apply, val_main_v208_apply, val_main_v207_apply, em, layer5_lin, layer5_mean, Ideal.mulf_def, Ideal.subf_def]
  simp only [h]

/-- The layer at an entry: the linear part, normalized by its column mean and variance, scaled, shifted, and cut at zero. -/
theorem layer5_apply (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 x12 x13 : (⟨S128, .f32⟩ : BufTy).Contents (Elt Ideal)) (x18 : (⟨S64x128, .f32⟩ : BufTy).Contents (Elt Ideal)) (x19 x20 x21 : (⟨S64, .f32⟩ : BufTy).Contents (Elt Ideal)) (i : Fin 50000) (j : Fin 64) :
    val_main_v229 (F := Ideal) x1 x4 x10 x11 x12 x13 x18 x19 x20 x21 (ix2 i j)
      = Cert.SpecForm.bnWith (Cert.SpecForm.lin (val_main_v91 (F := Ideal) x1 x4 x10 x11 x12 x13) (aggR128 (val_main_v91 (F := Ideal) x1 x4 x10 x11 x12 x13) x4) x18 x19) (Ideal.ofBits .f32 0x47435000#32) (Ideal.ofBits .f32 0x3727C5AC#32) (Cert.SpecForm.varDev (Cert.SpecForm.lin (val_main_v91 (F := Ideal) x1 x4 x10 x11 x12 x13) (aggR128 (val_main_v91 (F := Ideal) x1 x4 x10 x11 x12 x13) x4) x18 x19) (Ideal.ofBits .f32 0x47435000#32)) x20 x21 i j := by
  have em : idx_main_v214 (idx_main_v215 (ix2 i j)) = ix1 j := funext fun a => Fin.ext (by match a with | ⟨0, _⟩ => rfl)
  have er : idx_main_v220 (idx_main_v221 (ix2 i j)) = ix1 j := funext fun a => Fin.ext (by match a with | ⟨0, _⟩ => rfl)
  have eg : idx_main_v223 (idx_main_v224 (ix2 i j)) = ix1 j := funext fun a => Fin.ext (by match a with | ⟨0, _⟩ => rfl)
  have eb : idx_main_v226 (idx_main_v227 (ix2 i j)) = ix1 j := funext fun a => Fin.ext (by match a with | ⟨0, _⟩ => rfl)
  rw [val_main_v229_apply, val_main_call4_v0_apply, val_main_call4_cst_apply, val_main_v228_apply, val_main_v227_apply, val_main_v226_apply,
    val_main_v225_apply, val_main_v224_apply, val_main_v223_apply, val_main_v222_apply, val_main_v221_apply, val_main_v220_apply,
    val_main_v219_apply, val_main_v218_apply, val_main_v217_apply, val_main_cst_37_apply, val_main_v216_apply, val_main_v215_apply,
    val_main_v214_apply, em, er, eg, eb, layer5_lin, layer5_mean, layer5_var,
    Ideal.maximumf_def, Ideal.addf_def, Ideal.mulf_def, Ideal.mulf_def, Ideal.subf_def, Ideal.hostUnary_rsqrt_def, Ideal.addf_def,
    Ideal.ofBits_def, Ideal.ofBits_def, Ideal.ofBits_zero_f32]
  rfl

/-! ## The sixth normalized layer (output `val_main_v275`) -/

/-- The layer's linear part at an entry: the sum over the input width of (input + aggregation) times the weight, plus the bias. -/
theorem layer6_lin (x2 : (⟨S50000x256, .f32⟩ : BufTy).Contents (Elt Ideal)) (x5 : (⟨S2x800000, .i32⟩ : BufTy).Contents (Elt Ideal)) (x14 : (⟨S128x256, .f32⟩ : BufTy).Contents (Elt Ideal)) (x15 x16 x17 : (⟨S128, .f32⟩ : BufTy).Contents (Elt Ideal)) (x18 : (⟨S64x128, .f32⟩ : BufTy).Contents (Elt Ideal)) (x19 : (⟨S64, .f32⟩ : BufTy).Contents (Elt Ideal)) (i : Fin 50000) (j : Fin 64) :
    val_main_v249 (F := Ideal) x2 x5 x14 x15 x16 x17 x18 x19 (ix2 i j) = Cert.SpecForm.lin (val_main_v137 (F := Ideal) x2 x5 x14 x15 x16 x17) (aggR128 (val_main_v137 (F := Ideal) x2 x5 x14 x15 x16 x17) x5) x18 x19 i j := by
  rw [val_main_v249_apply, val_main_v246_apply, val_main_v248_apply, val_main_v247_apply, Ideal.addf_def]
  unfold Cert.SpecForm.lin
  have eb : idx_main_v247 (idx_main_v248 (ix2 i j)) = ix1 j := funext fun a => Fin.ext (by match a with | ⟨0, _⟩ => rfl)
  rw [eb]
  have h : ∀ k : Fin 128, val_main_v244 (F := Ideal) x2 x5 x14 x15 x16 x17 (lidx_main_v246 (ix2 i j) k) * val_main_v245 (F := Ideal) x18 (ridx_main_v246 (ix2 i j) k)
      = ((val_main_v137 (F := Ideal) x2 x5 x14 x15 x16 x17) (ix2 i k) + aggR128 (val_main_v137 (F := Ideal) x2 x5 x14 x15 x16 x17) x5 (ix2 i k)) * x18 (ix2 j k) := fun k => by
    have e1 : lidx_main_v246 (ix2 i j) k = ix2 i k := funext fun a => Fin.ext (by match a with | ⟨0, _⟩ => rfl | ⟨1, _⟩ => rfl)
    have e2 : idx_main_v245 (ridx_main_v246 (ix2 i j) k) = ix2 j k := funext fun a => Fin.ext (by match a with | ⟨0, _⟩ => rfl | ⟨1, _⟩ => rfl)
    rw [val_main_v244_apply, val_main_v245_apply, Ideal.addf_def, val_main_v243_eq_agg, e1, e2]
  simp only [h]

/-- The column mean of the linear part. -/
theorem layer6_mean (x2 : (⟨S50000x256, .f32⟩ : BufTy).Contents (Elt Ideal)) (x5 : (⟨S2x800000, .i32⟩ : BufTy).Contents (Elt Ideal)) (x14 : (⟨S128x256, .f32⟩ : BufTy).Contents (Elt Ideal)) (x15 x16 x17 : (⟨S128, .f32⟩ : BufTy).Contents (Elt Ideal)) (x18 : (⟨S64x128, .f32⟩ : BufTy).Contents (Elt Ideal)) (x19 : (⟨S64, .f32⟩ : BufTy).Contents (Elt Ideal)) (j : Fin 64) :
    val_main_v252 (F := Ideal) x2 x5 x14 x15 x16 x17 x18 x19 (ix1 j) = Cert.SpecForm.mean (Cert.SpecForm.lin (val_main_v137 (F := Ideal) x2 x5 x14 x15 x16 x17) (aggR128 (val_main_v137 (F := Ideal) x2 x5 x14 x15 x16 x17) x5) x18 x19) (Ideal.ofBits .f32 0x47435000#32) j := by
  rw [val_main_v252_apply, val_main_v250_apply, val_main_v251_apply, val_main_cst_42_apply, val_main_cst_41_apply,
    Ideal.hostDivf_def, Ideal.ofBits_def, Ideal.ofBits_def, Ideal.ofBits_zero_f32, zero_add]
  unfold Cert.SpecForm.mean
  have h : ∀ a : Fin 50000, val_main_v249 (F := Ideal) x2 x5 x14 x15 x16 x17 x18 x19 (idx_main_v250 (ix1 j) a) = Cert.SpecForm.lin (val_main_v137 (F := Ideal) x2 x5 x14 x15 x16 x17) (aggR128 (val_main_v137 (F := Ideal) x2 x5 x14 x15 x16 x17) x5) x18 x19 a j := fun a => by
    have e : idx_main_v250 (ix1 j) a = ix2 a j := funext fun a => Fin.ext (by match a with | ⟨0, _⟩ => rfl | ⟨1, _⟩ => rfl)
    rw [e, layer6_lin]
  simp only [h]

/-- The column variance of the linear part, as the mean of the squared deviations from the column mean. -/
theorem layer6_var (x2 : (⟨S50000x256, .f32⟩ : BufTy).Contents (Elt Ideal)) (x5 : (⟨S2x800000, .i32⟩ : BufTy).Contents (Elt Ideal)) (x14 : (⟨S128x256, .f32⟩ : BufTy).Contents (Elt Ideal)) (x15 x16 x17 : (⟨S128, .f32⟩ : BufTy).Contents (Elt Ideal)) (x18 : (⟨S64x128, .f32⟩ : BufTy).Contents (Elt Ideal)) (x19 : (⟨S64, .f32⟩ : BufTy).Contents (Elt Ideal)) (j : Fin 64) :
    val_main_v259 (F := Ideal) x2 x5 x14 x15 x16 x17 x18 x19 (ix1 j) = Cert.SpecForm.varDev (Cert.SpecForm.lin (val_main_v137 (F := Ideal) x2 x5 x14 x15 x16 x17) (aggR128 (val_main_v137 (F := Ideal) x2 x5 x14 x15 x16 x17) x5) x18 x19) (Ideal.ofBits .f32 0x47435000#32) j := by
  rw [val_main_v259_apply, val_main_v257_apply, val_main_v258_apply, val_main_cst_44_apply, val_main_cst_43_apply,
    Ideal.hostDivf_def, Ideal.ofBits_def, Ideal.ofBits_def, Ideal.ofBits_zero_f32, zero_add]
  unfold Cert.SpecForm.varDev
  have h : ∀ a : Fin 50000, val_main_v256 (F := Ideal) x2 x5 x14 x15 x16 x17 x18 x19 (idx_main_v257 (ix1 j) a)
      = (Cert.SpecForm.lin (val_main_v137 (F := Ideal) x2 x5 x14 x15 x16 x17) (aggR128 (val_main_v137 (F := Ideal) x2 x5 x14 x15 x16 x17) x5) x18 x19 a j - Cert.SpecForm.mean (Cert.SpecForm.lin (val_main_v137 (F := Ideal) x2 x5 x14 x15 x16 x17) (aggR128 (val_main_v137 (F := Ideal) x2 x5 x14 x15 x16 x17) x5) x18 x19) (Ideal.ofBits .f32 0x47435000#32) j) * (Cert.SpecForm.lin (val_main_v137 (F := Ideal) x2 x5 x14 x15 x16 x17) (aggR128 (val_main_v137 (F := Ideal) x2 x5 x14 x15 x16 x17) x5) x18 x19 a j - Cert.SpecForm.mean (Cert.SpecForm.lin (val_main_v137 (F := Ideal) x2 x5 x14 x15 x16 x17) (aggR128 (val_main_v137 (F := Ideal) x2 x5 x14 x15 x16 x17) x5) x18 x19) (Ideal.ofBits .f32 0x47435000#32) j) := fun a => by
    have e : idx_main_v257 (ix1 j) a = ix2 a j := funext fun a => Fin.ext (by match a with | ⟨0, _⟩ => rfl | ⟨1, _⟩ => rfl)
    have em : idx_main_v253 (idx_main_v254 (ix2 a j)) = ix1 j := funext fun a => Fin.ext (by match a with | ⟨0, _⟩ => rfl)
    rw [e, val_main_v256_apply, val_main_v255_apply, val_main_v254_apply, val_main_v253_apply, em, layer6_lin, layer6_mean, Ideal.mulf_def, Ideal.subf_def]
  simp only [h]

/-- The layer at an entry: the linear part, normalized by its column mean and variance, scaled, shifted, and cut at zero. -/
theorem layer6_apply (x2 : (⟨S50000x256, .f32⟩ : BufTy).Contents (Elt Ideal)) (x5 : (⟨S2x800000, .i32⟩ : BufTy).Contents (Elt Ideal)) (x14 : (⟨S128x256, .f32⟩ : BufTy).Contents (Elt Ideal)) (x15 x16 x17 : (⟨S128, .f32⟩ : BufTy).Contents (Elt Ideal)) (x18 : (⟨S64x128, .f32⟩ : BufTy).Contents (Elt Ideal)) (x19 x20 x21 : (⟨S64, .f32⟩ : BufTy).Contents (Elt Ideal)) (i : Fin 50000) (j : Fin 64) :
    val_main_v275 (F := Ideal) x2 x5 x14 x15 x16 x17 x18 x19 x20 x21 (ix2 i j)
      = Cert.SpecForm.bnWith (Cert.SpecForm.lin (val_main_v137 (F := Ideal) x2 x5 x14 x15 x16 x17) (aggR128 (val_main_v137 (F := Ideal) x2 x5 x14 x15 x16 x17) x5) x18 x19) (Ideal.ofBits .f32 0x47435000#32) (Ideal.ofBits .f32 0x3727C5AC#32) (Cert.SpecForm.varDev (Cert.SpecForm.lin (val_main_v137 (F := Ideal) x2 x5 x14 x15 x16 x17) (aggR128 (val_main_v137 (F := Ideal) x2 x5 x14 x15 x16 x17) x5) x18 x19) (Ideal.ofBits .f32 0x47435000#32)) x20 x21 i j := by
  have em : idx_main_v260 (idx_main_v261 (ix2 i j)) = ix1 j := funext fun a => Fin.ext (by match a with | ⟨0, _⟩ => rfl)
  have er : idx_main_v266 (idx_main_v267 (ix2 i j)) = ix1 j := funext fun a => Fin.ext (by match a with | ⟨0, _⟩ => rfl)
  have eg : idx_main_v269 (idx_main_v270 (ix2 i j)) = ix1 j := funext fun a => Fin.ext (by match a with | ⟨0, _⟩ => rfl)
  have eb : idx_main_v272 (idx_main_v273 (ix2 i j)) = ix1 j := funext fun a => Fin.ext (by match a with | ⟨0, _⟩ => rfl)
  rw [val_main_v275_apply, val_main_call5_v0_apply, val_main_call5_cst_apply, val_main_v274_apply, val_main_v273_apply, val_main_v272_apply,
    val_main_v271_apply, val_main_v270_apply, val_main_v269_apply, val_main_v268_apply, val_main_v267_apply, val_main_v266_apply,
    val_main_v265_apply, val_main_v264_apply, val_main_v263_apply, val_main_cst_45_apply, val_main_v262_apply, val_main_v261_apply,
    val_main_v260_apply, em, er, eg, eb, layer6_lin, layer6_mean, layer6_var,
    Ideal.maximumf_def, Ideal.addf_def, Ideal.mulf_def, Ideal.mulf_def, Ideal.subf_def, Ideal.hostUnary_rsqrt_def, Ideal.addf_def,
    Ideal.ofBits_def, Ideal.ofBits_def, Ideal.ofBits_zero_f32]
  rfl

/-! ## The first layer without normalization (output `val_main_v296`) -/

/-- The layer's linear part at an entry. -/
theorem layer7_lin (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 x8 x9 : (⟨S128, .f32⟩ : BufTy).Contents (Elt Ideal)) (x18 : (⟨S64x128, .f32⟩ : BufTy).Contents (Elt Ideal)) (x19 x20 x21 : (⟨S64, .f32⟩ : BufTy).Contents (Elt Ideal)) (x22 : (⟨S256x64, .f32⟩ : BufTy).Contents (Elt Ideal)) (x23 : (⟨S256, .f32⟩ : BufTy).Contents (Elt Ideal)) (i : Fin 50000) (j : Fin 256) :
    val_main_v295 (F := Ideal) x0 x3 x6 x7 x8 x9 x18 x19 x20 x21 x22 x23 (ix2 i j) = Cert.SpecForm.lin (val_main_v183 (F := Ideal) x0 x3 x6 x7 x8 x9 x18 x19 x20 x21) (aggR64 (val_main_v183 (F := Ideal) x0 x3 x6 x7 x8 x9 x18 x19 x20 x21) x3) x22 x23 i j := by
  rw [val_main_v295_apply, val_main_v292_apply, val_main_v294_apply, val_main_v293_apply, Ideal.addf_def]
  unfold Cert.SpecForm.lin
  have eb : idx_main_v293 (idx_main_v294 (ix2 i j)) = ix1 j := funext fun a => Fin.ext (by match a with | ⟨0, _⟩ => rfl)
  rw [eb]
  have h : ∀ k : Fin 64, val_main_v290 (F := Ideal) x0 x3 x6 x7 x8 x9 x18 x19 x20 x21 (lidx_main_v292 (ix2 i j) k) * val_main_v291 (F := Ideal) x22 (ridx_main_v292 (ix2 i j) k)
      = ((val_main_v183 (F := Ideal) x0 x3 x6 x7 x8 x9 x18 x19 x20 x21) (ix2 i k) + aggR64 (val_main_v183 (F := Ideal) x0 x3 x6 x7 x8 x9 x18 x19 x20 x21) x3 (ix2 i k)) * x22 (ix2 j k) := fun k => by
    have e1 : lidx_main_v292 (ix2 i j) k = ix2 i k := funext fun a => Fin.ext (by match a with | ⟨0, _⟩ => rfl | ⟨1, _⟩ => rfl)
    have e2 : idx_main_v291 (ridx_main_v292 (ix2 i j) k) = ix2 j k := funext fun a => Fin.ext (by match a with | ⟨0, _⟩ => rfl | ⟨1, _⟩ => rfl)
    rw [val_main_v290_apply, val_main_v291_apply, Ideal.addf_def, val_main_v289_eq_agg, e1, e2]
  simp only [h]

/-- The layer at an entry: the linear part cut at zero. -/
theorem layer7_apply (x0 : (⟨S50000x256, .f32⟩ : BufTy).Contents (Elt Ideal)) (x3 : (⟨S2x800000, .i32⟩ : BufTy).Contents (Elt Ideal)) (x6 : (⟨S128x256, .f32⟩ : BufTy).Contents (Elt Ideal)) (x7 x8 x9 : (⟨S128, .f32⟩ : BufTy).Contents (Elt Ideal)) (x18 : (⟨S64x128, .f32⟩ : BufTy).Contents (Elt Ideal)) (x19 x20 x21 : (⟨S64, .f32⟩ : BufTy).Contents (Elt Ideal)) (x22 : (⟨S256x64, .f32⟩ : BufTy).Contents (Elt Ideal)) (x23 : (⟨S256, .f32⟩ : BufTy).Contents (Elt Ideal)) (i : Fin 50000) (j : Fin 256) :
    val_main_v296 (F := Ideal) x0 x3 x6 x7 x8 x9 x18 x19 x20 x21 x22 x23 (ix2 i j) = Cert.SpecForm.relu (Cert.SpecForm.lin (val_main_v183 (F := Ideal) x0 x3 x6 x7 x8 x9 x18 x19 x20 x21) (aggR64 (val_main_v183 (F := Ideal) x0 x3 x6 x7 x8 x9 x18 x19 x20 x21) x3) x22 x23) i j := by
  rw [val_main_v296_apply, val_main_call6_v0_apply, val_main_call6_cst_apply, layer7_lin, Ideal.maximumf_def, Ideal.ofBits_def, Ideal.ofBits_zero_f32]
  rfl

/-! ## The second layer without normalization (output `val_main_v317`) -/

/-- The layer's linear part at an entry. -/
theorem layer8_lin (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 x12 x13 : (⟨S128, .f32⟩ : BufTy).Contents (Elt Ideal)) (x18 : (⟨S64x128, .f32⟩ : BufTy).Contents (Elt Ideal)) (x19 x20 x21 : (⟨S64, .f32⟩ : BufTy).Contents (Elt Ideal)) (x24 : (⟨S128x64, .f32⟩ : BufTy).Contents (Elt Ideal)) (x25 : (⟨S128, .f32⟩ : BufTy).Contents (Elt Ideal)) (i : Fin 50000) (j : Fin 128) :
    val_main_v316 (F := Ideal) x1 x4 x10 x11 x12 x13 x18 x19 x20 x21 x24 x25 (ix2 i j) = Cert.SpecForm.lin (val_main_v229 (F := Ideal) x1 x4 x10 x11 x12 x13 x18 x19 x20 x21) (aggR64 (val_main_v229 (F := Ideal) x1 x4 x10 x11 x12 x13 x18 x19 x20 x21) x4) x24 x25 i j := by
  rw [val_main_v316_apply, val_main_v313_apply, val_main_v315_apply, val_main_v314_apply, Ideal.addf_def]
  unfold Cert.SpecForm.lin
  have eb : idx_main_v314 (idx_main_v315 (ix2 i j)) = ix1 j := funext fun a => Fin.ext (by match a with | ⟨0, _⟩ => rfl)
  rw [eb]
  have h : ∀ k : Fin 64, val_main_v311 (F := Ideal) x1 x4 x10 x11 x12 x13 x18 x19 x20 x21 (lidx_main_v313 (ix2 i j) k) * val_main_v312 (F := Ideal) x24 (ridx_main_v313 (ix2 i j) k)
      = ((val_main_v229 (F := Ideal) x1 x4 x10 x11 x12 x13 x18 x19 x20 x21) (ix2 i k) + aggR64 (val_main_v229 (F := Ideal) x1 x4 x10 x11 x12 x13 x18 x19 x20 x21) x4 (ix2 i k)) * x24 (ix2 j k) := fun k => by
    have e1 : lidx_main_v313 (ix2 i j) k = ix2 i k := funext fun a => Fin.ext (by match a with | ⟨0, _⟩ => rfl | ⟨1, _⟩ => rfl)
    have e2 : idx_main_v312 (ridx_main_v313 (ix2 i j) k) = ix2 j k := funext fun a => Fin.ext (by match a with | ⟨0, _⟩ => rfl | ⟨1, _⟩ => rfl)
    rw [val_main_v311_apply, val_main_v312_apply, Ideal.addf_def, val_main_v310_eq_agg, e1, e2]
  simp only [h]

/-- The layer at an entry: the linear part cut at zero. -/
theorem layer8_apply (x1 : (⟨S50000x128, .f32⟩ : BufTy).Contents (Elt Ideal)) (x4 : (⟨S2x800000, .i32⟩ : BufTy).Contents (Elt Ideal)) (x10 : (⟨S128x128, .f32⟩ : BufTy).Contents (Elt Ideal)) (x11 x12 x13 : (⟨S128, .f32⟩ : BufTy).Contents (Elt Ideal)) (x18 : (⟨S64x128, .f32⟩ : BufTy).Contents (Elt Ideal)) (x19 x20 x21 : (⟨S64, .f32⟩ : BufTy).Contents (Elt Ideal)) (x24 : (⟨S128x64, .f32⟩ : BufTy).Contents (Elt Ideal)) (x25 : (⟨S128, .f32⟩ : BufTy).Contents (Elt Ideal)) (i : Fin 50000) (j : Fin 128) :
    val_main_v317 (F := Ideal) x1 x4 x10 x11 x12 x13 x18 x19 x20 x21 x24 x25 (ix2 i j) = Cert.SpecForm.relu (Cert.SpecForm.lin (val_main_v229 (F := Ideal) x1 x4 x10 x11 x12 x13 x18 x19 x20 x21) (aggR64 (val_main_v229 (F := Ideal) x1 x4 x10 x11 x12 x13 x18 x19 x20 x21) x4) x24 x25) i j := by
  rw [val_main_v317_apply, val_main_call7_v0_apply, val_main_call7_cst_apply, layer8_lin, Ideal.maximumf_def, Ideal.ofBits_def, Ideal.ofBits_zero_f32]
  rfl

/-! ## The joined output -/

/-- The second result is the third and fourth normalized layers' outputs, one above the other. -/
theorem val_main_v318_fn (x0 : (⟨S50000x256, .f32⟩ : BufTy).Contents (Elt Ideal)) (x1 : (⟨S50000x128, .f32⟩ : BufTy).Contents (Elt Ideal)) (x3 x4 : (⟨S2x800000, .i32⟩ : BufTy).Contents (Elt Ideal)) (x6 : (⟨S128x256, .f32⟩ : BufTy).Contents (Elt Ideal)) (x7 x8 x9 : (⟨S128, .f32⟩ : BufTy).Contents (Elt Ideal)) (x10 : (⟨S128x128, .f32⟩ : BufTy).Contents (Elt Ideal)) (x11 x12 x13 : (⟨S128, .f32⟩ : BufTy).Contents (Elt Ideal)) (x18 : (⟨S64x128, .f32⟩ : BufTy).Contents (Elt Ideal)) (x19 x20 x21 : (⟨S64, .f32⟩ : BufTy).Contents (Elt Ideal)) :
    val_main_v318 (F := Ideal) x0 x1 x3 x4 x6 x7 x8 x9 x10 x11 x12 x13 x18 x19 x20 x21
      = concatenate S100000x64 0 [⟨S50000x64, (val_main_v183 (F := Ideal) x0 x3 x6 x7 x8 x9 x18 x19 x20 x21)⟩, ⟨S50000x64, (val_main_v229 (F := Ideal) x1 x4 x10 x11 x12 x13 x18 x19 x20 x21)⟩] concatenates_S50000x64_S50000x64_S100000x64_d0 := rfl

/-- The joined output's first 50000 rows are the fourth layer's output. -/
theorem val_main_v318_top (x0 : (⟨S50000x256, .f32⟩ : BufTy).Contents (Elt Ideal)) (x1 : (⟨S50000x128, .f32⟩ : BufTy).Contents (Elt Ideal)) (x3 x4 : (⟨S2x800000, .i32⟩ : BufTy).Contents (Elt Ideal)) (x6 : (⟨S128x256, .f32⟩ : BufTy).Contents (Elt Ideal)) (x7 x8 x9 : (⟨S128, .f32⟩ : BufTy).Contents (Elt Ideal)) (x10 : (⟨S128x128, .f32⟩ : BufTy).Contents (Elt Ideal)) (x11 x12 x13 : (⟨S128, .f32⟩ : BufTy).Contents (Elt Ideal)) (x18 : (⟨S64x128, .f32⟩ : BufTy).Contents (Elt Ideal)) (x19 x20 x21 : (⟨S64, .f32⟩ : BufTy).Contents (Elt Ideal)) (i : Fin 50000) (j : Fin 64) :
    val_main_v318 (F := Ideal) x0 x1 x3 x4 x6 x7 x8 x9 x10 x11 x12 x13 x18 x19 x20 x21 (ix2 (⟨i.val, by have := i.isLt; omega⟩ : Fin 100000) j)
      = val_main_v183 (F := Ideal) x0 x3 x6 x7 x8 x9 x18 x19 x20 x21 (ix2 i j) := by
  unfold val_main_v318
  generalize val_main_v183 (F := Ideal) x0 x3 x6 x7 x8 x9 x18 x19 x20 x21 = y1
  generalize val_main_v229 (F := Ideal) x1 x4 x10 x11 x12 x13 x18 x19 x20 x21 = y2
  exact concatenate_pair_apply_left 0 y1 y2 concatenates_S50000x64_S50000x64_S100000x64_d0 _ rfl (ix2 i j)
    (fun b => by match b with | ⟨0, _⟩ => rfl | ⟨1, _⟩ => rfl)

/-- The joined output's last 50000 rows are the fifth layer's output. -/
theorem val_main_v318_bot (x0 : (⟨S50000x256, .f32⟩ : BufTy).Contents (Elt Ideal)) (x1 : (⟨S50000x128, .f32⟩ : BufTy).Contents (Elt Ideal)) (x3 x4 : (⟨S2x800000, .i32⟩ : BufTy).Contents (Elt Ideal)) (x6 : (⟨S128x256, .f32⟩ : BufTy).Contents (Elt Ideal)) (x7 x8 x9 : (⟨S128, .f32⟩ : BufTy).Contents (Elt Ideal)) (x10 : (⟨S128x128, .f32⟩ : BufTy).Contents (Elt Ideal)) (x11 x12 x13 : (⟨S128, .f32⟩ : BufTy).Contents (Elt Ideal)) (x18 : (⟨S64x128, .f32⟩ : BufTy).Contents (Elt Ideal)) (x19 x20 x21 : (⟨S64, .f32⟩ : BufTy).Contents (Elt Ideal)) (i : Fin 50000) (j : Fin 64) :
    val_main_v318 (F := Ideal) x0 x1 x3 x4 x6 x7 x8 x9 x10 x11 x12 x13 x18 x19 x20 x21 (ix2 (⟨i.val + 50000, by have := i.isLt; omega⟩ : Fin 100000) j)
      = val_main_v229 (F := Ideal) x1 x4 x10 x11 x12 x13 x18 x19 x20 x21 (ix2 i j) := by
  unfold val_main_v318
  generalize val_main_v183 (F := Ideal) x0 x3 x6 x7 x8 x9 x18 x19 x20 x21 = y1
  generalize val_main_v229 (F := Ideal) x1 x4 x10 x11 x12 x13 x18 x19 x20 x21 = y2
  exact concatenate_pair_apply_right 0 y1 y2 concatenates_S50000x64_S50000x64_S100000x64_d0 _ rfl rfl (ix2 i j)
    (fun b hb => by match b with | ⟨0, _⟩ => exact absurd rfl hb | ⟨1, _⟩ => rfl) rfl

end Cert.ReferenceIdeal.HandRef

end
-- ==== Proof.LibBatchVar.lean ====
/-
  The biased batch variance in its two spellings, on the extended reals.

  A batch-normalisation layer needs the variance of a column `z : ι → ℝ` of `n = |ι|` finite numbers. One program
  accumulates the two moments and subtracts, `(Σ z²)/n − (Σ z / n)·(Σ z / n)`; another centres first,
  `(Σ (z − Σ z / n)²)/n`. Over the reals these are one number (expand the square: `Σ (z − μ)² = Σ z² − n·μ²` with
  `μ = Σ z / n`). On the extended reals the identity needs every `z i` FINITE — with an infinite entry the first form
  meets `∞ − ∞` — so it is stated for real entries coerced, with the quotient the extended reals' `Ideal.div` by the
  real `n ≠ 0`. The sums are over any finite index type, so a tiled or regrouped accumulation is rewritten to one
  sum first and this law applied after.
-/
import Idealize.ShloMosaic.PureOps.Ideal
import Mathlib.Data.EReal.Operations
import Mathlib.Algebra.BigOperators.Field
import Mathlib.Tactic.Ring
import Mathlib.Tactic.FieldSimp
import Mathlib.Tactic.Linarith

noncomputable section

namespace Cert.Lib.BatchVar

open Idealize.ShloMosaic

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The extended quotient of a real by a nonzero real is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- Over the reals: the centred second moment is the raw second moment less `n` times the squared mean. -/
theorem real_var {ι : Type*} [Fintype ι] (z : ι → ℝ) (n : ℝ) (hn : n = (Fintype.card ι : ℝ)) (hn0 : n ≠ 0) :
    (∑ i, z i * z i) / n - (∑ i, z i) / n * ((∑ i, z i) / n)
      = (∑ i, (z i - (∑ j, z j) / n) * (z i - (∑ j, z j) / n)) / n := by
  set S : ℝ := ∑ j, z j with hS
  have hexp : (∑ i, (z i - S / n) * (z i - S / n))
      = (∑ i, z i * z i) - 2 * (S / n) * S + n * (S / n * (S / n)) := by
    have : ∀ i, (z i - S / n) * (z i - S / n) = z i * z i - 2 * (S / n) * z i + S / n * (S / n) := fun i => by ring
    simp only [this, Finset.sum_add_distrib, Finset.sum_sub_distrib, ← Finset.mul_sum, Finset.sum_const,
      Finset.card_univ, nsmul_eq_mul, ← hn, ← hS]
    ring
  rw [hexp]
  field_simp
  ring

/-- THE LAW. For a column of finite numbers the two spellings of the biased variance are one extended real:
    `(Σ z²)/n − (Σ z / n)·(Σ z / n) = (Σ (z − Σ z / n)·(z − Σ z / n))/n`, every quotient `Ideal.div` by the real `n = |ι| ≠ 0`. -/
theorem var_two_forms {ι : Type*} [Fintype ι] (z : ι → ℝ) (n : ℝ) (hn : n = (Fintype.card ι : ℝ)) (hn0 : n ≠ 0) :
    Ideal.div (∑ i, (z i : EReal) * (z i : EReal)) (n : EReal)
        - Ideal.div (∑ i, (z i : EReal)) (n : EReal) * Ideal.div (∑ i, (z i : EReal)) (n : EReal)
      = Ideal.div (∑ i, ((z i : EReal) - Ideal.div (∑ j, (z j : EReal)) (n : EReal))
          * ((z i : EReal) - Ideal.div (∑ j, (z j : EReal)) (n : EReal))) (n : EReal) := by
  simp only [← EReal.coe_mul, ← coe_sum, div_coe_coe _ _ hn0, ← EReal.coe_sub]
  exact congrArg _ (real_var z n hn hn0)

/-- The mean and the variance of a column of finite numbers are finite: the two moments' quotients by a nonzero real
    are reals, named here so that a later layer can go on with real witnesses. -/
theorem mean_var_real {ι : Type*} [Fintype ι] (z : ι → ℝ) (n : ℝ) (hn0 : n ≠ 0) :
    Ideal.div (∑ i, (z i : EReal)) (n : EReal) = (((∑ i, z i) / n : ℝ) : EReal)
      ∧ Ideal.div (∑ i, (z i : EReal) * (z i : EReal)) (n : EReal) = (((∑ i, z i * z i) / n : ℝ) : EReal) := by
  constructor
  · rw [← coe_sum, div_coe_coe _ _ hn0]
  · simp only [← EReal.coe_mul, ← coe_sum, div_coe_coe _ _ hn0]

/-- The variance of a column of finite numbers is nonnegative (so `var + ε` with `ε > 0` is a positive real and its
    reciprocal square root is finite): the centred form is a sum of squares over a positive count. -/
theorem real_var_nonneg {ι : Type*} [Fintype ι] (z : ι → ℝ) (n : ℝ) (hn : n = (Fintype.card ι : ℝ)) (hn0 : n ≠ 0) :
    0 ≤ (∑ i, z i * z i) / n - (∑ i, z i) / n * ((∑ i, z i) / n) := by
  rw [real_var z n hn hn0]
  have hpos : 0 < n := by
    rcases lt_or_gt_of_ne hn0 with h | h
    · exact absurd (hn ▸ (Nat.cast_nonneg _ : (0 : ℝ) ≤ (Fintype.card ι : ℝ))) (not_le.mpr h)
    · exact h
  exact div_nonneg (Finset.sum_nonneg fun i _ => mul_self_nonneg _) hpos.le

/-- The normaliser is finite: for a real `v ≥ 0` and a real `ε > 0` the reciprocal square root of `v + ε` on the extended
    reals is the real `(√(v + ε))⁻¹` — neither of `Ideal.rsqrt`'s corners (a negative argument, zero) is met. -/
theorem rsqrt_add_pos (v ε : ℝ) (hv : 0 ≤ v) (hε : 0 < ε) :
    Ideal.rsqrt ((v : EReal) + (ε : EReal)) = (((Real.sqrt (v + ε))⁻¹ : ℝ) : EReal) := by
  have hpos : 0 < v + ε := by linarith
  rw [← EReal.coe_add, Ideal.rsqrt_coe, if_neg (not_lt.mpr hpos.le), if_neg hpos.ne']

end Cert.Lib.BatchVar

end
-- ==== Proof.LayerLaw.lean ====
/-
  One layer on real data: the two arrangements of training-mode batch normalisation agree, and every value a layer
  produces from real inputs is real.

  For a column z of n real numbers one program takes the mean  S / n  and the variance  Q / n − mean · mean  from the
  two moments S = Σ z, Q = Σ z · z; the other takes the same mean m and the centred variance (Σ (z − m) · (z − m)) / n.
  Both then form  max (((z i − mean) · rsqrt (var + ε)) · g + β, 0). On real data the two variances are one
  nonnegative real, var + ε is a positive real, and the whole expression is a real. The two constants the programs
  spell as bit patterns, the row count and ε, are evaluated here once.
-/
import Idealize.ShloMosaic.PureOps.Ideal
import Idealize.ShloMosaic.PureOps.Ideal.Laws
import proofs.«144613_j17471926960174_1_alg».proof.Proof.LibBatchVar
import Mathlib.Tactic.NormNum
import Mathlib.Tactic.Choose

noncomputable section

open scoped BigOperators

namespace Cert.LayerLaw

open Idealize.ShloMosaic Cert.Lib.BatchVar

/-! ## The two constants -/

/-- The pattern of the row count denotes the real 50000. -/
theorem n_val : Ideal.ofBits .f32 0x47435000#32 = ((50000 : ℝ) : EReal) := by
  simp [Ideal.ofBits, Ideal.ieee, -EReal.coe_mul]; norm_num

/-- The pattern of ε denotes a positive real (10995116 · 2⁻⁴⁰, a little under 10⁻⁵). -/
theorem eps_val : ∃ e : ℝ, 0 < e ∧ Ideal.ofBits .f32 0x3727C5AC#32 = ((e : ℝ) : EReal) := by
  refine ⟨10995116 / 2 ^ 40, by norm_num, ?_⟩
  simp [Ideal.ofBits, Ideal.ieee, -EReal.coe_mul]; norm_num

/-! ## Batch normalisation in its two arrangements -/

/-- The coercion of the reals into the extended reals is monotone, so it commutes with the maximum. -/
theorem coe_max (x y : ℝ) : ((max x y : ℝ) : EReal) = max (x : EReal) (y : EReal) :=
  EReal.coe_strictMono.monotone.map_max

/-- The moments' variance and the centred variance give the same normalised, scaled, shifted and rectified value. -/
theorem bn_two_forms {ι : Type*} [Fintype ι] (z : ι → ℝ) (n : ℝ) (hn : n = (Fintype.card ι : ℝ)) (hn0 : n ≠ 0)
    (ε : ℝ) (hε : 0 < ε) (g β : ℝ) (i : ι) :
    max ((((z i : EReal) - Ideal.div (∑ a, (z a : EReal)) n)
        * Ideal.rsqrt ((Ideal.div (∑ a, (z a : EReal) * (z a : EReal)) n
            - Ideal.div (∑ a, (z a : EReal)) n * Ideal.div (∑ a, (z a : EReal)) n) + ε)) * g + β) 0
      = max ((((z i : EReal) - Ideal.div (∑ a, (z a : EReal)) n)
        * Ideal.rsqrt (Ideal.div (∑ a, ((z a : EReal) - Ideal.div (∑ b, (z b : EReal)) n)
            * ((z a : EReal) - Ideal.div (∑ b, (z b : EReal)) n)) n + ε)) * g + β) 0 := by
  rw [var_two_forms z n hn hn0]

/-- … and that value is a real. -/
theorem bn_real {ι : Type*} [Fintype ι] (z : ι → ℝ) (n : ℝ) (hn : n = (Fintype.card ι : ℝ)) (hn0 : n ≠ 0)
    (ε : ℝ) (hε : 0 < ε) (g β : ℝ) (i : ι) :
    ∃ y : ℝ, max ((((z i : EReal) - Ideal.div (∑ a, (z a : EReal)) n)
        * Ideal.rsqrt (Ideal.div (∑ a, ((z a : EReal) - Ideal.div (∑ b, (z b : EReal)) n)
            * ((z a : EReal) - Ideal.div (∑ b, (z b : EReal)) n)) n + ε)) * g + β) 0 = (y : EReal) := by
  have hpos : 0 < n := by
    rcases lt_or_gt_of_ne hn0 with h | h
    · exact absurd (hn ▸ (Nat.cast_nonneg _ : (0 : ℝ) ≤ (Fintype.card ι : ℝ))) (not_le.mpr h)
    · exact h
  have hm : Ideal.div (∑ a, (z a : EReal)) (n : EReal) = (((∑ a, z a) / n : ℝ) : EReal) := (mean_var_real z n hn0).1
  rw [hm]
  generalize (∑ a, z a) / n = μ
  have hv : Ideal.div (∑ a, ((z a : EReal) - (μ : EReal)) * ((z a : EReal) - (μ : EReal))) (n : EReal)
      = (((∑ a, (z a - μ) * (z a - μ)) / n : ℝ) : EReal) := by
    simp only [← EReal.coe_sub, ← EReal.coe_mul, ← coe_sum, div_coe_coe _ _ hn0]
  have hv0 : 0 ≤ (∑ a, (z a - μ) * (z a - μ)) / n :=
    div_nonneg (Finset.sum_nonneg fun a _ => mul_self_nonneg _) hpos.le
  rw [hv, rsqrt_add_pos _ ε hv0 hε]
  refine ⟨max ((z i - μ) * (Real.sqrt ((∑ a, (z a - μ) * (z a - μ)) / n + ε))⁻¹ * g + β) 0, ?_⟩
  rw [← EReal.coe_sub, ← EReal.coe_mul, ← EReal.coe_mul, ← EReal.coe_add, ← EReal.coe_zero, ← coe_max]

/-! ## Realness through a layer -/

/-- A family of extended reals each of which is a real is the coercion of a real family. -/
theorem exists_real_fun {ι : Type*} (f : ι → EReal) (h : ∀ i, ∃ y : ℝ, f i = (y : EReal)) :
    ∃ z : ι → ℝ, ∀ i, f i = (z i : EReal) := by
  choose z hz using h
  exact ⟨z, hz⟩

/-- A finite sum of reals is a real. -/
theorem sum_real {ι : Type*} [Fintype ι] (f : ι → ℝ) : ∃ y : ℝ, ∑ k, (f k : EReal) = (y : EReal) :=
  ⟨∑ k, f k, (coe_sum Finset.univ f).symm⟩

/-- The linear part of a layer, h = Σ (x + a) · w + b, on real data is a real. -/
theorem lin_real {ι : Type*} [Fintype ι] (x a w : ι → ℝ) (b : ℝ) :
    ∃ y : ℝ, (∑ k, ((x k : EReal) + (a k : EReal)) * (w k : EReal)) + (b : EReal) = (y : EReal) :=
  ⟨(∑ k, (x k + a k) * w k) + b, by
    simp only [← EReal.coe_add, ← EReal.coe_mul, ← coe_sum]⟩

/-- The rectifier of a real is a real. -/
theorem relu_real (y : ℝ) : ∃ y' : ℝ, max (y : EReal) 0 = (y' : EReal) :=
  ⟨max y 0, by rw [← EReal.coe_zero, ← coe_max]⟩

end Cert.LayerLaw

end
-- ==== Proof.SpecLaw.lean ====
/-
  A layer at one entry, on real data: its value is a real, and the two arrangements of the column variance give the
  same normalised value.

  The linear part Σ (x + a) · W + b of real inputs is a real. A column of reals has the same variance whether it is
  taken as the mean of the squared deviations or as the mean of the squares less the squared mean, so batch
  normalisation with either agrees, and the result is a real. The row count and ε are the constants the programs spell
  as bit patterns.
-/
import proofs.«144613_j17471926960174_1_alg».proof.Proof.SpecForm
import proofs.«144613_j17471926960174_1_alg».proof.Proof.LayerLaw

noncomputable section

open scoped BigOperators

namespace Cert.SpecLaw

open Idealize.ShloMosaic Idealize.ShloMosaic.ValueIdx Cert.SpecForm

/-- The linear part of real inputs is a real, at any row count. -/
theorem lin_real {n din dout : ℕ} (x a : (⟨2, ![n, din]⟩ : Shape).Idx → EReal) (W : (⟨2, ![dout, din]⟩ : Shape).Idx → EReal)
    (b : (⟨1, ![dout]⟩ : Shape).Idx → EReal) (hx : ∀ i, ∃ y : ℝ, x i = (y : EReal)) (ha : ∀ i, ∃ y : ℝ, a i = (y : EReal))
    (hW : ∀ i, ∃ y : ℝ, W i = (y : EReal)) (hb : ∀ i, ∃ y : ℝ, b i = (y : EReal)) (i : Fin n) (j : Fin dout) :
    ∃ y : ℝ, lin x a W b i j = (y : EReal) := by
  obtain ⟨x', hx'⟩ := Cert.LayerLaw.exists_real_fun x hx
  obtain ⟨a', ha'⟩ := Cert.LayerLaw.exists_real_fun a ha
  obtain ⟨W', hW'⟩ := Cert.LayerLaw.exists_real_fun W hW
  obtain ⟨b', hb'⟩ := Cert.LayerLaw.exists_real_fun b hb
  unfold lin
  simp only [hx', ha', hW', hb']
  exact Cert.LayerLaw.lin_real (fun k => x' (ix2 i k)) (fun k => a' (ix2 i k)) (fun k => W' (ix2 j k)) (b' (ix1 j))

/-- Over any array of reals with 50000 rows: normalisation with the two variances agrees. -/
theorem bn_law {d : ℕ} (h : Fin 50000 → Fin d → EReal) (hh : ∀ i j, ∃ y : ℝ, h i j = (y : EReal))
    (g β : (⟨1, ![d]⟩ : Shape).Idx → EReal) (hg : ∀ i, ∃ y : ℝ, g i = (y : EReal)) (hβ : ∀ i, ∃ y : ℝ, β i = (y : EReal))
    (i : Fin 50000) (j : Fin d) :
    bnWith h (Ideal.ofBits .f32 0x47435000#32) (Ideal.ofBits .f32 0x3727C5AC#32)
        (varSq h (Ideal.ofBits .f32 0x47435000#32)) g β i j
      = bnWith h (Ideal.ofBits .f32 0x47435000#32) (Ideal.ofBits .f32 0x3727C5AC#32)
        (varDev h (Ideal.ofBits .f32 0x47435000#32)) g β i j := by
  obtain ⟨z, hz⟩ := Cert.LayerLaw.exists_real_fun (fun r => h r j) fun r => hh r j
  have hz' : ∀ r, h r j = (z r : EReal) := hz
  obtain ⟨g', hg'⟩ := hg (ix1 j)
  obtain ⟨β', hβ'⟩ := hβ (ix1 j)
  obtain ⟨e, he, hE⟩ := Cert.LayerLaw.eps_val
  unfold bnWith varSq varDev mean
  simp only [hz', Cert.LayerLaw.n_val, hE, hg', hβ']
  exact Cert.LayerLaw.bn_two_forms z 50000 (by rw [Fintype.card_fin]; norm_num) (by norm_num) e he g' β' i

/-- … and the normalised value is a real. -/
theorem bn_real {d : ℕ} (h : Fin 50000 → Fin d → EReal) (hh : ∀ i j, ∃ y : ℝ, h i j = (y : EReal))
    (g β : (⟨1, ![d]⟩ : Shape).Idx → EReal) (hg : ∀ i, ∃ y : ℝ, g i = (y : EReal)) (hβ : ∀ i, ∃ y : ℝ, β i = (y : EReal))
    (i : Fin 50000) (j : Fin d) :
    ∃ y : ℝ, bnWith h (Ideal.ofBits .f32 0x47435000#32) (Ideal.ofBits .f32 0x3727C5AC#32)
        (varDev h (Ideal.ofBits .f32 0x47435000#32)) g β i j = (y : EReal) := by
  obtain ⟨z, hz⟩ := Cert.LayerLaw.exists_real_fun (fun r => h r j) fun r => hh r j
  have hz' : ∀ r, h r j = (z r : EReal) := hz
  obtain ⟨g', hg'⟩ := hg (ix1 j)
  obtain ⟨β', hβ'⟩ := hβ (ix1 j)
  obtain ⟨e, he, hE⟩ := Cert.LayerLaw.eps_val
  unfold bnWith varDev mean
  simp only [hz', Cert.LayerLaw.n_val, hE, hg', hβ']
  exact Cert.LayerLaw.bn_real z 50000 (by rw [Fintype.card_fin]; norm_num) (by norm_num) e he g' β' i

section Layer

variable {din dout : ℕ} (x a : (⟨2, ![50000, din]⟩ : Shape).Idx → EReal) (W : (⟨2, ![dout, din]⟩ : Shape).Idx → EReal)
  (b g β : (⟨1, ![dout]⟩ : Shape).Idx → EReal)
  (hx : ∀ i, ∃ y : ℝ, x i = (y : EReal)) (ha : ∀ i, ∃ y : ℝ, a i = (y : EReal))
  (hW : ∀ i, ∃ y : ℝ, W i = (y : EReal)) (hb : ∀ i, ∃ y : ℝ, b i = (y : EReal))
  (hg : ∀ i, ∃ y : ℝ, g i = (y : EReal)) (hβ : ∀ i, ∃ y : ℝ, β i = (y : EReal))

include hx ha hW hb hg hβ in
/-- A normalised layer of real inputs: the two variances give the same value. -/
theorem bn_layer_law (i : Fin 50000) (j : Fin dout) :
    bnWith (lin x a W b) (Ideal.ofBits .f32 0x47435000#32) (Ideal.ofBits .f32 0x3727C5AC#32)
        (varSq (lin x a W b) (Ideal.ofBits .f32 0x47435000#32)) g β i j
      = bnWith (lin x a W b) (Ideal.ofBits .f32 0x47435000#32) (Ideal.ofBits .f32 0x3727C5AC#32)
        (varDev (lin x a W b) (Ideal.ofBits .f32 0x47435000#32)) g β i j :=
  bn_law (lin x a W b) (lin_real x a W b hx ha hW hb) g β hg hβ i j

include hx ha hW hb hg hβ in
/-- … and that value is a real. -/
theorem bn_layer_real (i : Fin 50000) (j : Fin dout) :
    ∃ y : ℝ, bnWith (lin x a W b) (Ideal.ofBits .f32 0x47435000#32) (Ideal.ofBits .f32 0x3727C5AC#32)
        (varDev (lin x a W b) (Ideal.ofBits .f32 0x47435000#32)) g β i j = (y : EReal) :=
  bn_real (lin x a W b) (lin_real x a W b hx ha hW hb) g β hg hβ i j

include hx ha hW hb in
/-- A rectified linear layer of real inputs is a real. -/
theorem relu_layer_real (i : Fin 50000) (j : Fin dout) : ∃ y : ℝ, relu (lin x a W b) i j = (y : EReal) := by
  obtain ⟨y, hy⟩ := lin_real x a W b hx ha hW hb i j
  unfold relu
  rw [hy]
  exact Cert.LayerLaw.relu_real y

end Layer

end Cert.SpecLaw

end
-- ==== Proof.Bridge.lean ====
/-
  From the two programs' layer readings to the equality of their layer outputs.

  One program's layer output is read, entry by entry, as the normalised layer with the variance taken from the two
  moments, the other's as the normalised layer with the centred variance, over inputs that are equal. On real inputs
  the two readings are one value, so the outputs are equal arrays, and every entry is a real — which is what the next
  layer needs of its input. The last two layers rectify the linear part directly.
-/
import proofs.«144613_j17471926960174_1_alg».proof.Proof.SpecForm
import proofs.«144613_j17471926960174_1_alg».proof.Proof.SpecLaw
import Idealize.ShloMosaic.Lib.ValueIdx

noncomputable section

namespace Cert.Bridge

open Idealize.ShloMosaic Idealize.ShloMosaic.ValueIdx Cert.SpecForm

/-- A normalised layer: the outputs agree and are real. -/
theorem bridge_bn {din dout : ℕ} (Kout Rout : (⟨2, ![50000, dout]⟩ : Shape).Idx → EReal)
    (x x' aK aR : (⟨2, ![50000, din]⟩ : Shape).Idx → EReal) (W W' : (⟨2, ![dout, din]⟩ : Shape).Idx → EReal)
    (b b' g g' β β' : (⟨1, ![dout]⟩ : Shape).Idx → EReal)
    (hK : ∀ i j, Kout (ix2 i j) = bnWith (lin x aK W b) (Ideal.ofBits .f32 0x47435000#32) (Ideal.ofBits .f32 0x3727C5AC#32)
      (varSq (lin x aK W b) (Ideal.ofBits .f32 0x47435000#32)) g β i j)
    (hR : ∀ i j, Rout (ix2 i j) = bnWith (lin x' aR W' b') (Ideal.ofBits .f32 0x47435000#32) (Ideal.ofBits .f32 0x3727C5AC#32)
      (varDev (lin x' aR W' b') (Ideal.ofBits .f32 0x47435000#32)) g' β' i j)
    (ex : x' = x) (ea : aR = aK) (eW : W' = W) (eb : b' = b) (eg : g' = g) (eβ : β' = β)
    (hx : ∀ i, ∃ y : ℝ, x i = (y : EReal)) (ha : ∀ i, ∃ y : ℝ, aK i = (y : EReal))
    (hW : ∀ i, ∃ y : ℝ, W i = (y : EReal)) (hb : ∀ i, ∃ y : ℝ, b i = (y : EReal))
    (hg : ∀ i, ∃ y : ℝ, g i = (y : EReal)) (hβ : ∀ i, ∃ y : ℝ, β i = (y : EReal)) :
    Rout = Kout ∧ ∀ idx, ∃ y : ℝ, Kout idx = (y : EReal) := by
  subst ex ea eW eb eg eβ
  refine ⟨funext fun idx => ?_, fun idx => ?_⟩
  · obtain ⟨i, j, rfl⟩ : ∃ (i : Fin 50000) (j : Fin dout), idx = ix2 i j := ⟨idx 0, idx 1, eq_ix2 idx⟩
    rw [hK i j, hR i j]
    exact (Cert.SpecLaw.bn_layer_law x' aR W' b' g' β' hx ha hW hb hg hβ i j).symm
  · obtain ⟨i, j, rfl⟩ : ∃ (i : Fin 50000) (j : Fin dout), idx = ix2 i j := ⟨idx 0, idx 1, eq_ix2 idx⟩
    rw [hK i j, Cert.SpecLaw.bn_layer_law x' aR W' b' g' β' hx ha hW hb hg hβ i j]
    exact Cert.SpecLaw.bn_layer_real x' aR W' b' g' β' hx ha hW hb hg hβ i j

/-- A rectified linear layer: the outputs agree and are real. -/
theorem bridge_relu {din dout : ℕ} (Kout Rout : (⟨2, ![50000, dout]⟩ : Shape).Idx → EReal)
    (x x' aK aR : (⟨2, ![50000, din]⟩ : Shape).Idx → EReal) (W W' : (⟨2, ![dout, din]⟩ : Shape).Idx → EReal)
    (b b' : (⟨1, ![dout]⟩ : Shape).Idx → EReal)
    (hK : ∀ i j, Kout (ix2 i j) = relu (lin x aK W b) i j)
    (hR : ∀ i j, Rout (ix2 i j) = relu (lin x' aR W' b') i j)
    (ex : x' = x) (ea : aR = aK) (eW : W' = W) (eb : b' = b)
    (hx : ∀ i, ∃ y : ℝ, x i = (y : EReal)) (ha : ∀ i, ∃ y : ℝ, aK i = (y : EReal))
    (hW : ∀ i, ∃ y : ℝ, W i = (y : EReal)) (hb : ∀ i, ∃ y : ℝ, b i = (y : EReal)) :
    Rout = Kout ∧ ∀ idx, ∃ y : ℝ, Kout idx = (y : EReal) := by
  subst ex ea eW eb
  refine ⟨funext fun idx => ?_, fun idx => ?_⟩
  · obtain ⟨i, j, rfl⟩ : ∃ (i : Fin 50000) (j : Fin dout), idx = ix2 i j := ⟨idx 0, idx 1, eq_ix2 idx⟩
    rw [hK i j, hR i j]
  · obtain ⟨i, j, rfl⟩ : ∃ (i : Fin 50000) (j : Fin dout), idx = ix2 i j := ⟨idx 0, idx 1, eq_ix2 idx⟩
    rw [hK i j]
    exact Cert.SpecLaw.relu_layer_real x' aR W' b' hx ha hW hb i j

end Cert.Bridge

end
-- ==== Proof.AggSame.lean ====
/-
  The two programs spell the neighbour aggregation with the same operations, so it is one function of the layer input
  and the edge array in both.
-/
import proofs.«144613_j17471926960174_1_alg».proof.Proof.HostAgg
import proofs.«144613_j17471926960174_1_alg».proof.Proof.RefAgg

noncomputable section

namespace Cert.AggSame

open Idealize.ShloMosaic

theorem agg256_same (x : (⟨Cert.KernelIdeal.S50000x256, .f32⟩ : BufTy).Contents (Elt Ideal))
    (e : (⟨Cert.KernelIdeal.S2x800000, .i32⟩ : BufTy).Contents (Elt Ideal)) :
    Cert.ReferenceIdeal.HandRef.aggR256 x e = Cert.KernelIdeal.HostVal.agg256 x e := by
  unfold Cert.ReferenceIdeal.HandRef.aggR256 Cert.KernelIdeal.HostVal.agg256
    Cert.ReferenceIdeal.HandRef.edgeSrc Cert.ReferenceIdeal.HandRef.edgeDst
    Cert.KernelIdeal.HostVal.edgeSrc Cert.KernelIdeal.HostVal.edgeDst Cert.KernelIdeal.HostVal.wrapIdx
  rfl

theorem agg128_same (x : (⟨Cert.KernelIdeal.S50000x128, .f32⟩ : BufTy).Contents (Elt Ideal))
    (e : (⟨Cert.KernelIdeal.S2x800000, .i32⟩ : BufTy).Contents (Elt Ideal)) :
    Cert.ReferenceIdeal.HandRef.aggR128 x e = Cert.KernelIdeal.HostVal.agg128 x e := by
  unfold Cert.ReferenceIdeal.HandRef.aggR128 Cert.KernelIdeal.HostVal.agg128
    Cert.ReferenceIdeal.HandRef.edgeSrc Cert.ReferenceIdeal.HandRef.edgeDst
    Cert.KernelIdeal.HostVal.edgeSrc Cert.KernelIdeal.HostVal.edgeDst Cert.KernelIdeal.HostVal.wrapIdx
  rfl

theorem agg64_same (x : (⟨Cert.KernelIdeal.S50000x64, .f32⟩ : BufTy).Contents (Elt Ideal))
    (e : (⟨Cert.KernelIdeal.S2x800000, .i32⟩ : BufTy).Contents (Elt Ideal)) :
    Cert.ReferenceIdeal.HandRef.aggR64 x e = Cert.KernelIdeal.HostVal.agg64 x e := by
  unfold Cert.ReferenceIdeal.HandRef.aggR64 Cert.KernelIdeal.HostVal.agg64
    Cert.ReferenceIdeal.HandRef.edgeSrc Cert.ReferenceIdeal.HandRef.edgeDst
    Cert.KernelIdeal.HostVal.edgeSrc Cert.KernelIdeal.HostVal.edgeDst Cert.KernelIdeal.HostVal.wrapIdx
  rfl

end Cert.AggSame

end
-- ==== Proof.FiniteIn.lean ====
/-
  From the precondition to "every entry of every float input is a real".

  The precondition says that, of each of the 23 float arguments, every entry's absolute value is below +∞, all 23
  facts joined by "and". An extended real whose absolute value max (x, −x) is below ⊤ is neither ⊤ nor ⊥: it is a
  real. The three integer edge arrays are not constrained and are not mentioned.
-/
import proofs.«144613_j17471926960174_1_alg».proof.Defs
import Idealize.ShloMosaic.Lib.ReduceAll
import Idealize.ShloMosaic.Lib.ValueIdx
import Idealize.ShloMosaic.Lib.Pipeline.Value
import Idealize.ShloMosaic.PureOps.Ideal.Laws

noncomputable section

namespace Cert.FiniteIn

open Idealize.ShloMosaic Idealize.SL.Sem Idealize.ShloMosaic.ValueIdx

/-- The rank-0 shape has one index. -/
instance : Subsingleton Cert.Pre_finite_inputs.S_.Idx := ⟨fun a b => funext fun d => d.elim0⟩

/-- The pattern the entries are compared with denotes +∞. -/
theorem inf_val : Ideal.ofBits .f32 0x7F800000#32 = ⊤ := by
  simp [Ideal.ofBits, Ideal.ieee]

/-- An extended real whose absolute value is below +∞ is a real. -/
theorem elem_real (x : EReal) (h : Ideal.cmp .olt (max x (-x)) ⊤ = 1#1) : ∃ y : ℝ, x = (y : EReal) := by
  induction x using EReal.rec with
  | bot => simp [Ideal.cmp] at h
  | top => simp [Ideal.cmp] at h
  | coe r => exact ⟨r, rfl⟩

/-- One "all entries are below +∞ in absolute value" over an array of any shape: every entry is a real. -/
theorem all_real {s : Shape} {axes : List (Fin s.rank)} (x : FVec Ideal s .f32)
    (bc : Cert.Pre_finite_inputs.S_.BroadcastsInDim s (![] : Fin 0 → Fin s.rank))
    (h : s.ReducesTo axes Cert.Pre_finite_inputs.S_) (hu : 0 < Cert.Pre_finite_inputs.S_.numel)
    (e : Host.reduce IntOp.andi
          (cmpf .olt (Host.absf x)
            (broadcastInDim s ![] bc (constant (F := Ideal) Cert.Pre_finite_inputs.S_ .f32 0x7F800000#32)))
          (constantI Cert.Pre_finite_inputs.S_ 1 1#1) h hu ix0 = 1#1) (i : s.Idx) :
    ∃ y : ℝ, x i = (y : EReal) := by
  have hi := Host.reduce_andi_all _ _ h hu ix0 e i
  rw [cmpf_apply, broadcastInDim_apply _ bc _ i ix0 (fun a => a.elim0), constant_apply, inf_val] at hi
  exact elem_real (x i) hi

/-- All 23 float arguments at once. -/
theorem real_args [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S50000x256.Idx, ∃ y : ℝ, m ((c.tc : Thread Cert.KernelIdeal.nD Cert.KernelIdeal.τ).loc Cert.KernelIdeal.main_arg0) i = (y : EReal))
      ∧ (∀ i : Cert.Pre_finite_inputs.S50000x128.Idx, ∃ y : ℝ, m ((c.tc : Thread Cert.KernelIdeal.nD Cert.KernelIdeal.τ).loc Cert.KernelIdeal.main_arg1) i = (y : EReal))
      ∧ (∀ i : Cert.Pre_finite_inputs.S50000x256.Idx, ∃ y : ℝ, m ((c.tc : Thread Cert.KernelIdeal.nD Cert.KernelIdeal.τ).loc Cert.KernelIdeal.main_arg2) i = (y : EReal))
      ∧ (∀ i : Cert.Pre_finite_inputs.S128x256.Idx, ∃ y : ℝ, m ((c.tc : Thread Cert.KernelIdeal.nD Cert.KernelIdeal.τ).loc Cert.KernelIdeal.main_arg6) i = (y : EReal))
      ∧ (∀ i : Cert.Pre_finite_inputs.S128.Idx, ∃ y : ℝ, m ((c.tc : Thread Cert.KernelIdeal.nD Cert.KernelIdeal.τ).loc Cert.KernelIdeal.main_arg7) i = (y : EReal))
      ∧ (∀ i : Cert.Pre_finite_inputs.S128.Idx, ∃ y : ℝ, m ((c.tc : Thread Cert.KernelIdeal.nD Cert.KernelIdeal.τ).loc Cert.KernelIdeal.main_arg8) i = (y : EReal))
      ∧ (∀ i : Cert.Pre_finite_inputs.S128.Idx, ∃ y : ℝ, m ((c.tc : Thread Cert.KernelIdeal.nD Cert.KernelIdeal.τ).loc Cert.KernelIdeal.main_arg9) i = (y : EReal))
      ∧ (∀ i : Cert.Pre_finite_inputs.S128x128.Idx, ∃ y : ℝ, m ((c.tc : Thread Cert.KernelIdeal.nD Cert.KernelIdeal.τ).loc Cert.KernelIdeal.main_arg10) i = (y : EReal))
      ∧ (∀ i : Cert.Pre_finite_inputs.S128.Idx, ∃ y : ℝ, m ((c.tc : Thread Cert.KernelIdeal.nD Cert.KernelIdeal.τ).loc Cert.KernelIdeal.main_arg11) i = (y : EReal))
      ∧ (∀ i : Cert.Pre_finite_inputs.S128.Idx, ∃ y : ℝ, m ((c.tc : Thread Cert.KernelIdeal.nD Cert.KernelIdeal.τ).loc Cert.KernelIdeal.main_arg12) i = (y : EReal))
      ∧ (∀ i : Cert.Pre_finite_inputs.S128.Idx, ∃ y : ℝ, m ((c.tc : Thread Cert.KernelIdeal.nD Cert.KernelIdeal.τ).loc Cert.KernelIdeal.main_arg13) i = (y : EReal))
      ∧ (∀ i : Cert.Pre_finite_inputs.S128x256.Idx, ∃ y : ℝ, m ((c.tc : Thread Cert.KernelIdeal.nD Cert.KernelIdeal.τ).loc Cert.KernelIdeal.main_arg14) i = (y : EReal))
      ∧ (∀ i : Cert.Pre_finite_inputs.S128.Idx, ∃ y : ℝ, m ((c.tc : Thread Cert.KernelIdeal.nD Cert.KernelIdeal.τ).loc Cert.KernelIdeal.main_arg15) i = (y : EReal))
      ∧ (∀ i : Cert.Pre_finite_inputs.S128.Idx, ∃ y : ℝ, m ((c.tc : Thread Cert.KernelIdeal.nD Cert.KernelIdeal.τ).loc Cert.KernelIdeal.main_arg16) i = (y : EReal))
      ∧ (∀ i : Cert.Pre_finite_inputs.S128.Idx, ∃ y : ℝ, m ((c.tc : Thread Cert.KernelIdeal.nD Cert.KernelIdeal.τ).loc Cert.KernelIdeal.main_arg17) i = (y : EReal))
      ∧ (∀ i : Cert.Pre_finite_inputs.S64x128.Idx, ∃ y : ℝ, m ((c.tc : Thread Cert.KernelIdeal.nD Cert.KernelIdeal.τ).loc Cert.KernelIdeal.main_arg18) i = (y : EReal))
      ∧ (∀ i : Cert.Pre_finite_inputs.S64.Idx, ∃ y : ℝ, m ((c.tc : Thread Cert.KernelIdeal.nD Cert.KernelIdeal.τ).loc Cert.KernelIdeal.main_arg19) i = (y : EReal))
      ∧ (∀ i : Cert.Pre_finite_inputs.S64.Idx, ∃ y : ℝ, m ((c.tc : Thread Cert.KernelIdeal.nD Cert.KernelIdeal.τ).loc Cert.KernelIdeal.main_arg20) i = (y : EReal))
      ∧ (∀ i : Cert.Pre_finite_inputs.S64.Idx, ∃ y : ℝ, m ((c.tc : Thread Cert.KernelIdeal.nD Cert.KernelIdeal.τ).loc Cert.KernelIdeal.main_arg21) i = (y : EReal))
      ∧ (∀ i : Cert.Pre_finite_inputs.S256x64.Idx, ∃ y : ℝ, m ((c.tc : Thread Cert.KernelIdeal.nD Cert.KernelIdeal.τ).loc Cert.KernelIdeal.main_arg22) i = (y : EReal))
      ∧ (∀ i : Cert.Pre_finite_inputs.S256.Idx, ∃ y : ℝ, m ((c.tc : Thread Cert.KernelIdeal.nD Cert.KernelIdeal.τ).loc Cert.KernelIdeal.main_arg23) i = (y : EReal))
      ∧ (∀ i : Cert.Pre_finite_inputs.S128x64.Idx, ∃ y : ℝ, m ((c.tc : Thread Cert.KernelIdeal.nD Cert.KernelIdeal.τ).loc Cert.KernelIdeal.main_arg24) i = (y : EReal))
      ∧ (∀ i : Cert.Pre_finite_inputs.S128.Idx, ∃ y : ℝ, m ((c.tc : Thread Cert.KernelIdeal.nD Cert.KernelIdeal.τ).loc Cert.KernelIdeal.main_arg25) i = (y : EReal)) := by
  have h := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  obtain ⟨h, e25⟩ := IntOp.andi_eq_one.1 h
  obtain ⟨h, e24⟩ := IntOp.andi_eq_one.1 h
  obtain ⟨h, e23⟩ := IntOp.andi_eq_one.1 h
  obtain ⟨h, e22⟩ := IntOp.andi_eq_one.1 h
  obtain ⟨h, e21⟩ := IntOp.andi_eq_one.1 h
  obtain ⟨h, e20⟩ := IntOp.andi_eq_one.1 h
  obtain ⟨h, e19⟩ := IntOp.andi_eq_one.1 h
  obtain ⟨h, e18⟩ := IntOp.andi_eq_one.1 h
  obtain ⟨h, e17⟩ := IntOp.andi_eq_one.1 h
  obtain ⟨h, e16⟩ := IntOp.andi_eq_one.1 h
  obtain ⟨h, e15⟩ := IntOp.andi_eq_one.1 h
  obtain ⟨h, e14⟩ := IntOp.andi_eq_one.1 h
  obtain ⟨h, e13⟩ := IntOp.andi_eq_one.1 h
  obtain ⟨h, e12⟩ := IntOp.andi_eq_one.1 h
  obtain ⟨h, e11⟩ := IntOp.andi_eq_one.1 h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e2⟩ := IntOp.andi_eq_one.1 h
  obtain ⟨e0, e1⟩ := IntOp.andi_eq_one.1 h
  exact ⟨all_real _ _ _ _ e0,
    all_real _ _ _ _ e1,
    all_real _ _ _ _ e2,
    all_real _ _ _ _ e6,
    all_real _ _ _ _ e7,
    all_real _ _ _ _ e8,
    all_real _ _ _ _ e9,
    all_real _ _ _ _ e10,
    all_real _ _ _ _ e11,
    all_real _ _ _ _ e12,
    all_real _ _ _ _ e13,
    all_real _ _ _ _ e14,
    all_real _ _ _ _ e15,
    all_real _ _ _ _ e16,
    all_real _ _ _ _ e17,
    all_real _ _ _ _ e18,
    all_real _ _ _ _ e19,
    all_real _ _ _ _ e20,
    all_real _ _ _ _ e21,
    all_real _ _ _ _ e22,
    all_real _ _ _ _ e23,
    all_real _ _ _ _ e24,
    all_real _ _ _ _ e25⟩

theorem real_arg0 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S50000x256.Idx) :
    ∃ y : ℝ, m ((c.tc : Thread Cert.KernelIdeal.nD Cert.KernelIdeal.τ).loc Cert.KernelIdeal.main_arg0) i = (y : EReal) :=
  (real_args m h c).1 i

theorem real_arg1 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S50000x128.Idx) :
    ∃ y : ℝ, m ((c.tc : Thread Cert.KernelIdeal.nD Cert.KernelIdeal.τ).loc Cert.KernelIdeal.main_arg1) i = (y : EReal) :=
  (real_args m h c).2.1 i

theorem real_arg2 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S50000x256.Idx) :
    ∃ y : ℝ, m ((c.tc : Thread Cert.KernelIdeal.nD Cert.KernelIdeal.τ).loc Cert.KernelIdeal.main_arg2) i = (y : EReal) :=
  (real_args m h c).2.2.1 i

theorem real_arg6 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128x256.Idx) :
    ∃ y : ℝ, m ((c.tc : Thread Cert.KernelIdeal.nD Cert.KernelIdeal.τ).loc Cert.KernelIdeal.main_arg6) i = (y : EReal) :=
  (real_args m h c).2.2.2.1 i

theorem real_arg7 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128.Idx) :
    ∃ y : ℝ, m ((c.tc : Thread Cert.KernelIdeal.nD Cert.KernelIdeal.τ).loc Cert.KernelIdeal.main_arg7) i = (y : EReal) :=
  (real_args m h c).2.2.2.2.1 i

theorem real_arg8 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128.Idx) :
    ∃ y : ℝ, m ((c.tc : Thread Cert.KernelIdeal.nD Cert.KernelIdeal.τ).loc Cert.KernelIdeal.main_arg8) i = (y : EReal) :=
  (real_args m h c).2.2.2.2.2.1 i

theorem real_arg9 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128.Idx) :
    ∃ y : ℝ, m ((c.tc : Thread Cert.KernelIdeal.nD Cert.KernelIdeal.τ).loc Cert.KernelIdeal.main_arg9) i = (y : EReal) :=
  (real_args m h c).2.2.2.2.2.2.1 i

theorem real_arg10 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128x128.Idx) :
    ∃ y : ℝ, m ((c.tc : Thread Cert.KernelIdeal.nD Cert.KernelIdeal.τ).loc Cert.KernelIdeal.main_arg10) i = (y : EReal) :=
  (real_args m h c).2.2.2.2.2.2.2.1 i

theorem real_arg11 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128.Idx) :
    ∃ y : ℝ, m ((c.tc : Thread Cert.KernelIdeal.nD Cert.KernelIdeal.τ).loc Cert.KernelIdeal.main_arg11) i = (y : EReal) :=
  (real_args m h c).2.2.2.2.2.2.2.2.1 i

theorem real_arg12 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128.Idx) :
    ∃ y : ℝ, m ((c.tc : Thread Cert.KernelIdeal.nD Cert.KernelIdeal.τ).loc Cert.KernelIdeal.main_arg12) i = (y : EReal) :=
  (real_args m h c).2.2.2.2.2.2.2.2.2.1 i

theorem real_arg13 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128.Idx) :
    ∃ y : ℝ, m ((c.tc : Thread Cert.KernelIdeal.nD Cert.KernelIdeal.τ).loc Cert.KernelIdeal.main_arg13) i = (y : EReal) :=
  (real_args m h c).2.2.2.2.2.2.2.2.2.2.1 i

theorem real_arg14 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128x256.Idx) :
    ∃ y : ℝ, m ((c.tc : Thread Cert.KernelIdeal.nD Cert.KernelIdeal.τ).loc Cert.KernelIdeal.main_arg14) i = (y : EReal) :=
  (real_args m h c).2.2.2.2.2.2.2.2.2.2.2.1 i

theorem real_arg15 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128.Idx) :
    ∃ y : ℝ, m ((c.tc : Thread Cert.KernelIdeal.nD Cert.KernelIdeal.τ).loc Cert.KernelIdeal.main_arg15) i = (y : EReal) :=
  (real_args m h c).2.2.2.2.2.2.2.2.2.2.2.2.1 i

theorem real_arg16 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128.Idx) :
    ∃ y : ℝ, m ((c.tc : Thread Cert.KernelIdeal.nD Cert.KernelIdeal.τ).loc Cert.KernelIdeal.main_arg16) i = (y : EReal) :=
  (real_args m h c).2.2.2.2.2.2.2.2.2.2.2.2.2.1 i

theorem real_arg17 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128.Idx) :
    ∃ y : ℝ, m ((c.tc : Thread Cert.KernelIdeal.nD Cert.KernelIdeal.τ).loc Cert.KernelIdeal.main_arg17) i = (y : EReal) :=
  (real_args m h c).2.2.2.2.2.2.2.2.2.2.2.2.2.2.1 i

theorem real_arg18 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S64x128.Idx) :
    ∃ y : ℝ, m ((c.tc : Thread Cert.KernelIdeal.nD Cert.KernelIdeal.τ).loc Cert.KernelIdeal.main_arg18) i = (y : EReal) :=
  (real_args m h c).2.2.2.2.2.2.2.2.2.2.2.2.2.2.2.1 i

theorem real_arg19 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S64.Idx) :
    ∃ y : ℝ, m ((c.tc : Thread Cert.KernelIdeal.nD Cert.KernelIdeal.τ).loc Cert.KernelIdeal.main_arg19) i = (y : EReal) :=
  (real_args m h c).2.2.2.2.2.2.2.2.2.2.2.2.2.2.2.2.1 i

theorem real_arg20 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S64.Idx) :
    ∃ y : ℝ, m ((c.tc : Thread Cert.KernelIdeal.nD Cert.KernelIdeal.τ).loc Cert.KernelIdeal.main_arg20) i = (y : EReal) :=
  (real_args m h c).2.2.2.2.2.2.2.2.2.2.2.2.2.2.2.2.2.1 i

theorem real_arg21 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S64.Idx) :
    ∃ y : ℝ, m ((c.tc : Thread Cert.KernelIdeal.nD Cert.KernelIdeal.τ).loc Cert.KernelIdeal.main_arg21) i = (y : EReal) :=
  (real_args m h c).2.2.2.2.2.2.2.2.2.2.2.2.2.2.2.2.2.2.1 i

theorem real_arg22 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S256x64.Idx) :
    ∃ y : ℝ, m ((c.tc : Thread Cert.KernelIdeal.nD Cert.KernelIdeal.τ).loc Cert.KernelIdeal.main_arg22) i = (y : EReal) :=
  (real_args m h c).2.2.2.2.2.2.2.2.2.2.2.2.2.2.2.2.2.2.2.1 i

theorem real_arg23 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S256.Idx) :
    ∃ y : ℝ, m ((c.tc : Thread Cert.KernelIdeal.nD Cert.KernelIdeal.τ).loc Cert.KernelIdeal.main_arg23) i = (y : EReal) :=
  (real_args m h c).2.2.2.2.2.2.2.2.2.2.2.2.2.2.2.2.2.2.2.2.1 i

theorem real_arg24 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128x64.Idx) :
    ∃ y : ℝ, m ((c.tc : Thread Cert.KernelIdeal.nD Cert.KernelIdeal.τ).loc Cert.KernelIdeal.main_arg24) i = (y : EReal) :=
  (real_args m h c).2.2.2.2.2.2.2.2.2.2.2.2.2.2.2.2.2.2.2.2.2.1 i

theorem real_arg25 [hPre_finite_inputs : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S128.Idx) :
    ∃ y : ℝ, m ((c.tc : Thread Cert.KernelIdeal.nD Cert.KernelIdeal.τ).loc Cert.KernelIdeal.main_arg25) i = (y : EReal) :=
  (real_args m h c).2.2.2.2.2.2.2.2.2.2.2.2.2.2.2.2.2.2.2.2.2.2 i

end Cert.FiniteIn

end
-- ==== Proof.Final.lean ====
/-
  The two programs compute the same arrays. Layer by layer: the kernel program's layer output, read off the chain of
  valuations, is the layer's expression with the column variance taken as the mean of the squares minus the squared
  mean; the reference's is the same expression with the variance as the mean of the squared deviations; on real data
  the two variances agree, the inputs agree (the arguments by hypothesis, a deeper layer's input by the layer before),
  the neighbour aggregation is one function in both programs, and each layer's output is again real. The returned
  arrays are the outputs of the last layers and the join of two of them.
-/
import proofs.«144613_j17471926960174_1_alg».proof.Defs
import proofs.«144613_j17471926960174_1_alg».proof.Proof.Gen.Pre_finite_inputs
import proofs.«144613_j17471926960174_1_alg».proof.Proof.KRun
import proofs.«144613_j17471926960174_1_alg».proof.Proof.Carry
import proofs.«144613_j17471926960174_1_alg».proof.Proof.KLayerA
import proofs.«144613_j17471926960174_1_alg».proof.Proof.KLayerB
import proofs.«144613_j17471926960174_1_alg».proof.Proof.KLayerC
import proofs.«144613_j17471926960174_1_alg».proof.Proof.KLayerD
import proofs.«144613_j17471926960174_1_alg».proof.Proof.KLayerE
import proofs.«144613_j17471926960174_1_alg».proof.Proof.KLayerF
import proofs.«144613_j17471926960174_1_alg».proof.Proof.KLayerG
import proofs.«144613_j17471926960174_1_alg».proof.Proof.KLayerH
import proofs.«144613_j17471926960174_1_alg».proof.Proof.RefLayers
import proofs.«144613_j17471926960174_1_alg».proof.Proof.RefFinal
import proofs.«144613_j17471926960174_1_alg».proof.Proof.Bridge
import proofs.«144613_j17471926960174_1_alg».proof.Proof.AggSame
import proofs.«144613_j17471926960174_1_alg».proof.Proof.FiniteIn
import proofs.«144613_j17471926960174_1_alg».proof.Proof.HostAgg
import proofs.«144613_j17471926960174_1_alg».proof.Proof.HostOdd

noncomputable section

namespace Cert.Proof.Final

open Cert.KernelIdeal Cert.KernelIdeal.Gen Cert.KernelIdeal.Hand Cert.KernelIdeal.HandVal Cert.KernelIdeal.HostVal
open Idealize.ShloMosaic Idealize.ShloMosaic.TcCoe Idealize.ShloMosaic.ValueIdx Idealize.SL.Sem

variable (m : (ℓ : Loc nD τ sig) → Buf (Elt Ideal) ℓ)

/-! ## One layer at a time

The reference's arguments enter as plain arrays `r0 … r25` with the hypothesis that each equals the kernel program's
argument; a deeper layer also takes the layer before as a hypothesis. -/

/-- Layer A: the reference's output is the kernel program's, and it is real. -/
theorem eqA (c : Dev nD) (r0 : S50000x256.Idx → EReal) (r3 : (⟨S2x800000, .i32⟩ : BufTy).Contents (Elt Ideal)) (r6 : S128x256.Idx → EReal) (r7 : S128.Idx → EReal) (r8 : S128.Idx → EReal) (r9 : S128.Idx → EReal)
    (h0 : r0 = xA m c) (h3 : r3 = eA m c) (h6 : r6 = wA m c) (h7 : r7 = bA m c) (h8 : r8 = gA m c) (h9 : r9 = βA m c)
    (hx : ∀ i, ∃ y : ℝ, xA m c i = (y : EReal)) (hW : ∀ i, ∃ y : ℝ, wA m c i = (y : EReal)) (hb : ∀ i, ∃ y : ℝ, bA m c i = (y : EReal)) (hg : ∀ i, ∃ y : ℝ, gA m c i = (y : EReal)) (hβ : ∀ i, ∃ y : ℝ, βA m c i = (y : EReal)) :
    (Cert.ReferenceIdeal.ReadP.val_main_v45 (F := Ideal) r0 r3 r6 r7 r8 r9 : S50000x128.Idx → EReal) = (W4 m XX c main_v25 : S50000x128.Idx → EReal)
    ∧ ∀ idx, ∃ y : ℝ, (W4 m XX c main_v25 : S50000x128.Idx → EReal) idx = (y : EReal) :=
  Cert.Bridge.bridge_bn (Kout := (W4 m XX c main_v25 : S50000x128.Idx → EReal)) (Rout := (Cert.ReferenceIdeal.ReadP.val_main_v45 (F := Ideal) r0 r3 r6 r7 r8 r9 : S50000x128.Idx → EReal))
      (x := xA m c) (x' := r0) (aK := agg256 (xA m c) (eA m c)) (aR := Cert.ReferenceIdeal.HandRef.aggR256 r0 r3)
      (W := wA m c) (W' := r6) (b := bA m c) (b' := r7) (g := gA m c) (g' := r8) (β := βA m c) (β' := r9)
      (hK := klayerA m c) (hR := Cert.ReferenceIdeal.HandRef.layer1_apply r0 r3 r6 r7 r8 r9)
      (ex := h0) (ea := by rw [h0, h3]; exact Cert.AggSame.agg256_same _ _)
      (eW := h6) (eb := h7) (eg := h8) (eβ := h9)
      (hx := hx) (ha := agg256_real _ _ hx) (hW := hW) (hb := hb) (hg := hg) (hβ := hβ)

/-- Layer B: the reference's output is the kernel program's, and it is real. -/
theorem eqB (c : Dev nD) (r1 : S50000x128.Idx → EReal) (r4 : (⟨S2x800000, .i32⟩ : BufTy).Contents (Elt Ideal)) (r10 : S128x128.Idx → EReal) (r11 : S128.Idx → EReal) (r12 : S128.Idx → EReal) (r13 : S128.Idx → EReal)
    (h1 : r1 = xB m c) (h4 : r4 = eB m c) (h10 : r10 = wB m c) (h11 : r11 = bB m c) (h12 : r12 = gB m c) (h13 : r13 = βB m c)
    (hx : ∀ i, ∃ y : ℝ, xB m c i = (y : EReal)) (hW : ∀ i, ∃ y : ℝ, wB m c i = (y : EReal)) (hb : ∀ i, ∃ y : ℝ, bB m c i = (y : EReal)) (hg : ∀ i, ∃ y : ℝ, gB m c i = (y : EReal)) (hβ : ∀ i, ∃ y : ℝ, βB m c i = (y : EReal)) :
    (Cert.ReferenceIdeal.ReadP.val_main_v91 (F := Ideal) r1 r4 r10 r11 r12 r13 : S50000x128.Idx → EReal) = (W8 m XX c main_v51 : S50000x128.Idx → EReal)
    ∧ ∀ idx, ∃ y : ℝ, (W8 m XX c main_v51 : S50000x128.Idx → EReal) idx = (y : EReal) :=
  Cert.Bridge.bridge_bn (Kout := (W8 m XX c main_v51 : S50000x128.Idx → EReal)) (Rout := (Cert.ReferenceIdeal.ReadP.val_main_v91 (F := Ideal) r1 r4 r10 r11 r12 r13 : S50000x128.Idx → EReal))
      (x := xB m c) (x' := r1) (aK := agg128 (xB m c) (eB m c)) (aR := Cert.ReferenceIdeal.HandRef.aggR128 r1 r4)
      (W := wB m c) (W' := r10) (b := bB m c) (b' := r11) (g := gB m c) (g' := r12) (β := βB m c) (β' := r13)
      (hK := klayerB m c) (hR := Cert.ReferenceIdeal.HandRef.layer2_apply r1 r4 r10 r11 r12 r13)
      (ex := h1) (ea := by rw [h1, h4]; exact Cert.AggSame.agg128_same _ _)
      (eW := h10) (eb := h11) (eg := h12) (eβ := h13)
      (hx := hx) (ha := agg128_real _ _ hx) (hW := hW) (hb := hb) (hg := hg) (hβ := hβ)

/-- Layer C: the reference's output is the kernel program's, and it is real. -/
theorem eqC (c : Dev nD) (r2 : S50000x256.Idx → EReal) (r5 : (⟨S2x800000, .i32⟩ : BufTy).Contents (Elt Ideal)) (r14 : S128x256.Idx → EReal) (r15 : S128.Idx → EReal) (r16 : S128.Idx → EReal) (r17 : S128.Idx → EReal)
    (h2 : r2 = xC m c) (h5 : r5 = eC m c) (h14 : r14 = wC m c) (h15 : r15 = bC m c) (h16 : r16 = gC m c) (h17 : r17 = βC m c)
    (hx : ∀ i, ∃ y : ℝ, xC m c i = (y : EReal)) (hW : ∀ i, ∃ y : ℝ, wC m c i = (y : EReal)) (hb : ∀ i, ∃ y : ℝ, bC m c i = (y : EReal)) (hg : ∀ i, ∃ y : ℝ, gC m c i = (y : EReal)) (hβ : ∀ i, ∃ y : ℝ, βC m c i = (y : EReal)) :
    (Cert.ReferenceIdeal.ReadP.val_main_v137 (F := Ideal) r2 r5 r14 r15 r16 r17 : S50000x128.Idx → EReal) = (W12 m XX c main_v77 : S50000x128.Idx → EReal)
    ∧ ∀ idx, ∃ y : ℝ, (W12 m XX c main_v77 : S50000x128.Idx → EReal) idx = (y : EReal) :=
  Cert.Bridge.bridge_bn (Kout := (W12 m XX c main_v77 : S50000x128.Idx → EReal)) (Rout := (Cert.ReferenceIdeal.ReadP.val_main_v137 (F := Ideal) r2 r5 r14 r15 r16 r17 : S50000x128.Idx → EReal))
      (x := xC m c) (x' := r2) (aK := agg256 (xC m c) (eC m c)) (aR := Cert.ReferenceIdeal.HandRef.aggR256 r2 r5)
      (W := wC m c) (W' := r14) (b := bC m c) (b' := r15) (g := gC m c) (g' := r16) (β := βC m c) (β' := r17)
      (hK := klayerC m c) (hR := Cert.ReferenceIdeal.HandRef.layer3_apply r2 r5 r14 r15 r16 r17)
      (ex := h2) (ea := by rw [h2, h5]; exact Cert.AggSame.agg256_same _ _)
      (eW := h14) (eb := h15) (eg := h16) (eβ := h17)
      (hx := hx) (ha := agg256_real _ _ hx) (hW := hW) (hb := hb) (hg := hg) (hβ := hβ)

/-- Layer D: the reference's output is the kernel program's, and it is real. -/
theorem eqD (c : Dev nD) (r0 : S50000x256.Idx → EReal) (r3 : (⟨S2x800000, .i32⟩ : BufTy).Contents (Elt Ideal)) (r6 : S128x256.Idx → EReal) (r7 : S128.Idx → EReal) (r8 : S128.Idx → EReal) (r9 : S128.Idx → EReal) (r18 : S64x128.Idx → EReal) (r19 : S64.Idx → EReal) (r20 : S64.Idx → EReal) (r21 : S64.Idx → EReal)
    (hp : (Cert.ReferenceIdeal.ReadP.val_main_v45 (F := Ideal) r0 r3 r6 r7 r8 r9 : S50000x128.Idx → EReal) = xD m c) (h3 : r3 = eD m c) (h18 : r18 = wD m c) (h19 : r19 = bD m c) (h20 : r20 = gD m c) (h21 : r21 = βD m c)
    (hx : ∀ i, ∃ y : ℝ, xD m c i = (y : EReal)) (hW : ∀ i, ∃ y : ℝ, wD m c i = (y : EReal)) (hb : ∀ i, ∃ y : ℝ, bD m c i = (y : EReal)) (hg : ∀ i, ∃ y : ℝ, gD m c i = (y : EReal)) (hβ : ∀ i, ∃ y : ℝ, βD m c i = (y : EReal)) :
    (Cert.ReferenceIdeal.ReadP.val_main_v183 (F := Ideal) r0 r3 r6 r7 r8 r9 r18 r19 r20 r21 : S50000x64.Idx → EReal) = (W16 m XX c main_v103 : S50000x64.Idx → EReal)
    ∧ ∀ idx, ∃ y : ℝ, (W16 m XX c main_v103 : S50000x64.Idx → EReal) idx = (y : EReal) :=
  Cert.Bridge.bridge_bn (Kout := (W16 m XX c main_v103 : S50000x64.Idx → EReal)) (Rout := (Cert.ReferenceIdeal.ReadP.val_main_v183 (F := Ideal) r0 r3 r6 r7 r8 r9 r18 r19 r20 r21 : S50000x64.Idx → EReal))
      (x := xD m c) (x' := (Cert.ReferenceIdeal.ReadP.val_main_v45 (F := Ideal) r0 r3 r6 r7 r8 r9 : S50000x128.Idx → EReal)) (aK := agg128 (xD m c) (eD m c)) (aR := Cert.ReferenceIdeal.HandRef.aggR128 (Cert.ReferenceIdeal.ReadP.val_main_v45 (F := Ideal) r0 r3 r6 r7 r8 r9 : S50000x128.Idx → EReal) r3)
      (W := wD m c) (W' := r18) (b := bD m c) (b' := r19) (g := gD m c) (g' := r20) (β := βD m c) (β' := r21)
      (hK := klayerD m c) (hR := Cert.ReferenceIdeal.HandRef.layer4_apply r0 r3 r6 r7 r8 r9 r18 r19 r20 r21)
      (ex := hp) (ea := by rw [hp, h3]; exact Cert.AggSame.agg128_same _ _)
      (eW := h18) (eb := h19) (eg := h20) (eβ := h21)
      (hx := hx) (ha := agg128_real _ _ hx) (hW := hW) (hb := hb) (hg := hg) (hβ := hβ)

/-- Layer E: the reference's output is the kernel program's, and it is real. -/
theorem eqE (c : Dev nD) (r1 : S50000x128.Idx → EReal) (r4 : (⟨S2x800000, .i32⟩ : BufTy).Contents (Elt Ideal)) (r10 : S128x128.Idx → EReal) (r11 : S128.Idx → EReal) (r12 : S128.Idx → EReal) (r13 : S128.Idx → EReal) (r18 : S64x128.Idx → EReal) (r19 : S64.Idx → EReal) (r20 : S64.Idx → EReal) (r21 : S64.Idx → EReal)
    (hp : (Cert.ReferenceIdeal.ReadP.val_main_v91 (F := Ideal) r1 r4 r10 r11 r12 r13 : S50000x128.Idx → EReal) = xE m c) (h4 : r4 = eE m c) (h18 : r18 = wE m c) (h19 : r19 = bE m c) (h20 : r20 = gE m c) (h21 : r21 = βE m c)
    (hx : ∀ i, ∃ y : ℝ, xE m c i = (y : EReal)) (hW : ∀ i, ∃ y : ℝ, wE m c i = (y : EReal)) (hb : ∀ i, ∃ y : ℝ, bE m c i = (y : EReal)) (hg : ∀ i, ∃ y : ℝ, gE m c i = (y : EReal)) (hβ : ∀ i, ∃ y : ℝ, βE m c i = (y : EReal)) :
    (Cert.ReferenceIdeal.ReadP.val_main_v229 (F := Ideal) r1 r4 r10 r11 r12 r13 r18 r19 r20 r21 : S50000x64.Idx → EReal) = (W20 m XX c main_v129 : S50000x64.Idx → EReal)
    ∧ ∀ idx, ∃ y : ℝ, (W20 m XX c main_v129 : S50000x64.Idx → EReal) idx = (y : EReal) :=
  Cert.Bridge.bridge_bn (Kout := (W20 m XX c main_v129 : S50000x64.Idx → EReal)) (Rout := (Cert.ReferenceIdeal.ReadP.val_main_v229 (F := Ideal) r1 r4 r10 r11 r12 r13 r18 r19 r20 r21 : S50000x64.Idx → EReal))
      (x := xE m c) (x' := (Cert.ReferenceIdeal.ReadP.val_main_v91 (F := Ideal) r1 r4 r10 r11 r12 r13 : S50000x128.Idx → EReal)) (aK := agg128 (xE m c) (eE m c)) (aR := Cert.ReferenceIdeal.HandRef.aggR128 (Cert.ReferenceIdeal.ReadP.val_main_v91 (F := Ideal) r1 r4 r10 r11 r12 r13 : S50000x128.Idx → EReal) r4)
      (W := wE m c) (W' := r18) (b := bE m c) (b' := r19) (g := gE m c) (g' := r20) (β := βE m c) (β' := r21)
      (hK := klayerE m c) (hR := Cert.ReferenceIdeal.HandRef.layer5_apply r1 r4 r10 r11 r12 r13 r18 r19 r20 r21)
      (ex := hp) (ea := by rw [hp, h4]; exact Cert.AggSame.agg128_same _ _)
      (eW := h18) (eb := h19) (eg := h20) (eβ := h21)
      (hx := hx) (ha := agg128_real _ _ hx) (hW := hW) (hb := hb) (hg := hg) (hβ := hβ)

/-- Layer F: the reference's output is the kernel program's, and it is real. -/
theorem eqF (c : Dev nD) (r2 : S50000x256.Idx → EReal) (r5 : (⟨S2x800000, .i32⟩ : BufTy).Contents (Elt Ideal)) (r14 : S128x256.Idx → EReal) (r15 : S128.Idx → EReal) (r16 : S128.Idx → EReal) (r17 : S128.Idx → EReal) (r18 : S64x128.Idx → EReal) (r19 : S64.Idx → EReal) (r20 : S64.Idx → EReal) (r21 : S64.Idx → EReal)
    (hp : (Cert.ReferenceIdeal.ReadP.val_main_v137 (F := Ideal) r2 r5 r14 r15 r16 r17 : S50000x128.Idx → EReal) = xF m c) (h5 : r5 = eF m c) (h18 : r18 = wF m c) (h19 : r19 = bF m c) (h20 : r20 = gF m c) (h21 : r21 = βF m c)
    (hx : ∀ i, ∃ y : ℝ, xF m c i = (y : EReal)) (hW : ∀ i, ∃ y : ℝ, wF m c i = (y : EReal)) (hb : ∀ i, ∃ y : ℝ, bF m c i = (y : EReal)) (hg : ∀ i, ∃ y : ℝ, gF m c i = (y : EReal)) (hβ : ∀ i, ∃ y : ℝ, βF m c i = (y : EReal)) :
    (Cert.ReferenceIdeal.ReadP.val_main_v275 (F := Ideal) r2 r5 r14 r15 r16 r17 r18 r19 r20 r21 : S50000x64.Idx → EReal) = (W24 m XX c main_v155 : S50000x64.Idx → EReal)
    ∧ ∀ idx, ∃ y : ℝ, (W24 m XX c main_v155 : S50000x64.Idx → EReal) idx = (y : EReal) :=
  Cert.Bridge.bridge_bn (Kout := (W24 m XX c main_v155 : S50000x64.Idx → EReal)) (Rout := (Cert.ReferenceIdeal.ReadP.val_main_v275 (F := Ideal) r2 r5 r14 r15 r16 r17 r18 r19 r20 r21 : S50000x64.Idx → EReal))
      (x := xF m c) (x' := (Cert.ReferenceIdeal.ReadP.val_main_v137 (F := Ideal) r2 r5 r14 r15 r16 r17 : S50000x128.Idx → EReal)) (aK := agg128 (xF m c) (eF m c)) (aR := Cert.ReferenceIdeal.HandRef.aggR128 (Cert.ReferenceIdeal.ReadP.val_main_v137 (F := Ideal) r2 r5 r14 r15 r16 r17 : S50000x128.Idx → EReal) r5)
      (W := wF m c) (W' := r18) (b := bF m c) (b' := r19) (g := gF m c) (g' := r20) (β := βF m c) (β' := r21)
      (hK := klayerF m c) (hR := Cert.ReferenceIdeal.HandRef.layer6_apply r2 r5 r14 r15 r16 r17 r18 r19 r20 r21)
      (ex := hp) (ea := by rw [hp, h5]; exact Cert.AggSame.agg128_same _ _)
      (eW := h18) (eb := h19) (eg := h20) (eβ := h21)
      (hx := hx) (ha := agg128_real _ _ hx) (hW := hW) (hb := hb) (hg := hg) (hβ := hβ)

/-- Layer G: the reference's output is the kernel program's, and it is real. -/
theorem eqG (c : Dev nD) (r0 : S50000x256.Idx → EReal) (r3 : (⟨S2x800000, .i32⟩ : BufTy).Contents (Elt Ideal)) (r6 : S128x256.Idx → EReal) (r7 : S128.Idx → EReal) (r8 : S128.Idx → EReal) (r9 : S128.Idx → EReal) (r18 : S64x128.Idx → EReal) (r19 : S64.Idx → EReal) (r20 : S64.Idx → EReal) (r21 : S64.Idx → EReal) (r22 : S256x64.Idx → EReal) (r23 : S256.Idx → EReal)
    (hp : (Cert.ReferenceIdeal.ReadP.val_main_v183 (F := Ideal) r0 r3 r6 r7 r8 r9 r18 r19 r20 r21 : S50000x64.Idx → EReal) = xG m c) (h3 : r3 = eG m c) (h22 : r22 = wG m c) (h23 : r23 = bG m c)
    (hx : ∀ i, ∃ y : ℝ, xG m c i = (y : EReal)) (hW : ∀ i, ∃ y : ℝ, wG m c i = (y : EReal)) (hb : ∀ i, ∃ y : ℝ, bG m c i = (y : EReal)) :
    (Cert.ReferenceIdeal.ReadP.val_main_v296 (F := Ideal) r0 r3 r6 r7 r8 r9 r18 r19 r20 r21 r22 r23 : S50000x256.Idx → EReal) = (W26 m XX c main_v172 : S50000x256.Idx → EReal)
    ∧ ∀ idx, ∃ y : ℝ, (W26 m XX c main_v172 : S50000x256.Idx → EReal) idx = (y : EReal) :=
  Cert.Bridge.bridge_relu (Kout := (W26 m XX c main_v172 : S50000x256.Idx → EReal)) (Rout := (Cert.ReferenceIdeal.ReadP.val_main_v296 (F := Ideal) r0 r3 r6 r7 r8 r9 r18 r19 r20 r21 r22 r23 : S50000x256.Idx → EReal))
      (x := xG m c) (x' := (Cert.ReferenceIdeal.ReadP.val_main_v183 (F := Ideal) r0 r3 r6 r7 r8 r9 r18 r19 r20 r21 : S50000x64.Idx → EReal)) (aK := agg64 (xG m c) (eG m c)) (aR := Cert.ReferenceIdeal.HandRef.aggR64 (Cert.ReferenceIdeal.ReadP.val_main_v183 (F := Ideal) r0 r3 r6 r7 r8 r9 r18 r19 r20 r21 : S50000x64.Idx → EReal) r3)
      (W := wG m c) (W' := r22) (b := bG m c) (b' := r23)
      (hK := klayerG m c) (hR := Cert.ReferenceIdeal.HandRef.layer7_apply r0 r3 r6 r7 r8 r9 r18 r19 r20 r21 r22 r23)
      (ex := hp) (ea := by rw [hp, h3]; exact Cert.AggSame.agg64_same _ _)
      (eW := h22) (eb := h23)
      (hx := hx) (ha := agg64_real _ _ hx) (hW := hW) (hb := hb)

/-- Layer H: the reference's output is the kernel program's, and it is real. -/
theorem eqH (c : Dev nD) (r1 : S50000x128.Idx → EReal) (r4 : (⟨S2x800000, .i32⟩ : BufTy).Contents (Elt Ideal)) (r10 : S128x128.Idx → EReal) (r11 : S128.Idx → EReal) (r12 : S128.Idx → EReal) (r13 : S128.Idx → EReal) (r18 : S64x128.Idx → EReal) (r19 : S64.Idx → EReal) (r20 : S64.Idx → EReal) (r21 : S64.Idx → EReal) (r24 : S128x64.Idx → EReal) (r25 : S128.Idx → EReal)
    (hp : (Cert.ReferenceIdeal.ReadP.val_main_v229 (F := Ideal) r1 r4 r10 r11 r12 r13 r18 r19 r20 r21 : S50000x64.Idx → EReal) = xH m c) (h4 : r4 = eH m c) (h24 : r24 = wH m c) (h25 : r25 = bH m c)
    (hx : ∀ i, ∃ y : ℝ, xH m c i = (y : EReal)) (hW : ∀ i, ∃ y : ℝ, wH m c i = (y : EReal)) (hb : ∀ i, ∃ y : ℝ, bH m c i = (y : EReal)) :
    (Cert.ReferenceIdeal.ReadP.val_main_v317 (F := Ideal) r1 r4 r10 r11 r12 r13 r18 r19 r20 r21 r24 r25 : S50000x128.Idx → EReal) = (W28 m XX c main_v189 : S50000x128.Idx → EReal)
    ∧ ∀ idx, ∃ y : ℝ, (W28 m XX c main_v189 : S50000x128.Idx → EReal) idx = (y : EReal) :=
  Cert.Bridge.bridge_relu (Kout := (W28 m XX c main_v189 : S50000x128.Idx → EReal)) (Rout := (Cert.ReferenceIdeal.ReadP.val_main_v317 (F := Ideal) r1 r4 r10 r11 r12 r13 r18 r19 r20 r21 r24 r25 : S50000x128.Idx → EReal))
      (x := xH m c) (x' := (Cert.ReferenceIdeal.ReadP.val_main_v229 (F := Ideal) r1 r4 r10 r11 r12 r13 r18 r19 r20 r21 : S50000x64.Idx → EReal)) (aK := agg64 (xH m c) (eH m c)) (aR := Cert.ReferenceIdeal.HandRef.aggR64 (Cert.ReferenceIdeal.ReadP.val_main_v229 (F := Ideal) r1 r4 r10 r11 r12 r13 r18 r19 r20 r21 : S50000x64.Idx → EReal) r4)
      (W := wH m c) (W' := r24) (b := bH m c) (b' := r25)
      (hK := klayerH m c) (hR := Cert.ReferenceIdeal.HandRef.layer8_apply r1 r4 r10 r11 r12 r13 r18 r19 r20 r21 r24 r25)
      (ex := hp) (ea := by rw [hp, h4]; exact Cert.AggSame.agg64_same _ _)
      (eW := h24) (eb := h25)
      (hx := hx) (ha := agg64_real _ _ hx) (hW := hW) (hb := hb)

/-! ## The claim's last conjunct -/

/-- From memories agreeing on the arguments, under the precondition, both idealized programs run, end with equal
    results, and leave their arguments unchanged. -/
theorem algebraic : Cert.algebraic_KernelIdeal_ReferenceIdeal := by
  intro m ρ m' ρ' hpre hag
  refine ⟨fun c => W29 m XX c main_v155, fun c => W29 m XX c main_v190, fun c => W29 m XX c main_v172,
    fun c => W29 m XX c main_v189, run_vals m ρ, ?_⟩
  refine (θ_run Cert.ReferenceIdeal.defs _ _).mono (fun r h c => ?_) (Cert.ReferenceIdeal.HandRun.ref_run m' ρ')
  -- the arguments agree, read as plain arrays
  have a0 : (m' ((c.tc : Thread Cert.ReferenceIdeal.nD Cert.ReferenceIdeal.τ).loc Cert.ReferenceIdeal.main_arg0) : S50000x256.Idx → EReal) = W0 m c main_arg0 := (hag c).1
  have a1 : (m' ((c.tc : Thread Cert.ReferenceIdeal.nD Cert.ReferenceIdeal.τ).loc Cert.ReferenceIdeal.main_arg1) : S50000x128.Idx → EReal) = W0 m c main_arg1 := (hag c).2.1
  have a2 : (m' ((c.tc : Thread Cert.ReferenceIdeal.nD Cert.ReferenceIdeal.τ).loc Cert.ReferenceIdeal.main_arg2) : S50000x256.Idx → EReal) = W0 m c main_arg2 := (hag c).2.2.1
  have a3 : (m' ((c.tc : Thread Cert.ReferenceIdeal.nD Cert.ReferenceIdeal.τ).loc Cert.ReferenceIdeal.main_arg3) : (⟨S2x800000, .i32⟩ : BufTy).Contents (Elt Ideal)) = W0 m c main_arg3 := (hag c).2.2.2.1
  have a4 : (m' ((c.tc : Thread Cert.ReferenceIdeal.nD Cert.ReferenceIdeal.τ).loc Cert.ReferenceIdeal.main_arg4) : (⟨S2x800000, .i32⟩ : BufTy).Contents (Elt Ideal)) = W0 m c main_arg4 := (hag c).2.2.2.2.1
  have a5 : (m' ((c.tc : Thread Cert.ReferenceIdeal.nD Cert.ReferenceIdeal.τ).loc Cert.ReferenceIdeal.main_arg5) : (⟨S2x800000, .i32⟩ : BufTy).Contents (Elt Ideal)) = W0 m c main_arg5 := (hag c).2.2.2.2.2.1
  have a6 : (m' ((c.tc : Thread Cert.ReferenceIdeal.nD Cert.ReferenceIdeal.τ).loc Cert.ReferenceIdeal.main_arg6) : S128x256.Idx → EReal) = W0 m c main_arg6 := (hag c).2.2.2.2.2.2.1
  have a7 : (m' ((c.tc : Thread Cert.ReferenceIdeal.nD Cert.ReferenceIdeal.τ).loc Cert.ReferenceIdeal.main_arg7) : S128.Idx → EReal) = W0 m c main_arg7 := (hag c).2.2.2.2.2.2.2.1
  have a8 : (m' ((c.tc : Thread Cert.ReferenceIdeal.nD Cert.ReferenceIdeal.τ).loc Cert.ReferenceIdeal.main_arg8) : S128.Idx → EReal) = W0 m c main_arg8 := (hag c).2.2.2.2.2.2.2.2.1
  have a9 : (m' ((c.tc : Thread Cert.ReferenceIdeal.nD Cert.ReferenceIdeal.τ).loc Cert.ReferenceIdeal.main_arg9) : S128.Idx → EReal) = W0 m c main_arg9 := (hag c).2.2.2.2.2.2.2.2.2.1
  have a10 : (m' ((c.tc : Thread Cert.ReferenceIdeal.nD Cert.ReferenceIdeal.τ).loc Cert.ReferenceIdeal.main_arg10) : S128x128.Idx → EReal) = W0 m c main_arg10 := (hag c).2.2.2.2.2.2.2.2.2.2.1
  have a11 : (m' ((c.tc : Thread Cert.ReferenceIdeal.nD Cert.ReferenceIdeal.τ).loc Cert.ReferenceIdeal.main_arg11) : S128.Idx → EReal) = W0 m c main_arg11 := (hag c).2.2.2.2.2.2.2.2.2.2.2.1
  have a12 : (m' ((c.tc : Thread Cert.ReferenceIdeal.nD Cert.ReferenceIdeal.τ).loc Cert.ReferenceIdeal.main_arg12) : S128.Idx → EReal) = W0 m c main_arg12 := (hag c).2.2.2.2.2.2.2.2.2.2.2.2.1
  have a13 : (m' ((c.tc : Thread Cert.ReferenceIdeal.nD Cert.ReferenceIdeal.τ).loc Cert.ReferenceIdeal.main_arg13) : S128.Idx → EReal) = W0 m c main_arg13 := (hag c).2.2.2.2.2.2.2.2.2.2.2.2.2.1
  have a14 : (m' ((c.tc : Thread Cert.ReferenceIdeal.nD Cert.ReferenceIdeal.τ).loc Cert.ReferenceIdeal.main_arg14) : S128x256.Idx → EReal) = W0 m c main_arg14 := (hag c).2.2.2.2.2.2.2.2.2.2.2.2.2.2.1
  have a15 : (m' ((c.tc : Thread Cert.ReferenceIdeal.nD Cert.ReferenceIdeal.τ).loc Cert.ReferenceIdeal.main_arg15) : S128.Idx → EReal) = W0 m c main_arg15 := (hag c).2.2.2.2.2.2.2.2.2.2.2.2.2.2.2.1
  have a16 : (m' ((c.tc : Thread Cert.ReferenceIdeal.nD Cert.ReferenceIdeal.τ).loc Cert.ReferenceIdeal.main_arg16) : S128.Idx → EReal) = W0 m c main_arg16 := (hag c).2.2.2.2.2.2.2.2.2.2.2.2.2.2.2.2.1
  have a17 : (m' ((c.tc : Thread Cert.ReferenceIdeal.nD Cert.ReferenceIdeal.τ).loc Cert.ReferenceIdeal.main_arg17) : S128.Idx → EReal) = W0 m c main_arg17 := (hag c).2.2.2.2.2.2.2.2.2.2.2.2.2.2.2.2.2.1
  have a18 : (m' ((c.tc : Thread Cert.ReferenceIdeal.nD Cert.ReferenceIdeal.τ).loc Cert.ReferenceIdeal.main_arg18) : S64x128.Idx → EReal) = W0 m c main_arg18 := (hag c).2.2.2.2.2.2.2.2.2.2.2.2.2.2.2.2.2.2.1
  have a19 : (m' ((c.tc : Thread Cert.ReferenceIdeal.nD Cert.ReferenceIdeal.τ).loc Cert.ReferenceIdeal.main_arg19) : S64.Idx → EReal) = W0 m c main_arg19 := (hag c).2.2.2.2.2.2.2.2.2.2.2.2.2.2.2.2.2.2.2.1
  have a20 : (m' ((c.tc : Thread Cert.ReferenceIdeal.nD Cert.ReferenceIdeal.τ).loc Cert.ReferenceIdeal.main_arg20) : S64.Idx → EReal) = W0 m c main_arg20 := (hag c).2.2.2.2.2.2.2.2.2.2.2.2.2.2.2.2.2.2.2.2.1
  have a21 : (m' ((c.tc : Thread Cert.ReferenceIdeal.nD Cert.ReferenceIdeal.τ).loc Cert.ReferenceIdeal.main_arg21) : S64.Idx → EReal) = W0 m c main_arg21 := (hag c).2.2.2.2.2.2.2.2.2.2.2.2.2.2.2.2.2.2.2.2.2.1
  have a22 : (m' ((c.tc : Thread Cert.ReferenceIdeal.nD Cert.ReferenceIdeal.τ).loc Cert.ReferenceIdeal.main_arg22) : S256x64.Idx → EReal) = W0 m c main_arg22 := (hag c).2.2.2.2.2.2.2.2.2.2.2.2.2.2.2.2.2.2.2.2.2.2.1
  have a23 : (m' ((c.tc : Thread Cert.ReferenceIdeal.nD Cert.ReferenceIdeal.τ).loc Cert.ReferenceIdeal.main_arg23) : S256.Idx → EReal) = W0 m c main_arg23 := (hag c).2.2.2.2.2.2.2.2.2.2.2.2.2.2.2.2.2.2.2.2.2.2.2.1
  have a24 : (m' ((c.tc : Thread Cert.ReferenceIdeal.nD Cert.ReferenceIdeal.τ).loc Cert.ReferenceIdeal.main_arg24) : S128x64.Idx → EReal) = W0 m c main_arg24 := (hag c).2.2.2.2.2.2.2.2.2.2.2.2.2.2.2.2.2.2.2.2.2.2.2.2.1
  have a25 : (m' ((c.tc : Thread Cert.ReferenceIdeal.nD Cert.ReferenceIdeal.τ).loc Cert.ReferenceIdeal.main_arg25) : S128.Idx → EReal) = W0 m c main_arg25 := (hag c).2.2.2.2.2.2.2.2.2.2.2.2.2.2.2.2.2.2.2.2.2.2.2.2.2
  have EA := eqA m c _ _ _ _ _ _ a0 a3 a6 a7 a8 a9 (Cert.FiniteIn.real_arg0 m hpre c) (Cert.FiniteIn.real_arg6 m hpre c) (Cert.FiniteIn.real_arg7 m hpre c) (Cert.FiniteIn.real_arg8 m hpre c) (Cert.FiniteIn.real_arg9 m hpre c)
  have EB := eqB m c _ _ _ _ _ _ a1 a4 a10 a11 a12 a13 (Cert.FiniteIn.real_arg1 m hpre c) (Cert.FiniteIn.real_arg10 m hpre c) (Cert.FiniteIn.real_arg11 m hpre c) (Cert.FiniteIn.real_arg12 m hpre c) (Cert.FiniteIn.real_arg13 m hpre c)
  have EC := eqC m c _ _ _ _ _ _ a2 a5 a14 a15 a16 a17 (Cert.FiniteIn.real_arg2 m hpre c) (Cert.FiniteIn.real_arg14 m hpre c) (Cert.FiniteIn.real_arg15 m hpre c) (Cert.FiniteIn.real_arg16 m hpre c) (Cert.FiniteIn.real_arg17 m hpre c)
  have ED := eqD m c _ _ _ _ _ _ _ _ _ _ EA.1 a3 a18 a19 a20 a21 EA.2 (Cert.FiniteIn.real_arg18 m hpre c) (Cert.FiniteIn.real_arg19 m hpre c) (Cert.FiniteIn.real_arg20 m hpre c) (Cert.FiniteIn.real_arg21 m hpre c)
  have EE := eqE m c _ _ _ _ _ _ _ _ _ _ EB.1 a4 a18 a19 a20 a21 EB.2 (Cert.FiniteIn.real_arg18 m hpre c) (Cert.FiniteIn.real_arg19 m hpre c) (Cert.FiniteIn.real_arg20 m hpre c) (Cert.FiniteIn.real_arg21 m hpre c)
  have EF := eqF m c _ _ _ _ _ _ _ _ _ _ EC.1 a5 a18 a19 a20 a21 EC.2 (Cert.FiniteIn.real_arg18 m hpre c) (Cert.FiniteIn.real_arg19 m hpre c) (Cert.FiniteIn.real_arg20 m hpre c) (Cert.FiniteIn.real_arg21 m hpre c)
  have EG := eqG m c _ _ _ _ _ _ _ _ _ _ _ _ ED.1 a3 a22 a23 ED.2 (Cert.FiniteIn.real_arg22 m hpre c) (Cert.FiniteIn.real_arg23 m hpre c)
  have EH := eqH m c _ _ _ _ _ _ _ _ _ _ _ _ EE.1 a4 a24 a25 EE.2 (Cert.FiniteIn.real_arg24 m hpre c) (Cert.FiniteIn.real_arg25 m hpre c)
  obtain ⟨h0, h1, h2, h3, ha⟩ := h c
  refine ⟨h0.trans ?_, h1.trans ?_, h2.trans ?_, h3.trans ?_, ha⟩
  · -- the first result: the sixth layer's output, carried to the end
    exact EF.1.trans (cy_main_v155_24_29 (F := Ideal) m c).symm
  · -- the second result: the fourth and fifth layers' outputs, one above the other — the same join in both programs
    have e1 := ED.1.trans (cy_main_v103_16_28 (F := Ideal) m c).symm
    have e2 := EE.1.trans (cy_main_v129_20_28 (F := Ideal) m c).symm
    rw [Cert.ReferenceIdeal.HandRef.val_main_v318_fn, e1, e2]
    exact (hostOps14_v190 (W28 m XX c)).symm
  · -- the third result: the seventh layer's output
    exact EG.1.trans (cy_main_v172_26_29 (F := Ideal) m c).symm
  · -- the fourth result: the eighth layer's output
    exact EH.1.trans (cy_main_v189_28_29 (F := Ideal) m c).symm

end Cert.Proof.Final

end
-- ==== Proof.lean ====
/-
  Eight graph layers: each gathers a node's neighbour rows and adds them up (on the host, the same operations in both
  programs), adds the node's own row, applies a linear map and a bias; six of the layers then normalize each column over
  the 50000 nodes (training-mode batch normalization) before `max · 0`, the last two apply `max · 0` directly. The kernel
  program computes each layer's linear part in row tiles of 5000 on the device, accumulating the column sums of the
  values and of their squares across the ten tiles, forms the column variance as the mean of the squares minus the
  squared mean on the host, and normalizes in a second pass over the tiles; the reference forms the variance as the mean
  of the squared deviations. Read on the extended reals the two variances agree on real data, and under the
  precondition (every float input finite) every value either program forms is real: the aggregation of real rows is
  real, a finite sum of products of reals is real, the variance is nonnegative and `ε` positive, so the reciprocal
  square root is real. Hence the four returned arrays are equal, entry by entry.

  The frames: each program runs to its end, nothing faulting, and leaves its arguments as launched. For the two printings
  of the kernel program this is the run of its fourteen device regions and fifteen host stretches, chained through the
  contents of every buffer between two items; for the reference it is the run of its 389 host operations.
  The idealization rewrote nothing, so the preservation conjunct is `True`.
-/
import proofs.«144613_j17471926960174_1_alg».proof.Defs
import proofs.«144613_j17471926960174_1_alg».proof.Proof.Gen.Kernel
import proofs.«144613_j17471926960174_1_alg».proof.Proof.Gen.KernelIdeal
import proofs.«144613_j17471926960174_1_alg».proof.Proof.Gen.ReferenceIdeal
import proofs.«144613_j17471926960174_1_alg».proof.Proof.Gen.Pre_finite_inputs
import proofs.«144613_j17471926960174_1_alg».proof.Proof.K_KRun
import proofs.«144613_j17471926960174_1_alg».proof.Proof.KRun
import proofs.«144613_j17471926960174_1_alg».proof.Proof.RefFinal
import proofs.«144613_j17471926960174_1_alg».proof.Proof.Final
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Hand.frame_all (F := Bits) m ρ

/-- So does its idealization, read on the extended reals. -/
theorem frame_kernelIdeal : Cert.frame_KernelIdeal := fun m ρ _ => Cert.KernelIdeal.Hand.frame_all (F := Ideal) m ρ

/-- So does the reference: its run names every buffer at the end; the arguments' part is the frame. -/
theorem frame_referenceIdeal : Cert.frame_ReferenceIdeal := fun m ρ _ =>
  (θ_run Cert.ReferenceIdeal.defs _ _).mono (fun _ h c => (h c).2.2.2.2) (Cert.ReferenceIdeal.HandRun.ref_run m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Final.algebraic⟩

end Cert.Proof

end
